-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1 : Shape := ⟨1, ![1]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1024x1024 .f32) (main_arg1 : FVec F S1 .f32) (main_arg2 : FVec F S1 .f32) (main_arg3 : FVec F S1 .f32) (main_arg4 : FVec F S1 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S1024x1024 : Shape := ⟨2, ![1024, 1024]⟩
abbrev S1 : Shape := ⟨1, ![1]⟩
abbrev S_ : Shape := ⟨0, ![]⟩
abbrev S1062x1062 : Shape := ⟨2, ![1062, 1062]⟩
abbrev S70x1062 : Shape := ⟨2, ![70, 1062]⟩
abbrev S1x70x1062 : Shape := ⟨3, ![1, 70, 1062]⟩
abbrev S16x70x1062 : Shape := ⟨3, ![16, 70, 1062]⟩
abbrev S32x70x1062 : Shape := ⟨3, ![32, 70, 1062]⟩
abbrev S32x1024 : Shape := ⟨2, ![32, 1024]⟩
abbrev S1x32x1024 : Shape := ⟨3, ![1, 32, 1024]⟩

abbrev nBuf : Space → Nat
  | .hbm => 147
  | .vmem => 16
  | .smem => 0
  | _ => 0

abbrev hbmTy0_0 (i : Nat) : BufTy := match i % 128 with
  | 0 => ⟨S1024x1024, .f32⟩
  | 1 => ⟨S1, .f32⟩
  | 2 => ⟨S1, .f32⟩
  | 3 => ⟨S1, .f32⟩
  | 4 => ⟨S1, .f32⟩
  | 5 => ⟨S_, .f32⟩
  | 6 => ⟨S_, .f32⟩
  | 7 => ⟨S1062x1062, .f32⟩
  | 8 => ⟨S70x1062, .f32⟩
  | 9 => ⟨S70x1062, .f32⟩
  | 10 => ⟨S70x1062, .f32⟩
  | 11 => ⟨S70x1062, .f32⟩
  | 12 => ⟨S70x1062, .f32⟩
  | 13 => ⟨S70x1062, .f32⟩
  | 14 => ⟨S70x1062, .f32⟩
  | 15 => ⟨S70x1062, .f32⟩
  | 16 => ⟨S70x1062, .f32⟩
  | 17 => ⟨S70x1062, .f32⟩
  | 18 => ⟨S70x1062, .f32⟩
  | 19 => ⟨S70x1062, .f32⟩
  | 20 => ⟨S70x1062, .f32⟩
  | 21 => ⟨S70x1062, .f32⟩
  | 22 => ⟨S70x1062, .f32⟩
  | 23 => ⟨S70x1062, .f32⟩
  | 24 => ⟨S70x1062, .f32⟩
  | 25 => ⟨S70x1062, .f32⟩
  | 26 => ⟨S70x1062, .f32⟩
  | 27 => ⟨S70x1062, .f32⟩
  | 28 => ⟨S70x1062, .f32⟩
  | 29 => ⟨S70x1062, .f32⟩
  | 30 => ⟨S70x1062, .f32⟩
  | 31 => ⟨S70x1062, .f32⟩
  | 32 => ⟨S70x1062, .f32⟩
  | 33 => ⟨S70x1062, .f32⟩
  | 34 => ⟨S70x1062, .f32⟩
  | 35 => ⟨S70x1062, .f32⟩
  | 36 => ⟨S70x1062, .f32⟩
  | 37 => ⟨S70x1062, .f32⟩
  | 38 => ⟨S70x1062, .f32⟩
  | 39 => ⟨S70x1062, .f32⟩
  | 40 => ⟨S1x70x1062, .f32⟩
  | 41 => ⟨S1x70x1062, .f32⟩
  | 42 => ⟨S1x70x1062, .f32⟩
  | 43 => ⟨S1x70x1062, .f32⟩
  | 44 => ⟨S1x70x1062, .f32⟩
  | 45 => ⟨S1x70x1062, .f32⟩
  | 46 => ⟨S1x70x1062, .f32⟩
  | 47 => ⟨S1x70x1062, .f32⟩
  | 48 => ⟨S1x70x1062, .f32⟩
  | 49 => ⟨S1x70x1062, .f32⟩
  | 50 => ⟨S1x70x1062, .f32⟩
  | 51 => ⟨S1x70x1062, .f32⟩
  | 52 => ⟨S1x70x1062, .f32⟩
  | 53 => ⟨S1x70x1062, .f32⟩
  | 54 => ⟨S1x70x1062, .f32⟩
  | 55 => ⟨S1x70x1062, .f32⟩
  | 56 => ⟨S1x70x1062, .f32⟩
  | 57 => ⟨S1x70x1062, .f32⟩
  | 58 => ⟨S1x70x1062, .f32⟩
  | 59 => ⟨S1x70x1062, .f32⟩
  | 60 => ⟨S1x70x1062, .f32⟩
  | 61 => ⟨S1x70x1062, .f32⟩
  | 62 => ⟨S1x70x1062, .f32⟩
  | 63 => ⟨S1x70x1062, .f32⟩
  | 64 => ⟨S1x70x1062, .f32⟩
  | 65 => ⟨S1x70x1062, .f32⟩
  | 66 => ⟨S1x70x1062, .f32⟩
  | 67 => ⟨S1x70x1062, .f32⟩
  | 68 => ⟨S1x70x1062, .f32⟩
  | 69 => ⟨S1x70x1062, .f32⟩
  | 70 => ⟨S1x70x1062, .f32⟩
  | 71 => ⟨S1x70x1062, .f32⟩
  | 72 => ⟨S16x70x1062, .f32⟩
  | 73 => ⟨S16x70x1062, .f32⟩
  | 74 => ⟨S32x70x1062, .f32⟩
  | 75 => ⟨S1024x1024, .f32⟩
  | 76 => ⟨S_, .f32⟩
  | 77 => ⟨S_, .f32⟩
  | 78 => ⟨S1062x1062, .f32⟩
  | 79 => ⟨S70x1062, .f32⟩
  | 80 => ⟨S70x1062, .f32⟩
  | 81 => ⟨S70x1062, .f32⟩
  | 82 => ⟨S70x1062, .f32⟩
  | 83 => ⟨S70x1062, .f32⟩
  | 84 => ⟨S70x1062, .f32⟩
  | 85 => ⟨S70x1062, .f32⟩
  | 86 => ⟨S70x1062, .f32⟩
  | 87 => ⟨S70x1062, .f32⟩
  | 88 => ⟨S70x1062, .f32⟩
  | 89 => ⟨S70x1062, .f32⟩
  | 90 => ⟨S70x1062, .f32⟩
  | 91 => ⟨S70x1062, .f32⟩
  | 92 => ⟨S70x1062, .f32⟩
  | 93 => ⟨S70x1062, .f32⟩
  | 94 => ⟨S70x1062, .f32⟩
  | 95 => ⟨S70x1062, .f32⟩
  | 96 => ⟨S70x1062, .f32⟩
  | 97 => ⟨S70x1062, .f32⟩
  | 98 => ⟨S70x1062, .f32⟩
  | 99 => ⟨S70x1062, .f32⟩
  | 100 => ⟨S70x1062, .f32⟩
  | 101 => ⟨S70x1062, .f32⟩
  | 102 => ⟨S70x1062, .f32⟩
  | 103 => ⟨S70x1062, .f32⟩
  | 104 => ⟨S70x1062, .f32⟩
  | 105 => ⟨S70x1062, .f32⟩
  | 106 => ⟨S70x1062, .f32⟩
  | 107 => ⟨S70x1062, .f32⟩
  | 108 => ⟨S70x1062, .f32⟩
  | 109 => ⟨S70x1062, .f32⟩
  | 110 => ⟨S70x1062, .f32⟩
  | 111 => ⟨S1x70x1062, .f32⟩
  | 112 => ⟨S1x70x1062, .f32⟩
  | 113 => ⟨S1x70x1062, .f32⟩
  | 114 => ⟨S1x70x1062, .f32⟩
  | 115 => ⟨S1x70x1062, .f32⟩
  | 116 => ⟨S1x70x1062, .f32⟩
  | 117 => ⟨S1x70x1062, .f32⟩
  | 118 => ⟨S1x70x1062, .f32⟩
  | 119 => ⟨S1x70x1062, .f32⟩
  | 120 => ⟨S1x70x1062, .f32⟩
  | 121 => ⟨S1x70x1062, .f32⟩
  | 122 => ⟨S1x70x1062, .f32⟩
  | 123 => ⟨S1x70x1062, .f32⟩
  | 124 => ⟨S1x70x1062, .f32⟩
  | 125 => ⟨S1x70x1062, .f32⟩
  | 126 => ⟨S1x70x1062, .f32⟩
  | 127 => ⟨S1x70x1062, .f32⟩
  | _ => ⟨S1024x1024, .f32⟩

abbrev hbmTy0_1 (i : Nat) : BufTy := match i % 128 with
  | 0 => ⟨S1x70x1062, .f32⟩
  | 1 => ⟨S1x70x1062, .f32⟩
  | 2 => ⟨S1x70x1062, .f32⟩
  | 3 => ⟨S1x70x1062, .f32⟩
  | 4 => ⟨S1x70x1062, .f32⟩
  | 5 => ⟨S1x70x1062, .f32⟩
  | 6 => ⟨S1x70x1062, .f32⟩
  | 7 => ⟨S1x70x1062, .f32⟩
  | 8 => ⟨S1x70x1062, .f32⟩
  | 9 => ⟨S1x70x1062, .f32⟩
  | 10 => ⟨S1x70x1062, .f32⟩
  | 11 => ⟨S1x70x1062, .f32⟩
  | 12 => ⟨S1x70x1062, .f32⟩
  | 13 => ⟨S1x70x1062, .f32⟩
  | 14 => ⟨S1x70x1062, .f32⟩
  | 15 => ⟨S16x70x1062, .f32⟩
  | 16 => ⟨S16x70x1062, .f32⟩
  | 17 => ⟨S32x70x1062, .f32⟩
  | 18 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | .local _ .vmem, ⟨0, _⟩ => ⟨S1x70x1062, .f32⟩
  | .local _ .vmem, ⟨1, _⟩ => ⟨S1x70x1062, .f32⟩
  | .local _ .vmem, ⟨2, _⟩ => ⟨S1, .f32⟩
  | .local _ .vmem, ⟨3, _⟩ => ⟨S1, .f32⟩
  | .local _ .vmem, ⟨4, _⟩ => ⟨S1, .f32⟩
  | .local _ .vmem, ⟨5, _⟩ => ⟨S1, .f32⟩
  | .local _ .vmem, ⟨6, _⟩ => ⟨S32x1024, .f32⟩
  | .local _ .vmem, ⟨7, _⟩ => ⟨S32x1024, .f32⟩
  | .local _ .vmem, ⟨8, _⟩ => ⟨S1x70x1062, .f32⟩
  | .local _ .vmem, ⟨9, _⟩ => ⟨S1x70x1062, .f32⟩
  | .local _ .vmem, ⟨10, _⟩ => ⟨S1, .f32⟩
  | .local _ .vmem, ⟨11, _⟩ => ⟨S1, .f32⟩
  | .local _ .vmem, ⟨12, _⟩ => ⟨S1, .f32⟩
  | .local _ .vmem, ⟨13, _⟩ => ⟨S1, .f32⟩
  | .local _ .vmem, ⟨14, _⟩ => ⟨S32x1024, .f32⟩
  | .local _ .vmem, ⟨15, _⟩ => ⟨S32x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_0 : Ref sig .tc := ⟨.hbm, 76, rfl⟩
abbrev main_call1_v0 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x70x1062 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x70x1062 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S32x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  pads_S1024x1024_S1062x1062_19190_19190 : S1024x1024.Pads (![19, 19] : Fin 2 → Nat) ![19, 19] ![0, 0] S1062x1062
  h_S_ : 0 < S_.numel
  slices_S1062x1062_S70x1062_0_0 : S1062x1062.Slices ![0, 0] S70x1062
  slices_S1062x1062_S70x1062_32_0 : S1062x1062.Slices ![32, 0] S70x1062
  slices_S1062x1062_S70x1062_64_0 : S1062x1062.Slices ![64, 0] S70x1062
  slices_S1062x1062_S70x1062_96_0 : S1062x1062.Slices ![96, 0] S70x1062
  slices_S1062x1062_S70x1062_128_0 : S1062x1062.Slices ![128, 0] S70x1062
  slices_S1062x1062_S70x1062_160_0 : S1062x1062.Slices ![160, 0] S70x1062
  slices_S1062x1062_S70x1062_192_0 : S1062x1062.Slices ![192, 0] S70x1062
  slices_S1062x1062_S70x1062_224_0 : S1062x1062.Slices ![224, 0] S70x1062
  slices_S1062x1062_S70x1062_256_0 : S1062x1062.Slices ![256, 0] S70x1062
  slices_S1062x1062_S70x1062_288_0 : S1062x1062.Slices ![288, 0] S70x1062
  slices_S1062x1062_S70x1062_320_0 : S1062x1062.Slices ![320, 0] S70x1062
  slices_S1062x1062_S70x1062_352_0 : S1062x1062.Slices ![352, 0] S70x1062
  slices_S1062x1062_S70x1062_384_0 : S1062x1062.Slices ![384, 0] S70x1062
  slices_S1062x1062_S70x1062_416_0 : S1062x1062.Slices ![416, 0] S70x1062
  slices_S1062x1062_S70x1062_448_0 : S1062x1062.Slices ![448, 0] S70x1062
  slices_S1062x1062_S70x1062_480_0 : S1062x1062.Slices ![480, 0] S70x1062
  slices_S1062x1062_S70x1062_512_0 : S1062x1062.Slices ![512, 0] S70x1062
  slices_S1062x1062_S70x1062_544_0 : S1062x1062.Slices ![544, 0] S70x1062
  slices_S1062x1062_S70x1062_576_0 : S1062x1062.Slices ![576, 0] S70x1062
  slices_S1062x1062_S70x1062_608_0 : S1062x1062.Slices ![608, 0] S70x1062
  slices_S1062x1062_S70x1062_640_0 : S1062x1062.Slices ![640, 0] S70x1062
  slices_S1062x1062_S70x1062_672_0 : S1062x1062.Slices ![672, 0] S70x1062
  slices_S1062x1062_S70x1062_704_0 : S1062x1062.Slices ![704, 0] S70x1062
  slices_S1062x1062_S70x1062_736_0 : S1062x1062.Slices ![736, 0] S70x1062
  slices_S1062x1062_S70x1062_768_0 : S1062x1062.Slices ![768, 0] S70x1062
  slices_S1062x1062_S70x1062_800_0 : S1062x1062.Slices ![800, 0] S70x1062
  slices_S1062x1062_S70x1062_832_0 : S1062x1062.Slices ![832, 0] S70x1062
  slices_S1062x1062_S70x1062_864_0 : S1062x1062.Slices ![864, 0] S70x1062
  slices_S1062x1062_S70x1062_896_0 : S1062x1062.Slices ![896, 0] S70x1062
  slices_S1062x1062_S70x1062_928_0 : S1062x1062.Slices ![928, 0] S70x1062
  slices_S1062x1062_S70x1062_960_0 : S1062x1062.Slices ![960, 0] S70x1062
  slices_S1062x1062_S70x1062_992_0 : S1062x1062.Slices ![992, 0] S70x1062
  bcast_S70x1062_S1x70x1062_1_2 : S70x1062.BroadcastsInDim S1x70x1062 (![1, 2] : Fin 2 → Fin S1x70x1062.rank)
  concatenates_S1x70x1062_S1x70x1062_S1x70x1062_S1x70x1062_S1x70x1062_S1x70x1062_S1x70x1062_S1x70x1062_S1x70x1062_S1x70x1062_S1x70x1062_S1x70x1062_S1x70x1062_S1x70x1062_S1x70x1062_S1x70x1062_S16x70x1062_d0 : Shape.Concatenates [S1x70x1062, S1x70x1062, S1x70x1062, S1x70x1062, S1x70x1062, S1x70x1062, S1x70x1062, S1x70x1062, S1x70x1062, S1x70x1062, S1x70x1062, S1x70x1062, S1x70x1062, S1x70x1062, S1x70x1062, S1x70x1062] S16x70x1062 0
  concatenates_S16x70x1062_S16x70x1062_S32x70x1062_d0 : Shape.Concatenates [S16x70x1062, S16x70x1062] S32x70x1062 0
  inb_S1_S1_0 : ∀ a, (![0] : Fin 1 → Nat) a + S1.size a ≤ S1.size a
  h_S1 : 0 < S1.numel
  inpos_S1_p0 : ∀ a, (![0] : Fin 1 → Nat) a < S1.size a
  inb_S1x70x1062_S1x32x1024_0_19_19 : ∀ a, (![0, 19, 19] : Fin 3 → Nat) a + S1x32x1024.size a ≤ S1x70x1062.size a
  h_S1x32x1024 : 0 < S1x32x1024.numel
  shapeCasts_S1x32x1024_S32x1024 : S1x32x1024.ShapeCasts S32x1024
  inb_S1x70x1062_S1x32x1024_0_12_17 : ∀ a, (![0, 12, 17] : Fin 3 → Nat) a + S1x32x1024.size a ≤ S1x70x1062.size a
  inb_S1x70x1062_S1x32x1024_0_12_18 : ∀ a, (![0, 12, 18] : Fin 3 → Nat) a + S1x32x1024.size a ≤ S1x70x1062.size a
  inb_S1x70x1062_S1x32x1024_0_12_19 : ∀ a, (![0, 12, 19] : Fin 3 → Nat) a + S1x32x1024.size a ≤ S1x70x1062.size a
  inb_S1x70x1062_S1x32x1024_0_12_20 : ∀ a, (![0, 12, 20] : Fin 3 → Nat) a + S1x32x1024.size a ≤ S1x70x1062.size a
  inb_S1x70x1062_S1x32x1024_0_12_21 : ∀ a, (![0, 12, 21] : Fin 3 → Nat) a + S1x32x1024.size a ≤ S1x70x1062.size a
  inb_S1x70x1062_S1x32x1024_0_13_15 : ∀ a, (![0, 13, 15] : Fin 3 → Nat) a + S1x32x1024.size a ≤ S1x70x1062.size a
  inb_S1x70x1062_S1x32x1024_0_13_16 : ∀ a, (![0, 13, 16] : Fin 3 → Nat) a + S1x32x1024.size a ≤ S1x70x1062.size a
  inb_S1x70x1062_S1x32x1024_0_13_22 : ∀ a, (![0, 13, 22] : Fin 3 → Nat) a + S1x32x1024.size a ≤ S1x70x1062.size a
  inb_S1x70x1062_S1x32x1024_0_13_23 : ∀ a, (![0, 13, 23] : Fin 3 → Nat) a + S1x32x1024.size a ≤ S1x70x1062.size a
  inb_S1x70x1062_S1x32x1024_0_14_14 : ∀ a, (![0, 14, 14] : Fin 3 → Nat) a + S1x32x1024.size a ≤ S1x70x1062.size a
  inb_S1x70x1062_S1x32x1024_0_14_24 : ∀ a, (![0, 14, 24] : Fin 3 → Nat) a + S1x32x1024.size a ≤ S1x70x1062.size a
  inb_S1x70x1062_S1x32x1024_0_15_13 : ∀ a, (![0, 15, 13] : Fin 3 → Nat) a + S1x32x1024.size a ≤ S1x70x1062.size a
  inb_S1x70x1062_S1x32x1024_0_15_25 : ∀ a, (![0, 15, 25] : Fin 3 → Nat) a + S1x32x1024.size a ≤ S1x70x1062.size a
  inb_S1x70x1062_S1x32x1024_0_16_13 : ∀ a, (![0, 16, 13] : Fin 3 → Nat) a + S1x32x1024.size a ≤ S1x70x1062.size a
  inb_S1x70x1062_S1x32x1024_0_16_25 : ∀ a, (![0, 16, 25] : Fin 3 → Nat) a + S1x32x1024.size a ≤ S1x70x1062.size a
  inb_S1x70x1062_S1x32x1024_0_17_12 : ∀ a, (![0, 17, 12] : Fin 3 → Nat) a + S1x32x1024.size a ≤ S1x70x1062.size a
  inb_S1x70x1062_S1x32x1024_0_17_26 : ∀ a, (![0, 17, 26] : Fin 3 → Nat) a + S1x32x1024.size a ≤ S1x70x1062.size a
  inb_S1x70x1062_S1x32x1024_0_18_12 : ∀ a, (![0, 18, 12] : Fin 3 → Nat) a + S1x32x1024.size a ≤ S1x70x1062.size a
  inb_S1x70x1062_S1x32x1024_0_18_26 : ∀ a, (![0, 18, 26] : Fin 3 → Nat) a + S1x32x1024.size a ≤ S1x70x1062.size a
  inb_S1x70x1062_S1x32x1024_0_19_12 : ∀ a, (![0, 19, 12] : Fin 3 → Nat) a + S1x32x1024.size a ≤ S1x70x1062.size a
  inb_S1x70x1062_S1x32x1024_0_19_26 : ∀ a, (![0, 19, 26] : Fin 3 → Nat) a + S1x32x1024.size a ≤ S1x70x1062.size a
  inb_S1x70x1062_S1x32x1024_0_20_12 : ∀ a, (![0, 20, 12] : Fin 3 → Nat) a + S1x32x1024.size a ≤ S1x70x1062.size a
  inb_S1x70x1062_S1x32x1024_0_20_26 : ∀ a, (![0, 20, 26] : Fin 3 → Nat) a + S1x32x1024.size a ≤ S1x70x1062.size a
  inb_S1x70x1062_S1x32x1024_0_21_12 : ∀ a, (![0, 21, 12] : Fin 3 → Nat) a + S1x32x1024.size a ≤ S1x70x1062.size a
  inb_S1x70x1062_S1x32x1024_0_21_26 : ∀ a, (![0, 21, 26] : Fin 3 → Nat) a + S1x32x1024.size a ≤ S1x70x1062.size a
  inb_S1x70x1062_S1x32x1024_0_22_13 : ∀ a, (![0, 22, 13] : Fin 3 → Nat) a + S1x32x1024.size a ≤ S1x70x1062.size a
  inb_S1x70x1062_S1x32x1024_0_22_25 : ∀ a, (![0, 22, 25] : Fin 3 → Nat) a + S1x32x1024.size a ≤ S1x70x1062.size a
  inb_S1x70x1062_S1x32x1024_0_23_13 : ∀ a, (![0, 23, 13] : Fin 3 → Nat) a + S1x32x1024.size a ≤ S1x70x1062.size a
  inb_S1x70x1062_S1x32x1024_0_23_25 : ∀ a, (![0, 23, 25] : Fin 3 → Nat) a + S1x32x1024.size a ≤ S1x70x1062.size a
  inb_S1x70x1062_S1x32x1024_0_24_14 : ∀ a, (![0, 24, 14] : Fin 3 → Nat) a + S1x32x1024.size a ≤ S1x70x1062.size a
  inb_S1x70x1062_S1x32x1024_0_24_24 : ∀ a, (![0, 24, 24] : Fin 3 → Nat) a + S1x32x1024.size a ≤ S1x70x1062.size a
  inb_S1x70x1062_S1x32x1024_0_25_15 : ∀ a, (![0, 25, 15] : Fin 3 → Nat) a + S1x32x1024.size a ≤ S1x70x1062.size a
  inb_S1x70x1062_S1x32x1024_0_25_16 : ∀ a, (![0, 25, 16] : Fin 3 → Nat) a + S1x32x1024.size a ≤ S1x70x1062.size a
  inb_S1x70x1062_S1x32x1024_0_25_22 : ∀ a, (![0, 25, 22] : Fin 3 → Nat) a + S1x32x1024.size a ≤ S1x70x1062.size a
  inb_S1x70x1062_S1x32x1024_0_25_23 : ∀ a, (![0, 25, 23] : Fin 3 → Nat) a + S1x32x1024.size a ≤ S1x70x1062.size a
  inb_S1x70x1062_S1x32x1024_0_26_17 : ∀ a, (![0, 26, 17] : Fin 3 → Nat) a + S1x32x1024.size a ≤ S1x70x1062.size a
  inb_S1x70x1062_S1x32x1024_0_26_18 : ∀ a, (![0, 26, 18] : Fin 3 → Nat) a + S1x32x1024.size a ≤ S1x70x1062.size a
  inb_S1x70x1062_S1x32x1024_0_26_19 : ∀ a, (![0, 26, 19] : Fin 3 → Nat) a + S1x32x1024.size a ≤ S1x70x1062.size a
  inb_S1x70x1062_S1x32x1024_0_26_20 : ∀ a, (![0, 26, 20] : Fin 3 → Nat) a + S1x32x1024.size a ≤ S1x70x1062.size a
  inb_S1x70x1062_S1x32x1024_0_26_21 : ∀ a, (![0, 26, 21] : Fin 3 → Nat) a + S1x32x1024.size a ≤ S1x70x1062.size a
  inb_S1x70x1062_S1x32x1024_0_8_16 : ∀ a, (![0, 8, 16] : Fin 3 → Nat) a + S1x32x1024.size a ≤ S1x70x1062.size a
  inb_S1x70x1062_S1x32x1024_0_8_17 : ∀ a, (![0, 8, 17] : Fin 3 → Nat) a + S1x32x1024.size a ≤ S1x70x1062.size a
  inb_S1x70x1062_S1x32x1024_0_8_18 : ∀ a, (![0, 8, 18] : Fin 3 → Nat) a + S1x32x1024.size a ≤ S1x70x1062.size a
  inb_S1x70x1062_S1x32x1024_0_8_19 : ∀ a, (![0, 8, 19] : Fin 3 → Nat) a + S1x32x1024.size a ≤ S1x70x1062.size a
  inb_S1x70x1062_S1x32x1024_0_8_20 : ∀ a, (![0, 8, 20] : Fin 3 → Nat) a + S1x32x1024.size a ≤ S1x70x1062.size a
  inb_S1x70x1062_S1x32x1024_0_8_21 : ∀ a, (![0, 8, 21] : Fin 3 → Nat) a + S1x32x1024.size a ≤ S1x70x1062.size a
  inb_S1x70x1062_S1x32x1024_0_8_22 : ∀ a, (![0, 8, 22] : Fin 3 → Nat) a + S1x32x1024.size a ≤ S1x70x1062.size a
  inb_S1x70x1062_S1x32x1024_0_9_14 : ∀ a, (![0, 9, 14] : Fin 3 → Nat) a + S1x32x1024.size a ≤ S1x70x1062.size a
  inb_S1x70x1062_S1x32x1024_0_9_15 : ∀ a, (![0, 9, 15] : Fin 3 → Nat) a + S1x32x1024.size a ≤ S1x70x1062.size a
  inb_S1x70x1062_S1x32x1024_0_9_23 : ∀ a, (![0, 9, 23] : Fin 3 → Nat) a + S1x32x1024.size a ≤ S1x70x1062.size a
  inb_S1x70x1062_S1x32x1024_0_9_24 : ∀ a, (![0, 9, 24] : Fin 3 → Nat) a + S1x32x1024.size a ≤ S1x70x1062.size a
  inb_S1x70x1062_S1x32x1024_0_10_12 : ∀ a, (![0, 10, 12] : Fin 3 → Nat) a + S1x32x1024.size a ≤ S1x70x1062.size a
  inb_S1x70x1062_S1x32x1024_0_10_13 : ∀ a, (![0, 10, 13] : Fin 3 → Nat) a + S1x32x1024.size a ≤ S1x70x1062.size a
  inb_S1x70x1062_S1x32x1024_0_10_25 : ∀ a, (![0, 10, 25] : Fin 3 → Nat) a + S1x32x1024.size a ≤ S1x70x1062.size a
  inb_S1x70x1062_S1x32x1024_0_10_26 : ∀ a, (![0, 10, 26] : Fin 3 → Nat) a + S1x32x1024.size a ≤ S1x70x1062.size a
  inb_S1x70x1062_S1x32x1024_0_11_11 : ∀ a, (![0, 11, 11] : Fin 3 → Nat) a + S1x32x1024.size a ≤ S1x70x1062.size a
  inb_S1x70x1062_S1x32x1024_0_11_12 : ∀ a, (![0, 11, 12] : Fin 3 → Nat) a + S1x32x1024.size a ≤ S1x70x1062.size a
  inb_S1x70x1062_S1x32x1024_0_11_26 : ∀ a, (![0, 11, 26] : Fin 3 → Nat) a + S1x32x1024.size a ≤ S1x70x1062.size a
  inb_S1x70x1062_S1x32x1024_0_11_27 : ∀ a, (![0, 11, 27] : Fin 3 → Nat) a + S1x32x1024.size a ≤ S1x70x1062.size a
  inb_S1x70x1062_S1x32x1024_0_12_10 : ∀ a, (![0, 12, 10] : Fin 3 → Nat) a + S1x32x1024.size a ≤ S1x70x1062.size a
  inb_S1x70x1062_S1x32x1024_0_12_11 : ∀ a, (![0, 12, 11] : Fin 3 → Nat) a + S1x32x1024.size a ≤ S1x70x1062.size a
  inb_S1x70x1062_S1x32x1024_0_12_27 : ∀ a, (![0, 12, 27] : Fin 3 → Nat) a + S1x32x1024.size a ≤ S1x70x1062.size a
  inb_S1x70x1062_S1x32x1024_0_12_28 : ∀ a, (![0, 12, 28] : Fin 3 → Nat) a + S1x32x1024.size a ≤ S1x70x1062.size a
  inb_S1x70x1062_S1x32x1024_0_13_10 : ∀ a, (![0, 13, 10] : Fin 3 → Nat) a + S1x32x1024.size a ≤ S1x70x1062.size a
  inb_S1x70x1062_S1x32x1024_0_13_28 : ∀ a, (![0, 13, 28] : Fin 3 → Nat) a + S1x32x1024.size a ≤ S1x70x1062.size a
  inb_S1x70x1062_S1x32x1024_0_14_9 : ∀ a, (![0, 14, 9] : Fin 3 → Nat) a + S1x32x1024.size a ≤ S1x70x1062.size a
  inb_S1x70x1062_S1x32x1024_0_14_29 : ∀ a, (![0, 14, 29] : Fin 3 → Nat) a + S1x32x1024.size a ≤ S1x70x1062.size a
  inb_S1x70x1062_S1x32x1024_0_15_9 : ∀ a, (![0, 15, 9] : Fin 3 → Nat) a + S1x32x1024.size a ≤ S1x70x1062.size a
  inb_S1x70x1062_S1x32x1024_0_15_29 : ∀ a, (![0, 15, 29] : Fin 3 → Nat) a + S1x32x1024.size a ≤ S1x70x1062.size a
  inb_S1x70x1062_S1x32x1024_0_16_8 : ∀ a, (![0, 16, 8] : Fin 3 → Nat) a + S1x32x1024.size a ≤ S1x70x1062.size a
  inb_S1x70x1062_S1x32x1024_0_16_30 : ∀ a, (![0, 16, 30] : Fin 3 → Nat) a + S1x32x1024.size a ≤ S1x70x1062.size a
  inb_S1x70x1062_S1x32x1024_0_17_8 : ∀ a, (![0, 17, 8] : Fin 3 → Nat) a + S1x32x1024.size a ≤ S1x70x1062.size a
  inb_S1x70x1062_S1x32x1024_0_17_30 : ∀ a, (![0, 17, 30] : Fin 3 → Nat) a + S1x32x1024.size a ≤ S1x70x1062.size a
  inb_S1x70x1062_S1x32x1024_0_18_8 : ∀ a, (![0, 18, 8] : Fin 3 → Nat) a + S1x32x1024.size a ≤ S1x70x1062.size a
  inb_S1x70x1062_S1x32x1024_0_18_30 : ∀ a, (![0, 18, 30] : Fin 3 → Nat) a + S1x32x1024.size a ≤ S1x70x1062.size a
  inb_S1x70x1062_S1x32x1024_0_19_8 : ∀ a, (![0, 19, 8] : Fin 3 → Nat) a + S1x32x1024.size a ≤ S1x70x1062.size a
  inb_S1x70x1062_S1x32x1024_0_19_30 : ∀ a, (![0, 19, 30] : Fin 3 → Nat) a + S1x32x1024.size a ≤ S1x70x1062.size a
  inb_S1x70x1062_S1x32x1024_0_20_8 : ∀ a, (![0, 20, 8] : Fin 3 → Nat) a + S1x32x1024.size a ≤ S1x70x1062.size a
  inb_S1x70x1062_S1x32x1024_0_20_30 : ∀ a, (![0, 20, 30] : Fin 3 → Nat) a + S1x32x1024.size a ≤ S1x70x1062.size a
  inb_S1x70x1062_S1x32x1024_0_21_8 : ∀ a, (![0, 21, 8] : Fin 3 → Nat) a + S1x32x1024.size a ≤ S1x70x1062.size a
  inb_S1x70x1062_S1x32x1024_0_21_30 : ∀ a, (![0, 21, 30] : Fin 3 → Nat) a + S1x32x1024.size a ≤ S1x70x1062.size a
  inb_S1x70x1062_S1x32x1024_0_22_8 : ∀ a, (![0, 22, 8] : Fin 3 → Nat) a + S1x32x1024.size a ≤ S1x70x1062.size a
  inb_S1x70x1062_S1x32x1024_0_22_30 : ∀ a, (![0, 22, 30] : Fin 3 → Nat) a + S1x32x1024.size a ≤ S1x70x1062.size a
  inb_S1x70x1062_S1x32x1024_0_23_9 : ∀ a, (![0, 23, 9] : Fin 3 → Nat) a + S1x32x1024.size a ≤ S1x70x1062.size a
  inb_S1x70x1062_S1x32x1024_0_23_29 : ∀ a, (![0, 23, 29] : Fin 3 → Nat) a + S1x32x1024.size a ≤ S1x70x1062.size a
  inb_S1x70x1062_S1x32x1024_0_24_9 : ∀ a, (![0, 24, 9] : Fin 3 → Nat) a + S1x32x1024.size a ≤ S1x70x1062.size a
  inb_S1x70x1062_S1x32x1024_0_24_29 : ∀ a, (![0, 24, 29] : Fin 3 → Nat) a + S1x32x1024.size a ≤ S1x70x1062.size a
  inb_S1x70x1062_S1x32x1024_0_25_10 : ∀ a, (![0, 25, 10] : Fin 3 → Nat) a + S1x32x1024.size a ≤ S1x70x1062.size a
  inb_S1x70x1062_S1x32x1024_0_25_28 : ∀ a, (![0, 25, 28] : Fin 3 → Nat) a + S1x32x1024.size a ≤ S1x70x1062.size a
  inb_S1x70x1062_S1x32x1024_0_26_10 : ∀ a, (![0, 26, 10] : Fin 3 → Nat) a + S1x32x1024.size a ≤ S1x70x1062.size a
  inb_S1x70x1062_S1x32x1024_0_26_11 : ∀ a, (![0, 26, 11] : Fin 3 → Nat) a + S1x32x1024.size a ≤ S1x70x1062.size a
  inb_S1x70x1062_S1x32x1024_0_26_27 : ∀ a, (![0, 26, 27] : Fin 3 → Nat) a + S1x32x1024.size a ≤ S1x70x1062.size a
  inb_S1x70x1062_S1x32x1024_0_26_28 : ∀ a, (![0, 26, 28] : Fin 3 → Nat) a + S1x32x1024.size a ≤ S1x70x1062.size a
  inb_S1x70x1062_S1x32x1024_0_27_11 : ∀ a, (![0, 27, 11] : Fin 3 → Nat) a + S1x32x1024.size a ≤ S1x70x1062.size a
  inb_S1x70x1062_S1x32x1024_0_27_12 : ∀ a, (![0, 27, 12] : Fin 3 → Nat) a + S1x32x1024.size a ≤ S1x70x1062.size a
  inb_S1x70x1062_S1x32x1024_0_27_26 : ∀ a, (![0, 27, 26] : Fin 3 → Nat) a + S1x32x1024.size a ≤ S1x70x1062.size a
  inb_S1x70x1062_S1x32x1024_0_27_27 : ∀ a, (![0, 27, 27] : Fin 3 → Nat) a + S1x32x1024.size a ≤ S1x70x1062.size a
  inb_S1x70x1062_S1x32x1024_0_28_12 : ∀ a, (![0, 28, 12] : Fin 3 → Nat) a + S1x32x1024.size a ≤ S1x70x1062.size a
  inb_S1x70x1062_S1x32x1024_0_28_13 : ∀ a, (![0, 28, 13] : Fin 3 → Nat) a + S1x32x1024.size a ≤ S1x70x1062.size a
  inb_S1x70x1062_S1x32x1024_0_28_25 : ∀ a, (![0, 28, 25] : Fin 3 → Nat) a + S1x32x1024.size a ≤ S1x70x1062.size a
  inb_S1x70x1062_S1x32x1024_0_28_26 : ∀ a, (![0, 28, 26] : Fin 3 → Nat) a + S1x32x1024.size a ≤ S1x70x1062.size a
  inb_S1x70x1062_S1x32x1024_0_29_14 : ∀ a, (![0, 29, 14] : Fin 3 → Nat) a + S1x32x1024.size a ≤ S1x70x1062.size a
  inb_S1x70x1062_S1x32x1024_0_29_15 : ∀ a, (![0, 29, 15] : Fin 3 → Nat) a + S1x32x1024.size a ≤ S1x70x1062.size a
  inb_S1x70x1062_S1x32x1024_0_29_23 : ∀ a, (![0, 29, 23] : Fin 3 → Nat) a + S1x32x1024.size a ≤ S1x70x1062.size a
  inb_S1x70x1062_S1x32x1024_0_29_24 : ∀ a, (![0, 29, 24] : Fin 3 → Nat) a + S1x32x1024.size a ≤ S1x70x1062.size a
  inb_S1x70x1062_S1x32x1024_0_30_16 : ∀ a, (![0, 30, 16] : Fin 3 → Nat) a + S1x32x1024.size a ≤ S1x70x1062.size a
  inb_S1x70x1062_S1x32x1024_0_30_17 : ∀ a, (![0, 30, 17] : Fin 3 → Nat) a + S1x32x1024.size a ≤ S1x70x1062.size a
  inb_S1x70x1062_S1x32x1024_0_30_18 : ∀ a, (![0, 30, 18] : Fin 3 → Nat) a + S1x32x1024.size a ≤ S1x70x1062.size a
  inb_S1x70x1062_S1x32x1024_0_30_19 : ∀ a, (![0, 30, 19] : Fin 3 → Nat) a + S1x32x1024.size a ≤ S1x70x1062.size a
  inb_S1x70x1062_S1x32x1024_0_30_20 : ∀ a, (![0, 30, 20] : Fin 3 → Nat) a + S1x32x1024.size a ≤ S1x70x1062.size a
  inb_S1x70x1062_S1x32x1024_0_30_21 : ∀ a, (![0, 30, 21] : Fin 3 → Nat) a + S1x32x1024.size a ≤ S1x70x1062.size a
  inb_S1x70x1062_S1x32x1024_0_30_22 : ∀ a, (![0, 30, 22] : Fin 3 → Nat) a + S1x32x1024.size a ≤ S1x70x1062.size a
  inb_S1x70x1062_S1x32x1024_0_4_16 : ∀ a, (![0, 4, 16] : Fin 3 → Nat) a + S1x32x1024.size a ≤ S1x70x1062.size a
  inb_S1x70x1062_S1x32x1024_0_4_17 : ∀ a, (![0, 4, 17] : Fin 3 → Nat) a + S1x32x1024.size a ≤ S1x70x1062.size a
  inb_S1x70x1062_S1x32x1024_0_4_18 : ∀ a, (![0, 4, 18] : Fin 3 → Nat) a + S1x32x1024.size a ≤ S1x70x1062.size a
  inb_S1x70x1062_S1x32x1024_0_4_19 : ∀ a, (![0, 4, 19] : Fin 3 → Nat) a + S1x32x1024.size a ≤ S1x70x1062.size a
  inb_S1x70x1062_S1x32x1024_0_4_20 : ∀ a, (![0, 4, 20] : Fin 3 → Nat) a + S1x32x1024.size a ≤ S1x70x1062.size a
  inb_S1x70x1062_S1x32x1024_0_4_21 : ∀ a, (![0, 4, 21] : Fin 3 → Nat) a + S1x32x1024.size a ≤ S1x70x1062.size a
  inb_S1x70x1062_S1x32x1024_0_4_22 : ∀ a, (![0, 4, 22] : Fin 3 → Nat) a + S1x32x1024.size a ≤ S1x70x1062.size a
  inb_S1x70x1062_S1x32x1024_0_5_13 : ∀ a, (![0, 5, 13] : Fin 3 → Nat) a + S1x32x1024.size a ≤ S1x70x1062.size a
  inb_S1x70x1062_S1x32x1024_0_5_14 : ∀ a, (![0, 5, 14] : Fin 3 → Nat) a + S1x32x1024.size a ≤ S1x70x1062.size a
  inb_S1x70x1062_S1x32x1024_0_5_15 : ∀ a, (![0, 5, 15] : Fin 3 → Nat) a + S1x32x1024.size a ≤ S1x70x1062.size a
  inb_S1x70x1062_S1x32x1024_0_5_23 : ∀ a, (![0, 5, 23] : Fin 3 → Nat) a + S1x32x1024.size a ≤ S1x70x1062.size a
  inb_S1x70x1062_S1x32x1024_0_5_24 : ∀ a, (![0, 5, 24] : Fin 3 → Nat) a + S1x32x1024.size a ≤ S1x70x1062.size a
  inb_S1x70x1062_S1x32x1024_0_5_25 : ∀ a, (![0, 5, 25] : Fin 3 → Nat) a + S1x32x1024.size a ≤ S1x70x1062.size a
  inb_S1x70x1062_S1x32x1024_0_6_11 : ∀ a, (![0, 6, 11] : Fin 3 → Nat) a + S1x32x1024.size a ≤ S1x70x1062.size a
  inb_S1x70x1062_S1x32x1024_0_6_12 : ∀ a, (![0, 6, 12] : Fin 3 → Nat) a + S1x32x1024.size a ≤ S1x70x1062.size a
  inb_S1x70x1062_S1x32x1024_0_6_26 : ∀ a, (![0, 6, 26] : Fin 3 → Nat) a + S1x32x1024.size a ≤ S1x70x1062.size a
  inb_S1x70x1062_S1x32x1024_0_6_27 : ∀ a, (![0, 6, 27] : Fin 3 → Nat) a + S1x32x1024.size a ≤ S1x70x1062.size a
  inb_S1x70x1062_S1x32x1024_0_7_10 : ∀ a, (![0, 7, 10] : Fin 3 → Nat) a + S1x32x1024.size a ≤ S1x70x1062.size a
  inb_S1x70x1062_S1x32x1024_0_7_28 : ∀ a, (![0, 7, 28] : Fin 3 → Nat) a + S1x32x1024.size a ≤ S1x70x1062.size a
  inb_S1x70x1062_S1x32x1024_0_8_9 : ∀ a, (![0, 8, 9] : Fin 3 → Nat) a + S1x32x1024.size a ≤ S1x70x1062.size a
  inb_S1x70x1062_S1x32x1024_0_8_29 : ∀ a, (![0, 8, 29] : Fin 3 → Nat) a + S1x32x1024.size a ≤ S1x70x1062.size a
  inb_S1x70x1062_S1x32x1024_0_9_8 : ∀ a, (![0, 9, 8] : Fin 3 → Nat) a + S1x32x1024.size a ≤ S1x70x1062.size a
  inb_S1x70x1062_S1x32x1024_0_9_30 : ∀ a, (![0, 9, 30] : Fin 3 → Nat) a + S1x32x1024.size a ≤ S1x70x1062.size a
  inb_S1x70x1062_S1x32x1024_0_10_7 : ∀ a, (![0, 10, 7] : Fin 3 → Nat) a + S1x32x1024.size a ≤ S1x70x1062.size a
  inb_S1x70x1062_S1x32x1024_0_10_31 : ∀ a, (![0, 10, 31] : Fin 3 → Nat) a + S1x32x1024.size a ≤ S1x70x1062.size a
  inb_S1x70x1062_S1x32x1024_0_11_6 : ∀ a, (![0, 11, 6] : Fin 3 → Nat) a + S1x32x1024.size a ≤ S1x70x1062.size a
  inb_S1x70x1062_S1x32x1024_0_11_32 : ∀ a, (![0, 11, 32] : Fin 3 → Nat) a + S1x32x1024.size a ≤ S1x70x1062.size a
  inb_S1x70x1062_S1x32x1024_0_12_6 : ∀ a, (![0, 12, 6] : Fin 3 → Nat) a + S1x32x1024.size a ≤ S1x70x1062.size a
  inb_S1x70x1062_S1x32x1024_0_12_32 : ∀ a, (![0, 12, 32] : Fin 3 → Nat) a + S1x32x1024.size a ≤ S1x70x1062.size a
  inb_S1x70x1062_S1x32x1024_0_13_5 : ∀ a, (![0, 13, 5] : Fin 3 → Nat) a + S1x32x1024.size a ≤ S1x70x1062.size a
  inb_S1x70x1062_S1x32x1024_0_13_33 : ∀ a, (![0, 13, 33] : Fin 3 → Nat) a + S1x32x1024.size a ≤ S1x70x1062.size a
  inb_S1x70x1062_S1x32x1024_0_14_5 : ∀ a, (![0, 14, 5] : Fin 3 → Nat) a + S1x32x1024.size a ≤ S1x70x1062.size a
  inb_S1x70x1062_S1x32x1024_0_14_33 : ∀ a, (![0, 14, 33] : Fin 3 → Nat) a + S1x32x1024.size a ≤ S1x70x1062.size a
  inb_S1x70x1062_S1x32x1024_0_15_5 : ∀ a, (![0, 15, 5] : Fin 3 → Nat) a + S1x32x1024.size a ≤ S1x70x1062.size a
  inb_S1x70x1062_S1x32x1024_0_15_33 : ∀ a, (![0, 15, 33] : Fin 3 → Nat) a + S1x32x1024.size a ≤ S1x70x1062.size a
  inb_S1x70x1062_S1x32x1024_0_16_4 : ∀ a, (![0, 16, 4] : Fin 3 → Nat) a + S1x32x1024.size a ≤ S1x70x1062.size a
  inb_S1x70x1062_S1x32x1024_0_16_34 : ∀ a, (![0, 16, 34] : Fin 3 → Nat) a + S1x32x1024.size a ≤ S1x70x1062.size a
  inb_S1x70x1062_S1x32x1024_0_17_4 : ∀ a, (![0, 17, 4] : Fin 3 → Nat) a + S1x32x1024.size a ≤ S1x70x1062.size a
  inb_S1x70x1062_S1x32x1024_0_17_34 : ∀ a, (![0, 17, 34] : Fin 3 → Nat) a + S1x32x1024.size a ≤ S1x70x1062.size a
  inb_S1x70x1062_S1x32x1024_0_18_4 : ∀ a, (![0, 18, 4] : Fin 3 → Nat) a + S1x32x1024.size a ≤ S1x70x1062.size a
  inb_S1x70x1062_S1x32x1024_0_18_34 : ∀ a, (![0, 18, 34] : Fin 3 → Nat) a + S1x32x1024.size a ≤ S1x70x1062.size a
  inb_S1x70x1062_S1x32x1024_0_19_4 : ∀ a, (![0, 19, 4] : Fin 3 → Nat) a + S1x32x1024.size a ≤ S1x70x1062.size a
  inb_S1x70x1062_S1x32x1024_0_19_34 : ∀ a, (![0, 19, 34] : Fin 3 → Nat) a + S1x32x1024.size a ≤ S1x70x1062.size a
  inb_S1x70x1062_S1x32x1024_0_20_4 : ∀ a, (![0, 20, 4] : Fin 3 → Nat) a + S1x32x1024.size a ≤ S1x70x1062.size a
  inb_S1x70x1062_S1x32x1024_0_20_34 : ∀ a, (![0, 20, 34] : Fin 3 → Nat) a + S1x32x1024.size a ≤ S1x70x1062.size a
  inb_S1x70x1062_S1x32x1024_0_21_4 : ∀ a, (![0, 21, 4] : Fin 3 → Nat) a + S1x32x1024.size a ≤ S1x70x1062.size a
  inb_S1x70x1062_S1x32x1024_0_21_34 : ∀ a, (![0, 21, 34] : Fin 3 → Nat) a + S1x32x1024.size a ≤ S1x70x1062.size a
  inb_S1x70x1062_S1x32x1024_0_22_4 : ∀ a, (![0, 22, 4] : Fin 3 → Nat) a + S1x32x1024.size a ≤ S1x70x1062.size a
  inb_S1x70x1062_S1x32x1024_0_22_34 : ∀ a, (![0, 22, 34] : Fin 3 → Nat) a + S1x32x1024.size a ≤ S1x70x1062.size a
  inb_S1x70x1062_S1x32x1024_0_23_5 : ∀ a, (![0, 23, 5] : Fin 3 → Nat) a + S1x32x1024.size a ≤ S1x70x1062.size a
  inb_S1x70x1062_S1x32x1024_0_23_33 : ∀ a, (![0, 23, 33] : Fin 3 → Nat) a + S1x32x1024.size a ≤ S1x70x1062.size a
  inb_S1x70x1062_S1x32x1024_0_24_5 : ∀ a, (![0, 24, 5] : Fin 3 → Nat) a + S1x32x1024.size a ≤ S1x70x1062.size a
  inb_S1x70x1062_S1x32x1024_0_24_33 : ∀ a, (![0, 24, 33] : Fin 3 → Nat) a + S1x32x1024.size a ≤ S1x70x1062.size a
  inb_S1x70x1062_S1x32x1024_0_25_5 : ∀ a, (![0, 25, 5] : Fin 3 → Nat) a + S1x32x1024.size a ≤ S1x70x1062.size a
  inb_S1x70x1062_S1x32x1024_0_25_33 : ∀ a, (![0, 25, 33] : Fin 3 → Nat) a + S1x32x1024.size a ≤ S1x70x1062.size a
  inb_S1x70x1062_S1x32x1024_0_26_6 : ∀ a, (![0, 26, 6] : Fin 3 → Nat) a + S1x32x1024.size a ≤ S1x70x1062.size a
  inb_S1x70x1062_S1x32x1024_0_26_32 : ∀ a, (![0, 26, 32] : Fin 3 → Nat) a + S1x32x1024.size a ≤ S1x70x1062.size a
  inb_S1x70x1062_S1x32x1024_0_27_6 : ∀ a, (![0, 27, 6] : Fin 3 → Nat) a + S1x32x1024.size a ≤ S1x70x1062.size a
  inb_S1x70x1062_S1x32x1024_0_27_32 : ∀ a, (![0, 27, 32] : Fin 3 → Nat) a + S1x32x1024.size a ≤ S1x70x1062.size a
  inb_S1x70x1062_S1x32x1024_0_28_7 : ∀ a, (![0, 28, 7] : Fin 3 → Nat) a + S1x32x1024.size a ≤ S1x70x1062.size a
  inb_S1x70x1062_S1x32x1024_0_28_31 : ∀ a, (![0, 28, 31] : Fin 3 → Nat) a + S1x32x1024.size a ≤ S1x70x1062.size a
  inb_S1x70x1062_S1x32x1024_0_29_8 : ∀ a, (![0, 29, 8] : Fin 3 → Nat) a + S1x32x1024.size a ≤ S1x70x1062.size a
  inb_S1x70x1062_S1x32x1024_0_29_30 : ∀ a, (![0, 29, 30] : Fin 3 → Nat) a + S1x32x1024.size a ≤ S1x70x1062.size a
  inb_S1x70x1062_S1x32x1024_0_30_9 : ∀ a, (![0, 30, 9] : Fin 3 → Nat) a + S1x32x1024.size a ≤ S1x70x1062.size a
  inb_S1x70x1062_S1x32x1024_0_30_29 : ∀ a, (![0, 30, 29] : Fin 3 → Nat) a + S1x32x1024.size a ≤ S1x70x1062.size a
  inb_S1x70x1062_S1x32x1024_0_31_10 : ∀ a, (![0, 31, 10] : Fin 3 → Nat) a + S1x32x1024.size a ≤ S1x70x1062.size a
  inb_S1x70x1062_S1x32x1024_0_31_28 : ∀ a, (![0, 31, 28] : Fin 3 → Nat) a + S1x32x1024.size a ≤ S1x70x1062.size a
  inb_S1x70x1062_S1x32x1024_0_32_11 : ∀ a, (![0, 32, 11] : Fin 3 → Nat) a + S1x32x1024.size a ≤ S1x70x1062.size a
  inb_S1x70x1062_S1x32x1024_0_32_12 : ∀ a, (![0, 32, 12] : Fin 3 → Nat) a + S1x32x1024.size a ≤ S1x70x1062.size a
  inb_S1x70x1062_S1x32x1024_0_32_26 : ∀ a, (![0, 32, 26] : Fin 3 → Nat) a + S1x32x1024.size a ≤ S1x70x1062.size a
  inb_S1x70x1062_S1x32x1024_0_32_27 : ∀ a, (![0, 32, 27] : Fin 3 → Nat) a + S1x32x1024.size a ≤ S1x70x1062.size a
  inb_S1x70x1062_S1x32x1024_0_33_13 : ∀ a, (![0, 33, 13] : Fin 3 → Nat) a + S1x32x1024.size a ≤ S1x70x1062.size a
  inb_S1x70x1062_S1x32x1024_0_33_14 : ∀ a, (![0, 33, 14] : Fin 3 → Nat) a + S1x32x1024.size a ≤ S1x70x1062.size a
  inb_S1x70x1062_S1x32x1024_0_33_15 : ∀ a, (![0, 33, 15] : Fin 3 → Nat) a + S1x32x1024.size a ≤ S1x70x1062.size a
  inb_S1x70x1062_S1x32x1024_0_33_23 : ∀ a, (![0, 33, 23] : Fin 3 → Nat) a + S1x32x1024.size a ≤ S1x70x1062.size a
  inb_S1x70x1062_S1x32x1024_0_33_24 : ∀ a, (![0, 33, 24] : Fin 3 → Nat) a + S1x32x1024.size a ≤ S1x70x1062.size a
  inb_S1x70x1062_S1x32x1024_0_33_25 : ∀ a, (![0, 33, 25] : Fin 3 → Nat) a + S1x32x1024.size a ≤ S1x70x1062.size a
  inb_S1x70x1062_S1x32x1024_0_34_16 : ∀ a, (![0, 34, 16] : Fin 3 → Nat) a + S1x32x1024.size a ≤ S1x70x1062.size a
  inb_S1x70x1062_S1x32x1024_0_34_17 : ∀ a, (![0, 34, 17] : Fin 3 → Nat) a + S1x32x1024.size a ≤ S1x70x1062.size a
  inb_S1x70x1062_S1x32x1024_0_34_18 : ∀ a, (![0, 34, 18] : Fin 3 → Nat) a + S1x32x1024.size a ≤ S1x70x1062.size a
  inb_S1x70x1062_S1x32x1024_0_34_19 : ∀ a, (![0, 34, 19] : Fin 3 → Nat) a + S1x32x1024.size a ≤ S1x70x1062.size a
  inb_S1x70x1062_S1x32x1024_0_34_20 : ∀ a, (![0, 34, 20] : Fin 3 → Nat) a + S1x32x1024.size a ≤ S1x70x1062.size a
  inb_S1x70x1062_S1x32x1024_0_34_21 : ∀ a, (![0, 34, 21] : Fin 3 → Nat) a + S1x32x1024.size a ≤ S1x70x1062.size a
  inb_S1x70x1062_S1x32x1024_0_34_22 : ∀ a, (![0, 34, 22] : Fin 3 → Nat) a + S1x32x1024.size a ≤ S1x70x1062.size a
  inb_S1x70x1062_S1x32x1024_0_0_15 : ∀ a, (![0, 0, 15] : Fin 3 → Nat) a + S1x32x1024.size a ≤ S1x70x1062.size a
  inb_S1x70x1062_S1x32x1024_0_0_16 : ∀ a, (![0, 0, 16] : Fin 3 → Nat) a + S1x32x1024.size a ≤ S1x70x1062.size a
  inb_S1x70x1062_S1x32x1024_0_0_17 : ∀ a, (![0, 0, 17] : Fin 3 → Nat) a + S1x32x1024.size a ≤ S1x70x1062.size a
  inb_S1x70x1062_S1x32x1024_0_0_18 : ∀ a, (![0, 0, 18] : Fin 3 → Nat) a + S1x32x1024.size a ≤ S1x70x1062.size a
  inb_S1x70x1062_S1x32x1024_0_0_19 : ∀ a, (![0, 0, 19] : Fin 3 → Nat) a + S1x32x1024.size a ≤ S1x70x1062.size a
  inb_S1x70x1062_S1x32x1024_0_0_20 : ∀ a, (![0, 0, 20] : Fin 3 → Nat) a + S1x32x1024.size a ≤ S1x70x1062.size a
  inb_S1x70x1062_S1x32x1024_0_0_21 : ∀ a, (![0, 0, 21] : Fin 3 → Nat) a + S1x32x1024.size a ≤ S1x70x1062.size a
  inb_S1x70x1062_S1x32x1024_0_0_22 : ∀ a, (![0, 0, 22] : Fin 3 → Nat) a + S1x32x1024.size a ≤ S1x70x1062.size a
  inb_S1x70x1062_S1x32x1024_0_0_23 : ∀ a, (![0, 0, 23] : Fin 3 → Nat) a + S1x32x1024.size a ≤ S1x70x1062.size a
  inb_S1x70x1062_S1x32x1024_0_1_12 : ∀ a, (![0, 1, 12] : Fin 3 → Nat) a + S1x32x1024.size a ≤ S1x70x1062.size a
  inb_S1x70x1062_S1x32x1024_0_1_13 : ∀ a, (![0, 1, 13] : Fin 3 → Nat) a + S1x32x1024.size a ≤ S1x70x1062.size a
  inb_S1x70x1062_S1x32x1024_0_1_14 : ∀ a, (![0, 1, 14] : Fin 3 → Nat) a + S1x32x1024.size a ≤ S1x70x1062.size a
  inb_S1x70x1062_S1x32x1024_0_1_24 : ∀ a, (![0, 1, 24] : Fin 3 → Nat) a + S1x32x1024.size a ≤ S1x70x1062.size a
  inb_S1x70x1062_S1x32x1024_0_1_25 : ∀ a, (![0, 1, 25] : Fin 3 → Nat) a + S1x32x1024.size a ≤ S1x70x1062.size a
  inb_S1x70x1062_S1x32x1024_0_1_26 : ∀ a, (![0, 1, 26] : Fin 3 → Nat) a + S1x32x1024.size a ≤ S1x70x1062.size a
  inb_S1x70x1062_S1x32x1024_0_2_10 : ∀ a, (![0, 2, 10] : Fin 3 → Nat) a + S1x32x1024.size a ≤ S1x70x1062.size a
  inb_S1x70x1062_S1x32x1024_0_2_11 : ∀ a, (![0, 2, 11] : Fin 3 → Nat) a + S1x32x1024.size a ≤ S1x70x1062.size a
  inb_S1x70x1062_S1x32x1024_0_2_27 : ∀ a, (![0, 2, 27] : Fin 3 → Nat) a + S1x32x1024.size a ≤ S1x70x1062.size a
  inb_S1x70x1062_S1x32x1024_0_2_28 : ∀ a, (![0, 2, 28] : Fin 3 → Nat) a + S1x32x1024.size a ≤ S1x70x1062.size a
  inb_S1x70x1062_S1x32x1024_0_3_8 : ∀ a, (![0, 3, 8] : Fin 3 → Nat) a + S1x32x1024.size a ≤ S1x70x1062.size a
  inb_S1x70x1062_S1x32x1024_0_3_9 : ∀ a, (![0, 3, 9] : Fin 3 → Nat) a + S1x32x1024.size a ≤ S1x70x1062.size a
  inb_S1x70x1062_S1x32x1024_0_3_29 : ∀ a, (![0, 3, 29] : Fin 3 → Nat) a + S1x32x1024.size a ≤ S1x70x1062.size a
  inb_S1x70x1062_S1x32x1024_0_3_30 : ∀ a, (![0, 3, 30] : Fin 3 → Nat) a + S1x32x1024.size a ≤ S1x70x1062.size a
  inb_S1x70x1062_S1x32x1024_0_4_7 : ∀ a, (![0, 4, 7] : Fin 3 → Nat) a + S1x32x1024.size a ≤ S1x70x1062.size a
  inb_S1x70x1062_S1x32x1024_0_4_8 : ∀ a, (![0, 4, 8] : Fin 3 → Nat) a + S1x32x1024.size a ≤ S1x70x1062.size a
  inb_S1x70x1062_S1x32x1024_0_4_30 : ∀ a, (![0, 4, 30] : Fin 3 → Nat) a + S1x32x1024.size a ≤ S1x70x1062.size a
  inb_S1x70x1062_S1x32x1024_0_4_31 : ∀ a, (![0, 4, 31] : Fin 3 → Nat) a + S1x32x1024.size a ≤ S1x70x1062.size a
  inb_S1x70x1062_S1x32x1024_0_5_6 : ∀ a, (![0, 5, 6] : Fin 3 → Nat) a + S1x32x1024.size a ≤ S1x70x1062.size a
  inb_S1x70x1062_S1x32x1024_0_5_32 : ∀ a, (![0, 5, 32] : Fin 3 → Nat) a + S1x32x1024.size a ≤ S1x70x1062.size a
  inb_S1x70x1062_S1x32x1024_0_6_5 : ∀ a, (![0, 6, 5] : Fin 3 → Nat) a + S1x32x1024.size a ≤ S1x70x1062.size a
  inb_S1x70x1062_S1x32x1024_0_6_33 : ∀ a, (![0, 6, 33] : Fin 3 → Nat) a + S1x32x1024.size a ≤ S1x70x1062.size a
  inb_S1x70x1062_S1x32x1024_0_7_4 : ∀ a, (![0, 7, 4] : Fin 3 → Nat) a + S1x32x1024.size a ≤ S1x70x1062.size a
  inb_S1x70x1062_S1x32x1024_0_7_34 : ∀ a, (![0, 7, 34] : Fin 3 → Nat) a + S1x32x1024.size a ≤ S1x70x1062.size a
  inb_S1x70x1062_S1x32x1024_0_8_3 : ∀ a, (![0, 8, 3] : Fin 3 → Nat) a + S1x32x1024.size a ≤ S1x70x1062.size a
  inb_S1x70x1062_S1x32x1024_0_8_4 : ∀ a, (![0, 8, 4] : Fin 3 → Nat) a + S1x32x1024.size a ≤ S1x70x1062.size a
  inb_S1x70x1062_S1x32x1024_0_8_34 : ∀ a, (![0, 8, 34] : Fin 3 → Nat) a + S1x32x1024.size a ≤ S1x70x1062.size a
  inb_S1x70x1062_S1x32x1024_0_8_35 : ∀ a, (![0, 8, 35] : Fin 3 → Nat) a + S1x32x1024.size a ≤ S1x70x1062.size a
  inb_S1x70x1062_S1x32x1024_0_9_3 : ∀ a, (![0, 9, 3] : Fin 3 → Nat) a + S1x32x1024.size a ≤ S1x70x1062.size a
  inb_S1x70x1062_S1x32x1024_0_9_35 : ∀ a, (![0, 9, 35] : Fin 3 → Nat) a + S1x32x1024.size a ≤ S1x70x1062.size a
  inb_S1x70x1062_S1x32x1024_0_10_2 : ∀ a, (![0, 10, 2] : Fin 3 → Nat) a + S1x32x1024.size a ≤ S1x70x1062.size a
  inb_S1x70x1062_S1x32x1024_0_10_36 : ∀ a, (![0, 10, 36] : Fin 3 → Nat) a + S1x32x1024.size a ≤ S1x70x1062.size a
  inb_S1x70x1062_S1x32x1024_0_11_2 : ∀ a, (![0, 11, 2] : Fin 3 → Nat) a + S1x32x1024.size a ≤ S1x70x1062.size a
  inb_S1x70x1062_S1x32x1024_0_11_36 : ∀ a, (![0, 11, 36] : Fin 3 → Nat) a + S1x32x1024.size a ≤ S1x70x1062.size a
  inb_S1x70x1062_S1x32x1024_0_12_1 : ∀ a, (![0, 12, 1] : Fin 3 → Nat) a + S1x32x1024.size a ≤ S1x70x1062.size a
  inb_S1x70x1062_S1x32x1024_0_12_37 : ∀ a, (![0, 12, 37] : Fin 3 → Nat) a + S1x32x1024.size a ≤ S1x70x1062.size a
  inb_S1x70x1062_S1x32x1024_0_13_1 : ∀ a, (![0, 13, 1] : Fin 3 → Nat) a + S1x32x1024.size a ≤ S1x70x1062.size a
  inb_S1x70x1062_S1x32x1024_0_13_37 : ∀ a, (![0, 13, 37] : Fin 3 → Nat) a + S1x32x1024.size a ≤ S1x70x1062.size a
  inb_S1x70x1062_S1x32x1024_0_14_1 : ∀ a, (![0, 14, 1] : Fin 3 → Nat) a + S1x32x1024.size a ≤ S1x70x1062.size a
  inb_S1x70x1062_S1x32x1024_0_14_37 : ∀ a, (![0, 14, 37] : Fin 3 → Nat) a + S1x32x1024.size a ≤ S1x70x1062.size a
  inb_S1x70x1062_S1x32x1024_0_15_0 : ∀ a, (![0, 15, 0] : Fin 3 → Nat) a + S1x32x1024.size a ≤ S1x70x1062.size a
  inb_S1x70x1062_S1x32x1024_0_15_38 : ∀ a, (![0, 15, 38] : Fin 3 → Nat) a + S1x32x1024.size a ≤ S1x70x1062.size a
  inb_S1x70x1062_S1x32x1024_0_16_0 : ∀ a, (![0, 16, 0] : Fin 3 → Nat) a + S1x32x1024.size a ≤ S1x70x1062.size a
  inb_S1x70x1062_S1x32x1024_0_16_38 : ∀ a, (![0, 16, 38] : Fin 3 → Nat) a + S1x32x1024.size a ≤ S1x70x1062.size a
  inb_S1x70x1062_S1x32x1024_0_17_0 : ∀ a, (![0, 17, 0] : Fin 3 → Nat) a + S1x32x1024.size a ≤ S1x70x1062.size a
  inb_S1x70x1062_S1x32x1024_0_17_38 : ∀ a, (![0, 17, 38] : Fin 3 → Nat) a + S1x32x1024.size a ≤ S1x70x1062.size a
  inb_S1x70x1062_S1x32x1024_0_18_0 : ∀ a, (![0, 18, 0] : Fin 3 → Nat) a + S1x32x1024.size a ≤ S1x70x1062.size a
  inb_S1x70x1062_S1x32x1024_0_18_38 : ∀ a, (![0, 18, 38] : Fin 3 → Nat) a + S1x32x1024.size a ≤ S1x70x1062.size a
  inb_S1x70x1062_S1x32x1024_0_19_0 : ∀ a, (![0, 19, 0] : Fin 3 → Nat) a + S1x32x1024.size a ≤ S1x70x1062.size a
  inb_S1x70x1062_S1x32x1024_0_19_38 : ∀ a, (![0, 19, 38] : Fin 3 → Nat) a + S1x32x1024.size a ≤ S1x70x1062.size a
  inb_S1x70x1062_S1x32x1024_0_20_0 : ∀ a, (![0, 20, 0] : Fin 3 → Nat) a + S1x32x1024.size a ≤ S1x70x1062.size a
  inb_S1x70x1062_S1x32x1024_0_20_38 : ∀ a, (![0, 20, 38] : Fin 3 → Nat) a + S1x32x1024.size a ≤ S1x70x1062.size a
  inb_S1x70x1062_S1x32x1024_0_21_0 : ∀ a, (![0, 21, 0] : Fin 3 → Nat) a + S1x32x1024.size a ≤ S1x70x1062.size a
  inb_S1x70x1062_S1x32x1024_0_21_38 : ∀ a, (![0, 21, 38] : Fin 3 → Nat) a + S1x32x1024.size a ≤ S1x70x1062.size a
  inb_S1x70x1062_S1x32x1024_0_22_0 : ∀ a, (![0, 22, 0] : Fin 3 → Nat) a + S1x32x1024.size a ≤ S1x70x1062.size a
  inb_S1x70x1062_S1x32x1024_0_22_38 : ∀ a, (![0, 22, 38] : Fin 3 → Nat) a + S1x32x1024.size a ≤ S1x70x1062.size a
  inb_S1x70x1062_S1x32x1024_0_23_0 : ∀ a, (![0, 23, 0] : Fin 3 → Nat) a + S1x32x1024.size a ≤ S1x70x1062.size a
  inb_S1x70x1062_S1x32x1024_0_23_38 : ∀ a, (![0, 23, 38] : Fin 3 → Nat) a + S1x32x1024.size a ≤ S1x70x1062.size a
  inb_S1x70x1062_S1x32x1024_0_24_1 : ∀ a, (![0, 24, 1] : Fin 3 → Nat) a + S1x32x1024.size a ≤ S1x70x1062.size a
  inb_S1x70x1062_S1x32x1024_0_24_37 : ∀ a, (![0, 24, 37] : Fin 3 → Nat) a + S1x32x1024.size a ≤ S1x70x1062.size a
  inb_S1x70x1062_S1x32x1024_0_25_1 : ∀ a, (![0, 25, 1] : Fin 3 → Nat) a + S1x32x1024.size a ≤ S1x70x1062.size a
  inb_S1x70x1062_S1x32x1024_0_25_37 : ∀ a, (![0, 25, 37] : Fin 3 → Nat) a + S1x32x1024.size a ≤ S1x70x1062.size a
  inb_S1x70x1062_S1x32x1024_0_26_1 : ∀ a, (![0, 26, 1] : Fin 3 → Nat) a + S1x32x1024.size a ≤ S1x70x1062.size a
  inb_S1x70x1062_S1x32x1024_0_26_37 : ∀ a, (![0, 26, 37] : Fin 3 → Nat) a + S1x32x1024.size a ≤ S1x70x1062.size a
  inb_S1x70x1062_S1x32x1024_0_27_2 : ∀ a, (![0, 27, 2] : Fin 3 → Nat) a + S1x32x1024.size a ≤ S1x70x1062.size a
  inb_S1x70x1062_S1x32x1024_0_27_36 : ∀ a, (![0, 27, 36] : Fin 3 → Nat) a + S1x32x1024.size a ≤ S1x70x1062.size a
  inb_S1x70x1062_S1x32x1024_0_28_2 : ∀ a, (![0, 28, 2] : Fin 3 → Nat) a + S1x32x1024.size a ≤ S1x70x1062.size a
  inb_S1x70x1062_S1x32x1024_0_28_36 : ∀ a, (![0, 28, 36] : Fin 3 → Nat) a + S1x32x1024.size a ≤ S1x70x1062.size a
  inb_S1x70x1062_S1x32x1024_0_29_3 : ∀ a, (![0, 29, 3] : Fin 3 → Nat) a + S1x32x1024.size a ≤ S1x70x1062.size a
  inb_S1x70x1062_S1x32x1024_0_29_35 : ∀ a, (![0, 29, 35] : Fin 3 → Nat) a + S1x32x1024.size a ≤ S1x70x1062.size a
  inb_S1x70x1062_S1x32x1024_0_30_3 : ∀ a, (![0, 30, 3] : Fin 3 → Nat) a + S1x32x1024.size a ≤ S1x70x1062.size a
  inb_S1x70x1062_S1x32x1024_0_30_4 : ∀ a, (![0, 30, 4] : Fin 3 → Nat) a + S1x32x1024.size a ≤ S1x70x1062.size a
  inb_S1x70x1062_S1x32x1024_0_30_34 : ∀ a, (![0, 30, 34] : Fin 3 → Nat) a + S1x32x1024.size a ≤ S1x70x1062.size a
  inb_S1x70x1062_S1x32x1024_0_30_35 : ∀ a, (![0, 30, 35] : Fin 3 → Nat) a + S1x32x1024.size a ≤ S1x70x1062.size a
  inb_S1x70x1062_S1x32x1024_0_31_4 : ∀ a, (![0, 31, 4] : Fin 3 → Nat) a + S1x32x1024.size a ≤ S1x70x1062.size a
  inb_S1x70x1062_S1x32x1024_0_31_34 : ∀ a, (![0, 31, 34] : Fin 3 → Nat) a + S1x32x1024.size a ≤ S1x70x1062.size a
  inb_S1x70x1062_S1x32x1024_0_32_5 : ∀ a, (![0, 32, 5] : Fin 3 → Nat) a + S1x32x1024.size a ≤ S1x70x1062.size a
  inb_S1x70x1062_S1x32x1024_0_32_33 : ∀ a, (![0, 32, 33] : Fin 3 → Nat) a + S1x32x1024.size a ≤ S1x70x1062.size a
  inb_S1x70x1062_S1x32x1024_0_33_6 : ∀ a, (![0, 33, 6] : Fin 3 → Nat) a + S1x32x1024.size a ≤ S1x70x1062.size a
  inb_S1x70x1062_S1x32x1024_0_33_32 : ∀ a, (![0, 33, 32] : Fin 3 → Nat) a + S1x32x1024.size a ≤ S1x70x1062.size a
  inb_S1x70x1062_S1x32x1024_0_34_7 : ∀ a, (![0, 34, 7] : Fin 3 → Nat) a + S1x32x1024.size a ≤ S1x70x1062.size a
  inb_S1x70x1062_S1x32x1024_0_34_8 : ∀ a, (![0, 34, 8] : Fin 3 → Nat) a + S1x32x1024.size a ≤ S1x70x1062.size a
  inb_S1x70x1062_S1x32x1024_0_34_30 : ∀ a, (![0, 34, 30] : Fin 3 → Nat) a + S1x32x1024.size a ≤ S1x70x1062.size a
  inb_S1x70x1062_S1x32x1024_0_34_31 : ∀ a, (![0, 34, 31] : Fin 3 → Nat) a + S1x32x1024.size a ≤ S1x70x1062.size a
  inb_S1x70x1062_S1x32x1024_0_35_8 : ∀ a, (![0, 35, 8] : Fin 3 → Nat) a + S1x32x1024.size a ≤ S1x70x1062.size a
  inb_S1x70x1062_S1x32x1024_0_35_9 : ∀ a, (![0, 35, 9] : Fin 3 → Nat) a + S1x32x1024.size a ≤ S1x70x1062.size a
  inb_S1x70x1062_S1x32x1024_0_35_29 : ∀ a, (![0, 35, 29] : Fin 3 → Nat) a + S1x32x1024.size a ≤ S1x70x1062.size a
  inb_S1x70x1062_S1x32x1024_0_35_30 : ∀ a, (![0, 35, 30] : Fin 3 → Nat) a + S1x32x1024.size a ≤ S1x70x1062.size a
  inb_S1x70x1062_S1x32x1024_0_36_10 : ∀ a, (![0, 36, 10] : Fin 3 → Nat) a + S1x32x1024.size a ≤ S1x70x1062.size a
  inb_S1x70x1062_S1x32x1024_0_36_11 : ∀ a, (![0, 36, 11] : Fin 3 → Nat) a + S1x32x1024.size a ≤ S1x70x1062.size a
  inb_S1x70x1062_S1x32x1024_0_36_27 : ∀ a, (![0, 36, 27] : Fin 3 → Nat) a + S1x32x1024.size a ≤ S1x70x1062.size a
  inb_S1x70x1062_S1x32x1024_0_36_28 : ∀ a, (![0, 36, 28] : Fin 3 → Nat) a + S1x32x1024.size a ≤ S1x70x1062.size a
  inb_S1x70x1062_S1x32x1024_0_37_12 : ∀ a, (![0, 37, 12] : Fin 3 → Nat) a + S1x32x1024.size a ≤ S1x70x1062.size a
  inb_S1x70x1062_S1x32x1024_0_37_13 : ∀ a, (![0, 37, 13] : Fin 3 → Nat) a + S1x32x1024.size a ≤ S1x70x1062.size a
  inb_S1x70x1062_S1x32x1024_0_37_14 : ∀ a, (![0, 37, 14] : Fin 3 → Nat) a + S1x32x1024.size a ≤ S1x70x1062.size a
  inb_S1x70x1062_S1x32x1024_0_37_24 : ∀ a, (![0, 37, 24] : Fin 3 → Nat) a + S1x32x1024.size a ≤ S1x70x1062.size a
  inb_S1x70x1062_S1x32x1024_0_37_25 : ∀ a, (![0, 37, 25] : Fin 3 → Nat) a + S1x32x1024.size a ≤ S1x70x1062.size a
  inb_S1x70x1062_S1x32x1024_0_37_26 : ∀ a, (![0, 37, 26] : Fin 3 → Nat) a + S1x32x1024.size a ≤ S1x70x1062.size a
  inb_S1x70x1062_S1x32x1024_0_38_15 : ∀ a, (![0, 38, 15] : Fin 3 → Nat) a + S1x32x1024.size a ≤ S1x70x1062.size a
  inb_S1x70x1062_S1x32x1024_0_38_16 : ∀ a, (![0, 38, 16] : Fin 3 → Nat) a + S1x32x1024.size a ≤ S1x70x1062.size a
  inb_S1x70x1062_S1x32x1024_0_38_17 : ∀ a, (![0, 38, 17] : Fin 3 → Nat) a + S1x32x1024.size a ≤ S1x70x1062.size a
  inb_S1x70x1062_S1x32x1024_0_38_18 : ∀ a, (![0, 38, 18] : Fin 3 → Nat) a + S1x32x1024.size a ≤ S1x70x1062.size a
  inb_S1x70x1062_S1x32x1024_0_38_19 : ∀ a, (![0, 38, 19] : Fin 3 → Nat) a + S1x32x1024.size a ≤ S1x70x1062.size a
  inb_S1x70x1062_S1x32x1024_0_38_20 : ∀ a, (![0, 38, 20] : Fin 3 → Nat) a + S1x32x1024.size a ≤ S1x70x1062.size a
  inb_S1x70x1062_S1x32x1024_0_38_21 : ∀ a, (![0, 38, 21] : Fin 3 → Nat) a + S1x32x1024.size a ≤ S1x70x1062.size a
  inb_S1x70x1062_S1x32x1024_0_38_22 : ∀ a, (![0, 38, 22] : Fin 3 → Nat) a + S1x32x1024.size a ≤ S1x70x1062.size a
  inb_S1x70x1062_S1x32x1024_0_38_23 : ∀ a, (![0, 38, 23] : Fin 3 → Nat) a + S1x32x1024.size a ≤ S1x70x1062.size a
  inb_S32x1024_S32x1024_0_0 : ∀ a, (![0, 0] : Fin 2 → Nat) a + S32x1024.size a ≤ S32x1024.size a
  h_S32x1024 : 0 < S32x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x70x1062.size a ≤ S32x70x1062.size a
  hwx0_0 : ∀ i : grid0.Coords, EltTy.bits .f32 = 32 ∨ (Rect.block (s := S32x70x1062) S1x70x1062.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S1024x1024.size a
  hwx0_5 : ∀ i : grid0.Coords, EltTy.bits .f32 = 32 ∨ (Rect.block (s := S1024x1024) S32x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x70x1062.size a ≤ S32x70x1062.size a
  hwx1_0 : ∀ i : grid1.Coords, EltTy.bits .f32 = 32 ∨ (Rect.block (s := S32x70x1062) S1x70x1062.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1.size a ≤ S1.size a
  hwx1_1 : ∀ i : grid1.Coords, EltTy.bits .f32 = 32 ∨ (Rect.block (s := S1) S1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1.size a ≤ S1.size a
  hwx1_3 : ∀ i : grid1.Coords, EltTy.bits .f32 = 32 ∨ (Rect.block (s := S1) S1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x1024.size a ≤ S1024x1024.size a
  hwx1_5 : ∀ i : grid1.Coords, EltTy.bits .f32 = 32 ∨ (Rect.block (s := S1024x1024) S32x1024.size (cc1_transform_5 i) (hinb1_5 i)).WholeWords (EltTy.packing .f32)

variable [Facts₀]

abbrev win0_0 : Pipeline.Window sig grid0 :=
  Pipeline.Window.ofSpec (Memref.whole main_v67) S1x70x1062.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v68) S32x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v136) S1x70x1062.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v137) S32x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1024x1024 : Shape := ⟨2, ![1024, 1024]⟩
abbrev S1 : Shape := ⟨1, ![1]⟩
abbrev S40x2 : Shape := ⟨2, ![40, 2]⟩
abbrev S72x2 : Shape := ⟨2, ![72, 2]⟩
abbrev S84x2 : Shape := ⟨2, ![84, 2]⟩
abbrev S116x2 : Shape := ⟨2, ![116, 2]⟩
abbrev S_ : Shape := ⟨0, ![]⟩
abbrev S1038x1038 : Shape := ⟨2, ![1038, 1038]⟩
abbrev S40x1 : Shape := ⟨2, ![40, 1]⟩
abbrev S40 : Shape := ⟨1, ![40]⟩
abbrev S40x1024x1024 : Shape := ⟨3, ![40, 1024, 1024]⟩
abbrev S1x1024x1024 : Shape := ⟨3, ![1, 1024, 1024]⟩
abbrev S1x1 : Shape := ⟨2, ![1, 1]⟩
abbrev S1046x1046 : Shape := ⟨2, ![1046, 1046]⟩
abbrev S72x1 : Shape := ⟨2, ![72, 1]⟩
abbrev S72 : Shape := ⟨1, ![72]⟩
abbrev S72x1024x1024 : Shape := ⟨3, ![72, 1024, 1024]⟩
abbrev S1054x1054 : Shape := ⟨2, ![1054, 1054]⟩
abbrev S84x1 : Shape := ⟨2, ![84, 1]⟩
abbrev S84 : Shape := ⟨1, ![84]⟩
abbrev S84x1024x1024 : Shape := ⟨3, ![84, 1024, 1024]⟩
abbrev S1062x1062 : Shape := ⟨2, ![1062, 1062]⟩
abbrev S116x1 : Shape := ⟨2, ![116, 1]⟩
abbrev S116 : Shape := ⟨1, ![116]⟩
abbrev S116x1024x1024 : Shape := ⟨3, ![116, 1024, 1024]⟩

abbrev nBuf : Space → Nat
  | .hbm => 375
  | .vmem => 0
  | .smem => 0
  | _ => 0

abbrev hbmTy0_0 (i : Nat) : BufTy := match i % 128 with
  | 0 => ⟨S1024x1024, .f32⟩
  | 1 => ⟨S1, .f32⟩
  | 2 => ⟨S1, .f32⟩
  | 3 => ⟨S1, .f32⟩
  | 4 => ⟨S1, .f32⟩
  | 5 => ⟨S40x2, .i32⟩
  | 6 => ⟨S72x2, .i32⟩
  | 7 => ⟨S84x2, .i32⟩
  | 8 => ⟨S116x2, .i32⟩
  | 9 => ⟨S40x2, .i32⟩
  | 10 => ⟨S72x2, .i32⟩
  | 11 => ⟨S84x2, .i32⟩
  | 12 => ⟨S116x2, .i32⟩
  | 13 => ⟨S_, .f32⟩
  | 14 => ⟨S_, .f32⟩
  | 15 => ⟨S1038x1038, .f32⟩
  | 16 => ⟨S40x1, .i32⟩
  | 17 => ⟨S40, .i32⟩
  | 18 => ⟨S_, .i32⟩
  | 19 => ⟨S40, .i32⟩
  | 20 => ⟨S40, .i32⟩
  | 21 => ⟨S40x1, .i32⟩
  | 22 => ⟨S40, .i32⟩
  | 23 => ⟨S_, .i32⟩
  | 24 => ⟨S40, .i32⟩
  | 25 => ⟨S40, .i32⟩
  | 26 => ⟨S_, .i32⟩
  | 27 => ⟨S40, .i32⟩
  | 28 => ⟨S40, .i1⟩
  | 29 => ⟨S_, .i32⟩
  | 30 => ⟨S40, .i32⟩
  | 31 => ⟨S40, .i32⟩
  | 32 => ⟨S40, .i32⟩
  | 33 => ⟨S_, .i32⟩
  | 34 => ⟨S40, .i32⟩
  | 35 => ⟨S40, .i1⟩
  | 36 => ⟨S_, .i32⟩
  | 37 => ⟨S40, .i32⟩
  | 38 => ⟨S40, .i32⟩
  | 39 => ⟨S40, .i32⟩
  | 40 => ⟨S40x1, .i32⟩
  | 41 => ⟨S40x1, .i32⟩
  | 42 => ⟨S40x2, .i32⟩
  | 43 => ⟨S40x1024x1024, .f32⟩
  | 44 => ⟨S1x1024x1024, .f32⟩
  | 45 => ⟨S40x1024x1024, .f32⟩
  | 46 => ⟨S40x1024x1024, .f32⟩
  | 47 => ⟨S40x1024x1024, .f32⟩
  | 48 => ⟨S_, .f32⟩
  | 49 => ⟨S40x1024x1024, .f32⟩
  | 50 => ⟨S40x1024x1024, .f32⟩
  | 51 => ⟨S_, .f32⟩
  | 52 => ⟨S1024x1024, .f32⟩
  | 53 => ⟨S1x1, .f32⟩
  | 54 => ⟨S1024x1024, .f32⟩
  | 55 => ⟨S1024x1024, .f32⟩
  | 56 => ⟨S_, .f32⟩
  | 57 => ⟨S_, .f32⟩
  | 58 => ⟨S1046x1046, .f32⟩
  | 59 => ⟨S72x1, .i32⟩
  | 60 => ⟨S72, .i32⟩
  | 61 => ⟨S_, .i32⟩
  | 62 => ⟨S72, .i32⟩
  | 63 => ⟨S72, .i32⟩
  | 64 => ⟨S72x1, .i32⟩
  | 65 => ⟨S72, .i32⟩
  | 66 => ⟨S_, .i32⟩
  | 67 => ⟨S72, .i32⟩
  | 68 => ⟨S72, .i32⟩
  | 69 => ⟨S_, .i32⟩
  | 70 => ⟨S72, .i32⟩
  | 71 => ⟨S72, .i1⟩
  | 72 => ⟨S_, .i32⟩
  | 73 => ⟨S72, .i32⟩
  | 74 => ⟨S72, .i32⟩
  | 75 => ⟨S72, .i32⟩
  | 76 => ⟨S_, .i32⟩
  | 77 => ⟨S72, .i32⟩
  | 78 => ⟨S72, .i1⟩
  | 79 => ⟨S_, .i32⟩
  | 80 => ⟨S72, .i32⟩
  | 81 => ⟨S72, .i32⟩
  | 82 => ⟨S72, .i32⟩
  | 83 => ⟨S72x1, .i32⟩
  | 84 => ⟨S72x1, .i32⟩
  | 85 => ⟨S72x2, .i32⟩
  | 86 => ⟨S72x1024x1024, .f32⟩
  | 87 => ⟨S1x1024x1024, .f32⟩
  | 88 => ⟨S72x1024x1024, .f32⟩
  | 89 => ⟨S72x1024x1024, .f32⟩
  | 90 => ⟨S72x1024x1024, .f32⟩
  | 91 => ⟨S_, .f32⟩
  | 92 => ⟨S72x1024x1024, .f32⟩
  | 93 => ⟨S72x1024x1024, .f32⟩
  | 94 => ⟨S_, .f32⟩
  | 95 => ⟨S1024x1024, .f32⟩
  | 96 => ⟨S1x1, .f32⟩
  | 97 => ⟨S1024x1024, .f32⟩
  | 98 => ⟨S1024x1024, .f32⟩
  | 99 => ⟨S1024x1024, .f32⟩
  | 100 => ⟨S_, .f32⟩
  | 101 => ⟨S_, .f32⟩
  | 102 => ⟨S1054x1054, .f32⟩
  | 103 => ⟨S84x1, .i32⟩
  | 104 => ⟨S84, .i32⟩
  | 105 => ⟨S_, .i32⟩
  | 106 => ⟨S84, .i32⟩
  | 107 => ⟨S84, .i32⟩
  | 108 => ⟨S84x1, .i32⟩
  | 109 => ⟨S84, .i32⟩
  | 110 => ⟨S_, .i32⟩
  | 111 => ⟨S84, .i32⟩
  | 112 => ⟨S84, .i32⟩
  | 113 => ⟨S_, .i32⟩
  | 114 => ⟨S84, .i32⟩
  | 115 => ⟨S84, .i1⟩
  | 116 => ⟨S_, .i32⟩
  | 117 => ⟨S84, .i32⟩
  | 118 => ⟨S84, .i32⟩
  | 119 => ⟨S84, .i32⟩
  | 120 => ⟨S_, .i32⟩
  | 121 => ⟨S84, .i32⟩
  | 122 => ⟨S84, .i1⟩
  | 123 => ⟨S_, .i32⟩
  | 124 => ⟨S84, .i32⟩
  | 125 => ⟨S84, .i32⟩
  | 126 => ⟨S84, .i32⟩
  | 127 => ⟨S84x1, .i32⟩
  | _ => ⟨S1024x1024, .f32⟩

abbrev hbmTy0_1 (i : Nat) : BufTy := match i % 128 with
  | 0 => ⟨S84x1, .i32⟩
  | 1 => ⟨S84x2, .i32⟩
  | 2 => ⟨S84x1024x1024, .f32⟩
  | 3 => ⟨S1x1024x1024, .f32⟩
  | 4 => ⟨S84x1024x1024, .f32⟩
  | 5 => ⟨S84x1024x1024, .f32⟩
  | 6 => ⟨S84x1024x1024, .f32⟩
  | 7 => ⟨S_, .f32⟩
  | 8 => ⟨S84x1024x1024, .f32⟩
  | 9 => ⟨S84x1024x1024, .f32⟩
  | 10 => ⟨S_, .f32⟩
  | 11 => ⟨S1024x1024, .f32⟩
  | 12 => ⟨S1x1, .f32⟩
  | 13 => ⟨S1024x1024, .f32⟩
  | 14 => ⟨S1024x1024, .f32⟩
  | 15 => ⟨S1024x1024, .f32⟩
  | 16 => ⟨S_, .f32⟩
  | 17 => ⟨S_, .f32⟩
  | 18 => ⟨S1062x1062, .f32⟩
  | 19 => ⟨S116x1, .i32⟩
  | 20 => ⟨S116, .i32⟩
  | 21 => ⟨S_, .i32⟩
  | 22 => ⟨S116, .i32⟩
  | 23 => ⟨S116, .i32⟩
  | 24 => ⟨S116x1, .i32⟩
  | 25 => ⟨S116, .i32⟩
  | 26 => ⟨S_, .i32⟩
  | 27 => ⟨S116, .i32⟩
  | 28 => ⟨S116, .i32⟩
  | 29 => ⟨S_, .i32⟩
  | 30 => ⟨S116, .i32⟩
  | 31 => ⟨S116, .i1⟩
  | 32 => ⟨S_, .i32⟩
  | 33 => ⟨S116, .i32⟩
  | 34 => ⟨S116, .i32⟩
  | 35 => ⟨S116, .i32⟩
  | 36 => ⟨S_, .i32⟩
  | 37 => ⟨S116, .i32⟩
  | 38 => ⟨S116, .i1⟩
  | 39 => ⟨S_, .i32⟩
  | 40 => ⟨S116, .i32⟩
  | 41 => ⟨S116, .i32⟩
  | 42 => ⟨S116, .i32⟩
  | 43 => ⟨S116x1, .i32⟩
  | 44 => ⟨S116x1, .i32⟩
  | 45 => ⟨S116x2, .i32⟩
  | 46 => ⟨S116x1024x1024, .f32⟩
  | 47 => ⟨S1x1024x1024, .f32⟩
  | 48 => ⟨S116x1024x1024, .f32⟩
  | 49 => ⟨S116x1024x1024, .f32⟩
  | 50 => ⟨S116x1024x1024, .f32⟩
  | 51 => ⟨S_, .f32⟩
  | 52 => ⟨S116x1024x1024, .f32⟩
  | 53 => ⟨S116x1024x1024, .f32⟩
  | 54 => ⟨S_, .f32⟩
  | 55 => ⟨S1024x1024, .f32⟩
  | 56 => ⟨S1x1, .f32⟩
  | 57 => ⟨S1024x1024, .f32⟩
  | 58 => ⟨S1024x1024, .f32⟩
  | 59 => ⟨S1024x1024, .f32⟩
  | 60 => ⟨S1, .f32⟩
  | 61 => ⟨S1, .f32⟩
  | 62 => ⟨S1, .f32⟩
  | 63 => ⟨S1x1, .f32⟩
  | 64 => ⟨S1024x1024, .f32⟩
  | 65 => ⟨S1024x1024, .f32⟩
  | 66 => ⟨S_, .f32⟩
  | 67 => ⟨S_, .f32⟩
  | 68 => ⟨S1038x1038, .f32⟩
  | 69 => ⟨S40x1, .i32⟩
  | 70 => ⟨S40, .i32⟩
  | 71 => ⟨S_, .i32⟩
  | 72 => ⟨S40, .i32⟩
  | 73 => ⟨S40, .i32⟩
  | 74 => ⟨S40x1, .i32⟩
  | 75 => ⟨S40, .i32⟩
  | 76 => ⟨S_, .i32⟩
  | 77 => ⟨S40, .i32⟩
  | 78 => ⟨S40, .i32⟩
  | 79 => ⟨S_, .i32⟩
  | 80 => ⟨S40, .i32⟩
  | 81 => ⟨S40, .i1⟩
  | 82 => ⟨S_, .i32⟩
  | 83 => ⟨S40, .i32⟩
  | 84 => ⟨S40, .i32⟩
  | 85 => ⟨S40, .i32⟩
  | 86 => ⟨S_, .i32⟩
  | 87 => ⟨S40, .i32⟩
  | 88 => ⟨S40, .i1⟩
  | 89 => ⟨S_, .i32⟩
  | 90 => ⟨S40, .i32⟩
  | 91 => ⟨S40, .i32⟩
  | 92 => ⟨S40, .i32⟩
  | 93 => ⟨S40x1, .i32⟩
  | 94 => ⟨S40x1, .i32⟩
  | 95 => ⟨S40x2, .i32⟩
  | 96 => ⟨S40x1024x1024, .f32⟩
  | 97 => ⟨S1x1024x1024, .f32⟩
  | 98 => ⟨S40x1024x1024, .f32⟩
  | 99 => ⟨S40x1024x1024, .f32⟩
  | 100 => ⟨S40x1024x1024, .f32⟩
  | 101 => ⟨S_, .f32⟩
  | 102 => ⟨S40x1024x1024, .f32⟩
  | 103 => ⟨S40x1024x1024, .f32⟩
  | 104 => ⟨S_, .f32⟩
  | 105 => ⟨S1024x1024, .f32⟩
  | 106 => ⟨S1x1, .f32⟩
  | 107 => ⟨S1024x1024, .f32⟩
  | 108 => ⟨S1024x1024, .f32⟩
  | 109 => ⟨S_, .f32⟩
  | 110 => ⟨S_, .f32⟩
  | 111 => ⟨S1046x1046, .f32⟩
  | 112 => ⟨S72x1, .i32⟩
  | 113 => ⟨S72, .i32⟩
  | 114 => ⟨S_, .i32⟩
  | 115 => ⟨S72, .i32⟩
  | 116 => ⟨S72, .i32⟩
  | 117 => ⟨S72x1, .i32⟩
  | 118 => ⟨S72, .i32⟩
  | 119 => ⟨S_, .i32⟩
  | 120 => ⟨S72, .i32⟩
  | 121 => ⟨S72, .i32⟩
  | 122 => ⟨S_, .i32⟩
  | 123 => ⟨S72, .i32⟩
  | 124 => ⟨S72, .i1⟩
  | 125 => ⟨S_, .i32⟩
  | 126 => ⟨S72, .i32⟩
  | 127 => ⟨S72, .i32⟩
  | _ => ⟨S1024x1024, .f32⟩

abbrev hbmTy0_2 (i : Nat) : BufTy := match i % 128 with
  | 0 => ⟨S72, .i32⟩
  | 1 => ⟨S_, .i32⟩
  | 2 => ⟨S72, .i32⟩
  | 3 => ⟨S72, .i1⟩
  | 4 => ⟨S_, .i32⟩
  | 5 => ⟨S72, .i32⟩
  | 6 => ⟨S72, .i32⟩
  | 7 => ⟨S72, .i32⟩
  | 8 => ⟨S72x1, .i32⟩
  | 9 => ⟨S72x1, .i32⟩
  | 10 => ⟨S72x2, .i32⟩
  | 11 => ⟨S72x1024x1024, .f32⟩
  | 12 => ⟨S1x1024x1024, .f32⟩
  | 13 => ⟨S72x1024x1024, .f32⟩
  | 14 => ⟨S72x1024x1024, .f32⟩
  | 15 => ⟨S72x1024x1024, .f32⟩
  | 16 => ⟨S_, .f32⟩
  | 17 => ⟨S72x1024x1024, .f32⟩
  | 18 => ⟨S72x1024x1024, .f32⟩
  | 19 => ⟨S_, .f32⟩
  | 20 => ⟨S1024x1024, .f32⟩
  | 21 => ⟨S1x1, .f32⟩
  | 22 => ⟨S1024x1024, .f32⟩
  | 23 => ⟨S1024x1024, .f32⟩
  | 24 => ⟨S1024x1024, .f32⟩
  | 25 => ⟨S_, .f32⟩
  | 26 => ⟨S_, .f32⟩
  | 27 => ⟨S1054x1054, .f32⟩
  | 28 => ⟨S84x1, .i32⟩
  | 29 => ⟨S84, .i32⟩
  | 30 => ⟨S_, .i32⟩
  | 31 => ⟨S84, .i32⟩
  | 32 => ⟨S84, .i32⟩
  | 33 => ⟨S84x1, .i32⟩
  | 34 => ⟨S84, .i32⟩
  | 35 => ⟨S_, .i32⟩
  | 36 => ⟨S84, .i32⟩
  | 37 => ⟨S84, .i32⟩
  | 38 => ⟨S_, .i32⟩
  | 39 => ⟨S84, .i32⟩
  | 40 => ⟨S84, .i1⟩
  | 41 => ⟨S_, .i32⟩
  | 42 => ⟨S84, .i32⟩
  | 43 => ⟨S84, .i32⟩
  | 44 => ⟨S84, .i32⟩
  | 45 => ⟨S_, .i32⟩
  | 46 => ⟨S84, .i32⟩
  | 47 => ⟨S84, .i1⟩
  | 48 => ⟨S_, .i32⟩
  | 49 => ⟨S84, .i32⟩
  | 50 => ⟨S84, .i32⟩
  | 51 => ⟨S84, .i32⟩
  | 52 => ⟨S84x1, .i32⟩
  | 53 => ⟨S84x1, .i32⟩
  | 54 => ⟨S84x2, .i32⟩
  | 55 => ⟨S84x1024x1024, .f32⟩
  | 56 => ⟨S1x1024x1024, .f32⟩
  | 57 => ⟨S84x1024x1024, .f32⟩
  | 58 => ⟨S84x1024x1024, .f32⟩
  | 59 => ⟨S84x1024x1024, .f32⟩
  | 60 => ⟨S_, .f32⟩
  | 61 => ⟨S84x1024x1024, .f32⟩
  | 62 => ⟨S84x1024x1024, .f32⟩
  | 63 => ⟨S_, .f32⟩
  | 64 => ⟨S1024x1024, .f32⟩
  | 65 => ⟨S1x1, .f32⟩
  | 66 => ⟨S1024x1024, .f32⟩
  | 67 => ⟨S1024x1024, .f32⟩
  | 68 => ⟨S1024x1024, .f32⟩
  | 69 => ⟨S_, .f32⟩
  | 70 => ⟨S_, .f32⟩
  | 71 => ⟨S1062x1062, .f32⟩
  | 72 => ⟨S116x1, .i32⟩
  | 73 => ⟨S116, .i32⟩
  | 74 => ⟨S_, .i32⟩
  | 75 => ⟨S116, .i32⟩
  | 76 => ⟨S116, .i32⟩
  | 77 => ⟨S116x1, .i32⟩
  | 78 => ⟨S116, .i32⟩
  | 79 => ⟨S_, .i32⟩
  | 80 => ⟨S116, .i32⟩
  | 81 => ⟨S116, .i32⟩
  | 82 => ⟨S_, .i32⟩
  | 83 => ⟨S116, .i32⟩
  | 84 => ⟨S116, .i1⟩
  | 85 => ⟨S_, .i32⟩
  | 86 => ⟨S116, .i32⟩
  | 87 => ⟨S116, .i32⟩
  | 88 => ⟨S116, .i32⟩
  | 89 => ⟨S_, .i32⟩
  | 90 => ⟨S116, .i32⟩
  | 91 => ⟨S116, .i1⟩
  | 92 => ⟨S_, .i32⟩
  | 93 => ⟨S116, .i32⟩
  | 94 => ⟨S116, .i32⟩
  | 95 => ⟨S116, .i32⟩
  | 96 => ⟨S116x1, .i32⟩
  | 97 => ⟨S116x1, .i32⟩
  | 98 => ⟨S116x2, .i32⟩
  | 99 => ⟨S116x1024x1024, .f32⟩
  | 100 => ⟨S1x1024x1024, .f32⟩
  | 101 => ⟨S116x1024x1024, .f32⟩
  | 102 => ⟨S116x1024x1024, .f32⟩
  | 103 => ⟨S116x1024x1024, .f32⟩
  | 104 => ⟨S_, .f32⟩
  | 105 => ⟨S116x1024x1024, .f32⟩
  | 106 => ⟨S116x1024x1024, .f32⟩
  | 107 => ⟨S_, .f32⟩
  | 108 => ⟨S1024x1024, .f32⟩
  | 109 => ⟨S1x1, .f32⟩
  | 110 => ⟨S1024x1024, .f32⟩
  | 111 => ⟨S1024x1024, .f32⟩
  | 112 => ⟨S1024x1024, .f32⟩
  | 113 => ⟨S1, .f32⟩
  | 114 => ⟨S1, .f32⟩
  | 115 => ⟨S1, .f32⟩
  | 116 => ⟨S1x1, .f32⟩
  | 117 => ⟨S1024x1024, .f32⟩
  | 118 => ⟨S1024x1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_cst : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_7 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_8 : Ref sig .tc := ⟨.hbm, 23, rfl⟩
abbrev main_v7 : Ref sig .tc := ⟨.hbm, 24, rfl⟩
abbrev main_v8 : Ref sig .tc := ⟨.hbm, 25, rfl⟩
abbrev main_c_9 : Ref sig .tc := ⟨.hbm, 26, rfl⟩
abbrev main_v9 : Ref sig .tc := ⟨.hbm, 27, rfl⟩
abbrev main_v10 : Ref sig .tc := ⟨.hbm, 28, rfl⟩
abbrev main_c_10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_11 : Ref sig .tc := ⟨.hbm, 33, rfl⟩
abbrev main_v14 : Ref sig .tc := ⟨.hbm, 34, rfl⟩
abbrev main_v15 : Ref sig .tc := ⟨.hbm, 35, rfl⟩
abbrev main_c_12 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_13 : Ref sig .tc := ⟨.hbm, 48, rfl⟩
abbrev main_v27 : Ref sig .tc := ⟨.hbm, 49, rfl⟩
abbrev main_v28 : Ref sig .tc := ⟨.hbm, 50, rfl⟩
abbrev main_cst_14 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_15 : Ref sig .tc := ⟨.hbm, 56, rfl⟩
abbrev main_call1_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_16 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_17 : Ref sig .tc := ⟨.hbm, 66, rfl⟩
abbrev main_v40 : Ref sig .tc := ⟨.hbm, 67, rfl⟩
abbrev main_v41 : Ref sig .tc := ⟨.hbm, 68, rfl⟩
abbrev main_c_18 : Ref sig .tc := ⟨.hbm, 69, rfl⟩
abbrev main_v42 : Ref sig .tc := ⟨.hbm, 70, rfl⟩
abbrev main_v43 : Ref sig .tc := ⟨.hbm, 71, rfl⟩
abbrev main_c_19 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_20 : Ref sig .tc := ⟨.hbm, 76, rfl⟩
abbrev main_v47 : Ref sig .tc := ⟨.hbm, 77, rfl⟩
abbrev main_v48 : Ref sig .tc := ⟨.hbm, 78, rfl⟩
abbrev main_c_21 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_22 : Ref sig .tc := ⟨.hbm, 91, rfl⟩
abbrev main_v60 : Ref sig .tc := ⟨.hbm, 92, rfl⟩
abbrev main_v61 : Ref sig .tc := ⟨.hbm, 93, rfl⟩
abbrev main_cst_23 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_24 : Ref sig .tc := ⟨.hbm, 100, rfl⟩
abbrev main_call2_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_25 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_26 : Ref sig .tc := ⟨.hbm, 110, rfl⟩
abbrev main_v74 : Ref sig .tc := ⟨.hbm, 111, rfl⟩
abbrev main_v75 : Ref sig .tc := ⟨.hbm, 112, rfl⟩
abbrev main_c_27 : Ref sig .tc := ⟨.hbm, 113, rfl⟩
abbrev main_v76 : Ref sig .tc := ⟨.hbm, 114, rfl⟩
abbrev main_v77 : Ref sig .tc := ⟨.hbm, 115, rfl⟩
abbrev main_c_28 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_29 : Ref sig .tc := ⟨.hbm, 120, rfl⟩
abbrev main_v81 : Ref sig .tc := ⟨.hbm, 121, rfl⟩
abbrev main_v82 : Ref sig .tc := ⟨.hbm, 122, rfl⟩
abbrev main_c_30 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_31 : Ref sig .tc := ⟨.hbm, 135, rfl⟩
abbrev main_v94 : Ref sig .tc := ⟨.hbm, 136, rfl⟩
abbrev main_v95 : Ref sig .tc := ⟨.hbm, 137, rfl⟩
abbrev main_cst_32 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_33 : Ref sig .tc := ⟨.hbm, 144, rfl⟩
abbrev main_call3_v0 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_34 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_35 : Ref sig .tc := ⟨.hbm, 154, rfl⟩
abbrev main_v108 : Ref sig .tc := ⟨.hbm, 155, rfl⟩
abbrev main_v109 : Ref sig .tc := ⟨.hbm, 156, rfl⟩
abbrev main_c_36 : Ref sig .tc := ⟨.hbm, 157, rfl⟩
abbrev main_v110 : Ref sig .tc := ⟨.hbm, 158, rfl⟩
abbrev main_v111 : Ref sig .tc := ⟨.hbm, 159, rfl⟩
abbrev main_c_37 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_c_38 : Ref sig .tc := ⟨.hbm, 164, rfl⟩
abbrev main_v115 : Ref sig .tc := ⟨.hbm, 165, rfl⟩
abbrev main_v116 : Ref sig .tc := ⟨.hbm, 166, rfl⟩
abbrev main_c_39 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_40 : Ref sig .tc := ⟨.hbm, 179, rfl⟩
abbrev main_v128 : Ref sig .tc := ⟨.hbm, 180, rfl⟩
abbrev main_v129 : Ref sig .tc := ⟨.hbm, 181, rfl⟩
abbrev main_cst_41 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_42 : Ref sig .tc := ⟨.hbm, 194, rfl⟩
abbrev main_call4_v0 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_c_43 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_c_44 : Ref sig .tc := ⟨.hbm, 204, rfl⟩
abbrev main_v148 : Ref sig .tc := ⟨.hbm, 205, rfl⟩
abbrev main_v149 : Ref sig .tc := ⟨.hbm, 206, rfl⟩
abbrev main_c_45 : Ref sig .tc := ⟨.hbm, 207, rfl⟩
abbrev main_v150 : Ref sig .tc := ⟨.hbm, 208, rfl⟩
abbrev main_v151 : Ref sig .tc := ⟨.hbm, 209, rfl⟩
abbrev main_c_46 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_c_47 : Ref sig .tc := ⟨.hbm, 214, rfl⟩
abbrev main_v155 : Ref sig .tc := ⟨.hbm, 215, rfl⟩
abbrev main_v156 : Ref sig .tc := ⟨.hbm, 216, rfl⟩
abbrev main_c_48 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_49 : Ref sig .tc := ⟨.hbm, 229, rfl⟩
abbrev main_v168 : Ref sig .tc := ⟨.hbm, 230, rfl⟩
abbrev main_v169 : Ref sig .tc := ⟨.hbm, 231, rfl⟩
abbrev main_cst_50 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_51 : Ref sig .tc := ⟨.hbm, 237, rfl⟩
abbrev main_call5_v0 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_c_52 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_c_53 : Ref sig .tc := ⟨.hbm, 247, rfl⟩
abbrev main_v181 : Ref sig .tc := ⟨.hbm, 248, rfl⟩
abbrev main_v182 : Ref sig .tc := ⟨.hbm, 249, rfl⟩
abbrev main_c_54 : Ref sig .tc := ⟨.hbm, 250, rfl⟩
abbrev main_v183 : Ref sig .tc := ⟨.hbm, 251, rfl⟩
abbrev main_v184 : Ref sig .tc := ⟨.hbm, 252, rfl⟩
abbrev main_c_55 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_c_56 : Ref sig .tc := ⟨.hbm, 257, rfl⟩
abbrev main_v188 : Ref sig .tc := ⟨.hbm, 258, rfl⟩
abbrev main_v189 : Ref sig .tc := ⟨.hbm, 259, rfl⟩
abbrev main_c_57 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_cst_58 : Ref sig .tc := ⟨.hbm, 272, rfl⟩
abbrev main_v201 : Ref sig .tc := ⟨.hbm, 273, rfl⟩
abbrev main_v202 : Ref sig .tc := ⟨.hbm, 274, rfl⟩
abbrev main_cst_59 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_cst_60 : Ref sig .tc := ⟨.hbm, 281, rfl⟩
abbrev main_call6_v0 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_c_61 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_c_62 : Ref sig .tc := ⟨.hbm, 291, rfl⟩
abbrev main_v215 : Ref sig .tc := ⟨.hbm, 292, rfl⟩
abbrev main_v216 : Ref sig .tc := ⟨.hbm, 293, rfl⟩
abbrev main_c_63 : Ref sig .tc := ⟨.hbm, 294, rfl⟩
abbrev main_v217 : Ref sig .tc := ⟨.hbm, 295, rfl⟩
abbrev main_v218 : Ref sig .tc := ⟨.hbm, 296, rfl⟩
abbrev main_c_64 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_c_65 : Ref sig .tc := ⟨.hbm, 301, rfl⟩
abbrev main_v222 : Ref sig .tc := ⟨.hbm, 302, rfl⟩
abbrev main_v223 : Ref sig .tc := ⟨.hbm, 303, rfl⟩
abbrev main_c_66 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_cst_67 : Ref sig .tc := ⟨.hbm, 316, rfl⟩
abbrev main_v235 : Ref sig .tc := ⟨.hbm, 317, rfl⟩
abbrev main_v236 : Ref sig .tc := ⟨.hbm, 318, rfl⟩
abbrev main_cst_68 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_cst_69 : Ref sig .tc := ⟨.hbm, 325, rfl⟩
abbrev main_call7_v0 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_c_70 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_c_71 : Ref sig .tc := ⟨.hbm, 335, rfl⟩
abbrev main_v249 : Ref sig .tc := ⟨.hbm, 336, rfl⟩
abbrev main_v250 : Ref sig .tc := ⟨.hbm, 337, rfl⟩
abbrev main_c_72 : Ref sig .tc := ⟨.hbm, 338, rfl⟩
abbrev main_v251 : Ref sig .tc := ⟨.hbm, 339, rfl⟩
abbrev main_v252 : Ref sig .tc := ⟨.hbm, 340, rfl⟩
abbrev main_c_73 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_c_74 : Ref sig .tc := ⟨.hbm, 345, rfl⟩
abbrev main_v256 : Ref sig .tc := ⟨.hbm, 346, rfl⟩
abbrev main_v257 : Ref sig .tc := ⟨.hbm, 347, rfl⟩
abbrev main_c_75 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_cst_76 : Ref sig .tc := ⟨.hbm, 360, rfl⟩
abbrev main_v269 : Ref sig .tc := ⟨.hbm, 361, rfl⟩
abbrev main_v270 : Ref sig .tc := ⟨.hbm, 362, rfl⟩
abbrev main_cst_77 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_v274 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩

abbrev nD : Nat := 1
abbrev τ : Topo := Topo.v7x

variable {F : FTy → Type} [FloatOps F]

class Facts₀ : Prop where
  pads_S1024x1024_S1038x1038_770_770 : S1024x1024.Pads (![7, 7] : Fin 2 → Nat) ![7, 7] ![0, 0] S1038x1038
  h_S_ : 0 < S_.numel
  slices_S40x2_S40x1_0_0 : S40x2.Slices ![0, 0] S40x1
  shapeCasts_S40x1_S40 : S40x1.ShapeCasts S40
  bcast_S_S40 : S_.BroadcastsInDim S40 (![] : Fin 0 → Fin S40.rank)
  slices_S40x2_S40x1_0_1 : S40x2.Slices ![0, 1] S40x1
  bcast_S40_S40x1_0 : S40.BroadcastsInDim S40x1 (![0] : Fin 1 → Fin S40x1.rank)
  concatenates_S40x1_S40x1_S40x2_d1 : Shape.Concatenates [S40x1, S40x1] S40x2 1
  bcast_S1024x1024_S1x1024x1024_1_2 : S1024x1024.BroadcastsInDim S1x1024x1024 (![1, 2] : Fin 2 → Fin S1x1024x1024.rank)
  bcast_S1x1024x1024_S40x1024x1024_0_1_2 : S1x1024x1024.BroadcastsInDim S40x1024x1024 (![0, 1, 2] : Fin 3 → Fin S40x1024x1024.rank)
  bcast_S_S40x1024x1024 : S_.BroadcastsInDim S40x1024x1024 (![] : Fin 0 → Fin S40x1024x1024.rank)
  reducesTo_S40x1024x1024_S1024x1024_d0 : S40x1024x1024.ReducesTo [0] S1024x1024
  bcast_S1_S1x1_1 : S1.BroadcastsInDim S1x1 (![1] : Fin 1 → Fin S1x1.rank)
  bcast_S1x1_S1024x1024_0_1 : S1x1.BroadcastsInDim S1024x1024 (![0, 1] : Fin 2 → Fin S1024x1024.rank)
  pads_S1024x1024_S1046x1046_11110_11110 : S1024x1024.Pads (![11, 11] : Fin 2 → Nat) ![11, 11] ![0, 0] S1046x1046
  slices_S72x2_S72x1_0_0 : S72x2.Slices ![0, 0] S72x1
  shapeCasts_S72x1_S72 : S72x1.ShapeCasts S72
  bcast_S_S72 : S_.BroadcastsInDim S72 (![] : Fin 0 → Fin S72.rank)
  slices_S72x2_S72x1_0_1 : S72x2.Slices ![0, 1] S72x1
  bcast_S72_S72x1_0 : S72.BroadcastsInDim S72x1 (![0] : Fin 1 → Fin S72x1.rank)
  concatenates_S72x1_S72x1_S72x2_d1 : Shape.Concatenates [S72x1, S72x1] S72x2 1
  bcast_S1x1024x1024_S72x1024x1024_0_1_2 : S1x1024x1024.BroadcastsInDim S72x1024x1024 (![0, 1, 2] : Fin 3 → Fin S72x1024x1024.rank)
  bcast_S_S72x1024x1024 : S_.BroadcastsInDim S72x1024x1024 (![] : Fin 0 → Fin S72x1024x1024.rank)
  reducesTo_S72x1024x1024_S1024x1024_d0 : S72x1024x1024.ReducesTo [0] S1024x1024
  pads_S1024x1024_S1054x1054_15150_15150 : S1024x1024.Pads (![15, 15] : Fin 2 → Nat) ![15, 15] ![0, 0] S1054x1054
  slices_S84x2_S84x1_0_0 : S84x2.Slices ![0, 0] S84x1
  shapeCasts_S84x1_S84 : S84x1.ShapeCasts S84
  bcast_S_S84 : S_.BroadcastsInDim S84 (![] : Fin 0 → Fin S84.rank)
  slices_S84x2_S84x1_0_1 : S84x2.Slices ![0, 1] S84x1
  bcast_S84_S84x1_0 : S84.BroadcastsInDim S84x1 (![0] : Fin 1 → Fin S84x1.rank)
  concatenates_S84x1_S84x1_S84x2_d1 : Shape.Concatenates [S84x1, S84x1] S84x2 1
  bcast_S1x1024x1024_S84x1024x1024_0_1_2 : S1x1024x1024.BroadcastsInDim S84x1024x1024 (![0, 1, 2] : Fin 3 → Fin S84x1024x1024.rank)
  bcast_S_S84x1024x1024 : S_.BroadcastsInDim S84x1024x1024 (![] : Fin 0 → Fin S84x1024x1024.rank)
  reducesTo_S84x1024x1024_S1024x1024_d0 : S84x1024x1024.ReducesTo [0] S1024x1024
  pads_S1024x1024_S1062x1062_19190_19190 : S1024x1024.Pads (![19, 19] : Fin 2 → Nat) ![19, 19] ![0, 0] S1062x1062
  slices_S116x2_S116x1_0_0 : S116x2.Slices ![0, 0] S116x1
  shapeCasts_S116x1_S116 : S116x1.ShapeCasts S116
  bcast_S_S116 : S_.BroadcastsInDim S116 (![] : Fin 0 → Fin S116.rank)
  slices_S116x2_S116x1_0_1 : S116x2.Slices ![0, 1] S116x1
  bcast_S116_S116x1_0 : S116.BroadcastsInDim S116x1 (![0] : Fin 1 → Fin S116x1.rank)
  concatenates_S116x1_S116x1_S116x2_d1 : Shape.Concatenates [S116x1, S116x1] S116x2 1
  bcast_S1x1024x1024_S116x1024x1024_0_1_2 : S1x1024x1024.BroadcastsInDim S116x1024x1024 (![0, 1, 2] : Fin 3 → Fin S116x1024x1024.rank)
  bcast_S_S116x1024x1024 : S_.BroadcastsInDim S116x1024x1024 (![] : Fin 0 → Fin S116x1024x1024.rank)
  reducesTo_S116x1024x1024_S1024x1024_d0 : S116x1024x1024.ReducesTo [0] S1024x1024
  gather_S1038x1038_S40x2_S40x1024x1024_12_n_n_n_01_1_10241024_wf : GatherDims.WF S1038x1038 S40x2 S40x1024x1024 [1, 2] [] [] [0, 1] [] 1 ![1024, 1024]
  gather_S1046x1046_S72x2_S72x1024x1024_12_n_n_n_01_1_10241024_wf : GatherDims.WF S1046x1046 S72x2 S72x1024x1024 [1, 2] [] [] [0, 1] [] 1 ![1024, 1024]
  gather_S1054x1054_S84x2_S84x1024x1024_12_n_n_n_01_1_10241024_wf : GatherDims.WF S1054x1054 S84x2 S84x1024x1024 [1, 2] [] [] [0, 1] [] 1 ![1024, 1024]
  gather_S1062x1062_S116x2_S116x1024x1024_12_n_n_n_01_1_10241024_wf : GatherDims.WF S1062x1062 S116x2 S116x1024x1024 [1, 2] [] [] [0, 1] [] 1 ![1024, 1024]

variable [Facts₀]

def gather_S1038x1038_S40x2_S40x1024x1024_12_n_n_n_01_1_10241024 : GatherDims S1038x1038 S40x2 S40x1024x1024 where
  offsetDims := [1, 2]
  collapsedSliceDims := []
  operandBatchingDims := []
  startIndicesBatchingDims := []
  startIndexMap := [0, 1]
  indexVectorDim := 1
  sliceSizes := ![1024, 1024]
  wf := gather_S1038x1038_S40x2_S40x1024x1024_12_n_n_n_01_1_10241024_wf
def gather_S1046x1046_S72x2_S72x1024x1024_12_n_n_n_01_1_10241024 : GatherDims S1046x1046 S72x2 S72x1024x1024 where
  offsetDims := [1, 2]
  collapsedSliceDims := []
  operandBatchingDims := []
  startIndicesBatchingDims := []
  startIndexMap := [0, 1]
  indexVectorDim := 1
  sliceSizes := ![1024, 1024]
  wf := gather_S1046x1046_S72x2_S72x1024x1024_12_n_n_n_01_1_10241024_wf
def gather_S1054x1054_S84x2_S84x1024x1024_12_n_n_n_01_1_10241024 : GatherDims S1054x1054 S84x2 S84x1024x1024 where
  offsetDims := [1, 2]
  collapsedSliceDims := []
  operandBatchingDims := []
  startIndicesBatchingDims := []
  startIndexMap := [0, 1]
  indexVectorDim := 1
  sliceSizes := ![1024, 1024]
  wf := gather_S1054x1054_S84x2_S84x1024x1024_12_n_n_n_01_1_10241024_wf
def gather_S1062x1062_S116x2_S116x1024x1024_12_n_n_n_01_1_10241024 : GatherDims S1062x1062 S116x2 S116x1024x1024 where
  offsetDims := [1, 2]
  collapsedSliceDims := []
  operandBatchingDims := []
  startIndicesBatchingDims := []
  startIndexMap := [0, 1]
  indexVectorDim := 1
  sliceSizes := ![1024, 1024]
  wf := gather_S1062x1062_S116x2_S116x1024x1024_12_n_n_n_01_1_10241024_wf

class Facts : Prop extends Facts₀ where

variable [Facts]
-- ==== Proof.KB.Out0.lean ====
/- The table of rectangles kernel 0's body reads and writes through, and the term its one store writes with every load
   replaced by the read of the input block through the load's rectangle and every part call by the part's returned terms. -/
import proofs.«126001_j6975026889201_2_alg».proof.Proof.Gen.Kernel.Skeleton
import Idealize.ShloMosaic.Lib.Pipeline.FrameBody

set_option maxRecDepth 16384

noncomputable section

namespace Cert.Kernel.Hand

open Idealize.ShloMosaic Cert.Kernel Cert.Kernel.Gen

variable {F : FTy → Type} [FloatOps F]

abbrev q0_S1_S1_0 : Rect S1 := Rect.unit (s := S1) ![0] S1.size inb_S1_S1_0
abbrev q0_S1x70x1062_S1x32x1024_0_19_19 : Rect S1x70x1062 := Rect.unit (s := S1x70x1062) ![0, 19, 19] S1x32x1024.size inb_S1x70x1062_S1x32x1024_0_19_19
abbrev q0_S1x70x1062_S1x32x1024_0_12_17 : Rect S1x70x1062 := Rect.unit (s := S1x70x1062) ![0, 12, 17] S1x32x1024.size inb_S1x70x1062_S1x32x1024_0_12_17
abbrev q0_S1x70x1062_S1x32x1024_0_12_18 : Rect S1x70x1062 := Rect.unit (s := S1x70x1062) ![0, 12, 18] S1x32x1024.size inb_S1x70x1062_S1x32x1024_0_12_18
abbrev q0_S1x70x1062_S1x32x1024_0_12_19 : Rect S1x70x1062 := Rect.unit (s := S1x70x1062) ![0, 12, 19] S1x32x1024.size inb_S1x70x1062_S1x32x1024_0_12_19
abbrev q0_S1x70x1062_S1x32x1024_0_12_20 : Rect S1x70x1062 := Rect.unit (s := S1x70x1062) ![0, 12, 20] S1x32x1024.size inb_S1x70x1062_S1x32x1024_0_12_20
abbrev q0_S1x70x1062_S1x32x1024_0_12_21 : Rect S1x70x1062 := Rect.unit (s := S1x70x1062) ![0, 12, 21] S1x32x1024.size inb_S1x70x1062_S1x32x1024_0_12_21
abbrev q0_S1x70x1062_S1x32x1024_0_13_15 : Rect S1x70x1062 := Rect.unit (s := S1x70x1062) ![0, 13, 15] S1x32x1024.size inb_S1x70x1062_S1x32x1024_0_13_15
abbrev q0_S1x70x1062_S1x32x1024_0_13_16 : Rect S1x70x1062 := Rect.unit (s := S1x70x1062) ![0, 13, 16] S1x32x1024.size inb_S1x70x1062_S1x32x1024_0_13_16
abbrev q0_S1x70x1062_S1x32x1024_0_13_22 : Rect S1x70x1062 := Rect.unit (s := S1x70x1062) ![0, 13, 22] S1x32x1024.size inb_S1x70x1062_S1x32x1024_0_13_22
abbrev q0_S1x70x1062_S1x32x1024_0_13_23 : Rect S1x70x1062 := Rect.unit (s := S1x70x1062) ![0, 13, 23] S1x32x1024.size inb_S1x70x1062_S1x32x1024_0_13_23
abbrev q0_S1x70x1062_S1x32x1024_0_14_14 : Rect S1x70x1062 := Rect.unit (s := S1x70x1062) ![0, 14, 14] S1x32x1024.size inb_S1x70x1062_S1x32x1024_0_14_14
abbrev q0_S1x70x1062_S1x32x1024_0_14_24 : Rect S1x70x1062 := Rect.unit (s := S1x70x1062) ![0, 14, 24] S1x32x1024.size inb_S1x70x1062_S1x32x1024_0_14_24
abbrev q0_S1x70x1062_S1x32x1024_0_15_13 : Rect S1x70x1062 := Rect.unit (s := S1x70x1062) ![0, 15, 13] S1x32x1024.size inb_S1x70x1062_S1x32x1024_0_15_13
abbrev q0_S1x70x1062_S1x32x1024_0_15_25 : Rect S1x70x1062 := Rect.unit (s := S1x70x1062) ![0, 15, 25] S1x32x1024.size inb_S1x70x1062_S1x32x1024_0_15_25
abbrev q0_S1x70x1062_S1x32x1024_0_16_13 : Rect S1x70x1062 := Rect.unit (s := S1x70x1062) ![0, 16, 13] S1x32x1024.size inb_S1x70x1062_S1x32x1024_0_16_13
abbrev q0_S1x70x1062_S1x32x1024_0_16_25 : Rect S1x70x1062 := Rect.unit (s := S1x70x1062) ![0, 16, 25] S1x32x1024.size inb_S1x70x1062_S1x32x1024_0_16_25
abbrev q0_S1x70x1062_S1x32x1024_0_17_12 : Rect S1x70x1062 := Rect.unit (s := S1x70x1062) ![0, 17, 12] S1x32x1024.size inb_S1x70x1062_S1x32x1024_0_17_12
abbrev q0_S1x70x1062_S1x32x1024_0_17_26 : Rect S1x70x1062 := Rect.unit (s := S1x70x1062) ![0, 17, 26] S1x32x1024.size inb_S1x70x1062_S1x32x1024_0_17_26
abbrev q0_S1x70x1062_S1x32x1024_0_18_12 : Rect S1x70x1062 := Rect.unit (s := S1x70x1062) ![0, 18, 12] S1x32x1024.size inb_S1x70x1062_S1x32x1024_0_18_12
abbrev q0_S1x70x1062_S1x32x1024_0_18_26 : Rect S1x70x1062 := Rect.unit (s := S1x70x1062) ![0, 18, 26] S1x32x1024.size inb_S1x70x1062_S1x32x1024_0_18_26
abbrev q0_S1x70x1062_S1x32x1024_0_19_12 : Rect S1x70x1062 := Rect.unit (s := S1x70x1062) ![0, 19, 12] S1x32x1024.size inb_S1x70x1062_S1x32x1024_0_19_12
abbrev q0_S1x70x1062_S1x32x1024_0_19_26 : Rect S1x70x1062 := Rect.unit (s := S1x70x1062) ![0, 19, 26] S1x32x1024.size inb_S1x70x1062_S1x32x1024_0_19_26
abbrev q0_S1x70x1062_S1x32x1024_0_20_12 : Rect S1x70x1062 := Rect.unit (s := S1x70x1062) ![0, 20, 12] S1x32x1024.size inb_S1x70x1062_S1x32x1024_0_20_12
abbrev q0_S1x70x1062_S1x32x1024_0_20_26 : Rect S1x70x1062 := Rect.unit (s := S1x70x1062) ![0, 20, 26] S1x32x1024.size inb_S1x70x1062_S1x32x1024_0_20_26
abbrev q0_S1x70x1062_S1x32x1024_0_21_12 : Rect S1x70x1062 := Rect.unit (s := S1x70x1062) ![0, 21, 12] S1x32x1024.size inb_S1x70x1062_S1x32x1024_0_21_12
abbrev q0_S1x70x1062_S1x32x1024_0_21_26 : Rect S1x70x1062 := Rect.unit (s := S1x70x1062) ![0, 21, 26] S1x32x1024.size inb_S1x70x1062_S1x32x1024_0_21_26
abbrev q0_S1x70x1062_S1x32x1024_0_22_13 : Rect S1x70x1062 := Rect.unit (s := S1x70x1062) ![0, 22, 13] S1x32x1024.size inb_S1x70x1062_S1x32x1024_0_22_13
abbrev q0_S1x70x1062_S1x32x1024_0_22_25 : Rect S1x70x1062 := Rect.unit (s := S1x70x1062) ![0, 22, 25] S1x32x1024.size inb_S1x70x1062_S1x32x1024_0_22_25
abbrev q0_S1x70x1062_S1x32x1024_0_23_13 : Rect S1x70x1062 := Rect.unit (s := S1x70x1062) ![0, 23, 13] S1x32x1024.size inb_S1x70x1062_S1x32x1024_0_23_13
abbrev q0_S1x70x1062_S1x32x1024_0_23_25 : Rect S1x70x1062 := Rect.unit (s := S1x70x1062) ![0, 23, 25] S1x32x1024.size inb_S1x70x1062_S1x32x1024_0_23_25
abbrev q0_S1x70x1062_S1x32x1024_0_24_14 : Rect S1x70x1062 := Rect.unit (s := S1x70x1062) ![0, 24, 14] S1x32x1024.size inb_S1x70x1062_S1x32x1024_0_24_14
abbrev q0_S1x70x1062_S1x32x1024_0_24_24 : Rect S1x70x1062 := Rect.unit (s := S1x70x1062) ![0, 24, 24] S1x32x1024.size inb_S1x70x1062_S1x32x1024_0_24_24
abbrev q0_S1x70x1062_S1x32x1024_0_25_15 : Rect S1x70x1062 := Rect.unit (s := S1x70x1062) ![0, 25, 15] S1x32x1024.size inb_S1x70x1062_S1x32x1024_0_25_15
abbrev q0_S1x70x1062_S1x32x1024_0_25_16 : Rect S1x70x1062 := Rect.unit (s := S1x70x1062) ![0, 25, 16] S1x32x1024.size inb_S1x70x1062_S1x32x1024_0_25_16
abbrev q0_S1x70x1062_S1x32x1024_0_25_22 : Rect S1x70x1062 := Rect.unit (s := S1x70x1062) ![0, 25, 22] S1x32x1024.size inb_S1x70x1062_S1x32x1024_0_25_22
abbrev q0_S1x70x1062_S1x32x1024_0_25_23 : Rect S1x70x1062 := Rect.unit (s := S1x70x1062) ![0, 25, 23] S1x32x1024.size inb_S1x70x1062_S1x32x1024_0_25_23
abbrev q0_S1x70x1062_S1x32x1024_0_26_17 : Rect S1x70x1062 := Rect.unit (s := S1x70x1062) ![0, 26, 17] S1x32x1024.size inb_S1x70x1062_S1x32x1024_0_26_17
abbrev q0_S1x70x1062_S1x32x1024_0_26_18 : Rect S1x70x1062 := Rect.unit (s := S1x70x1062) ![0, 26, 18] S1x32x1024.size inb_S1x70x1062_S1x32x1024_0_26_18
abbrev q0_S1x70x1062_S1x32x1024_0_26_19 : Rect S1x70x1062 := Rect.unit (s := S1x70x1062) ![0, 26, 19] S1x32x1024.size inb_S1x70x1062_S1x32x1024_0_26_19
abbrev q0_S1x70x1062_S1x32x1024_0_26_20 : Rect S1x70x1062 := Rect.unit (s := S1x70x1062) ![0, 26, 20] S1x32x1024.size inb_S1x70x1062_S1x32x1024_0_26_20
abbrev q0_S1x70x1062_S1x32x1024_0_26_21 : Rect S1x70x1062 := Rect.unit (s := S1x70x1062) ![0, 26, 21] S1x32x1024.size inb_S1x70x1062_S1x32x1024_0_26_21
abbrev q0_S1x70x1062_S1x32x1024_0_8_16 : Rect S1x70x1062 := Rect.unit (s := S1x70x1062) ![0, 8, 16] S1x32x1024.size inb_S1x70x1062_S1x32x1024_0_8_16
abbrev q0_S1x70x1062_S1x32x1024_0_8_17 : Rect S1x70x1062 := Rect.unit (s := S1x70x1062) ![0, 8, 17] S1x32x1024.size inb_S1x70x1062_S1x32x1024_0_8_17
abbrev q0_S1x70x1062_S1x32x1024_0_8_18 : Rect S1x70x1062 := Rect.unit (s := S1x70x1062) ![0, 8, 18] S1x32x1024.size inb_S1x70x1062_S1x32x1024_0_8_18
abbrev q0_S1x70x1062_S1x32x1024_0_8_19 : Rect S1x70x1062 := Rect.unit (s := S1x70x1062) ![0, 8, 19] S1x32x1024.size inb_S1x70x1062_S1x32x1024_0_8_19
abbrev q0_S1x70x1062_S1x32x1024_0_8_20 : Rect S1x70x1062 := Rect.unit (s := S1x70x1062) ![0, 8, 20] S1x32x1024.size inb_S1x70x1062_S1x32x1024_0_8_20
abbrev q0_S1x70x1062_S1x32x1024_0_8_21 : Rect S1x70x1062 := Rect.unit (s := S1x70x1062) ![0, 8, 21] S1x32x1024.size inb_S1x70x1062_S1x32x1024_0_8_21
abbrev q0_S1x70x1062_S1x32x1024_0_8_22 : Rect S1x70x1062 := Rect.unit (s := S1x70x1062) ![0, 8, 22] S1x32x1024.size inb_S1x70x1062_S1x32x1024_0_8_22
abbrev q0_S1x70x1062_S1x32x1024_0_9_14 : Rect S1x70x1062 := Rect.unit (s := S1x70x1062) ![0, 9, 14] S1x32x1024.size inb_S1x70x1062_S1x32x1024_0_9_14
abbrev q0_S1x70x1062_S1x32x1024_0_9_15 : Rect S1x70x1062 := Rect.unit (s := S1x70x1062) ![0, 9, 15] S1x32x1024.size inb_S1x70x1062_S1x32x1024_0_9_15
abbrev q0_S1x70x1062_S1x32x1024_0_9_23 : Rect S1x70x1062 := Rect.unit (s := S1x70x1062) ![0, 9, 23] S1x32x1024.size inb_S1x70x1062_S1x32x1024_0_9_23
abbrev q0_S1x70x1062_S1x32x1024_0_9_24 : Rect S1x70x1062 := Rect.unit (s := S1x70x1062) ![0, 9, 24] S1x32x1024.size inb_S1x70x1062_S1x32x1024_0_9_24
abbrev q0_S1x70x1062_S1x32x1024_0_10_12 : Rect S1x70x1062 := Rect.unit (s := S1x70x1062) ![0, 10, 12] S1x32x1024.size inb_S1x70x1062_S1x32x1024_0_10_12
abbrev q0_S1x70x1062_S1x32x1024_0_10_13 : Rect S1x70x1062 := Rect.unit (s := S1x70x1062) ![0, 10, 13] S1x32x1024.size inb_S1x70x1062_S1x32x1024_0_10_13
abbrev q0_S1x70x1062_S1x32x1024_0_10_25 : Rect S1x70x1062 := Rect.unit (s := S1x70x1062) ![0, 10, 25] S1x32x1024.size inb_S1x70x1062_S1x32x1024_0_10_25
abbrev q0_S1x70x1062_S1x32x1024_0_10_26 : Rect S1x70x1062 := Rect.unit (s := S1x70x1062) ![0, 10, 26] S1x32x1024.size inb_S1x70x1062_S1x32x1024_0_10_26
abbrev q0_S1x70x1062_S1x32x1024_0_11_11 : Rect S1x70x1062 := Rect.unit (s := S1x70x1062) ![0, 11, 11] S1x32x1024.size inb_S1x70x1062_S1x32x1024_0_11_11
abbrev q0_S1x70x1062_S1x32x1024_0_11_12 : Rect S1x70x1062 := Rect.unit (s := S1x70x1062) ![0, 11, 12] S1x32x1024.size inb_S1x70x1062_S1x32x1024_0_11_12
abbrev q0_S1x70x1062_S1x32x1024_0_11_26 : Rect S1x70x1062 := Rect.unit (s := S1x70x1062) ![0, 11, 26] S1x32x1024.size inb_S1x70x1062_S1x32x1024_0_11_26
abbrev q0_S1x70x1062_S1x32x1024_0_11_27 : Rect S1x70x1062 := Rect.unit (s := S1x70x1062) ![0, 11, 27] S1x32x1024.size inb_S1x70x1062_S1x32x1024_0_11_27
abbrev q0_S1x70x1062_S1x32x1024_0_12_10 : Rect S1x70x1062 := Rect.unit (s := S1x70x1062) ![0, 12, 10] S1x32x1024.size inb_S1x70x1062_S1x32x1024_0_12_10
abbrev q0_S1x70x1062_S1x32x1024_0_12_11 : Rect S1x70x1062 := Rect.unit (s := S1x70x1062) ![0, 12, 11] S1x32x1024.size inb_S1x70x1062_S1x32x1024_0_12_11
abbrev q0_S1x70x1062_S1x32x1024_0_12_27 : Rect S1x70x1062 := Rect.unit (s := S1x70x1062) ![0, 12, 27] S1x32x1024.size inb_S1x70x1062_S1x32x1024_0_12_27
abbrev q0_S1x70x1062_S1x32x1024_0_12_28 : Rect S1x70x1062 := Rect.unit (s := S1x70x1062) ![0, 12, 28] S1x32x1024.size inb_S1x70x1062_S1x32x1024_0_12_28
abbrev q0_S1x70x1062_S1x32x1024_0_13_10 : Rect S1x70x1062 := Rect.unit (s := S1x70x1062) ![0, 13, 10] S1x32x1024.size inb_S1x70x1062_S1x32x1024_0_13_10
abbrev q0_S1x70x1062_S1x32x1024_0_13_28 : Rect S1x70x1062 := Rect.unit (s := S1x70x1062) ![0, 13, 28] S1x32x1024.size inb_S1x70x1062_S1x32x1024_0_13_28
abbrev q0_S1x70x1062_S1x32x1024_0_14_9 : Rect S1x70x1062 := Rect.unit (s := S1x70x1062) ![0, 14, 9] S1x32x1024.size inb_S1x70x1062_S1x32x1024_0_14_9
abbrev q0_S1x70x1062_S1x32x1024_0_14_29 : Rect S1x70x1062 := Rect.unit (s := S1x70x1062) ![0, 14, 29] S1x32x1024.size inb_S1x70x1062_S1x32x1024_0_14_29
abbrev q0_S1x70x1062_S1x32x1024_0_15_9 : Rect S1x70x1062 := Rect.unit (s := S1x70x1062) ![0, 15, 9] S1x32x1024.size inb_S1x70x1062_S1x32x1024_0_15_9
abbrev q0_S1x70x1062_S1x32x1024_0_15_29 : Rect S1x70x1062 := Rect.unit (s := S1x70x1062) ![0, 15, 29] S1x32x1024.size inb_S1x70x1062_S1x32x1024_0_15_29
abbrev q0_S1x70x1062_S1x32x1024_0_16_8 : Rect S1x70x1062 := Rect.unit (s := S1x70x1062) ![0, 16, 8] S1x32x1024.size inb_S1x70x1062_S1x32x1024_0_16_8
abbrev q0_S1x70x1062_S1x32x1024_0_16_30 : Rect S1x70x1062 := Rect.unit (s := S1x70x1062) ![0, 16, 30] S1x32x1024.size inb_S1x70x1062_S1x32x1024_0_16_30
abbrev q0_S1x70x1062_S1x32x1024_0_17_8 : Rect S1x70x1062 := Rect.unit (s := S1x70x1062) ![0, 17, 8] S1x32x1024.size inb_S1x70x1062_S1x32x1024_0_17_8
abbrev q0_S1x70x1062_S1x32x1024_0_17_30 : Rect S1x70x1062 := Rect.unit (s := S1x70x1062) ![0, 17, 30] S1x32x1024.size inb_S1x70x1062_S1x32x1024_0_17_30
abbrev q0_S1x70x1062_S1x32x1024_0_18_8 : Rect S1x70x1062 := Rect.unit (s := S1x70x1062) ![0, 18, 8] S1x32x1024.size inb_S1x70x1062_S1x32x1024_0_18_8
abbrev q0_S1x70x1062_S1x32x1024_0_18_30 : Rect S1x70x1062 := Rect.unit (s := S1x70x1062) ![0, 18, 30] S1x32x1024.size inb_S1x70x1062_S1x32x1024_0_18_30
abbrev q0_S1x70x1062_S1x32x1024_0_19_8 : Rect S1x70x1062 := Rect.unit (s := S1x70x1062) ![0, 19, 8] S1x32x1024.size inb_S1x70x1062_S1x32x1024_0_19_8
abbrev q0_S1x70x1062_S1x32x1024_0_19_30 : Rect S1x70x1062 := Rect.unit (s := S1x70x1062) ![0, 19, 30] S1x32x1024.size inb_S1x70x1062_S1x32x1024_0_19_30
abbrev q0_S1x70x1062_S1x32x1024_0_20_8 : Rect S1x70x1062 := Rect.unit (s := S1x70x1062) ![0, 20, 8] S1x32x1024.size inb_S1x70x1062_S1x32x1024_0_20_8
abbrev q0_S1x70x1062_S1x32x1024_0_20_30 : Rect S1x70x1062 := Rect.unit (s := S1x70x1062) ![0, 20, 30] S1x32x1024.size inb_S1x70x1062_S1x32x1024_0_20_30
abbrev q0_S1x70x1062_S1x32x1024_0_21_8 : Rect S1x70x1062 := Rect.unit (s := S1x70x1062) ![0, 21, 8] S1x32x1024.size inb_S1x70x1062_S1x32x1024_0_21_8
abbrev q0_S1x70x1062_S1x32x1024_0_21_30 : Rect S1x70x1062 := Rect.unit (s := S1x70x1062) ![0, 21, 30] S1x32x1024.size inb_S1x70x1062_S1x32x1024_0_21_30
abbrev q0_S1x70x1062_S1x32x1024_0_22_8 : Rect S1x70x1062 := Rect.unit (s := S1x70x1062) ![0, 22, 8] S1x32x1024.size inb_S1x70x1062_S1x32x1024_0_22_8
abbrev q0_S1x70x1062_S1x32x1024_0_22_30 : Rect S1x70x1062 := Rect.unit (s := S1x70x1062) ![0, 22, 30] S1x32x1024.size inb_S1x70x1062_S1x32x1024_0_22_30
abbrev q0_S1x70x1062_S1x32x1024_0_23_9 : Rect S1x70x1062 := Rect.unit (s := S1x70x1062) ![0, 23, 9] S1x32x1024.size inb_S1x70x1062_S1x32x1024_0_23_9
abbrev q0_S1x70x1062_S1x32x1024_0_23_29 : Rect S1x70x1062 := Rect.unit (s := S1x70x1062) ![0, 23, 29] S1x32x1024.size inb_S1x70x1062_S1x32x1024_0_23_29
abbrev q0_S1x70x1062_S1x32x1024_0_24_9 : Rect S1x70x1062 := Rect.unit (s := S1x70x1062) ![0, 24, 9] S1x32x1024.size inb_S1x70x1062_S1x32x1024_0_24_9
abbrev q0_S1x70x1062_S1x32x1024_0_24_29 : Rect S1x70x1062 := Rect.unit (s := S1x70x1062) ![0, 24, 29] S1x32x1024.size inb_S1x70x1062_S1x32x1024_0_24_29
abbrev q0_S1x70x1062_S1x32x1024_0_25_10 : Rect S1x70x1062 := Rect.unit (s := S1x70x1062) ![0, 25, 10] S1x32x1024.size inb_S1x70x1062_S1x32x1024_0_25_10
abbrev q0_S1x70x1062_S1x32x1024_0_25_28 : Rect S1x70x1062 := Rect.unit (s := S1x70x1062) ![0, 25, 28] S1x32x1024.size inb_S1x70x1062_S1x32x1024_0_25_28
abbrev q0_S1x70x1062_S1x32x1024_0_26_10 : Rect S1x70x1062 := Rect.unit (s := S1x70x1062) ![0, 26, 10] S1x32x1024.size inb_S1x70x1062_S1x32x1024_0_26_10
abbrev q0_S1x70x1062_S1x32x1024_0_26_11 : Rect S1x70x1062 := Rect.unit (s := S1x70x1062) ![0, 26, 11] S1x32x1024.size inb_S1x70x1062_S1x32x1024_0_26_11
abbrev q0_S1x70x1062_S1x32x1024_0_26_27 : Rect S1x70x1062 := Rect.unit (s := S1x70x1062) ![0, 26, 27] S1x32x1024.size inb_S1x70x1062_S1x32x1024_0_26_27
abbrev q0_S1x70x1062_S1x32x1024_0_26_28 : Rect S1x70x1062 := Rect.unit (s := S1x70x1062) ![0, 26, 28] S1x32x1024.size inb_S1x70x1062_S1x32x1024_0_26_28
abbrev q0_S1x70x1062_S1x32x1024_0_27_11 : Rect S1x70x1062 := Rect.unit (s := S1x70x1062) ![0, 27, 11] S1x32x1024.size inb_S1x70x1062_S1x32x1024_0_27_11
abbrev q0_S1x70x1062_S1x32x1024_0_27_12 : Rect S1x70x1062 := Rect.unit (s := S1x70x1062) ![0, 27, 12] S1x32x1024.size inb_S1x70x1062_S1x32x1024_0_27_12
abbrev q0_S1x70x1062_S1x32x1024_0_27_26 : Rect S1x70x1062 := Rect.unit (s := S1x70x1062) ![0, 27, 26] S1x32x1024.size inb_S1x70x1062_S1x32x1024_0_27_26
abbrev q0_S1x70x1062_S1x32x1024_0_27_27 : Rect S1x70x1062 := Rect.unit (s := S1x70x1062) ![0, 27, 27] S1x32x1024.size inb_S1x70x1062_S1x32x1024_0_27_27
abbrev q0_S1x70x1062_S1x32x1024_0_28_12 : Rect S1x70x1062 := Rect.unit (s := S1x70x1062) ![0, 28, 12] S1x32x1024.size inb_S1x70x1062_S1x32x1024_0_28_12
abbrev q0_S1x70x1062_S1x32x1024_0_28_13 : Rect S1x70x1062 := Rect.unit (s := S1x70x1062) ![0, 28, 13] S1x32x1024.size inb_S1x70x1062_S1x32x1024_0_28_13
abbrev q0_S1x70x1062_S1x32x1024_0_28_25 : Rect S1x70x1062 := Rect.unit (s := S1x70x1062) ![0, 28, 25] S1x32x1024.size inb_S1x70x1062_S1x32x1024_0_28_25
abbrev q0_S1x70x1062_S1x32x1024_0_28_26 : Rect S1x70x1062 := Rect.unit (s := S1x70x1062) ![0, 28, 26] S1x32x1024.size inb_S1x70x1062_S1x32x1024_0_28_26
abbrev q0_S1x70x1062_S1x32x1024_0_29_14 : Rect S1x70x1062 := Rect.unit (s := S1x70x1062) ![0, 29, 14] S1x32x1024.size inb_S1x70x1062_S1x32x1024_0_29_14
abbrev q0_S1x70x1062_S1x32x1024_0_29_15 : Rect S1x70x1062 := Rect.unit (s := S1x70x1062) ![0, 29, 15] S1x32x1024.size inb_S1x70x1062_S1x32x1024_0_29_15
abbrev q0_S1x70x1062_S1x32x1024_0_29_23 : Rect S1x70x1062 := Rect.unit (s := S1x70x1062) ![0, 29, 23] S1x32x1024.size inb_S1x70x1062_S1x32x1024_0_29_23
abbrev q0_S1x70x1062_S1x32x1024_0_29_24 : Rect S1x70x1062 := Rect.unit (s := S1x70x1062) ![0, 29, 24] S1x32x1024.size inb_S1x70x1062_S1x32x1024_0_29_24
abbrev q0_S1x70x1062_S1x32x1024_0_30_16 : Rect S1x70x1062 := Rect.unit (s := S1x70x1062) ![0, 30, 16] S1x32x1024.size inb_S1x70x1062_S1x32x1024_0_30_16
abbrev q0_S1x70x1062_S1x32x1024_0_30_17 : Rect S1x70x1062 := Rect.unit (s := S1x70x1062) ![0, 30, 17] S1x32x1024.size inb_S1x70x1062_S1x32x1024_0_30_17
abbrev q0_S1x70x1062_S1x32x1024_0_30_18 : Rect S1x70x1062 := Rect.unit (s := S1x70x1062) ![0, 30, 18] S1x32x1024.size inb_S1x70x1062_S1x32x1024_0_30_18
abbrev q0_S1x70x1062_S1x32x1024_0_30_19 : Rect S1x70x1062 := Rect.unit (s := S1x70x1062) ![0, 30, 19] S1x32x1024.size inb_S1x70x1062_S1x32x1024_0_30_19
abbrev q0_S1x70x1062_S1x32x1024_0_30_20 : Rect S1x70x1062 := Rect.unit (s := S1x70x1062) ![0, 30, 20] S1x32x1024.size inb_S1x70x1062_S1x32x1024_0_30_20
abbrev q0_S1x70x1062_S1x32x1024_0_30_21 : Rect S1x70x1062 := Rect.unit (s := S1x70x1062) ![0, 30, 21] S1x32x1024.size inb_S1x70x1062_S1x32x1024_0_30_21
abbrev q0_S1x70x1062_S1x32x1024_0_30_22 : Rect S1x70x1062 := Rect.unit (s := S1x70x1062) ![0, 30, 22] S1x32x1024.size inb_S1x70x1062_S1x32x1024_0_30_22
abbrev q0_S1x70x1062_S1x32x1024_0_4_16 : Rect S1x70x1062 := Rect.unit (s := S1x70x1062) ![0, 4, 16] S1x32x1024.size inb_S1x70x1062_S1x32x1024_0_4_16
abbrev q0_S1x70x1062_S1x32x1024_0_4_17 : Rect S1x70x1062 := Rect.unit (s := S1x70x1062) ![0, 4, 17] S1x32x1024.size inb_S1x70x1062_S1x32x1024_0_4_17
abbrev q0_S1x70x1062_S1x32x1024_0_4_18 : Rect S1x70x1062 := Rect.unit (s := S1x70x1062) ![0, 4, 18] S1x32x1024.size inb_S1x70x1062_S1x32x1024_0_4_18
abbrev q0_S1x70x1062_S1x32x1024_0_4_19 : Rect S1x70x1062 := Rect.unit (s := S1x70x1062) ![0, 4, 19] S1x32x1024.size inb_S1x70x1062_S1x32x1024_0_4_19
abbrev q0_S1x70x1062_S1x32x1024_0_4_20 : Rect S1x70x1062 := Rect.unit (s := S1x70x1062) ![0, 4, 20] S1x32x1024.size inb_S1x70x1062_S1x32x1024_0_4_20
abbrev q0_S1x70x1062_S1x32x1024_0_4_21 : Rect S1x70x1062 := Rect.unit (s := S1x70x1062) ![0, 4, 21] S1x32x1024.size inb_S1x70x1062_S1x32x1024_0_4_21
abbrev q0_S1x70x1062_S1x32x1024_0_4_22 : Rect S1x70x1062 := Rect.unit (s := S1x70x1062) ![0, 4, 22] S1x32x1024.size inb_S1x70x1062_S1x32x1024_0_4_22
abbrev q0_S1x70x1062_S1x32x1024_0_5_13 : Rect S1x70x1062 := Rect.unit (s := S1x70x1062) ![0, 5, 13] S1x32x1024.size inb_S1x70x1062_S1x32x1024_0_5_13
abbrev q0_S1x70x1062_S1x32x1024_0_5_14 : Rect S1x70x1062 := Rect.unit (s := S1x70x1062) ![0, 5, 14] S1x32x1024.size inb_S1x70x1062_S1x32x1024_0_5_14
abbrev q0_S1x70x1062_S1x32x1024_0_5_15 : Rect S1x70x1062 := Rect.unit (s := S1x70x1062) ![0, 5, 15] S1x32x1024.size inb_S1x70x1062_S1x32x1024_0_5_15
abbrev q0_S1x70x1062_S1x32x1024_0_5_23 : Rect S1x70x1062 := Rect.unit (s := S1x70x1062) ![0, 5, 23] S1x32x1024.size inb_S1x70x1062_S1x32x1024_0_5_23
abbrev q0_S1x70x1062_S1x32x1024_0_5_24 : Rect S1x70x1062 := Rect.unit (s := S1x70x1062) ![0, 5, 24] S1x32x1024.size inb_S1x70x1062_S1x32x1024_0_5_24
abbrev q0_S1x70x1062_S1x32x1024_0_5_25 : Rect S1x70x1062 := Rect.unit (s := S1x70x1062) ![0, 5, 25] S1x32x1024.size inb_S1x70x1062_S1x32x1024_0_5_25
abbrev q0_S1x70x1062_S1x32x1024_0_6_11 : Rect S1x70x1062 := Rect.unit (s := S1x70x1062) ![0, 6, 11] S1x32x1024.size inb_S1x70x1062_S1x32x1024_0_6_11
abbrev q0_S1x70x1062_S1x32x1024_0_6_12 : Rect S1x70x1062 := Rect.unit (s := S1x70x1062) ![0, 6, 12] S1x32x1024.size inb_S1x70x1062_S1x32x1024_0_6_12
abbrev q0_S1x70x1062_S1x32x1024_0_6_26 : Rect S1x70x1062 := Rect.unit (s := S1x70x1062) ![0, 6, 26] S1x32x1024.size inb_S1x70x1062_S1x32x1024_0_6_26
abbrev q0_S1x70x1062_S1x32x1024_0_6_27 : Rect S1x70x1062 := Rect.unit (s := S1x70x1062) ![0, 6, 27] S1x32x1024.size inb_S1x70x1062_S1x32x1024_0_6_27
abbrev q0_S1x70x1062_S1x32x1024_0_7_10 : Rect S1x70x1062 := Rect.unit (s := S1x70x1062) ![0, 7, 10] S1x32x1024.size inb_S1x70x1062_S1x32x1024_0_7_10
abbrev q0_S1x70x1062_S1x32x1024_0_7_28 : Rect S1x70x1062 := Rect.unit (s := S1x70x1062) ![0, 7, 28] S1x32x1024.size inb_S1x70x1062_S1x32x1024_0_7_28
abbrev q0_S1x70x1062_S1x32x1024_0_8_9 : Rect S1x70x1062 := Rect.unit (s := S1x70x1062) ![0, 8, 9] S1x32x1024.size inb_S1x70x1062_S1x32x1024_0_8_9
abbrev q0_S1x70x1062_S1x32x1024_0_8_29 : Rect S1x70x1062 := Rect.unit (s := S1x70x1062) ![0, 8, 29] S1x32x1024.size inb_S1x70x1062_S1x32x1024_0_8_29
abbrev q0_S1x70x1062_S1x32x1024_0_9_8 : Rect S1x70x1062 := Rect.unit (s := S1x70x1062) ![0, 9, 8] S1x32x1024.size inb_S1x70x1062_S1x32x1024_0_9_8
abbrev q0_S1x70x1062_S1x32x1024_0_9_30 : Rect S1x70x1062 := Rect.unit (s := S1x70x1062) ![0, 9, 30] S1x32x1024.size inb_S1x70x1062_S1x32x1024_0_9_30
abbrev q0_S1x70x1062_S1x32x1024_0_10_7 : Rect S1x70x1062 := Rect.unit (s := S1x70x1062) ![0, 10, 7] S1x32x1024.size inb_S1x70x1062_S1x32x1024_0_10_7
abbrev q0_S1x70x1062_S1x32x1024_0_10_31 : Rect S1x70x1062 := Rect.unit (s := S1x70x1062) ![0, 10, 31] S1x32x1024.size inb_S1x70x1062_S1x32x1024_0_10_31
abbrev q0_S1x70x1062_S1x32x1024_0_11_6 : Rect S1x70x1062 := Rect.unit (s := S1x70x1062) ![0, 11, 6] S1x32x1024.size inb_S1x70x1062_S1x32x1024_0_11_6
abbrev q0_S1x70x1062_S1x32x1024_0_11_32 : Rect S1x70x1062 := Rect.unit (s := S1x70x1062) ![0, 11, 32] S1x32x1024.size inb_S1x70x1062_S1x32x1024_0_11_32
abbrev q0_S1x70x1062_S1x32x1024_0_12_6 : Rect S1x70x1062 := Rect.unit (s := S1x70x1062) ![0, 12, 6] S1x32x1024.size inb_S1x70x1062_S1x32x1024_0_12_6
abbrev q0_S1x70x1062_S1x32x1024_0_12_32 : Rect S1x70x1062 := Rect.unit (s := S1x70x1062) ![0, 12, 32] S1x32x1024.size inb_S1x70x1062_S1x32x1024_0_12_32
abbrev q0_S1x70x1062_S1x32x1024_0_13_5 : Rect S1x70x1062 := Rect.unit (s := S1x70x1062) ![0, 13, 5] S1x32x1024.size inb_S1x70x1062_S1x32x1024_0_13_5
abbrev q0_S1x70x1062_S1x32x1024_0_13_33 : Rect S1x70x1062 := Rect.unit (s := S1x70x1062) ![0, 13, 33] S1x32x1024.size inb_S1x70x1062_S1x32x1024_0_13_33
abbrev q0_S1x70x1062_S1x32x1024_0_14_5 : Rect S1x70x1062 := Rect.unit (s := S1x70x1062) ![0, 14, 5] S1x32x1024.size inb_S1x70x1062_S1x32x1024_0_14_5
abbrev q0_S1x70x1062_S1x32x1024_0_14_33 : Rect S1x70x1062 := Rect.unit (s := S1x70x1062) ![0, 14, 33] S1x32x1024.size inb_S1x70x1062_S1x32x1024_0_14_33
abbrev q0_S1x70x1062_S1x32x1024_0_15_5 : Rect S1x70x1062 := Rect.unit (s := S1x70x1062) ![0, 15, 5] S1x32x1024.size inb_S1x70x1062_S1x32x1024_0_15_5
abbrev q0_S1x70x1062_S1x32x1024_0_15_33 : Rect S1x70x1062 := Rect.unit (s := S1x70x1062) ![0, 15, 33] S1x32x1024.size inb_S1x70x1062_S1x32x1024_0_15_33
abbrev q0_S1x70x1062_S1x32x1024_0_16_4 : Rect S1x70x1062 := Rect.unit (s := S1x70x1062) ![0, 16, 4] S1x32x1024.size inb_S1x70x1062_S1x32x1024_0_16_4
abbrev q0_S1x70x1062_S1x32x1024_0_16_34 : Rect S1x70x1062 := Rect.unit (s := S1x70x1062) ![0, 16, 34] S1x32x1024.size inb_S1x70x1062_S1x32x1024_0_16_34
abbrev q0_S1x70x1062_S1x32x1024_0_17_4 : Rect S1x70x1062 := Rect.unit (s := S1x70x1062) ![0, 17, 4] S1x32x1024.size inb_S1x70x1062_S1x32x1024_0_17_4
abbrev q0_S1x70x1062_S1x32x1024_0_17_34 : Rect S1x70x1062 := Rect.unit (s := S1x70x1062) ![0, 17, 34] S1x32x1024.size inb_S1x70x1062_S1x32x1024_0_17_34
abbrev q0_S1x70x1062_S1x32x1024_0_18_4 : Rect S1x70x1062 := Rect.unit (s := S1x70x1062) ![0, 18, 4] S1x32x1024.size inb_S1x70x1062_S1x32x1024_0_18_4
abbrev q0_S1x70x1062_S1x32x1024_0_18_34 : Rect S1x70x1062 := Rect.unit (s := S1x70x1062) ![0, 18, 34] S1x32x1024.size inb_S1x70x1062_S1x32x1024_0_18_34
abbrev q0_S1x70x1062_S1x32x1024_0_19_4 : Rect S1x70x1062 := Rect.unit (s := S1x70x1062) ![0, 19, 4] S1x32x1024.size inb_S1x70x1062_S1x32x1024_0_19_4
abbrev q0_S1x70x1062_S1x32x1024_0_19_34 : Rect S1x70x1062 := Rect.unit (s := S1x70x1062) ![0, 19, 34] S1x32x1024.size inb_S1x70x1062_S1x32x1024_0_19_34
abbrev q0_S1x70x1062_S1x32x1024_0_20_4 : Rect S1x70x1062 := Rect.unit (s := S1x70x1062) ![0, 20, 4] S1x32x1024.size inb_S1x70x1062_S1x32x1024_0_20_4
abbrev q0_S1x70x1062_S1x32x1024_0_20_34 : Rect S1x70x1062 := Rect.unit (s := S1x70x1062) ![0, 20, 34] S1x32x1024.size inb_S1x70x1062_S1x32x1024_0_20_34
abbrev q0_S1x70x1062_S1x32x1024_0_21_4 : Rect S1x70x1062 := Rect.unit (s := S1x70x1062) ![0, 21, 4] S1x32x1024.size inb_S1x70x1062_S1x32x1024_0_21_4
abbrev q0_S1x70x1062_S1x32x1024_0_21_34 : Rect S1x70x1062 := Rect.unit (s := S1x70x1062) ![0, 21, 34] S1x32x1024.size inb_S1x70x1062_S1x32x1024_0_21_34
abbrev q0_S1x70x1062_S1x32x1024_0_22_4 : Rect S1x70x1062 := Rect.unit (s := S1x70x1062) ![0, 22, 4] S1x32x1024.size inb_S1x70x1062_S1x32x1024_0_22_4
abbrev q0_S1x70x1062_S1x32x1024_0_22_34 : Rect S1x70x1062 := Rect.unit (s := S1x70x1062) ![0, 22, 34] S1x32x1024.size inb_S1x70x1062_S1x32x1024_0_22_34
abbrev q0_S1x70x1062_S1x32x1024_0_23_5 : Rect S1x70x1062 := Rect.unit (s := S1x70x1062) ![0, 23, 5] S1x32x1024.size inb_S1x70x1062_S1x32x1024_0_23_5
abbrev q0_S1x70x1062_S1x32x1024_0_23_33 : Rect S1x70x1062 := Rect.unit (s := S1x70x1062) ![0, 23, 33] S1x32x1024.size inb_S1x70x1062_S1x32x1024_0_23_33
abbrev q0_S1x70x1062_S1x32x1024_0_24_5 : Rect S1x70x1062 := Rect.unit (s := S1x70x1062) ![0, 24, 5] S1x32x1024.size inb_S1x70x1062_S1x32x1024_0_24_5
abbrev q0_S1x70x1062_S1x32x1024_0_24_33 : Rect S1x70x1062 := Rect.unit (s := S1x70x1062) ![0, 24, 33] S1x32x1024.size inb_S1x70x1062_S1x32x1024_0_24_33
abbrev q0_S1x70x1062_S1x32x1024_0_25_5 : Rect S1x70x1062 := Rect.unit (s := S1x70x1062) ![0, 25, 5] S1x32x1024.size inb_S1x70x1062_S1x32x1024_0_25_5
abbrev q0_S1x70x1062_S1x32x1024_0_25_33 : Rect S1x70x1062 := Rect.unit (s := S1x70x1062) ![0, 25, 33] S1x32x1024.size inb_S1x70x1062_S1x32x1024_0_25_33
abbrev q0_S1x70x1062_S1x32x1024_0_26_6 : Rect S1x70x1062 := Rect.unit (s := S1x70x1062) ![0, 26, 6] S1x32x1024.size inb_S1x70x1062_S1x32x1024_0_26_6
abbrev q0_S1x70x1062_S1x32x1024_0_26_32 : Rect S1x70x1062 := Rect.unit (s := S1x70x1062) ![0, 26, 32] S1x32x1024.size inb_S1x70x1062_S1x32x1024_0_26_32
abbrev q0_S1x70x1062_S1x32x1024_0_27_6 : Rect S1x70x1062 := Rect.unit (s := S1x70x1062) ![0, 27, 6] S1x32x1024.size inb_S1x70x1062_S1x32x1024_0_27_6
abbrev q0_S1x70x1062_S1x32x1024_0_27_32 : Rect S1x70x1062 := Rect.unit (s := S1x70x1062) ![0, 27, 32] S1x32x1024.size inb_S1x70x1062_S1x32x1024_0_27_32
abbrev q0_S1x70x1062_S1x32x1024_0_28_7 : Rect S1x70x1062 := Rect.unit (s := S1x70x1062) ![0, 28, 7] S1x32x1024.size inb_S1x70x1062_S1x32x1024_0_28_7
abbrev q0_S1x70x1062_S1x32x1024_0_28_31 : Rect S1x70x1062 := Rect.unit (s := S1x70x1062) ![0, 28, 31] S1x32x1024.size inb_S1x70x1062_S1x32x1024_0_28_31
abbrev q0_S1x70x1062_S1x32x1024_0_29_8 : Rect S1x70x1062 := Rect.unit (s := S1x70x1062) ![0, 29, 8] S1x32x1024.size inb_S1x70x1062_S1x32x1024_0_29_8
abbrev q0_S1x70x1062_S1x32x1024_0_29_30 : Rect S1x70x1062 := Rect.unit (s := S1x70x1062) ![0, 29, 30] S1x32x1024.size inb_S1x70x1062_S1x32x1024_0_29_30
abbrev q0_S1x70x1062_S1x32x1024_0_30_9 : Rect S1x70x1062 := Rect.unit (s := S1x70x1062) ![0, 30, 9] S1x32x1024.size inb_S1x70x1062_S1x32x1024_0_30_9
abbrev q0_S1x70x1062_S1x32x1024_0_30_29 : Rect S1x70x1062 := Rect.unit (s := S1x70x1062) ![0, 30, 29] S1x32x1024.size inb_S1x70x1062_S1x32x1024_0_30_29
abbrev q0_S1x70x1062_S1x32x1024_0_31_10 : Rect S1x70x1062 := Rect.unit (s := S1x70x1062) ![0, 31, 10] S1x32x1024.size inb_S1x70x1062_S1x32x1024_0_31_10
abbrev q0_S1x70x1062_S1x32x1024_0_31_28 : Rect S1x70x1062 := Rect.unit (s := S1x70x1062) ![0, 31, 28] S1x32x1024.size inb_S1x70x1062_S1x32x1024_0_31_28
abbrev q0_S1x70x1062_S1x32x1024_0_32_11 : Rect S1x70x1062 := Rect.unit (s := S1x70x1062) ![0, 32, 11] S1x32x1024.size inb_S1x70x1062_S1x32x1024_0_32_11
abbrev q0_S1x70x1062_S1x32x1024_0_32_12 : Rect S1x70x1062 := Rect.unit (s := S1x70x1062) ![0, 32, 12] S1x32x1024.size inb_S1x70x1062_S1x32x1024_0_32_12
abbrev q0_S1x70x1062_S1x32x1024_0_32_26 : Rect S1x70x1062 := Rect.unit (s := S1x70x1062) ![0, 32, 26] S1x32x1024.size inb_S1x70x1062_S1x32x1024_0_32_26
abbrev q0_S1x70x1062_S1x32x1024_0_32_27 : Rect S1x70x1062 := Rect.unit (s := S1x70x1062) ![0, 32, 27] S1x32x1024.size inb_S1x70x1062_S1x32x1024_0_32_27
abbrev q0_S1x70x1062_S1x32x1024_0_33_13 : Rect S1x70x1062 := Rect.unit (s := S1x70x1062) ![0, 33, 13] S1x32x1024.size inb_S1x70x1062_S1x32x1024_0_33_13
abbrev q0_S1x70x1062_S1x32x1024_0_33_14 : Rect S1x70x1062 := Rect.unit (s := S1x70x1062) ![0, 33, 14] S1x32x1024.size inb_S1x70x1062_S1x32x1024_0_33_14
abbrev q0_S1x70x1062_S1x32x1024_0_33_15 : Rect S1x70x1062 := Rect.unit (s := S1x70x1062) ![0, 33, 15] S1x32x1024.size inb_S1x70x1062_S1x32x1024_0_33_15
abbrev q0_S1x70x1062_S1x32x1024_0_33_23 : Rect S1x70x1062 := Rect.unit (s := S1x70x1062) ![0, 33, 23] S1x32x1024.size inb_S1x70x1062_S1x32x1024_0_33_23
abbrev q0_S1x70x1062_S1x32x1024_0_33_24 : Rect S1x70x1062 := Rect.unit (s := S1x70x1062) ![0, 33, 24] S1x32x1024.size inb_S1x70x1062_S1x32x1024_0_33_24
abbrev q0_S1x70x1062_S1x32x1024_0_33_25 : Rect S1x70x1062 := Rect.unit (s := S1x70x1062) ![0, 33, 25] S1x32x1024.size inb_S1x70x1062_S1x32x1024_0_33_25
abbrev q0_S1x70x1062_S1x32x1024_0_34_16 : Rect S1x70x1062 := Rect.unit (s := S1x70x1062) ![0, 34, 16] S1x32x1024.size inb_S1x70x1062_S1x32x1024_0_34_16
abbrev q0_S1x70x1062_S1x32x1024_0_34_17 : Rect S1x70x1062 := Rect.unit (s := S1x70x1062) ![0, 34, 17] S1x32x1024.size inb_S1x70x1062_S1x32x1024_0_34_17
abbrev q0_S1x70x1062_S1x32x1024_0_34_18 : Rect S1x70x1062 := Rect.unit (s := S1x70x1062) ![0, 34, 18] S1x32x1024.size inb_S1x70x1062_S1x32x1024_0_34_18
abbrev q0_S1x70x1062_S1x32x1024_0_34_19 : Rect S1x70x1062 := Rect.unit (s := S1x70x1062) ![0, 34, 19] S1x32x1024.size inb_S1x70x1062_S1x32x1024_0_34_19
abbrev q0_S1x70x1062_S1x32x1024_0_34_20 : Rect S1x70x1062 := Rect.unit (s := S1x70x1062) ![0, 34, 20] S1x32x1024.size inb_S1x70x1062_S1x32x1024_0_34_20
abbrev q0_S1x70x1062_S1x32x1024_0_34_21 : Rect S1x70x1062 := Rect.unit (s := S1x70x1062) ![0, 34, 21] S1x32x1024.size inb_S1x70x1062_S1x32x1024_0_34_21
abbrev q0_S1x70x1062_S1x32x1024_0_34_22 : Rect S1x70x1062 := Rect.unit (s := S1x70x1062) ![0, 34, 22] S1x32x1024.size inb_S1x70x1062_S1x32x1024_0_34_22
abbrev q0_S1x70x1062_S1x32x1024_0_0_15 : Rect S1x70x1062 := Rect.unit (s := S1x70x1062) ![0, 0, 15] S1x32x1024.size inb_S1x70x1062_S1x32x1024_0_0_15
abbrev q0_S1x70x1062_S1x32x1024_0_0_16 : Rect S1x70x1062 := Rect.unit (s := S1x70x1062) ![0, 0, 16] S1x32x1024.size inb_S1x70x1062_S1x32x1024_0_0_16
abbrev q0_S1x70x1062_S1x32x1024_0_0_17 : Rect S1x70x1062 := Rect.unit (s := S1x70x1062) ![0, 0, 17] S1x32x1024.size inb_S1x70x1062_S1x32x1024_0_0_17
abbrev q0_S1x70x1062_S1x32x1024_0_0_18 : Rect S1x70x1062 := Rect.unit (s := S1x70x1062) ![0, 0, 18] S1x32x1024.size inb_S1x70x1062_S1x32x1024_0_0_18
abbrev q0_S1x70x1062_S1x32x1024_0_0_19 : Rect S1x70x1062 := Rect.unit (s := S1x70x1062) ![0, 0, 19] S1x32x1024.size inb_S1x70x1062_S1x32x1024_0_0_19
abbrev q0_S1x70x1062_S1x32x1024_0_0_20 : Rect S1x70x1062 := Rect.unit (s := S1x70x1062) ![0, 0, 20] S1x32x1024.size inb_S1x70x1062_S1x32x1024_0_0_20
abbrev q0_S1x70x1062_S1x32x1024_0_0_21 : Rect S1x70x1062 := Rect.unit (s := S1x70x1062) ![0, 0, 21] S1x32x1024.size inb_S1x70x1062_S1x32x1024_0_0_21
abbrev q0_S1x70x1062_S1x32x1024_0_0_22 : Rect S1x70x1062 := Rect.unit (s := S1x70x1062) ![0, 0, 22] S1x32x1024.size inb_S1x70x1062_S1x32x1024_0_0_22
abbrev q0_S1x70x1062_S1x32x1024_0_0_23 : Rect S1x70x1062 := Rect.unit (s := S1x70x1062) ![0, 0, 23] S1x32x1024.size inb_S1x70x1062_S1x32x1024_0_0_23
abbrev q0_S1x70x1062_S1x32x1024_0_1_12 : Rect S1x70x1062 := Rect.unit (s := S1x70x1062) ![0, 1, 12] S1x32x1024.size inb_S1x70x1062_S1x32x1024_0_1_12
abbrev q0_S1x70x1062_S1x32x1024_0_1_13 : Rect S1x70x1062 := Rect.unit (s := S1x70x1062) ![0, 1, 13] S1x32x1024.size inb_S1x70x1062_S1x32x1024_0_1_13
abbrev q0_S1x70x1062_S1x32x1024_0_1_14 : Rect S1x70x1062 := Rect.unit (s := S1x70x1062) ![0, 1, 14] S1x32x1024.size inb_S1x70x1062_S1x32x1024_0_1_14
abbrev q0_S1x70x1062_S1x32x1024_0_1_24 : Rect S1x70x1062 := Rect.unit (s := S1x70x1062) ![0, 1, 24] S1x32x1024.size inb_S1x70x1062_S1x32x1024_0_1_24
abbrev q0_S1x70x1062_S1x32x1024_0_1_25 : Rect S1x70x1062 := Rect.unit (s := S1x70x1062) ![0, 1, 25] S1x32x1024.size inb_S1x70x1062_S1x32x1024_0_1_25
abbrev q0_S1x70x1062_S1x32x1024_0_1_26 : Rect S1x70x1062 := Rect.unit (s := S1x70x1062) ![0, 1, 26] S1x32x1024.size inb_S1x70x1062_S1x32x1024_0_1_26
abbrev q0_S1x70x1062_S1x32x1024_0_2_10 : Rect S1x70x1062 := Rect.unit (s := S1x70x1062) ![0, 2, 10] S1x32x1024.size inb_S1x70x1062_S1x32x1024_0_2_10
abbrev q0_S1x70x1062_S1x32x1024_0_2_11 : Rect S1x70x1062 := Rect.unit (s := S1x70x1062) ![0, 2, 11] S1x32x1024.size inb_S1x70x1062_S1x32x1024_0_2_11
abbrev q0_S1x70x1062_S1x32x1024_0_2_27 : Rect S1x70x1062 := Rect.unit (s := S1x70x1062) ![0, 2, 27] S1x32x1024.size inb_S1x70x1062_S1x32x1024_0_2_27
abbrev q0_S1x70x1062_S1x32x1024_0_2_28 : Rect S1x70x1062 := Rect.unit (s := S1x70x1062) ![0, 2, 28] S1x32x1024.size inb_S1x70x1062_S1x32x1024_0_2_28
abbrev q0_S1x70x1062_S1x32x1024_0_3_8 : Rect S1x70x1062 := Rect.unit (s := S1x70x1062) ![0, 3, 8] S1x32x1024.size inb_S1x70x1062_S1x32x1024_0_3_8
abbrev q0_S1x70x1062_S1x32x1024_0_3_9 : Rect S1x70x1062 := Rect.unit (s := S1x70x1062) ![0, 3, 9] S1x32x1024.size inb_S1x70x1062_S1x32x1024_0_3_9
abbrev q0_S1x70x1062_S1x32x1024_0_3_29 : Rect S1x70x1062 := Rect.unit (s := S1x70x1062) ![0, 3, 29] S1x32x1024.size inb_S1x70x1062_S1x32x1024_0_3_29
abbrev q0_S1x70x1062_S1x32x1024_0_3_30 : Rect S1x70x1062 := Rect.unit (s := S1x70x1062) ![0, 3, 30] S1x32x1024.size inb_S1x70x1062_S1x32x1024_0_3_30
abbrev q0_S1x70x1062_S1x32x1024_0_4_7 : Rect S1x70x1062 := Rect.unit (s := S1x70x1062) ![0, 4, 7] S1x32x1024.size inb_S1x70x1062_S1x32x1024_0_4_7
abbrev q0_S1x70x1062_S1x32x1024_0_4_8 : Rect S1x70x1062 := Rect.unit (s := S1x70x1062) ![0, 4, 8] S1x32x1024.size inb_S1x70x1062_S1x32x1024_0_4_8
abbrev q0_S1x70x1062_S1x32x1024_0_4_30 : Rect S1x70x1062 := Rect.unit (s := S1x70x1062) ![0, 4, 30] S1x32x1024.size inb_S1x70x1062_S1x32x1024_0_4_30
abbrev q0_S1x70x1062_S1x32x1024_0_4_31 : Rect S1x70x1062 := Rect.unit (s := S1x70x1062) ![0, 4, 31] S1x32x1024.size inb_S1x70x1062_S1x32x1024_0_4_31
abbrev q0_S1x70x1062_S1x32x1024_0_5_6 : Rect S1x70x1062 := Rect.unit (s := S1x70x1062) ![0, 5, 6] S1x32x1024.size inb_S1x70x1062_S1x32x1024_0_5_6
abbrev q0_S1x70x1062_S1x32x1024_0_5_32 : Rect S1x70x1062 := Rect.unit (s := S1x70x1062) ![0, 5, 32] S1x32x1024.size inb_S1x70x1062_S1x32x1024_0_5_32
abbrev q0_S1x70x1062_S1x32x1024_0_6_5 : Rect S1x70x1062 := Rect.unit (s := S1x70x1062) ![0, 6, 5] S1x32x1024.size inb_S1x70x1062_S1x32x1024_0_6_5
abbrev q0_S1x70x1062_S1x32x1024_0_6_33 : Rect S1x70x1062 := Rect.unit (s := S1x70x1062) ![0, 6, 33] S1x32x1024.size inb_S1x70x1062_S1x32x1024_0_6_33
abbrev q0_S1x70x1062_S1x32x1024_0_7_4 : Rect S1x70x1062 := Rect.unit (s := S1x70x1062) ![0, 7, 4] S1x32x1024.size inb_S1x70x1062_S1x32x1024_0_7_4
abbrev q0_S1x70x1062_S1x32x1024_0_7_34 : Rect S1x70x1062 := Rect.unit (s := S1x70x1062) ![0, 7, 34] S1x32x1024.size inb_S1x70x1062_S1x32x1024_0_7_34
abbrev q0_S1x70x1062_S1x32x1024_0_8_3 : Rect S1x70x1062 := Rect.unit (s := S1x70x1062) ![0, 8, 3] S1x32x1024.size inb_S1x70x1062_S1x32x1024_0_8_3
abbrev q0_S1x70x1062_S1x32x1024_0_8_4 : Rect S1x70x1062 := Rect.unit (s := S1x70x1062) ![0, 8, 4] S1x32x1024.size inb_S1x70x1062_S1x32x1024_0_8_4
abbrev q0_S1x70x1062_S1x32x1024_0_8_34 : Rect S1x70x1062 := Rect.unit (s := S1x70x1062) ![0, 8, 34] S1x32x1024.size inb_S1x70x1062_S1x32x1024_0_8_34
abbrev q0_S1x70x1062_S1x32x1024_0_8_35 : Rect S1x70x1062 := Rect.unit (s := S1x70x1062) ![0, 8, 35] S1x32x1024.size inb_S1x70x1062_S1x32x1024_0_8_35
abbrev q0_S1x70x1062_S1x32x1024_0_9_3 : Rect S1x70x1062 := Rect.unit (s := S1x70x1062) ![0, 9, 3] S1x32x1024.size inb_S1x70x1062_S1x32x1024_0_9_3
abbrev q0_S1x70x1062_S1x32x1024_0_9_35 : Rect S1x70x1062 := Rect.unit (s := S1x70x1062) ![0, 9, 35] S1x32x1024.size inb_S1x70x1062_S1x32x1024_0_9_35
abbrev q0_S1x70x1062_S1x32x1024_0_10_2 : Rect S1x70x1062 := Rect.unit (s := S1x70x1062) ![0, 10, 2] S1x32x1024.size inb_S1x70x1062_S1x32x1024_0_10_2
abbrev q0_S1x70x1062_S1x32x1024_0_10_36 : Rect S1x70x1062 := Rect.unit (s := S1x70x1062) ![0, 10, 36] S1x32x1024.size inb_S1x70x1062_S1x32x1024_0_10_36
abbrev q0_S1x70x1062_S1x32x1024_0_11_2 : Rect S1x70x1062 := Rect.unit (s := S1x70x1062) ![0, 11, 2] S1x32x1024.size inb_S1x70x1062_S1x32x1024_0_11_2
abbrev q0_S1x70x1062_S1x32x1024_0_11_36 : Rect S1x70x1062 := Rect.unit (s := S1x70x1062) ![0, 11, 36] S1x32x1024.size inb_S1x70x1062_S1x32x1024_0_11_36
abbrev q0_S1x70x1062_S1x32x1024_0_12_1 : Rect S1x70x1062 := Rect.unit (s := S1x70x1062) ![0, 12, 1] S1x32x1024.size inb_S1x70x1062_S1x32x1024_0_12_1
abbrev q0_S1x70x1062_S1x32x1024_0_12_37 : Rect S1x70x1062 := Rect.unit (s := S1x70x1062) ![0, 12, 37] S1x32x1024.size inb_S1x70x1062_S1x32x1024_0_12_37
abbrev q0_S1x70x1062_S1x32x1024_0_13_1 : Rect S1x70x1062 := Rect.unit (s := S1x70x1062) ![0, 13, 1] S1x32x1024.size inb_S1x70x1062_S1x32x1024_0_13_1
abbrev q0_S1x70x1062_S1x32x1024_0_13_37 : Rect S1x70x1062 := Rect.unit (s := S1x70x1062) ![0, 13, 37] S1x32x1024.size inb_S1x70x1062_S1x32x1024_0_13_37
abbrev q0_S1x70x1062_S1x32x1024_0_14_1 : Rect S1x70x1062 := Rect.unit (s := S1x70x1062) ![0, 14, 1] S1x32x1024.size inb_S1x70x1062_S1x32x1024_0_14_1
abbrev q0_S1x70x1062_S1x32x1024_0_14_37 : Rect S1x70x1062 := Rect.unit (s := S1x70x1062) ![0, 14, 37] S1x32x1024.size inb_S1x70x1062_S1x32x1024_0_14_37
abbrev q0_S1x70x1062_S1x32x1024_0_15_0 : Rect S1x70x1062 := Rect.unit (s := S1x70x1062) ![0, 15, 0] S1x32x1024.size inb_S1x70x1062_S1x32x1024_0_15_0
abbrev q0_S1x70x1062_S1x32x1024_0_15_38 : Rect S1x70x1062 := Rect.unit (s := S1x70x1062) ![0, 15, 38] S1x32x1024.size inb_S1x70x1062_S1x32x1024_0_15_38
abbrev q0_S1x70x1062_S1x32x1024_0_16_0 : Rect S1x70x1062 := Rect.unit (s := S1x70x1062) ![0, 16, 0] S1x32x1024.size inb_S1x70x1062_S1x32x1024_0_16_0
abbrev q0_S1x70x1062_S1x32x1024_0_16_38 : Rect S1x70x1062 := Rect.unit (s := S1x70x1062) ![0, 16, 38] S1x32x1024.size inb_S1x70x1062_S1x32x1024_0_16_38
abbrev q0_S1x70x1062_S1x32x1024_0_17_0 : Rect S1x70x1062 := Rect.unit (s := S1x70x1062) ![0, 17, 0] S1x32x1024.size inb_S1x70x1062_S1x32x1024_0_17_0
abbrev q0_S1x70x1062_S1x32x1024_0_17_38 : Rect S1x70x1062 := Rect.unit (s := S1x70x1062) ![0, 17, 38] S1x32x1024.size inb_S1x70x1062_S1x32x1024_0_17_38
abbrev q0_S1x70x1062_S1x32x1024_0_18_0 : Rect S1x70x1062 := Rect.unit (s := S1x70x1062) ![0, 18, 0] S1x32x1024.size inb_S1x70x1062_S1x32x1024_0_18_0
abbrev q0_S1x70x1062_S1x32x1024_0_18_38 : Rect S1x70x1062 := Rect.unit (s := S1x70x1062) ![0, 18, 38] S1x32x1024.size inb_S1x70x1062_S1x32x1024_0_18_38
abbrev q0_S1x70x1062_S1x32x1024_0_19_0 : Rect S1x70x1062 := Rect.unit (s := S1x70x1062) ![0, 19, 0] S1x32x1024.size inb_S1x70x1062_S1x32x1024_0_19_0
abbrev q0_S1x70x1062_S1x32x1024_0_19_38 : Rect S1x70x1062 := Rect.unit (s := S1x70x1062) ![0, 19, 38] S1x32x1024.size inb_S1x70x1062_S1x32x1024_0_19_38
abbrev q0_S1x70x1062_S1x32x1024_0_20_0 : Rect S1x70x1062 := Rect.unit (s := S1x70x1062) ![0, 20, 0] S1x32x1024.size inb_S1x70x1062_S1x32x1024_0_20_0
abbrev q0_S1x70x1062_S1x32x1024_0_20_38 : Rect S1x70x1062 := Rect.unit (s := S1x70x1062) ![0, 20, 38] S1x32x1024.size inb_S1x70x1062_S1x32x1024_0_20_38
abbrev q0_S1x70x1062_S1x32x1024_0_21_0 : Rect S1x70x1062 := Rect.unit (s := S1x70x1062) ![0, 21, 0] S1x32x1024.size inb_S1x70x1062_S1x32x1024_0_21_0
abbrev q0_S1x70x1062_S1x32x1024_0_21_38 : Rect S1x70x1062 := Rect.unit (s := S1x70x1062) ![0, 21, 38] S1x32x1024.size inb_S1x70x1062_S1x32x1024_0_21_38
abbrev q0_S1x70x1062_S1x32x1024_0_22_0 : Rect S1x70x1062 := Rect.unit (s := S1x70x1062) ![0, 22, 0] S1x32x1024.size inb_S1x70x1062_S1x32x1024_0_22_0
abbrev q0_S1x70x1062_S1x32x1024_0_22_38 : Rect S1x70x1062 := Rect.unit (s := S1x70x1062) ![0, 22, 38] S1x32x1024.size inb_S1x70x1062_S1x32x1024_0_22_38
abbrev q0_S1x70x1062_S1x32x1024_0_23_0 : Rect S1x70x1062 := Rect.unit (s := S1x70x1062) ![0, 23, 0] S1x32x1024.size inb_S1x70x1062_S1x32x1024_0_23_0
abbrev q0_S1x70x1062_S1x32x1024_0_23_38 : Rect S1x70x1062 := Rect.unit (s := S1x70x1062) ![0, 23, 38] S1x32x1024.size inb_S1x70x1062_S1x32x1024_0_23_38
abbrev q0_S1x70x1062_S1x32x1024_0_24_1 : Rect S1x70x1062 := Rect.unit (s := S1x70x1062) ![0, 24, 1] S1x32x1024.size inb_S1x70x1062_S1x32x1024_0_24_1
abbrev q0_S1x70x1062_S1x32x1024_0_24_37 : Rect S1x70x1062 := Rect.unit (s := S1x70x1062) ![0, 24, 37] S1x32x1024.size inb_S1x70x1062_S1x32x1024_0_24_37
abbrev q0_S1x70x1062_S1x32x1024_0_25_1 : Rect S1x70x1062 := Rect.unit (s := S1x70x1062) ![0, 25, 1] S1x32x1024.size inb_S1x70x1062_S1x32x1024_0_25_1
abbrev q0_S1x70x1062_S1x32x1024_0_25_37 : Rect S1x70x1062 := Rect.unit (s := S1x70x1062) ![0, 25, 37] S1x32x1024.size inb_S1x70x1062_S1x32x1024_0_25_37
abbrev q0_S1x70x1062_S1x32x1024_0_26_1 : Rect S1x70x1062 := Rect.unit (s := S1x70x1062) ![0, 26, 1] S1x32x1024.size inb_S1x70x1062_S1x32x1024_0_26_1
abbrev q0_S1x70x1062_S1x32x1024_0_26_37 : Rect S1x70x1062 := Rect.unit (s := S1x70x1062) ![0, 26, 37] S1x32x1024.size inb_S1x70x1062_S1x32x1024_0_26_37
abbrev q0_S1x70x1062_S1x32x1024_0_27_2 : Rect S1x70x1062 := Rect.unit (s := S1x70x1062) ![0, 27, 2] S1x32x1024.size inb_S1x70x1062_S1x32x1024_0_27_2
abbrev q0_S1x70x1062_S1x32x1024_0_27_36 : Rect S1x70x1062 := Rect.unit (s := S1x70x1062) ![0, 27, 36] S1x32x1024.size inb_S1x70x1062_S1x32x1024_0_27_36
abbrev q0_S1x70x1062_S1x32x1024_0_28_2 : Rect S1x70x1062 := Rect.unit (s := S1x70x1062) ![0, 28, 2] S1x32x1024.size inb_S1x70x1062_S1x32x1024_0_28_2
abbrev q0_S1x70x1062_S1x32x1024_0_28_36 : Rect S1x70x1062 := Rect.unit (s := S1x70x1062) ![0, 28, 36] S1x32x1024.size inb_S1x70x1062_S1x32x1024_0_28_36
abbrev q0_S1x70x1062_S1x32x1024_0_29_3 : Rect S1x70x1062 := Rect.unit (s := S1x70x1062) ![0, 29, 3] S1x32x1024.size inb_S1x70x1062_S1x32x1024_0_29_3
abbrev q0_S1x70x1062_S1x32x1024_0_29_35 : Rect S1x70x1062 := Rect.unit (s := S1x70x1062) ![0, 29, 35] S1x32x1024.size inb_S1x70x1062_S1x32x1024_0_29_35
abbrev q0_S1x70x1062_S1x32x1024_0_30_3 : Rect S1x70x1062 := Rect.unit (s := S1x70x1062) ![0, 30, 3] S1x32x1024.size inb_S1x70x1062_S1x32x1024_0_30_3
abbrev q0_S1x70x1062_S1x32x1024_0_30_4 : Rect S1x70x1062 := Rect.unit (s := S1x70x1062) ![0, 30, 4] S1x32x1024.size inb_S1x70x1062_S1x32x1024_0_30_4
abbrev q0_S1x70x1062_S1x32x1024_0_30_34 : Rect S1x70x1062 := Rect.unit (s := S1x70x1062) ![0, 30, 34] S1x32x1024.size inb_S1x70x1062_S1x32x1024_0_30_34
abbrev q0_S1x70x1062_S1x32x1024_0_30_35 : Rect S1x70x1062 := Rect.unit (s := S1x70x1062) ![0, 30, 35] S1x32x1024.size inb_S1x70x1062_S1x32x1024_0_30_35
abbrev q0_S1x70x1062_S1x32x1024_0_31_4 : Rect S1x70x1062 := Rect.unit (s := S1x70x1062) ![0, 31, 4] S1x32x1024.size inb_S1x70x1062_S1x32x1024_0_31_4
abbrev q0_S1x70x1062_S1x32x1024_0_31_34 : Rect S1x70x1062 := Rect.unit (s := S1x70x1062) ![0, 31, 34] S1x32x1024.size inb_S1x70x1062_S1x32x1024_0_31_34
abbrev q0_S1x70x1062_S1x32x1024_0_32_5 : Rect S1x70x1062 := Rect.unit (s := S1x70x1062) ![0, 32, 5] S1x32x1024.size inb_S1x70x1062_S1x32x1024_0_32_5
abbrev q0_S1x70x1062_S1x32x1024_0_32_33 : Rect S1x70x1062 := Rect.unit (s := S1x70x1062) ![0, 32, 33] S1x32x1024.size inb_S1x70x1062_S1x32x1024_0_32_33
abbrev q0_S1x70x1062_S1x32x1024_0_33_6 : Rect S1x70x1062 := Rect.unit (s := S1x70x1062) ![0, 33, 6] S1x32x1024.size inb_S1x70x1062_S1x32x1024_0_33_6
abbrev q0_S1x70x1062_S1x32x1024_0_33_32 : Rect S1x70x1062 := Rect.unit (s := S1x70x1062) ![0, 33, 32] S1x32x1024.size inb_S1x70x1062_S1x32x1024_0_33_32
abbrev q0_S1x70x1062_S1x32x1024_0_34_7 : Rect S1x70x1062 := Rect.unit (s := S1x70x1062) ![0, 34, 7] S1x32x1024.size inb_S1x70x1062_S1x32x1024_0_34_7
abbrev q0_S1x70x1062_S1x32x1024_0_34_8 : Rect S1x70x1062 := Rect.unit (s := S1x70x1062) ![0, 34, 8] S1x32x1024.size inb_S1x70x1062_S1x32x1024_0_34_8
abbrev q0_S1x70x1062_S1x32x1024_0_34_30 : Rect S1x70x1062 := Rect.unit (s := S1x70x1062) ![0, 34, 30] S1x32x1024.size inb_S1x70x1062_S1x32x1024_0_34_30
abbrev q0_S1x70x1062_S1x32x1024_0_34_31 : Rect S1x70x1062 := Rect.unit (s := S1x70x1062) ![0, 34, 31] S1x32x1024.size inb_S1x70x1062_S1x32x1024_0_34_31
abbrev q0_S1x70x1062_S1x32x1024_0_35_8 : Rect S1x70x1062 := Rect.unit (s := S1x70x1062) ![0, 35, 8] S1x32x1024.size inb_S1x70x1062_S1x32x1024_0_35_8
abbrev q0_S1x70x1062_S1x32x1024_0_35_9 : Rect S1x70x1062 := Rect.unit (s := S1x70x1062) ![0, 35, 9] S1x32x1024.size inb_S1x70x1062_S1x32x1024_0_35_9
abbrev q0_S1x70x1062_S1x32x1024_0_35_29 : Rect S1x70x1062 := Rect.unit (s := S1x70x1062) ![0, 35, 29] S1x32x1024.size inb_S1x70x1062_S1x32x1024_0_35_29
abbrev q0_S1x70x1062_S1x32x1024_0_35_30 : Rect S1x70x1062 := Rect.unit (s := S1x70x1062) ![0, 35, 30] S1x32x1024.size inb_S1x70x1062_S1x32x1024_0_35_30
abbrev q0_S1x70x1062_S1x32x1024_0_36_10 : Rect S1x70x1062 := Rect.unit (s := S1x70x1062) ![0, 36, 10] S1x32x1024.size inb_S1x70x1062_S1x32x1024_0_36_10
abbrev q0_S1x70x1062_S1x32x1024_0_36_11 : Rect S1x70x1062 := Rect.unit (s := S1x70x1062) ![0, 36, 11] S1x32x1024.size inb_S1x70x1062_S1x32x1024_0_36_11
abbrev q0_S1x70x1062_S1x32x1024_0_36_27 : Rect S1x70x1062 := Rect.unit (s := S1x70x1062) ![0, 36, 27] S1x32x1024.size inb_S1x70x1062_S1x32x1024_0_36_27
abbrev q0_S1x70x1062_S1x32x1024_0_36_28 : Rect S1x70x1062 := Rect.unit (s := S1x70x1062) ![0, 36, 28] S1x32x1024.size inb_S1x70x1062_S1x32x1024_0_36_28
abbrev q0_S1x70x1062_S1x32x1024_0_37_12 : Rect S1x70x1062 := Rect.unit (s := S1x70x1062) ![0, 37, 12] S1x32x1024.size inb_S1x70x1062_S1x32x1024_0_37_12
abbrev q0_S1x70x1062_S1x32x1024_0_37_13 : Rect S1x70x1062 := Rect.unit (s := S1x70x1062) ![0, 37, 13] S1x32x1024.size inb_S1x70x1062_S1x32x1024_0_37_13
abbrev q0_S1x70x1062_S1x32x1024_0_37_14 : Rect S1x70x1062 := Rect.unit (s := S1x70x1062) ![0, 37, 14] S1x32x1024.size inb_S1x70x1062_S1x32x1024_0_37_14
abbrev q0_S1x70x1062_S1x32x1024_0_37_24 : Rect S1x70x1062 := Rect.unit (s := S1x70x1062) ![0, 37, 24] S1x32x1024.size inb_S1x70x1062_S1x32x1024_0_37_24
abbrev q0_S1x70x1062_S1x32x1024_0_37_25 : Rect S1x70x1062 := Rect.unit (s := S1x70x1062) ![0, 37, 25] S1x32x1024.size inb_S1x70x1062_S1x32x1024_0_37_25
abbrev q0_S1x70x1062_S1x32x1024_0_37_26 : Rect S1x70x1062 := Rect.unit (s := S1x70x1062) ![0, 37, 26] S1x32x1024.size inb_S1x70x1062_S1x32x1024_0_37_26
abbrev q0_S1x70x1062_S1x32x1024_0_38_15 : Rect S1x70x1062 := Rect.unit (s := S1x70x1062) ![0, 38, 15] S1x32x1024.size inb_S1x70x1062_S1x32x1024_0_38_15
abbrev q0_S1x70x1062_S1x32x1024_0_38_16 : Rect S1x70x1062 := Rect.unit (s := S1x70x1062) ![0, 38, 16] S1x32x1024.size inb_S1x70x1062_S1x32x1024_0_38_16
abbrev q0_S1x70x1062_S1x32x1024_0_38_17 : Rect S1x70x1062 := Rect.unit (s := S1x70x1062) ![0, 38, 17] S1x32x1024.size inb_S1x70x1062_S1x32x1024_0_38_17
abbrev q0_S1x70x1062_S1x32x1024_0_38_18 : Rect S1x70x1062 := Rect.unit (s := S1x70x1062) ![0, 38, 18] S1x32x1024.size inb_S1x70x1062_S1x32x1024_0_38_18
abbrev q0_S1x70x1062_S1x32x1024_0_38_19 : Rect S1x70x1062 := Rect.unit (s := S1x70x1062) ![0, 38, 19] S1x32x1024.size inb_S1x70x1062_S1x32x1024_0_38_19
abbrev q0_S1x70x1062_S1x32x1024_0_38_20 : Rect S1x70x1062 := Rect.unit (s := S1x70x1062) ![0, 38, 20] S1x32x1024.size inb_S1x70x1062_S1x32x1024_0_38_20
abbrev q0_S1x70x1062_S1x32x1024_0_38_21 : Rect S1x70x1062 := Rect.unit (s := S1x70x1062) ![0, 38, 21] S1x32x1024.size inb_S1x70x1062_S1x32x1024_0_38_21
abbrev q0_S1x70x1062_S1x32x1024_0_38_22 : Rect S1x70x1062 := Rect.unit (s := S1x70x1062) ![0, 38, 22] S1x32x1024.size inb_S1x70x1062_S1x32x1024_0_38_22
abbrev q0_S1x70x1062_S1x32x1024_0_38_23 : Rect S1x70x1062 := Rect.unit (s := S1x70x1062) ![0, 38, 23] S1x32x1024.size inb_S1x70x1062_S1x32x1024_0_38_23
abbrev q0_S32x1024_S32x1024_0_0 : Rect S32x1024 := Rect.unit (s := S32x1024) ![0, 0] S32x1024.size inb_S32x1024_S32x1024_0_0

/-- The output tile's buffer after the body: the one store's payload over the reads of the input blocks. -/
def out0_5 (x0 : Vec F S1x70x1062 .f32) (x1 x2 x3 x4 : Vec F S1 .f32) : Vec F S32x1024 .f32 :=
  View.canon [⟨q0_S32x1024_S32x1024_0_0, k0_pay1 ((k0_pay2 (View.ld x1 q0_S1_S1_0))) ((k0_pay3 (View.ld x2 q0_S1_S1_0))) ((k0_pay4 (View.ld x3 q0_S1_S1_0))) ((k0_pay5 (View.ld x4 q0_S1_S1_0))) ((k0_pay6 (View.ld x0 q0_S1x70x1062_S1x32x1024_0_19_19))) ((k0_pay49 (k0_pay4 (View.ld x3 q0_S1_S1_0)) (k0_pay6 (View.ld x0 q0_S1x70x1062_S1x32x1024_0_19_19)) (k0_pay32 (k0_pay3 (View.ld x2 q0_S1_S1_0)) (k0_pay6 (View.ld x0 q0_S1x70x1062_S1x32x1024_0_19_19)) (k0_pay16 (k0_pay2 (View.ld x1 q0_S1_S1_0)) (k0_pay6 (View.ld x0 q0_S1x70x1062_S1x32x1024_0_19_19)) (k0_pay7 (F := F)) (k0_pay14 (k0_pay6 (View.ld x0 q0_S1x70x1062_S1x32x1024_0_19_19)) (k0_pay13 (k0_pay6 (View.ld x0 q0_S1x70x1062_S1x32x1024_0_19_19)) (k0_pay11 (k0_pay6 (View.ld x0 q0_S1x70x1062_S1x32x1024_0_19_19)) (k0_pay10 (k0_pay6 (View.ld x0 q0_S1x70x1062_S1x32x1024_0_19_19)) (k0_pay8 (View.ld x0 q0_S1x70x1062_S1x32x1024_0_19_19) (View.ld x0 q0_S1x70x1062_S1x32x1024_0_12_17) (View.ld x0 q0_S1x70x1062_S1x32x1024_0_12_18) (View.ld x0 q0_S1x70x1062_S1x32x1024_0_12_19) (View.ld x0 q0_S1x70x1062_S1x32x1024_0_12_20)) (k0_pay9 (View.ld x0 q0_S1x70x1062_S1x32x1024_0_19_19) (View.ld x0 q0_S1x70x1062_S1x32x1024_0_12_21)) (View.ld x0 q0_S1x70x1062_S1x32x1024_0_13_15) (View.ld x0 q0_S1x70x1062_S1x32x1024_0_13_16) (View.ld x0 q0_S1x70x1062_S1x32x1024_0_13_22) (View.ld x0 q0_S1x70x1062_S1x32x1024_0_13_23) (View.ld x0 q0_S1x70x1062_S1x32x1024_0_14_14) (View.ld x0 q0_S1x70x1062_S1x32x1024_0_14_24) (View.ld x0 q0_S1x70x1062_S1x32x1024_0_15_13)) (View.ld x0 q0_S1x70x1062_S1x32x1024_0_15_25) (View.ld x0 q0_S1x70x1062_S1x32x1024_0_16_13) (View.ld x0 q0_S1x70x1062_S1x32x1024_0_16_25) (View.ld x0 q0_S1x70x1062_S1x32x1024_0_17_12) (View.ld x0 q0_S1x70x1062_S1x32x1024_0_17_26) (View.ld x0 q0_S1x70x1062_S1x32x1024_0_18_12) (View.ld x0 q0_S1x70x1062_S1x32x1024_0_18_26)) (k0_pay12 (k0_pay6 (View.ld x0 q0_S1x70x1062_S1x32x1024_0_19_19)) (View.ld x0 q0_S1x70x1062_S1x32x1024_0_19_12)) (View.ld x0 q0_S1x70x1062_S1x32x1024_0_19_26) (View.ld x0 q0_S1x70x1062_S1x32x1024_0_20_12) (View.ld x0 q0_S1x70x1062_S1x32x1024_0_20_26) (View.ld x0 q0_S1x70x1062_S1x32x1024_0_21_12) (View.ld x0 q0_S1x70x1062_S1x32x1024_0_21_26) (View.ld x0 q0_S1x70x1062_S1x32x1024_0_22_13) (View.ld x0 q0_S1x70x1062_S1x32x1024_0_22_25)) (View.ld x0 q0_S1x70x1062_S1x32x1024_0_23_13) (View.ld x0 q0_S1x70x1062_S1x32x1024_0_23_25) (View.ld x0 q0_S1x70x1062_S1x32x1024_0_24_14) (View.ld x0 q0_S1x70x1062_S1x32x1024_0_24_24) (View.ld x0 q0_S1x70x1062_S1x32x1024_0_25_15) (View.ld x0 q0_S1x70x1062_S1x32x1024_0_25_16) (View.ld x0 q0_S1x70x1062_S1x32x1024_0_25_22)) (k0_pay15 (k0_pay6 (View.ld x0 q0_S1x70x1062_S1x32x1024_0_19_19)) (View.ld x0 q0_S1x70x1062_S1x32x1024_0_25_23)) (View.ld x0 q0_S1x70x1062_S1x32x1024_0_26_17) (View.ld x0 q0_S1x70x1062_S1x32x1024_0_26_18) (View.ld x0 q0_S1x70x1062_S1x32x1024_0_26_19) (View.ld x0 q0_S1x70x1062_S1x32x1024_0_26_20) (View.ld x0 q0_S1x70x1062_S1x32x1024_0_26_21)) (k0_pay30 (k0_pay6 (View.ld x0 q0_S1x70x1062_S1x32x1024_0_19_19)) (k0_pay29 (k0_pay6 (View.ld x0 q0_S1x70x1062_S1x32x1024_0_19_19)) (k0_pay27 (k0_pay6 (View.ld x0 q0_S1x70x1062_S1x32x1024_0_19_19)) (k0_pay26 (k0_pay6 (View.ld x0 q0_S1x70x1062_S1x32x1024_0_19_19)) (k0_pay24 (k0_pay6 (View.ld x0 q0_S1x70x1062_S1x32x1024_0_19_19)) (k0_pay23 (k0_pay6 (View.ld x0 q0_S1x70x1062_S1x32x1024_0_19_19)) (k0_pay21 (k0_pay6 (View.ld x0 q0_S1x70x1062_S1x32x1024_0_19_19)) (k0_pay20 (k0_pay6 (View.ld x0 q0_S1x70x1062_S1x32x1024_0_19_19)) (k0_pay18 (k0_pay6 (View.ld x0 q0_S1x70x1062_S1x32x1024_0_19_19)) (k0_pay17 (k0_pay6 (View.ld x0 q0_S1x70x1062_S1x32x1024_0_19_19)) (View.ld x0 q0_S1x70x1062_S1x32x1024_0_8_16)) (View.ld x0 q0_S1x70x1062_S1x32x1024_0_8_17) (View.ld x0 q0_S1x70x1062_S1x32x1024_0_8_18) (View.ld x0 q0_S1x70x1062_S1x32x1024_0_8_19) (View.ld x0 q0_S1x70x1062_S1x32x1024_0_8_20) (View.ld x0 q0_S1x70x1062_S1x32x1024_0_8_21) (View.ld x0 q0_S1x70x1062_S1x32x1024_0_8_22) (View.ld x0 q0_S1x70x1062_S1x32x1024_0_9_14)) (k0_pay19 (k0_pay6 (View.ld x0 q0_S1x70x1062_S1x32x1024_0_19_19)) (View.ld x0 q0_S1x70x1062_S1x32x1024_0_9_15)) (View.ld x0 q0_S1x70x1062_S1x32x1024_0_9_23) (View.ld x0 q0_S1x70x1062_S1x32x1024_0_9_24) (View.ld x0 q0_S1x70x1062_S1x32x1024_0_10_12) (View.ld x0 q0_S1x70x1062_S1x32x1024_0_10_13) (View.ld x0 q0_S1x70x1062_S1x32x1024_0_10_25) (View.ld x0 q0_S1x70x1062_S1x32x1024_0_10_26) (View.ld x0 q0_S1x70x1062_S1x32x1024_0_11_11)) (View.ld x0 q0_S1x70x1062_S1x32x1024_0_11_12) (View.ld x0 q0_S1x70x1062_S1x32x1024_0_11_26) (View.ld x0 q0_S1x70x1062_S1x32x1024_0_11_27) (View.ld x0 q0_S1x70x1062_S1x32x1024_0_12_10) (View.ld x0 q0_S1x70x1062_S1x32x1024_0_12_11) (View.ld x0 q0_S1x70x1062_S1x32x1024_0_12_27) (View.ld x0 q0_S1x70x1062_S1x32x1024_0_12_28)) (k0_pay22 (k0_pay6 (View.ld x0 q0_S1x70x1062_S1x32x1024_0_19_19)) (View.ld x0 q0_S1x70x1062_S1x32x1024_0_13_10)) (View.ld x0 q0_S1x70x1062_S1x32x1024_0_13_28) (View.ld x0 q0_S1x70x1062_S1x32x1024_0_14_9) (View.ld x0 q0_S1x70x1062_S1x32x1024_0_14_29) (View.ld x0 q0_S1x70x1062_S1x32x1024_0_15_9) (View.ld x0 q0_S1x70x1062_S1x32x1024_0_15_29) (View.ld x0 q0_S1x70x1062_S1x32x1024_0_16_8) (View.ld x0 q0_S1x70x1062_S1x32x1024_0_16_30)) (View.ld x0 q0_S1x70x1062_S1x32x1024_0_17_8) (View.ld x0 q0_S1x70x1062_S1x32x1024_0_17_30) (View.ld x0 q0_S1x70x1062_S1x32x1024_0_18_8) (View.ld x0 q0_S1x70x1062_S1x32x1024_0_18_30) (View.ld x0 q0_S1x70x1062_S1x32x1024_0_19_8) (View.ld x0 q0_S1x70x1062_S1x32x1024_0_19_30) (View.ld x0 q0_S1x70x1062_S1x32x1024_0_20_8)) (k0_pay25 (k0_pay6 (View.ld x0 q0_S1x70x1062_S1x32x1024_0_19_19)) (View.ld x0 q0_S1x70x1062_S1x32x1024_0_20_30)) (View.ld x0 q0_S1x70x1062_S1x32x1024_0_21_8) (View.ld x0 q0_S1x70x1062_S1x32x1024_0_21_30) (View.ld x0 q0_S1x70x1062_S1x32x1024_0_22_8) (View.ld x0 q0_S1x70x1062_S1x32x1024_0_22_30) (View.ld x0 q0_S1x70x1062_S1x32x1024_0_23_9) (View.ld x0 q0_S1x70x1062_S1x32x1024_0_23_29) (View.ld x0 q0_S1x70x1062_S1x32x1024_0_24_9)) (View.ld x0 q0_S1x70x1062_S1x32x1024_0_24_29) (View.ld x0 q0_S1x70x1062_S1x32x1024_0_25_10) (View.ld x0 q0_S1x70x1062_S1x32x1024_0_25_28) (View.ld x0 q0_S1x70x1062_S1x32x1024_0_26_10) (View.ld x0 q0_S1x70x1062_S1x32x1024_0_26_11) (View.ld x0 q0_S1x70x1062_S1x32x1024_0_26_27) (View.ld x0 q0_S1x70x1062_S1x32x1024_0_26_28)) (k0_pay28 (k0_pay6 (View.ld x0 q0_S1x70x1062_S1x32x1024_0_19_19)) (View.ld x0 q0_S1x70x1062_S1x32x1024_0_27_11)) (View.ld x0 q0_S1x70x1062_S1x32x1024_0_27_12) (View.ld x0 q0_S1x70x1062_S1x32x1024_0_27_26) (View.ld x0 q0_S1x70x1062_S1x32x1024_0_27_27) (View.ld x0 q0_S1x70x1062_S1x32x1024_0_28_12) (View.ld x0 q0_S1x70x1062_S1x32x1024_0_28_13) (View.ld x0 q0_S1x70x1062_S1x32x1024_0_28_25) (View.ld x0 q0_S1x70x1062_S1x32x1024_0_28_26)) (View.ld x0 q0_S1x70x1062_S1x32x1024_0_29_14) (View.ld x0 q0_S1x70x1062_S1x32x1024_0_29_15) (View.ld x0 q0_S1x70x1062_S1x32x1024_0_29_23) (View.ld x0 q0_S1x70x1062_S1x32x1024_0_29_24) (View.ld x0 q0_S1x70x1062_S1x32x1024_0_30_16) (View.ld x0 q0_S1x70x1062_S1x32x1024_0_30_17) (View.ld x0 q0_S1x70x1062_S1x32x1024_0_30_18)) (k0_pay31 (k0_pay6 (View.ld x0 q0_S1x70x1062_S1x32x1024_0_19_19)) (View.ld x0 q0_S1x70x1062_S1x32x1024_0_30_19)) (View.ld x0 q0_S1x70x1062_S1x32x1024_0_30_20) (View.ld x0 q0_S1x70x1062_S1x32x1024_0_30_21) (View.ld x0 q0_S1x70x1062_S1x32x1024_0_30_22)) (k0_pay48 (k0_pay6 (View.ld x0 q0_S1x70x1062_S1x32x1024_0_19_19)) (k0_pay46 (k0_pay6 (View.ld x0 q0_S1x70x1062_S1x32x1024_0_19_19)) (k0_pay45 (k0_pay6 (View.ld x0 q0_S1x70x1062_S1x32x1024_0_19_19)) (k0_pay43 (k0_pay6 (View.ld x0 q0_S1x70x1062_S1x32x1024_0_19_19)) (k0_pay42 (k0_pay6 (View.ld x0 q0_S1x70x1062_S1x32x1024_0_19_19)) (k0_pay40 (k0_pay6 (View.ld x0 q0_S1x70x1062_S1x32x1024_0_19_19)) (k0_pay39 (k0_pay6 (View.ld x0 q0_S1x70x1062_S1x32x1024_0_19_19)) (k0_pay37 (k0_pay6 (View.ld x0 q0_S1x70x1062_S1x32x1024_0_19_19)) (k0_pay36 (k0_pay6 (View.ld x0 q0_S1x70x1062_S1x32x1024_0_19_19)) (k0_pay34 (k0_pay6 (View.ld x0 q0_S1x70x1062_S1x32x1024_0_19_19)) (k0_pay33 (k0_pay6 (View.ld x0 q0_S1x70x1062_S1x32x1024_0_19_19)) (View.ld x0 q0_S1x70x1062_S1x32x1024_0_4_16) (View.ld x0 q0_S1x70x1062_S1x32x1024_0_4_17) (View.ld x0 q0_S1x70x1062_S1x32x1024_0_4_18)) (View.ld x0 q0_S1x70x1062_S1x32x1024_0_4_19) (View.ld x0 q0_S1x70x1062_S1x32x1024_0_4_20) (View.ld x0 q0_S1x70x1062_S1x32x1024_0_4_21) (View.ld x0 q0_S1x70x1062_S1x32x1024_0_4_22) (View.ld x0 q0_S1x70x1062_S1x32x1024_0_5_13) (View.ld x0 q0_S1x70x1062_S1x32x1024_0_5_14) (View.ld x0 q0_S1x70x1062_S1x32x1024_0_5_15)) (k0_pay35 (k0_pay6 (View.ld x0 q0_S1x70x1062_S1x32x1024_0_19_19)) (View.ld x0 q0_S1x70x1062_S1x32x1024_0_5_23)) (View.ld x0 q0_S1x70x1062_S1x32x1024_0_5_24) (View.ld x0 q0_S1x70x1062_S1x32x1024_0_5_25) (View.ld x0 q0_S1x70x1062_S1x32x1024_0_6_11) (View.ld x0 q0_S1x70x1062_S1x32x1024_0_6_12) (View.ld x0 q0_S1x70x1062_S1x32x1024_0_6_26) (View.ld x0 q0_S1x70x1062_S1x32x1024_0_6_27) (View.ld x0 q0_S1x70x1062_S1x32x1024_0_7_10)) (View.ld x0 q0_S1x70x1062_S1x32x1024_0_7_28) (View.ld x0 q0_S1x70x1062_S1x32x1024_0_8_9) (View.ld x0 q0_S1x70x1062_S1x32x1024_0_8_29) (View.ld x0 q0_S1x70x1062_S1x32x1024_0_9_8) (View.ld x0 q0_S1x70x1062_S1x32x1024_0_9_30) (View.ld x0 q0_S1x70x1062_S1x32x1024_0_10_7) (View.ld x0 q0_S1x70x1062_S1x32x1024_0_10_31)) (k0_pay38 (k0_pay6 (View.ld x0 q0_S1x70x1062_S1x32x1024_0_19_19)) (View.ld x0 q0_S1x70x1062_S1x32x1024_0_11_6)) (View.ld x0 q0_S1x70x1062_S1x32x1024_0_11_32) (View.ld x0 q0_S1x70x1062_S1x32x1024_0_12_6) (View.ld x0 q0_S1x70x1062_S1x32x1024_0_12_32) (View.ld x0 q0_S1x70x1062_S1x32x1024_0_13_5) (View.ld x0 q0_S1x70x1062_S1x32x1024_0_13_33) (View.ld x0 q0_S1x70x1062_S1x32x1024_0_14_5) (View.ld x0 q0_S1x70x1062_S1x32x1024_0_14_33)) (View.ld x0 q0_S1x70x1062_S1x32x1024_0_15_5) (View.ld x0 q0_S1x70x1062_S1x32x1024_0_15_33) (View.ld x0 q0_S1x70x1062_S1x32x1024_0_16_4) (View.ld x0 q0_S1x70x1062_S1x32x1024_0_16_34) (View.ld x0 q0_S1x70x1062_S1x32x1024_0_17_4) (View.ld x0 q0_S1x70x1062_S1x32x1024_0_17_34) (View.ld x0 q0_S1x70x1062_S1x32x1024_0_18_4)) (k0_pay41 (k0_pay6 (View.ld x0 q0_S1x70x1062_S1x32x1024_0_19_19)) (View.ld x0 q0_S1x70x1062_S1x32x1024_0_18_34)) (View.ld x0 q0_S1x70x1062_S1x32x1024_0_19_4) (View.ld x0 q0_S1x70x1062_S1x32x1024_0_19_34) (View.ld x0 q0_S1x70x1062_S1x32x1024_0_20_4) (View.ld x0 q0_S1x70x1062_S1x32x1024_0_20_34) (View.ld x0 q0_S1x70x1062_S1x32x1024_0_21_4) (View.ld x0 q0_S1x70x1062_S1x32x1024_0_21_34) (View.ld x0 q0_S1x70x1062_S1x32x1024_0_22_4)) (View.ld x0 q0_S1x70x1062_S1x32x1024_0_22_34) (View.ld x0 q0_S1x70x1062_S1x32x1024_0_23_5) (View.ld x0 q0_S1x70x1062_S1x32x1024_0_23_33) (View.ld x0 q0_S1x70x1062_S1x32x1024_0_24_5) (View.ld x0 q0_S1x70x1062_S1x32x1024_0_24_33) (View.ld x0 q0_S1x70x1062_S1x32x1024_0_25_5) (View.ld x0 q0_S1x70x1062_S1x32x1024_0_25_33)) (k0_pay44 (k0_pay6 (View.ld x0 q0_S1x70x1062_S1x32x1024_0_19_19)) (View.ld x0 q0_S1x70x1062_S1x32x1024_0_26_6)) (View.ld x0 q0_S1x70x1062_S1x32x1024_0_26_32) (View.ld x0 q0_S1x70x1062_S1x32x1024_0_27_6) (View.ld x0 q0_S1x70x1062_S1x32x1024_0_27_32) (View.ld x0 q0_S1x70x1062_S1x32x1024_0_28_7) (View.ld x0 q0_S1x70x1062_S1x32x1024_0_28_31) (View.ld x0 q0_S1x70x1062_S1x32x1024_0_29_8) (View.ld x0 q0_S1x70x1062_S1x32x1024_0_29_30)) (View.ld x0 q0_S1x70x1062_S1x32x1024_0_30_9) (View.ld x0 q0_S1x70x1062_S1x32x1024_0_30_29) (View.ld x0 q0_S1x70x1062_S1x32x1024_0_31_10) (View.ld x0 q0_S1x70x1062_S1x32x1024_0_31_28) (View.ld x0 q0_S1x70x1062_S1x32x1024_0_32_11) (View.ld x0 q0_S1x70x1062_S1x32x1024_0_32_12) (View.ld x0 q0_S1x70x1062_S1x32x1024_0_32_26)) (k0_pay47 (k0_pay6 (View.ld x0 q0_S1x70x1062_S1x32x1024_0_19_19)) (View.ld x0 q0_S1x70x1062_S1x32x1024_0_32_27)) (View.ld x0 q0_S1x70x1062_S1x32x1024_0_33_13) (View.ld x0 q0_S1x70x1062_S1x32x1024_0_33_14) (View.ld x0 q0_S1x70x1062_S1x32x1024_0_33_15) (View.ld x0 q0_S1x70x1062_S1x32x1024_0_33_23) (View.ld x0 q0_S1x70x1062_S1x32x1024_0_33_24) (View.ld x0 q0_S1x70x1062_S1x32x1024_0_33_25) (View.ld x0 q0_S1x70x1062_S1x32x1024_0_34_16)) (View.ld x0 q0_S1x70x1062_S1x32x1024_0_34_17) (View.ld x0 q0_S1x70x1062_S1x32x1024_0_34_18) (View.ld x0 q0_S1x70x1062_S1x32x1024_0_34_19) (View.ld x0 q0_S1x70x1062_S1x32x1024_0_34_20) (View.ld x0 q0_S1x70x1062_S1x32x1024_0_34_21) (View.ld x0 q0_S1x70x1062_S1x32x1024_0_34_22))) (k0_pay74 (k0_pay6 (View.ld x0 q0_S1x70x1062_S1x32x1024_0_19_19)) (k0_pay73 (k0_pay6 (View.ld x0 q0_S1x70x1062_S1x32x1024_0_19_19)) (k0_pay71 (k0_pay6 (View.ld x0 q0_S1x70x1062_S1x32x1024_0_19_19)) (k0_pay70 (k0_pay6 (View.ld x0 q0_S1x70x1062_S1x32x1024_0_19_19)) (k0_pay68 (k0_pay6 (View.ld x0 q0_S1x70x1062_S1x32x1024_0_19_19)) (k0_pay67 (k0_pay6 (View.ld x0 q0_S1x70x1062_S1x32x1024_0_19_19)) (k0_pay65 (k0_pay6 (View.ld x0 q0_S1x70x1062_S1x32x1024_0_19_19)) (k0_pay64 (k0_pay6 (View.ld x0 q0_S1x70x1062_S1x32x1024_0_19_19)) (k0_pay62 (k0_pay6 (View.ld x0 q0_S1x70x1062_S1x32x1024_0_19_19)) (k0_pay61 (k0_pay6 (View.ld x0 q0_S1x70x1062_S1x32x1024_0_19_19)) (k0_pay59 (k0_pay6 (View.ld x0 q0_S1x70x1062_S1x32x1024_0_19_19)) (k0_pay58 (k0_pay6 (View.ld x0 q0_S1x70x1062_S1x32x1024_0_19_19)) (k0_pay56 (k0_pay6 (View.ld x0 q0_S1x70x1062_S1x32x1024_0_19_19)) (k0_pay55 (k0_pay6 (View.ld x0 q0_S1x70x1062_S1x32x1024_0_19_19)) (k0_pay53 (k0_pay6 (View.ld x0 q0_S1x70x1062_S1x32x1024_0_19_19)) (k0_pay52 (k0_pay6 (View.ld x0 q0_S1x70x1062_S1x32x1024_0_19_19)) (k0_pay50 (F := F)) (k0_pay51 (k0_pay6 (View.ld x0 q0_S1x70x1062_S1x32x1024_0_19_19)) (View.ld x0 q0_S1x70x1062_S1x32x1024_0_0_15)) (View.ld x0 q0_S1x70x1062_S1x32x1024_0_0_16) (View.ld x0 q0_S1x70x1062_S1x32x1024_0_0_17) (View.ld x0 q0_S1x70x1062_S1x32x1024_0_0_18) (View.ld x0 q0_S1x70x1062_S1x32x1024_0_0_19) (View.ld x0 q0_S1x70x1062_S1x32x1024_0_0_20) (View.ld x0 q0_S1x70x1062_S1x32x1024_0_0_21) (View.ld x0 q0_S1x70x1062_S1x32x1024_0_0_22)) (View.ld x0 q0_S1x70x1062_S1x32x1024_0_0_23) (View.ld x0 q0_S1x70x1062_S1x32x1024_0_1_12) (View.ld x0 q0_S1x70x1062_S1x32x1024_0_1_13) (View.ld x0 q0_S1x70x1062_S1x32x1024_0_1_14) (View.ld x0 q0_S1x70x1062_S1x32x1024_0_1_24) (View.ld x0 q0_S1x70x1062_S1x32x1024_0_1_25) (View.ld x0 q0_S1x70x1062_S1x32x1024_0_1_26)) (k0_pay54 (k0_pay6 (View.ld x0 q0_S1x70x1062_S1x32x1024_0_19_19)) (View.ld x0 q0_S1x70x1062_S1x32x1024_0_2_10)) (View.ld x0 q0_S1x70x1062_S1x32x1024_0_2_11) (View.ld x0 q0_S1x70x1062_S1x32x1024_0_2_27) (View.ld x0 q0_S1x70x1062_S1x32x1024_0_2_28) (View.ld x0 q0_S1x70x1062_S1x32x1024_0_3_8) (View.ld x0 q0_S1x70x1062_S1x32x1024_0_3_9) (View.ld x0 q0_S1x70x1062_S1x32x1024_0_3_29) (View.ld x0 q0_S1x70x1062_S1x32x1024_0_3_30)) (View.ld x0 q0_S1x70x1062_S1x32x1024_0_4_7) (View.ld x0 q0_S1x70x1062_S1x32x1024_0_4_8) (View.ld x0 q0_S1x70x1062_S1x32x1024_0_4_30) (View.ld x0 q0_S1x70x1062_S1x32x1024_0_4_31) (View.ld x0 q0_S1x70x1062_S1x32x1024_0_5_6) (View.ld x0 q0_S1x70x1062_S1x32x1024_0_5_32) (View.ld x0 q0_S1x70x1062_S1x32x1024_0_6_5)) (k0_pay57 (k0_pay6 (View.ld x0 q0_S1x70x1062_S1x32x1024_0_19_19)) (View.ld x0 q0_S1x70x1062_S1x32x1024_0_6_33)) (View.ld x0 q0_S1x70x1062_S1x32x1024_0_7_4) (View.ld x0 q0_S1x70x1062_S1x32x1024_0_7_34) (View.ld x0 q0_S1x70x1062_S1x32x1024_0_8_3) (View.ld x0 q0_S1x70x1062_S1x32x1024_0_8_4) (View.ld x0 q0_S1x70x1062_S1x32x1024_0_8_34) (View.ld x0 q0_S1x70x1062_S1x32x1024_0_8_35) (View.ld x0 q0_S1x70x1062_S1x32x1024_0_9_3)) (View.ld x0 q0_S1x70x1062_S1x32x1024_0_9_35) (View.ld x0 q0_S1x70x1062_S1x32x1024_0_10_2) (View.ld x0 q0_S1x70x1062_S1x32x1024_0_10_36) (View.ld x0 q0_S1x70x1062_S1x32x1024_0_11_2) (View.ld x0 q0_S1x70x1062_S1x32x1024_0_11_36) (View.ld x0 q0_S1x70x1062_S1x32x1024_0_12_1) (View.ld x0 q0_S1x70x1062_S1x32x1024_0_12_37)) (k0_pay60 (k0_pay6 (View.ld x0 q0_S1x70x1062_S1x32x1024_0_19_19)) (View.ld x0 q0_S1x70x1062_S1x32x1024_0_13_1)) (View.ld x0 q0_S1x70x1062_S1x32x1024_0_13_37) (View.ld x0 q0_S1x70x1062_S1x32x1024_0_14_1) (View.ld x0 q0_S1x70x1062_S1x32x1024_0_14_37) (View.ld x0 q0_S1x70x1062_S1x32x1024_0_15_0) (View.ld x0 q0_S1x70x1062_S1x32x1024_0_15_38) (View.ld x0 q0_S1x70x1062_S1x32x1024_0_16_0) (View.ld x0 q0_S1x70x1062_S1x32x1024_0_16_38)) (View.ld x0 q0_S1x70x1062_S1x32x1024_0_17_0) (View.ld x0 q0_S1x70x1062_S1x32x1024_0_17_38) (View.ld x0 q0_S1x70x1062_S1x32x1024_0_18_0) (View.ld x0 q0_S1x70x1062_S1x32x1024_0_18_38) (View.ld x0 q0_S1x70x1062_S1x32x1024_0_19_0) (View.ld x0 q0_S1x70x1062_S1x32x1024_0_19_38) (View.ld x0 q0_S1x70x1062_S1x32x1024_0_20_0)) (k0_pay63 (k0_pay6 (View.ld x0 q0_S1x70x1062_S1x32x1024_0_19_19)) (View.ld x0 q0_S1x70x1062_S1x32x1024_0_20_38)) (View.ld x0 q0_S1x70x1062_S1x32x1024_0_21_0) (View.ld x0 q0_S1x70x1062_S1x32x1024_0_21_38) (View.ld x0 q0_S1x70x1062_S1x32x1024_0_22_0) (View.ld x0 q0_S1x70x1062_S1x32x1024_0_22_38) (View.ld x0 q0_S1x70x1062_S1x32x1024_0_23_0) (View.ld x0 q0_S1x70x1062_S1x32x1024_0_23_38) (View.ld x0 q0_S1x70x1062_S1x32x1024_0_24_1)) (View.ld x0 q0_S1x70x1062_S1x32x1024_0_24_37) (View.ld x0 q0_S1x70x1062_S1x32x1024_0_25_1) (View.ld x0 q0_S1x70x1062_S1x32x1024_0_25_37) (View.ld x0 q0_S1x70x1062_S1x32x1024_0_26_1) (View.ld x0 q0_S1x70x1062_S1x32x1024_0_26_37) (View.ld x0 q0_S1x70x1062_S1x32x1024_0_27_2) (View.ld x0 q0_S1x70x1062_S1x32x1024_0_27_36)) (k0_pay66 (k0_pay6 (View.ld x0 q0_S1x70x1062_S1x32x1024_0_19_19)) (View.ld x0 q0_S1x70x1062_S1x32x1024_0_28_2)) (View.ld x0 q0_S1x70x1062_S1x32x1024_0_28_36) (View.ld x0 q0_S1x70x1062_S1x32x1024_0_29_3) (View.ld x0 q0_S1x70x1062_S1x32x1024_0_29_35) (View.ld x0 q0_S1x70x1062_S1x32x1024_0_30_3) (View.ld x0 q0_S1x70x1062_S1x32x1024_0_30_4) (View.ld x0 q0_S1x70x1062_S1x32x1024_0_30_34) (View.ld x0 q0_S1x70x1062_S1x32x1024_0_30_35)) (View.ld x0 q0_S1x70x1062_S1x32x1024_0_31_4) (View.ld x0 q0_S1x70x1062_S1x32x1024_0_31_34) (View.ld x0 q0_S1x70x1062_S1x32x1024_0_32_5) (View.ld x0 q0_S1x70x1062_S1x32x1024_0_32_33) (View.ld x0 q0_S1x70x1062_S1x32x1024_0_33_6) (View.ld x0 q0_S1x70x1062_S1x32x1024_0_33_32) (View.ld x0 q0_S1x70x1062_S1x32x1024_0_34_7)) (k0_pay69 (k0_pay6 (View.ld x0 q0_S1x70x1062_S1x32x1024_0_19_19)) (View.ld x0 q0_S1x70x1062_S1x32x1024_0_34_8)) (View.ld x0 q0_S1x70x1062_S1x32x1024_0_34_30) (View.ld x0 q0_S1x70x1062_S1x32x1024_0_34_31) (View.ld x0 q0_S1x70x1062_S1x32x1024_0_35_8) (View.ld x0 q0_S1x70x1062_S1x32x1024_0_35_9) (View.ld x0 q0_S1x70x1062_S1x32x1024_0_35_29) (View.ld x0 q0_S1x70x1062_S1x32x1024_0_35_30) (View.ld x0 q0_S1x70x1062_S1x32x1024_0_36_10)) (View.ld x0 q0_S1x70x1062_S1x32x1024_0_36_11) (View.ld x0 q0_S1x70x1062_S1x32x1024_0_36_27) (View.ld x0 q0_S1x70x1062_S1x32x1024_0_36_28) (View.ld x0 q0_S1x70x1062_S1x32x1024_0_37_12) (View.ld x0 q0_S1x70x1062_S1x32x1024_0_37_13) (View.ld x0 q0_S1x70x1062_S1x32x1024_0_37_14) (View.ld x0 q0_S1x70x1062_S1x32x1024_0_37_24)) (k0_pay72 (k0_pay6 (View.ld x0 q0_S1x70x1062_S1x32x1024_0_19_19)) (View.ld x0 q0_S1x70x1062_S1x32x1024_0_37_25)) (View.ld x0 q0_S1x70x1062_S1x32x1024_0_37_26) (View.ld x0 q0_S1x70x1062_S1x32x1024_0_38_15) (View.ld x0 q0_S1x70x1062_S1x32x1024_0_38_16) (View.ld x0 q0_S1x70x1062_S1x32x1024_0_38_17) (View.ld x0 q0_S1x70x1062_S1x32x1024_0_38_18) (View.ld x0 q0_S1x70x1062_S1x32x1024_0_38_19) (View.ld x0 q0_S1x70x1062_S1x32x1024_0_38_20)) (View.ld x0 q0_S1x70x1062_S1x32x1024_0_38_21) (View.ld x0 q0_S1x70x1062_S1x32x1024_0_38_22)) ((View.ld x0 q0_S1x70x1062_S1x32x1024_0_38_23))⟩]

end Cert.Kernel.Hand

end
-- ==== Proof.KB.Body0.lean ====
/-
  Kernel 0 (one row tile of one ring layer): the body's triple.  The body reads the centre tile and, for each
  ring offset of the four radii, one shifted tile of the padded window; it keeps a running minimum of the
  absolute differences, turns each radius' minimum m into 1 - m, accumulates the weighted sum and divides by the
  sum of the weights.  Its one store writes the whole 32 x 1024 output tile, so that single piece covers the
  buffer, and what the buffer holds afterwards is the stored payload as a function of the input blocks alone.
-/
import proofs.«126001_j6975026889201_2_alg».proof.Proof.KB.Out0
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The one stored rectangle is the whole tile, so it covers the buffer. -/
theorem cover0_5 (p0 : Vec F S32x1024 .f32) (y : S32x1024.Idx) :
    ∃ pc ∈ ([⟨q0_S32x1024_S32x1024_0_0, p0⟩] : List (View.Piece (Elt F) S32x1024 .f32)), y ∈ pc.1.set :=
  View.cover_of_tiled [⟨q0_S32x1024_S32x1024_0_0, p0⟩] S32x1024.size (by rfl) y

set_option maxHeartbeats 20000000 in
/-- On whole staging buffers, the five inputs at contents x0..x4 and the output at anything, the body runs to its
    continuation with the inputs as they were and the output tile at the stored payload of the inputs. -/
theorem sound_kernel0 (c : Dev nD) (E : Set ℕ) (i : grid0.Coords)
    (arg1 : Memref sig .tc .vmem S1x70x1062 .f32) (harg1 : arg1.IsWhole) (arg2 : Memref sig .tc .vmem S1 .f32) (harg2 : arg2.IsWhole)
    (arg3 : Memref sig .tc .vmem S1 .f32) (harg3 : arg3.IsWhole) (arg4 : Memref sig .tc .vmem S1 .f32) (harg4 : arg4.IsWhole)
    (arg5 : Memref sig .tc .vmem S1 .f32) (harg5 : arg5.IsWhole) (arg6 : Memref sig .tc .vmem S32x1024 .f32) (harg6 : arg6.IsWhole)
    (x0 : Vec F S1x70x1062 .f32) (x1 x2 x3 x4 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  simp only [k0_part43_eq_skeleton]; unfold k0_part43_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [k0_part19_eq_skeleton]; unfold k0_part19_skel
  simp only [k0_part20_eq_skeleton]; unfold k0_part20_skel
  simp only [k0_part21_eq_skeleton]; unfold k0_part21_skel
  simp only [k0_part22_eq_skeleton]; unfold k0_part22_skel
  simp only [k0_part23_eq_skeleton]; unfold k0_part23_skel
  simp only [k0_part24_eq_skeleton]; unfold k0_part24_skel
  simp only [k0_part25_eq_skeleton]; unfold k0_part25_skel
  simp only [k0_part26_eq_skeleton]; unfold k0_part26_skel
  simp only [k0_part27_eq_skeleton]; unfold k0_part27_skel
  simp only [k0_part28_eq_skeleton]; unfold k0_part28_skel
  simp only [k0_part29_eq_skeleton]; unfold k0_part29_skel
  simp only [k0_part30_eq_skeleton]; unfold k0_part30_skel
  simp only [k0_part31_eq_skeleton]; unfold k0_part31_skel
  simp only [k0_part32_eq_skeleton]; unfold k0_part32_skel
  simp only [k0_part33_eq_skeleton]; unfold k0_part33_skel
  simp only [k0_part34_eq_skeleton]; unfold k0_part34_skel
  simp only [k0_part35_eq_skeleton]; unfold k0_part35_skel
  simp only [k0_part36_eq_skeleton]; unfold k0_part36_skel
  simp only [k0_part37_eq_skeleton]; unfold k0_part37_skel
  simp only [k0_part38_eq_skeleton]; unfold k0_part38_skel
  simp only [k0_part39_eq_skeleton]; unfold k0_part39_skel
  simp only [k0_part40_eq_skeleton]; unfold k0_part40_skel
  simp only [k0_part41_eq_skeleton]; unfold k0_part41_skel
  simp only [k0_part42_eq_skeleton]; unfold k0_part42_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

end Cert.Kernel.Hand

end
-- ==== Proof.KB.Out1.lean ====
/- The table of rectangles kernel 1's body reads and writes through, and the term its one store writes with every load
   replaced by the read of the input block through the load's rectangle and every part call by the part's returned terms. -/
import proofs.«126001_j6975026889201_2_alg».proof.Proof.Gen.Kernel.Skeleton
import Idealize.ShloMosaic.Lib.Pipeline.FrameBody

set_option maxRecDepth 16384

noncomputable section

namespace Cert.Kernel.Hand

open Idealize.ShloMosaic Cert.Kernel Cert.Kernel.Gen

variable {F : FTy → Type} [FloatOps F]

abbrev q1_S1_S1_0 : Rect S1 := Rect.unit (s := S1) ![0] S1.size inb_S1_S1_0
abbrev q1_S1x70x1062_S1x32x1024_0_19_19 : Rect S1x70x1062 := Rect.unit (s := S1x70x1062) ![0, 19, 19] S1x32x1024.size inb_S1x70x1062_S1x32x1024_0_19_19
abbrev q1_S1x70x1062_S1x32x1024_0_12_17 : Rect S1x70x1062 := Rect.unit (s := S1x70x1062) ![0, 12, 17] S1x32x1024.size inb_S1x70x1062_S1x32x1024_0_12_17
abbrev q1_S1x70x1062_S1x32x1024_0_12_18 : Rect S1x70x1062 := Rect.unit (s := S1x70x1062) ![0, 12, 18] S1x32x1024.size inb_S1x70x1062_S1x32x1024_0_12_18
abbrev q1_S1x70x1062_S1x32x1024_0_12_19 : Rect S1x70x1062 := Rect.unit (s := S1x70x1062) ![0, 12, 19] S1x32x1024.size inb_S1x70x1062_S1x32x1024_0_12_19
abbrev q1_S1x70x1062_S1x32x1024_0_12_20 : Rect S1x70x1062 := Rect.unit (s := S1x70x1062) ![0, 12, 20] S1x32x1024.size inb_S1x70x1062_S1x32x1024_0_12_20
abbrev q1_S1x70x1062_S1x32x1024_0_12_21 : Rect S1x70x1062 := Rect.unit (s := S1x70x1062) ![0, 12, 21] S1x32x1024.size inb_S1x70x1062_S1x32x1024_0_12_21
abbrev q1_S1x70x1062_S1x32x1024_0_13_15 : Rect S1x70x1062 := Rect.unit (s := S1x70x1062) ![0, 13, 15] S1x32x1024.size inb_S1x70x1062_S1x32x1024_0_13_15
abbrev q1_S1x70x1062_S1x32x1024_0_13_16 : Rect S1x70x1062 := Rect.unit (s := S1x70x1062) ![0, 13, 16] S1x32x1024.size inb_S1x70x1062_S1x32x1024_0_13_16
abbrev q1_S1x70x1062_S1x32x1024_0_13_22 : Rect S1x70x1062 := Rect.unit (s := S1x70x1062) ![0, 13, 22] S1x32x1024.size inb_S1x70x1062_S1x32x1024_0_13_22
abbrev q1_S1x70x1062_S1x32x1024_0_13_23 : Rect S1x70x1062 := Rect.unit (s := S1x70x1062) ![0, 13, 23] S1x32x1024.size inb_S1x70x1062_S1x32x1024_0_13_23
abbrev q1_S1x70x1062_S1x32x1024_0_14_14 : Rect S1x70x1062 := Rect.unit (s := S1x70x1062) ![0, 14, 14] S1x32x1024.size inb_S1x70x1062_S1x32x1024_0_14_14
abbrev q1_S1x70x1062_S1x32x1024_0_14_24 : Rect S1x70x1062 := Rect.unit (s := S1x70x1062) ![0, 14, 24] S1x32x1024.size inb_S1x70x1062_S1x32x1024_0_14_24
abbrev q1_S1x70x1062_S1x32x1024_0_15_13 : Rect S1x70x1062 := Rect.unit (s := S1x70x1062) ![0, 15, 13] S1x32x1024.size inb_S1x70x1062_S1x32x1024_0_15_13
abbrev q1_S1x70x1062_S1x32x1024_0_15_25 : Rect S1x70x1062 := Rect.unit (s := S1x70x1062) ![0, 15, 25] S1x32x1024.size inb_S1x70x1062_S1x32x1024_0_15_25
abbrev q1_S1x70x1062_S1x32x1024_0_16_13 : Rect S1x70x1062 := Rect.unit (s := S1x70x1062) ![0, 16, 13] S1x32x1024.size inb_S1x70x1062_S1x32x1024_0_16_13
abbrev q1_S1x70x1062_S1x32x1024_0_16_25 : Rect S1x70x1062 := Rect.unit (s := S1x70x1062) ![0, 16, 25] S1x32x1024.size inb_S1x70x1062_S1x32x1024_0_16_25
abbrev q1_S1x70x1062_S1x32x1024_0_17_12 : Rect S1x70x1062 := Rect.unit (s := S1x70x1062) ![0, 17, 12] S1x32x1024.size inb_S1x70x1062_S1x32x1024_0_17_12
abbrev q1_S1x70x1062_S1x32x1024_0_17_26 : Rect S1x70x1062 := Rect.unit (s := S1x70x1062) ![0, 17, 26] S1x32x1024.size inb_S1x70x1062_S1x32x1024_0_17_26
abbrev q1_S1x70x1062_S1x32x1024_0_18_12 : Rect S1x70x1062 := Rect.unit (s := S1x70x1062) ![0, 18, 12] S1x32x1024.size inb_S1x70x1062_S1x32x1024_0_18_12
abbrev q1_S1x70x1062_S1x32x1024_0_18_26 : Rect S1x70x1062 := Rect.unit (s := S1x70x1062) ![0, 18, 26] S1x32x1024.size inb_S1x70x1062_S1x32x1024_0_18_26
abbrev q1_S1x70x1062_S1x32x1024_0_19_12 : Rect S1x70x1062 := Rect.unit (s := S1x70x1062) ![0, 19, 12] S1x32x1024.size inb_S1x70x1062_S1x32x1024_0_19_12
abbrev q1_S1x70x1062_S1x32x1024_0_19_26 : Rect S1x70x1062 := Rect.unit (s := S1x70x1062) ![0, 19, 26] S1x32x1024.size inb_S1x70x1062_S1x32x1024_0_19_26
abbrev q1_S1x70x1062_S1x32x1024_0_20_12 : Rect S1x70x1062 := Rect.unit (s := S1x70x1062) ![0, 20, 12] S1x32x1024.size inb_S1x70x1062_S1x32x1024_0_20_12
abbrev q1_S1x70x1062_S1x32x1024_0_20_26 : Rect S1x70x1062 := Rect.unit (s := S1x70x1062) ![0, 20, 26] S1x32x1024.size inb_S1x70x1062_S1x32x1024_0_20_26
abbrev q1_S1x70x1062_S1x32x1024_0_21_12 : Rect S1x70x1062 := Rect.unit (s := S1x70x1062) ![0, 21, 12] S1x32x1024.size inb_S1x70x1062_S1x32x1024_0_21_12
abbrev q1_S1x70x1062_S1x32x1024_0_21_26 : Rect S1x70x1062 := Rect.unit (s := S1x70x1062) ![0, 21, 26] S1x32x1024.size inb_S1x70x1062_S1x32x1024_0_21_26
abbrev q1_S1x70x1062_S1x32x1024_0_22_13 : Rect S1x70x1062 := Rect.unit (s := S1x70x1062) ![0, 22, 13] S1x32x1024.size inb_S1x70x1062_S1x32x1024_0_22_13
abbrev q1_S1x70x1062_S1x32x1024_0_22_25 : Rect S1x70x1062 := Rect.unit (s := S1x70x1062) ![0, 22, 25] S1x32x1024.size inb_S1x70x1062_S1x32x1024_0_22_25
abbrev q1_S1x70x1062_S1x32x1024_0_23_13 : Rect S1x70x1062 := Rect.unit (s := S1x70x1062) ![0, 23, 13] S1x32x1024.size inb_S1x70x1062_S1x32x1024_0_23_13
abbrev q1_S1x70x1062_S1x32x1024_0_23_25 : Rect S1x70x1062 := Rect.unit (s := S1x70x1062) ![0, 23, 25] S1x32x1024.size inb_S1x70x1062_S1x32x1024_0_23_25
abbrev q1_S1x70x1062_S1x32x1024_0_24_14 : Rect S1x70x1062 := Rect.unit (s := S1x70x1062) ![0, 24, 14] S1x32x1024.size inb_S1x70x1062_S1x32x1024_0_24_14
abbrev q1_S1x70x1062_S1x32x1024_0_24_24 : Rect S1x70x1062 := Rect.unit (s := S1x70x1062) ![0, 24, 24] S1x32x1024.size inb_S1x70x1062_S1x32x1024_0_24_24
abbrev q1_S1x70x1062_S1x32x1024_0_25_15 : Rect S1x70x1062 := Rect.unit (s := S1x70x1062) ![0, 25, 15] S1x32x1024.size inb_S1x70x1062_S1x32x1024_0_25_15
abbrev q1_S1x70x1062_S1x32x1024_0_25_16 : Rect S1x70x1062 := Rect.unit (s := S1x70x1062) ![0, 25, 16] S1x32x1024.size inb_S1x70x1062_S1x32x1024_0_25_16
abbrev q1_S1x70x1062_S1x32x1024_0_25_22 : Rect S1x70x1062 := Rect.unit (s := S1x70x1062) ![0, 25, 22] S1x32x1024.size inb_S1x70x1062_S1x32x1024_0_25_22
abbrev q1_S1x70x1062_S1x32x1024_0_25_23 : Rect S1x70x1062 := Rect.unit (s := S1x70x1062) ![0, 25, 23] S1x32x1024.size inb_S1x70x1062_S1x32x1024_0_25_23
abbrev q1_S1x70x1062_S1x32x1024_0_26_17 : Rect S1x70x1062 := Rect.unit (s := S1x70x1062) ![0, 26, 17] S1x32x1024.size inb_S1x70x1062_S1x32x1024_0_26_17
abbrev q1_S1x70x1062_S1x32x1024_0_26_18 : Rect S1x70x1062 := Rect.unit (s := S1x70x1062) ![0, 26, 18] S1x32x1024.size inb_S1x70x1062_S1x32x1024_0_26_18
abbrev q1_S1x70x1062_S1x32x1024_0_26_19 : Rect S1x70x1062 := Rect.unit (s := S1x70x1062) ![0, 26, 19] S1x32x1024.size inb_S1x70x1062_S1x32x1024_0_26_19
abbrev q1_S1x70x1062_S1x32x1024_0_26_20 : Rect S1x70x1062 := Rect.unit (s := S1x70x1062) ![0, 26, 20] S1x32x1024.size inb_S1x70x1062_S1x32x1024_0_26_20
abbrev q1_S1x70x1062_S1x32x1024_0_26_21 : Rect S1x70x1062 := Rect.unit (s := S1x70x1062) ![0, 26, 21] S1x32x1024.size inb_S1x70x1062_S1x32x1024_0_26_21
abbrev q1_S1x70x1062_S1x32x1024_0_8_16 : Rect S1x70x1062 := Rect.unit (s := S1x70x1062) ![0, 8, 16] S1x32x1024.size inb_S1x70x1062_S1x32x1024_0_8_16
abbrev q1_S1x70x1062_S1x32x1024_0_8_17 : Rect S1x70x1062 := Rect.unit (s := S1x70x1062) ![0, 8, 17] S1x32x1024.size inb_S1x70x1062_S1x32x1024_0_8_17
abbrev q1_S1x70x1062_S1x32x1024_0_8_18 : Rect S1x70x1062 := Rect.unit (s := S1x70x1062) ![0, 8, 18] S1x32x1024.size inb_S1x70x1062_S1x32x1024_0_8_18
abbrev q1_S1x70x1062_S1x32x1024_0_8_19 : Rect S1x70x1062 := Rect.unit (s := S1x70x1062) ![0, 8, 19] S1x32x1024.size inb_S1x70x1062_S1x32x1024_0_8_19
abbrev q1_S1x70x1062_S1x32x1024_0_8_20 : Rect S1x70x1062 := Rect.unit (s := S1x70x1062) ![0, 8, 20] S1x32x1024.size inb_S1x70x1062_S1x32x1024_0_8_20
abbrev q1_S1x70x1062_S1x32x1024_0_8_21 : Rect S1x70x1062 := Rect.unit (s := S1x70x1062) ![0, 8, 21] S1x32x1024.size inb_S1x70x1062_S1x32x1024_0_8_21
abbrev q1_S1x70x1062_S1x32x1024_0_8_22 : Rect S1x70x1062 := Rect.unit (s := S1x70x1062) ![0, 8, 22] S1x32x1024.size inb_S1x70x1062_S1x32x1024_0_8_22
abbrev q1_S1x70x1062_S1x32x1024_0_9_14 : Rect S1x70x1062 := Rect.unit (s := S1x70x1062) ![0, 9, 14] S1x32x1024.size inb_S1x70x1062_S1x32x1024_0_9_14
abbrev q1_S1x70x1062_S1x32x1024_0_9_15 : Rect S1x70x1062 := Rect.unit (s := S1x70x1062) ![0, 9, 15] S1x32x1024.size inb_S1x70x1062_S1x32x1024_0_9_15
abbrev q1_S1x70x1062_S1x32x1024_0_9_23 : Rect S1x70x1062 := Rect.unit (s := S1x70x1062) ![0, 9, 23] S1x32x1024.size inb_S1x70x1062_S1x32x1024_0_9_23
abbrev q1_S1x70x1062_S1x32x1024_0_9_24 : Rect S1x70x1062 := Rect.unit (s := S1x70x1062) ![0, 9, 24] S1x32x1024.size inb_S1x70x1062_S1x32x1024_0_9_24
abbrev q1_S1x70x1062_S1x32x1024_0_10_12 : Rect S1x70x1062 := Rect.unit (s := S1x70x1062) ![0, 10, 12] S1x32x1024.size inb_S1x70x1062_S1x32x1024_0_10_12
abbrev q1_S1x70x1062_S1x32x1024_0_10_13 : Rect S1x70x1062 := Rect.unit (s := S1x70x1062) ![0, 10, 13] S1x32x1024.size inb_S1x70x1062_S1x32x1024_0_10_13
abbrev q1_S1x70x1062_S1x32x1024_0_10_25 : Rect S1x70x1062 := Rect.unit (s := S1x70x1062) ![0, 10, 25] S1x32x1024.size inb_S1x70x1062_S1x32x1024_0_10_25
abbrev q1_S1x70x1062_S1x32x1024_0_10_26 : Rect S1x70x1062 := Rect.unit (s := S1x70x1062) ![0, 10, 26] S1x32x1024.size inb_S1x70x1062_S1x32x1024_0_10_26
abbrev q1_S1x70x1062_S1x32x1024_0_11_11 : Rect S1x70x1062 := Rect.unit (s := S1x70x1062) ![0, 11, 11] S1x32x1024.size inb_S1x70x1062_S1x32x1024_0_11_11
abbrev q1_S1x70x1062_S1x32x1024_0_11_12 : Rect S1x70x1062 := Rect.unit (s := S1x70x1062) ![0, 11, 12] S1x32x1024.size inb_S1x70x1062_S1x32x1024_0_11_12
abbrev q1_S1x70x1062_S1x32x1024_0_11_26 : Rect S1x70x1062 := Rect.unit (s := S1x70x1062) ![0, 11, 26] S1x32x1024.size inb_S1x70x1062_S1x32x1024_0_11_26
abbrev q1_S1x70x1062_S1x32x1024_0_11_27 : Rect S1x70x1062 := Rect.unit (s := S1x70x1062) ![0, 11, 27] S1x32x1024.size inb_S1x70x1062_S1x32x1024_0_11_27
abbrev q1_S1x70x1062_S1x32x1024_0_12_10 : Rect S1x70x1062 := Rect.unit (s := S1x70x1062) ![0, 12, 10] S1x32x1024.size inb_S1x70x1062_S1x32x1024_0_12_10
abbrev q1_S1x70x1062_S1x32x1024_0_12_11 : Rect S1x70x1062 := Rect.unit (s := S1x70x1062) ![0, 12, 11] S1x32x1024.size inb_S1x70x1062_S1x32x1024_0_12_11
abbrev q1_S1x70x1062_S1x32x1024_0_12_27 : Rect S1x70x1062 := Rect.unit (s := S1x70x1062) ![0, 12, 27] S1x32x1024.size inb_S1x70x1062_S1x32x1024_0_12_27
abbrev q1_S1x70x1062_S1x32x1024_0_12_28 : Rect S1x70x1062 := Rect.unit (s := S1x70x1062) ![0, 12, 28] S1x32x1024.size inb_S1x70x1062_S1x32x1024_0_12_28
abbrev q1_S1x70x1062_S1x32x1024_0_13_10 : Rect S1x70x1062 := Rect.unit (s := S1x70x1062) ![0, 13, 10] S1x32x1024.size inb_S1x70x1062_S1x32x1024_0_13_10
abbrev q1_S1x70x1062_S1x32x1024_0_13_28 : Rect S1x70x1062 := Rect.unit (s := S1x70x1062) ![0, 13, 28] S1x32x1024.size inb_S1x70x1062_S1x32x1024_0_13_28
abbrev q1_S1x70x1062_S1x32x1024_0_14_9 : Rect S1x70x1062 := Rect.unit (s := S1x70x1062) ![0, 14, 9] S1x32x1024.size inb_S1x70x1062_S1x32x1024_0_14_9
abbrev q1_S1x70x1062_S1x32x1024_0_14_29 : Rect S1x70x1062 := Rect.unit (s := S1x70x1062) ![0, 14, 29] S1x32x1024.size inb_S1x70x1062_S1x32x1024_0_14_29
abbrev q1_S1x70x1062_S1x32x1024_0_15_9 : Rect S1x70x1062 := Rect.unit (s := S1x70x1062) ![0, 15, 9] S1x32x1024.size inb_S1x70x1062_S1x32x1024_0_15_9
abbrev q1_S1x70x1062_S1x32x1024_0_15_29 : Rect S1x70x1062 := Rect.unit (s := S1x70x1062) ![0, 15, 29] S1x32x1024.size inb_S1x70x1062_S1x32x1024_0_15_29
abbrev q1_S1x70x1062_S1x32x1024_0_16_8 : Rect S1x70x1062 := Rect.unit (s := S1x70x1062) ![0, 16, 8] S1x32x1024.size inb_S1x70x1062_S1x32x1024_0_16_8
abbrev q1_S1x70x1062_S1x32x1024_0_16_30 : Rect S1x70x1062 := Rect.unit (s := S1x70x1062) ![0, 16, 30] S1x32x1024.size inb_S1x70x1062_S1x32x1024_0_16_30
abbrev q1_S1x70x1062_S1x32x1024_0_17_8 : Rect S1x70x1062 := Rect.unit (s := S1x70x1062) ![0, 17, 8] S1x32x1024.size inb_S1x70x1062_S1x32x1024_0_17_8
abbrev q1_S1x70x1062_S1x32x1024_0_17_30 : Rect S1x70x1062 := Rect.unit (s := S1x70x1062) ![0, 17, 30] S1x32x1024.size inb_S1x70x1062_S1x32x1024_0_17_30
abbrev q1_S1x70x1062_S1x32x1024_0_18_8 : Rect S1x70x1062 := Rect.unit (s := S1x70x1062) ![0, 18, 8] S1x32x1024.size inb_S1x70x1062_S1x32x1024_0_18_8
abbrev q1_S1x70x1062_S1x32x1024_0_18_30 : Rect S1x70x1062 := Rect.unit (s := S1x70x1062) ![0, 18, 30] S1x32x1024.size inb_S1x70x1062_S1x32x1024_0_18_30
abbrev q1_S1x70x1062_S1x32x1024_0_19_8 : Rect S1x70x1062 := Rect.unit (s := S1x70x1062) ![0, 19, 8] S1x32x1024.size inb_S1x70x1062_S1x32x1024_0_19_8
abbrev q1_S1x70x1062_S1x32x1024_0_19_30 : Rect S1x70x1062 := Rect.unit (s := S1x70x1062) ![0, 19, 30] S1x32x1024.size inb_S1x70x1062_S1x32x1024_0_19_30
abbrev q1_S1x70x1062_S1x32x1024_0_20_8 : Rect S1x70x1062 := Rect.unit (s := S1x70x1062) ![0, 20, 8] S1x32x1024.size inb_S1x70x1062_S1x32x1024_0_20_8
abbrev q1_S1x70x1062_S1x32x1024_0_20_30 : Rect S1x70x1062 := Rect.unit (s := S1x70x1062) ![0, 20, 30] S1x32x1024.size inb_S1x70x1062_S1x32x1024_0_20_30
abbrev q1_S1x70x1062_S1x32x1024_0_21_8 : Rect S1x70x1062 := Rect.unit (s := S1x70x1062) ![0, 21, 8] S1x32x1024.size inb_S1x70x1062_S1x32x1024_0_21_8
abbrev q1_S1x70x1062_S1x32x1024_0_21_30 : Rect S1x70x1062 := Rect.unit (s := S1x70x1062) ![0, 21, 30] S1x32x1024.size inb_S1x70x1062_S1x32x1024_0_21_30
abbrev q1_S1x70x1062_S1x32x1024_0_22_8 : Rect S1x70x1062 := Rect.unit (s := S1x70x1062) ![0, 22, 8] S1x32x1024.size inb_S1x70x1062_S1x32x1024_0_22_8
abbrev q1_S1x70x1062_S1x32x1024_0_22_30 : Rect S1x70x1062 := Rect.unit (s := S1x70x1062) ![0, 22, 30] S1x32x1024.size inb_S1x70x1062_S1x32x1024_0_22_30
abbrev q1_S1x70x1062_S1x32x1024_0_23_9 : Rect S1x70x1062 := Rect.unit (s := S1x70x1062) ![0, 23, 9] S1x32x1024.size inb_S1x70x1062_S1x32x1024_0_23_9
abbrev q1_S1x70x1062_S1x32x1024_0_23_29 : Rect S1x70x1062 := Rect.unit (s := S1x70x1062) ![0, 23, 29] S1x32x1024.size inb_S1x70x1062_S1x32x1024_0_23_29
abbrev q1_S1x70x1062_S1x32x1024_0_24_9 : Rect S1x70x1062 := Rect.unit (s := S1x70x1062) ![0, 24, 9] S1x32x1024.size inb_S1x70x1062_S1x32x1024_0_24_9
abbrev q1_S1x70x1062_S1x32x1024_0_24_29 : Rect S1x70x1062 := Rect.unit (s := S1x70x1062) ![0, 24, 29] S1x32x1024.size inb_S1x70x1062_S1x32x1024_0_24_29
abbrev q1_S1x70x1062_S1x32x1024_0_25_10 : Rect S1x70x1062 := Rect.unit (s := S1x70x1062) ![0, 25, 10] S1x32x1024.size inb_S1x70x1062_S1x32x1024_0_25_10
abbrev q1_S1x70x1062_S1x32x1024_0_25_28 : Rect S1x70x1062 := Rect.unit (s := S1x70x1062) ![0, 25, 28] S1x32x1024.size inb_S1x70x1062_S1x32x1024_0_25_28
abbrev q1_S1x70x1062_S1x32x1024_0_26_10 : Rect S1x70x1062 := Rect.unit (s := S1x70x1062) ![0, 26, 10] S1x32x1024.size inb_S1x70x1062_S1x32x1024_0_26_10
abbrev q1_S1x70x1062_S1x32x1024_0_26_11 : Rect S1x70x1062 := Rect.unit (s := S1x70x1062) ![0, 26, 11] S1x32x1024.size inb_S1x70x1062_S1x32x1024_0_26_11
abbrev q1_S1x70x1062_S1x32x1024_0_26_27 : Rect S1x70x1062 := Rect.unit (s := S1x70x1062) ![0, 26, 27] S1x32x1024.size inb_S1x70x1062_S1x32x1024_0_26_27
abbrev q1_S1x70x1062_S1x32x1024_0_26_28 : Rect S1x70x1062 := Rect.unit (s := S1x70x1062) ![0, 26, 28] S1x32x1024.size inb_S1x70x1062_S1x32x1024_0_26_28
abbrev q1_S1x70x1062_S1x32x1024_0_27_11 : Rect S1x70x1062 := Rect.unit (s := S1x70x1062) ![0, 27, 11] S1x32x1024.size inb_S1x70x1062_S1x32x1024_0_27_11
abbrev q1_S1x70x1062_S1x32x1024_0_27_12 : Rect S1x70x1062 := Rect.unit (s := S1x70x1062) ![0, 27, 12] S1x32x1024.size inb_S1x70x1062_S1x32x1024_0_27_12
abbrev q1_S1x70x1062_S1x32x1024_0_27_26 : Rect S1x70x1062 := Rect.unit (s := S1x70x1062) ![0, 27, 26] S1x32x1024.size inb_S1x70x1062_S1x32x1024_0_27_26
abbrev q1_S1x70x1062_S1x32x1024_0_27_27 : Rect S1x70x1062 := Rect.unit (s := S1x70x1062) ![0, 27, 27] S1x32x1024.size inb_S1x70x1062_S1x32x1024_0_27_27
abbrev q1_S1x70x1062_S1x32x1024_0_28_12 : Rect S1x70x1062 := Rect.unit (s := S1x70x1062) ![0, 28, 12] S1x32x1024.size inb_S1x70x1062_S1x32x1024_0_28_12
abbrev q1_S1x70x1062_S1x32x1024_0_28_13 : Rect S1x70x1062 := Rect.unit (s := S1x70x1062) ![0, 28, 13] S1x32x1024.size inb_S1x70x1062_S1x32x1024_0_28_13
abbrev q1_S1x70x1062_S1x32x1024_0_28_25 : Rect S1x70x1062 := Rect.unit (s := S1x70x1062) ![0, 28, 25] S1x32x1024.size inb_S1x70x1062_S1x32x1024_0_28_25
abbrev q1_S1x70x1062_S1x32x1024_0_28_26 : Rect S1x70x1062 := Rect.unit (s := S1x70x1062) ![0, 28, 26] S1x32x1024.size inb_S1x70x1062_S1x32x1024_0_28_26
abbrev q1_S1x70x1062_S1x32x1024_0_29_14 : Rect S1x70x1062 := Rect.unit (s := S1x70x1062) ![0, 29, 14] S1x32x1024.size inb_S1x70x1062_S1x32x1024_0_29_14
abbrev q1_S1x70x1062_S1x32x1024_0_29_15 : Rect S1x70x1062 := Rect.unit (s := S1x70x1062) ![0, 29, 15] S1x32x1024.size inb_S1x70x1062_S1x32x1024_0_29_15
abbrev q1_S1x70x1062_S1x32x1024_0_29_23 : Rect S1x70x1062 := Rect.unit (s := S1x70x1062) ![0, 29, 23] S1x32x1024.size inb_S1x70x1062_S1x32x1024_0_29_23
abbrev q1_S1x70x1062_S1x32x1024_0_29_24 : Rect S1x70x1062 := Rect.unit (s := S1x70x1062) ![0, 29, 24] S1x32x1024.size inb_S1x70x1062_S1x32x1024_0_29_24
abbrev q1_S1x70x1062_S1x32x1024_0_30_16 : Rect S1x70x1062 := Rect.unit (s := S1x70x1062) ![0, 30, 16] S1x32x1024.size inb_S1x70x1062_S1x32x1024_0_30_16
abbrev q1_S1x70x1062_S1x32x1024_0_30_17 : Rect S1x70x1062 := Rect.unit (s := S1x70x1062) ![0, 30, 17] S1x32x1024.size inb_S1x70x1062_S1x32x1024_0_30_17
abbrev q1_S1x70x1062_S1x32x1024_0_30_18 : Rect S1x70x1062 := Rect.unit (s := S1x70x1062) ![0, 30, 18] S1x32x1024.size inb_S1x70x1062_S1x32x1024_0_30_18
abbrev q1_S1x70x1062_S1x32x1024_0_30_19 : Rect S1x70x1062 := Rect.unit (s := S1x70x1062) ![0, 30, 19] S1x32x1024.size inb_S1x70x1062_S1x32x1024_0_30_19
abbrev q1_S1x70x1062_S1x32x1024_0_30_20 : Rect S1x70x1062 := Rect.unit (s := S1x70x1062) ![0, 30, 20] S1x32x1024.size inb_S1x70x1062_S1x32x1024_0_30_20
abbrev q1_S1x70x1062_S1x32x1024_0_30_21 : Rect S1x70x1062 := Rect.unit (s := S1x70x1062) ![0, 30, 21] S1x32x1024.size inb_S1x70x1062_S1x32x1024_0_30_21
abbrev q1_S1x70x1062_S1x32x1024_0_30_22 : Rect S1x70x1062 := Rect.unit (s := S1x70x1062) ![0, 30, 22] S1x32x1024.size inb_S1x70x1062_S1x32x1024_0_30_22
abbrev q1_S1x70x1062_S1x32x1024_0_4_16 : Rect S1x70x1062 := Rect.unit (s := S1x70x1062) ![0, 4, 16] S1x32x1024.size inb_S1x70x1062_S1x32x1024_0_4_16
abbrev q1_S1x70x1062_S1x32x1024_0_4_17 : Rect S1x70x1062 := Rect.unit (s := S1x70x1062) ![0, 4, 17] S1x32x1024.size inb_S1x70x1062_S1x32x1024_0_4_17
abbrev q1_S1x70x1062_S1x32x1024_0_4_18 : Rect S1x70x1062 := Rect.unit (s := S1x70x1062) ![0, 4, 18] S1x32x1024.size inb_S1x70x1062_S1x32x1024_0_4_18
abbrev q1_S1x70x1062_S1x32x1024_0_4_19 : Rect S1x70x1062 := Rect.unit (s := S1x70x1062) ![0, 4, 19] S1x32x1024.size inb_S1x70x1062_S1x32x1024_0_4_19
abbrev q1_S1x70x1062_S1x32x1024_0_4_20 : Rect S1x70x1062 := Rect.unit (s := S1x70x1062) ![0, 4, 20] S1x32x1024.size inb_S1x70x1062_S1x32x1024_0_4_20
abbrev q1_S1x70x1062_S1x32x1024_0_4_21 : Rect S1x70x1062 := Rect.unit (s := S1x70x1062) ![0, 4, 21] S1x32x1024.size inb_S1x70x1062_S1x32x1024_0_4_21
abbrev q1_S1x70x1062_S1x32x1024_0_4_22 : Rect S1x70x1062 := Rect.unit (s := S1x70x1062) ![0, 4, 22] S1x32x1024.size inb_S1x70x1062_S1x32x1024_0_4_22
abbrev q1_S1x70x1062_S1x32x1024_0_5_13 : Rect S1x70x1062 := Rect.unit (s := S1x70x1062) ![0, 5, 13] S1x32x1024.size inb_S1x70x1062_S1x32x1024_0_5_13
abbrev q1_S1x70x1062_S1x32x1024_0_5_14 : Rect S1x70x1062 := Rect.unit (s := S1x70x1062) ![0, 5, 14] S1x32x1024.size inb_S1x70x1062_S1x32x1024_0_5_14
abbrev q1_S1x70x1062_S1x32x1024_0_5_15 : Rect S1x70x1062 := Rect.unit (s := S1x70x1062) ![0, 5, 15] S1x32x1024.size inb_S1x70x1062_S1x32x1024_0_5_15
abbrev q1_S1x70x1062_S1x32x1024_0_5_23 : Rect S1x70x1062 := Rect.unit (s := S1x70x1062) ![0, 5, 23] S1x32x1024.size inb_S1x70x1062_S1x32x1024_0_5_23
abbrev q1_S1x70x1062_S1x32x1024_0_5_24 : Rect S1x70x1062 := Rect.unit (s := S1x70x1062) ![0, 5, 24] S1x32x1024.size inb_S1x70x1062_S1x32x1024_0_5_24
abbrev q1_S1x70x1062_S1x32x1024_0_5_25 : Rect S1x70x1062 := Rect.unit (s := S1x70x1062) ![0, 5, 25] S1x32x1024.size inb_S1x70x1062_S1x32x1024_0_5_25
abbrev q1_S1x70x1062_S1x32x1024_0_6_11 : Rect S1x70x1062 := Rect.unit (s := S1x70x1062) ![0, 6, 11] S1x32x1024.size inb_S1x70x1062_S1x32x1024_0_6_11
abbrev q1_S1x70x1062_S1x32x1024_0_6_12 : Rect S1x70x1062 := Rect.unit (s := S1x70x1062) ![0, 6, 12] S1x32x1024.size inb_S1x70x1062_S1x32x1024_0_6_12
abbrev q1_S1x70x1062_S1x32x1024_0_6_26 : Rect S1x70x1062 := Rect.unit (s := S1x70x1062) ![0, 6, 26] S1x32x1024.size inb_S1x70x1062_S1x32x1024_0_6_26
abbrev q1_S1x70x1062_S1x32x1024_0_6_27 : Rect S1x70x1062 := Rect.unit (s := S1x70x1062) ![0, 6, 27] S1x32x1024.size inb_S1x70x1062_S1x32x1024_0_6_27
abbrev q1_S1x70x1062_S1x32x1024_0_7_10 : Rect S1x70x1062 := Rect.unit (s := S1x70x1062) ![0, 7, 10] S1x32x1024.size inb_S1x70x1062_S1x32x1024_0_7_10
abbrev q1_S1x70x1062_S1x32x1024_0_7_28 : Rect S1x70x1062 := Rect.unit (s := S1x70x1062) ![0, 7, 28] S1x32x1024.size inb_S1x70x1062_S1x32x1024_0_7_28
abbrev q1_S1x70x1062_S1x32x1024_0_8_9 : Rect S1x70x1062 := Rect.unit (s := S1x70x1062) ![0, 8, 9] S1x32x1024.size inb_S1x70x1062_S1x32x1024_0_8_9
abbrev q1_S1x70x1062_S1x32x1024_0_8_29 : Rect S1x70x1062 := Rect.unit (s := S1x70x1062) ![0, 8, 29] S1x32x1024.size inb_S1x70x1062_S1x32x1024_0_8_29
abbrev q1_S1x70x1062_S1x32x1024_0_9_8 : Rect S1x70x1062 := Rect.unit (s := S1x70x1062) ![0, 9, 8] S1x32x1024.size inb_S1x70x1062_S1x32x1024_0_9_8
abbrev q1_S1x70x1062_S1x32x1024_0_9_30 : Rect S1x70x1062 := Rect.unit (s := S1x70x1062) ![0, 9, 30] S1x32x1024.size inb_S1x70x1062_S1x32x1024_0_9_30
abbrev q1_S1x70x1062_S1x32x1024_0_10_7 : Rect S1x70x1062 := Rect.unit (s := S1x70x1062) ![0, 10, 7] S1x32x1024.size inb_S1x70x1062_S1x32x1024_0_10_7
abbrev q1_S1x70x1062_S1x32x1024_0_10_31 : Rect S1x70x1062 := Rect.unit (s := S1x70x1062) ![0, 10, 31] S1x32x1024.size inb_S1x70x1062_S1x32x1024_0_10_31
abbrev q1_S1x70x1062_S1x32x1024_0_11_6 : Rect S1x70x1062 := Rect.unit (s := S1x70x1062) ![0, 11, 6] S1x32x1024.size inb_S1x70x1062_S1x32x1024_0_11_6
abbrev q1_S1x70x1062_S1x32x1024_0_11_32 : Rect S1x70x1062 := Rect.unit (s := S1x70x1062) ![0, 11, 32] S1x32x1024.size inb_S1x70x1062_S1x32x1024_0_11_32
abbrev q1_S1x70x1062_S1x32x1024_0_12_6 : Rect S1x70x1062 := Rect.unit (s := S1x70x1062) ![0, 12, 6] S1x32x1024.size inb_S1x70x1062_S1x32x1024_0_12_6
abbrev q1_S1x70x1062_S1x32x1024_0_12_32 : Rect S1x70x1062 := Rect.unit (s := S1x70x1062) ![0, 12, 32] S1x32x1024.size inb_S1x70x1062_S1x32x1024_0_12_32
abbrev q1_S1x70x1062_S1x32x1024_0_13_5 : Rect S1x70x1062 := Rect.unit (s := S1x70x1062) ![0, 13, 5] S1x32x1024.size inb_S1x70x1062_S1x32x1024_0_13_5
abbrev q1_S1x70x1062_S1x32x1024_0_13_33 : Rect S1x70x1062 := Rect.unit (s := S1x70x1062) ![0, 13, 33] S1x32x1024.size inb_S1x70x1062_S1x32x1024_0_13_33
abbrev q1_S1x70x1062_S1x32x1024_0_14_5 : Rect S1x70x1062 := Rect.unit (s := S1x70x1062) ![0, 14, 5] S1x32x1024.size inb_S1x70x1062_S1x32x1024_0_14_5
abbrev q1_S1x70x1062_S1x32x1024_0_14_33 : Rect S1x70x1062 := Rect.unit (s := S1x70x1062) ![0, 14, 33] S1x32x1024.size inb_S1x70x1062_S1x32x1024_0_14_33
abbrev q1_S1x70x1062_S1x32x1024_0_15_5 : Rect S1x70x1062 := Rect.unit (s := S1x70x1062) ![0, 15, 5] S1x32x1024.size inb_S1x70x1062_S1x32x1024_0_15_5
abbrev q1_S1x70x1062_S1x32x1024_0_15_33 : Rect S1x70x1062 := Rect.unit (s := S1x70x1062) ![0, 15, 33] S1x32x1024.size inb_S1x70x1062_S1x32x1024_0_15_33
abbrev q1_S1x70x1062_S1x32x1024_0_16_4 : Rect S1x70x1062 := Rect.unit (s := S1x70x1062) ![0, 16, 4] S1x32x1024.size inb_S1x70x1062_S1x32x1024_0_16_4
abbrev q1_S1x70x1062_S1x32x1024_0_16_34 : Rect S1x70x1062 := Rect.unit (s := S1x70x1062) ![0, 16, 34] S1x32x1024.size inb_S1x70x1062_S1x32x1024_0_16_34
abbrev q1_S1x70x1062_S1x32x1024_0_17_4 : Rect S1x70x1062 := Rect.unit (s := S1x70x1062) ![0, 17, 4] S1x32x1024.size inb_S1x70x1062_S1x32x1024_0_17_4
abbrev q1_S1x70x1062_S1x32x1024_0_17_34 : Rect S1x70x1062 := Rect.unit (s := S1x70x1062) ![0, 17, 34] S1x32x1024.size inb_S1x70x1062_S1x32x1024_0_17_34
abbrev q1_S1x70x1062_S1x32x1024_0_18_4 : Rect S1x70x1062 := Rect.unit (s := S1x70x1062) ![0, 18, 4] S1x32x1024.size inb_S1x70x1062_S1x32x1024_0_18_4
abbrev q1_S1x70x1062_S1x32x1024_0_18_34 : Rect S1x70x1062 := Rect.unit (s := S1x70x1062) ![0, 18, 34] S1x32x1024.size inb_S1x70x1062_S1x32x1024_0_18_34
abbrev q1_S1x70x1062_S1x32x1024_0_19_4 : Rect S1x70x1062 := Rect.unit (s := S1x70x1062) ![0, 19, 4] S1x32x1024.size inb_S1x70x1062_S1x32x1024_0_19_4
abbrev q1_S1x70x1062_S1x32x1024_0_19_34 : Rect S1x70x1062 := Rect.unit (s := S1x70x1062) ![0, 19, 34] S1x32x1024.size inb_S1x70x1062_S1x32x1024_0_19_34
abbrev q1_S1x70x1062_S1x32x1024_0_20_4 : Rect S1x70x1062 := Rect.unit (s := S1x70x1062) ![0, 20, 4] S1x32x1024.size inb_S1x70x1062_S1x32x1024_0_20_4
abbrev q1_S1x70x1062_S1x32x1024_0_20_34 : Rect S1x70x1062 := Rect.unit (s := S1x70x1062) ![0, 20, 34] S1x32x1024.size inb_S1x70x1062_S1x32x1024_0_20_34
abbrev q1_S1x70x1062_S1x32x1024_0_21_4 : Rect S1x70x1062 := Rect.unit (s := S1x70x1062) ![0, 21, 4] S1x32x1024.size inb_S1x70x1062_S1x32x1024_0_21_4
abbrev q1_S1x70x1062_S1x32x1024_0_21_34 : Rect S1x70x1062 := Rect.unit (s := S1x70x1062) ![0, 21, 34] S1x32x1024.size inb_S1x70x1062_S1x32x1024_0_21_34
abbrev q1_S1x70x1062_S1x32x1024_0_22_4 : Rect S1x70x1062 := Rect.unit (s := S1x70x1062) ![0, 22, 4] S1x32x1024.size inb_S1x70x1062_S1x32x1024_0_22_4
abbrev q1_S1x70x1062_S1x32x1024_0_22_34 : Rect S1x70x1062 := Rect.unit (s := S1x70x1062) ![0, 22, 34] S1x32x1024.size inb_S1x70x1062_S1x32x1024_0_22_34
abbrev q1_S1x70x1062_S1x32x1024_0_23_5 : Rect S1x70x1062 := Rect.unit (s := S1x70x1062) ![0, 23, 5] S1x32x1024.size inb_S1x70x1062_S1x32x1024_0_23_5
abbrev q1_S1x70x1062_S1x32x1024_0_23_33 : Rect S1x70x1062 := Rect.unit (s := S1x70x1062) ![0, 23, 33] S1x32x1024.size inb_S1x70x1062_S1x32x1024_0_23_33
abbrev q1_S1x70x1062_S1x32x1024_0_24_5 : Rect S1x70x1062 := Rect.unit (s := S1x70x1062) ![0, 24, 5] S1x32x1024.size inb_S1x70x1062_S1x32x1024_0_24_5
abbrev q1_S1x70x1062_S1x32x1024_0_24_33 : Rect S1x70x1062 := Rect.unit (s := S1x70x1062) ![0, 24, 33] S1x32x1024.size inb_S1x70x1062_S1x32x1024_0_24_33
abbrev q1_S1x70x1062_S1x32x1024_0_25_5 : Rect S1x70x1062 := Rect.unit (s := S1x70x1062) ![0, 25, 5] S1x32x1024.size inb_S1x70x1062_S1x32x1024_0_25_5
abbrev q1_S1x70x1062_S1x32x1024_0_25_33 : Rect S1x70x1062 := Rect.unit (s := S1x70x1062) ![0, 25, 33] S1x32x1024.size inb_S1x70x1062_S1x32x1024_0_25_33
abbrev q1_S1x70x1062_S1x32x1024_0_26_6 : Rect S1x70x1062 := Rect.unit (s := S1x70x1062) ![0, 26, 6] S1x32x1024.size inb_S1x70x1062_S1x32x1024_0_26_6
abbrev q1_S1x70x1062_S1x32x1024_0_26_32 : Rect S1x70x1062 := Rect.unit (s := S1x70x1062) ![0, 26, 32] S1x32x1024.size inb_S1x70x1062_S1x32x1024_0_26_32
abbrev q1_S1x70x1062_S1x32x1024_0_27_6 : Rect S1x70x1062 := Rect.unit (s := S1x70x1062) ![0, 27, 6] S1x32x1024.size inb_S1x70x1062_S1x32x1024_0_27_6
abbrev q1_S1x70x1062_S1x32x1024_0_27_32 : Rect S1x70x1062 := Rect.unit (s := S1x70x1062) ![0, 27, 32] S1x32x1024.size inb_S1x70x1062_S1x32x1024_0_27_32
abbrev q1_S1x70x1062_S1x32x1024_0_28_7 : Rect S1x70x1062 := Rect.unit (s := S1x70x1062) ![0, 28, 7] S1x32x1024.size inb_S1x70x1062_S1x32x1024_0_28_7
abbrev q1_S1x70x1062_S1x32x1024_0_28_31 : Rect S1x70x1062 := Rect.unit (s := S1x70x1062) ![0, 28, 31] S1x32x1024.size inb_S1x70x1062_S1x32x1024_0_28_31
abbrev q1_S1x70x1062_S1x32x1024_0_29_8 : Rect S1x70x1062 := Rect.unit (s := S1x70x1062) ![0, 29, 8] S1x32x1024.size inb_S1x70x1062_S1x32x1024_0_29_8
abbrev q1_S1x70x1062_S1x32x1024_0_29_30 : Rect S1x70x1062 := Rect.unit (s := S1x70x1062) ![0, 29, 30] S1x32x1024.size inb_S1x70x1062_S1x32x1024_0_29_30
abbrev q1_S1x70x1062_S1x32x1024_0_30_9 : Rect S1x70x1062 := Rect.unit (s := S1x70x1062) ![0, 30, 9] S1x32x1024.size inb_S1x70x1062_S1x32x1024_0_30_9
abbrev q1_S1x70x1062_S1x32x1024_0_30_29 : Rect S1x70x1062 := Rect.unit (s := S1x70x1062) ![0, 30, 29] S1x32x1024.size inb_S1x70x1062_S1x32x1024_0_30_29
abbrev q1_S1x70x1062_S1x32x1024_0_31_10 : Rect S1x70x1062 := Rect.unit (s := S1x70x1062) ![0, 31, 10] S1x32x1024.size inb_S1x70x1062_S1x32x1024_0_31_10
abbrev q1_S1x70x1062_S1x32x1024_0_31_28 : Rect S1x70x1062 := Rect.unit (s := S1x70x1062) ![0, 31, 28] S1x32x1024.size inb_S1x70x1062_S1x32x1024_0_31_28
abbrev q1_S1x70x1062_S1x32x1024_0_32_11 : Rect S1x70x1062 := Rect.unit (s := S1x70x1062) ![0, 32, 11] S1x32x1024.size inb_S1x70x1062_S1x32x1024_0_32_11
abbrev q1_S1x70x1062_S1x32x1024_0_32_12 : Rect S1x70x1062 := Rect.unit (s := S1x70x1062) ![0, 32, 12] S1x32x1024.size inb_S1x70x1062_S1x32x1024_0_32_12
abbrev q1_S1x70x1062_S1x32x1024_0_32_26 : Rect S1x70x1062 := Rect.unit (s := S1x70x1062) ![0, 32, 26] S1x32x1024.size inb_S1x70x1062_S1x32x1024_0_32_26
abbrev q1_S1x70x1062_S1x32x1024_0_32_27 : Rect S1x70x1062 := Rect.unit (s := S1x70x1062) ![0, 32, 27] S1x32x1024.size inb_S1x70x1062_S1x32x1024_0_32_27
abbrev q1_S1x70x1062_S1x32x1024_0_33_13 : Rect S1x70x1062 := Rect.unit (s := S1x70x1062) ![0, 33, 13] S1x32x1024.size inb_S1x70x1062_S1x32x1024_0_33_13
abbrev q1_S1x70x1062_S1x32x1024_0_33_14 : Rect S1x70x1062 := Rect.unit (s := S1x70x1062) ![0, 33, 14] S1x32x1024.size inb_S1x70x1062_S1x32x1024_0_33_14
abbrev q1_S1x70x1062_S1x32x1024_0_33_15 : Rect S1x70x1062 := Rect.unit (s := S1x70x1062) ![0, 33, 15] S1x32x1024.size inb_S1x70x1062_S1x32x1024_0_33_15
abbrev q1_S1x70x1062_S1x32x1024_0_33_23 : Rect S1x70x1062 := Rect.unit (s := S1x70x1062) ![0, 33, 23] S1x32x1024.size inb_S1x70x1062_S1x32x1024_0_33_23
abbrev q1_S1x70x1062_S1x32x1024_0_33_24 : Rect S1x70x1062 := Rect.unit (s := S1x70x1062) ![0, 33, 24] S1x32x1024.size inb_S1x70x1062_S1x32x1024_0_33_24
abbrev q1_S1x70x1062_S1x32x1024_0_33_25 : Rect S1x70x1062 := Rect.unit (s := S1x70x1062) ![0, 33, 25] S1x32x1024.size inb_S1x70x1062_S1x32x1024_0_33_25
abbrev q1_S1x70x1062_S1x32x1024_0_34_16 : Rect S1x70x1062 := Rect.unit (s := S1x70x1062) ![0, 34, 16] S1x32x1024.size inb_S1x70x1062_S1x32x1024_0_34_16
abbrev q1_S1x70x1062_S1x32x1024_0_34_17 : Rect S1x70x1062 := Rect.unit (s := S1x70x1062) ![0, 34, 17] S1x32x1024.size inb_S1x70x1062_S1x32x1024_0_34_17
abbrev q1_S1x70x1062_S1x32x1024_0_34_18 : Rect S1x70x1062 := Rect.unit (s := S1x70x1062) ![0, 34, 18] S1x32x1024.size inb_S1x70x1062_S1x32x1024_0_34_18
abbrev q1_S1x70x1062_S1x32x1024_0_34_19 : Rect S1x70x1062 := Rect.unit (s := S1x70x1062) ![0, 34, 19] S1x32x1024.size inb_S1x70x1062_S1x32x1024_0_34_19
abbrev q1_S1x70x1062_S1x32x1024_0_34_20 : Rect S1x70x1062 := Rect.unit (s := S1x70x1062) ![0, 34, 20] S1x32x1024.size inb_S1x70x1062_S1x32x1024_0_34_20
abbrev q1_S1x70x1062_S1x32x1024_0_34_21 : Rect S1x70x1062 := Rect.unit (s := S1x70x1062) ![0, 34, 21] S1x32x1024.size inb_S1x70x1062_S1x32x1024_0_34_21
abbrev q1_S1x70x1062_S1x32x1024_0_34_22 : Rect S1x70x1062 := Rect.unit (s := S1x70x1062) ![0, 34, 22] S1x32x1024.size inb_S1x70x1062_S1x32x1024_0_34_22
abbrev q1_S1x70x1062_S1x32x1024_0_0_15 : Rect S1x70x1062 := Rect.unit (s := S1x70x1062) ![0, 0, 15] S1x32x1024.size inb_S1x70x1062_S1x32x1024_0_0_15
abbrev q1_S1x70x1062_S1x32x1024_0_0_16 : Rect S1x70x1062 := Rect.unit (s := S1x70x1062) ![0, 0, 16] S1x32x1024.size inb_S1x70x1062_S1x32x1024_0_0_16
abbrev q1_S1x70x1062_S1x32x1024_0_0_17 : Rect S1x70x1062 := Rect.unit (s := S1x70x1062) ![0, 0, 17] S1x32x1024.size inb_S1x70x1062_S1x32x1024_0_0_17
abbrev q1_S1x70x1062_S1x32x1024_0_0_18 : Rect S1x70x1062 := Rect.unit (s := S1x70x1062) ![0, 0, 18] S1x32x1024.size inb_S1x70x1062_S1x32x1024_0_0_18
abbrev q1_S1x70x1062_S1x32x1024_0_0_19 : Rect S1x70x1062 := Rect.unit (s := S1x70x1062) ![0, 0, 19] S1x32x1024.size inb_S1x70x1062_S1x32x1024_0_0_19
abbrev q1_S1x70x1062_S1x32x1024_0_0_20 : Rect S1x70x1062 := Rect.unit (s := S1x70x1062) ![0, 0, 20] S1x32x1024.size inb_S1x70x1062_S1x32x1024_0_0_20
abbrev q1_S1x70x1062_S1x32x1024_0_0_21 : Rect S1x70x1062 := Rect.unit (s := S1x70x1062) ![0, 0, 21] S1x32x1024.size inb_S1x70x1062_S1x32x1024_0_0_21
abbrev q1_S1x70x1062_S1x32x1024_0_0_22 : Rect S1x70x1062 := Rect.unit (s := S1x70x1062) ![0, 0, 22] S1x32x1024.size inb_S1x70x1062_S1x32x1024_0_0_22
abbrev q1_S1x70x1062_S1x32x1024_0_0_23 : Rect S1x70x1062 := Rect.unit (s := S1x70x1062) ![0, 0, 23] S1x32x1024.size inb_S1x70x1062_S1x32x1024_0_0_23
abbrev q1_S1x70x1062_S1x32x1024_0_1_12 : Rect S1x70x1062 := Rect.unit (s := S1x70x1062) ![0, 1, 12] S1x32x1024.size inb_S1x70x1062_S1x32x1024_0_1_12
abbrev q1_S1x70x1062_S1x32x1024_0_1_13 : Rect S1x70x1062 := Rect.unit (s := S1x70x1062) ![0, 1, 13] S1x32x1024.size inb_S1x70x1062_S1x32x1024_0_1_13
abbrev q1_S1x70x1062_S1x32x1024_0_1_14 : Rect S1x70x1062 := Rect.unit (s := S1x70x1062) ![0, 1, 14] S1x32x1024.size inb_S1x70x1062_S1x32x1024_0_1_14
abbrev q1_S1x70x1062_S1x32x1024_0_1_24 : Rect S1x70x1062 := Rect.unit (s := S1x70x1062) ![0, 1, 24] S1x32x1024.size inb_S1x70x1062_S1x32x1024_0_1_24
abbrev q1_S1x70x1062_S1x32x1024_0_1_25 : Rect S1x70x1062 := Rect.unit (s := S1x70x1062) ![0, 1, 25] S1x32x1024.size inb_S1x70x1062_S1x32x1024_0_1_25
abbrev q1_S1x70x1062_S1x32x1024_0_1_26 : Rect S1x70x1062 := Rect.unit (s := S1x70x1062) ![0, 1, 26] S1x32x1024.size inb_S1x70x1062_S1x32x1024_0_1_26
abbrev q1_S1x70x1062_S1x32x1024_0_2_10 : Rect S1x70x1062 := Rect.unit (s := S1x70x1062) ![0, 2, 10] S1x32x1024.size inb_S1x70x1062_S1x32x1024_0_2_10
abbrev q1_S1x70x1062_S1x32x1024_0_2_11 : Rect S1x70x1062 := Rect.unit (s := S1x70x1062) ![0, 2, 11] S1x32x1024.size inb_S1x70x1062_S1x32x1024_0_2_11
abbrev q1_S1x70x1062_S1x32x1024_0_2_27 : Rect S1x70x1062 := Rect.unit (s := S1x70x1062) ![0, 2, 27] S1x32x1024.size inb_S1x70x1062_S1x32x1024_0_2_27
abbrev q1_S1x70x1062_S1x32x1024_0_2_28 : Rect S1x70x1062 := Rect.unit (s := S1x70x1062) ![0, 2, 28] S1x32x1024.size inb_S1x70x1062_S1x32x1024_0_2_28
abbrev q1_S1x70x1062_S1x32x1024_0_3_8 : Rect S1x70x1062 := Rect.unit (s := S1x70x1062) ![0, 3, 8] S1x32x1024.size inb_S1x70x1062_S1x32x1024_0_3_8
abbrev q1_S1x70x1062_S1x32x1024_0_3_9 : Rect S1x70x1062 := Rect.unit (s := S1x70x1062) ![0, 3, 9] S1x32x1024.size inb_S1x70x1062_S1x32x1024_0_3_9
abbrev q1_S1x70x1062_S1x32x1024_0_3_29 : Rect S1x70x1062 := Rect.unit (s := S1x70x1062) ![0, 3, 29] S1x32x1024.size inb_S1x70x1062_S1x32x1024_0_3_29
abbrev q1_S1x70x1062_S1x32x1024_0_3_30 : Rect S1x70x1062 := Rect.unit (s := S1x70x1062) ![0, 3, 30] S1x32x1024.size inb_S1x70x1062_S1x32x1024_0_3_30
abbrev q1_S1x70x1062_S1x32x1024_0_4_7 : Rect S1x70x1062 := Rect.unit (s := S1x70x1062) ![0, 4, 7] S1x32x1024.size inb_S1x70x1062_S1x32x1024_0_4_7
abbrev q1_S1x70x1062_S1x32x1024_0_4_8 : Rect S1x70x1062 := Rect.unit (s := S1x70x1062) ![0, 4, 8] S1x32x1024.size inb_S1x70x1062_S1x32x1024_0_4_8
abbrev q1_S1x70x1062_S1x32x1024_0_4_30 : Rect S1x70x1062 := Rect.unit (s := S1x70x1062) ![0, 4, 30] S1x32x1024.size inb_S1x70x1062_S1x32x1024_0_4_30
abbrev q1_S1x70x1062_S1x32x1024_0_4_31 : Rect S1x70x1062 := Rect.unit (s := S1x70x1062) ![0, 4, 31] S1x32x1024.size inb_S1x70x1062_S1x32x1024_0_4_31
abbrev q1_S1x70x1062_S1x32x1024_0_5_6 : Rect S1x70x1062 := Rect.unit (s := S1x70x1062) ![0, 5, 6] S1x32x1024.size inb_S1x70x1062_S1x32x1024_0_5_6
abbrev q1_S1x70x1062_S1x32x1024_0_5_32 : Rect S1x70x1062 := Rect.unit (s := S1x70x1062) ![0, 5, 32] S1x32x1024.size inb_S1x70x1062_S1x32x1024_0_5_32
abbrev q1_S1x70x1062_S1x32x1024_0_6_5 : Rect S1x70x1062 := Rect.unit (s := S1x70x1062) ![0, 6, 5] S1x32x1024.size inb_S1x70x1062_S1x32x1024_0_6_5
abbrev q1_S1x70x1062_S1x32x1024_0_6_33 : Rect S1x70x1062 := Rect.unit (s := S1x70x1062) ![0, 6, 33] S1x32x1024.size inb_S1x70x1062_S1x32x1024_0_6_33
abbrev q1_S1x70x1062_S1x32x1024_0_7_4 : Rect S1x70x1062 := Rect.unit (s := S1x70x1062) ![0, 7, 4] S1x32x1024.size inb_S1x70x1062_S1x32x1024_0_7_4
abbrev q1_S1x70x1062_S1x32x1024_0_7_34 : Rect S1x70x1062 := Rect.unit (s := S1x70x1062) ![0, 7, 34] S1x32x1024.size inb_S1x70x1062_S1x32x1024_0_7_34
abbrev q1_S1x70x1062_S1x32x1024_0_8_3 : Rect S1x70x1062 := Rect.unit (s := S1x70x1062) ![0, 8, 3] S1x32x1024.size inb_S1x70x1062_S1x32x1024_0_8_3
abbrev q1_S1x70x1062_S1x32x1024_0_8_4 : Rect S1x70x1062 := Rect.unit (s := S1x70x1062) ![0, 8, 4] S1x32x1024.size inb_S1x70x1062_S1x32x1024_0_8_4
abbrev q1_S1x70x1062_S1x32x1024_0_8_34 : Rect S1x70x1062 := Rect.unit (s := S1x70x1062) ![0, 8, 34] S1x32x1024.size inb_S1x70x1062_S1x32x1024_0_8_34
abbrev q1_S1x70x1062_S1x32x1024_0_8_35 : Rect S1x70x1062 := Rect.unit (s := S1x70x1062) ![0, 8, 35] S1x32x1024.size inb_S1x70x1062_S1x32x1024_0_8_35
abbrev q1_S1x70x1062_S1x32x1024_0_9_3 : Rect S1x70x1062 := Rect.unit (s := S1x70x1062) ![0, 9, 3] S1x32x1024.size inb_S1x70x1062_S1x32x1024_0_9_3
abbrev q1_S1x70x1062_S1x32x1024_0_9_35 : Rect S1x70x1062 := Rect.unit (s := S1x70x1062) ![0, 9, 35] S1x32x1024.size inb_S1x70x1062_S1x32x1024_0_9_35
abbrev q1_S1x70x1062_S1x32x1024_0_10_2 : Rect S1x70x1062 := Rect.unit (s := S1x70x1062) ![0, 10, 2] S1x32x1024.size inb_S1x70x1062_S1x32x1024_0_10_2
abbrev q1_S1x70x1062_S1x32x1024_0_10_36 : Rect S1x70x1062 := Rect.unit (s := S1x70x1062) ![0, 10, 36] S1x32x1024.size inb_S1x70x1062_S1x32x1024_0_10_36
abbrev q1_S1x70x1062_S1x32x1024_0_11_2 : Rect S1x70x1062 := Rect.unit (s := S1x70x1062) ![0, 11, 2] S1x32x1024.size inb_S1x70x1062_S1x32x1024_0_11_2
abbrev q1_S1x70x1062_S1x32x1024_0_11_36 : Rect S1x70x1062 := Rect.unit (s := S1x70x1062) ![0, 11, 36] S1x32x1024.size inb_S1x70x1062_S1x32x1024_0_11_36
abbrev q1_S1x70x1062_S1x32x1024_0_12_1 : Rect S1x70x1062 := Rect.unit (s := S1x70x1062) ![0, 12, 1] S1x32x1024.size inb_S1x70x1062_S1x32x1024_0_12_1
abbrev q1_S1x70x1062_S1x32x1024_0_12_37 : Rect S1x70x1062 := Rect.unit (s := S1x70x1062) ![0, 12, 37] S1x32x1024.size inb_S1x70x1062_S1x32x1024_0_12_37
abbrev q1_S1x70x1062_S1x32x1024_0_13_1 : Rect S1x70x1062 := Rect.unit (s := S1x70x1062) ![0, 13, 1] S1x32x1024.size inb_S1x70x1062_S1x32x1024_0_13_1
abbrev q1_S1x70x1062_S1x32x1024_0_13_37 : Rect S1x70x1062 := Rect.unit (s := S1x70x1062) ![0, 13, 37] S1x32x1024.size inb_S1x70x1062_S1x32x1024_0_13_37
abbrev q1_S1x70x1062_S1x32x1024_0_14_1 : Rect S1x70x1062 := Rect.unit (s := S1x70x1062) ![0, 14, 1] S1x32x1024.size inb_S1x70x1062_S1x32x1024_0_14_1
abbrev q1_S1x70x1062_S1x32x1024_0_14_37 : Rect S1x70x1062 := Rect.unit (s := S1x70x1062) ![0, 14, 37] S1x32x1024.size inb_S1x70x1062_S1x32x1024_0_14_37
abbrev q1_S1x70x1062_S1x32x1024_0_15_0 : Rect S1x70x1062 := Rect.unit (s := S1x70x1062) ![0, 15, 0] S1x32x1024.size inb_S1x70x1062_S1x32x1024_0_15_0
abbrev q1_S1x70x1062_S1x32x1024_0_15_38 : Rect S1x70x1062 := Rect.unit (s := S1x70x1062) ![0, 15, 38] S1x32x1024.size inb_S1x70x1062_S1x32x1024_0_15_38
abbrev q1_S1x70x1062_S1x32x1024_0_16_0 : Rect S1x70x1062 := Rect.unit (s := S1x70x1062) ![0, 16, 0] S1x32x1024.size inb_S1x70x1062_S1x32x1024_0_16_0
abbrev q1_S1x70x1062_S1x32x1024_0_16_38 : Rect S1x70x1062 := Rect.unit (s := S1x70x1062) ![0, 16, 38] S1x32x1024.size inb_S1x70x1062_S1x32x1024_0_16_38
abbrev q1_S1x70x1062_S1x32x1024_0_17_0 : Rect S1x70x1062 := Rect.unit (s := S1x70x1062) ![0, 17, 0] S1x32x1024.size inb_S1x70x1062_S1x32x1024_0_17_0
abbrev q1_S1x70x1062_S1x32x1024_0_17_38 : Rect S1x70x1062 := Rect.unit (s := S1x70x1062) ![0, 17, 38] S1x32x1024.size inb_S1x70x1062_S1x32x1024_0_17_38
abbrev q1_S1x70x1062_S1x32x1024_0_18_0 : Rect S1x70x1062 := Rect.unit (s := S1x70x1062) ![0, 18, 0] S1x32x1024.size inb_S1x70x1062_S1x32x1024_0_18_0
abbrev q1_S1x70x1062_S1x32x1024_0_18_38 : Rect S1x70x1062 := Rect.unit (s := S1x70x1062) ![0, 18, 38] S1x32x1024.size inb_S1x70x1062_S1x32x1024_0_18_38
abbrev q1_S1x70x1062_S1x32x1024_0_19_0 : Rect S1x70x1062 := Rect.unit (s := S1x70x1062) ![0, 19, 0] S1x32x1024.size inb_S1x70x1062_S1x32x1024_0_19_0
abbrev q1_S1x70x1062_S1x32x1024_0_19_38 : Rect S1x70x1062 := Rect.unit (s := S1x70x1062) ![0, 19, 38] S1x32x1024.size inb_S1x70x1062_S1x32x1024_0_19_38
abbrev q1_S1x70x1062_S1x32x1024_0_20_0 : Rect S1x70x1062 := Rect.unit (s := S1x70x1062) ![0, 20, 0] S1x32x1024.size inb_S1x70x1062_S1x32x1024_0_20_0
abbrev q1_S1x70x1062_S1x32x1024_0_20_38 : Rect S1x70x1062 := Rect.unit (s := S1x70x1062) ![0, 20, 38] S1x32x1024.size inb_S1x70x1062_S1x32x1024_0_20_38
abbrev q1_S1x70x1062_S1x32x1024_0_21_0 : Rect S1x70x1062 := Rect.unit (s := S1x70x1062) ![0, 21, 0] S1x32x1024.size inb_S1x70x1062_S1x32x1024_0_21_0
abbrev q1_S1x70x1062_S1x32x1024_0_21_38 : Rect S1x70x1062 := Rect.unit (s := S1x70x1062) ![0, 21, 38] S1x32x1024.size inb_S1x70x1062_S1x32x1024_0_21_38
abbrev q1_S1x70x1062_S1x32x1024_0_22_0 : Rect S1x70x1062 := Rect.unit (s := S1x70x1062) ![0, 22, 0] S1x32x1024.size inb_S1x70x1062_S1x32x1024_0_22_0
abbrev q1_S1x70x1062_S1x32x1024_0_22_38 : Rect S1x70x1062 := Rect.unit (s := S1x70x1062) ![0, 22, 38] S1x32x1024.size inb_S1x70x1062_S1x32x1024_0_22_38
abbrev q1_S1x70x1062_S1x32x1024_0_23_0 : Rect S1x70x1062 := Rect.unit (s := S1x70x1062) ![0, 23, 0] S1x32x1024.size inb_S1x70x1062_S1x32x1024_0_23_0
abbrev q1_S1x70x1062_S1x32x1024_0_23_38 : Rect S1x70x1062 := Rect.unit (s := S1x70x1062) ![0, 23, 38] S1x32x1024.size inb_S1x70x1062_S1x32x1024_0_23_38
abbrev q1_S1x70x1062_S1x32x1024_0_24_1 : Rect S1x70x1062 := Rect.unit (s := S1x70x1062) ![0, 24, 1] S1x32x1024.size inb_S1x70x1062_S1x32x1024_0_24_1
abbrev q1_S1x70x1062_S1x32x1024_0_24_37 : Rect S1x70x1062 := Rect.unit (s := S1x70x1062) ![0, 24, 37] S1x32x1024.size inb_S1x70x1062_S1x32x1024_0_24_37
abbrev q1_S1x70x1062_S1x32x1024_0_25_1 : Rect S1x70x1062 := Rect.unit (s := S1x70x1062) ![0, 25, 1] S1x32x1024.size inb_S1x70x1062_S1x32x1024_0_25_1
abbrev q1_S1x70x1062_S1x32x1024_0_25_37 : Rect S1x70x1062 := Rect.unit (s := S1x70x1062) ![0, 25, 37] S1x32x1024.size inb_S1x70x1062_S1x32x1024_0_25_37
abbrev q1_S1x70x1062_S1x32x1024_0_26_1 : Rect S1x70x1062 := Rect.unit (s := S1x70x1062) ![0, 26, 1] S1x32x1024.size inb_S1x70x1062_S1x32x1024_0_26_1
abbrev q1_S1x70x1062_S1x32x1024_0_26_37 : Rect S1x70x1062 := Rect.unit (s := S1x70x1062) ![0, 26, 37] S1x32x1024.size inb_S1x70x1062_S1x32x1024_0_26_37
abbrev q1_S1x70x1062_S1x32x1024_0_27_2 : Rect S1x70x1062 := Rect.unit (s := S1x70x1062) ![0, 27, 2] S1x32x1024.size inb_S1x70x1062_S1x32x1024_0_27_2
abbrev q1_S1x70x1062_S1x32x1024_0_27_36 : Rect S1x70x1062 := Rect.unit (s := S1x70x1062) ![0, 27, 36] S1x32x1024.size inb_S1x70x1062_S1x32x1024_0_27_36
abbrev q1_S1x70x1062_S1x32x1024_0_28_2 : Rect S1x70x1062 := Rect.unit (s := S1x70x1062) ![0, 28, 2] S1x32x1024.size inb_S1x70x1062_S1x32x1024_0_28_2
abbrev q1_S1x70x1062_S1x32x1024_0_28_36 : Rect S1x70x1062 := Rect.unit (s := S1x70x1062) ![0, 28, 36] S1x32x1024.size inb_S1x70x1062_S1x32x1024_0_28_36
abbrev q1_S1x70x1062_S1x32x1024_0_29_3 : Rect S1x70x1062 := Rect.unit (s := S1x70x1062) ![0, 29, 3] S1x32x1024.size inb_S1x70x1062_S1x32x1024_0_29_3
abbrev q1_S1x70x1062_S1x32x1024_0_29_35 : Rect S1x70x1062 := Rect.unit (s := S1x70x1062) ![0, 29, 35] S1x32x1024.size inb_S1x70x1062_S1x32x1024_0_29_35
abbrev q1_S1x70x1062_S1x32x1024_0_30_3 : Rect S1x70x1062 := Rect.unit (s := S1x70x1062) ![0, 30, 3] S1x32x1024.size inb_S1x70x1062_S1x32x1024_0_30_3
abbrev q1_S1x70x1062_S1x32x1024_0_30_4 : Rect S1x70x1062 := Rect.unit (s := S1x70x1062) ![0, 30, 4] S1x32x1024.size inb_S1x70x1062_S1x32x1024_0_30_4
abbrev q1_S1x70x1062_S1x32x1024_0_30_34 : Rect S1x70x1062 := Rect.unit (s := S1x70x1062) ![0, 30, 34] S1x32x1024.size inb_S1x70x1062_S1x32x1024_0_30_34
abbrev q1_S1x70x1062_S1x32x1024_0_30_35 : Rect S1x70x1062 := Rect.unit (s := S1x70x1062) ![0, 30, 35] S1x32x1024.size inb_S1x70x1062_S1x32x1024_0_30_35
abbrev q1_S1x70x1062_S1x32x1024_0_31_4 : Rect S1x70x1062 := Rect.unit (s := S1x70x1062) ![0, 31, 4] S1x32x1024.size inb_S1x70x1062_S1x32x1024_0_31_4
abbrev q1_S1x70x1062_S1x32x1024_0_31_34 : Rect S1x70x1062 := Rect.unit (s := S1x70x1062) ![0, 31, 34] S1x32x1024.size inb_S1x70x1062_S1x32x1024_0_31_34
abbrev q1_S1x70x1062_S1x32x1024_0_32_5 : Rect S1x70x1062 := Rect.unit (s := S1x70x1062) ![0, 32, 5] S1x32x1024.size inb_S1x70x1062_S1x32x1024_0_32_5
abbrev q1_S1x70x1062_S1x32x1024_0_32_33 : Rect S1x70x1062 := Rect.unit (s := S1x70x1062) ![0, 32, 33] S1x32x1024.size inb_S1x70x1062_S1x32x1024_0_32_33
abbrev q1_S1x70x1062_S1x32x1024_0_33_6 : Rect S1x70x1062 := Rect.unit (s := S1x70x1062) ![0, 33, 6] S1x32x1024.size inb_S1x70x1062_S1x32x1024_0_33_6
abbrev q1_S1x70x1062_S1x32x1024_0_33_32 : Rect S1x70x1062 := Rect.unit (s := S1x70x1062) ![0, 33, 32] S1x32x1024.size inb_S1x70x1062_S1x32x1024_0_33_32
abbrev q1_S1x70x1062_S1x32x1024_0_34_7 : Rect S1x70x1062 := Rect.unit (s := S1x70x1062) ![0, 34, 7] S1x32x1024.size inb_S1x70x1062_S1x32x1024_0_34_7
abbrev q1_S1x70x1062_S1x32x1024_0_34_8 : Rect S1x70x1062 := Rect.unit (s := S1x70x1062) ![0, 34, 8] S1x32x1024.size inb_S1x70x1062_S1x32x1024_0_34_8
abbrev q1_S1x70x1062_S1x32x1024_0_34_30 : Rect S1x70x1062 := Rect.unit (s := S1x70x1062) ![0, 34, 30] S1x32x1024.size inb_S1x70x1062_S1x32x1024_0_34_30
abbrev q1_S1x70x1062_S1x32x1024_0_34_31 : Rect S1x70x1062 := Rect.unit (s := S1x70x1062) ![0, 34, 31] S1x32x1024.size inb_S1x70x1062_S1x32x1024_0_34_31
abbrev q1_S1x70x1062_S1x32x1024_0_35_8 : Rect S1x70x1062 := Rect.unit (s := S1x70x1062) ![0, 35, 8] S1x32x1024.size inb_S1x70x1062_S1x32x1024_0_35_8
abbrev q1_S1x70x1062_S1x32x1024_0_35_9 : Rect S1x70x1062 := Rect.unit (s := S1x70x1062) ![0, 35, 9] S1x32x1024.size inb_S1x70x1062_S1x32x1024_0_35_9
abbrev q1_S1x70x1062_S1x32x1024_0_35_29 : Rect S1x70x1062 := Rect.unit (s := S1x70x1062) ![0, 35, 29] S1x32x1024.size inb_S1x70x1062_S1x32x1024_0_35_29
abbrev q1_S1x70x1062_S1x32x1024_0_35_30 : Rect S1x70x1062 := Rect.unit (s := S1x70x1062) ![0, 35, 30] S1x32x1024.size inb_S1x70x1062_S1x32x1024_0_35_30
abbrev q1_S1x70x1062_S1x32x1024_0_36_10 : Rect S1x70x1062 := Rect.unit (s := S1x70x1062) ![0, 36, 10] S1x32x1024.size inb_S1x70x1062_S1x32x1024_0_36_10
abbrev q1_S1x70x1062_S1x32x1024_0_36_11 : Rect S1x70x1062 := Rect.unit (s := S1x70x1062) ![0, 36, 11] S1x32x1024.size inb_S1x70x1062_S1x32x1024_0_36_11
abbrev q1_S1x70x1062_S1x32x1024_0_36_27 : Rect S1x70x1062 := Rect.unit (s := S1x70x1062) ![0, 36, 27] S1x32x1024.size inb_S1x70x1062_S1x32x1024_0_36_27
abbrev q1_S1x70x1062_S1x32x1024_0_36_28 : Rect S1x70x1062 := Rect.unit (s := S1x70x1062) ![0, 36, 28] S1x32x1024.size inb_S1x70x1062_S1x32x1024_0_36_28
abbrev q1_S1x70x1062_S1x32x1024_0_37_12 : Rect S1x70x1062 := Rect.unit (s := S1x70x1062) ![0, 37, 12] S1x32x1024.size inb_S1x70x1062_S1x32x1024_0_37_12
abbrev q1_S1x70x1062_S1x32x1024_0_37_13 : Rect S1x70x1062 := Rect.unit (s := S1x70x1062) ![0, 37, 13] S1x32x1024.size inb_S1x70x1062_S1x32x1024_0_37_13
abbrev q1_S1x70x1062_S1x32x1024_0_37_14 : Rect S1x70x1062 := Rect.unit (s := S1x70x1062) ![0, 37, 14] S1x32x1024.size inb_S1x70x1062_S1x32x1024_0_37_14
abbrev q1_S1x70x1062_S1x32x1024_0_37_24 : Rect S1x70x1062 := Rect.unit (s := S1x70x1062) ![0, 37, 24] S1x32x1024.size inb_S1x70x1062_S1x32x1024_0_37_24
abbrev q1_S1x70x1062_S1x32x1024_0_37_25 : Rect S1x70x1062 := Rect.unit (s := S1x70x1062) ![0, 37, 25] S1x32x1024.size inb_S1x70x1062_S1x32x1024_0_37_25
abbrev q1_S1x70x1062_S1x32x1024_0_37_26 : Rect S1x70x1062 := Rect.unit (s := S1x70x1062) ![0, 37, 26] S1x32x1024.size inb_S1x70x1062_S1x32x1024_0_37_26
abbrev q1_S1x70x1062_S1x32x1024_0_38_15 : Rect S1x70x1062 := Rect.unit (s := S1x70x1062) ![0, 38, 15] S1x32x1024.size inb_S1x70x1062_S1x32x1024_0_38_15
abbrev q1_S1x70x1062_S1x32x1024_0_38_16 : Rect S1x70x1062 := Rect.unit (s := S1x70x1062) ![0, 38, 16] S1x32x1024.size inb_S1x70x1062_S1x32x1024_0_38_16
abbrev q1_S1x70x1062_S1x32x1024_0_38_17 : Rect S1x70x1062 := Rect.unit (s := S1x70x1062) ![0, 38, 17] S1x32x1024.size inb_S1x70x1062_S1x32x1024_0_38_17
abbrev q1_S1x70x1062_S1x32x1024_0_38_18 : Rect S1x70x1062 := Rect.unit (s := S1x70x1062) ![0, 38, 18] S1x32x1024.size inb_S1x70x1062_S1x32x1024_0_38_18
abbrev q1_S1x70x1062_S1x32x1024_0_38_19 : Rect S1x70x1062 := Rect.unit (s := S1x70x1062) ![0, 38, 19] S1x32x1024.size inb_S1x70x1062_S1x32x1024_0_38_19
abbrev q1_S1x70x1062_S1x32x1024_0_38_20 : Rect S1x70x1062 := Rect.unit (s := S1x70x1062) ![0, 38, 20] S1x32x1024.size inb_S1x70x1062_S1x32x1024_0_38_20
abbrev q1_S1x70x1062_S1x32x1024_0_38_21 : Rect S1x70x1062 := Rect.unit (s := S1x70x1062) ![0, 38, 21] S1x32x1024.size inb_S1x70x1062_S1x32x1024_0_38_21
abbrev q1_S1x70x1062_S1x32x1024_0_38_22 : Rect S1x70x1062 := Rect.unit (s := S1x70x1062) ![0, 38, 22] S1x32x1024.size inb_S1x70x1062_S1x32x1024_0_38_22
abbrev q1_S1x70x1062_S1x32x1024_0_38_23 : Rect S1x70x1062 := Rect.unit (s := S1x70x1062) ![0, 38, 23] S1x32x1024.size inb_S1x70x1062_S1x32x1024_0_38_23
abbrev q1_S32x1024_S32x1024_0_0 : Rect S32x1024 := Rect.unit (s := S32x1024) ![0, 0] S32x1024.size inb_S32x1024_S32x1024_0_0

/-- The output tile's buffer after the body: the one store's payload over the reads of the input blocks. -/
def out1_5 (x0 : Vec F S1x70x1062 .f32) (x1 x2 x3 x4 : Vec F S1 .f32) : Vec F S32x1024 .f32 :=
  View.canon [⟨q1_S32x1024_S32x1024_0_0, k1_pay1 ((k1_pay2 (View.ld x1 q1_S1_S1_0))) ((k1_pay3 (View.ld x2 q1_S1_S1_0))) ((k1_pay4 (View.ld x3 q1_S1_S1_0))) ((k1_pay5 (View.ld x4 q1_S1_S1_0))) ((k1_pay6 (View.ld x0 q1_S1x70x1062_S1x32x1024_0_19_19))) ((k1_pay49 (k1_pay4 (View.ld x3 q1_S1_S1_0)) (k1_pay6 (View.ld x0 q1_S1x70x1062_S1x32x1024_0_19_19)) (k1_pay32 (k1_pay3 (View.ld x2 q1_S1_S1_0)) (k1_pay6 (View.ld x0 q1_S1x70x1062_S1x32x1024_0_19_19)) (k1_pay16 (k1_pay2 (View.ld x1 q1_S1_S1_0)) (k1_pay6 (View.ld x0 q1_S1x70x1062_S1x32x1024_0_19_19)) (k1_pay7 (F := F)) (k1_pay14 (k1_pay6 (View.ld x0 q1_S1x70x1062_S1x32x1024_0_19_19)) (k1_pay13 (k1_pay6 (View.ld x0 q1_S1x70x1062_S1x32x1024_0_19_19)) (k1_pay11 (k1_pay6 (View.ld x0 q1_S1x70x1062_S1x32x1024_0_19_19)) (k1_pay10 (k1_pay6 (View.ld x0 q1_S1x70x1062_S1x32x1024_0_19_19)) (k1_pay8 (View.ld x0 q1_S1x70x1062_S1x32x1024_0_19_19) (View.ld x0 q1_S1x70x1062_S1x32x1024_0_12_17) (View.ld x0 q1_S1x70x1062_S1x32x1024_0_12_18) (View.ld x0 q1_S1x70x1062_S1x32x1024_0_12_19) (View.ld x0 q1_S1x70x1062_S1x32x1024_0_12_20)) (k1_pay9 (View.ld x0 q1_S1x70x1062_S1x32x1024_0_19_19) (View.ld x0 q1_S1x70x1062_S1x32x1024_0_12_21)) (View.ld x0 q1_S1x70x1062_S1x32x1024_0_13_15) (View.ld x0 q1_S1x70x1062_S1x32x1024_0_13_16) (View.ld x0 q1_S1x70x1062_S1x32x1024_0_13_22) (View.ld x0 q1_S1x70x1062_S1x32x1024_0_13_23) (View.ld x0 q1_S1x70x1062_S1x32x1024_0_14_14) (View.ld x0 q1_S1x70x1062_S1x32x1024_0_14_24) (View.ld x0 q1_S1x70x1062_S1x32x1024_0_15_13)) (View.ld x0 q1_S1x70x1062_S1x32x1024_0_15_25) (View.ld x0 q1_S1x70x1062_S1x32x1024_0_16_13) (View.ld x0 q1_S1x70x1062_S1x32x1024_0_16_25) (View.ld x0 q1_S1x70x1062_S1x32x1024_0_17_12) (View.ld x0 q1_S1x70x1062_S1x32x1024_0_17_26) (View.ld x0 q1_S1x70x1062_S1x32x1024_0_18_12) (View.ld x0 q1_S1x70x1062_S1x32x1024_0_18_26)) (k1_pay12 (k1_pay6 (View.ld x0 q1_S1x70x1062_S1x32x1024_0_19_19)) (View.ld x0 q1_S1x70x1062_S1x32x1024_0_19_12)) (View.ld x0 q1_S1x70x1062_S1x32x1024_0_19_26) (View.ld x0 q1_S1x70x1062_S1x32x1024_0_20_12) (View.ld x0 q1_S1x70x1062_S1x32x1024_0_20_26) (View.ld x0 q1_S1x70x1062_S1x32x1024_0_21_12) (View.ld x0 q1_S1x70x1062_S1x32x1024_0_21_26) (View.ld x0 q1_S1x70x1062_S1x32x1024_0_22_13) (View.ld x0 q1_S1x70x1062_S1x32x1024_0_22_25)) (View.ld x0 q1_S1x70x1062_S1x32x1024_0_23_13) (View.ld x0 q1_S1x70x1062_S1x32x1024_0_23_25) (View.ld x0 q1_S1x70x1062_S1x32x1024_0_24_14) (View.ld x0 q1_S1x70x1062_S1x32x1024_0_24_24) (View.ld x0 q1_S1x70x1062_S1x32x1024_0_25_15) (View.ld x0 q1_S1x70x1062_S1x32x1024_0_25_16) (View.ld x0 q1_S1x70x1062_S1x32x1024_0_25_22)) (k1_pay15 (k1_pay6 (View.ld x0 q1_S1x70x1062_S1x32x1024_0_19_19)) (View.ld x0 q1_S1x70x1062_S1x32x1024_0_25_23)) (View.ld x0 q1_S1x70x1062_S1x32x1024_0_26_17) (View.ld x0 q1_S1x70x1062_S1x32x1024_0_26_18) (View.ld x0 q1_S1x70x1062_S1x32x1024_0_26_19) (View.ld x0 q1_S1x70x1062_S1x32x1024_0_26_20) (View.ld x0 q1_S1x70x1062_S1x32x1024_0_26_21)) (k1_pay30 (k1_pay6 (View.ld x0 q1_S1x70x1062_S1x32x1024_0_19_19)) (k1_pay29 (k1_pay6 (View.ld x0 q1_S1x70x1062_S1x32x1024_0_19_19)) (k1_pay27 (k1_pay6 (View.ld x0 q1_S1x70x1062_S1x32x1024_0_19_19)) (k1_pay26 (k1_pay6 (View.ld x0 q1_S1x70x1062_S1x32x1024_0_19_19)) (k1_pay24 (k1_pay6 (View.ld x0 q1_S1x70x1062_S1x32x1024_0_19_19)) (k1_pay23 (k1_pay6 (View.ld x0 q1_S1x70x1062_S1x32x1024_0_19_19)) (k1_pay21 (k1_pay6 (View.ld x0 q1_S1x70x1062_S1x32x1024_0_19_19)) (k1_pay20 (k1_pay6 (View.ld x0 q1_S1x70x1062_S1x32x1024_0_19_19)) (k1_pay18 (k1_pay6 (View.ld x0 q1_S1x70x1062_S1x32x1024_0_19_19)) (k1_pay17 (k1_pay6 (View.ld x0 q1_S1x70x1062_S1x32x1024_0_19_19)) (View.ld x0 q1_S1x70x1062_S1x32x1024_0_8_16)) (View.ld x0 q1_S1x70x1062_S1x32x1024_0_8_17) (View.ld x0 q1_S1x70x1062_S1x32x1024_0_8_18) (View.ld x0 q1_S1x70x1062_S1x32x1024_0_8_19) (View.ld x0 q1_S1x70x1062_S1x32x1024_0_8_20) (View.ld x0 q1_S1x70x1062_S1x32x1024_0_8_21) (View.ld x0 q1_S1x70x1062_S1x32x1024_0_8_22) (View.ld x0 q1_S1x70x1062_S1x32x1024_0_9_14)) (k1_pay19 (k1_pay6 (View.ld x0 q1_S1x70x1062_S1x32x1024_0_19_19)) (View.ld x0 q1_S1x70x1062_S1x32x1024_0_9_15)) (View.ld x0 q1_S1x70x1062_S1x32x1024_0_9_23) (View.ld x0 q1_S1x70x1062_S1x32x1024_0_9_24) (View.ld x0 q1_S1x70x1062_S1x32x1024_0_10_12) (View.ld x0 q1_S1x70x1062_S1x32x1024_0_10_13) (View.ld x0 q1_S1x70x1062_S1x32x1024_0_10_25) (View.ld x0 q1_S1x70x1062_S1x32x1024_0_10_26) (View.ld x0 q1_S1x70x1062_S1x32x1024_0_11_11)) (View.ld x0 q1_S1x70x1062_S1x32x1024_0_11_12) (View.ld x0 q1_S1x70x1062_S1x32x1024_0_11_26) (View.ld x0 q1_S1x70x1062_S1x32x1024_0_11_27) (View.ld x0 q1_S1x70x1062_S1x32x1024_0_12_10) (View.ld x0 q1_S1x70x1062_S1x32x1024_0_12_11) (View.ld x0 q1_S1x70x1062_S1x32x1024_0_12_27) (View.ld x0 q1_S1x70x1062_S1x32x1024_0_12_28)) (k1_pay22 (k1_pay6 (View.ld x0 q1_S1x70x1062_S1x32x1024_0_19_19)) (View.ld x0 q1_S1x70x1062_S1x32x1024_0_13_10)) (View.ld x0 q1_S1x70x1062_S1x32x1024_0_13_28) (View.ld x0 q1_S1x70x1062_S1x32x1024_0_14_9) (View.ld x0 q1_S1x70x1062_S1x32x1024_0_14_29) (View.ld x0 q1_S1x70x1062_S1x32x1024_0_15_9) (View.ld x0 q1_S1x70x1062_S1x32x1024_0_15_29) (View.ld x0 q1_S1x70x1062_S1x32x1024_0_16_8) (View.ld x0 q1_S1x70x1062_S1x32x1024_0_16_30)) (View.ld x0 q1_S1x70x1062_S1x32x1024_0_17_8) (View.ld x0 q1_S1x70x1062_S1x32x1024_0_17_30) (View.ld x0 q1_S1x70x1062_S1x32x1024_0_18_8) (View.ld x0 q1_S1x70x1062_S1x32x1024_0_18_30) (View.ld x0 q1_S1x70x1062_S1x32x1024_0_19_8) (View.ld x0 q1_S1x70x1062_S1x32x1024_0_19_30) (View.ld x0 q1_S1x70x1062_S1x32x1024_0_20_8)) (k1_pay25 (k1_pay6 (View.ld x0 q1_S1x70x1062_S1x32x1024_0_19_19)) (View.ld x0 q1_S1x70x1062_S1x32x1024_0_20_30)) (View.ld x0 q1_S1x70x1062_S1x32x1024_0_21_8) (View.ld x0 q1_S1x70x1062_S1x32x1024_0_21_30) (View.ld x0 q1_S1x70x1062_S1x32x1024_0_22_8) (View.ld x0 q1_S1x70x1062_S1x32x1024_0_22_30) (View.ld x0 q1_S1x70x1062_S1x32x1024_0_23_9) (View.ld x0 q1_S1x70x1062_S1x32x1024_0_23_29) (View.ld x0 q1_S1x70x1062_S1x32x1024_0_24_9)) (View.ld x0 q1_S1x70x1062_S1x32x1024_0_24_29) (View.ld x0 q1_S1x70x1062_S1x32x1024_0_25_10) (View.ld x0 q1_S1x70x1062_S1x32x1024_0_25_28) (View.ld x0 q1_S1x70x1062_S1x32x1024_0_26_10) (View.ld x0 q1_S1x70x1062_S1x32x1024_0_26_11) (View.ld x0 q1_S1x70x1062_S1x32x1024_0_26_27) (View.ld x0 q1_S1x70x1062_S1x32x1024_0_26_28)) (k1_pay28 (k1_pay6 (View.ld x0 q1_S1x70x1062_S1x32x1024_0_19_19)) (View.ld x0 q1_S1x70x1062_S1x32x1024_0_27_11)) (View.ld x0 q1_S1x70x1062_S1x32x1024_0_27_12) (View.ld x0 q1_S1x70x1062_S1x32x1024_0_27_26) (View.ld x0 q1_S1x70x1062_S1x32x1024_0_27_27) (View.ld x0 q1_S1x70x1062_S1x32x1024_0_28_12) (View.ld x0 q1_S1x70x1062_S1x32x1024_0_28_13) (View.ld x0 q1_S1x70x1062_S1x32x1024_0_28_25) (View.ld x0 q1_S1x70x1062_S1x32x1024_0_28_26)) (View.ld x0 q1_S1x70x1062_S1x32x1024_0_29_14) (View.ld x0 q1_S1x70x1062_S1x32x1024_0_29_15) (View.ld x0 q1_S1x70x1062_S1x32x1024_0_29_23) (View.ld x0 q1_S1x70x1062_S1x32x1024_0_29_24) (View.ld x0 q1_S1x70x1062_S1x32x1024_0_30_16) (View.ld x0 q1_S1x70x1062_S1x32x1024_0_30_17) (View.ld x0 q1_S1x70x1062_S1x32x1024_0_30_18)) (k1_pay31 (k1_pay6 (View.ld x0 q1_S1x70x1062_S1x32x1024_0_19_19)) (View.ld x0 q1_S1x70x1062_S1x32x1024_0_30_19)) (View.ld x0 q1_S1x70x1062_S1x32x1024_0_30_20) (View.ld x0 q1_S1x70x1062_S1x32x1024_0_30_21) (View.ld x0 q1_S1x70x1062_S1x32x1024_0_30_22)) (k1_pay48 (k1_pay6 (View.ld x0 q1_S1x70x1062_S1x32x1024_0_19_19)) (k1_pay46 (k1_pay6 (View.ld x0 q1_S1x70x1062_S1x32x1024_0_19_19)) (k1_pay45 (k1_pay6 (View.ld x0 q1_S1x70x1062_S1x32x1024_0_19_19)) (k1_pay43 (k1_pay6 (View.ld x0 q1_S1x70x1062_S1x32x1024_0_19_19)) (k1_pay42 (k1_pay6 (View.ld x0 q1_S1x70x1062_S1x32x1024_0_19_19)) (k1_pay40 (k1_pay6 (View.ld x0 q1_S1x70x1062_S1x32x1024_0_19_19)) (k1_pay39 (k1_pay6 (View.ld x0 q1_S1x70x1062_S1x32x1024_0_19_19)) (k1_pay37 (k1_pay6 (View.ld x0 q1_S1x70x1062_S1x32x1024_0_19_19)) (k1_pay36 (k1_pay6 (View.ld x0 q1_S1x70x1062_S1x32x1024_0_19_19)) (k1_pay34 (k1_pay6 (View.ld x0 q1_S1x70x1062_S1x32x1024_0_19_19)) (k1_pay33 (k1_pay6 (View.ld x0 q1_S1x70x1062_S1x32x1024_0_19_19)) (View.ld x0 q1_S1x70x1062_S1x32x1024_0_4_16) (View.ld x0 q1_S1x70x1062_S1x32x1024_0_4_17) (View.ld x0 q1_S1x70x1062_S1x32x1024_0_4_18)) (View.ld x0 q1_S1x70x1062_S1x32x1024_0_4_19) (View.ld x0 q1_S1x70x1062_S1x32x1024_0_4_20) (View.ld x0 q1_S1x70x1062_S1x32x1024_0_4_21) (View.ld x0 q1_S1x70x1062_S1x32x1024_0_4_22) (View.ld x0 q1_S1x70x1062_S1x32x1024_0_5_13) (View.ld x0 q1_S1x70x1062_S1x32x1024_0_5_14) (View.ld x0 q1_S1x70x1062_S1x32x1024_0_5_15)) (k1_pay35 (k1_pay6 (View.ld x0 q1_S1x70x1062_S1x32x1024_0_19_19)) (View.ld x0 q1_S1x70x1062_S1x32x1024_0_5_23)) (View.ld x0 q1_S1x70x1062_S1x32x1024_0_5_24) (View.ld x0 q1_S1x70x1062_S1x32x1024_0_5_25) (View.ld x0 q1_S1x70x1062_S1x32x1024_0_6_11) (View.ld x0 q1_S1x70x1062_S1x32x1024_0_6_12) (View.ld x0 q1_S1x70x1062_S1x32x1024_0_6_26) (View.ld x0 q1_S1x70x1062_S1x32x1024_0_6_27) (View.ld x0 q1_S1x70x1062_S1x32x1024_0_7_10)) (View.ld x0 q1_S1x70x1062_S1x32x1024_0_7_28) (View.ld x0 q1_S1x70x1062_S1x32x1024_0_8_9) (View.ld x0 q1_S1x70x1062_S1x32x1024_0_8_29) (View.ld x0 q1_S1x70x1062_S1x32x1024_0_9_8) (View.ld x0 q1_S1x70x1062_S1x32x1024_0_9_30) (View.ld x0 q1_S1x70x1062_S1x32x1024_0_10_7) (View.ld x0 q1_S1x70x1062_S1x32x1024_0_10_31)) (k1_pay38 (k1_pay6 (View.ld x0 q1_S1x70x1062_S1x32x1024_0_19_19)) (View.ld x0 q1_S1x70x1062_S1x32x1024_0_11_6)) (View.ld x0 q1_S1x70x1062_S1x32x1024_0_11_32) (View.ld x0 q1_S1x70x1062_S1x32x1024_0_12_6) (View.ld x0 q1_S1x70x1062_S1x32x1024_0_12_32) (View.ld x0 q1_S1x70x1062_S1x32x1024_0_13_5) (View.ld x0 q1_S1x70x1062_S1x32x1024_0_13_33) (View.ld x0 q1_S1x70x1062_S1x32x1024_0_14_5) (View.ld x0 q1_S1x70x1062_S1x32x1024_0_14_33)) (View.ld x0 q1_S1x70x1062_S1x32x1024_0_15_5) (View.ld x0 q1_S1x70x1062_S1x32x1024_0_15_33) (View.ld x0 q1_S1x70x1062_S1x32x1024_0_16_4) (View.ld x0 q1_S1x70x1062_S1x32x1024_0_16_34) (View.ld x0 q1_S1x70x1062_S1x32x1024_0_17_4) (View.ld x0 q1_S1x70x1062_S1x32x1024_0_17_34) (View.ld x0 q1_S1x70x1062_S1x32x1024_0_18_4)) (k1_pay41 (k1_pay6 (View.ld x0 q1_S1x70x1062_S1x32x1024_0_19_19)) (View.ld x0 q1_S1x70x1062_S1x32x1024_0_18_34)) (View.ld x0 q1_S1x70x1062_S1x32x1024_0_19_4) (View.ld x0 q1_S1x70x1062_S1x32x1024_0_19_34) (View.ld x0 q1_S1x70x1062_S1x32x1024_0_20_4) (View.ld x0 q1_S1x70x1062_S1x32x1024_0_20_34) (View.ld x0 q1_S1x70x1062_S1x32x1024_0_21_4) (View.ld x0 q1_S1x70x1062_S1x32x1024_0_21_34) (View.ld x0 q1_S1x70x1062_S1x32x1024_0_22_4)) (View.ld x0 q1_S1x70x1062_S1x32x1024_0_22_34) (View.ld x0 q1_S1x70x1062_S1x32x1024_0_23_5) (View.ld x0 q1_S1x70x1062_S1x32x1024_0_23_33) (View.ld x0 q1_S1x70x1062_S1x32x1024_0_24_5) (View.ld x0 q1_S1x70x1062_S1x32x1024_0_24_33) (View.ld x0 q1_S1x70x1062_S1x32x1024_0_25_5) (View.ld x0 q1_S1x70x1062_S1x32x1024_0_25_33)) (k1_pay44 (k1_pay6 (View.ld x0 q1_S1x70x1062_S1x32x1024_0_19_19)) (View.ld x0 q1_S1x70x1062_S1x32x1024_0_26_6)) (View.ld x0 q1_S1x70x1062_S1x32x1024_0_26_32) (View.ld x0 q1_S1x70x1062_S1x32x1024_0_27_6) (View.ld x0 q1_S1x70x1062_S1x32x1024_0_27_32) (View.ld x0 q1_S1x70x1062_S1x32x1024_0_28_7) (View.ld x0 q1_S1x70x1062_S1x32x1024_0_28_31) (View.ld x0 q1_S1x70x1062_S1x32x1024_0_29_8) (View.ld x0 q1_S1x70x1062_S1x32x1024_0_29_30)) (View.ld x0 q1_S1x70x1062_S1x32x1024_0_30_9) (View.ld x0 q1_S1x70x1062_S1x32x1024_0_30_29) (View.ld x0 q1_S1x70x1062_S1x32x1024_0_31_10) (View.ld x0 q1_S1x70x1062_S1x32x1024_0_31_28) (View.ld x0 q1_S1x70x1062_S1x32x1024_0_32_11) (View.ld x0 q1_S1x70x1062_S1x32x1024_0_32_12) (View.ld x0 q1_S1x70x1062_S1x32x1024_0_32_26)) (k1_pay47 (k1_pay6 (View.ld x0 q1_S1x70x1062_S1x32x1024_0_19_19)) (View.ld x0 q1_S1x70x1062_S1x32x1024_0_32_27)) (View.ld x0 q1_S1x70x1062_S1x32x1024_0_33_13) (View.ld x0 q1_S1x70x1062_S1x32x1024_0_33_14) (View.ld x0 q1_S1x70x1062_S1x32x1024_0_33_15) (View.ld x0 q1_S1x70x1062_S1x32x1024_0_33_23) (View.ld x0 q1_S1x70x1062_S1x32x1024_0_33_24) (View.ld x0 q1_S1x70x1062_S1x32x1024_0_33_25) (View.ld x0 q1_S1x70x1062_S1x32x1024_0_34_16)) (View.ld x0 q1_S1x70x1062_S1x32x1024_0_34_17) (View.ld x0 q1_S1x70x1062_S1x32x1024_0_34_18) (View.ld x0 q1_S1x70x1062_S1x32x1024_0_34_19) (View.ld x0 q1_S1x70x1062_S1x32x1024_0_34_20) (View.ld x0 q1_S1x70x1062_S1x32x1024_0_34_21) (View.ld x0 q1_S1x70x1062_S1x32x1024_0_34_22))) (k1_pay74 (k1_pay6 (View.ld x0 q1_S1x70x1062_S1x32x1024_0_19_19)) (k1_pay73 (k1_pay6 (View.ld x0 q1_S1x70x1062_S1x32x1024_0_19_19)) (k1_pay71 (k1_pay6 (View.ld x0 q1_S1x70x1062_S1x32x1024_0_19_19)) (k1_pay70 (k1_pay6 (View.ld x0 q1_S1x70x1062_S1x32x1024_0_19_19)) (k1_pay68 (k1_pay6 (View.ld x0 q1_S1x70x1062_S1x32x1024_0_19_19)) (k1_pay67 (k1_pay6 (View.ld x0 q1_S1x70x1062_S1x32x1024_0_19_19)) (k1_pay65 (k1_pay6 (View.ld x0 q1_S1x70x1062_S1x32x1024_0_19_19)) (k1_pay64 (k1_pay6 (View.ld x0 q1_S1x70x1062_S1x32x1024_0_19_19)) (k1_pay62 (k1_pay6 (View.ld x0 q1_S1x70x1062_S1x32x1024_0_19_19)) (k1_pay61 (k1_pay6 (View.ld x0 q1_S1x70x1062_S1x32x1024_0_19_19)) (k1_pay59 (k1_pay6 (View.ld x0 q1_S1x70x1062_S1x32x1024_0_19_19)) (k1_pay58 (k1_pay6 (View.ld x0 q1_S1x70x1062_S1x32x1024_0_19_19)) (k1_pay56 (k1_pay6 (View.ld x0 q1_S1x70x1062_S1x32x1024_0_19_19)) (k1_pay55 (k1_pay6 (View.ld x0 q1_S1x70x1062_S1x32x1024_0_19_19)) (k1_pay53 (k1_pay6 (View.ld x0 q1_S1x70x1062_S1x32x1024_0_19_19)) (k1_pay52 (k1_pay6 (View.ld x0 q1_S1x70x1062_S1x32x1024_0_19_19)) (k1_pay50 (F := F)) (k1_pay51 (k1_pay6 (View.ld x0 q1_S1x70x1062_S1x32x1024_0_19_19)) (View.ld x0 q1_S1x70x1062_S1x32x1024_0_0_15)) (View.ld x0 q1_S1x70x1062_S1x32x1024_0_0_16) (View.ld x0 q1_S1x70x1062_S1x32x1024_0_0_17) (View.ld x0 q1_S1x70x1062_S1x32x1024_0_0_18) (View.ld x0 q1_S1x70x1062_S1x32x1024_0_0_19) (View.ld x0 q1_S1x70x1062_S1x32x1024_0_0_20) (View.ld x0 q1_S1x70x1062_S1x32x1024_0_0_21) (View.ld x0 q1_S1x70x1062_S1x32x1024_0_0_22)) (View.ld x0 q1_S1x70x1062_S1x32x1024_0_0_23) (View.ld x0 q1_S1x70x1062_S1x32x1024_0_1_12) (View.ld x0 q1_S1x70x1062_S1x32x1024_0_1_13) (View.ld x0 q1_S1x70x1062_S1x32x1024_0_1_14) (View.ld x0 q1_S1x70x1062_S1x32x1024_0_1_24) (View.ld x0 q1_S1x70x1062_S1x32x1024_0_1_25) (View.ld x0 q1_S1x70x1062_S1x32x1024_0_1_26)) (k1_pay54 (k1_pay6 (View.ld x0 q1_S1x70x1062_S1x32x1024_0_19_19)) (View.ld x0 q1_S1x70x1062_S1x32x1024_0_2_10)) (View.ld x0 q1_S1x70x1062_S1x32x1024_0_2_11) (View.ld x0 q1_S1x70x1062_S1x32x1024_0_2_27) (View.ld x0 q1_S1x70x1062_S1x32x1024_0_2_28) (View.ld x0 q1_S1x70x1062_S1x32x1024_0_3_8) (View.ld x0 q1_S1x70x1062_S1x32x1024_0_3_9) (View.ld x0 q1_S1x70x1062_S1x32x1024_0_3_29) (View.ld x0 q1_S1x70x1062_S1x32x1024_0_3_30)) (View.ld x0 q1_S1x70x1062_S1x32x1024_0_4_7) (View.ld x0 q1_S1x70x1062_S1x32x1024_0_4_8) (View.ld x0 q1_S1x70x1062_S1x32x1024_0_4_30) (View.ld x0 q1_S1x70x1062_S1x32x1024_0_4_31) (View.ld x0 q1_S1x70x1062_S1x32x1024_0_5_6) (View.ld x0 q1_S1x70x1062_S1x32x1024_0_5_32) (View.ld x0 q1_S1x70x1062_S1x32x1024_0_6_5)) (k1_pay57 (k1_pay6 (View.ld x0 q1_S1x70x1062_S1x32x1024_0_19_19)) (View.ld x0 q1_S1x70x1062_S1x32x1024_0_6_33)) (View.ld x0 q1_S1x70x1062_S1x32x1024_0_7_4) (View.ld x0 q1_S1x70x1062_S1x32x1024_0_7_34) (View.ld x0 q1_S1x70x1062_S1x32x1024_0_8_3) (View.ld x0 q1_S1x70x1062_S1x32x1024_0_8_4) (View.ld x0 q1_S1x70x1062_S1x32x1024_0_8_34) (View.ld x0 q1_S1x70x1062_S1x32x1024_0_8_35) (View.ld x0 q1_S1x70x1062_S1x32x1024_0_9_3)) (View.ld x0 q1_S1x70x1062_S1x32x1024_0_9_35) (View.ld x0 q1_S1x70x1062_S1x32x1024_0_10_2) (View.ld x0 q1_S1x70x1062_S1x32x1024_0_10_36) (View.ld x0 q1_S1x70x1062_S1x32x1024_0_11_2) (View.ld x0 q1_S1x70x1062_S1x32x1024_0_11_36) (View.ld x0 q1_S1x70x1062_S1x32x1024_0_12_1) (View.ld x0 q1_S1x70x1062_S1x32x1024_0_12_37)) (k1_pay60 (k1_pay6 (View.ld x0 q1_S1x70x1062_S1x32x1024_0_19_19)) (View.ld x0 q1_S1x70x1062_S1x32x1024_0_13_1)) (View.ld x0 q1_S1x70x1062_S1x32x1024_0_13_37) (View.ld x0 q1_S1x70x1062_S1x32x1024_0_14_1) (View.ld x0 q1_S1x70x1062_S1x32x1024_0_14_37) (View.ld x0 q1_S1x70x1062_S1x32x1024_0_15_0) (View.ld x0 q1_S1x70x1062_S1x32x1024_0_15_38) (View.ld x0 q1_S1x70x1062_S1x32x1024_0_16_0) (View.ld x0 q1_S1x70x1062_S1x32x1024_0_16_38)) (View.ld x0 q1_S1x70x1062_S1x32x1024_0_17_0) (View.ld x0 q1_S1x70x1062_S1x32x1024_0_17_38) (View.ld x0 q1_S1x70x1062_S1x32x1024_0_18_0) (View.ld x0 q1_S1x70x1062_S1x32x1024_0_18_38) (View.ld x0 q1_S1x70x1062_S1x32x1024_0_19_0) (View.ld x0 q1_S1x70x1062_S1x32x1024_0_19_38) (View.ld x0 q1_S1x70x1062_S1x32x1024_0_20_0)) (k1_pay63 (k1_pay6 (View.ld x0 q1_S1x70x1062_S1x32x1024_0_19_19)) (View.ld x0 q1_S1x70x1062_S1x32x1024_0_20_38)) (View.ld x0 q1_S1x70x1062_S1x32x1024_0_21_0) (View.ld x0 q1_S1x70x1062_S1x32x1024_0_21_38) (View.ld x0 q1_S1x70x1062_S1x32x1024_0_22_0) (View.ld x0 q1_S1x70x1062_S1x32x1024_0_22_38) (View.ld x0 q1_S1x70x1062_S1x32x1024_0_23_0) (View.ld x0 q1_S1x70x1062_S1x32x1024_0_23_38) (View.ld x0 q1_S1x70x1062_S1x32x1024_0_24_1)) (View.ld x0 q1_S1x70x1062_S1x32x1024_0_24_37) (View.ld x0 q1_S1x70x1062_S1x32x1024_0_25_1) (View.ld x0 q1_S1x70x1062_S1x32x1024_0_25_37) (View.ld x0 q1_S1x70x1062_S1x32x1024_0_26_1) (View.ld x0 q1_S1x70x1062_S1x32x1024_0_26_37) (View.ld x0 q1_S1x70x1062_S1x32x1024_0_27_2) (View.ld x0 q1_S1x70x1062_S1x32x1024_0_27_36)) (k1_pay66 (k1_pay6 (View.ld x0 q1_S1x70x1062_S1x32x1024_0_19_19)) (View.ld x0 q1_S1x70x1062_S1x32x1024_0_28_2)) (View.ld x0 q1_S1x70x1062_S1x32x1024_0_28_36) (View.ld x0 q1_S1x70x1062_S1x32x1024_0_29_3) (View.ld x0 q1_S1x70x1062_S1x32x1024_0_29_35) (View.ld x0 q1_S1x70x1062_S1x32x1024_0_30_3) (View.ld x0 q1_S1x70x1062_S1x32x1024_0_30_4) (View.ld x0 q1_S1x70x1062_S1x32x1024_0_30_34) (View.ld x0 q1_S1x70x1062_S1x32x1024_0_30_35)) (View.ld x0 q1_S1x70x1062_S1x32x1024_0_31_4) (View.ld x0 q1_S1x70x1062_S1x32x1024_0_31_34) (View.ld x0 q1_S1x70x1062_S1x32x1024_0_32_5) (View.ld x0 q1_S1x70x1062_S1x32x1024_0_32_33) (View.ld x0 q1_S1x70x1062_S1x32x1024_0_33_6) (View.ld x0 q1_S1x70x1062_S1x32x1024_0_33_32) (View.ld x0 q1_S1x70x1062_S1x32x1024_0_34_7)) (k1_pay69 (k1_pay6 (View.ld x0 q1_S1x70x1062_S1x32x1024_0_19_19)) (View.ld x0 q1_S1x70x1062_S1x32x1024_0_34_8)) (View.ld x0 q1_S1x70x1062_S1x32x1024_0_34_30) (View.ld x0 q1_S1x70x1062_S1x32x1024_0_34_31) (View.ld x0 q1_S1x70x1062_S1x32x1024_0_35_8) (View.ld x0 q1_S1x70x1062_S1x32x1024_0_35_9) (View.ld x0 q1_S1x70x1062_S1x32x1024_0_35_29) (View.ld x0 q1_S1x70x1062_S1x32x1024_0_35_30) (View.ld x0 q1_S1x70x1062_S1x32x1024_0_36_10)) (View.ld x0 q1_S1x70x1062_S1x32x1024_0_36_11) (View.ld x0 q1_S1x70x1062_S1x32x1024_0_36_27) (View.ld x0 q1_S1x70x1062_S1x32x1024_0_36_28) (View.ld x0 q1_S1x70x1062_S1x32x1024_0_37_12) (View.ld x0 q1_S1x70x1062_S1x32x1024_0_37_13) (View.ld x0 q1_S1x70x1062_S1x32x1024_0_37_14) (View.ld x0 q1_S1x70x1062_S1x32x1024_0_37_24)) (k1_pay72 (k1_pay6 (View.ld x0 q1_S1x70x1062_S1x32x1024_0_19_19)) (View.ld x0 q1_S1x70x1062_S1x32x1024_0_37_25)) (View.ld x0 q1_S1x70x1062_S1x32x1024_0_37_26) (View.ld x0 q1_S1x70x1062_S1x32x1024_0_38_15) (View.ld x0 q1_S1x70x1062_S1x32x1024_0_38_16) (View.ld x0 q1_S1x70x1062_S1x32x1024_0_38_17) (View.ld x0 q1_S1x70x1062_S1x32x1024_0_38_18) (View.ld x0 q1_S1x70x1062_S1x32x1024_0_38_19) (View.ld x0 q1_S1x70x1062_S1x32x1024_0_38_20)) (View.ld x0 q1_S1x70x1062_S1x32x1024_0_38_21) (View.ld x0 q1_S1x70x1062_S1x32x1024_0_38_22)) ((View.ld x0 q1_S1x70x1062_S1x32x1024_0_38_23))⟩]

end Cert.Kernel.Hand

end
-- ==== Proof.KB.Body1.lean ====
/-
  Kernel 1 (one row tile of one ring layer): the body's triple.  The body reads the centre tile and, for each
  ring offset of the four radii, one shifted tile of the padded window; it keeps a running minimum of the
  absolute differences, turns each radius' minimum m into 1 - m, accumulates the weighted sum and divides by the
  sum of the weights.  Its one store writes the whole 32 x 1024 output tile, so that single piece covers the
  buffer, and what the buffer holds afterwards is the stored payload as a function of the input blocks alone.
-/
import proofs.«126001_j6975026889201_2_alg».proof.Proof.KB.Out1
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The one stored rectangle is the whole tile, so it covers the buffer. -/
theorem cover1_5 (p0 : Vec F S32x1024 .f32) (y : S32x1024.Idx) :
    ∃ pc ∈ ([⟨q1_S32x1024_S32x1024_0_0, p0⟩] : List (View.Piece (Elt F) S32x1024 .f32)), y ∈ pc.1.set :=
  View.cover_of_tiled [⟨q1_S32x1024_S32x1024_0_0, p0⟩] S32x1024.size (by rfl) y

set_option maxHeartbeats 20000000 in
/-- On whole staging buffers, the five inputs at contents x0..x4 and the output at anything, the body runs to its
    continuation with the inputs as they were and the output tile at the stored payload of the inputs. -/
theorem sound_kernel1 (c : Dev nD) (E : Set ℕ) (i : grid1.Coords)
    (arg1 : Memref sig .tc .vmem S1x70x1062 .f32) (harg1 : arg1.IsWhole) (arg2 : Memref sig .tc .vmem S1 .f32) (harg2 : arg2.IsWhole)
    (arg3 : Memref sig .tc .vmem S1 .f32) (harg3 : arg3.IsWhole) (arg4 : Memref sig .tc .vmem S1 .f32) (harg4 : arg4.IsWhole)
    (arg5 : Memref sig .tc .vmem S1 .f32) (harg5 : arg5.IsWhole) (arg6 : Memref sig .tc .vmem S32x1024 .f32) (harg6 : arg6.IsWhole)
    (x0 : Vec F S1x70x1062 .f32) (x1 x2 x3 x4 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  simp only [k1_part43_eq_skeleton]; unfold k1_part43_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  simp only [k1_part10_eq_skeleton]; unfold k1_part10_skel
  simp only [k1_part11_eq_skeleton]; unfold k1_part11_skel
  simp only [k1_part12_eq_skeleton]; unfold k1_part12_skel
  simp only [k1_part13_eq_skeleton]; unfold k1_part13_skel
  simp only [k1_part14_eq_skeleton]; unfold k1_part14_skel
  simp only [k1_part15_eq_skeleton]; unfold k1_part15_skel
  simp only [k1_part16_eq_skeleton]; unfold k1_part16_skel
  simp only [k1_part17_eq_skeleton]; unfold k1_part17_skel
  simp only [k1_part18_eq_skeleton]; unfold k1_part18_skel
  simp only [k1_part19_eq_skeleton]; unfold k1_part19_skel
  simp only [k1_part20_eq_skeleton]; unfold k1_part20_skel
  simp only [k1_part21_eq_skeleton]; unfold k1_part21_skel
  simp only [k1_part22_eq_skeleton]; unfold k1_part22_skel
  simp only [k1_part23_eq_skeleton]; unfold k1_part23_skel
  simp only [k1_part24_eq_skeleton]; unfold k1_part24_skel
  simp only [k1_part25_eq_skeleton]; unfold k1_part25_skel
  simp only [k1_part26_eq_skeleton]; unfold k1_part26_skel
  simp only [k1_part27_eq_skeleton]; unfold k1_part27_skel
  simp only [k1_part28_eq_skeleton]; unfold k1_part28_skel
  simp only [k1_part29_eq_skeleton]; unfold k1_part29_skel
  simp only [k1_part30_eq_skeleton]; unfold k1_part30_skel
  simp only [k1_part31_eq_skeleton]; unfold k1_part31_skel
  simp only [k1_part32_eq_skeleton]; unfold k1_part32_skel
  simp only [k1_part33_eq_skeleton]; unfold k1_part33_skel
  simp only [k1_part34_eq_skeleton]; unfold k1_part34_skel
  simp only [k1_part35_eq_skeleton]; unfold k1_part35_skel
  simp only [k1_part36_eq_skeleton]; unfold k1_part36_skel
  simp only [k1_part37_eq_skeleton]; unfold k1_part37_skel
  simp only [k1_part38_eq_skeleton]; unfold k1_part38_skel
  simp only [k1_part39_eq_skeleton]; unfold k1_part39_skel
  simp only [k1_part40_eq_skeleton]; unfold k1_part40_skel
  simp only [k1_part41_eq_skeleton]; unfold k1_part41_skel
  simp only [k1_part42_eq_skeleton]; unfold k1_part42_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

end Cert.Kernel.Hand

end
-- ==== Proof.KB.Regions.lean ====
/-
  The two row-tiled layers as pipelines: per region, each window's block at a grid point, the proof data (every
  input buffer keeps its block, the output tile holds the body's value of the five input blocks), and the body
  obligation at a generic point, all stated at a PARAMETER `V`, the buffer contents when the region is entered.
-/
import proofs.«126001_j6975026889201_2_alg».proof.Proof.KB.Body0
import proofs.«126001_j6975026889201_2_alg».proof.Proof.KB.Body1
import proofs.«126001_j6975026889201_2_alg».proof.Proof.Gen.Kernel.Launch
import proofs.«126001_j6975026889201_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: layer 1's pallas_call (pipeline 0), at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- Each input window's current staging buffer holds its block at every point, fetched there or not (a window whose
   block index did not move still holds the block it fetched earlier). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0: the arrays as the region finds them; after the body at point `t` each input's
    buffer still at its block and the output tile at the body's value of the five input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: layer 2's pallas_call (pipeline 1), at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- Each input window's current staging buffer holds its block at every point, fetched there or not (a window whose
   block index did not move still holds the block it fetched earlier). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1: the arrays as the region finds them; after the body at point `t` each input's
    buffer still at its block and the output tile at the body's value of the five input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The run of the whole program: host operations (pad the image by 19, cut the 32 overlapping row tiles, stack
  them), layer 1's pallas_call, the same host operations on layer 1's result, layer 2's pallas_call.  The buffer
  contents at each boundary are a fold from the launch memory; no host operation and no region writes an argument
  array, so each argument is read back through the fold to its launch contents, and the result array holds what
  layer 2's pipeline leaves in it.
-/
import proofs.«126001_j6975026889201_2_alg».proof.Proof.KB.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- After the first stretch of host operations: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
/-- After the second stretch of host operations: region 1's entry. -/
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b
/-- At region 1's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-! ## The arguments end as launched -/

/-- A buffer that no operation of a stretch writes keeps its contents through the stretch: the operations' result
    buffers are told apart from the given one as references. -/
local macro "keep_ops" ops:ident : tactic => `(tactic|
  (refine StableHlo.after_of_forall_not_mem _ _ (List.forall_iff_forall_mem.mp ?_)
   simp only [$ops:ident, List.Forall, StableHlo.TRef.unary, StableHlo.TRef.binary, StableHlo.nullary_writes, StableHlo.unary_writes,
     StableHlo.binary_writes, StableHlo.nary_writes, Finset.mem_singleton]
   repeat' apply And.intro
   all_goals exact StableHlo.devRef_ne_of_ne (by decide)))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keep_ops hostOps0_2
    _ = W1 m ρ c (Proc.devRef .tc main_arg0) := by keep_ops hostOps0_1
    _ = W0 m ρ c (Proc.devRef .tc main_arg0) := by keep_ops hostOps0
    _ = m ((c : Thread nD τ).loc main_arg0) := rfl
theorem W4_main_arg0 (c : Dev nD) : W4 m ρ c (Proc.devRef .tc main_arg0) = m ((c : Thread nD τ).loc main_arg0) :=
  (W4_of_ne m ρ c main_arg0 (by decide)).trans (W3_main_arg0 m ρ c)
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := by keep_ops hostOps1_2
    _ = W5 m ρ c (Proc.devRef .tc main_arg0) := by keep_ops hostOps1_1
    _ = W4 m ρ c (Proc.devRef .tc main_arg0) := by keep_ops hostOps1
    _ = m ((c : Thread nD τ).loc main_arg0) := W4_main_arg0 m ρ c
theorem W8_main_arg0 (c : Dev nD) : W8 m ρ c (Proc.devRef .tc main_arg0) = m ((c : Thread nD τ).loc main_arg0) :=
  (W8_of_ne m ρ c main_arg0 (by decide)).trans (W7_main_arg0 m ρ c)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by keep_ops hostOps0_2
    _ = W1 m ρ c (Proc.devRef .tc main_arg1) := by keep_ops hostOps0_1
    _ = W0 m ρ c (Proc.devRef .tc main_arg1) := by keep_ops hostOps0
    _ = m ((c : Thread nD τ).loc main_arg1) := rfl
theorem W4_main_arg1 (c : Dev nD) : W4 m ρ c (Proc.devRef .tc main_arg1) = m ((c : Thread nD τ).loc main_arg1) :=
  ((W4_arr m ρ c 1).trans (((dat0 (V3 m ρ) c).arrAt_in 1 rfl _).trans (A_eq0 (V3 m ρ) c 1))).trans (W3_main_arg1 m ρ c)
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by keep_ops hostOps1_2
    _ = W5 m ρ c (Proc.devRef .tc main_arg1) := by keep_ops hostOps1_1
    _ = W4 m ρ c (Proc.devRef .tc main_arg1) := by keep_ops hostOps1
    _ = m ((c : Thread nD τ).loc main_arg1) := W4_main_arg1 m ρ c
theorem W8_main_arg1 (c : Dev nD) : W8 m ρ c (Proc.devRef .tc main_arg1) = m ((c : Thread nD τ).loc main_arg1) :=
  ((W8_arr m ρ c 1).trans (((dat1 (V7 m ρ) c).arrAt_in 1 rfl _).trans (A_eq1 (V7 m ρ) c 1))).trans (W7_main_arg1 m ρ c)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by keep_ops hostOps0_2
    _ = W1 m ρ c (Proc.devRef .tc main_arg2) := by keep_ops hostOps0_1
    _ = W0 m ρ c (Proc.devRef .tc main_arg2) := by keep_ops hostOps0
    _ = m ((c : Thread nD τ).loc main_arg2) := rfl
theorem W4_main_arg2 (c : Dev nD) : W4 m ρ c (Proc.devRef .tc main_arg2) = m ((c : Thread nD τ).loc main_arg2) :=
  ((W4_arr m ρ c 2).trans (((dat0 (V3 m ρ) c).arrAt_in 2 rfl _).trans (A_eq0 (V3 m ρ) c 2))).trans (W3_main_arg2 m ρ c)
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by keep_ops hostOps1_2
    _ = W5 m ρ c (Proc.devRef .tc main_arg2) := by keep_ops hostOps1_1
    _ = W4 m ρ c (Proc.devRef .tc main_arg2) := by keep_ops hostOps1
    _ = m ((c : Thread nD τ).loc main_arg2) := W4_main_arg2 m ρ c
theorem W8_main_arg2 (c : Dev nD) : W8 m ρ c (Proc.devRef .tc main_arg2) = m ((c : Thread nD τ).loc main_arg2) :=
  ((W8_arr m ρ c 2).trans (((dat1 (V7 m ρ) c).arrAt_in 2 rfl _).trans (A_eq1 (V7 m ρ) c 2))).trans (W7_main_arg2 m ρ c)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by keep_ops hostOps0_2
    _ = W1 m ρ c (Proc.devRef .tc main_arg3) := by keep_ops hostOps0_1
    _ = W0 m ρ c (Proc.devRef .tc main_arg3) := by keep_ops hostOps0
    _ = m ((c : Thread nD τ).loc main_arg3) := rfl
theorem W4_main_arg3 (c : Dev nD) : W4 m ρ c (Proc.devRef .tc main_arg3) = m ((c : Thread nD τ).loc main_arg3) :=
  ((W4_arr m ρ c 3).trans (((dat0 (V3 m ρ) c).arrAt_in 3 rfl _).trans (A_eq0 (V3 m ρ) c 3))).trans (W3_main_arg3 m ρ c)
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := by keep_ops hostOps1_2
    _ = W5 m ρ c (Proc.devRef .tc main_arg3) := by keep_ops hostOps1_1
    _ = W4 m ρ c (Proc.devRef .tc main_arg3) := by keep_ops hostOps1
    _ = m ((c : Thread nD τ).loc main_arg3) := W4_main_arg3 m ρ c
theorem W8_main_arg3 (c : Dev nD) : W8 m ρ c (Proc.devRef .tc main_arg3) = m ((c : Thread nD τ).loc main_arg3) :=
  ((W8_arr m ρ c 3).trans (((dat1 (V7 m ρ) c).arrAt_in 3 rfl _).trans (A_eq1 (V7 m ρ) c 3))).trans (W7_main_arg3 m ρ c)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by keep_ops hostOps0_2
    _ = W1 m ρ c (Proc.devRef .tc main_arg4) := by keep_ops hostOps0_1
    _ = W0 m ρ c (Proc.devRef .tc main_arg4) := by keep_ops hostOps0
    _ = m ((c : Thread nD τ).loc main_arg4) := rfl
theorem W4_main_arg4 (c : Dev nD) : W4 m ρ c (Proc.devRef .tc main_arg4) = m ((c : Thread nD τ).loc main_arg4) :=
  ((W4_arr m ρ c 4).trans (((dat0 (V3 m ρ) c).arrAt_in 4 rfl _).trans (A_eq0 (V3 m ρ) c 4))).trans (W3_main_arg4 m ρ c)
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by keep_ops hostOps1_2
    _ = W5 m ρ c (Proc.devRef .tc main_arg4) := by keep_ops hostOps1_1
    _ = W4 m ρ c (Proc.devRef .tc main_arg4) := by keep_ops hostOps1
    _ = m ((c : Thread nD τ).loc main_arg4) := W4_main_arg4 m ρ c
theorem W8_main_arg4 (c : Dev nD) : W8 m ρ c (Proc.devRef .tc main_arg4) = m ((c : Thread nD τ).loc main_arg4) :=
  ((W8_arr m ρ c 4).trans (((dat1 (V7 m ρ) c).arrAt_in 4 rfl _).trans (A_eq1 (V7 m ρ) c 4))).trans (W7_main_arg4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W3`, left at `W4`.  Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`.  Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ) ]

theorem main_run (c : Dev nD) : main (F := F) c = Pipeline.Seg.run (segs m ρ) := (main_chain c).trans (by chain_rfl)

set_option backward.isDefEq.respectTransparency.types false in
/-- From any memory with zero counters every weakly fair execution of the program terminates without a fault; in every
    final state the result array holds what layer 2's pipeline leaves in its output array, and the five argument
    arrays are as launched. -/
theorem run_main : θ_run defs (onTc (τ := τ) (main (F := F))) ⟨m, fun _ => 0, ρ⟩ (fun r => ∀ c : Dev nD,
      r.2.mem ((c.tc : Thread nD τ).loc main_v137) = (dat1 (V7 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v137 (by decide))).trans (W8_arr m ρ c 5),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.Kernel.Hand

end
-- ==== Proof.KI.Out0.lean ====
/- The table of rectangles kernel 0's body reads and writes through, and the term its one store writes with every load
   replaced by the read of the input block through the load's rectangle and every part call by the part's returned terms. -/
import proofs.«126001_j6975026889201_2_alg».proof.Proof.Gen.KernelIdeal.Skeleton
import Idealize.ShloMosaic.Lib.Pipeline.FrameBody

set_option maxRecDepth 16384

noncomputable section

namespace Cert.KernelIdeal.Hand

open Idealize.ShloMosaic Cert.KernelIdeal Cert.KernelIdeal.Gen

variable {F : FTy → Type} [FloatOps F]

abbrev q0_S1_S1_0 : Rect S1 := Rect.unit (s := S1) ![0] S1.size inb_S1_S1_0
abbrev q0_S1x70x1062_S1x32x1024_0_19_19 : Rect S1x70x1062 := Rect.unit (s := S1x70x1062) ![0, 19, 19] S1x32x1024.size inb_S1x70x1062_S1x32x1024_0_19_19
abbrev q0_S1x70x1062_S1x32x1024_0_12_17 : Rect S1x70x1062 := Rect.unit (s := S1x70x1062) ![0, 12, 17] S1x32x1024.size inb_S1x70x1062_S1x32x1024_0_12_17
abbrev q0_S1x70x1062_S1x32x1024_0_12_18 : Rect S1x70x1062 := Rect.unit (s := S1x70x1062) ![0, 12, 18] S1x32x1024.size inb_S1x70x1062_S1x32x1024_0_12_18
abbrev q0_S1x70x1062_S1x32x1024_0_12_19 : Rect S1x70x1062 := Rect.unit (s := S1x70x1062) ![0, 12, 19] S1x32x1024.size inb_S1x70x1062_S1x32x1024_0_12_19
abbrev q0_S1x70x1062_S1x32x1024_0_12_20 : Rect S1x70x1062 := Rect.unit (s := S1x70x1062) ![0, 12, 20] S1x32x1024.size inb_S1x70x1062_S1x32x1024_0_12_20
abbrev q0_S1x70x1062_S1x32x1024_0_12_21 : Rect S1x70x1062 := Rect.unit (s := S1x70x1062) ![0, 12, 21] S1x32x1024.size inb_S1x70x1062_S1x32x1024_0_12_21
abbrev q0_S1x70x1062_S1x32x1024_0_13_15 : Rect S1x70x1062 := Rect.unit (s := S1x70x1062) ![0, 13, 15] S1x32x1024.size inb_S1x70x1062_S1x32x1024_0_13_15
abbrev q0_S1x70x1062_S1x32x1024_0_13_16 : Rect S1x70x1062 := Rect.unit (s := S1x70x1062) ![0, 13, 16] S1x32x1024.size inb_S1x70x1062_S1x32x1024_0_13_16
abbrev q0_S1x70x1062_S1x32x1024_0_13_22 : Rect S1x70x1062 := Rect.unit (s := S1x70x1062) ![0, 13, 22] S1x32x1024.size inb_S1x70x1062_S1x32x1024_0_13_22
abbrev q0_S1x70x1062_S1x32x1024_0_13_23 : Rect S1x70x1062 := Rect.unit (s := S1x70x1062) ![0, 13, 23] S1x32x1024.size inb_S1x70x1062_S1x32x1024_0_13_23
abbrev q0_S1x70x1062_S1x32x1024_0_14_14 : Rect S1x70x1062 := Rect.unit (s := S1x70x1062) ![0, 14, 14] S1x32x1024.size inb_S1x70x1062_S1x32x1024_0_14_14
abbrev q0_S1x70x1062_S1x32x1024_0_14_24 : Rect S1x70x1062 := Rect.unit (s := S1x70x1062) ![0, 14, 24] S1x32x1024.size inb_S1x70x1062_S1x32x1024_0_14_24
abbrev q0_S1x70x1062_S1x32x1024_0_15_13 : Rect S1x70x1062 := Rect.unit (s := S1x70x1062) ![0, 15, 13] S1x32x1024.size inb_S1x70x1062_S1x32x1024_0_15_13
abbrev q0_S1x70x1062_S1x32x1024_0_15_25 : Rect S1x70x1062 := Rect.unit (s := S1x70x1062) ![0, 15, 25] S1x32x1024.size inb_S1x70x1062_S1x32x1024_0_15_25
abbrev q0_S1x70x1062_S1x32x1024_0_16_13 : Rect S1x70x1062 := Rect.unit (s := S1x70x1062) ![0, 16, 13] S1x32x1024.size inb_S1x70x1062_S1x32x1024_0_16_13
abbrev q0_S1x70x1062_S1x32x1024_0_16_25 : Rect S1x70x1062 := Rect.unit (s := S1x70x1062) ![0, 16, 25] S1x32x1024.size inb_S1x70x1062_S1x32x1024_0_16_25
abbrev q0_S1x70x1062_S1x32x1024_0_17_12 : Rect S1x70x1062 := Rect.unit (s := S1x70x1062) ![0, 17, 12] S1x32x1024.size inb_S1x70x1062_S1x32x1024_0_17_12
abbrev q0_S1x70x1062_S1x32x1024_0_17_26 : Rect S1x70x1062 := Rect.unit (s := S1x70x1062) ![0, 17, 26] S1x32x1024.size inb_S1x70x1062_S1x32x1024_0_17_26
abbrev q0_S1x70x1062_S1x32x1024_0_18_12 : Rect S1x70x1062 := Rect.unit (s := S1x70x1062) ![0, 18, 12] S1x32x1024.size inb_S1x70x1062_S1x32x1024_0_18_12
abbrev q0_S1x70x1062_S1x32x1024_0_18_26 : Rect S1x70x1062 := Rect.unit (s := S1x70x1062) ![0, 18, 26] S1x32x1024.size inb_S1x70x1062_S1x32x1024_0_18_26
abbrev q0_S1x70x1062_S1x32x1024_0_19_12 : Rect S1x70x1062 := Rect.unit (s := S1x70x1062) ![0, 19, 12] S1x32x1024.size inb_S1x70x1062_S1x32x1024_0_19_12
abbrev q0_S1x70x1062_S1x32x1024_0_19_26 : Rect S1x70x1062 := Rect.unit (s := S1x70x1062) ![0, 19, 26] S1x32x1024.size inb_S1x70x1062_S1x32x1024_0_19_26
abbrev q0_S1x70x1062_S1x32x1024_0_20_12 : Rect S1x70x1062 := Rect.unit (s := S1x70x1062) ![0, 20, 12] S1x32x1024.size inb_S1x70x1062_S1x32x1024_0_20_12
abbrev q0_S1x70x1062_S1x32x1024_0_20_26 : Rect S1x70x1062 := Rect.unit (s := S1x70x1062) ![0, 20, 26] S1x32x1024.size inb_S1x70x1062_S1x32x1024_0_20_26
abbrev q0_S1x70x1062_S1x32x1024_0_21_12 : Rect S1x70x1062 := Rect.unit (s := S1x70x1062) ![0, 21, 12] S1x32x1024.size inb_S1x70x1062_S1x32x1024_0_21_12
abbrev q0_S1x70x1062_S1x32x1024_0_21_26 : Rect S1x70x1062 := Rect.unit (s := S1x70x1062) ![0, 21, 26] S1x32x1024.size inb_S1x70x1062_S1x32x1024_0_21_26
abbrev q0_S1x70x1062_S1x32x1024_0_22_13 : Rect S1x70x1062 := Rect.unit (s := S1x70x1062) ![0, 22, 13] S1x32x1024.size inb_S1x70x1062_S1x32x1024_0_22_13
abbrev q0_S1x70x1062_S1x32x1024_0_22_25 : Rect S1x70x1062 := Rect.unit (s := S1x70x1062) ![0, 22, 25] S1x32x1024.size inb_S1x70x1062_S1x32x1024_0_22_25
abbrev q0_S1x70x1062_S1x32x1024_0_23_13 : Rect S1x70x1062 := Rect.unit (s := S1x70x1062) ![0, 23, 13] S1x32x1024.size inb_S1x70x1062_S1x32x1024_0_23_13
abbrev q0_S1x70x1062_S1x32x1024_0_23_25 : Rect S1x70x1062 := Rect.unit (s := S1x70x1062) ![0, 23, 25] S1x32x1024.size inb_S1x70x1062_S1x32x1024_0_23_25
abbrev q0_S1x70x1062_S1x32x1024_0_24_14 : Rect S1x70x1062 := Rect.unit (s := S1x70x1062) ![0, 24, 14] S1x32x1024.size inb_S1x70x1062_S1x32x1024_0_24_14
abbrev q0_S1x70x1062_S1x32x1024_0_24_24 : Rect S1x70x1062 := Rect.unit (s := S1x70x1062) ![0, 24, 24] S1x32x1024.size inb_S1x70x1062_S1x32x1024_0_24_24
abbrev q0_S1x70x1062_S1x32x1024_0_25_15 : Rect S1x70x1062 := Rect.unit (s := S1x70x1062) ![0, 25, 15] S1x32x1024.size inb_S1x70x1062_S1x32x1024_0_25_15
abbrev q0_S1x70x1062_S1x32x1024_0_25_16 : Rect S1x70x1062 := Rect.unit (s := S1x70x1062) ![0, 25, 16] S1x32x1024.size inb_S1x70x1062_S1x32x1024_0_25_16
abbrev q0_S1x70x1062_S1x32x1024_0_25_22 : Rect S1x70x1062 := Rect.unit (s := S1x70x1062) ![0, 25, 22] S1x32x1024.size inb_S1x70x1062_S1x32x1024_0_25_22
abbrev q0_S1x70x1062_S1x32x1024_0_25_23 : Rect S1x70x1062 := Rect.unit (s := S1x70x1062) ![0, 25, 23] S1x32x1024.size inb_S1x70x1062_S1x32x1024_0_25_23
abbrev q0_S1x70x1062_S1x32x1024_0_26_17 : Rect S1x70x1062 := Rect.unit (s := S1x70x1062) ![0, 26, 17] S1x32x1024.size inb_S1x70x1062_S1x32x1024_0_26_17
abbrev q0_S1x70x1062_S1x32x1024_0_26_18 : Rect S1x70x1062 := Rect.unit (s := S1x70x1062) ![0, 26, 18] S1x32x1024.size inb_S1x70x1062_S1x32x1024_0_26_18
abbrev q0_S1x70x1062_S1x32x1024_0_26_19 : Rect S1x70x1062 := Rect.unit (s := S1x70x1062) ![0, 26, 19] S1x32x1024.size inb_S1x70x1062_S1x32x1024_0_26_19
abbrev q0_S1x70x1062_S1x32x1024_0_26_20 : Rect S1x70x1062 := Rect.unit (s := S1x70x1062) ![0, 26, 20] S1x32x1024.size inb_S1x70x1062_S1x32x1024_0_26_20
abbrev q0_S1x70x1062_S1x32x1024_0_26_21 : Rect S1x70x1062 := Rect.unit (s := S1x70x1062) ![0, 26, 21] S1x32x1024.size inb_S1x70x1062_S1x32x1024_0_26_21
abbrev q0_S1x70x1062_S1x32x1024_0_8_16 : Rect S1x70x1062 := Rect.unit (s := S1x70x1062) ![0, 8, 16] S1x32x1024.size inb_S1x70x1062_S1x32x1024_0_8_16
abbrev q0_S1x70x1062_S1x32x1024_0_8_17 : Rect S1x70x1062 := Rect.unit (s := S1x70x1062) ![0, 8, 17] S1x32x1024.size inb_S1x70x1062_S1x32x1024_0_8_17
abbrev q0_S1x70x1062_S1x32x1024_0_8_18 : Rect S1x70x1062 := Rect.unit (s := S1x70x1062) ![0, 8, 18] S1x32x1024.size inb_S1x70x1062_S1x32x1024_0_8_18
abbrev q0_S1x70x1062_S1x32x1024_0_8_19 : Rect S1x70x1062 := Rect.unit (s := S1x70x1062) ![0, 8, 19] S1x32x1024.size inb_S1x70x1062_S1x32x1024_0_8_19
abbrev q0_S1x70x1062_S1x32x1024_0_8_20 : Rect S1x70x1062 := Rect.unit (s := S1x70x1062) ![0, 8, 20] S1x32x1024.size inb_S1x70x1062_S1x32x1024_0_8_20
abbrev q0_S1x70x1062_S1x32x1024_0_8_21 : Rect S1x70x1062 := Rect.unit (s := S1x70x1062) ![0, 8, 21] S1x32x1024.size inb_S1x70x1062_S1x32x1024_0_8_21
abbrev q0_S1x70x1062_S1x32x1024_0_8_22 : Rect S1x70x1062 := Rect.unit (s := S1x70x1062) ![0, 8, 22] S1x32x1024.size inb_S1x70x1062_S1x32x1024_0_8_22
abbrev q0_S1x70x1062_S1x32x1024_0_9_14 : Rect S1x70x1062 := Rect.unit (s := S1x70x1062) ![0, 9, 14] S1x32x1024.size inb_S1x70x1062_S1x32x1024_0_9_14
abbrev q0_S1x70x1062_S1x32x1024_0_9_15 : Rect S1x70x1062 := Rect.unit (s := S1x70x1062) ![0, 9, 15] S1x32x1024.size inb_S1x70x1062_S1x32x1024_0_9_15
abbrev q0_S1x70x1062_S1x32x1024_0_9_23 : Rect S1x70x1062 := Rect.unit (s := S1x70x1062) ![0, 9, 23] S1x32x1024.size inb_S1x70x1062_S1x32x1024_0_9_23
abbrev q0_S1x70x1062_S1x32x1024_0_9_24 : Rect S1x70x1062 := Rect.unit (s := S1x70x1062) ![0, 9, 24] S1x32x1024.size inb_S1x70x1062_S1x32x1024_0_9_24
abbrev q0_S1x70x1062_S1x32x1024_0_10_12 : Rect S1x70x1062 := Rect.unit (s := S1x70x1062) ![0, 10, 12] S1x32x1024.size inb_S1x70x1062_S1x32x1024_0_10_12
abbrev q0_S1x70x1062_S1x32x1024_0_10_13 : Rect S1x70x1062 := Rect.unit (s := S1x70x1062) ![0, 10, 13] S1x32x1024.size inb_S1x70x1062_S1x32x1024_0_10_13
abbrev q0_S1x70x1062_S1x32x1024_0_10_25 : Rect S1x70x1062 := Rect.unit (s := S1x70x1062) ![0, 10, 25] S1x32x1024.size inb_S1x70x1062_S1x32x1024_0_10_25
abbrev q0_S1x70x1062_S1x32x1024_0_10_26 : Rect S1x70x1062 := Rect.unit (s := S1x70x1062) ![0, 10, 26] S1x32x1024.size inb_S1x70x1062_S1x32x1024_0_10_26
abbrev q0_S1x70x1062_S1x32x1024_0_11_11 : Rect S1x70x1062 := Rect.unit (s := S1x70x1062) ![0, 11, 11] S1x32x1024.size inb_S1x70x1062_S1x32x1024_0_11_11
abbrev q0_S1x70x1062_S1x32x1024_0_11_12 : Rect S1x70x1062 := Rect.unit (s := S1x70x1062) ![0, 11, 12] S1x32x1024.size inb_S1x70x1062_S1x32x1024_0_11_12
abbrev q0_S1x70x1062_S1x32x1024_0_11_26 : Rect S1x70x1062 := Rect.unit (s := S1x70x1062) ![0, 11, 26] S1x32x1024.size inb_S1x70x1062_S1x32x1024_0_11_26
abbrev q0_S1x70x1062_S1x32x1024_0_11_27 : Rect S1x70x1062 := Rect.unit (s := S1x70x1062) ![0, 11, 27] S1x32x1024.size inb_S1x70x1062_S1x32x1024_0_11_27
abbrev q0_S1x70x1062_S1x32x1024_0_12_10 : Rect S1x70x1062 := Rect.unit (s := S1x70x1062) ![0, 12, 10] S1x32x1024.size inb_S1x70x1062_S1x32x1024_0_12_10
abbrev q0_S1x70x1062_S1x32x1024_0_12_11 : Rect S1x70x1062 := Rect.unit (s := S1x70x1062) ![0, 12, 11] S1x32x1024.size inb_S1x70x1062_S1x32x1024_0_12_11
abbrev q0_S1x70x1062_S1x32x1024_0_12_27 : Rect S1x70x1062 := Rect.unit (s := S1x70x1062) ![0, 12, 27] S1x32x1024.size inb_S1x70x1062_S1x32x1024_0_12_27
abbrev q0_S1x70x1062_S1x32x1024_0_12_28 : Rect S1x70x1062 := Rect.unit (s := S1x70x1062) ![0, 12, 28] S1x32x1024.size inb_S1x70x1062_S1x32x1024_0_12_28
abbrev q0_S1x70x1062_S1x32x1024_0_13_10 : Rect S1x70x1062 := Rect.unit (s := S1x70x1062) ![0, 13, 10] S1x32x1024.size inb_S1x70x1062_S1x32x1024_0_13_10
abbrev q0_S1x70x1062_S1x32x1024_0_13_28 : Rect S1x70x1062 := Rect.unit (s := S1x70x1062) ![0, 13, 28] S1x32x1024.size inb_S1x70x1062_S1x32x1024_0_13_28
abbrev q0_S1x70x1062_S1x32x1024_0_14_9 : Rect S1x70x1062 := Rect.unit (s := S1x70x1062) ![0, 14, 9] S1x32x1024.size inb_S1x70x1062_S1x32x1024_0_14_9
abbrev q0_S1x70x1062_S1x32x1024_0_14_29 : Rect S1x70x1062 := Rect.unit (s := S1x70x1062) ![0, 14, 29] S1x32x1024.size inb_S1x70x1062_S1x32x1024_0_14_29
abbrev q0_S1x70x1062_S1x32x1024_0_15_9 : Rect S1x70x1062 := Rect.unit (s := S1x70x1062) ![0, 15, 9] S1x32x1024.size inb_S1x70x1062_S1x32x1024_0_15_9
abbrev q0_S1x70x1062_S1x32x1024_0_15_29 : Rect S1x70x1062 := Rect.unit (s := S1x70x1062) ![0, 15, 29] S1x32x1024.size inb_S1x70x1062_S1x32x1024_0_15_29
abbrev q0_S1x70x1062_S1x32x1024_0_16_8 : Rect S1x70x1062 := Rect.unit (s := S1x70x1062) ![0, 16, 8] S1x32x1024.size inb_S1x70x1062_S1x32x1024_0_16_8
abbrev q0_S1x70x1062_S1x32x1024_0_16_30 : Rect S1x70x1062 := Rect.unit (s := S1x70x1062) ![0, 16, 30] S1x32x1024.size inb_S1x70x1062_S1x32x1024_0_16_30
abbrev q0_S1x70x1062_S1x32x1024_0_17_8 : Rect S1x70x1062 := Rect.unit (s := S1x70x1062) ![0, 17, 8] S1x32x1024.size inb_S1x70x1062_S1x32x1024_0_17_8
abbrev q0_S1x70x1062_S1x32x1024_0_17_30 : Rect S1x70x1062 := Rect.unit (s := S1x70x1062) ![0, 17, 30] S1x32x1024.size inb_S1x70x1062_S1x32x1024_0_17_30
abbrev q0_S1x70x1062_S1x32x1024_0_18_8 : Rect S1x70x1062 := Rect.unit (s := S1x70x1062) ![0, 18, 8] S1x32x1024.size inb_S1x70x1062_S1x32x1024_0_18_8
abbrev q0_S1x70x1062_S1x32x1024_0_18_30 : Rect S1x70x1062 := Rect.unit (s := S1x70x1062) ![0, 18, 30] S1x32x1024.size inb_S1x70x1062_S1x32x1024_0_18_30
abbrev q0_S1x70x1062_S1x32x1024_0_19_8 : Rect S1x70x1062 := Rect.unit (s := S1x70x1062) ![0, 19, 8] S1x32x1024.size inb_S1x70x1062_S1x32x1024_0_19_8
abbrev q0_S1x70x1062_S1x32x1024_0_19_30 : Rect S1x70x1062 := Rect.unit (s := S1x70x1062) ![0, 19, 30] S1x32x1024.size inb_S1x70x1062_S1x32x1024_0_19_30
abbrev q0_S1x70x1062_S1x32x1024_0_20_8 : Rect S1x70x1062 := Rect.unit (s := S1x70x1062) ![0, 20, 8] S1x32x1024.size inb_S1x70x1062_S1x32x1024_0_20_8
abbrev q0_S1x70x1062_S1x32x1024_0_20_30 : Rect S1x70x1062 := Rect.unit (s := S1x70x1062) ![0, 20, 30] S1x32x1024.size inb_S1x70x1062_S1x32x1024_0_20_30
abbrev q0_S1x70x1062_S1x32x1024_0_21_8 : Rect S1x70x1062 := Rect.unit (s := S1x70x1062) ![0, 21, 8] S1x32x1024.size inb_S1x70x1062_S1x32x1024_0_21_8
abbrev q0_S1x70x1062_S1x32x1024_0_21_30 : Rect S1x70x1062 := Rect.unit (s := S1x70x1062) ![0, 21, 30] S1x32x1024.size inb_S1x70x1062_S1x32x1024_0_21_30
abbrev q0_S1x70x1062_S1x32x1024_0_22_8 : Rect S1x70x1062 := Rect.unit (s := S1x70x1062) ![0, 22, 8] S1x32x1024.size inb_S1x70x1062_S1x32x1024_0_22_8
abbrev q0_S1x70x1062_S1x32x1024_0_22_30 : Rect S1x70x1062 := Rect.unit (s := S1x70x1062) ![0, 22, 30] S1x32x1024.size inb_S1x70x1062_S1x32x1024_0_22_30
abbrev q0_S1x70x1062_S1x32x1024_0_23_9 : Rect S1x70x1062 := Rect.unit (s := S1x70x1062) ![0, 23, 9] S1x32x1024.size inb_S1x70x1062_S1x32x1024_0_23_9
abbrev q0_S1x70x1062_S1x32x1024_0_23_29 : Rect S1x70x1062 := Rect.unit (s := S1x70x1062) ![0, 23, 29] S1x32x1024.size inb_S1x70x1062_S1x32x1024_0_23_29
abbrev q0_S1x70x1062_S1x32x1024_0_24_9 : Rect S1x70x1062 := Rect.unit (s := S1x70x1062) ![0, 24, 9] S1x32x1024.size inb_S1x70x1062_S1x32x1024_0_24_9
abbrev q0_S1x70x1062_S1x32x1024_0_24_29 : Rect S1x70x1062 := Rect.unit (s := S1x70x1062) ![0, 24, 29] S1x32x1024.size inb_S1x70x1062_S1x32x1024_0_24_29
abbrev q0_S1x70x1062_S1x32x1024_0_25_10 : Rect S1x70x1062 := Rect.unit (s := S1x70x1062) ![0, 25, 10] S1x32x1024.size inb_S1x70x1062_S1x32x1024_0_25_10
abbrev q0_S1x70x1062_S1x32x1024_0_25_28 : Rect S1x70x1062 := Rect.unit (s := S1x70x1062) ![0, 25, 28] S1x32x1024.size inb_S1x70x1062_S1x32x1024_0_25_28
abbrev q0_S1x70x1062_S1x32x1024_0_26_10 : Rect S1x70x1062 := Rect.unit (s := S1x70x1062) ![0, 26, 10] S1x32x1024.size inb_S1x70x1062_S1x32x1024_0_26_10
abbrev q0_S1x70x1062_S1x32x1024_0_26_11 : Rect S1x70x1062 := Rect.unit (s := S1x70x1062) ![0, 26, 11] S1x32x1024.size inb_S1x70x1062_S1x32x1024_0_26_11
abbrev q0_S1x70x1062_S1x32x1024_0_26_27 : Rect S1x70x1062 := Rect.unit (s := S1x70x1062) ![0, 26, 27] S1x32x1024.size inb_S1x70x1062_S1x32x1024_0_26_27
abbrev q0_S1x70x1062_S1x32x1024_0_26_28 : Rect S1x70x1062 := Rect.unit (s := S1x70x1062) ![0, 26, 28] S1x32x1024.size inb_S1x70x1062_S1x32x1024_0_26_28
abbrev q0_S1x70x1062_S1x32x1024_0_27_11 : Rect S1x70x1062 := Rect.unit (s := S1x70x1062) ![0, 27, 11] S1x32x1024.size inb_S1x70x1062_S1x32x1024_0_27_11
abbrev q0_S1x70x1062_S1x32x1024_0_27_12 : Rect S1x70x1062 := Rect.unit (s := S1x70x1062) ![0, 27, 12] S1x32x1024.size inb_S1x70x1062_S1x32x1024_0_27_12
abbrev q0_S1x70x1062_S1x32x1024_0_27_26 : Rect S1x70x1062 := Rect.unit (s := S1x70x1062) ![0, 27, 26] S1x32x1024.size inb_S1x70x1062_S1x32x1024_0_27_26
abbrev q0_S1x70x1062_S1x32x1024_0_27_27 : Rect S1x70x1062 := Rect.unit (s := S1x70x1062) ![0, 27, 27] S1x32x1024.size inb_S1x70x1062_S1x32x1024_0_27_27
abbrev q0_S1x70x1062_S1x32x1024_0_28_12 : Rect S1x70x1062 := Rect.unit (s := S1x70x1062) ![0, 28, 12] S1x32x1024.size inb_S1x70x1062_S1x32x1024_0_28_12
abbrev q0_S1x70x1062_S1x32x1024_0_28_13 : Rect S1x70x1062 := Rect.unit (s := S1x70x1062) ![0, 28, 13] S1x32x1024.size inb_S1x70x1062_S1x32x1024_0_28_13
abbrev q0_S1x70x1062_S1x32x1024_0_28_25 : Rect S1x70x1062 := Rect.unit (s := S1x70x1062) ![0, 28, 25] S1x32x1024.size inb_S1x70x1062_S1x32x1024_0_28_25
abbrev q0_S1x70x1062_S1x32x1024_0_28_26 : Rect S1x70x1062 := Rect.unit (s := S1x70x1062) ![0, 28, 26] S1x32x1024.size inb_S1x70x1062_S1x32x1024_0_28_26
abbrev q0_S1x70x1062_S1x32x1024_0_29_14 : Rect S1x70x1062 := Rect.unit (s := S1x70x1062) ![0, 29, 14] S1x32x1024.size inb_S1x70x1062_S1x32x1024_0_29_14
abbrev q0_S1x70x1062_S1x32x1024_0_29_15 : Rect S1x70x1062 := Rect.unit (s := S1x70x1062) ![0, 29, 15] S1x32x1024.size inb_S1x70x1062_S1x32x1024_0_29_15
abbrev q0_S1x70x1062_S1x32x1024_0_29_23 : Rect S1x70x1062 := Rect.unit (s := S1x70x1062) ![0, 29, 23] S1x32x1024.size inb_S1x70x1062_S1x32x1024_0_29_23
abbrev q0_S1x70x1062_S1x32x1024_0_29_24 : Rect S1x70x1062 := Rect.unit (s := S1x70x1062) ![0, 29, 24] S1x32x1024.size inb_S1x70x1062_S1x32x1024_0_29_24
abbrev q0_S1x70x1062_S1x32x1024_0_30_16 : Rect S1x70x1062 := Rect.unit (s := S1x70x1062) ![0, 30, 16] S1x32x1024.size inb_S1x70x1062_S1x32x1024_0_30_16
abbrev q0_S1x70x1062_S1x32x1024_0_30_17 : Rect S1x70x1062 := Rect.unit (s := S1x70x1062) ![0, 30, 17] S1x32x1024.size inb_S1x70x1062_S1x32x1024_0_30_17
abbrev q0_S1x70x1062_S1x32x1024_0_30_18 : Rect S1x70x1062 := Rect.unit (s := S1x70x1062) ![0, 30, 18] S1x32x1024.size inb_S1x70x1062_S1x32x1024_0_30_18
abbrev q0_S1x70x1062_S1x32x1024_0_30_19 : Rect S1x70x1062 := Rect.unit (s := S1x70x1062) ![0, 30, 19] S1x32x1024.size inb_S1x70x1062_S1x32x1024_0_30_19
abbrev q0_S1x70x1062_S1x32x1024_0_30_20 : Rect S1x70x1062 := Rect.unit (s := S1x70x1062) ![0, 30, 20] S1x32x1024.size inb_S1x70x1062_S1x32x1024_0_30_20
abbrev q0_S1x70x1062_S1x32x1024_0_30_21 : Rect S1x70x1062 := Rect.unit (s := S1x70x1062) ![0, 30, 21] S1x32x1024.size inb_S1x70x1062_S1x32x1024_0_30_21
abbrev q0_S1x70x1062_S1x32x1024_0_30_22 : Rect S1x70x1062 := Rect.unit (s := S1x70x1062) ![0, 30, 22] S1x32x1024.size inb_S1x70x1062_S1x32x1024_0_30_22
abbrev q0_S1x70x1062_S1x32x1024_0_4_16 : Rect S1x70x1062 := Rect.unit (s := S1x70x1062) ![0, 4, 16] S1x32x1024.size inb_S1x70x1062_S1x32x1024_0_4_16
abbrev q0_S1x70x1062_S1x32x1024_0_4_17 : Rect S1x70x1062 := Rect.unit (s := S1x70x1062) ![0, 4, 17] S1x32x1024.size inb_S1x70x1062_S1x32x1024_0_4_17
abbrev q0_S1x70x1062_S1x32x1024_0_4_18 : Rect S1x70x1062 := Rect.unit (s := S1x70x1062) ![0, 4, 18] S1x32x1024.size inb_S1x70x1062_S1x32x1024_0_4_18
abbrev q0_S1x70x1062_S1x32x1024_0_4_19 : Rect S1x70x1062 := Rect.unit (s := S1x70x1062) ![0, 4, 19] S1x32x1024.size inb_S1x70x1062_S1x32x1024_0_4_19
abbrev q0_S1x70x1062_S1x32x1024_0_4_20 : Rect S1x70x1062 := Rect.unit (s := S1x70x1062) ![0, 4, 20] S1x32x1024.size inb_S1x70x1062_S1x32x1024_0_4_20
abbrev q0_S1x70x1062_S1x32x1024_0_4_21 : Rect S1x70x1062 := Rect.unit (s := S1x70x1062) ![0, 4, 21] S1x32x1024.size inb_S1x70x1062_S1x32x1024_0_4_21
abbrev q0_S1x70x1062_S1x32x1024_0_4_22 : Rect S1x70x1062 := Rect.unit (s := S1x70x1062) ![0, 4, 22] S1x32x1024.size inb_S1x70x1062_S1x32x1024_0_4_22
abbrev q0_S1x70x1062_S1x32x1024_0_5_13 : Rect S1x70x1062 := Rect.unit (s := S1x70x1062) ![0, 5, 13] S1x32x1024.size inb_S1x70x1062_S1x32x1024_0_5_13
abbrev q0_S1x70x1062_S1x32x1024_0_5_14 : Rect S1x70x1062 := Rect.unit (s := S1x70x1062) ![0, 5, 14] S1x32x1024.size inb_S1x70x1062_S1x32x1024_0_5_14
abbrev q0_S1x70x1062_S1x32x1024_0_5_15 : Rect S1x70x1062 := Rect.unit (s := S1x70x1062) ![0, 5, 15] S1x32x1024.size inb_S1x70x1062_S1x32x1024_0_5_15
abbrev q0_S1x70x1062_S1x32x1024_0_5_23 : Rect S1x70x1062 := Rect.unit (s := S1x70x1062) ![0, 5, 23] S1x32x1024.size inb_S1x70x1062_S1x32x1024_0_5_23
abbrev q0_S1x70x1062_S1x32x1024_0_5_24 : Rect S1x70x1062 := Rect.unit (s := S1x70x1062) ![0, 5, 24] S1x32x1024.size inb_S1x70x1062_S1x32x1024_0_5_24
abbrev q0_S1x70x1062_S1x32x1024_0_5_25 : Rect S1x70x1062 := Rect.unit (s := S1x70x1062) ![0, 5, 25] S1x32x1024.size inb_S1x70x1062_S1x32x1024_0_5_25
abbrev q0_S1x70x1062_S1x32x1024_0_6_11 : Rect S1x70x1062 := Rect.unit (s := S1x70x1062) ![0, 6, 11] S1x32x1024.size inb_S1x70x1062_S1x32x1024_0_6_11
abbrev q0_S1x70x1062_S1x32x1024_0_6_12 : Rect S1x70x1062 := Rect.unit (s := S1x70x1062) ![0, 6, 12] S1x32x1024.size inb_S1x70x1062_S1x32x1024_0_6_12
abbrev q0_S1x70x1062_S1x32x1024_0_6_26 : Rect S1x70x1062 := Rect.unit (s := S1x70x1062) ![0, 6, 26] S1x32x1024.size inb_S1x70x1062_S1x32x1024_0_6_26
abbrev q0_S1x70x1062_S1x32x1024_0_6_27 : Rect S1x70x1062 := Rect.unit (s := S1x70x1062) ![0, 6, 27] S1x32x1024.size inb_S1x70x1062_S1x32x1024_0_6_27
abbrev q0_S1x70x1062_S1x32x1024_0_7_10 : Rect S1x70x1062 := Rect.unit (s := S1x70x1062) ![0, 7, 10] S1x32x1024.size inb_S1x70x1062_S1x32x1024_0_7_10
abbrev q0_S1x70x1062_S1x32x1024_0_7_28 : Rect S1x70x1062 := Rect.unit (s := S1x70x1062) ![0, 7, 28] S1x32x1024.size inb_S1x70x1062_S1x32x1024_0_7_28
abbrev q0_S1x70x1062_S1x32x1024_0_8_9 : Rect S1x70x1062 := Rect.unit (s := S1x70x1062) ![0, 8, 9] S1x32x1024.size inb_S1x70x1062_S1x32x1024_0_8_9
abbrev q0_S1x70x1062_S1x32x1024_0_8_29 : Rect S1x70x1062 := Rect.unit (s := S1x70x1062) ![0, 8, 29] S1x32x1024.size inb_S1x70x1062_S1x32x1024_0_8_29
abbrev q0_S1x70x1062_S1x32x1024_0_9_8 : Rect S1x70x1062 := Rect.unit (s := S1x70x1062) ![0, 9, 8] S1x32x1024.size inb_S1x70x1062_S1x32x1024_0_9_8
abbrev q0_S1x70x1062_S1x32x1024_0_9_30 : Rect S1x70x1062 := Rect.unit (s := S1x70x1062) ![0, 9, 30] S1x32x1024.size inb_S1x70x1062_S1x32x1024_0_9_30
abbrev q0_S1x70x1062_S1x32x1024_0_10_7 : Rect S1x70x1062 := Rect.unit (s := S1x70x1062) ![0, 10, 7] S1x32x1024.size inb_S1x70x1062_S1x32x1024_0_10_7
abbrev q0_S1x70x1062_S1x32x1024_0_10_31 : Rect S1x70x1062 := Rect.unit (s := S1x70x1062) ![0, 10, 31] S1x32x1024.size inb_S1x70x1062_S1x32x1024_0_10_31
abbrev q0_S1x70x1062_S1x32x1024_0_11_6 : Rect S1x70x1062 := Rect.unit (s := S1x70x1062) ![0, 11, 6] S1x32x1024.size inb_S1x70x1062_S1x32x1024_0_11_6
abbrev q0_S1x70x1062_S1x32x1024_0_11_32 : Rect S1x70x1062 := Rect.unit (s := S1x70x1062) ![0, 11, 32] S1x32x1024.size inb_S1x70x1062_S1x32x1024_0_11_32
abbrev q0_S1x70x1062_S1x32x1024_0_12_6 : Rect S1x70x1062 := Rect.unit (s := S1x70x1062) ![0, 12, 6] S1x32x1024.size inb_S1x70x1062_S1x32x1024_0_12_6
abbrev q0_S1x70x1062_S1x32x1024_0_12_32 : Rect S1x70x1062 := Rect.unit (s := S1x70x1062) ![0, 12, 32] S1x32x1024.size inb_S1x70x1062_S1x32x1024_0_12_32
abbrev q0_S1x70x1062_S1x32x1024_0_13_5 : Rect S1x70x1062 := Rect.unit (s := S1x70x1062) ![0, 13, 5] S1x32x1024.size inb_S1x70x1062_S1x32x1024_0_13_5
abbrev q0_S1x70x1062_S1x32x1024_0_13_33 : Rect S1x70x1062 := Rect.unit (s := S1x70x1062) ![0, 13, 33] S1x32x1024.size inb_S1x70x1062_S1x32x1024_0_13_33
abbrev q0_S1x70x1062_S1x32x1024_0_14_5 : Rect S1x70x1062 := Rect.unit (s := S1x70x1062) ![0, 14, 5] S1x32x1024.size inb_S1x70x1062_S1x32x1024_0_14_5
abbrev q0_S1x70x1062_S1x32x1024_0_14_33 : Rect S1x70x1062 := Rect.unit (s := S1x70x1062) ![0, 14, 33] S1x32x1024.size inb_S1x70x1062_S1x32x1024_0_14_33
abbrev q0_S1x70x1062_S1x32x1024_0_15_5 : Rect S1x70x1062 := Rect.unit (s := S1x70x1062) ![0, 15, 5] S1x32x1024.size inb_S1x70x1062_S1x32x1024_0_15_5
abbrev q0_S1x70x1062_S1x32x1024_0_15_33 : Rect S1x70x1062 := Rect.unit (s := S1x70x1062) ![0, 15, 33] S1x32x1024.size inb_S1x70x1062_S1x32x1024_0_15_33
abbrev q0_S1x70x1062_S1x32x1024_0_16_4 : Rect S1x70x1062 := Rect.unit (s := S1x70x1062) ![0, 16, 4] S1x32x1024.size inb_S1x70x1062_S1x32x1024_0_16_4
abbrev q0_S1x70x1062_S1x32x1024_0_16_34 : Rect S1x70x1062 := Rect.unit (s := S1x70x1062) ![0, 16, 34] S1x32x1024.size inb_S1x70x1062_S1x32x1024_0_16_34
abbrev q0_S1x70x1062_S1x32x1024_0_17_4 : Rect S1x70x1062 := Rect.unit (s := S1x70x1062) ![0, 17, 4] S1x32x1024.size inb_S1x70x1062_S1x32x1024_0_17_4
abbrev q0_S1x70x1062_S1x32x1024_0_17_34 : Rect S1x70x1062 := Rect.unit (s := S1x70x1062) ![0, 17, 34] S1x32x1024.size inb_S1x70x1062_S1x32x1024_0_17_34
abbrev q0_S1x70x1062_S1x32x1024_0_18_4 : Rect S1x70x1062 := Rect.unit (s := S1x70x1062) ![0, 18, 4] S1x32x1024.size inb_S1x70x1062_S1x32x1024_0_18_4
abbrev q0_S1x70x1062_S1x32x1024_0_18_34 : Rect S1x70x1062 := Rect.unit (s := S1x70x1062) ![0, 18, 34] S1x32x1024.size inb_S1x70x1062_S1x32x1024_0_18_34
abbrev q0_S1x70x1062_S1x32x1024_0_19_4 : Rect S1x70x1062 := Rect.unit (s := S1x70x1062) ![0, 19, 4] S1x32x1024.size inb_S1x70x1062_S1x32x1024_0_19_4
abbrev q0_S1x70x1062_S1x32x1024_0_19_34 : Rect S1x70x1062 := Rect.unit (s := S1x70x1062) ![0, 19, 34] S1x32x1024.size inb_S1x70x1062_S1x32x1024_0_19_34
abbrev q0_S1x70x1062_S1x32x1024_0_20_4 : Rect S1x70x1062 := Rect.unit (s := S1x70x1062) ![0, 20, 4] S1x32x1024.size inb_S1x70x1062_S1x32x1024_0_20_4
abbrev q0_S1x70x1062_S1x32x1024_0_20_34 : Rect S1x70x1062 := Rect.unit (s := S1x70x1062) ![0, 20, 34] S1x32x1024.size inb_S1x70x1062_S1x32x1024_0_20_34
abbrev q0_S1x70x1062_S1x32x1024_0_21_4 : Rect S1x70x1062 := Rect.unit (s := S1x70x1062) ![0, 21, 4] S1x32x1024.size inb_S1x70x1062_S1x32x1024_0_21_4
abbrev q0_S1x70x1062_S1x32x1024_0_21_34 : Rect S1x70x1062 := Rect.unit (s := S1x70x1062) ![0, 21, 34] S1x32x1024.size inb_S1x70x1062_S1x32x1024_0_21_34
abbrev q0_S1x70x1062_S1x32x1024_0_22_4 : Rect S1x70x1062 := Rect.unit (s := S1x70x1062) ![0, 22, 4] S1x32x1024.size inb_S1x70x1062_S1x32x1024_0_22_4
abbrev q0_S1x70x1062_S1x32x1024_0_22_34 : Rect S1x70x1062 := Rect.unit (s := S1x70x1062) ![0, 22, 34] S1x32x1024.size inb_S1x70x1062_S1x32x1024_0_22_34
abbrev q0_S1x70x1062_S1x32x1024_0_23_5 : Rect S1x70x1062 := Rect.unit (s := S1x70x1062) ![0, 23, 5] S1x32x1024.size inb_S1x70x1062_S1x32x1024_0_23_5
abbrev q0_S1x70x1062_S1x32x1024_0_23_33 : Rect S1x70x1062 := Rect.unit (s := S1x70x1062) ![0, 23, 33] S1x32x1024.size inb_S1x70x1062_S1x32x1024_0_23_33
abbrev q0_S1x70x1062_S1x32x1024_0_24_5 : Rect S1x70x1062 := Rect.unit (s := S1x70x1062) ![0, 24, 5] S1x32x1024.size inb_S1x70x1062_S1x32x1024_0_24_5
abbrev q0_S1x70x1062_S1x32x1024_0_24_33 : Rect S1x70x1062 := Rect.unit (s := S1x70x1062) ![0, 24, 33] S1x32x1024.size inb_S1x70x1062_S1x32x1024_0_24_33
abbrev q0_S1x70x1062_S1x32x1024_0_25_5 : Rect S1x70x1062 := Rect.unit (s := S1x70x1062) ![0, 25, 5] S1x32x1024.size inb_S1x70x1062_S1x32x1024_0_25_5
abbrev q0_S1x70x1062_S1x32x1024_0_25_33 : Rect S1x70x1062 := Rect.unit (s := S1x70x1062) ![0, 25, 33] S1x32x1024.size inb_S1x70x1062_S1x32x1024_0_25_33
abbrev q0_S1x70x1062_S1x32x1024_0_26_6 : Rect S1x70x1062 := Rect.unit (s := S1x70x1062) ![0, 26, 6] S1x32x1024.size inb_S1x70x1062_S1x32x1024_0_26_6
abbrev q0_S1x70x1062_S1x32x1024_0_26_32 : Rect S1x70x1062 := Rect.unit (s := S1x70x1062) ![0, 26, 32] S1x32x1024.size inb_S1x70x1062_S1x32x1024_0_26_32
abbrev q0_S1x70x1062_S1x32x1024_0_27_6 : Rect S1x70x1062 := Rect.unit (s := S1x70x1062) ![0, 27, 6] S1x32x1024.size inb_S1x70x1062_S1x32x1024_0_27_6
abbrev q0_S1x70x1062_S1x32x1024_0_27_32 : Rect S1x70x1062 := Rect.unit (s := S1x70x1062) ![0, 27, 32] S1x32x1024.size inb_S1x70x1062_S1x32x1024_0_27_32
abbrev q0_S1x70x1062_S1x32x1024_0_28_7 : Rect S1x70x1062 := Rect.unit (s := S1x70x1062) ![0, 28, 7] S1x32x1024.size inb_S1x70x1062_S1x32x1024_0_28_7
abbrev q0_S1x70x1062_S1x32x1024_0_28_31 : Rect S1x70x1062 := Rect.unit (s := S1x70x1062) ![0, 28, 31] S1x32x1024.size inb_S1x70x1062_S1x32x1024_0_28_31
abbrev q0_S1x70x1062_S1x32x1024_0_29_8 : Rect S1x70x1062 := Rect.unit (s := S1x70x1062) ![0, 29, 8] S1x32x1024.size inb_S1x70x1062_S1x32x1024_0_29_8
abbrev q0_S1x70x1062_S1x32x1024_0_29_30 : Rect S1x70x1062 := Rect.unit (s := S1x70x1062) ![0, 29, 30] S1x32x1024.size inb_S1x70x1062_S1x32x1024_0_29_30
abbrev q0_S1x70x1062_S1x32x1024_0_30_9 : Rect S1x70x1062 := Rect.unit (s := S1x70x1062) ![0, 30, 9] S1x32x1024.size inb_S1x70x1062_S1x32x1024_0_30_9
abbrev q0_S1x70x1062_S1x32x1024_0_30_29 : Rect S1x70x1062 := Rect.unit (s := S1x70x1062) ![0, 30, 29] S1x32x1024.size inb_S1x70x1062_S1x32x1024_0_30_29
abbrev q0_S1x70x1062_S1x32x1024_0_31_10 : Rect S1x70x1062 := Rect.unit (s := S1x70x1062) ![0, 31, 10] S1x32x1024.size inb_S1x70x1062_S1x32x1024_0_31_10
abbrev q0_S1x70x1062_S1x32x1024_0_31_28 : Rect S1x70x1062 := Rect.unit (s := S1x70x1062) ![0, 31, 28] S1x32x1024.size inb_S1x70x1062_S1x32x1024_0_31_28
abbrev q0_S1x70x1062_S1x32x1024_0_32_11 : Rect S1x70x1062 := Rect.unit (s := S1x70x1062) ![0, 32, 11] S1x32x1024.size inb_S1x70x1062_S1x32x1024_0_32_11
abbrev q0_S1x70x1062_S1x32x1024_0_32_12 : Rect S1x70x1062 := Rect.unit (s := S1x70x1062) ![0, 32, 12] S1x32x1024.size inb_S1x70x1062_S1x32x1024_0_32_12
abbrev q0_S1x70x1062_S1x32x1024_0_32_26 : Rect S1x70x1062 := Rect.unit (s := S1x70x1062) ![0, 32, 26] S1x32x1024.size inb_S1x70x1062_S1x32x1024_0_32_26
abbrev q0_S1x70x1062_S1x32x1024_0_32_27 : Rect S1x70x1062 := Rect.unit (s := S1x70x1062) ![0, 32, 27] S1x32x1024.size inb_S1x70x1062_S1x32x1024_0_32_27
abbrev q0_S1x70x1062_S1x32x1024_0_33_13 : Rect S1x70x1062 := Rect.unit (s := S1x70x1062) ![0, 33, 13] S1x32x1024.size inb_S1x70x1062_S1x32x1024_0_33_13
abbrev q0_S1x70x1062_S1x32x1024_0_33_14 : Rect S1x70x1062 := Rect.unit (s := S1x70x1062) ![0, 33, 14] S1x32x1024.size inb_S1x70x1062_S1x32x1024_0_33_14
abbrev q0_S1x70x1062_S1x32x1024_0_33_15 : Rect S1x70x1062 := Rect.unit (s := S1x70x1062) ![0, 33, 15] S1x32x1024.size inb_S1x70x1062_S1x32x1024_0_33_15
abbrev q0_S1x70x1062_S1x32x1024_0_33_23 : Rect S1x70x1062 := Rect.unit (s := S1x70x1062) ![0, 33, 23] S1x32x1024.size inb_S1x70x1062_S1x32x1024_0_33_23
abbrev q0_S1x70x1062_S1x32x1024_0_33_24 : Rect S1x70x1062 := Rect.unit (s := S1x70x1062) ![0, 33, 24] S1x32x1024.size inb_S1x70x1062_S1x32x1024_0_33_24
abbrev q0_S1x70x1062_S1x32x1024_0_33_25 : Rect S1x70x1062 := Rect.unit (s := S1x70x1062) ![0, 33, 25] S1x32x1024.size inb_S1x70x1062_S1x32x1024_0_33_25
abbrev q0_S1x70x1062_S1x32x1024_0_34_16 : Rect S1x70x1062 := Rect.unit (s := S1x70x1062) ![0, 34, 16] S1x32x1024.size inb_S1x70x1062_S1x32x1024_0_34_16
abbrev q0_S1x70x1062_S1x32x1024_0_34_17 : Rect S1x70x1062 := Rect.unit (s := S1x70x1062) ![0, 34, 17] S1x32x1024.size inb_S1x70x1062_S1x32x1024_0_34_17
abbrev q0_S1x70x1062_S1x32x1024_0_34_18 : Rect S1x70x1062 := Rect.unit (s := S1x70x1062) ![0, 34, 18] S1x32x1024.size inb_S1x70x1062_S1x32x1024_0_34_18
abbrev q0_S1x70x1062_S1x32x1024_0_34_19 : Rect S1x70x1062 := Rect.unit (s := S1x70x1062) ![0, 34, 19] S1x32x1024.size inb_S1x70x1062_S1x32x1024_0_34_19
abbrev q0_S1x70x1062_S1x32x1024_0_34_20 : Rect S1x70x1062 := Rect.unit (s := S1x70x1062) ![0, 34, 20] S1x32x1024.size inb_S1x70x1062_S1x32x1024_0_34_20
abbrev q0_S1x70x1062_S1x32x1024_0_34_21 : Rect S1x70x1062 := Rect.unit (s := S1x70x1062) ![0, 34, 21] S1x32x1024.size inb_S1x70x1062_S1x32x1024_0_34_21
abbrev q0_S1x70x1062_S1x32x1024_0_34_22 : Rect S1x70x1062 := Rect.unit (s := S1x70x1062) ![0, 34, 22] S1x32x1024.size inb_S1x70x1062_S1x32x1024_0_34_22
abbrev q0_S1x70x1062_S1x32x1024_0_0_15 : Rect S1x70x1062 := Rect.unit (s := S1x70x1062) ![0, 0, 15] S1x32x1024.size inb_S1x70x1062_S1x32x1024_0_0_15
abbrev q0_S1x70x1062_S1x32x1024_0_0_16 : Rect S1x70x1062 := Rect.unit (s := S1x70x1062) ![0, 0, 16] S1x32x1024.size inb_S1x70x1062_S1x32x1024_0_0_16
abbrev q0_S1x70x1062_S1x32x1024_0_0_17 : Rect S1x70x1062 := Rect.unit (s := S1x70x1062) ![0, 0, 17] S1x32x1024.size inb_S1x70x1062_S1x32x1024_0_0_17
abbrev q0_S1x70x1062_S1x32x1024_0_0_18 : Rect S1x70x1062 := Rect.unit (s := S1x70x1062) ![0, 0, 18] S1x32x1024.size inb_S1x70x1062_S1x32x1024_0_0_18
abbrev q0_S1x70x1062_S1x32x1024_0_0_19 : Rect S1x70x1062 := Rect.unit (s := S1x70x1062) ![0, 0, 19] S1x32x1024.size inb_S1x70x1062_S1x32x1024_0_0_19
abbrev q0_S1x70x1062_S1x32x1024_0_0_20 : Rect S1x70x1062 := Rect.unit (s := S1x70x1062) ![0, 0, 20] S1x32x1024.size inb_S1x70x1062_S1x32x1024_0_0_20
abbrev q0_S1x70x1062_S1x32x1024_0_0_21 : Rect S1x70x1062 := Rect.unit (s := S1x70x1062) ![0, 0, 21] S1x32x1024.size inb_S1x70x1062_S1x32x1024_0_0_21
abbrev q0_S1x70x1062_S1x32x1024_0_0_22 : Rect S1x70x1062 := Rect.unit (s := S1x70x1062) ![0, 0, 22] S1x32x1024.size inb_S1x70x1062_S1x32x1024_0_0_22
abbrev q0_S1x70x1062_S1x32x1024_0_0_23 : Rect S1x70x1062 := Rect.unit (s := S1x70x1062) ![0, 0, 23] S1x32x1024.size inb_S1x70x1062_S1x32x1024_0_0_23
abbrev q0_S1x70x1062_S1x32x1024_0_1_12 : Rect S1x70x1062 := Rect.unit (s := S1x70x1062) ![0, 1, 12] S1x32x1024.size inb_S1x70x1062_S1x32x1024_0_1_12
abbrev q0_S1x70x1062_S1x32x1024_0_1_13 : Rect S1x70x1062 := Rect.unit (s := S1x70x1062) ![0, 1, 13] S1x32x1024.size inb_S1x70x1062_S1x32x1024_0_1_13
abbrev q0_S1x70x1062_S1x32x1024_0_1_14 : Rect S1x70x1062 := Rect.unit (s := S1x70x1062) ![0, 1, 14] S1x32x1024.size inb_S1x70x1062_S1x32x1024_0_1_14
abbrev q0_S1x70x1062_S1x32x1024_0_1_24 : Rect S1x70x1062 := Rect.unit (s := S1x70x1062) ![0, 1, 24] S1x32x1024.size inb_S1x70x1062_S1x32x1024_0_1_24
abbrev q0_S1x70x1062_S1x32x1024_0_1_25 : Rect S1x70x1062 := Rect.unit (s := S1x70x1062) ![0, 1, 25] S1x32x1024.size inb_S1x70x1062_S1x32x1024_0_1_25
abbrev q0_S1x70x1062_S1x32x1024_0_1_26 : Rect S1x70x1062 := Rect.unit (s := S1x70x1062) ![0, 1, 26] S1x32x1024.size inb_S1x70x1062_S1x32x1024_0_1_26
abbrev q0_S1x70x1062_S1x32x1024_0_2_10 : Rect S1x70x1062 := Rect.unit (s := S1x70x1062) ![0, 2, 10] S1x32x1024.size inb_S1x70x1062_S1x32x1024_0_2_10
abbrev q0_S1x70x1062_S1x32x1024_0_2_11 : Rect S1x70x1062 := Rect.unit (s := S1x70x1062) ![0, 2, 11] S1x32x1024.size inb_S1x70x1062_S1x32x1024_0_2_11
abbrev q0_S1x70x1062_S1x32x1024_0_2_27 : Rect S1x70x1062 := Rect.unit (s := S1x70x1062) ![0, 2, 27] S1x32x1024.size inb_S1x70x1062_S1x32x1024_0_2_27
abbrev q0_S1x70x1062_S1x32x1024_0_2_28 : Rect S1x70x1062 := Rect.unit (s := S1x70x1062) ![0, 2, 28] S1x32x1024.size inb_S1x70x1062_S1x32x1024_0_2_28
abbrev q0_S1x70x1062_S1x32x1024_0_3_8 : Rect S1x70x1062 := Rect.unit (s := S1x70x1062) ![0, 3, 8] S1x32x1024.size inb_S1x70x1062_S1x32x1024_0_3_8
abbrev q0_S1x70x1062_S1x32x1024_0_3_9 : Rect S1x70x1062 := Rect.unit (s := S1x70x1062) ![0, 3, 9] S1x32x1024.size inb_S1x70x1062_S1x32x1024_0_3_9
abbrev q0_S1x70x1062_S1x32x1024_0_3_29 : Rect S1x70x1062 := Rect.unit (s := S1x70x1062) ![0, 3, 29] S1x32x1024.size inb_S1x70x1062_S1x32x1024_0_3_29
abbrev q0_S1x70x1062_S1x32x1024_0_3_30 : Rect S1x70x1062 := Rect.unit (s := S1x70x1062) ![0, 3, 30] S1x32x1024.size inb_S1x70x1062_S1x32x1024_0_3_30
abbrev q0_S1x70x1062_S1x32x1024_0_4_7 : Rect S1x70x1062 := Rect.unit (s := S1x70x1062) ![0, 4, 7] S1x32x1024.size inb_S1x70x1062_S1x32x1024_0_4_7
abbrev q0_S1x70x1062_S1x32x1024_0_4_8 : Rect S1x70x1062 := Rect.unit (s := S1x70x1062) ![0, 4, 8] S1x32x1024.size inb_S1x70x1062_S1x32x1024_0_4_8
abbrev q0_S1x70x1062_S1x32x1024_0_4_30 : Rect S1x70x1062 := Rect.unit (s := S1x70x1062) ![0, 4, 30] S1x32x1024.size inb_S1x70x1062_S1x32x1024_0_4_30
abbrev q0_S1x70x1062_S1x32x1024_0_4_31 : Rect S1x70x1062 := Rect.unit (s := S1x70x1062) ![0, 4, 31] S1x32x1024.size inb_S1x70x1062_S1x32x1024_0_4_31
abbrev q0_S1x70x1062_S1x32x1024_0_5_6 : Rect S1x70x1062 := Rect.unit (s := S1x70x1062) ![0, 5, 6] S1x32x1024.size inb_S1x70x1062_S1x32x1024_0_5_6
abbrev q0_S1x70x1062_S1x32x1024_0_5_32 : Rect S1x70x1062 := Rect.unit (s := S1x70x1062) ![0, 5, 32] S1x32x1024.size inb_S1x70x1062_S1x32x1024_0_5_32
abbrev q0_S1x70x1062_S1x32x1024_0_6_5 : Rect S1x70x1062 := Rect.unit (s := S1x70x1062) ![0, 6, 5] S1x32x1024.size inb_S1x70x1062_S1x32x1024_0_6_5
abbrev q0_S1x70x1062_S1x32x1024_0_6_33 : Rect S1x70x1062 := Rect.unit (s := S1x70x1062) ![0, 6, 33] S1x32x1024.size inb_S1x70x1062_S1x32x1024_0_6_33
abbrev q0_S1x70x1062_S1x32x1024_0_7_4 : Rect S1x70x1062 := Rect.unit (s := S1x70x1062) ![0, 7, 4] S1x32x1024.size inb_S1x70x1062_S1x32x1024_0_7_4
abbrev q0_S1x70x1062_S1x32x1024_0_7_34 : Rect S1x70x1062 := Rect.unit (s := S1x70x1062) ![0, 7, 34] S1x32x1024.size inb_S1x70x1062_S1x32x1024_0_7_34
abbrev q0_S1x70x1062_S1x32x1024_0_8_3 : Rect S1x70x1062 := Rect.unit (s := S1x70x1062) ![0, 8, 3] S1x32x1024.size inb_S1x70x1062_S1x32x1024_0_8_3
abbrev q0_S1x70x1062_S1x32x1024_0_8_4 : Rect S1x70x1062 := Rect.unit (s := S1x70x1062) ![0, 8, 4] S1x32x1024.size inb_S1x70x1062_S1x32x1024_0_8_4
abbrev q0_S1x70x1062_S1x32x1024_0_8_34 : Rect S1x70x1062 := Rect.unit (s := S1x70x1062) ![0, 8, 34] S1x32x1024.size inb_S1x70x1062_S1x32x1024_0_8_34
abbrev q0_S1x70x1062_S1x32x1024_0_8_35 : Rect S1x70x1062 := Rect.unit (s := S1x70x1062) ![0, 8, 35] S1x32x1024.size inb_S1x70x1062_S1x32x1024_0_8_35
abbrev q0_S1x70x1062_S1x32x1024_0_9_3 : Rect S1x70x1062 := Rect.unit (s := S1x70x1062) ![0, 9, 3] S1x32x1024.size inb_S1x70x1062_S1x32x1024_0_9_3
abbrev q0_S1x70x1062_S1x32x1024_0_9_35 : Rect S1x70x1062 := Rect.unit (s := S1x70x1062) ![0, 9, 35] S1x32x1024.size inb_S1x70x1062_S1x32x1024_0_9_35
abbrev q0_S1x70x1062_S1x32x1024_0_10_2 : Rect S1x70x1062 := Rect.unit (s := S1x70x1062) ![0, 10, 2] S1x32x1024.size inb_S1x70x1062_S1x32x1024_0_10_2
abbrev q0_S1x70x1062_S1x32x1024_0_10_36 : Rect S1x70x1062 := Rect.unit (s := S1x70x1062) ![0, 10, 36] S1x32x1024.size inb_S1x70x1062_S1x32x1024_0_10_36
abbrev q0_S1x70x1062_S1x32x1024_0_11_2 : Rect S1x70x1062 := Rect.unit (s := S1x70x1062) ![0, 11, 2] S1x32x1024.size inb_S1x70x1062_S1x32x1024_0_11_2
abbrev q0_S1x70x1062_S1x32x1024_0_11_36 : Rect S1x70x1062 := Rect.unit (s := S1x70x1062) ![0, 11, 36] S1x32x1024.size inb_S1x70x1062_S1x32x1024_0_11_36
abbrev q0_S1x70x1062_S1x32x1024_0_12_1 : Rect S1x70x1062 := Rect.unit (s := S1x70x1062) ![0, 12, 1] S1x32x1024.size inb_S1x70x1062_S1x32x1024_0_12_1
abbrev q0_S1x70x1062_S1x32x1024_0_12_37 : Rect S1x70x1062 := Rect.unit (s := S1x70x1062) ![0, 12, 37] S1x32x1024.size inb_S1x70x1062_S1x32x1024_0_12_37
abbrev q0_S1x70x1062_S1x32x1024_0_13_1 : Rect S1x70x1062 := Rect.unit (s := S1x70x1062) ![0, 13, 1] S1x32x1024.size inb_S1x70x1062_S1x32x1024_0_13_1
abbrev q0_S1x70x1062_S1x32x1024_0_13_37 : Rect S1x70x1062 := Rect.unit (s := S1x70x1062) ![0, 13, 37] S1x32x1024.size inb_S1x70x1062_S1x32x1024_0_13_37
abbrev q0_S1x70x1062_S1x32x1024_0_14_1 : Rect S1x70x1062 := Rect.unit (s := S1x70x1062) ![0, 14, 1] S1x32x1024.size inb_S1x70x1062_S1x32x1024_0_14_1
abbrev q0_S1x70x1062_S1x32x1024_0_14_37 : Rect S1x70x1062 := Rect.unit (s := S1x70x1062) ![0, 14, 37] S1x32x1024.size inb_S1x70x1062_S1x32x1024_0_14_37
abbrev q0_S1x70x1062_S1x32x1024_0_15_0 : Rect S1x70x1062 := Rect.unit (s := S1x70x1062) ![0, 15, 0] S1x32x1024.size inb_S1x70x1062_S1x32x1024_0_15_0
abbrev q0_S1x70x1062_S1x32x1024_0_15_38 : Rect S1x70x1062 := Rect.unit (s := S1x70x1062) ![0, 15, 38] S1x32x1024.size inb_S1x70x1062_S1x32x1024_0_15_38
abbrev q0_S1x70x1062_S1x32x1024_0_16_0 : Rect S1x70x1062 := Rect.unit (s := S1x70x1062) ![0, 16, 0] S1x32x1024.size inb_S1x70x1062_S1x32x1024_0_16_0
abbrev q0_S1x70x1062_S1x32x1024_0_16_38 : Rect S1x70x1062 := Rect.unit (s := S1x70x1062) ![0, 16, 38] S1x32x1024.size inb_S1x70x1062_S1x32x1024_0_16_38
abbrev q0_S1x70x1062_S1x32x1024_0_17_0 : Rect S1x70x1062 := Rect.unit (s := S1x70x1062) ![0, 17, 0] S1x32x1024.size inb_S1x70x1062_S1x32x1024_0_17_0
abbrev q0_S1x70x1062_S1x32x1024_0_17_38 : Rect S1x70x1062 := Rect.unit (s := S1x70x1062) ![0, 17, 38] S1x32x1024.size inb_S1x70x1062_S1x32x1024_0_17_38
abbrev q0_S1x70x1062_S1x32x1024_0_18_0 : Rect S1x70x1062 := Rect.unit (s := S1x70x1062) ![0, 18, 0] S1x32x1024.size inb_S1x70x1062_S1x32x1024_0_18_0
abbrev q0_S1x70x1062_S1x32x1024_0_18_38 : Rect S1x70x1062 := Rect.unit (s := S1x70x1062) ![0, 18, 38] S1x32x1024.size inb_S1x70x1062_S1x32x1024_0_18_38
abbrev q0_S1x70x1062_S1x32x1024_0_19_0 : Rect S1x70x1062 := Rect.unit (s := S1x70x1062) ![0, 19, 0] S1x32x1024.size inb_S1x70x1062_S1x32x1024_0_19_0
abbrev q0_S1x70x1062_S1x32x1024_0_19_38 : Rect S1x70x1062 := Rect.unit (s := S1x70x1062) ![0, 19, 38] S1x32x1024.size inb_S1x70x1062_S1x32x1024_0_19_38
abbrev q0_S1x70x1062_S1x32x1024_0_20_0 : Rect S1x70x1062 := Rect.unit (s := S1x70x1062) ![0, 20, 0] S1x32x1024.size inb_S1x70x1062_S1x32x1024_0_20_0
abbrev q0_S1x70x1062_S1x32x1024_0_20_38 : Rect S1x70x1062 := Rect.unit (s := S1x70x1062) ![0, 20, 38] S1x32x1024.size inb_S1x70x1062_S1x32x1024_0_20_38
abbrev q0_S1x70x1062_S1x32x1024_0_21_0 : Rect S1x70x1062 := Rect.unit (s := S1x70x1062) ![0, 21, 0] S1x32x1024.size inb_S1x70x1062_S1x32x1024_0_21_0
abbrev q0_S1x70x1062_S1x32x1024_0_21_38 : Rect S1x70x1062 := Rect.unit (s := S1x70x1062) ![0, 21, 38] S1x32x1024.size inb_S1x70x1062_S1x32x1024_0_21_38
abbrev q0_S1x70x1062_S1x32x1024_0_22_0 : Rect S1x70x1062 := Rect.unit (s := S1x70x1062) ![0, 22, 0] S1x32x1024.size inb_S1x70x1062_S1x32x1024_0_22_0
abbrev q0_S1x70x1062_S1x32x1024_0_22_38 : Rect S1x70x1062 := Rect.unit (s := S1x70x1062) ![0, 22, 38] S1x32x1024.size inb_S1x70x1062_S1x32x1024_0_22_38
abbrev q0_S1x70x1062_S1x32x1024_0_23_0 : Rect S1x70x1062 := Rect.unit (s := S1x70x1062) ![0, 23, 0] S1x32x1024.size inb_S1x70x1062_S1x32x1024_0_23_0
abbrev q0_S1x70x1062_S1x32x1024_0_23_38 : Rect S1x70x1062 := Rect.unit (s := S1x70x1062) ![0, 23, 38] S1x32x1024.size inb_S1x70x1062_S1x32x1024_0_23_38
abbrev q0_S1x70x1062_S1x32x1024_0_24_1 : Rect S1x70x1062 := Rect.unit (s := S1x70x1062) ![0, 24, 1] S1x32x1024.size inb_S1x70x1062_S1x32x1024_0_24_1
abbrev q0_S1x70x1062_S1x32x1024_0_24_37 : Rect S1x70x1062 := Rect.unit (s := S1x70x1062) ![0, 24, 37] S1x32x1024.size inb_S1x70x1062_S1x32x1024_0_24_37
abbrev q0_S1x70x1062_S1x32x1024_0_25_1 : Rect S1x70x1062 := Rect.unit (s := S1x70x1062) ![0, 25, 1] S1x32x1024.size inb_S1x70x1062_S1x32x1024_0_25_1
abbrev q0_S1x70x1062_S1x32x1024_0_25_37 : Rect S1x70x1062 := Rect.unit (s := S1x70x1062) ![0, 25, 37] S1x32x1024.size inb_S1x70x1062_S1x32x1024_0_25_37
abbrev q0_S1x70x1062_S1x32x1024_0_26_1 : Rect S1x70x1062 := Rect.unit (s := S1x70x1062) ![0, 26, 1] S1x32x1024.size inb_S1x70x1062_S1x32x1024_0_26_1
abbrev q0_S1x70x1062_S1x32x1024_0_26_37 : Rect S1x70x1062 := Rect.unit (s := S1x70x1062) ![0, 26, 37] S1x32x1024.size inb_S1x70x1062_S1x32x1024_0_26_37
abbrev q0_S1x70x1062_S1x32x1024_0_27_2 : Rect S1x70x1062 := Rect.unit (s := S1x70x1062) ![0, 27, 2] S1x32x1024.size inb_S1x70x1062_S1x32x1024_0_27_2
abbrev q0_S1x70x1062_S1x32x1024_0_27_36 : Rect S1x70x1062 := Rect.unit (s := S1x70x1062) ![0, 27, 36] S1x32x1024.size inb_S1x70x1062_S1x32x1024_0_27_36
abbrev q0_S1x70x1062_S1x32x1024_0_28_2 : Rect S1x70x1062 := Rect.unit (s := S1x70x1062) ![0, 28, 2] S1x32x1024.size inb_S1x70x1062_S1x32x1024_0_28_2
abbrev q0_S1x70x1062_S1x32x1024_0_28_36 : Rect S1x70x1062 := Rect.unit (s := S1x70x1062) ![0, 28, 36] S1x32x1024.size inb_S1x70x1062_S1x32x1024_0_28_36
abbrev q0_S1x70x1062_S1x32x1024_0_29_3 : Rect S1x70x1062 := Rect.unit (s := S1x70x1062) ![0, 29, 3] S1x32x1024.size inb_S1x70x1062_S1x32x1024_0_29_3
abbrev q0_S1x70x1062_S1x32x1024_0_29_35 : Rect S1x70x1062 := Rect.unit (s := S1x70x1062) ![0, 29, 35] S1x32x1024.size inb_S1x70x1062_S1x32x1024_0_29_35
abbrev q0_S1x70x1062_S1x32x1024_0_30_3 : Rect S1x70x1062 := Rect.unit (s := S1x70x1062) ![0, 30, 3] S1x32x1024.size inb_S1x70x1062_S1x32x1024_0_30_3
abbrev q0_S1x70x1062_S1x32x1024_0_30_4 : Rect S1x70x1062 := Rect.unit (s := S1x70x1062) ![0, 30, 4] S1x32x1024.size inb_S1x70x1062_S1x32x1024_0_30_4
abbrev q0_S1x70x1062_S1x32x1024_0_30_34 : Rect S1x70x1062 := Rect.unit (s := S1x70x1062) ![0, 30, 34] S1x32x1024.size inb_S1x70x1062_S1x32x1024_0_30_34
abbrev q0_S1x70x1062_S1x32x1024_0_30_35 : Rect S1x70x1062 := Rect.unit (s := S1x70x1062) ![0, 30, 35] S1x32x1024.size inb_S1x70x1062_S1x32x1024_0_30_35
abbrev q0_S1x70x1062_S1x32x1024_0_31_4 : Rect S1x70x1062 := Rect.unit (s := S1x70x1062) ![0, 31, 4] S1x32x1024.size inb_S1x70x1062_S1x32x1024_0_31_4
abbrev q0_S1x70x1062_S1x32x1024_0_31_34 : Rect S1x70x1062 := Rect.unit (s := S1x70x1062) ![0, 31, 34] S1x32x1024.size inb_S1x70x1062_S1x32x1024_0_31_34
abbrev q0_S1x70x1062_S1x32x1024_0_32_5 : Rect S1x70x1062 := Rect.unit (s := S1x70x1062) ![0, 32, 5] S1x32x1024.size inb_S1x70x1062_S1x32x1024_0_32_5
abbrev q0_S1x70x1062_S1x32x1024_0_32_33 : Rect S1x70x1062 := Rect.unit (s := S1x70x1062) ![0, 32, 33] S1x32x1024.size inb_S1x70x1062_S1x32x1024_0_32_33
abbrev q0_S1x70x1062_S1x32x1024_0_33_6 : Rect S1x70x1062 := Rect.unit (s := S1x70x1062) ![0, 33, 6] S1x32x1024.size inb_S1x70x1062_S1x32x1024_0_33_6
abbrev q0_S1x70x1062_S1x32x1024_0_33_32 : Rect S1x70x1062 := Rect.unit (s := S1x70x1062) ![0, 33, 32] S1x32x1024.size inb_S1x70x1062_S1x32x1024_0_33_32
abbrev q0_S1x70x1062_S1x32x1024_0_34_7 : Rect S1x70x1062 := Rect.unit (s := S1x70x1062) ![0, 34, 7] S1x32x1024.size inb_S1x70x1062_S1x32x1024_0_34_7
abbrev q0_S1x70x1062_S1x32x1024_0_34_8 : Rect S1x70x1062 := Rect.unit (s := S1x70x1062) ![0, 34, 8] S1x32x1024.size inb_S1x70x1062_S1x32x1024_0_34_8
abbrev q0_S1x70x1062_S1x32x1024_0_34_30 : Rect S1x70x1062 := Rect.unit (s := S1x70x1062) ![0, 34, 30] S1x32x1024.size inb_S1x70x1062_S1x32x1024_0_34_30
abbrev q0_S1x70x1062_S1x32x1024_0_34_31 : Rect S1x70x1062 := Rect.unit (s := S1x70x1062) ![0, 34, 31] S1x32x1024.size inb_S1x70x1062_S1x32x1024_0_34_31
abbrev q0_S1x70x1062_S1x32x1024_0_35_8 : Rect S1x70x1062 := Rect.unit (s := S1x70x1062) ![0, 35, 8] S1x32x1024.size inb_S1x70x1062_S1x32x1024_0_35_8
abbrev q0_S1x70x1062_S1x32x1024_0_35_9 : Rect S1x70x1062 := Rect.unit (s := S1x70x1062) ![0, 35, 9] S1x32x1024.size inb_S1x70x1062_S1x32x1024_0_35_9
abbrev q0_S1x70x1062_S1x32x1024_0_35_29 : Rect S1x70x1062 := Rect.unit (s := S1x70x1062) ![0, 35, 29] S1x32x1024.size inb_S1x70x1062_S1x32x1024_0_35_29
abbrev q0_S1x70x1062_S1x32x1024_0_35_30 : Rect S1x70x1062 := Rect.unit (s := S1x70x1062) ![0, 35, 30] S1x32x1024.size inb_S1x70x1062_S1x32x1024_0_35_30
abbrev q0_S1x70x1062_S1x32x1024_0_36_10 : Rect S1x70x1062 := Rect.unit (s := S1x70x1062) ![0, 36, 10] S1x32x1024.size inb_S1x70x1062_S1x32x1024_0_36_10
abbrev q0_S1x70x1062_S1x32x1024_0_36_11 : Rect S1x70x1062 := Rect.unit (s := S1x70x1062) ![0, 36, 11] S1x32x1024.size inb_S1x70x1062_S1x32x1024_0_36_11
abbrev q0_S1x70x1062_S1x32x1024_0_36_27 : Rect S1x70x1062 := Rect.unit (s := S1x70x1062) ![0, 36, 27] S1x32x1024.size inb_S1x70x1062_S1x32x1024_0_36_27
abbrev q0_S1x70x1062_S1x32x1024_0_36_28 : Rect S1x70x1062 := Rect.unit (s := S1x70x1062) ![0, 36, 28] S1x32x1024.size inb_S1x70x1062_S1x32x1024_0_36_28
abbrev q0_S1x70x1062_S1x32x1024_0_37_12 : Rect S1x70x1062 := Rect.unit (s := S1x70x1062) ![0, 37, 12] S1x32x1024.size inb_S1x70x1062_S1x32x1024_0_37_12
abbrev q0_S1x70x1062_S1x32x1024_0_37_13 : Rect S1x70x1062 := Rect.unit (s := S1x70x1062) ![0, 37, 13] S1x32x1024.size inb_S1x70x1062_S1x32x1024_0_37_13
abbrev q0_S1x70x1062_S1x32x1024_0_37_14 : Rect S1x70x1062 := Rect.unit (s := S1x70x1062) ![0, 37, 14] S1x32x1024.size inb_S1x70x1062_S1x32x1024_0_37_14
abbrev q0_S1x70x1062_S1x32x1024_0_37_24 : Rect S1x70x1062 := Rect.unit (s := S1x70x1062) ![0, 37, 24] S1x32x1024.size inb_S1x70x1062_S1x32x1024_0_37_24
abbrev q0_S1x70x1062_S1x32x1024_0_37_25 : Rect S1x70x1062 := Rect.unit (s := S1x70x1062) ![0, 37, 25] S1x32x1024.size inb_S1x70x1062_S1x32x1024_0_37_25
abbrev q0_S1x70x1062_S1x32x1024_0_37_26 : Rect S1x70x1062 := Rect.unit (s := S1x70x1062) ![0, 37, 26] S1x32x1024.size inb_S1x70x1062_S1x32x1024_0_37_26
abbrev q0_S1x70x1062_S1x32x1024_0_38_15 : Rect S1x70x1062 := Rect.unit (s := S1x70x1062) ![0, 38, 15] S1x32x1024.size inb_S1x70x1062_S1x32x1024_0_38_15
abbrev q0_S1x70x1062_S1x32x1024_0_38_16 : Rect S1x70x1062 := Rect.unit (s := S1x70x1062) ![0, 38, 16] S1x32x1024.size inb_S1x70x1062_S1x32x1024_0_38_16
abbrev q0_S1x70x1062_S1x32x1024_0_38_17 : Rect S1x70x1062 := Rect.unit (s := S1x70x1062) ![0, 38, 17] S1x32x1024.size inb_S1x70x1062_S1x32x1024_0_38_17
abbrev q0_S1x70x1062_S1x32x1024_0_38_18 : Rect S1x70x1062 := Rect.unit (s := S1x70x1062) ![0, 38, 18] S1x32x1024.size inb_S1x70x1062_S1x32x1024_0_38_18
abbrev q0_S1x70x1062_S1x32x1024_0_38_19 : Rect S1x70x1062 := Rect.unit (s := S1x70x1062) ![0, 38, 19] S1x32x1024.size inb_S1x70x1062_S1x32x1024_0_38_19
abbrev q0_S1x70x1062_S1x32x1024_0_38_20 : Rect S1x70x1062 := Rect.unit (s := S1x70x1062) ![0, 38, 20] S1x32x1024.size inb_S1x70x1062_S1x32x1024_0_38_20
abbrev q0_S1x70x1062_S1x32x1024_0_38_21 : Rect S1x70x1062 := Rect.unit (s := S1x70x1062) ![0, 38, 21] S1x32x1024.size inb_S1x70x1062_S1x32x1024_0_38_21
abbrev q0_S1x70x1062_S1x32x1024_0_38_22 : Rect S1x70x1062 := Rect.unit (s := S1x70x1062) ![0, 38, 22] S1x32x1024.size inb_S1x70x1062_S1x32x1024_0_38_22
abbrev q0_S1x70x1062_S1x32x1024_0_38_23 : Rect S1x70x1062 := Rect.unit (s := S1x70x1062) ![0, 38, 23] S1x32x1024.size inb_S1x70x1062_S1x32x1024_0_38_23
abbrev q0_S32x1024_S32x1024_0_0 : Rect S32x1024 := Rect.unit (s := S32x1024) ![0, 0] S32x1024.size inb_S32x1024_S32x1024_0_0

/-- The output tile's buffer after the body: the one store's payload over the reads of the input blocks. -/
def out0_5 (x0 : Vec F S1x70x1062 .f32) (x1 x2 x3 x4 : Vec F S1 .f32) : Vec F S32x1024 .f32 :=
  View.canon [⟨q0_S32x1024_S32x1024_0_0, k0_pay1 ((k0_pay2 (View.ld x1 q0_S1_S1_0))) ((k0_pay3 (View.ld x2 q0_S1_S1_0))) ((k0_pay4 (View.ld x3 q0_S1_S1_0))) ((k0_pay5 (View.ld x4 q0_S1_S1_0))) ((k0_pay6 (View.ld x0 q0_S1x70x1062_S1x32x1024_0_19_19))) ((k0_pay49 (k0_pay4 (View.ld x3 q0_S1_S1_0)) (k0_pay6 (View.ld x0 q0_S1x70x1062_S1x32x1024_0_19_19)) (k0_pay32 (k0_pay3 (View.ld x2 q0_S1_S1_0)) (k0_pay6 (View.ld x0 q0_S1x70x1062_S1x32x1024_0_19_19)) (k0_pay16 (k0_pay2 (View.ld x1 q0_S1_S1_0)) (k0_pay6 (View.ld x0 q0_S1x70x1062_S1x32x1024_0_19_19)) (k0_pay7 (F := F)) (k0_pay14 (k0_pay6 (View.ld x0 q0_S1x70x1062_S1x32x1024_0_19_19)) (k0_pay13 (k0_pay6 (View.ld x0 q0_S1x70x1062_S1x32x1024_0_19_19)) (k0_pay11 (k0_pay6 (View.ld x0 q0_S1x70x1062_S1x32x1024_0_19_19)) (k0_pay10 (k0_pay6 (View.ld x0 q0_S1x70x1062_S1x32x1024_0_19_19)) (k0_pay8 (View.ld x0 q0_S1x70x1062_S1x32x1024_0_19_19) (View.ld x0 q0_S1x70x1062_S1x32x1024_0_12_17) (View.ld x0 q0_S1x70x1062_S1x32x1024_0_12_18) (View.ld x0 q0_S1x70x1062_S1x32x1024_0_12_19) (View.ld x0 q0_S1x70x1062_S1x32x1024_0_12_20)) (k0_pay9 (View.ld x0 q0_S1x70x1062_S1x32x1024_0_19_19) (View.ld x0 q0_S1x70x1062_S1x32x1024_0_12_21)) (View.ld x0 q0_S1x70x1062_S1x32x1024_0_13_15) (View.ld x0 q0_S1x70x1062_S1x32x1024_0_13_16) (View.ld x0 q0_S1x70x1062_S1x32x1024_0_13_22) (View.ld x0 q0_S1x70x1062_S1x32x1024_0_13_23) (View.ld x0 q0_S1x70x1062_S1x32x1024_0_14_14) (View.ld x0 q0_S1x70x1062_S1x32x1024_0_14_24) (View.ld x0 q0_S1x70x1062_S1x32x1024_0_15_13)) (View.ld x0 q0_S1x70x1062_S1x32x1024_0_15_25) (View.ld x0 q0_S1x70x1062_S1x32x1024_0_16_13) (View.ld x0 q0_S1x70x1062_S1x32x1024_0_16_25) (View.ld x0 q0_S1x70x1062_S1x32x1024_0_17_12) (View.ld x0 q0_S1x70x1062_S1x32x1024_0_17_26) (View.ld x0 q0_S1x70x1062_S1x32x1024_0_18_12) (View.ld x0 q0_S1x70x1062_S1x32x1024_0_18_26)) (k0_pay12 (k0_pay6 (View.ld x0 q0_S1x70x1062_S1x32x1024_0_19_19)) (View.ld x0 q0_S1x70x1062_S1x32x1024_0_19_12)) (View.ld x0 q0_S1x70x1062_S1x32x1024_0_19_26) (View.ld x0 q0_S1x70x1062_S1x32x1024_0_20_12) (View.ld x0 q0_S1x70x1062_S1x32x1024_0_20_26) (View.ld x0 q0_S1x70x1062_S1x32x1024_0_21_12) (View.ld x0 q0_S1x70x1062_S1x32x1024_0_21_26) (View.ld x0 q0_S1x70x1062_S1x32x1024_0_22_13) (View.ld x0 q0_S1x70x1062_S1x32x1024_0_22_25)) (View.ld x0 q0_S1x70x1062_S1x32x1024_0_23_13) (View.ld x0 q0_S1x70x1062_S1x32x1024_0_23_25) (View.ld x0 q0_S1x70x1062_S1x32x1024_0_24_14) (View.ld x0 q0_S1x70x1062_S1x32x1024_0_24_24) (View.ld x0 q0_S1x70x1062_S1x32x1024_0_25_15) (View.ld x0 q0_S1x70x1062_S1x32x1024_0_25_16) (View.ld x0 q0_S1x70x1062_S1x32x1024_0_25_22)) (k0_pay15 (k0_pay6 (View.ld x0 q0_S1x70x1062_S1x32x1024_0_19_19)) (View.ld x0 q0_S1x70x1062_S1x32x1024_0_25_23)) (View.ld x0 q0_S1x70x1062_S1x32x1024_0_26_17) (View.ld x0 q0_S1x70x1062_S1x32x1024_0_26_18) (View.ld x0 q0_S1x70x1062_S1x32x1024_0_26_19) (View.ld x0 q0_S1x70x1062_S1x32x1024_0_26_20) (View.ld x0 q0_S1x70x1062_S1x32x1024_0_26_21)) (k0_pay30 (k0_pay6 (View.ld x0 q0_S1x70x1062_S1x32x1024_0_19_19)) (k0_pay29 (k0_pay6 (View.ld x0 q0_S1x70x1062_S1x32x1024_0_19_19)) (k0_pay27 (k0_pay6 (View.ld x0 q0_S1x70x1062_S1x32x1024_0_19_19)) (k0_pay26 (k0_pay6 (View.ld x0 q0_S1x70x1062_S1x32x1024_0_19_19)) (k0_pay24 (k0_pay6 (View.ld x0 q0_S1x70x1062_S1x32x1024_0_19_19)) (k0_pay23 (k0_pay6 (View.ld x0 q0_S1x70x1062_S1x32x1024_0_19_19)) (k0_pay21 (k0_pay6 (View.ld x0 q0_S1x70x1062_S1x32x1024_0_19_19)) (k0_pay20 (k0_pay6 (View.ld x0 q0_S1x70x1062_S1x32x1024_0_19_19)) (k0_pay18 (k0_pay6 (View.ld x0 q0_S1x70x1062_S1x32x1024_0_19_19)) (k0_pay17 (k0_pay6 (View.ld x0 q0_S1x70x1062_S1x32x1024_0_19_19)) (View.ld x0 q0_S1x70x1062_S1x32x1024_0_8_16)) (View.ld x0 q0_S1x70x1062_S1x32x1024_0_8_17) (View.ld x0 q0_S1x70x1062_S1x32x1024_0_8_18) (View.ld x0 q0_S1x70x1062_S1x32x1024_0_8_19) (View.ld x0 q0_S1x70x1062_S1x32x1024_0_8_20) (View.ld x0 q0_S1x70x1062_S1x32x1024_0_8_21) (View.ld x0 q0_S1x70x1062_S1x32x1024_0_8_22) (View.ld x0 q0_S1x70x1062_S1x32x1024_0_9_14)) (k0_pay19 (k0_pay6 (View.ld x0 q0_S1x70x1062_S1x32x1024_0_19_19)) (View.ld x0 q0_S1x70x1062_S1x32x1024_0_9_15)) (View.ld x0 q0_S1x70x1062_S1x32x1024_0_9_23) (View.ld x0 q0_S1x70x1062_S1x32x1024_0_9_24) (View.ld x0 q0_S1x70x1062_S1x32x1024_0_10_12) (View.ld x0 q0_S1x70x1062_S1x32x1024_0_10_13) (View.ld x0 q0_S1x70x1062_S1x32x1024_0_10_25) (View.ld x0 q0_S1x70x1062_S1x32x1024_0_10_26) (View.ld x0 q0_S1x70x1062_S1x32x1024_0_11_11)) (View.ld x0 q0_S1x70x1062_S1x32x1024_0_11_12) (View.ld x0 q0_S1x70x1062_S1x32x1024_0_11_26) (View.ld x0 q0_S1x70x1062_S1x32x1024_0_11_27) (View.ld x0 q0_S1x70x1062_S1x32x1024_0_12_10) (View.ld x0 q0_S1x70x1062_S1x32x1024_0_12_11) (View.ld x0 q0_S1x70x1062_S1x32x1024_0_12_27) (View.ld x0 q0_S1x70x1062_S1x32x1024_0_12_28)) (k0_pay22 (k0_pay6 (View.ld x0 q0_S1x70x1062_S1x32x1024_0_19_19)) (View.ld x0 q0_S1x70x1062_S1x32x1024_0_13_10)) (View.ld x0 q0_S1x70x1062_S1x32x1024_0_13_28) (View.ld x0 q0_S1x70x1062_S1x32x1024_0_14_9) (View.ld x0 q0_S1x70x1062_S1x32x1024_0_14_29) (View.ld x0 q0_S1x70x1062_S1x32x1024_0_15_9) (View.ld x0 q0_S1x70x1062_S1x32x1024_0_15_29) (View.ld x0 q0_S1x70x1062_S1x32x1024_0_16_8) (View.ld x0 q0_S1x70x1062_S1x32x1024_0_16_30)) (View.ld x0 q0_S1x70x1062_S1x32x1024_0_17_8) (View.ld x0 q0_S1x70x1062_S1x32x1024_0_17_30) (View.ld x0 q0_S1x70x1062_S1x32x1024_0_18_8) (View.ld x0 q0_S1x70x1062_S1x32x1024_0_18_30) (View.ld x0 q0_S1x70x1062_S1x32x1024_0_19_8) (View.ld x0 q0_S1x70x1062_S1x32x1024_0_19_30) (View.ld x0 q0_S1x70x1062_S1x32x1024_0_20_8)) (k0_pay25 (k0_pay6 (View.ld x0 q0_S1x70x1062_S1x32x1024_0_19_19)) (View.ld x0 q0_S1x70x1062_S1x32x1024_0_20_30)) (View.ld x0 q0_S1x70x1062_S1x32x1024_0_21_8) (View.ld x0 q0_S1x70x1062_S1x32x1024_0_21_30) (View.ld x0 q0_S1x70x1062_S1x32x1024_0_22_8) (View.ld x0 q0_S1x70x1062_S1x32x1024_0_22_30) (View.ld x0 q0_S1x70x1062_S1x32x1024_0_23_9) (View.ld x0 q0_S1x70x1062_S1x32x1024_0_23_29) (View.ld x0 q0_S1x70x1062_S1x32x1024_0_24_9)) (View.ld x0 q0_S1x70x1062_S1x32x1024_0_24_29) (View.ld x0 q0_S1x70x1062_S1x32x1024_0_25_10) (View.ld x0 q0_S1x70x1062_S1x32x1024_0_25_28) (View.ld x0 q0_S1x70x1062_S1x32x1024_0_26_10) (View.ld x0 q0_S1x70x1062_S1x32x1024_0_26_11) (View.ld x0 q0_S1x70x1062_S1x32x1024_0_26_27) (View.ld x0 q0_S1x70x1062_S1x32x1024_0_26_28)) (k0_pay28 (k0_pay6 (View.ld x0 q0_S1x70x1062_S1x32x1024_0_19_19)) (View.ld x0 q0_S1x70x1062_S1x32x1024_0_27_11)) (View.ld x0 q0_S1x70x1062_S1x32x1024_0_27_12) (View.ld x0 q0_S1x70x1062_S1x32x1024_0_27_26) (View.ld x0 q0_S1x70x1062_S1x32x1024_0_27_27) (View.ld x0 q0_S1x70x1062_S1x32x1024_0_28_12) (View.ld x0 q0_S1x70x1062_S1x32x1024_0_28_13) (View.ld x0 q0_S1x70x1062_S1x32x1024_0_28_25) (View.ld x0 q0_S1x70x1062_S1x32x1024_0_28_26)) (View.ld x0 q0_S1x70x1062_S1x32x1024_0_29_14) (View.ld x0 q0_S1x70x1062_S1x32x1024_0_29_15) (View.ld x0 q0_S1x70x1062_S1x32x1024_0_29_23) (View.ld x0 q0_S1x70x1062_S1x32x1024_0_29_24) (View.ld x0 q0_S1x70x1062_S1x32x1024_0_30_16) (View.ld x0 q0_S1x70x1062_S1x32x1024_0_30_17) (View.ld x0 q0_S1x70x1062_S1x32x1024_0_30_18)) (k0_pay31 (k0_pay6 (View.ld x0 q0_S1x70x1062_S1x32x1024_0_19_19)) (View.ld x0 q0_S1x70x1062_S1x32x1024_0_30_19)) (View.ld x0 q0_S1x70x1062_S1x32x1024_0_30_20) (View.ld x0 q0_S1x70x1062_S1x32x1024_0_30_21) (View.ld x0 q0_S1x70x1062_S1x32x1024_0_30_22)) (k0_pay48 (k0_pay6 (View.ld x0 q0_S1x70x1062_S1x32x1024_0_19_19)) (k0_pay46 (k0_pay6 (View.ld x0 q0_S1x70x1062_S1x32x1024_0_19_19)) (k0_pay45 (k0_pay6 (View.ld x0 q0_S1x70x1062_S1x32x1024_0_19_19)) (k0_pay43 (k0_pay6 (View.ld x0 q0_S1x70x1062_S1x32x1024_0_19_19)) (k0_pay42 (k0_pay6 (View.ld x0 q0_S1x70x1062_S1x32x1024_0_19_19)) (k0_pay40 (k0_pay6 (View.ld x0 q0_S1x70x1062_S1x32x1024_0_19_19)) (k0_pay39 (k0_pay6 (View.ld x0 q0_S1x70x1062_S1x32x1024_0_19_19)) (k0_pay37 (k0_pay6 (View.ld x0 q0_S1x70x1062_S1x32x1024_0_19_19)) (k0_pay36 (k0_pay6 (View.ld x0 q0_S1x70x1062_S1x32x1024_0_19_19)) (k0_pay34 (k0_pay6 (View.ld x0 q0_S1x70x1062_S1x32x1024_0_19_19)) (k0_pay33 (k0_pay6 (View.ld x0 q0_S1x70x1062_S1x32x1024_0_19_19)) (View.ld x0 q0_S1x70x1062_S1x32x1024_0_4_16) (View.ld x0 q0_S1x70x1062_S1x32x1024_0_4_17) (View.ld x0 q0_S1x70x1062_S1x32x1024_0_4_18)) (View.ld x0 q0_S1x70x1062_S1x32x1024_0_4_19) (View.ld x0 q0_S1x70x1062_S1x32x1024_0_4_20) (View.ld x0 q0_S1x70x1062_S1x32x1024_0_4_21) (View.ld x0 q0_S1x70x1062_S1x32x1024_0_4_22) (View.ld x0 q0_S1x70x1062_S1x32x1024_0_5_13) (View.ld x0 q0_S1x70x1062_S1x32x1024_0_5_14) (View.ld x0 q0_S1x70x1062_S1x32x1024_0_5_15)) (k0_pay35 (k0_pay6 (View.ld x0 q0_S1x70x1062_S1x32x1024_0_19_19)) (View.ld x0 q0_S1x70x1062_S1x32x1024_0_5_23)) (View.ld x0 q0_S1x70x1062_S1x32x1024_0_5_24) (View.ld x0 q0_S1x70x1062_S1x32x1024_0_5_25) (View.ld x0 q0_S1x70x1062_S1x32x1024_0_6_11) (View.ld x0 q0_S1x70x1062_S1x32x1024_0_6_12) (View.ld x0 q0_S1x70x1062_S1x32x1024_0_6_26) (View.ld x0 q0_S1x70x1062_S1x32x1024_0_6_27) (View.ld x0 q0_S1x70x1062_S1x32x1024_0_7_10)) (View.ld x0 q0_S1x70x1062_S1x32x1024_0_7_28) (View.ld x0 q0_S1x70x1062_S1x32x1024_0_8_9) (View.ld x0 q0_S1x70x1062_S1x32x1024_0_8_29) (View.ld x0 q0_S1x70x1062_S1x32x1024_0_9_8) (View.ld x0 q0_S1x70x1062_S1x32x1024_0_9_30) (View.ld x0 q0_S1x70x1062_S1x32x1024_0_10_7) (View.ld x0 q0_S1x70x1062_S1x32x1024_0_10_31)) (k0_pay38 (k0_pay6 (View.ld x0 q0_S1x70x1062_S1x32x1024_0_19_19)) (View.ld x0 q0_S1x70x1062_S1x32x1024_0_11_6)) (View.ld x0 q0_S1x70x1062_S1x32x1024_0_11_32) (View.ld x0 q0_S1x70x1062_S1x32x1024_0_12_6) (View.ld x0 q0_S1x70x1062_S1x32x1024_0_12_32) (View.ld x0 q0_S1x70x1062_S1x32x1024_0_13_5) (View.ld x0 q0_S1x70x1062_S1x32x1024_0_13_33) (View.ld x0 q0_S1x70x1062_S1x32x1024_0_14_5) (View.ld x0 q0_S1x70x1062_S1x32x1024_0_14_33)) (View.ld x0 q0_S1x70x1062_S1x32x1024_0_15_5) (View.ld x0 q0_S1x70x1062_S1x32x1024_0_15_33) (View.ld x0 q0_S1x70x1062_S1x32x1024_0_16_4) (View.ld x0 q0_S1x70x1062_S1x32x1024_0_16_34) (View.ld x0 q0_S1x70x1062_S1x32x1024_0_17_4) (View.ld x0 q0_S1x70x1062_S1x32x1024_0_17_34) (View.ld x0 q0_S1x70x1062_S1x32x1024_0_18_4)) (k0_pay41 (k0_pay6 (View.ld x0 q0_S1x70x1062_S1x32x1024_0_19_19)) (View.ld x0 q0_S1x70x1062_S1x32x1024_0_18_34)) (View.ld x0 q0_S1x70x1062_S1x32x1024_0_19_4) (View.ld x0 q0_S1x70x1062_S1x32x1024_0_19_34) (View.ld x0 q0_S1x70x1062_S1x32x1024_0_20_4) (View.ld x0 q0_S1x70x1062_S1x32x1024_0_20_34) (View.ld x0 q0_S1x70x1062_S1x32x1024_0_21_4) (View.ld x0 q0_S1x70x1062_S1x32x1024_0_21_34) (View.ld x0 q0_S1x70x1062_S1x32x1024_0_22_4)) (View.ld x0 q0_S1x70x1062_S1x32x1024_0_22_34) (View.ld x0 q0_S1x70x1062_S1x32x1024_0_23_5) (View.ld x0 q0_S1x70x1062_S1x32x1024_0_23_33) (View.ld x0 q0_S1x70x1062_S1x32x1024_0_24_5) (View.ld x0 q0_S1x70x1062_S1x32x1024_0_24_33) (View.ld x0 q0_S1x70x1062_S1x32x1024_0_25_5) (View.ld x0 q0_S1x70x1062_S1x32x1024_0_25_33)) (k0_pay44 (k0_pay6 (View.ld x0 q0_S1x70x1062_S1x32x1024_0_19_19)) (View.ld x0 q0_S1x70x1062_S1x32x1024_0_26_6)) (View.ld x0 q0_S1x70x1062_S1x32x1024_0_26_32) (View.ld x0 q0_S1x70x1062_S1x32x1024_0_27_6) (View.ld x0 q0_S1x70x1062_S1x32x1024_0_27_32) (View.ld x0 q0_S1x70x1062_S1x32x1024_0_28_7) (View.ld x0 q0_S1x70x1062_S1x32x1024_0_28_31) (View.ld x0 q0_S1x70x1062_S1x32x1024_0_29_8) (View.ld x0 q0_S1x70x1062_S1x32x1024_0_29_30)) (View.ld x0 q0_S1x70x1062_S1x32x1024_0_30_9) (View.ld x0 q0_S1x70x1062_S1x32x1024_0_30_29) (View.ld x0 q0_S1x70x1062_S1x32x1024_0_31_10) (View.ld x0 q0_S1x70x1062_S1x32x1024_0_31_28) (View.ld x0 q0_S1x70x1062_S1x32x1024_0_32_11) (View.ld x0 q0_S1x70x1062_S1x32x1024_0_32_12) (View.ld x0 q0_S1x70x1062_S1x32x1024_0_32_26)) (k0_pay47 (k0_pay6 (View.ld x0 q0_S1x70x1062_S1x32x1024_0_19_19)) (View.ld x0 q0_S1x70x1062_S1x32x1024_0_32_27)) (View.ld x0 q0_S1x70x1062_S1x32x1024_0_33_13) (View.ld x0 q0_S1x70x1062_S1x32x1024_0_33_14) (View.ld x0 q0_S1x70x1062_S1x32x1024_0_33_15) (View.ld x0 q0_S1x70x1062_S1x32x1024_0_33_23) (View.ld x0 q0_S1x70x1062_S1x32x1024_0_33_24) (View.ld x0 q0_S1x70x1062_S1x32x1024_0_33_25) (View.ld x0 q0_S1x70x1062_S1x32x1024_0_34_16)) (View.ld x0 q0_S1x70x1062_S1x32x1024_0_34_17) (View.ld x0 q0_S1x70x1062_S1x32x1024_0_34_18) (View.ld x0 q0_S1x70x1062_S1x32x1024_0_34_19) (View.ld x0 q0_S1x70x1062_S1x32x1024_0_34_20) (View.ld x0 q0_S1x70x1062_S1x32x1024_0_34_21) (View.ld x0 q0_S1x70x1062_S1x32x1024_0_34_22))) (k0_pay74 (k0_pay6 (View.ld x0 q0_S1x70x1062_S1x32x1024_0_19_19)) (k0_pay73 (k0_pay6 (View.ld x0 q0_S1x70x1062_S1x32x1024_0_19_19)) (k0_pay71 (k0_pay6 (View.ld x0 q0_S1x70x1062_S1x32x1024_0_19_19)) (k0_pay70 (k0_pay6 (View.ld x0 q0_S1x70x1062_S1x32x1024_0_19_19)) (k0_pay68 (k0_pay6 (View.ld x0 q0_S1x70x1062_S1x32x1024_0_19_19)) (k0_pay67 (k0_pay6 (View.ld x0 q0_S1x70x1062_S1x32x1024_0_19_19)) (k0_pay65 (k0_pay6 (View.ld x0 q0_S1x70x1062_S1x32x1024_0_19_19)) (k0_pay64 (k0_pay6 (View.ld x0 q0_S1x70x1062_S1x32x1024_0_19_19)) (k0_pay62 (k0_pay6 (View.ld x0 q0_S1x70x1062_S1x32x1024_0_19_19)) (k0_pay61 (k0_pay6 (View.ld x0 q0_S1x70x1062_S1x32x1024_0_19_19)) (k0_pay59 (k0_pay6 (View.ld x0 q0_S1x70x1062_S1x32x1024_0_19_19)) (k0_pay58 (k0_pay6 (View.ld x0 q0_S1x70x1062_S1x32x1024_0_19_19)) (k0_pay56 (k0_pay6 (View.ld x0 q0_S1x70x1062_S1x32x1024_0_19_19)) (k0_pay55 (k0_pay6 (View.ld x0 q0_S1x70x1062_S1x32x1024_0_19_19)) (k0_pay53 (k0_pay6 (View.ld x0 q0_S1x70x1062_S1x32x1024_0_19_19)) (k0_pay52 (k0_pay6 (View.ld x0 q0_S1x70x1062_S1x32x1024_0_19_19)) (k0_pay50 (F := F)) (k0_pay51 (k0_pay6 (View.ld x0 q0_S1x70x1062_S1x32x1024_0_19_19)) (View.ld x0 q0_S1x70x1062_S1x32x1024_0_0_15)) (View.ld x0 q0_S1x70x1062_S1x32x1024_0_0_16) (View.ld x0 q0_S1x70x1062_S1x32x1024_0_0_17) (View.ld x0 q0_S1x70x1062_S1x32x1024_0_0_18) (View.ld x0 q0_S1x70x1062_S1x32x1024_0_0_19) (View.ld x0 q0_S1x70x1062_S1x32x1024_0_0_20) (View.ld x0 q0_S1x70x1062_S1x32x1024_0_0_21) (View.ld x0 q0_S1x70x1062_S1x32x1024_0_0_22)) (View.ld x0 q0_S1x70x1062_S1x32x1024_0_0_23) (View.ld x0 q0_S1x70x1062_S1x32x1024_0_1_12) (View.ld x0 q0_S1x70x1062_S1x32x1024_0_1_13) (View.ld x0 q0_S1x70x1062_S1x32x1024_0_1_14) (View.ld x0 q0_S1x70x1062_S1x32x1024_0_1_24) (View.ld x0 q0_S1x70x1062_S1x32x1024_0_1_25) (View.ld x0 q0_S1x70x1062_S1x32x1024_0_1_26)) (k0_pay54 (k0_pay6 (View.ld x0 q0_S1x70x1062_S1x32x1024_0_19_19)) (View.ld x0 q0_S1x70x1062_S1x32x1024_0_2_10)) (View.ld x0 q0_S1x70x1062_S1x32x1024_0_2_11) (View.ld x0 q0_S1x70x1062_S1x32x1024_0_2_27) (View.ld x0 q0_S1x70x1062_S1x32x1024_0_2_28) (View.ld x0 q0_S1x70x1062_S1x32x1024_0_3_8) (View.ld x0 q0_S1x70x1062_S1x32x1024_0_3_9) (View.ld x0 q0_S1x70x1062_S1x32x1024_0_3_29) (View.ld x0 q0_S1x70x1062_S1x32x1024_0_3_30)) (View.ld x0 q0_S1x70x1062_S1x32x1024_0_4_7) (View.ld x0 q0_S1x70x1062_S1x32x1024_0_4_8) (View.ld x0 q0_S1x70x1062_S1x32x1024_0_4_30) (View.ld x0 q0_S1x70x1062_S1x32x1024_0_4_31) (View.ld x0 q0_S1x70x1062_S1x32x1024_0_5_6) (View.ld x0 q0_S1x70x1062_S1x32x1024_0_5_32) (View.ld x0 q0_S1x70x1062_S1x32x1024_0_6_5)) (k0_pay57 (k0_pay6 (View.ld x0 q0_S1x70x1062_S1x32x1024_0_19_19)) (View.ld x0 q0_S1x70x1062_S1x32x1024_0_6_33)) (View.ld x0 q0_S1x70x1062_S1x32x1024_0_7_4) (View.ld x0 q0_S1x70x1062_S1x32x1024_0_7_34) (View.ld x0 q0_S1x70x1062_S1x32x1024_0_8_3) (View.ld x0 q0_S1x70x1062_S1x32x1024_0_8_4) (View.ld x0 q0_S1x70x1062_S1x32x1024_0_8_34) (View.ld x0 q0_S1x70x1062_S1x32x1024_0_8_35) (View.ld x0 q0_S1x70x1062_S1x32x1024_0_9_3)) (View.ld x0 q0_S1x70x1062_S1x32x1024_0_9_35) (View.ld x0 q0_S1x70x1062_S1x32x1024_0_10_2) (View.ld x0 q0_S1x70x1062_S1x32x1024_0_10_36) (View.ld x0 q0_S1x70x1062_S1x32x1024_0_11_2) (View.ld x0 q0_S1x70x1062_S1x32x1024_0_11_36) (View.ld x0 q0_S1x70x1062_S1x32x1024_0_12_1) (View.ld x0 q0_S1x70x1062_S1x32x1024_0_12_37)) (k0_pay60 (k0_pay6 (View.ld x0 q0_S1x70x1062_S1x32x1024_0_19_19)) (View.ld x0 q0_S1x70x1062_S1x32x1024_0_13_1)) (View.ld x0 q0_S1x70x1062_S1x32x1024_0_13_37) (View.ld x0 q0_S1x70x1062_S1x32x1024_0_14_1) (View.ld x0 q0_S1x70x1062_S1x32x1024_0_14_37) (View.ld x0 q0_S1x70x1062_S1x32x1024_0_15_0) (View.ld x0 q0_S1x70x1062_S1x32x1024_0_15_38) (View.ld x0 q0_S1x70x1062_S1x32x1024_0_16_0) (View.ld x0 q0_S1x70x1062_S1x32x1024_0_16_38)) (View.ld x0 q0_S1x70x1062_S1x32x1024_0_17_0) (View.ld x0 q0_S1x70x1062_S1x32x1024_0_17_38) (View.ld x0 q0_S1x70x1062_S1x32x1024_0_18_0) (View.ld x0 q0_S1x70x1062_S1x32x1024_0_18_38) (View.ld x0 q0_S1x70x1062_S1x32x1024_0_19_0) (View.ld x0 q0_S1x70x1062_S1x32x1024_0_19_38) (View.ld x0 q0_S1x70x1062_S1x32x1024_0_20_0)) (k0_pay63 (k0_pay6 (View.ld x0 q0_S1x70x1062_S1x32x1024_0_19_19)) (View.ld x0 q0_S1x70x1062_S1x32x1024_0_20_38)) (View.ld x0 q0_S1x70x1062_S1x32x1024_0_21_0) (View.ld x0 q0_S1x70x1062_S1x32x1024_0_21_38) (View.ld x0 q0_S1x70x1062_S1x32x1024_0_22_0) (View.ld x0 q0_S1x70x1062_S1x32x1024_0_22_38) (View.ld x0 q0_S1x70x1062_S1x32x1024_0_23_0) (View.ld x0 q0_S1x70x1062_S1x32x1024_0_23_38) (View.ld x0 q0_S1x70x1062_S1x32x1024_0_24_1)) (View.ld x0 q0_S1x70x1062_S1x32x1024_0_24_37) (View.ld x0 q0_S1x70x1062_S1x32x1024_0_25_1) (View.ld x0 q0_S1x70x1062_S1x32x1024_0_25_37) (View.ld x0 q0_S1x70x1062_S1x32x1024_0_26_1) (View.ld x0 q0_S1x70x1062_S1x32x1024_0_26_37) (View.ld x0 q0_S1x70x1062_S1x32x1024_0_27_2) (View.ld x0 q0_S1x70x1062_S1x32x1024_0_27_36)) (k0_pay66 (k0_pay6 (View.ld x0 q0_S1x70x1062_S1x32x1024_0_19_19)) (View.ld x0 q0_S1x70x1062_S1x32x1024_0_28_2)) (View.ld x0 q0_S1x70x1062_S1x32x1024_0_28_36) (View.ld x0 q0_S1x70x1062_S1x32x1024_0_29_3) (View.ld x0 q0_S1x70x1062_S1x32x1024_0_29_35) (View.ld x0 q0_S1x70x1062_S1x32x1024_0_30_3) (View.ld x0 q0_S1x70x1062_S1x32x1024_0_30_4) (View.ld x0 q0_S1x70x1062_S1x32x1024_0_30_34) (View.ld x0 q0_S1x70x1062_S1x32x1024_0_30_35)) (View.ld x0 q0_S1x70x1062_S1x32x1024_0_31_4) (View.ld x0 q0_S1x70x1062_S1x32x1024_0_31_34) (View.ld x0 q0_S1x70x1062_S1x32x1024_0_32_5) (View.ld x0 q0_S1x70x1062_S1x32x1024_0_32_33) (View.ld x0 q0_S1x70x1062_S1x32x1024_0_33_6) (View.ld x0 q0_S1x70x1062_S1x32x1024_0_33_32) (View.ld x0 q0_S1x70x1062_S1x32x1024_0_34_7)) (k0_pay69 (k0_pay6 (View.ld x0 q0_S1x70x1062_S1x32x1024_0_19_19)) (View.ld x0 q0_S1x70x1062_S1x32x1024_0_34_8)) (View.ld x0 q0_S1x70x1062_S1x32x1024_0_34_30) (View.ld x0 q0_S1x70x1062_S1x32x1024_0_34_31) (View.ld x0 q0_S1x70x1062_S1x32x1024_0_35_8) (View.ld x0 q0_S1x70x1062_S1x32x1024_0_35_9) (View.ld x0 q0_S1x70x1062_S1x32x1024_0_35_29) (View.ld x0 q0_S1x70x1062_S1x32x1024_0_35_30) (View.ld x0 q0_S1x70x1062_S1x32x1024_0_36_10)) (View.ld x0 q0_S1x70x1062_S1x32x1024_0_36_11) (View.ld x0 q0_S1x70x1062_S1x32x1024_0_36_27) (View.ld x0 q0_S1x70x1062_S1x32x1024_0_36_28) (View.ld x0 q0_S1x70x1062_S1x32x1024_0_37_12) (View.ld x0 q0_S1x70x1062_S1x32x1024_0_37_13) (View.ld x0 q0_S1x70x1062_S1x32x1024_0_37_14) (View.ld x0 q0_S1x70x1062_S1x32x1024_0_37_24)) (k0_pay72 (k0_pay6 (View.ld x0 q0_S1x70x1062_S1x32x1024_0_19_19)) (View.ld x0 q0_S1x70x1062_S1x32x1024_0_37_25)) (View.ld x0 q0_S1x70x1062_S1x32x1024_0_37_26) (View.ld x0 q0_S1x70x1062_S1x32x1024_0_38_15) (View.ld x0 q0_S1x70x1062_S1x32x1024_0_38_16) (View.ld x0 q0_S1x70x1062_S1x32x1024_0_38_17) (View.ld x0 q0_S1x70x1062_S1x32x1024_0_38_18) (View.ld x0 q0_S1x70x1062_S1x32x1024_0_38_19) (View.ld x0 q0_S1x70x1062_S1x32x1024_0_38_20)) (View.ld x0 q0_S1x70x1062_S1x32x1024_0_38_21) (View.ld x0 q0_S1x70x1062_S1x32x1024_0_38_22)) ((View.ld x0 q0_S1x70x1062_S1x32x1024_0_38_23))⟩]

end Cert.KernelIdeal.Hand

end
-- ==== Proof.KI.Body0.lean ====
/-
  Kernel 0 (one row tile of one ring layer): the body's triple.  The body reads the centre tile and, for each
  ring offset of the four radii, one shifted tile of the padded window; it keeps a running minimum of the
  absolute differences, turns each radius' minimum m into 1 - m, accumulates the weighted sum and divides by the
  sum of the weights.  Its one store writes the whole 32 x 1024 output tile, so that single piece covers the
  buffer, and what the buffer holds afterwards is the stored payload as a function of the input blocks alone.
-/
import proofs.«126001_j6975026889201_2_alg».proof.Proof.KI.Out0
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The one stored rectangle is the whole tile, so it covers the buffer. -/
theorem cover0_5 (p0 : Vec F S32x1024 .f32) (y : S32x1024.Idx) :
    ∃ pc ∈ ([⟨q0_S32x1024_S32x1024_0_0, p0⟩] : List (View.Piece (Elt F) S32x1024 .f32)), y ∈ pc.1.set :=
  View.cover_of_tiled [⟨q0_S32x1024_S32x1024_0_0, p0⟩] S32x1024.size (by rfl) y

set_option maxHeartbeats 20000000 in
/-- On whole staging buffers, the five inputs at contents x0..x4 and the output at anything, the body runs to its
    continuation with the inputs as they were and the output tile at the stored payload of the inputs. -/
theorem sound_kernel0 (c : Dev nD) (E : Set ℕ) (i : grid0.Coords)
    (arg1 : Memref sig .tc .vmem S1x70x1062 .f32) (harg1 : arg1.IsWhole) (arg2 : Memref sig .tc .vmem S1 .f32) (harg2 : arg2.IsWhole)
    (arg3 : Memref sig .tc .vmem S1 .f32) (harg3 : arg3.IsWhole) (arg4 : Memref sig .tc .vmem S1 .f32) (harg4 : arg4.IsWhole)
    (arg5 : Memref sig .tc .vmem S1 .f32) (harg5 : arg5.IsWhole) (arg6 : Memref sig .tc .vmem S32x1024 .f32) (harg6 : arg6.IsWhole)
    (x0 : Vec F S1x70x1062 .f32) (x1 x2 x3 x4 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  simp only [k0_part43_eq_skeleton]; unfold k0_part43_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [k0_part19_eq_skeleton]; unfold k0_part19_skel
  simp only [k0_part20_eq_skeleton]; unfold k0_part20_skel
  simp only [k0_part21_eq_skeleton]; unfold k0_part21_skel
  simp only [k0_part22_eq_skeleton]; unfold k0_part22_skel
  simp only [k0_part23_eq_skeleton]; unfold k0_part23_skel
  simp only [k0_part24_eq_skeleton]; unfold k0_part24_skel
  simp only [k0_part25_eq_skeleton]; unfold k0_part25_skel
  simp only [k0_part26_eq_skeleton]; unfold k0_part26_skel
  simp only [k0_part27_eq_skeleton]; unfold k0_part27_skel
  simp only [k0_part28_eq_skeleton]; unfold k0_part28_skel
  simp only [k0_part29_eq_skeleton]; unfold k0_part29_skel
  simp only [k0_part30_eq_skeleton]; unfold k0_part30_skel
  simp only [k0_part31_eq_skeleton]; unfold k0_part31_skel
  simp only [k0_part32_eq_skeleton]; unfold k0_part32_skel
  simp only [k0_part33_eq_skeleton]; unfold k0_part33_skel
  simp only [k0_part34_eq_skeleton]; unfold k0_part34_skel
  simp only [k0_part35_eq_skeleton]; unfold k0_part35_skel
  simp only [k0_part36_eq_skeleton]; unfold k0_part36_skel
  simp only [k0_part37_eq_skeleton]; unfold k0_part37_skel
  simp only [k0_part38_eq_skeleton]; unfold k0_part38_skel
  simp only [k0_part39_eq_skeleton]; unfold k0_part39_skel
  simp only [k0_part40_eq_skeleton]; unfold k0_part40_skel
  simp only [k0_part41_eq_skeleton]; unfold k0_part41_skel
  simp only [k0_part42_eq_skeleton]; unfold k0_part42_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

end Cert.KernelIdeal.Hand

end
-- ==== Proof.KI.Out1.lean ====
/- The table of rectangles kernel 1's body reads and writes through, and the term its one store writes with every load
   replaced by the read of the input block through the load's rectangle and every part call by the part's returned terms. -/
import proofs.«126001_j6975026889201_2_alg».proof.Proof.Gen.KernelIdeal.Skeleton
import Idealize.ShloMosaic.Lib.Pipeline.FrameBody

set_option maxRecDepth 16384

noncomputable section

namespace Cert.KernelIdeal.Hand

open Idealize.ShloMosaic Cert.KernelIdeal Cert.KernelIdeal.Gen

variable {F : FTy → Type} [FloatOps F]

abbrev q1_S1_S1_0 : Rect S1 := Rect.unit (s := S1) ![0] S1.size inb_S1_S1_0
abbrev q1_S1x70x1062_S1x32x1024_0_19_19 : Rect S1x70x1062 := Rect.unit (s := S1x70x1062) ![0, 19, 19] S1x32x1024.size inb_S1x70x1062_S1x32x1024_0_19_19
abbrev q1_S1x70x1062_S1x32x1024_0_12_17 : Rect S1x70x1062 := Rect.unit (s := S1x70x1062) ![0, 12, 17] S1x32x1024.size inb_S1x70x1062_S1x32x1024_0_12_17
abbrev q1_S1x70x1062_S1x32x1024_0_12_18 : Rect S1x70x1062 := Rect.unit (s := S1x70x1062) ![0, 12, 18] S1x32x1024.size inb_S1x70x1062_S1x32x1024_0_12_18
abbrev q1_S1x70x1062_S1x32x1024_0_12_19 : Rect S1x70x1062 := Rect.unit (s := S1x70x1062) ![0, 12, 19] S1x32x1024.size inb_S1x70x1062_S1x32x1024_0_12_19
abbrev q1_S1x70x1062_S1x32x1024_0_12_20 : Rect S1x70x1062 := Rect.unit (s := S1x70x1062) ![0, 12, 20] S1x32x1024.size inb_S1x70x1062_S1x32x1024_0_12_20
abbrev q1_S1x70x1062_S1x32x1024_0_12_21 : Rect S1x70x1062 := Rect.unit (s := S1x70x1062) ![0, 12, 21] S1x32x1024.size inb_S1x70x1062_S1x32x1024_0_12_21
abbrev q1_S1x70x1062_S1x32x1024_0_13_15 : Rect S1x70x1062 := Rect.unit (s := S1x70x1062) ![0, 13, 15] S1x32x1024.size inb_S1x70x1062_S1x32x1024_0_13_15
abbrev q1_S1x70x1062_S1x32x1024_0_13_16 : Rect S1x70x1062 := Rect.unit (s := S1x70x1062) ![0, 13, 16] S1x32x1024.size inb_S1x70x1062_S1x32x1024_0_13_16
abbrev q1_S1x70x1062_S1x32x1024_0_13_22 : Rect S1x70x1062 := Rect.unit (s := S1x70x1062) ![0, 13, 22] S1x32x1024.size inb_S1x70x1062_S1x32x1024_0_13_22
abbrev q1_S1x70x1062_S1x32x1024_0_13_23 : Rect S1x70x1062 := Rect.unit (s := S1x70x1062) ![0, 13, 23] S1x32x1024.size inb_S1x70x1062_S1x32x1024_0_13_23
abbrev q1_S1x70x1062_S1x32x1024_0_14_14 : Rect S1x70x1062 := Rect.unit (s := S1x70x1062) ![0, 14, 14] S1x32x1024.size inb_S1x70x1062_S1x32x1024_0_14_14
abbrev q1_S1x70x1062_S1x32x1024_0_14_24 : Rect S1x70x1062 := Rect.unit (s := S1x70x1062) ![0, 14, 24] S1x32x1024.size inb_S1x70x1062_S1x32x1024_0_14_24
abbrev q1_S1x70x1062_S1x32x1024_0_15_13 : Rect S1x70x1062 := Rect.unit (s := S1x70x1062) ![0, 15, 13] S1x32x1024.size inb_S1x70x1062_S1x32x1024_0_15_13
abbrev q1_S1x70x1062_S1x32x1024_0_15_25 : Rect S1x70x1062 := Rect.unit (s := S1x70x1062) ![0, 15, 25] S1x32x1024.size inb_S1x70x1062_S1x32x1024_0_15_25
abbrev q1_S1x70x1062_S1x32x1024_0_16_13 : Rect S1x70x1062 := Rect.unit (s := S1x70x1062) ![0, 16, 13] S1x32x1024.size inb_S1x70x1062_S1x32x1024_0_16_13
abbrev q1_S1x70x1062_S1x32x1024_0_16_25 : Rect S1x70x1062 := Rect.unit (s := S1x70x1062) ![0, 16, 25] S1x32x1024.size inb_S1x70x1062_S1x32x1024_0_16_25
abbrev q1_S1x70x1062_S1x32x1024_0_17_12 : Rect S1x70x1062 := Rect.unit (s := S1x70x1062) ![0, 17, 12] S1x32x1024.size inb_S1x70x1062_S1x32x1024_0_17_12
abbrev q1_S1x70x1062_S1x32x1024_0_17_26 : Rect S1x70x1062 := Rect.unit (s := S1x70x1062) ![0, 17, 26] S1x32x1024.size inb_S1x70x1062_S1x32x1024_0_17_26
abbrev q1_S1x70x1062_S1x32x1024_0_18_12 : Rect S1x70x1062 := Rect.unit (s := S1x70x1062) ![0, 18, 12] S1x32x1024.size inb_S1x70x1062_S1x32x1024_0_18_12
abbrev q1_S1x70x1062_S1x32x1024_0_18_26 : Rect S1x70x1062 := Rect.unit (s := S1x70x1062) ![0, 18, 26] S1x32x1024.size inb_S1x70x1062_S1x32x1024_0_18_26
abbrev q1_S1x70x1062_S1x32x1024_0_19_12 : Rect S1x70x1062 := Rect.unit (s := S1x70x1062) ![0, 19, 12] S1x32x1024.size inb_S1x70x1062_S1x32x1024_0_19_12
abbrev q1_S1x70x1062_S1x32x1024_0_19_26 : Rect S1x70x1062 := Rect.unit (s := S1x70x1062) ![0, 19, 26] S1x32x1024.size inb_S1x70x1062_S1x32x1024_0_19_26
abbrev q1_S1x70x1062_S1x32x1024_0_20_12 : Rect S1x70x1062 := Rect.unit (s := S1x70x1062) ![0, 20, 12] S1x32x1024.size inb_S1x70x1062_S1x32x1024_0_20_12
abbrev q1_S1x70x1062_S1x32x1024_0_20_26 : Rect S1x70x1062 := Rect.unit (s := S1x70x1062) ![0, 20, 26] S1x32x1024.size inb_S1x70x1062_S1x32x1024_0_20_26
abbrev q1_S1x70x1062_S1x32x1024_0_21_12 : Rect S1x70x1062 := Rect.unit (s := S1x70x1062) ![0, 21, 12] S1x32x1024.size inb_S1x70x1062_S1x32x1024_0_21_12
abbrev q1_S1x70x1062_S1x32x1024_0_21_26 : Rect S1x70x1062 := Rect.unit (s := S1x70x1062) ![0, 21, 26] S1x32x1024.size inb_S1x70x1062_S1x32x1024_0_21_26
abbrev q1_S1x70x1062_S1x32x1024_0_22_13 : Rect S1x70x1062 := Rect.unit (s := S1x70x1062) ![0, 22, 13] S1x32x1024.size inb_S1x70x1062_S1x32x1024_0_22_13
abbrev q1_S1x70x1062_S1x32x1024_0_22_25 : Rect S1x70x1062 := Rect.unit (s := S1x70x1062) ![0, 22, 25] S1x32x1024.size inb_S1x70x1062_S1x32x1024_0_22_25
abbrev q1_S1x70x1062_S1x32x1024_0_23_13 : Rect S1x70x1062 := Rect.unit (s := S1x70x1062) ![0, 23, 13] S1x32x1024.size inb_S1x70x1062_S1x32x1024_0_23_13
abbrev q1_S1x70x1062_S1x32x1024_0_23_25 : Rect S1x70x1062 := Rect.unit (s := S1x70x1062) ![0, 23, 25] S1x32x1024.size inb_S1x70x1062_S1x32x1024_0_23_25
abbrev q1_S1x70x1062_S1x32x1024_0_24_14 : Rect S1x70x1062 := Rect.unit (s := S1x70x1062) ![0, 24, 14] S1x32x1024.size inb_S1x70x1062_S1x32x1024_0_24_14
abbrev q1_S1x70x1062_S1x32x1024_0_24_24 : Rect S1x70x1062 := Rect.unit (s := S1x70x1062) ![0, 24, 24] S1x32x1024.size inb_S1x70x1062_S1x32x1024_0_24_24
abbrev q1_S1x70x1062_S1x32x1024_0_25_15 : Rect S1x70x1062 := Rect.unit (s := S1x70x1062) ![0, 25, 15] S1x32x1024.size inb_S1x70x1062_S1x32x1024_0_25_15
abbrev q1_S1x70x1062_S1x32x1024_0_25_16 : Rect S1x70x1062 := Rect.unit (s := S1x70x1062) ![0, 25, 16] S1x32x1024.size inb_S1x70x1062_S1x32x1024_0_25_16
abbrev q1_S1x70x1062_S1x32x1024_0_25_22 : Rect S1x70x1062 := Rect.unit (s := S1x70x1062) ![0, 25, 22] S1x32x1024.size inb_S1x70x1062_S1x32x1024_0_25_22
abbrev q1_S1x70x1062_S1x32x1024_0_25_23 : Rect S1x70x1062 := Rect.unit (s := S1x70x1062) ![0, 25, 23] S1x32x1024.size inb_S1x70x1062_S1x32x1024_0_25_23
abbrev q1_S1x70x1062_S1x32x1024_0_26_17 : Rect S1x70x1062 := Rect.unit (s := S1x70x1062) ![0, 26, 17] S1x32x1024.size inb_S1x70x1062_S1x32x1024_0_26_17
abbrev q1_S1x70x1062_S1x32x1024_0_26_18 : Rect S1x70x1062 := Rect.unit (s := S1x70x1062) ![0, 26, 18] S1x32x1024.size inb_S1x70x1062_S1x32x1024_0_26_18
abbrev q1_S1x70x1062_S1x32x1024_0_26_19 : Rect S1x70x1062 := Rect.unit (s := S1x70x1062) ![0, 26, 19] S1x32x1024.size inb_S1x70x1062_S1x32x1024_0_26_19
abbrev q1_S1x70x1062_S1x32x1024_0_26_20 : Rect S1x70x1062 := Rect.unit (s := S1x70x1062) ![0, 26, 20] S1x32x1024.size inb_S1x70x1062_S1x32x1024_0_26_20
abbrev q1_S1x70x1062_S1x32x1024_0_26_21 : Rect S1x70x1062 := Rect.unit (s := S1x70x1062) ![0, 26, 21] S1x32x1024.size inb_S1x70x1062_S1x32x1024_0_26_21
abbrev q1_S1x70x1062_S1x32x1024_0_8_16 : Rect S1x70x1062 := Rect.unit (s := S1x70x1062) ![0, 8, 16] S1x32x1024.size inb_S1x70x1062_S1x32x1024_0_8_16
abbrev q1_S1x70x1062_S1x32x1024_0_8_17 : Rect S1x70x1062 := Rect.unit (s := S1x70x1062) ![0, 8, 17] S1x32x1024.size inb_S1x70x1062_S1x32x1024_0_8_17
abbrev q1_S1x70x1062_S1x32x1024_0_8_18 : Rect S1x70x1062 := Rect.unit (s := S1x70x1062) ![0, 8, 18] S1x32x1024.size inb_S1x70x1062_S1x32x1024_0_8_18
abbrev q1_S1x70x1062_S1x32x1024_0_8_19 : Rect S1x70x1062 := Rect.unit (s := S1x70x1062) ![0, 8, 19] S1x32x1024.size inb_S1x70x1062_S1x32x1024_0_8_19
abbrev q1_S1x70x1062_S1x32x1024_0_8_20 : Rect S1x70x1062 := Rect.unit (s := S1x70x1062) ![0, 8, 20] S1x32x1024.size inb_S1x70x1062_S1x32x1024_0_8_20
abbrev q1_S1x70x1062_S1x32x1024_0_8_21 : Rect S1x70x1062 := Rect.unit (s := S1x70x1062) ![0, 8, 21] S1x32x1024.size inb_S1x70x1062_S1x32x1024_0_8_21
abbrev q1_S1x70x1062_S1x32x1024_0_8_22 : Rect S1x70x1062 := Rect.unit (s := S1x70x1062) ![0, 8, 22] S1x32x1024.size inb_S1x70x1062_S1x32x1024_0_8_22
abbrev q1_S1x70x1062_S1x32x1024_0_9_14 : Rect S1x70x1062 := Rect.unit (s := S1x70x1062) ![0, 9, 14] S1x32x1024.size inb_S1x70x1062_S1x32x1024_0_9_14
abbrev q1_S1x70x1062_S1x32x1024_0_9_15 : Rect S1x70x1062 := Rect.unit (s := S1x70x1062) ![0, 9, 15] S1x32x1024.size inb_S1x70x1062_S1x32x1024_0_9_15
abbrev q1_S1x70x1062_S1x32x1024_0_9_23 : Rect S1x70x1062 := Rect.unit (s := S1x70x1062) ![0, 9, 23] S1x32x1024.size inb_S1x70x1062_S1x32x1024_0_9_23
abbrev q1_S1x70x1062_S1x32x1024_0_9_24 : Rect S1x70x1062 := Rect.unit (s := S1x70x1062) ![0, 9, 24] S1x32x1024.size inb_S1x70x1062_S1x32x1024_0_9_24
abbrev q1_S1x70x1062_S1x32x1024_0_10_12 : Rect S1x70x1062 := Rect.unit (s := S1x70x1062) ![0, 10, 12] S1x32x1024.size inb_S1x70x1062_S1x32x1024_0_10_12
abbrev q1_S1x70x1062_S1x32x1024_0_10_13 : Rect S1x70x1062 := Rect.unit (s := S1x70x1062) ![0, 10, 13] S1x32x1024.size inb_S1x70x1062_S1x32x1024_0_10_13
abbrev q1_S1x70x1062_S1x32x1024_0_10_25 : Rect S1x70x1062 := Rect.unit (s := S1x70x1062) ![0, 10, 25] S1x32x1024.size inb_S1x70x1062_S1x32x1024_0_10_25
abbrev q1_S1x70x1062_S1x32x1024_0_10_26 : Rect S1x70x1062 := Rect.unit (s := S1x70x1062) ![0, 10, 26] S1x32x1024.size inb_S1x70x1062_S1x32x1024_0_10_26
abbrev q1_S1x70x1062_S1x32x1024_0_11_11 : Rect S1x70x1062 := Rect.unit (s := S1x70x1062) ![0, 11, 11] S1x32x1024.size inb_S1x70x1062_S1x32x1024_0_11_11
abbrev q1_S1x70x1062_S1x32x1024_0_11_12 : Rect S1x70x1062 := Rect.unit (s := S1x70x1062) ![0, 11, 12] S1x32x1024.size inb_S1x70x1062_S1x32x1024_0_11_12
abbrev q1_S1x70x1062_S1x32x1024_0_11_26 : Rect S1x70x1062 := Rect.unit (s := S1x70x1062) ![0, 11, 26] S1x32x1024.size inb_S1x70x1062_S1x32x1024_0_11_26
abbrev q1_S1x70x1062_S1x32x1024_0_11_27 : Rect S1x70x1062 := Rect.unit (s := S1x70x1062) ![0, 11, 27] S1x32x1024.size inb_S1x70x1062_S1x32x1024_0_11_27
abbrev q1_S1x70x1062_S1x32x1024_0_12_10 : Rect S1x70x1062 := Rect.unit (s := S1x70x1062) ![0, 12, 10] S1x32x1024.size inb_S1x70x1062_S1x32x1024_0_12_10
abbrev q1_S1x70x1062_S1x32x1024_0_12_11 : Rect S1x70x1062 := Rect.unit (s := S1x70x1062) ![0, 12, 11] S1x32x1024.size inb_S1x70x1062_S1x32x1024_0_12_11
abbrev q1_S1x70x1062_S1x32x1024_0_12_27 : Rect S1x70x1062 := Rect.unit (s := S1x70x1062) ![0, 12, 27] S1x32x1024.size inb_S1x70x1062_S1x32x1024_0_12_27
abbrev q1_S1x70x1062_S1x32x1024_0_12_28 : Rect S1x70x1062 := Rect.unit (s := S1x70x1062) ![0, 12, 28] S1x32x1024.size inb_S1x70x1062_S1x32x1024_0_12_28
abbrev q1_S1x70x1062_S1x32x1024_0_13_10 : Rect S1x70x1062 := Rect.unit (s := S1x70x1062) ![0, 13, 10] S1x32x1024.size inb_S1x70x1062_S1x32x1024_0_13_10
abbrev q1_S1x70x1062_S1x32x1024_0_13_28 : Rect S1x70x1062 := Rect.unit (s := S1x70x1062) ![0, 13, 28] S1x32x1024.size inb_S1x70x1062_S1x32x1024_0_13_28
abbrev q1_S1x70x1062_S1x32x1024_0_14_9 : Rect S1x70x1062 := Rect.unit (s := S1x70x1062) ![0, 14, 9] S1x32x1024.size inb_S1x70x1062_S1x32x1024_0_14_9
abbrev q1_S1x70x1062_S1x32x1024_0_14_29 : Rect S1x70x1062 := Rect.unit (s := S1x70x1062) ![0, 14, 29] S1x32x1024.size inb_S1x70x1062_S1x32x1024_0_14_29
abbrev q1_S1x70x1062_S1x32x1024_0_15_9 : Rect S1x70x1062 := Rect.unit (s := S1x70x1062) ![0, 15, 9] S1x32x1024.size inb_S1x70x1062_S1x32x1024_0_15_9
abbrev q1_S1x70x1062_S1x32x1024_0_15_29 : Rect S1x70x1062 := Rect.unit (s := S1x70x1062) ![0, 15, 29] S1x32x1024.size inb_S1x70x1062_S1x32x1024_0_15_29
abbrev q1_S1x70x1062_S1x32x1024_0_16_8 : Rect S1x70x1062 := Rect.unit (s := S1x70x1062) ![0, 16, 8] S1x32x1024.size inb_S1x70x1062_S1x32x1024_0_16_8
abbrev q1_S1x70x1062_S1x32x1024_0_16_30 : Rect S1x70x1062 := Rect.unit (s := S1x70x1062) ![0, 16, 30] S1x32x1024.size inb_S1x70x1062_S1x32x1024_0_16_30
abbrev q1_S1x70x1062_S1x32x1024_0_17_8 : Rect S1x70x1062 := Rect.unit (s := S1x70x1062) ![0, 17, 8] S1x32x1024.size inb_S1x70x1062_S1x32x1024_0_17_8
abbrev q1_S1x70x1062_S1x32x1024_0_17_30 : Rect S1x70x1062 := Rect.unit (s := S1x70x1062) ![0, 17, 30] S1x32x1024.size inb_S1x70x1062_S1x32x1024_0_17_30
abbrev q1_S1x70x1062_S1x32x1024_0_18_8 : Rect S1x70x1062 := Rect.unit (s := S1x70x1062) ![0, 18, 8] S1x32x1024.size inb_S1x70x1062_S1x32x1024_0_18_8
abbrev q1_S1x70x1062_S1x32x1024_0_18_30 : Rect S1x70x1062 := Rect.unit (s := S1x70x1062) ![0, 18, 30] S1x32x1024.size inb_S1x70x1062_S1x32x1024_0_18_30
abbrev q1_S1x70x1062_S1x32x1024_0_19_8 : Rect S1x70x1062 := Rect.unit (s := S1x70x1062) ![0, 19, 8] S1x32x1024.size inb_S1x70x1062_S1x32x1024_0_19_8
abbrev q1_S1x70x1062_S1x32x1024_0_19_30 : Rect S1x70x1062 := Rect.unit (s := S1x70x1062) ![0, 19, 30] S1x32x1024.size inb_S1x70x1062_S1x32x1024_0_19_30
abbrev q1_S1x70x1062_S1x32x1024_0_20_8 : Rect S1x70x1062 := Rect.unit (s := S1x70x1062) ![0, 20, 8] S1x32x1024.size inb_S1x70x1062_S1x32x1024_0_20_8
abbrev q1_S1x70x1062_S1x32x1024_0_20_30 : Rect S1x70x1062 := Rect.unit (s := S1x70x1062) ![0, 20, 30] S1x32x1024.size inb_S1x70x1062_S1x32x1024_0_20_30
abbrev q1_S1x70x1062_S1x32x1024_0_21_8 : Rect S1x70x1062 := Rect.unit (s := S1x70x1062) ![0, 21, 8] S1x32x1024.size inb_S1x70x1062_S1x32x1024_0_21_8
abbrev q1_S1x70x1062_S1x32x1024_0_21_30 : Rect S1x70x1062 := Rect.unit (s := S1x70x1062) ![0, 21, 30] S1x32x1024.size inb_S1x70x1062_S1x32x1024_0_21_30
abbrev q1_S1x70x1062_S1x32x1024_0_22_8 : Rect S1x70x1062 := Rect.unit (s := S1x70x1062) ![0, 22, 8] S1x32x1024.size inb_S1x70x1062_S1x32x1024_0_22_8
abbrev q1_S1x70x1062_S1x32x1024_0_22_30 : Rect S1x70x1062 := Rect.unit (s := S1x70x1062) ![0, 22, 30] S1x32x1024.size inb_S1x70x1062_S1x32x1024_0_22_30
abbrev q1_S1x70x1062_S1x32x1024_0_23_9 : Rect S1x70x1062 := Rect.unit (s := S1x70x1062) ![0, 23, 9] S1x32x1024.size inb_S1x70x1062_S1x32x1024_0_23_9
abbrev q1_S1x70x1062_S1x32x1024_0_23_29 : Rect S1x70x1062 := Rect.unit (s := S1x70x1062) ![0, 23, 29] S1x32x1024.size inb_S1x70x1062_S1x32x1024_0_23_29
abbrev q1_S1x70x1062_S1x32x1024_0_24_9 : Rect S1x70x1062 := Rect.unit (s := S1x70x1062) ![0, 24, 9] S1x32x1024.size inb_S1x70x1062_S1x32x1024_0_24_9
abbrev q1_S1x70x1062_S1x32x1024_0_24_29 : Rect S1x70x1062 := Rect.unit (s := S1x70x1062) ![0, 24, 29] S1x32x1024.size inb_S1x70x1062_S1x32x1024_0_24_29
abbrev q1_S1x70x1062_S1x32x1024_0_25_10 : Rect S1x70x1062 := Rect.unit (s := S1x70x1062) ![0, 25, 10] S1x32x1024.size inb_S1x70x1062_S1x32x1024_0_25_10
abbrev q1_S1x70x1062_S1x32x1024_0_25_28 : Rect S1x70x1062 := Rect.unit (s := S1x70x1062) ![0, 25, 28] S1x32x1024.size inb_S1x70x1062_S1x32x1024_0_25_28
abbrev q1_S1x70x1062_S1x32x1024_0_26_10 : Rect S1x70x1062 := Rect.unit (s := S1x70x1062) ![0, 26, 10] S1x32x1024.size inb_S1x70x1062_S1x32x1024_0_26_10
abbrev q1_S1x70x1062_S1x32x1024_0_26_11 : Rect S1x70x1062 := Rect.unit (s := S1x70x1062) ![0, 26, 11] S1x32x1024.size inb_S1x70x1062_S1x32x1024_0_26_11
abbrev q1_S1x70x1062_S1x32x1024_0_26_27 : Rect S1x70x1062 := Rect.unit (s := S1x70x1062) ![0, 26, 27] S1x32x1024.size inb_S1x70x1062_S1x32x1024_0_26_27
abbrev q1_S1x70x1062_S1x32x1024_0_26_28 : Rect S1x70x1062 := Rect.unit (s := S1x70x1062) ![0, 26, 28] S1x32x1024.size inb_S1x70x1062_S1x32x1024_0_26_28
abbrev q1_S1x70x1062_S1x32x1024_0_27_11 : Rect S1x70x1062 := Rect.unit (s := S1x70x1062) ![0, 27, 11] S1x32x1024.size inb_S1x70x1062_S1x32x1024_0_27_11
abbrev q1_S1x70x1062_S1x32x1024_0_27_12 : Rect S1x70x1062 := Rect.unit (s := S1x70x1062) ![0, 27, 12] S1x32x1024.size inb_S1x70x1062_S1x32x1024_0_27_12
abbrev q1_S1x70x1062_S1x32x1024_0_27_26 : Rect S1x70x1062 := Rect.unit (s := S1x70x1062) ![0, 27, 26] S1x32x1024.size inb_S1x70x1062_S1x32x1024_0_27_26
abbrev q1_S1x70x1062_S1x32x1024_0_27_27 : Rect S1x70x1062 := Rect.unit (s := S1x70x1062) ![0, 27, 27] S1x32x1024.size inb_S1x70x1062_S1x32x1024_0_27_27
abbrev q1_S1x70x1062_S1x32x1024_0_28_12 : Rect S1x70x1062 := Rect.unit (s := S1x70x1062) ![0, 28, 12] S1x32x1024.size inb_S1x70x1062_S1x32x1024_0_28_12
abbrev q1_S1x70x1062_S1x32x1024_0_28_13 : Rect S1x70x1062 := Rect.unit (s := S1x70x1062) ![0, 28, 13] S1x32x1024.size inb_S1x70x1062_S1x32x1024_0_28_13
abbrev q1_S1x70x1062_S1x32x1024_0_28_25 : Rect S1x70x1062 := Rect.unit (s := S1x70x1062) ![0, 28, 25] S1x32x1024.size inb_S1x70x1062_S1x32x1024_0_28_25
abbrev q1_S1x70x1062_S1x32x1024_0_28_26 : Rect S1x70x1062 := Rect.unit (s := S1x70x1062) ![0, 28, 26] S1x32x1024.size inb_S1x70x1062_S1x32x1024_0_28_26
abbrev q1_S1x70x1062_S1x32x1024_0_29_14 : Rect S1x70x1062 := Rect.unit (s := S1x70x1062) ![0, 29, 14] S1x32x1024.size inb_S1x70x1062_S1x32x1024_0_29_14
abbrev q1_S1x70x1062_S1x32x1024_0_29_15 : Rect S1x70x1062 := Rect.unit (s := S1x70x1062) ![0, 29, 15] S1x32x1024.size inb_S1x70x1062_S1x32x1024_0_29_15
abbrev q1_S1x70x1062_S1x32x1024_0_29_23 : Rect S1x70x1062 := Rect.unit (s := S1x70x1062) ![0, 29, 23] S1x32x1024.size inb_S1x70x1062_S1x32x1024_0_29_23
abbrev q1_S1x70x1062_S1x32x1024_0_29_24 : Rect S1x70x1062 := Rect.unit (s := S1x70x1062) ![0, 29, 24] S1x32x1024.size inb_S1x70x1062_S1x32x1024_0_29_24
abbrev q1_S1x70x1062_S1x32x1024_0_30_16 : Rect S1x70x1062 := Rect.unit (s := S1x70x1062) ![0, 30, 16] S1x32x1024.size inb_S1x70x1062_S1x32x1024_0_30_16
abbrev q1_S1x70x1062_S1x32x1024_0_30_17 : Rect S1x70x1062 := Rect.unit (s := S1x70x1062) ![0, 30, 17] S1x32x1024.size inb_S1x70x1062_S1x32x1024_0_30_17
abbrev q1_S1x70x1062_S1x32x1024_0_30_18 : Rect S1x70x1062 := Rect.unit (s := S1x70x1062) ![0, 30, 18] S1x32x1024.size inb_S1x70x1062_S1x32x1024_0_30_18
abbrev q1_S1x70x1062_S1x32x1024_0_30_19 : Rect S1x70x1062 := Rect.unit (s := S1x70x1062) ![0, 30, 19] S1x32x1024.size inb_S1x70x1062_S1x32x1024_0_30_19
abbrev q1_S1x70x1062_S1x32x1024_0_30_20 : Rect S1x70x1062 := Rect.unit (s := S1x70x1062) ![0, 30, 20] S1x32x1024.size inb_S1x70x1062_S1x32x1024_0_30_20
abbrev q1_S1x70x1062_S1x32x1024_0_30_21 : Rect S1x70x1062 := Rect.unit (s := S1x70x1062) ![0, 30, 21] S1x32x1024.size inb_S1x70x1062_S1x32x1024_0_30_21
abbrev q1_S1x70x1062_S1x32x1024_0_30_22 : Rect S1x70x1062 := Rect.unit (s := S1x70x1062) ![0, 30, 22] S1x32x1024.size inb_S1x70x1062_S1x32x1024_0_30_22
abbrev q1_S1x70x1062_S1x32x1024_0_4_16 : Rect S1x70x1062 := Rect.unit (s := S1x70x1062) ![0, 4, 16] S1x32x1024.size inb_S1x70x1062_S1x32x1024_0_4_16
abbrev q1_S1x70x1062_S1x32x1024_0_4_17 : Rect S1x70x1062 := Rect.unit (s := S1x70x1062) ![0, 4, 17] S1x32x1024.size inb_S1x70x1062_S1x32x1024_0_4_17
abbrev q1_S1x70x1062_S1x32x1024_0_4_18 : Rect S1x70x1062 := Rect.unit (s := S1x70x1062) ![0, 4, 18] S1x32x1024.size inb_S1x70x1062_S1x32x1024_0_4_18
abbrev q1_S1x70x1062_S1x32x1024_0_4_19 : Rect S1x70x1062 := Rect.unit (s := S1x70x1062) ![0, 4, 19] S1x32x1024.size inb_S1x70x1062_S1x32x1024_0_4_19
abbrev q1_S1x70x1062_S1x32x1024_0_4_20 : Rect S1x70x1062 := Rect.unit (s := S1x70x1062) ![0, 4, 20] S1x32x1024.size inb_S1x70x1062_S1x32x1024_0_4_20
abbrev q1_S1x70x1062_S1x32x1024_0_4_21 : Rect S1x70x1062 := Rect.unit (s := S1x70x1062) ![0, 4, 21] S1x32x1024.size inb_S1x70x1062_S1x32x1024_0_4_21
abbrev q1_S1x70x1062_S1x32x1024_0_4_22 : Rect S1x70x1062 := Rect.unit (s := S1x70x1062) ![0, 4, 22] S1x32x1024.size inb_S1x70x1062_S1x32x1024_0_4_22
abbrev q1_S1x70x1062_S1x32x1024_0_5_13 : Rect S1x70x1062 := Rect.unit (s := S1x70x1062) ![0, 5, 13] S1x32x1024.size inb_S1x70x1062_S1x32x1024_0_5_13
abbrev q1_S1x70x1062_S1x32x1024_0_5_14 : Rect S1x70x1062 := Rect.unit (s := S1x70x1062) ![0, 5, 14] S1x32x1024.size inb_S1x70x1062_S1x32x1024_0_5_14
abbrev q1_S1x70x1062_S1x32x1024_0_5_15 : Rect S1x70x1062 := Rect.unit (s := S1x70x1062) ![0, 5, 15] S1x32x1024.size inb_S1x70x1062_S1x32x1024_0_5_15
abbrev q1_S1x70x1062_S1x32x1024_0_5_23 : Rect S1x70x1062 := Rect.unit (s := S1x70x1062) ![0, 5, 23] S1x32x1024.size inb_S1x70x1062_S1x32x1024_0_5_23
abbrev q1_S1x70x1062_S1x32x1024_0_5_24 : Rect S1x70x1062 := Rect.unit (s := S1x70x1062) ![0, 5, 24] S1x32x1024.size inb_S1x70x1062_S1x32x1024_0_5_24
abbrev q1_S1x70x1062_S1x32x1024_0_5_25 : Rect S1x70x1062 := Rect.unit (s := S1x70x1062) ![0, 5, 25] S1x32x1024.size inb_S1x70x1062_S1x32x1024_0_5_25
abbrev q1_S1x70x1062_S1x32x1024_0_6_11 : Rect S1x70x1062 := Rect.unit (s := S1x70x1062) ![0, 6, 11] S1x32x1024.size inb_S1x70x1062_S1x32x1024_0_6_11
abbrev q1_S1x70x1062_S1x32x1024_0_6_12 : Rect S1x70x1062 := Rect.unit (s := S1x70x1062) ![0, 6, 12] S1x32x1024.size inb_S1x70x1062_S1x32x1024_0_6_12
abbrev q1_S1x70x1062_S1x32x1024_0_6_26 : Rect S1x70x1062 := Rect.unit (s := S1x70x1062) ![0, 6, 26] S1x32x1024.size inb_S1x70x1062_S1x32x1024_0_6_26
abbrev q1_S1x70x1062_S1x32x1024_0_6_27 : Rect S1x70x1062 := Rect.unit (s := S1x70x1062) ![0, 6, 27] S1x32x1024.size inb_S1x70x1062_S1x32x1024_0_6_27
abbrev q1_S1x70x1062_S1x32x1024_0_7_10 : Rect S1x70x1062 := Rect.unit (s := S1x70x1062) ![0, 7, 10] S1x32x1024.size inb_S1x70x1062_S1x32x1024_0_7_10
abbrev q1_S1x70x1062_S1x32x1024_0_7_28 : Rect S1x70x1062 := Rect.unit (s := S1x70x1062) ![0, 7, 28] S1x32x1024.size inb_S1x70x1062_S1x32x1024_0_7_28
abbrev q1_S1x70x1062_S1x32x1024_0_8_9 : Rect S1x70x1062 := Rect.unit (s := S1x70x1062) ![0, 8, 9] S1x32x1024.size inb_S1x70x1062_S1x32x1024_0_8_9
abbrev q1_S1x70x1062_S1x32x1024_0_8_29 : Rect S1x70x1062 := Rect.unit (s := S1x70x1062) ![0, 8, 29] S1x32x1024.size inb_S1x70x1062_S1x32x1024_0_8_29
abbrev q1_S1x70x1062_S1x32x1024_0_9_8 : Rect S1x70x1062 := Rect.unit (s := S1x70x1062) ![0, 9, 8] S1x32x1024.size inb_S1x70x1062_S1x32x1024_0_9_8
abbrev q1_S1x70x1062_S1x32x1024_0_9_30 : Rect S1x70x1062 := Rect.unit (s := S1x70x1062) ![0, 9, 30] S1x32x1024.size inb_S1x70x1062_S1x32x1024_0_9_30
abbrev q1_S1x70x1062_S1x32x1024_0_10_7 : Rect S1x70x1062 := Rect.unit (s := S1x70x1062) ![0, 10, 7] S1x32x1024.size inb_S1x70x1062_S1x32x1024_0_10_7
abbrev q1_S1x70x1062_S1x32x1024_0_10_31 : Rect S1x70x1062 := Rect.unit (s := S1x70x1062) ![0, 10, 31] S1x32x1024.size inb_S1x70x1062_S1x32x1024_0_10_31
abbrev q1_S1x70x1062_S1x32x1024_0_11_6 : Rect S1x70x1062 := Rect.unit (s := S1x70x1062) ![0, 11, 6] S1x32x1024.size inb_S1x70x1062_S1x32x1024_0_11_6
abbrev q1_S1x70x1062_S1x32x1024_0_11_32 : Rect S1x70x1062 := Rect.unit (s := S1x70x1062) ![0, 11, 32] S1x32x1024.size inb_S1x70x1062_S1x32x1024_0_11_32
abbrev q1_S1x70x1062_S1x32x1024_0_12_6 : Rect S1x70x1062 := Rect.unit (s := S1x70x1062) ![0, 12, 6] S1x32x1024.size inb_S1x70x1062_S1x32x1024_0_12_6
abbrev q1_S1x70x1062_S1x32x1024_0_12_32 : Rect S1x70x1062 := Rect.unit (s := S1x70x1062) ![0, 12, 32] S1x32x1024.size inb_S1x70x1062_S1x32x1024_0_12_32
abbrev q1_S1x70x1062_S1x32x1024_0_13_5 : Rect S1x70x1062 := Rect.unit (s := S1x70x1062) ![0, 13, 5] S1x32x1024.size inb_S1x70x1062_S1x32x1024_0_13_5
abbrev q1_S1x70x1062_S1x32x1024_0_13_33 : Rect S1x70x1062 := Rect.unit (s := S1x70x1062) ![0, 13, 33] S1x32x1024.size inb_S1x70x1062_S1x32x1024_0_13_33
abbrev q1_S1x70x1062_S1x32x1024_0_14_5 : Rect S1x70x1062 := Rect.unit (s := S1x70x1062) ![0, 14, 5] S1x32x1024.size inb_S1x70x1062_S1x32x1024_0_14_5
abbrev q1_S1x70x1062_S1x32x1024_0_14_33 : Rect S1x70x1062 := Rect.unit (s := S1x70x1062) ![0, 14, 33] S1x32x1024.size inb_S1x70x1062_S1x32x1024_0_14_33
abbrev q1_S1x70x1062_S1x32x1024_0_15_5 : Rect S1x70x1062 := Rect.unit (s := S1x70x1062) ![0, 15, 5] S1x32x1024.size inb_S1x70x1062_S1x32x1024_0_15_5
abbrev q1_S1x70x1062_S1x32x1024_0_15_33 : Rect S1x70x1062 := Rect.unit (s := S1x70x1062) ![0, 15, 33] S1x32x1024.size inb_S1x70x1062_S1x32x1024_0_15_33
abbrev q1_S1x70x1062_S1x32x1024_0_16_4 : Rect S1x70x1062 := Rect.unit (s := S1x70x1062) ![0, 16, 4] S1x32x1024.size inb_S1x70x1062_S1x32x1024_0_16_4
abbrev q1_S1x70x1062_S1x32x1024_0_16_34 : Rect S1x70x1062 := Rect.unit (s := S1x70x1062) ![0, 16, 34] S1x32x1024.size inb_S1x70x1062_S1x32x1024_0_16_34
abbrev q1_S1x70x1062_S1x32x1024_0_17_4 : Rect S1x70x1062 := Rect.unit (s := S1x70x1062) ![0, 17, 4] S1x32x1024.size inb_S1x70x1062_S1x32x1024_0_17_4
abbrev q1_S1x70x1062_S1x32x1024_0_17_34 : Rect S1x70x1062 := Rect.unit (s := S1x70x1062) ![0, 17, 34] S1x32x1024.size inb_S1x70x1062_S1x32x1024_0_17_34
abbrev q1_S1x70x1062_S1x32x1024_0_18_4 : Rect S1x70x1062 := Rect.unit (s := S1x70x1062) ![0, 18, 4] S1x32x1024.size inb_S1x70x1062_S1x32x1024_0_18_4
abbrev q1_S1x70x1062_S1x32x1024_0_18_34 : Rect S1x70x1062 := Rect.unit (s := S1x70x1062) ![0, 18, 34] S1x32x1024.size inb_S1x70x1062_S1x32x1024_0_18_34
abbrev q1_S1x70x1062_S1x32x1024_0_19_4 : Rect S1x70x1062 := Rect.unit (s := S1x70x1062) ![0, 19, 4] S1x32x1024.size inb_S1x70x1062_S1x32x1024_0_19_4
abbrev q1_S1x70x1062_S1x32x1024_0_19_34 : Rect S1x70x1062 := Rect.unit (s := S1x70x1062) ![0, 19, 34] S1x32x1024.size inb_S1x70x1062_S1x32x1024_0_19_34
abbrev q1_S1x70x1062_S1x32x1024_0_20_4 : Rect S1x70x1062 := Rect.unit (s := S1x70x1062) ![0, 20, 4] S1x32x1024.size inb_S1x70x1062_S1x32x1024_0_20_4
abbrev q1_S1x70x1062_S1x32x1024_0_20_34 : Rect S1x70x1062 := Rect.unit (s := S1x70x1062) ![0, 20, 34] S1x32x1024.size inb_S1x70x1062_S1x32x1024_0_20_34
abbrev q1_S1x70x1062_S1x32x1024_0_21_4 : Rect S1x70x1062 := Rect.unit (s := S1x70x1062) ![0, 21, 4] S1x32x1024.size inb_S1x70x1062_S1x32x1024_0_21_4
abbrev q1_S1x70x1062_S1x32x1024_0_21_34 : Rect S1x70x1062 := Rect.unit (s := S1x70x1062) ![0, 21, 34] S1x32x1024.size inb_S1x70x1062_S1x32x1024_0_21_34
abbrev q1_S1x70x1062_S1x32x1024_0_22_4 : Rect S1x70x1062 := Rect.unit (s := S1x70x1062) ![0, 22, 4] S1x32x1024.size inb_S1x70x1062_S1x32x1024_0_22_4
abbrev q1_S1x70x1062_S1x32x1024_0_22_34 : Rect S1x70x1062 := Rect.unit (s := S1x70x1062) ![0, 22, 34] S1x32x1024.size inb_S1x70x1062_S1x32x1024_0_22_34
abbrev q1_S1x70x1062_S1x32x1024_0_23_5 : Rect S1x70x1062 := Rect.unit (s := S1x70x1062) ![0, 23, 5] S1x32x1024.size inb_S1x70x1062_S1x32x1024_0_23_5
abbrev q1_S1x70x1062_S1x32x1024_0_23_33 : Rect S1x70x1062 := Rect.unit (s := S1x70x1062) ![0, 23, 33] S1x32x1024.size inb_S1x70x1062_S1x32x1024_0_23_33
abbrev q1_S1x70x1062_S1x32x1024_0_24_5 : Rect S1x70x1062 := Rect.unit (s := S1x70x1062) ![0, 24, 5] S1x32x1024.size inb_S1x70x1062_S1x32x1024_0_24_5
abbrev q1_S1x70x1062_S1x32x1024_0_24_33 : Rect S1x70x1062 := Rect.unit (s := S1x70x1062) ![0, 24, 33] S1x32x1024.size inb_S1x70x1062_S1x32x1024_0_24_33
abbrev q1_S1x70x1062_S1x32x1024_0_25_5 : Rect S1x70x1062 := Rect.unit (s := S1x70x1062) ![0, 25, 5] S1x32x1024.size inb_S1x70x1062_S1x32x1024_0_25_5
abbrev q1_S1x70x1062_S1x32x1024_0_25_33 : Rect S1x70x1062 := Rect.unit (s := S1x70x1062) ![0, 25, 33] S1x32x1024.size inb_S1x70x1062_S1x32x1024_0_25_33
abbrev q1_S1x70x1062_S1x32x1024_0_26_6 : Rect S1x70x1062 := Rect.unit (s := S1x70x1062) ![0, 26, 6] S1x32x1024.size inb_S1x70x1062_S1x32x1024_0_26_6
abbrev q1_S1x70x1062_S1x32x1024_0_26_32 : Rect S1x70x1062 := Rect.unit (s := S1x70x1062) ![0, 26, 32] S1x32x1024.size inb_S1x70x1062_S1x32x1024_0_26_32
abbrev q1_S1x70x1062_S1x32x1024_0_27_6 : Rect S1x70x1062 := Rect.unit (s := S1x70x1062) ![0, 27, 6] S1x32x1024.size inb_S1x70x1062_S1x32x1024_0_27_6
abbrev q1_S1x70x1062_S1x32x1024_0_27_32 : Rect S1x70x1062 := Rect.unit (s := S1x70x1062) ![0, 27, 32] S1x32x1024.size inb_S1x70x1062_S1x32x1024_0_27_32
abbrev q1_S1x70x1062_S1x32x1024_0_28_7 : Rect S1x70x1062 := Rect.unit (s := S1x70x1062) ![0, 28, 7] S1x32x1024.size inb_S1x70x1062_S1x32x1024_0_28_7
abbrev q1_S1x70x1062_S1x32x1024_0_28_31 : Rect S1x70x1062 := Rect.unit (s := S1x70x1062) ![0, 28, 31] S1x32x1024.size inb_S1x70x1062_S1x32x1024_0_28_31
abbrev q1_S1x70x1062_S1x32x1024_0_29_8 : Rect S1x70x1062 := Rect.unit (s := S1x70x1062) ![0, 29, 8] S1x32x1024.size inb_S1x70x1062_S1x32x1024_0_29_8
abbrev q1_S1x70x1062_S1x32x1024_0_29_30 : Rect S1x70x1062 := Rect.unit (s := S1x70x1062) ![0, 29, 30] S1x32x1024.size inb_S1x70x1062_S1x32x1024_0_29_30
abbrev q1_S1x70x1062_S1x32x1024_0_30_9 : Rect S1x70x1062 := Rect.unit (s := S1x70x1062) ![0, 30, 9] S1x32x1024.size inb_S1x70x1062_S1x32x1024_0_30_9
abbrev q1_S1x70x1062_S1x32x1024_0_30_29 : Rect S1x70x1062 := Rect.unit (s := S1x70x1062) ![0, 30, 29] S1x32x1024.size inb_S1x70x1062_S1x32x1024_0_30_29
abbrev q1_S1x70x1062_S1x32x1024_0_31_10 : Rect S1x70x1062 := Rect.unit (s := S1x70x1062) ![0, 31, 10] S1x32x1024.size inb_S1x70x1062_S1x32x1024_0_31_10
abbrev q1_S1x70x1062_S1x32x1024_0_31_28 : Rect S1x70x1062 := Rect.unit (s := S1x70x1062) ![0, 31, 28] S1x32x1024.size inb_S1x70x1062_S1x32x1024_0_31_28
abbrev q1_S1x70x1062_S1x32x1024_0_32_11 : Rect S1x70x1062 := Rect.unit (s := S1x70x1062) ![0, 32, 11] S1x32x1024.size inb_S1x70x1062_S1x32x1024_0_32_11
abbrev q1_S1x70x1062_S1x32x1024_0_32_12 : Rect S1x70x1062 := Rect.unit (s := S1x70x1062) ![0, 32, 12] S1x32x1024.size inb_S1x70x1062_S1x32x1024_0_32_12
abbrev q1_S1x70x1062_S1x32x1024_0_32_26 : Rect S1x70x1062 := Rect.unit (s := S1x70x1062) ![0, 32, 26] S1x32x1024.size inb_S1x70x1062_S1x32x1024_0_32_26
abbrev q1_S1x70x1062_S1x32x1024_0_32_27 : Rect S1x70x1062 := Rect.unit (s := S1x70x1062) ![0, 32, 27] S1x32x1024.size inb_S1x70x1062_S1x32x1024_0_32_27
abbrev q1_S1x70x1062_S1x32x1024_0_33_13 : Rect S1x70x1062 := Rect.unit (s := S1x70x1062) ![0, 33, 13] S1x32x1024.size inb_S1x70x1062_S1x32x1024_0_33_13
abbrev q1_S1x70x1062_S1x32x1024_0_33_14 : Rect S1x70x1062 := Rect.unit (s := S1x70x1062) ![0, 33, 14] S1x32x1024.size inb_S1x70x1062_S1x32x1024_0_33_14
abbrev q1_S1x70x1062_S1x32x1024_0_33_15 : Rect S1x70x1062 := Rect.unit (s := S1x70x1062) ![0, 33, 15] S1x32x1024.size inb_S1x70x1062_S1x32x1024_0_33_15
abbrev q1_S1x70x1062_S1x32x1024_0_33_23 : Rect S1x70x1062 := Rect.unit (s := S1x70x1062) ![0, 33, 23] S1x32x1024.size inb_S1x70x1062_S1x32x1024_0_33_23
abbrev q1_S1x70x1062_S1x32x1024_0_33_24 : Rect S1x70x1062 := Rect.unit (s := S1x70x1062) ![0, 33, 24] S1x32x1024.size inb_S1x70x1062_S1x32x1024_0_33_24
abbrev q1_S1x70x1062_S1x32x1024_0_33_25 : Rect S1x70x1062 := Rect.unit (s := S1x70x1062) ![0, 33, 25] S1x32x1024.size inb_S1x70x1062_S1x32x1024_0_33_25
abbrev q1_S1x70x1062_S1x32x1024_0_34_16 : Rect S1x70x1062 := Rect.unit (s := S1x70x1062) ![0, 34, 16] S1x32x1024.size inb_S1x70x1062_S1x32x1024_0_34_16
abbrev q1_S1x70x1062_S1x32x1024_0_34_17 : Rect S1x70x1062 := Rect.unit (s := S1x70x1062) ![0, 34, 17] S1x32x1024.size inb_S1x70x1062_S1x32x1024_0_34_17
abbrev q1_S1x70x1062_S1x32x1024_0_34_18 : Rect S1x70x1062 := Rect.unit (s := S1x70x1062) ![0, 34, 18] S1x32x1024.size inb_S1x70x1062_S1x32x1024_0_34_18
abbrev q1_S1x70x1062_S1x32x1024_0_34_19 : Rect S1x70x1062 := Rect.unit (s := S1x70x1062) ![0, 34, 19] S1x32x1024.size inb_S1x70x1062_S1x32x1024_0_34_19
abbrev q1_S1x70x1062_S1x32x1024_0_34_20 : Rect S1x70x1062 := Rect.unit (s := S1x70x1062) ![0, 34, 20] S1x32x1024.size inb_S1x70x1062_S1x32x1024_0_34_20
abbrev q1_S1x70x1062_S1x32x1024_0_34_21 : Rect S1x70x1062 := Rect.unit (s := S1x70x1062) ![0, 34, 21] S1x32x1024.size inb_S1x70x1062_S1x32x1024_0_34_21
abbrev q1_S1x70x1062_S1x32x1024_0_34_22 : Rect S1x70x1062 := Rect.unit (s := S1x70x1062) ![0, 34, 22] S1x32x1024.size inb_S1x70x1062_S1x32x1024_0_34_22
abbrev q1_S1x70x1062_S1x32x1024_0_0_15 : Rect S1x70x1062 := Rect.unit (s := S1x70x1062) ![0, 0, 15] S1x32x1024.size inb_S1x70x1062_S1x32x1024_0_0_15
abbrev q1_S1x70x1062_S1x32x1024_0_0_16 : Rect S1x70x1062 := Rect.unit (s := S1x70x1062) ![0, 0, 16] S1x32x1024.size inb_S1x70x1062_S1x32x1024_0_0_16
abbrev q1_S1x70x1062_S1x32x1024_0_0_17 : Rect S1x70x1062 := Rect.unit (s := S1x70x1062) ![0, 0, 17] S1x32x1024.size inb_S1x70x1062_S1x32x1024_0_0_17
abbrev q1_S1x70x1062_S1x32x1024_0_0_18 : Rect S1x70x1062 := Rect.unit (s := S1x70x1062) ![0, 0, 18] S1x32x1024.size inb_S1x70x1062_S1x32x1024_0_0_18
abbrev q1_S1x70x1062_S1x32x1024_0_0_19 : Rect S1x70x1062 := Rect.unit (s := S1x70x1062) ![0, 0, 19] S1x32x1024.size inb_S1x70x1062_S1x32x1024_0_0_19
abbrev q1_S1x70x1062_S1x32x1024_0_0_20 : Rect S1x70x1062 := Rect.unit (s := S1x70x1062) ![0, 0, 20] S1x32x1024.size inb_S1x70x1062_S1x32x1024_0_0_20
abbrev q1_S1x70x1062_S1x32x1024_0_0_21 : Rect S1x70x1062 := Rect.unit (s := S1x70x1062) ![0, 0, 21] S1x32x1024.size inb_S1x70x1062_S1x32x1024_0_0_21
abbrev q1_S1x70x1062_S1x32x1024_0_0_22 : Rect S1x70x1062 := Rect.unit (s := S1x70x1062) ![0, 0, 22] S1x32x1024.size inb_S1x70x1062_S1x32x1024_0_0_22
abbrev q1_S1x70x1062_S1x32x1024_0_0_23 : Rect S1x70x1062 := Rect.unit (s := S1x70x1062) ![0, 0, 23] S1x32x1024.size inb_S1x70x1062_S1x32x1024_0_0_23
abbrev q1_S1x70x1062_S1x32x1024_0_1_12 : Rect S1x70x1062 := Rect.unit (s := S1x70x1062) ![0, 1, 12] S1x32x1024.size inb_S1x70x1062_S1x32x1024_0_1_12
abbrev q1_S1x70x1062_S1x32x1024_0_1_13 : Rect S1x70x1062 := Rect.unit (s := S1x70x1062) ![0, 1, 13] S1x32x1024.size inb_S1x70x1062_S1x32x1024_0_1_13
abbrev q1_S1x70x1062_S1x32x1024_0_1_14 : Rect S1x70x1062 := Rect.unit (s := S1x70x1062) ![0, 1, 14] S1x32x1024.size inb_S1x70x1062_S1x32x1024_0_1_14
abbrev q1_S1x70x1062_S1x32x1024_0_1_24 : Rect S1x70x1062 := Rect.unit (s := S1x70x1062) ![0, 1, 24] S1x32x1024.size inb_S1x70x1062_S1x32x1024_0_1_24
abbrev q1_S1x70x1062_S1x32x1024_0_1_25 : Rect S1x70x1062 := Rect.unit (s := S1x70x1062) ![0, 1, 25] S1x32x1024.size inb_S1x70x1062_S1x32x1024_0_1_25
abbrev q1_S1x70x1062_S1x32x1024_0_1_26 : Rect S1x70x1062 := Rect.unit (s := S1x70x1062) ![0, 1, 26] S1x32x1024.size inb_S1x70x1062_S1x32x1024_0_1_26
abbrev q1_S1x70x1062_S1x32x1024_0_2_10 : Rect S1x70x1062 := Rect.unit (s := S1x70x1062) ![0, 2, 10] S1x32x1024.size inb_S1x70x1062_S1x32x1024_0_2_10
abbrev q1_S1x70x1062_S1x32x1024_0_2_11 : Rect S1x70x1062 := Rect.unit (s := S1x70x1062) ![0, 2, 11] S1x32x1024.size inb_S1x70x1062_S1x32x1024_0_2_11
abbrev q1_S1x70x1062_S1x32x1024_0_2_27 : Rect S1x70x1062 := Rect.unit (s := S1x70x1062) ![0, 2, 27] S1x32x1024.size inb_S1x70x1062_S1x32x1024_0_2_27
abbrev q1_S1x70x1062_S1x32x1024_0_2_28 : Rect S1x70x1062 := Rect.unit (s := S1x70x1062) ![0, 2, 28] S1x32x1024.size inb_S1x70x1062_S1x32x1024_0_2_28
abbrev q1_S1x70x1062_S1x32x1024_0_3_8 : Rect S1x70x1062 := Rect.unit (s := S1x70x1062) ![0, 3, 8] S1x32x1024.size inb_S1x70x1062_S1x32x1024_0_3_8
abbrev q1_S1x70x1062_S1x32x1024_0_3_9 : Rect S1x70x1062 := Rect.unit (s := S1x70x1062) ![0, 3, 9] S1x32x1024.size inb_S1x70x1062_S1x32x1024_0_3_9
abbrev q1_S1x70x1062_S1x32x1024_0_3_29 : Rect S1x70x1062 := Rect.unit (s := S1x70x1062) ![0, 3, 29] S1x32x1024.size inb_S1x70x1062_S1x32x1024_0_3_29
abbrev q1_S1x70x1062_S1x32x1024_0_3_30 : Rect S1x70x1062 := Rect.unit (s := S1x70x1062) ![0, 3, 30] S1x32x1024.size inb_S1x70x1062_S1x32x1024_0_3_30
abbrev q1_S1x70x1062_S1x32x1024_0_4_7 : Rect S1x70x1062 := Rect.unit (s := S1x70x1062) ![0, 4, 7] S1x32x1024.size inb_S1x70x1062_S1x32x1024_0_4_7
abbrev q1_S1x70x1062_S1x32x1024_0_4_8 : Rect S1x70x1062 := Rect.unit (s := S1x70x1062) ![0, 4, 8] S1x32x1024.size inb_S1x70x1062_S1x32x1024_0_4_8
abbrev q1_S1x70x1062_S1x32x1024_0_4_30 : Rect S1x70x1062 := Rect.unit (s := S1x70x1062) ![0, 4, 30] S1x32x1024.size inb_S1x70x1062_S1x32x1024_0_4_30
abbrev q1_S1x70x1062_S1x32x1024_0_4_31 : Rect S1x70x1062 := Rect.unit (s := S1x70x1062) ![0, 4, 31] S1x32x1024.size inb_S1x70x1062_S1x32x1024_0_4_31
abbrev q1_S1x70x1062_S1x32x1024_0_5_6 : Rect S1x70x1062 := Rect.unit (s := S1x70x1062) ![0, 5, 6] S1x32x1024.size inb_S1x70x1062_S1x32x1024_0_5_6
abbrev q1_S1x70x1062_S1x32x1024_0_5_32 : Rect S1x70x1062 := Rect.unit (s := S1x70x1062) ![0, 5, 32] S1x32x1024.size inb_S1x70x1062_S1x32x1024_0_5_32
abbrev q1_S1x70x1062_S1x32x1024_0_6_5 : Rect S1x70x1062 := Rect.unit (s := S1x70x1062) ![0, 6, 5] S1x32x1024.size inb_S1x70x1062_S1x32x1024_0_6_5
abbrev q1_S1x70x1062_S1x32x1024_0_6_33 : Rect S1x70x1062 := Rect.unit (s := S1x70x1062) ![0, 6, 33] S1x32x1024.size inb_S1x70x1062_S1x32x1024_0_6_33
abbrev q1_S1x70x1062_S1x32x1024_0_7_4 : Rect S1x70x1062 := Rect.unit (s := S1x70x1062) ![0, 7, 4] S1x32x1024.size inb_S1x70x1062_S1x32x1024_0_7_4
abbrev q1_S1x70x1062_S1x32x1024_0_7_34 : Rect S1x70x1062 := Rect.unit (s := S1x70x1062) ![0, 7, 34] S1x32x1024.size inb_S1x70x1062_S1x32x1024_0_7_34
abbrev q1_S1x70x1062_S1x32x1024_0_8_3 : Rect S1x70x1062 := Rect.unit (s := S1x70x1062) ![0, 8, 3] S1x32x1024.size inb_S1x70x1062_S1x32x1024_0_8_3
abbrev q1_S1x70x1062_S1x32x1024_0_8_4 : Rect S1x70x1062 := Rect.unit (s := S1x70x1062) ![0, 8, 4] S1x32x1024.size inb_S1x70x1062_S1x32x1024_0_8_4
abbrev q1_S1x70x1062_S1x32x1024_0_8_34 : Rect S1x70x1062 := Rect.unit (s := S1x70x1062) ![0, 8, 34] S1x32x1024.size inb_S1x70x1062_S1x32x1024_0_8_34
abbrev q1_S1x70x1062_S1x32x1024_0_8_35 : Rect S1x70x1062 := Rect.unit (s := S1x70x1062) ![0, 8, 35] S1x32x1024.size inb_S1x70x1062_S1x32x1024_0_8_35
abbrev q1_S1x70x1062_S1x32x1024_0_9_3 : Rect S1x70x1062 := Rect.unit (s := S1x70x1062) ![0, 9, 3] S1x32x1024.size inb_S1x70x1062_S1x32x1024_0_9_3
abbrev q1_S1x70x1062_S1x32x1024_0_9_35 : Rect S1x70x1062 := Rect.unit (s := S1x70x1062) ![0, 9, 35] S1x32x1024.size inb_S1x70x1062_S1x32x1024_0_9_35
abbrev q1_S1x70x1062_S1x32x1024_0_10_2 : Rect S1x70x1062 := Rect.unit (s := S1x70x1062) ![0, 10, 2] S1x32x1024.size inb_S1x70x1062_S1x32x1024_0_10_2
abbrev q1_S1x70x1062_S1x32x1024_0_10_36 : Rect S1x70x1062 := Rect.unit (s := S1x70x1062) ![0, 10, 36] S1x32x1024.size inb_S1x70x1062_S1x32x1024_0_10_36
abbrev q1_S1x70x1062_S1x32x1024_0_11_2 : Rect S1x70x1062 := Rect.unit (s := S1x70x1062) ![0, 11, 2] S1x32x1024.size inb_S1x70x1062_S1x32x1024_0_11_2
abbrev q1_S1x70x1062_S1x32x1024_0_11_36 : Rect S1x70x1062 := Rect.unit (s := S1x70x1062) ![0, 11, 36] S1x32x1024.size inb_S1x70x1062_S1x32x1024_0_11_36
abbrev q1_S1x70x1062_S1x32x1024_0_12_1 : Rect S1x70x1062 := Rect.unit (s := S1x70x1062) ![0, 12, 1] S1x32x1024.size inb_S1x70x1062_S1x32x1024_0_12_1
abbrev q1_S1x70x1062_S1x32x1024_0_12_37 : Rect S1x70x1062 := Rect.unit (s := S1x70x1062) ![0, 12, 37] S1x32x1024.size inb_S1x70x1062_S1x32x1024_0_12_37
abbrev q1_S1x70x1062_S1x32x1024_0_13_1 : Rect S1x70x1062 := Rect.unit (s := S1x70x1062) ![0, 13, 1] S1x32x1024.size inb_S1x70x1062_S1x32x1024_0_13_1
abbrev q1_S1x70x1062_S1x32x1024_0_13_37 : Rect S1x70x1062 := Rect.unit (s := S1x70x1062) ![0, 13, 37] S1x32x1024.size inb_S1x70x1062_S1x32x1024_0_13_37
abbrev q1_S1x70x1062_S1x32x1024_0_14_1 : Rect S1x70x1062 := Rect.unit (s := S1x70x1062) ![0, 14, 1] S1x32x1024.size inb_S1x70x1062_S1x32x1024_0_14_1
abbrev q1_S1x70x1062_S1x32x1024_0_14_37 : Rect S1x70x1062 := Rect.unit (s := S1x70x1062) ![0, 14, 37] S1x32x1024.size inb_S1x70x1062_S1x32x1024_0_14_37
abbrev q1_S1x70x1062_S1x32x1024_0_15_0 : Rect S1x70x1062 := Rect.unit (s := S1x70x1062) ![0, 15, 0] S1x32x1024.size inb_S1x70x1062_S1x32x1024_0_15_0
abbrev q1_S1x70x1062_S1x32x1024_0_15_38 : Rect S1x70x1062 := Rect.unit (s := S1x70x1062) ![0, 15, 38] S1x32x1024.size inb_S1x70x1062_S1x32x1024_0_15_38
abbrev q1_S1x70x1062_S1x32x1024_0_16_0 : Rect S1x70x1062 := Rect.unit (s := S1x70x1062) ![0, 16, 0] S1x32x1024.size inb_S1x70x1062_S1x32x1024_0_16_0
abbrev q1_S1x70x1062_S1x32x1024_0_16_38 : Rect S1x70x1062 := Rect.unit (s := S1x70x1062) ![0, 16, 38] S1x32x1024.size inb_S1x70x1062_S1x32x1024_0_16_38
abbrev q1_S1x70x1062_S1x32x1024_0_17_0 : Rect S1x70x1062 := Rect.unit (s := S1x70x1062) ![0, 17, 0] S1x32x1024.size inb_S1x70x1062_S1x32x1024_0_17_0
abbrev q1_S1x70x1062_S1x32x1024_0_17_38 : Rect S1x70x1062 := Rect.unit (s := S1x70x1062) ![0, 17, 38] S1x32x1024.size inb_S1x70x1062_S1x32x1024_0_17_38
abbrev q1_S1x70x1062_S1x32x1024_0_18_0 : Rect S1x70x1062 := Rect.unit (s := S1x70x1062) ![0, 18, 0] S1x32x1024.size inb_S1x70x1062_S1x32x1024_0_18_0
abbrev q1_S1x70x1062_S1x32x1024_0_18_38 : Rect S1x70x1062 := Rect.unit (s := S1x70x1062) ![0, 18, 38] S1x32x1024.size inb_S1x70x1062_S1x32x1024_0_18_38
abbrev q1_S1x70x1062_S1x32x1024_0_19_0 : Rect S1x70x1062 := Rect.unit (s := S1x70x1062) ![0, 19, 0] S1x32x1024.size inb_S1x70x1062_S1x32x1024_0_19_0
abbrev q1_S1x70x1062_S1x32x1024_0_19_38 : Rect S1x70x1062 := Rect.unit (s := S1x70x1062) ![0, 19, 38] S1x32x1024.size inb_S1x70x1062_S1x32x1024_0_19_38
abbrev q1_S1x70x1062_S1x32x1024_0_20_0 : Rect S1x70x1062 := Rect.unit (s := S1x70x1062) ![0, 20, 0] S1x32x1024.size inb_S1x70x1062_S1x32x1024_0_20_0
abbrev q1_S1x70x1062_S1x32x1024_0_20_38 : Rect S1x70x1062 := Rect.unit (s := S1x70x1062) ![0, 20, 38] S1x32x1024.size inb_S1x70x1062_S1x32x1024_0_20_38
abbrev q1_S1x70x1062_S1x32x1024_0_21_0 : Rect S1x70x1062 := Rect.unit (s := S1x70x1062) ![0, 21, 0] S1x32x1024.size inb_S1x70x1062_S1x32x1024_0_21_0
abbrev q1_S1x70x1062_S1x32x1024_0_21_38 : Rect S1x70x1062 := Rect.unit (s := S1x70x1062) ![0, 21, 38] S1x32x1024.size inb_S1x70x1062_S1x32x1024_0_21_38
abbrev q1_S1x70x1062_S1x32x1024_0_22_0 : Rect S1x70x1062 := Rect.unit (s := S1x70x1062) ![0, 22, 0] S1x32x1024.size inb_S1x70x1062_S1x32x1024_0_22_0
abbrev q1_S1x70x1062_S1x32x1024_0_22_38 : Rect S1x70x1062 := Rect.unit (s := S1x70x1062) ![0, 22, 38] S1x32x1024.size inb_S1x70x1062_S1x32x1024_0_22_38
abbrev q1_S1x70x1062_S1x32x1024_0_23_0 : Rect S1x70x1062 := Rect.unit (s := S1x70x1062) ![0, 23, 0] S1x32x1024.size inb_S1x70x1062_S1x32x1024_0_23_0
abbrev q1_S1x70x1062_S1x32x1024_0_23_38 : Rect S1x70x1062 := Rect.unit (s := S1x70x1062) ![0, 23, 38] S1x32x1024.size inb_S1x70x1062_S1x32x1024_0_23_38
abbrev q1_S1x70x1062_S1x32x1024_0_24_1 : Rect S1x70x1062 := Rect.unit (s := S1x70x1062) ![0, 24, 1] S1x32x1024.size inb_S1x70x1062_S1x32x1024_0_24_1
abbrev q1_S1x70x1062_S1x32x1024_0_24_37 : Rect S1x70x1062 := Rect.unit (s := S1x70x1062) ![0, 24, 37] S1x32x1024.size inb_S1x70x1062_S1x32x1024_0_24_37
abbrev q1_S1x70x1062_S1x32x1024_0_25_1 : Rect S1x70x1062 := Rect.unit (s := S1x70x1062) ![0, 25, 1] S1x32x1024.size inb_S1x70x1062_S1x32x1024_0_25_1
abbrev q1_S1x70x1062_S1x32x1024_0_25_37 : Rect S1x70x1062 := Rect.unit (s := S1x70x1062) ![0, 25, 37] S1x32x1024.size inb_S1x70x1062_S1x32x1024_0_25_37
abbrev q1_S1x70x1062_S1x32x1024_0_26_1 : Rect S1x70x1062 := Rect.unit (s := S1x70x1062) ![0, 26, 1] S1x32x1024.size inb_S1x70x1062_S1x32x1024_0_26_1
abbrev q1_S1x70x1062_S1x32x1024_0_26_37 : Rect S1x70x1062 := Rect.unit (s := S1x70x1062) ![0, 26, 37] S1x32x1024.size inb_S1x70x1062_S1x32x1024_0_26_37
abbrev q1_S1x70x1062_S1x32x1024_0_27_2 : Rect S1x70x1062 := Rect.unit (s := S1x70x1062) ![0, 27, 2] S1x32x1024.size inb_S1x70x1062_S1x32x1024_0_27_2
abbrev q1_S1x70x1062_S1x32x1024_0_27_36 : Rect S1x70x1062 := Rect.unit (s := S1x70x1062) ![0, 27, 36] S1x32x1024.size inb_S1x70x1062_S1x32x1024_0_27_36
abbrev q1_S1x70x1062_S1x32x1024_0_28_2 : Rect S1x70x1062 := Rect.unit (s := S1x70x1062) ![0, 28, 2] S1x32x1024.size inb_S1x70x1062_S1x32x1024_0_28_2
abbrev q1_S1x70x1062_S1x32x1024_0_28_36 : Rect S1x70x1062 := Rect.unit (s := S1x70x1062) ![0, 28, 36] S1x32x1024.size inb_S1x70x1062_S1x32x1024_0_28_36
abbrev q1_S1x70x1062_S1x32x1024_0_29_3 : Rect S1x70x1062 := Rect.unit (s := S1x70x1062) ![0, 29, 3] S1x32x1024.size inb_S1x70x1062_S1x32x1024_0_29_3
abbrev q1_S1x70x1062_S1x32x1024_0_29_35 : Rect S1x70x1062 := Rect.unit (s := S1x70x1062) ![0, 29, 35] S1x32x1024.size inb_S1x70x1062_S1x32x1024_0_29_35
abbrev q1_S1x70x1062_S1x32x1024_0_30_3 : Rect S1x70x1062 := Rect.unit (s := S1x70x1062) ![0, 30, 3] S1x32x1024.size inb_S1x70x1062_S1x32x1024_0_30_3
abbrev q1_S1x70x1062_S1x32x1024_0_30_4 : Rect S1x70x1062 := Rect.unit (s := S1x70x1062) ![0, 30, 4] S1x32x1024.size inb_S1x70x1062_S1x32x1024_0_30_4
abbrev q1_S1x70x1062_S1x32x1024_0_30_34 : Rect S1x70x1062 := Rect.unit (s := S1x70x1062) ![0, 30, 34] S1x32x1024.size inb_S1x70x1062_S1x32x1024_0_30_34
abbrev q1_S1x70x1062_S1x32x1024_0_30_35 : Rect S1x70x1062 := Rect.unit (s := S1x70x1062) ![0, 30, 35] S1x32x1024.size inb_S1x70x1062_S1x32x1024_0_30_35
abbrev q1_S1x70x1062_S1x32x1024_0_31_4 : Rect S1x70x1062 := Rect.unit (s := S1x70x1062) ![0, 31, 4] S1x32x1024.size inb_S1x70x1062_S1x32x1024_0_31_4
abbrev q1_S1x70x1062_S1x32x1024_0_31_34 : Rect S1x70x1062 := Rect.unit (s := S1x70x1062) ![0, 31, 34] S1x32x1024.size inb_S1x70x1062_S1x32x1024_0_31_34
abbrev q1_S1x70x1062_S1x32x1024_0_32_5 : Rect S1x70x1062 := Rect.unit (s := S1x70x1062) ![0, 32, 5] S1x32x1024.size inb_S1x70x1062_S1x32x1024_0_32_5
abbrev q1_S1x70x1062_S1x32x1024_0_32_33 : Rect S1x70x1062 := Rect.unit (s := S1x70x1062) ![0, 32, 33] S1x32x1024.size inb_S1x70x1062_S1x32x1024_0_32_33
abbrev q1_S1x70x1062_S1x32x1024_0_33_6 : Rect S1x70x1062 := Rect.unit (s := S1x70x1062) ![0, 33, 6] S1x32x1024.size inb_S1x70x1062_S1x32x1024_0_33_6
abbrev q1_S1x70x1062_S1x32x1024_0_33_32 : Rect S1x70x1062 := Rect.unit (s := S1x70x1062) ![0, 33, 32] S1x32x1024.size inb_S1x70x1062_S1x32x1024_0_33_32
abbrev q1_S1x70x1062_S1x32x1024_0_34_7 : Rect S1x70x1062 := Rect.unit (s := S1x70x1062) ![0, 34, 7] S1x32x1024.size inb_S1x70x1062_S1x32x1024_0_34_7
abbrev q1_S1x70x1062_S1x32x1024_0_34_8 : Rect S1x70x1062 := Rect.unit (s := S1x70x1062) ![0, 34, 8] S1x32x1024.size inb_S1x70x1062_S1x32x1024_0_34_8
abbrev q1_S1x70x1062_S1x32x1024_0_34_30 : Rect S1x70x1062 := Rect.unit (s := S1x70x1062) ![0, 34, 30] S1x32x1024.size inb_S1x70x1062_S1x32x1024_0_34_30
abbrev q1_S1x70x1062_S1x32x1024_0_34_31 : Rect S1x70x1062 := Rect.unit (s := S1x70x1062) ![0, 34, 31] S1x32x1024.size inb_S1x70x1062_S1x32x1024_0_34_31
abbrev q1_S1x70x1062_S1x32x1024_0_35_8 : Rect S1x70x1062 := Rect.unit (s := S1x70x1062) ![0, 35, 8] S1x32x1024.size inb_S1x70x1062_S1x32x1024_0_35_8
abbrev q1_S1x70x1062_S1x32x1024_0_35_9 : Rect S1x70x1062 := Rect.unit (s := S1x70x1062) ![0, 35, 9] S1x32x1024.size inb_S1x70x1062_S1x32x1024_0_35_9
abbrev q1_S1x70x1062_S1x32x1024_0_35_29 : Rect S1x70x1062 := Rect.unit (s := S1x70x1062) ![0, 35, 29] S1x32x1024.size inb_S1x70x1062_S1x32x1024_0_35_29
abbrev q1_S1x70x1062_S1x32x1024_0_35_30 : Rect S1x70x1062 := Rect.unit (s := S1x70x1062) ![0, 35, 30] S1x32x1024.size inb_S1x70x1062_S1x32x1024_0_35_30
abbrev q1_S1x70x1062_S1x32x1024_0_36_10 : Rect S1x70x1062 := Rect.unit (s := S1x70x1062) ![0, 36, 10] S1x32x1024.size inb_S1x70x1062_S1x32x1024_0_36_10
abbrev q1_S1x70x1062_S1x32x1024_0_36_11 : Rect S1x70x1062 := Rect.unit (s := S1x70x1062) ![0, 36, 11] S1x32x1024.size inb_S1x70x1062_S1x32x1024_0_36_11
abbrev q1_S1x70x1062_S1x32x1024_0_36_27 : Rect S1x70x1062 := Rect.unit (s := S1x70x1062) ![0, 36, 27] S1x32x1024.size inb_S1x70x1062_S1x32x1024_0_36_27
abbrev q1_S1x70x1062_S1x32x1024_0_36_28 : Rect S1x70x1062 := Rect.unit (s := S1x70x1062) ![0, 36, 28] S1x32x1024.size inb_S1x70x1062_S1x32x1024_0_36_28
abbrev q1_S1x70x1062_S1x32x1024_0_37_12 : Rect S1x70x1062 := Rect.unit (s := S1x70x1062) ![0, 37, 12] S1x32x1024.size inb_S1x70x1062_S1x32x1024_0_37_12
abbrev q1_S1x70x1062_S1x32x1024_0_37_13 : Rect S1x70x1062 := Rect.unit (s := S1x70x1062) ![0, 37, 13] S1x32x1024.size inb_S1x70x1062_S1x32x1024_0_37_13
abbrev q1_S1x70x1062_S1x32x1024_0_37_14 : Rect S1x70x1062 := Rect.unit (s := S1x70x1062) ![0, 37, 14] S1x32x1024.size inb_S1x70x1062_S1x32x1024_0_37_14
abbrev q1_S1x70x1062_S1x32x1024_0_37_24 : Rect S1x70x1062 := Rect.unit (s := S1x70x1062) ![0, 37, 24] S1x32x1024.size inb_S1x70x1062_S1x32x1024_0_37_24
abbrev q1_S1x70x1062_S1x32x1024_0_37_25 : Rect S1x70x1062 := Rect.unit (s := S1x70x1062) ![0, 37, 25] S1x32x1024.size inb_S1x70x1062_S1x32x1024_0_37_25
abbrev q1_S1x70x1062_S1x32x1024_0_37_26 : Rect S1x70x1062 := Rect.unit (s := S1x70x1062) ![0, 37, 26] S1x32x1024.size inb_S1x70x1062_S1x32x1024_0_37_26
abbrev q1_S1x70x1062_S1x32x1024_0_38_15 : Rect S1x70x1062 := Rect.unit (s := S1x70x1062) ![0, 38, 15] S1x32x1024.size inb_S1x70x1062_S1x32x1024_0_38_15
abbrev q1_S1x70x1062_S1x32x1024_0_38_16 : Rect S1x70x1062 := Rect.unit (s := S1x70x1062) ![0, 38, 16] S1x32x1024.size inb_S1x70x1062_S1x32x1024_0_38_16
abbrev q1_S1x70x1062_S1x32x1024_0_38_17 : Rect S1x70x1062 := Rect.unit (s := S1x70x1062) ![0, 38, 17] S1x32x1024.size inb_S1x70x1062_S1x32x1024_0_38_17
abbrev q1_S1x70x1062_S1x32x1024_0_38_18 : Rect S1x70x1062 := Rect.unit (s := S1x70x1062) ![0, 38, 18] S1x32x1024.size inb_S1x70x1062_S1x32x1024_0_38_18
abbrev q1_S1x70x1062_S1x32x1024_0_38_19 : Rect S1x70x1062 := Rect.unit (s := S1x70x1062) ![0, 38, 19] S1x32x1024.size inb_S1x70x1062_S1x32x1024_0_38_19
abbrev q1_S1x70x1062_S1x32x1024_0_38_20 : Rect S1x70x1062 := Rect.unit (s := S1x70x1062) ![0, 38, 20] S1x32x1024.size inb_S1x70x1062_S1x32x1024_0_38_20
abbrev q1_S1x70x1062_S1x32x1024_0_38_21 : Rect S1x70x1062 := Rect.unit (s := S1x70x1062) ![0, 38, 21] S1x32x1024.size inb_S1x70x1062_S1x32x1024_0_38_21
abbrev q1_S1x70x1062_S1x32x1024_0_38_22 : Rect S1x70x1062 := Rect.unit (s := S1x70x1062) ![0, 38, 22] S1x32x1024.size inb_S1x70x1062_S1x32x1024_0_38_22
abbrev q1_S1x70x1062_S1x32x1024_0_38_23 : Rect S1x70x1062 := Rect.unit (s := S1x70x1062) ![0, 38, 23] S1x32x1024.size inb_S1x70x1062_S1x32x1024_0_38_23
abbrev q1_S32x1024_S32x1024_0_0 : Rect S32x1024 := Rect.unit (s := S32x1024) ![0, 0] S32x1024.size inb_S32x1024_S32x1024_0_0

/-- The output tile's buffer after the body: the one store's payload over the reads of the input blocks. -/
def out1_5 (x0 : Vec F S1x70x1062 .f32) (x1 x2 x3 x4 : Vec F S1 .f32) : Vec F S32x1024 .f32 :=
  View.canon [⟨q1_S32x1024_S32x1024_0_0, k1_pay1 ((k1_pay2 (View.ld x1 q1_S1_S1_0))) ((k1_pay3 (View.ld x2 q1_S1_S1_0))) ((k1_pay4 (View.ld x3 q1_S1_S1_0))) ((k1_pay5 (View.ld x4 q1_S1_S1_0))) ((k1_pay6 (View.ld x0 q1_S1x70x1062_S1x32x1024_0_19_19))) ((k1_pay49 (k1_pay4 (View.ld x3 q1_S1_S1_0)) (k1_pay6 (View.ld x0 q1_S1x70x1062_S1x32x1024_0_19_19)) (k1_pay32 (k1_pay3 (View.ld x2 q1_S1_S1_0)) (k1_pay6 (View.ld x0 q1_S1x70x1062_S1x32x1024_0_19_19)) (k1_pay16 (k1_pay2 (View.ld x1 q1_S1_S1_0)) (k1_pay6 (View.ld x0 q1_S1x70x1062_S1x32x1024_0_19_19)) (k1_pay7 (F := F)) (k1_pay14 (k1_pay6 (View.ld x0 q1_S1x70x1062_S1x32x1024_0_19_19)) (k1_pay13 (k1_pay6 (View.ld x0 q1_S1x70x1062_S1x32x1024_0_19_19)) (k1_pay11 (k1_pay6 (View.ld x0 q1_S1x70x1062_S1x32x1024_0_19_19)) (k1_pay10 (k1_pay6 (View.ld x0 q1_S1x70x1062_S1x32x1024_0_19_19)) (k1_pay8 (View.ld x0 q1_S1x70x1062_S1x32x1024_0_19_19) (View.ld x0 q1_S1x70x1062_S1x32x1024_0_12_17) (View.ld x0 q1_S1x70x1062_S1x32x1024_0_12_18) (View.ld x0 q1_S1x70x1062_S1x32x1024_0_12_19) (View.ld x0 q1_S1x70x1062_S1x32x1024_0_12_20)) (k1_pay9 (View.ld x0 q1_S1x70x1062_S1x32x1024_0_19_19) (View.ld x0 q1_S1x70x1062_S1x32x1024_0_12_21)) (View.ld x0 q1_S1x70x1062_S1x32x1024_0_13_15) (View.ld x0 q1_S1x70x1062_S1x32x1024_0_13_16) (View.ld x0 q1_S1x70x1062_S1x32x1024_0_13_22) (View.ld x0 q1_S1x70x1062_S1x32x1024_0_13_23) (View.ld x0 q1_S1x70x1062_S1x32x1024_0_14_14) (View.ld x0 q1_S1x70x1062_S1x32x1024_0_14_24) (View.ld x0 q1_S1x70x1062_S1x32x1024_0_15_13)) (View.ld x0 q1_S1x70x1062_S1x32x1024_0_15_25) (View.ld x0 q1_S1x70x1062_S1x32x1024_0_16_13) (View.ld x0 q1_S1x70x1062_S1x32x1024_0_16_25) (View.ld x0 q1_S1x70x1062_S1x32x1024_0_17_12) (View.ld x0 q1_S1x70x1062_S1x32x1024_0_17_26) (View.ld x0 q1_S1x70x1062_S1x32x1024_0_18_12) (View.ld x0 q1_S1x70x1062_S1x32x1024_0_18_26)) (k1_pay12 (k1_pay6 (View.ld x0 q1_S1x70x1062_S1x32x1024_0_19_19)) (View.ld x0 q1_S1x70x1062_S1x32x1024_0_19_12)) (View.ld x0 q1_S1x70x1062_S1x32x1024_0_19_26) (View.ld x0 q1_S1x70x1062_S1x32x1024_0_20_12) (View.ld x0 q1_S1x70x1062_S1x32x1024_0_20_26) (View.ld x0 q1_S1x70x1062_S1x32x1024_0_21_12) (View.ld x0 q1_S1x70x1062_S1x32x1024_0_21_26) (View.ld x0 q1_S1x70x1062_S1x32x1024_0_22_13) (View.ld x0 q1_S1x70x1062_S1x32x1024_0_22_25)) (View.ld x0 q1_S1x70x1062_S1x32x1024_0_23_13) (View.ld x0 q1_S1x70x1062_S1x32x1024_0_23_25) (View.ld x0 q1_S1x70x1062_S1x32x1024_0_24_14) (View.ld x0 q1_S1x70x1062_S1x32x1024_0_24_24) (View.ld x0 q1_S1x70x1062_S1x32x1024_0_25_15) (View.ld x0 q1_S1x70x1062_S1x32x1024_0_25_16) (View.ld x0 q1_S1x70x1062_S1x32x1024_0_25_22)) (k1_pay15 (k1_pay6 (View.ld x0 q1_S1x70x1062_S1x32x1024_0_19_19)) (View.ld x0 q1_S1x70x1062_S1x32x1024_0_25_23)) (View.ld x0 q1_S1x70x1062_S1x32x1024_0_26_17) (View.ld x0 q1_S1x70x1062_S1x32x1024_0_26_18) (View.ld x0 q1_S1x70x1062_S1x32x1024_0_26_19) (View.ld x0 q1_S1x70x1062_S1x32x1024_0_26_20) (View.ld x0 q1_S1x70x1062_S1x32x1024_0_26_21)) (k1_pay30 (k1_pay6 (View.ld x0 q1_S1x70x1062_S1x32x1024_0_19_19)) (k1_pay29 (k1_pay6 (View.ld x0 q1_S1x70x1062_S1x32x1024_0_19_19)) (k1_pay27 (k1_pay6 (View.ld x0 q1_S1x70x1062_S1x32x1024_0_19_19)) (k1_pay26 (k1_pay6 (View.ld x0 q1_S1x70x1062_S1x32x1024_0_19_19)) (k1_pay24 (k1_pay6 (View.ld x0 q1_S1x70x1062_S1x32x1024_0_19_19)) (k1_pay23 (k1_pay6 (View.ld x0 q1_S1x70x1062_S1x32x1024_0_19_19)) (k1_pay21 (k1_pay6 (View.ld x0 q1_S1x70x1062_S1x32x1024_0_19_19)) (k1_pay20 (k1_pay6 (View.ld x0 q1_S1x70x1062_S1x32x1024_0_19_19)) (k1_pay18 (k1_pay6 (View.ld x0 q1_S1x70x1062_S1x32x1024_0_19_19)) (k1_pay17 (k1_pay6 (View.ld x0 q1_S1x70x1062_S1x32x1024_0_19_19)) (View.ld x0 q1_S1x70x1062_S1x32x1024_0_8_16)) (View.ld x0 q1_S1x70x1062_S1x32x1024_0_8_17) (View.ld x0 q1_S1x70x1062_S1x32x1024_0_8_18) (View.ld x0 q1_S1x70x1062_S1x32x1024_0_8_19) (View.ld x0 q1_S1x70x1062_S1x32x1024_0_8_20) (View.ld x0 q1_S1x70x1062_S1x32x1024_0_8_21) (View.ld x0 q1_S1x70x1062_S1x32x1024_0_8_22) (View.ld x0 q1_S1x70x1062_S1x32x1024_0_9_14)) (k1_pay19 (k1_pay6 (View.ld x0 q1_S1x70x1062_S1x32x1024_0_19_19)) (View.ld x0 q1_S1x70x1062_S1x32x1024_0_9_15)) (View.ld x0 q1_S1x70x1062_S1x32x1024_0_9_23) (View.ld x0 q1_S1x70x1062_S1x32x1024_0_9_24) (View.ld x0 q1_S1x70x1062_S1x32x1024_0_10_12) (View.ld x0 q1_S1x70x1062_S1x32x1024_0_10_13) (View.ld x0 q1_S1x70x1062_S1x32x1024_0_10_25) (View.ld x0 q1_S1x70x1062_S1x32x1024_0_10_26) (View.ld x0 q1_S1x70x1062_S1x32x1024_0_11_11)) (View.ld x0 q1_S1x70x1062_S1x32x1024_0_11_12) (View.ld x0 q1_S1x70x1062_S1x32x1024_0_11_26) (View.ld x0 q1_S1x70x1062_S1x32x1024_0_11_27) (View.ld x0 q1_S1x70x1062_S1x32x1024_0_12_10) (View.ld x0 q1_S1x70x1062_S1x32x1024_0_12_11) (View.ld x0 q1_S1x70x1062_S1x32x1024_0_12_27) (View.ld x0 q1_S1x70x1062_S1x32x1024_0_12_28)) (k1_pay22 (k1_pay6 (View.ld x0 q1_S1x70x1062_S1x32x1024_0_19_19)) (View.ld x0 q1_S1x70x1062_S1x32x1024_0_13_10)) (View.ld x0 q1_S1x70x1062_S1x32x1024_0_13_28) (View.ld x0 q1_S1x70x1062_S1x32x1024_0_14_9) (View.ld x0 q1_S1x70x1062_S1x32x1024_0_14_29) (View.ld x0 q1_S1x70x1062_S1x32x1024_0_15_9) (View.ld x0 q1_S1x70x1062_S1x32x1024_0_15_29) (View.ld x0 q1_S1x70x1062_S1x32x1024_0_16_8) (View.ld x0 q1_S1x70x1062_S1x32x1024_0_16_30)) (View.ld x0 q1_S1x70x1062_S1x32x1024_0_17_8) (View.ld x0 q1_S1x70x1062_S1x32x1024_0_17_30) (View.ld x0 q1_S1x70x1062_S1x32x1024_0_18_8) (View.ld x0 q1_S1x70x1062_S1x32x1024_0_18_30) (View.ld x0 q1_S1x70x1062_S1x32x1024_0_19_8) (View.ld x0 q1_S1x70x1062_S1x32x1024_0_19_30) (View.ld x0 q1_S1x70x1062_S1x32x1024_0_20_8)) (k1_pay25 (k1_pay6 (View.ld x0 q1_S1x70x1062_S1x32x1024_0_19_19)) (View.ld x0 q1_S1x70x1062_S1x32x1024_0_20_30)) (View.ld x0 q1_S1x70x1062_S1x32x1024_0_21_8) (View.ld x0 q1_S1x70x1062_S1x32x1024_0_21_30) (View.ld x0 q1_S1x70x1062_S1x32x1024_0_22_8) (View.ld x0 q1_S1x70x1062_S1x32x1024_0_22_30) (View.ld x0 q1_S1x70x1062_S1x32x1024_0_23_9) (View.ld x0 q1_S1x70x1062_S1x32x1024_0_23_29) (View.ld x0 q1_S1x70x1062_S1x32x1024_0_24_9)) (View.ld x0 q1_S1x70x1062_S1x32x1024_0_24_29) (View.ld x0 q1_S1x70x1062_S1x32x1024_0_25_10) (View.ld x0 q1_S1x70x1062_S1x32x1024_0_25_28) (View.ld x0 q1_S1x70x1062_S1x32x1024_0_26_10) (View.ld x0 q1_S1x70x1062_S1x32x1024_0_26_11) (View.ld x0 q1_S1x70x1062_S1x32x1024_0_26_27) (View.ld x0 q1_S1x70x1062_S1x32x1024_0_26_28)) (k1_pay28 (k1_pay6 (View.ld x0 q1_S1x70x1062_S1x32x1024_0_19_19)) (View.ld x0 q1_S1x70x1062_S1x32x1024_0_27_11)) (View.ld x0 q1_S1x70x1062_S1x32x1024_0_27_12) (View.ld x0 q1_S1x70x1062_S1x32x1024_0_27_26) (View.ld x0 q1_S1x70x1062_S1x32x1024_0_27_27) (View.ld x0 q1_S1x70x1062_S1x32x1024_0_28_12) (View.ld x0 q1_S1x70x1062_S1x32x1024_0_28_13) (View.ld x0 q1_S1x70x1062_S1x32x1024_0_28_25) (View.ld x0 q1_S1x70x1062_S1x32x1024_0_28_26)) (View.ld x0 q1_S1x70x1062_S1x32x1024_0_29_14) (View.ld x0 q1_S1x70x1062_S1x32x1024_0_29_15) (View.ld x0 q1_S1x70x1062_S1x32x1024_0_29_23) (View.ld x0 q1_S1x70x1062_S1x32x1024_0_29_24) (View.ld x0 q1_S1x70x1062_S1x32x1024_0_30_16) (View.ld x0 q1_S1x70x1062_S1x32x1024_0_30_17) (View.ld x0 q1_S1x70x1062_S1x32x1024_0_30_18)) (k1_pay31 (k1_pay6 (View.ld x0 q1_S1x70x1062_S1x32x1024_0_19_19)) (View.ld x0 q1_S1x70x1062_S1x32x1024_0_30_19)) (View.ld x0 q1_S1x70x1062_S1x32x1024_0_30_20) (View.ld x0 q1_S1x70x1062_S1x32x1024_0_30_21) (View.ld x0 q1_S1x70x1062_S1x32x1024_0_30_22)) (k1_pay48 (k1_pay6 (View.ld x0 q1_S1x70x1062_S1x32x1024_0_19_19)) (k1_pay46 (k1_pay6 (View.ld x0 q1_S1x70x1062_S1x32x1024_0_19_19)) (k1_pay45 (k1_pay6 (View.ld x0 q1_S1x70x1062_S1x32x1024_0_19_19)) (k1_pay43 (k1_pay6 (View.ld x0 q1_S1x70x1062_S1x32x1024_0_19_19)) (k1_pay42 (k1_pay6 (View.ld x0 q1_S1x70x1062_S1x32x1024_0_19_19)) (k1_pay40 (k1_pay6 (View.ld x0 q1_S1x70x1062_S1x32x1024_0_19_19)) (k1_pay39 (k1_pay6 (View.ld x0 q1_S1x70x1062_S1x32x1024_0_19_19)) (k1_pay37 (k1_pay6 (View.ld x0 q1_S1x70x1062_S1x32x1024_0_19_19)) (k1_pay36 (k1_pay6 (View.ld x0 q1_S1x70x1062_S1x32x1024_0_19_19)) (k1_pay34 (k1_pay6 (View.ld x0 q1_S1x70x1062_S1x32x1024_0_19_19)) (k1_pay33 (k1_pay6 (View.ld x0 q1_S1x70x1062_S1x32x1024_0_19_19)) (View.ld x0 q1_S1x70x1062_S1x32x1024_0_4_16) (View.ld x0 q1_S1x70x1062_S1x32x1024_0_4_17) (View.ld x0 q1_S1x70x1062_S1x32x1024_0_4_18)) (View.ld x0 q1_S1x70x1062_S1x32x1024_0_4_19) (View.ld x0 q1_S1x70x1062_S1x32x1024_0_4_20) (View.ld x0 q1_S1x70x1062_S1x32x1024_0_4_21) (View.ld x0 q1_S1x70x1062_S1x32x1024_0_4_22) (View.ld x0 q1_S1x70x1062_S1x32x1024_0_5_13) (View.ld x0 q1_S1x70x1062_S1x32x1024_0_5_14) (View.ld x0 q1_S1x70x1062_S1x32x1024_0_5_15)) (k1_pay35 (k1_pay6 (View.ld x0 q1_S1x70x1062_S1x32x1024_0_19_19)) (View.ld x0 q1_S1x70x1062_S1x32x1024_0_5_23)) (View.ld x0 q1_S1x70x1062_S1x32x1024_0_5_24) (View.ld x0 q1_S1x70x1062_S1x32x1024_0_5_25) (View.ld x0 q1_S1x70x1062_S1x32x1024_0_6_11) (View.ld x0 q1_S1x70x1062_S1x32x1024_0_6_12) (View.ld x0 q1_S1x70x1062_S1x32x1024_0_6_26) (View.ld x0 q1_S1x70x1062_S1x32x1024_0_6_27) (View.ld x0 q1_S1x70x1062_S1x32x1024_0_7_10)) (View.ld x0 q1_S1x70x1062_S1x32x1024_0_7_28) (View.ld x0 q1_S1x70x1062_S1x32x1024_0_8_9) (View.ld x0 q1_S1x70x1062_S1x32x1024_0_8_29) (View.ld x0 q1_S1x70x1062_S1x32x1024_0_9_8) (View.ld x0 q1_S1x70x1062_S1x32x1024_0_9_30) (View.ld x0 q1_S1x70x1062_S1x32x1024_0_10_7) (View.ld x0 q1_S1x70x1062_S1x32x1024_0_10_31)) (k1_pay38 (k1_pay6 (View.ld x0 q1_S1x70x1062_S1x32x1024_0_19_19)) (View.ld x0 q1_S1x70x1062_S1x32x1024_0_11_6)) (View.ld x0 q1_S1x70x1062_S1x32x1024_0_11_32) (View.ld x0 q1_S1x70x1062_S1x32x1024_0_12_6) (View.ld x0 q1_S1x70x1062_S1x32x1024_0_12_32) (View.ld x0 q1_S1x70x1062_S1x32x1024_0_13_5) (View.ld x0 q1_S1x70x1062_S1x32x1024_0_13_33) (View.ld x0 q1_S1x70x1062_S1x32x1024_0_14_5) (View.ld x0 q1_S1x70x1062_S1x32x1024_0_14_33)) (View.ld x0 q1_S1x70x1062_S1x32x1024_0_15_5) (View.ld x0 q1_S1x70x1062_S1x32x1024_0_15_33) (View.ld x0 q1_S1x70x1062_S1x32x1024_0_16_4) (View.ld x0 q1_S1x70x1062_S1x32x1024_0_16_34) (View.ld x0 q1_S1x70x1062_S1x32x1024_0_17_4) (View.ld x0 q1_S1x70x1062_S1x32x1024_0_17_34) (View.ld x0 q1_S1x70x1062_S1x32x1024_0_18_4)) (k1_pay41 (k1_pay6 (View.ld x0 q1_S1x70x1062_S1x32x1024_0_19_19)) (View.ld x0 q1_S1x70x1062_S1x32x1024_0_18_34)) (View.ld x0 q1_S1x70x1062_S1x32x1024_0_19_4) (View.ld x0 q1_S1x70x1062_S1x32x1024_0_19_34) (View.ld x0 q1_S1x70x1062_S1x32x1024_0_20_4) (View.ld x0 q1_S1x70x1062_S1x32x1024_0_20_34) (View.ld x0 q1_S1x70x1062_S1x32x1024_0_21_4) (View.ld x0 q1_S1x70x1062_S1x32x1024_0_21_34) (View.ld x0 q1_S1x70x1062_S1x32x1024_0_22_4)) (View.ld x0 q1_S1x70x1062_S1x32x1024_0_22_34) (View.ld x0 q1_S1x70x1062_S1x32x1024_0_23_5) (View.ld x0 q1_S1x70x1062_S1x32x1024_0_23_33) (View.ld x0 q1_S1x70x1062_S1x32x1024_0_24_5) (View.ld x0 q1_S1x70x1062_S1x32x1024_0_24_33) (View.ld x0 q1_S1x70x1062_S1x32x1024_0_25_5) (View.ld x0 q1_S1x70x1062_S1x32x1024_0_25_33)) (k1_pay44 (k1_pay6 (View.ld x0 q1_S1x70x1062_S1x32x1024_0_19_19)) (View.ld x0 q1_S1x70x1062_S1x32x1024_0_26_6)) (View.ld x0 q1_S1x70x1062_S1x32x1024_0_26_32) (View.ld x0 q1_S1x70x1062_S1x32x1024_0_27_6) (View.ld x0 q1_S1x70x1062_S1x32x1024_0_27_32) (View.ld x0 q1_S1x70x1062_S1x32x1024_0_28_7) (View.ld x0 q1_S1x70x1062_S1x32x1024_0_28_31) (View.ld x0 q1_S1x70x1062_S1x32x1024_0_29_8) (View.ld x0 q1_S1x70x1062_S1x32x1024_0_29_30)) (View.ld x0 q1_S1x70x1062_S1x32x1024_0_30_9) (View.ld x0 q1_S1x70x1062_S1x32x1024_0_30_29) (View.ld x0 q1_S1x70x1062_S1x32x1024_0_31_10) (View.ld x0 q1_S1x70x1062_S1x32x1024_0_31_28) (View.ld x0 q1_S1x70x1062_S1x32x1024_0_32_11) (View.ld x0 q1_S1x70x1062_S1x32x1024_0_32_12) (View.ld x0 q1_S1x70x1062_S1x32x1024_0_32_26)) (k1_pay47 (k1_pay6 (View.ld x0 q1_S1x70x1062_S1x32x1024_0_19_19)) (View.ld x0 q1_S1x70x1062_S1x32x1024_0_32_27)) (View.ld x0 q1_S1x70x1062_S1x32x1024_0_33_13) (View.ld x0 q1_S1x70x1062_S1x32x1024_0_33_14) (View.ld x0 q1_S1x70x1062_S1x32x1024_0_33_15) (View.ld x0 q1_S1x70x1062_S1x32x1024_0_33_23) (View.ld x0 q1_S1x70x1062_S1x32x1024_0_33_24) (View.ld x0 q1_S1x70x1062_S1x32x1024_0_33_25) (View.ld x0 q1_S1x70x1062_S1x32x1024_0_34_16)) (View.ld x0 q1_S1x70x1062_S1x32x1024_0_34_17) (View.ld x0 q1_S1x70x1062_S1x32x1024_0_34_18) (View.ld x0 q1_S1x70x1062_S1x32x1024_0_34_19) (View.ld x0 q1_S1x70x1062_S1x32x1024_0_34_20) (View.ld x0 q1_S1x70x1062_S1x32x1024_0_34_21) (View.ld x0 q1_S1x70x1062_S1x32x1024_0_34_22))) (k1_pay74 (k1_pay6 (View.ld x0 q1_S1x70x1062_S1x32x1024_0_19_19)) (k1_pay73 (k1_pay6 (View.ld x0 q1_S1x70x1062_S1x32x1024_0_19_19)) (k1_pay71 (k1_pay6 (View.ld x0 q1_S1x70x1062_S1x32x1024_0_19_19)) (k1_pay70 (k1_pay6 (View.ld x0 q1_S1x70x1062_S1x32x1024_0_19_19)) (k1_pay68 (k1_pay6 (View.ld x0 q1_S1x70x1062_S1x32x1024_0_19_19)) (k1_pay67 (k1_pay6 (View.ld x0 q1_S1x70x1062_S1x32x1024_0_19_19)) (k1_pay65 (k1_pay6 (View.ld x0 q1_S1x70x1062_S1x32x1024_0_19_19)) (k1_pay64 (k1_pay6 (View.ld x0 q1_S1x70x1062_S1x32x1024_0_19_19)) (k1_pay62 (k1_pay6 (View.ld x0 q1_S1x70x1062_S1x32x1024_0_19_19)) (k1_pay61 (k1_pay6 (View.ld x0 q1_S1x70x1062_S1x32x1024_0_19_19)) (k1_pay59 (k1_pay6 (View.ld x0 q1_S1x70x1062_S1x32x1024_0_19_19)) (k1_pay58 (k1_pay6 (View.ld x0 q1_S1x70x1062_S1x32x1024_0_19_19)) (k1_pay56 (k1_pay6 (View.ld x0 q1_S1x70x1062_S1x32x1024_0_19_19)) (k1_pay55 (k1_pay6 (View.ld x0 q1_S1x70x1062_S1x32x1024_0_19_19)) (k1_pay53 (k1_pay6 (View.ld x0 q1_S1x70x1062_S1x32x1024_0_19_19)) (k1_pay52 (k1_pay6 (View.ld x0 q1_S1x70x1062_S1x32x1024_0_19_19)) (k1_pay50 (F := F)) (k1_pay51 (k1_pay6 (View.ld x0 q1_S1x70x1062_S1x32x1024_0_19_19)) (View.ld x0 q1_S1x70x1062_S1x32x1024_0_0_15)) (View.ld x0 q1_S1x70x1062_S1x32x1024_0_0_16) (View.ld x0 q1_S1x70x1062_S1x32x1024_0_0_17) (View.ld x0 q1_S1x70x1062_S1x32x1024_0_0_18) (View.ld x0 q1_S1x70x1062_S1x32x1024_0_0_19) (View.ld x0 q1_S1x70x1062_S1x32x1024_0_0_20) (View.ld x0 q1_S1x70x1062_S1x32x1024_0_0_21) (View.ld x0 q1_S1x70x1062_S1x32x1024_0_0_22)) (View.ld x0 q1_S1x70x1062_S1x32x1024_0_0_23) (View.ld x0 q1_S1x70x1062_S1x32x1024_0_1_12) (View.ld x0 q1_S1x70x1062_S1x32x1024_0_1_13) (View.ld x0 q1_S1x70x1062_S1x32x1024_0_1_14) (View.ld x0 q1_S1x70x1062_S1x32x1024_0_1_24) (View.ld x0 q1_S1x70x1062_S1x32x1024_0_1_25) (View.ld x0 q1_S1x70x1062_S1x32x1024_0_1_26)) (k1_pay54 (k1_pay6 (View.ld x0 q1_S1x70x1062_S1x32x1024_0_19_19)) (View.ld x0 q1_S1x70x1062_S1x32x1024_0_2_10)) (View.ld x0 q1_S1x70x1062_S1x32x1024_0_2_11) (View.ld x0 q1_S1x70x1062_S1x32x1024_0_2_27) (View.ld x0 q1_S1x70x1062_S1x32x1024_0_2_28) (View.ld x0 q1_S1x70x1062_S1x32x1024_0_3_8) (View.ld x0 q1_S1x70x1062_S1x32x1024_0_3_9) (View.ld x0 q1_S1x70x1062_S1x32x1024_0_3_29) (View.ld x0 q1_S1x70x1062_S1x32x1024_0_3_30)) (View.ld x0 q1_S1x70x1062_S1x32x1024_0_4_7) (View.ld x0 q1_S1x70x1062_S1x32x1024_0_4_8) (View.ld x0 q1_S1x70x1062_S1x32x1024_0_4_30) (View.ld x0 q1_S1x70x1062_S1x32x1024_0_4_31) (View.ld x0 q1_S1x70x1062_S1x32x1024_0_5_6) (View.ld x0 q1_S1x70x1062_S1x32x1024_0_5_32) (View.ld x0 q1_S1x70x1062_S1x32x1024_0_6_5)) (k1_pay57 (k1_pay6 (View.ld x0 q1_S1x70x1062_S1x32x1024_0_19_19)) (View.ld x0 q1_S1x70x1062_S1x32x1024_0_6_33)) (View.ld x0 q1_S1x70x1062_S1x32x1024_0_7_4) (View.ld x0 q1_S1x70x1062_S1x32x1024_0_7_34) (View.ld x0 q1_S1x70x1062_S1x32x1024_0_8_3) (View.ld x0 q1_S1x70x1062_S1x32x1024_0_8_4) (View.ld x0 q1_S1x70x1062_S1x32x1024_0_8_34) (View.ld x0 q1_S1x70x1062_S1x32x1024_0_8_35) (View.ld x0 q1_S1x70x1062_S1x32x1024_0_9_3)) (View.ld x0 q1_S1x70x1062_S1x32x1024_0_9_35) (View.ld x0 q1_S1x70x1062_S1x32x1024_0_10_2) (View.ld x0 q1_S1x70x1062_S1x32x1024_0_10_36) (View.ld x0 q1_S1x70x1062_S1x32x1024_0_11_2) (View.ld x0 q1_S1x70x1062_S1x32x1024_0_11_36) (View.ld x0 q1_S1x70x1062_S1x32x1024_0_12_1) (View.ld x0 q1_S1x70x1062_S1x32x1024_0_12_37)) (k1_pay60 (k1_pay6 (View.ld x0 q1_S1x70x1062_S1x32x1024_0_19_19)) (View.ld x0 q1_S1x70x1062_S1x32x1024_0_13_1)) (View.ld x0 q1_S1x70x1062_S1x32x1024_0_13_37) (View.ld x0 q1_S1x70x1062_S1x32x1024_0_14_1) (View.ld x0 q1_S1x70x1062_S1x32x1024_0_14_37) (View.ld x0 q1_S1x70x1062_S1x32x1024_0_15_0) (View.ld x0 q1_S1x70x1062_S1x32x1024_0_15_38) (View.ld x0 q1_S1x70x1062_S1x32x1024_0_16_0) (View.ld x0 q1_S1x70x1062_S1x32x1024_0_16_38)) (View.ld x0 q1_S1x70x1062_S1x32x1024_0_17_0) (View.ld x0 q1_S1x70x1062_S1x32x1024_0_17_38) (View.ld x0 q1_S1x70x1062_S1x32x1024_0_18_0) (View.ld x0 q1_S1x70x1062_S1x32x1024_0_18_38) (View.ld x0 q1_S1x70x1062_S1x32x1024_0_19_0) (View.ld x0 q1_S1x70x1062_S1x32x1024_0_19_38) (View.ld x0 q1_S1x70x1062_S1x32x1024_0_20_0)) (k1_pay63 (k1_pay6 (View.ld x0 q1_S1x70x1062_S1x32x1024_0_19_19)) (View.ld x0 q1_S1x70x1062_S1x32x1024_0_20_38)) (View.ld x0 q1_S1x70x1062_S1x32x1024_0_21_0) (View.ld x0 q1_S1x70x1062_S1x32x1024_0_21_38) (View.ld x0 q1_S1x70x1062_S1x32x1024_0_22_0) (View.ld x0 q1_S1x70x1062_S1x32x1024_0_22_38) (View.ld x0 q1_S1x70x1062_S1x32x1024_0_23_0) (View.ld x0 q1_S1x70x1062_S1x32x1024_0_23_38) (View.ld x0 q1_S1x70x1062_S1x32x1024_0_24_1)) (View.ld x0 q1_S1x70x1062_S1x32x1024_0_24_37) (View.ld x0 q1_S1x70x1062_S1x32x1024_0_25_1) (View.ld x0 q1_S1x70x1062_S1x32x1024_0_25_37) (View.ld x0 q1_S1x70x1062_S1x32x1024_0_26_1) (View.ld x0 q1_S1x70x1062_S1x32x1024_0_26_37) (View.ld x0 q1_S1x70x1062_S1x32x1024_0_27_2) (View.ld x0 q1_S1x70x1062_S1x32x1024_0_27_36)) (k1_pay66 (k1_pay6 (View.ld x0 q1_S1x70x1062_S1x32x1024_0_19_19)) (View.ld x0 q1_S1x70x1062_S1x32x1024_0_28_2)) (View.ld x0 q1_S1x70x1062_S1x32x1024_0_28_36) (View.ld x0 q1_S1x70x1062_S1x32x1024_0_29_3) (View.ld x0 q1_S1x70x1062_S1x32x1024_0_29_35) (View.ld x0 q1_S1x70x1062_S1x32x1024_0_30_3) (View.ld x0 q1_S1x70x1062_S1x32x1024_0_30_4) (View.ld x0 q1_S1x70x1062_S1x32x1024_0_30_34) (View.ld x0 q1_S1x70x1062_S1x32x1024_0_30_35)) (View.ld x0 q1_S1x70x1062_S1x32x1024_0_31_4) (View.ld x0 q1_S1x70x1062_S1x32x1024_0_31_34) (View.ld x0 q1_S1x70x1062_S1x32x1024_0_32_5) (View.ld x0 q1_S1x70x1062_S1x32x1024_0_32_33) (View.ld x0 q1_S1x70x1062_S1x32x1024_0_33_6) (View.ld x0 q1_S1x70x1062_S1x32x1024_0_33_32) (View.ld x0 q1_S1x70x1062_S1x32x1024_0_34_7)) (k1_pay69 (k1_pay6 (View.ld x0 q1_S1x70x1062_S1x32x1024_0_19_19)) (View.ld x0 q1_S1x70x1062_S1x32x1024_0_34_8)) (View.ld x0 q1_S1x70x1062_S1x32x1024_0_34_30) (View.ld x0 q1_S1x70x1062_S1x32x1024_0_34_31) (View.ld x0 q1_S1x70x1062_S1x32x1024_0_35_8) (View.ld x0 q1_S1x70x1062_S1x32x1024_0_35_9) (View.ld x0 q1_S1x70x1062_S1x32x1024_0_35_29) (View.ld x0 q1_S1x70x1062_S1x32x1024_0_35_30) (View.ld x0 q1_S1x70x1062_S1x32x1024_0_36_10)) (View.ld x0 q1_S1x70x1062_S1x32x1024_0_36_11) (View.ld x0 q1_S1x70x1062_S1x32x1024_0_36_27) (View.ld x0 q1_S1x70x1062_S1x32x1024_0_36_28) (View.ld x0 q1_S1x70x1062_S1x32x1024_0_37_12) (View.ld x0 q1_S1x70x1062_S1x32x1024_0_37_13) (View.ld x0 q1_S1x70x1062_S1x32x1024_0_37_14) (View.ld x0 q1_S1x70x1062_S1x32x1024_0_37_24)) (k1_pay72 (k1_pay6 (View.ld x0 q1_S1x70x1062_S1x32x1024_0_19_19)) (View.ld x0 q1_S1x70x1062_S1x32x1024_0_37_25)) (View.ld x0 q1_S1x70x1062_S1x32x1024_0_37_26) (View.ld x0 q1_S1x70x1062_S1x32x1024_0_38_15) (View.ld x0 q1_S1x70x1062_S1x32x1024_0_38_16) (View.ld x0 q1_S1x70x1062_S1x32x1024_0_38_17) (View.ld x0 q1_S1x70x1062_S1x32x1024_0_38_18) (View.ld x0 q1_S1x70x1062_S1x32x1024_0_38_19) (View.ld x0 q1_S1x70x1062_S1x32x1024_0_38_20)) (View.ld x0 q1_S1x70x1062_S1x32x1024_0_38_21) (View.ld x0 q1_S1x70x1062_S1x32x1024_0_38_22)) ((View.ld x0 q1_S1x70x1062_S1x32x1024_0_38_23))⟩]

end Cert.KernelIdeal.Hand

end
-- ==== Proof.KI.Body1.lean ====
/-
  Kernel 1 (one row tile of one ring layer): the body's triple.  The body reads the centre tile and, for each
  ring offset of the four radii, one shifted tile of the padded window; it keeps a running minimum of the
  absolute differences, turns each radius' minimum m into 1 - m, accumulates the weighted sum and divides by the
  sum of the weights.  Its one store writes the whole 32 x 1024 output tile, so that single piece covers the
  buffer, and what the buffer holds afterwards is the stored payload as a function of the input blocks alone.
-/
import proofs.«126001_j6975026889201_2_alg».proof.Proof.KI.Out1
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The one stored rectangle is the whole tile, so it covers the buffer. -/
theorem cover1_5 (p0 : Vec F S32x1024 .f32) (y : S32x1024.Idx) :
    ∃ pc ∈ ([⟨q1_S32x1024_S32x1024_0_0, p0⟩] : List (View.Piece (Elt F) S32x1024 .f32)), y ∈ pc.1.set :=
  View.cover_of_tiled [⟨q1_S32x1024_S32x1024_0_0, p0⟩] S32x1024.size (by rfl) y

set_option maxHeartbeats 20000000 in
/-- On whole staging buffers, the five inputs at contents x0..x4 and the output at anything, the body runs to its
    continuation with the inputs as they were and the output tile at the stored payload of the inputs. -/
theorem sound_kernel1 (c : Dev nD) (E : Set ℕ) (i : grid1.Coords)
    (arg1 : Memref sig .tc .vmem S1x70x1062 .f32) (harg1 : arg1.IsWhole) (arg2 : Memref sig .tc .vmem S1 .f32) (harg2 : arg2.IsWhole)
    (arg3 : Memref sig .tc .vmem S1 .f32) (harg3 : arg3.IsWhole) (arg4 : Memref sig .tc .vmem S1 .f32) (harg4 : arg4.IsWhole)
    (arg5 : Memref sig .tc .vmem S1 .f32) (harg5 : arg5.IsWhole) (arg6 : Memref sig .tc .vmem S32x1024 .f32) (harg6 : arg6.IsWhole)
    (x0 : Vec F S1x70x1062 .f32) (x1 x2 x3 x4 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  simp only [k1_part43_eq_skeleton]; unfold k1_part43_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  simp only [k1_part10_eq_skeleton]; unfold k1_part10_skel
  simp only [k1_part11_eq_skeleton]; unfold k1_part11_skel
  simp only [k1_part12_eq_skeleton]; unfold k1_part12_skel
  simp only [k1_part13_eq_skeleton]; unfold k1_part13_skel
  simp only [k1_part14_eq_skeleton]; unfold k1_part14_skel
  simp only [k1_part15_eq_skeleton]; unfold k1_part15_skel
  simp only [k1_part16_eq_skeleton]; unfold k1_part16_skel
  simp only [k1_part17_eq_skeleton]; unfold k1_part17_skel
  simp only [k1_part18_eq_skeleton]; unfold k1_part18_skel
  simp only [k1_part19_eq_skeleton]; unfold k1_part19_skel
  simp only [k1_part20_eq_skeleton]; unfold k1_part20_skel
  simp only [k1_part21_eq_skeleton]; unfold k1_part21_skel
  simp only [k1_part22_eq_skeleton]; unfold k1_part22_skel
  simp only [k1_part23_eq_skeleton]; unfold k1_part23_skel
  simp only [k1_part24_eq_skeleton]; unfold k1_part24_skel
  simp only [k1_part25_eq_skeleton]; unfold k1_part25_skel
  simp only [k1_part26_eq_skeleton]; unfold k1_part26_skel
  simp only [k1_part27_eq_skeleton]; unfold k1_part27_skel
  simp only [k1_part28_eq_skeleton]; unfold k1_part28_skel
  simp only [k1_part29_eq_skeleton]; unfold k1_part29_skel
  simp only [k1_part30_eq_skeleton]; unfold k1_part30_skel
  simp only [k1_part31_eq_skeleton]; unfold k1_part31_skel
  simp only [k1_part32_eq_skeleton]; unfold k1_part32_skel
  simp only [k1_part33_eq_skeleton]; unfold k1_part33_skel
  simp only [k1_part34_eq_skeleton]; unfold k1_part34_skel
  simp only [k1_part35_eq_skeleton]; unfold k1_part35_skel
  simp only [k1_part36_eq_skeleton]; unfold k1_part36_skel
  simp only [k1_part37_eq_skeleton]; unfold k1_part37_skel
  simp only [k1_part38_eq_skeleton]; unfold k1_part38_skel
  simp only [k1_part39_eq_skeleton]; unfold k1_part39_skel
  simp only [k1_part40_eq_skeleton]; unfold k1_part40_skel
  simp only [k1_part41_eq_skeleton]; unfold k1_part41_skel
  simp only [k1_part42_eq_skeleton]; unfold k1_part42_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

end Cert.KernelIdeal.Hand

end
-- ==== Proof.KI.Regions.lean ====
/-
  The two row-tiled layers as pipelines: per region, each window's block at a grid point, the proof data (every
  input buffer keeps its block, the output tile holds the body's value of the five input blocks), and the body
  obligation at a generic point, all stated at a PARAMETER `V`, the buffer contents when the region is entered.
-/
import proofs.«126001_j6975026889201_2_alg».proof.Proof.KI.Body0
import proofs.«126001_j6975026889201_2_alg».proof.Proof.KI.Body1
import proofs.«126001_j6975026889201_2_alg».proof.Proof.Gen.KernelIdeal.Launch
import proofs.«126001_j6975026889201_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: layer 1's pallas_call (pipeline 0), at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- Each input window's current staging buffer holds its block at every point, fetched there or not (a window whose
   block index did not move still holds the block it fetched earlier). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0: the arrays as the region finds them; after the body at point `t` each input's
    buffer still at its block and the output tile at the body's value of the five input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: layer 2's pallas_call (pipeline 1), at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- Each input window's current staging buffer holds its block at every point, fetched there or not (a window whose
   block index did not move still holds the block it fetched earlier). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1: the arrays as the region finds them; after the body at point `t` each input's
    buffer still at its block and the output tile at the body's value of the five input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program: host operations (pad the image by 19, cut the 32 overlapping row tiles, stack
  them), layer 1's pallas_call, the same host operations on layer 1's result, layer 2's pallas_call.  The buffer
  contents at each boundary are a fold from the launch memory; no host operation and no region writes an argument
  array, so each argument is read back through the fold to its launch contents, and the result array holds what
  layer 2's pipeline leaves in it.
-/
import proofs.«126001_j6975026889201_2_alg».proof.Proof.KI.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- After the first stretch of host operations: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
/-- After the second stretch of host operations: region 1's entry. -/
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b
/-- At region 1's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-! ## The arguments end as launched -/

/-- A buffer that no operation of a stretch writes keeps its contents through the stretch: the operations' result
    buffers are told apart from the given one as references. -/
local macro "keep_ops" ops:ident : tactic => `(tactic|
  (refine StableHlo.after_of_forall_not_mem _ _ (List.forall_iff_forall_mem.mp ?_)
   simp only [$ops:ident, List.Forall, StableHlo.TRef.unary, StableHlo.TRef.binary, StableHlo.nullary_writes, StableHlo.unary_writes,
     StableHlo.binary_writes, StableHlo.nary_writes, Finset.mem_singleton]
   repeat' apply And.intro
   all_goals exact StableHlo.devRef_ne_of_ne (by decide)))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keep_ops hostOps0_2
    _ = W1 m ρ c (Proc.devRef .tc main_arg0) := by keep_ops hostOps0_1
    _ = W0 m ρ c (Proc.devRef .tc main_arg0) := by keep_ops hostOps0
    _ = m ((c : Thread nD τ).loc main_arg0) := rfl
theorem W4_main_arg0 (c : Dev nD) : W4 m ρ c (Proc.devRef .tc main_arg0) = m ((c : Thread nD τ).loc main_arg0) :=
  (W4_of_ne m ρ c main_arg0 (by decide)).trans (W3_main_arg0 m ρ c)
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := by keep_ops hostOps1_2
    _ = W5 m ρ c (Proc.devRef .tc main_arg0) := by keep_ops hostOps1_1
    _ = W4 m ρ c (Proc.devRef .tc main_arg0) := by keep_ops hostOps1
    _ = m ((c : Thread nD τ).loc main_arg0) := W4_main_arg0 m ρ c
theorem W8_main_arg0 (c : Dev nD) : W8 m ρ c (Proc.devRef .tc main_arg0) = m ((c : Thread nD τ).loc main_arg0) :=
  (W8_of_ne m ρ c main_arg0 (by decide)).trans (W7_main_arg0 m ρ c)

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by keep_ops hostOps0_2
    _ = W1 m ρ c (Proc.devRef .tc main_arg1) := by keep_ops hostOps0_1
    _ = W0 m ρ c (Proc.devRef .tc main_arg1) := by keep_ops hostOps0
    _ = m ((c : Thread nD τ).loc main_arg1) := rfl
theorem W4_main_arg1 (c : Dev nD) : W4 m ρ c (Proc.devRef .tc main_arg1) = m ((c : Thread nD τ).loc main_arg1) :=
  ((W4_arr m ρ c 1).trans (((dat0 (V3 m ρ) c).arrAt_in 1 rfl _).trans (A_eq0 (V3 m ρ) c 1))).trans (W3_main_arg1 m ρ c)
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by keep_ops hostOps1_2
    _ = W5 m ρ c (Proc.devRef .tc main_arg1) := by keep_ops hostOps1_1
    _ = W4 m ρ c (Proc.devRef .tc main_arg1) := by keep_ops hostOps1
    _ = m ((c : Thread nD τ).loc main_arg1) := W4_main_arg1 m ρ c
theorem W8_main_arg1 (c : Dev nD) : W8 m ρ c (Proc.devRef .tc main_arg1) = m ((c : Thread nD τ).loc main_arg1) :=
  ((W8_arr m ρ c 1).trans (((dat1 (V7 m ρ) c).arrAt_in 1 rfl _).trans (A_eq1 (V7 m ρ) c 1))).trans (W7_main_arg1 m ρ c)

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by keep_ops hostOps0_2
    _ = W1 m ρ c (Proc.devRef .tc main_arg2) := by keep_ops hostOps0_1
    _ = W0 m ρ c (Proc.devRef .tc main_arg2) := by keep_ops hostOps0
    _ = m ((c : Thread nD τ).loc main_arg2) := rfl
theorem W4_main_arg2 (c : Dev nD) : W4 m ρ c (Proc.devRef .tc main_arg2) = m ((c : Thread nD τ).loc main_arg2) :=
  ((W4_arr m ρ c 2).trans (((dat0 (V3 m ρ) c).arrAt_in 2 rfl _).trans (A_eq0 (V3 m ρ) c 2))).trans (W3_main_arg2 m ρ c)
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by keep_ops hostOps1_2
    _ = W5 m ρ c (Proc.devRef .tc main_arg2) := by keep_ops hostOps1_1
    _ = W4 m ρ c (Proc.devRef .tc main_arg2) := by keep_ops hostOps1
    _ = m ((c : Thread nD τ).loc main_arg2) := W4_main_arg2 m ρ c
theorem W8_main_arg2 (c : Dev nD) : W8 m ρ c (Proc.devRef .tc main_arg2) = m ((c : Thread nD τ).loc main_arg2) :=
  ((W8_arr m ρ c 2).trans (((dat1 (V7 m ρ) c).arrAt_in 2 rfl _).trans (A_eq1 (V7 m ρ) c 2))).trans (W7_main_arg2 m ρ c)

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by keep_ops hostOps0_2
    _ = W1 m ρ c (Proc.devRef .tc main_arg3) := by keep_ops hostOps0_1
    _ = W0 m ρ c (Proc.devRef .tc main_arg3) := by keep_ops hostOps0
    _ = m ((c : Thread nD τ).loc main_arg3) := rfl
theorem W4_main_arg3 (c : Dev nD) : W4 m ρ c (Proc.devRef .tc main_arg3) = m ((c : Thread nD τ).loc main_arg3) :=
  ((W4_arr m ρ c 3).trans (((dat0 (V3 m ρ) c).arrAt_in 3 rfl _).trans (A_eq0 (V3 m ρ) c 3))).trans (W3_main_arg3 m ρ c)
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := by keep_ops hostOps1_2
    _ = W5 m ρ c (Proc.devRef .tc main_arg3) := by keep_ops hostOps1_1
    _ = W4 m ρ c (Proc.devRef .tc main_arg3) := by keep_ops hostOps1
    _ = m ((c : Thread nD τ).loc main_arg3) := W4_main_arg3 m ρ c
theorem W8_main_arg3 (c : Dev nD) : W8 m ρ c (Proc.devRef .tc main_arg3) = m ((c : Thread nD τ).loc main_arg3) :=
  ((W8_arr m ρ c 3).trans (((dat1 (V7 m ρ) c).arrAt_in 3 rfl _).trans (A_eq1 (V7 m ρ) c 3))).trans (W7_main_arg3 m ρ c)

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by keep_ops hostOps0_2
    _ = W1 m ρ c (Proc.devRef .tc main_arg4) := by keep_ops hostOps0_1
    _ = W0 m ρ c (Proc.devRef .tc main_arg4) := by keep_ops hostOps0
    _ = m ((c : Thread nD τ).loc main_arg4) := rfl
theorem W4_main_arg4 (c : Dev nD) : W4 m ρ c (Proc.devRef .tc main_arg4) = m ((c : Thread nD τ).loc main_arg4) :=
  ((W4_arr m ρ c 4).trans (((dat0 (V3 m ρ) c).arrAt_in 4 rfl _).trans (A_eq0 (V3 m ρ) c 4))).trans (W3_main_arg4 m ρ c)
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by keep_ops hostOps1_2
    _ = W5 m ρ c (Proc.devRef .tc main_arg4) := by keep_ops hostOps1_1
    _ = W4 m ρ c (Proc.devRef .tc main_arg4) := by keep_ops hostOps1
    _ = m ((c : Thread nD τ).loc main_arg4) := W4_main_arg4 m ρ c
theorem W8_main_arg4 (c : Dev nD) : W8 m ρ c (Proc.devRef .tc main_arg4) = m ((c : Thread nD τ).loc main_arg4) :=
  ((W8_arr m ρ c 4).trans (((dat1 (V7 m ρ) c).arrAt_in 4 rfl _).trans (A_eq1 (V7 m ρ) c 4))).trans (W7_main_arg4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W3`, left at `W4`.  Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`.  Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ) ]

theorem main_run (c : Dev nD) : main (F := F) c = Pipeline.Seg.run (segs m ρ) := (main_chain c).trans (by chain_rfl)

set_option backward.isDefEq.respectTransparency.types false in
/-- From any memory with zero counters every weakly fair execution of the program terminates without a fault; in every
    final state the result array holds what layer 2's pipeline leaves in its output array, and the five argument
    arrays are as launched. -/
theorem run_main : θ_run defs (onTc (τ := τ) (main (F := F))) ⟨m, fun _ => 0, ρ⟩ (fun r => ∀ c : Dev nD,
      r.2.mem ((c.tc : Thread nD τ).loc main_v137) = (dat1 (V7 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v137 (by decide))).trans (W8_arr m ρ c 5),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Hand

end
-- ==== Proof.Spec.lean ====
/-
  The specification both programs are compared with: ONE layer of the ring operator as a function of the image
  and the four weights, element by element, on the extended reals.

  For a pixel (i, j) and a radius r, the ring's neighbours are the pixels (i + dy, j + dx) for the offsets (dy, dx)
  whose distance from the origin rounds to r; a neighbour outside the image counts as the constant `big`.  With
  m_r the least absolute difference between the centre and the neighbours of radius r, the layer's value is
  (p1 (1 - m_7) + p2 (1 - m_11) + p3 (1 - m_15) + p4 (1 - m_19)) / (p1 + p2 + p3 + p4).
  Offsets are kept shifted by 19 (the largest radius), i.e. as coordinates (19 + dy, 19 + dx) into the image padded
  by 19 on every side, so that every coordinate is a natural number.
-/
import Idealize.ShloMosaic.PureOps.Ideal
import Idealize.ShloMosaic.Lib.ValueIdx

noncomputable section

namespace Cert.Ring

open Idealize.ShloMosaic Idealize.ShloMosaic.ValueIdx

/-- The image's shape and the weights' shape, spelt without reference to a program. -/
abbrev Img : Shape := ⟨2, ![1024, 1024]⟩
abbrev Wt : Shape := ⟨1, ![1]⟩
/-- One padded row tile: 32 + 2·19 rows of the image padded by 19, under a leading unit axis. -/
abbrev Win : Shape := ⟨3, ![1, 70, 1062]⟩

/-- The padding constant (1e9 as a binary32 word) and the literal 1.0, as the extended reals their words denote. -/
def big : EReal := Ideal.ofBits .f32 0x4E6E6B28#32
def one : EReal := Ideal.ofBits .f32 0x3F800000#32

/-- The ring offsets of radius 7, 11, 15, 19, each shifted by 19: (19 + dy, 19 + dx), in row-major order of (dy, dx). -/
def K7 : List (ℕ × ℕ) := [(12, 17), (12, 18), (12, 19), (12, 20), (12, 21), (13, 15), (13, 16), (13, 22), (13, 23), (14, 14), (14, 24), (15, 13), (15, 25), (16, 13), (16, 25), (17, 12), (17, 26), (18, 12), (18, 26), (19, 12), (19, 26), (20, 12), (20, 26), (21, 12), (21, 26), (22, 13), (22, 25), (23, 13), (23, 25), (24, 14), (24, 24), (25, 15), (25, 16), (25, 22), (25, 23), (26, 17), (26, 18), (26, 19), (26, 20), (26, 21)]
def K11 : List (ℕ × ℕ) := [(8, 16), (8, 17), (8, 18), (8, 19), (8, 20), (8, 21), (8, 22), (9, 14), (9, 15), (9, 23), (9, 24), (10, 12), (10, 13), (10, 25), (10, 26), (11, 11), (11, 12), (11, 26), (11, 27), (12, 10), (12, 11), (12, 27), (12, 28), (13, 10), (13, 28), (14, 9), (14, 29), (15, 9), (15, 29), (16, 8), (16, 30), (17, 8), (17, 30), (18, 8), (18, 30), (19, 8), (19, 30), (20, 8), (20, 30), (21, 8), (21, 30), (22, 8), (22, 30), (23, 9), (23, 29), (24, 9), (24, 29), (25, 10), (25, 28), (26, 10), (26, 11), (26, 27), (26, 28), (27, 11), (27, 12), (27, 26), (27, 27), (28, 12), (28, 13), (28, 25), (28, 26), (29, 14), (29, 15), (29, 23), (29, 24), (30, 16), (30, 17), (30, 18), (30, 19), (30, 20), (30, 21), (30, 22)]
def K15 : List (ℕ × ℕ) := [(4, 16), (4, 17), (4, 18), (4, 19), (4, 20), (4, 21), (4, 22), (5, 13), (5, 14), (5, 15), (5, 23), (5, 24), (5, 25), (6, 11), (6, 12), (6, 26), (6, 27), (7, 10), (7, 28), (8, 9), (8, 29), (9, 8), (9, 30), (10, 7), (10, 31), (11, 6), (11, 32), (12, 6), (12, 32), (13, 5), (13, 33), (14, 5), (14, 33), (15, 5), (15, 33), (16, 4), (16, 34), (17, 4), (17, 34), (18, 4), (18, 34), (19, 4), (19, 34), (20, 4), (20, 34), (21, 4), (21, 34), (22, 4), (22, 34), (23, 5), (23, 33), (24, 5), (24, 33), (25, 5), (25, 33), (26, 6), (26, 32), (27, 6), (27, 32), (28, 7), (28, 31), (29, 8), (29, 30), (30, 9), (30, 29), (31, 10), (31, 28), (32, 11), (32, 12), (32, 26), (32, 27), (33, 13), (33, 14), (33, 15), (33, 23), (33, 24), (33, 25), (34, 16), (34, 17), (34, 18), (34, 19), (34, 20), (34, 21), (34, 22)]
def K19 : List (ℕ × ℕ) := [(0, 15), (0, 16), (0, 17), (0, 18), (0, 19), (0, 20), (0, 21), (0, 22), (0, 23), (1, 12), (1, 13), (1, 14), (1, 24), (1, 25), (1, 26), (2, 10), (2, 11), (2, 27), (2, 28), (3, 8), (3, 9), (3, 29), (3, 30), (4, 7), (4, 8), (4, 30), (4, 31), (5, 6), (5, 32), (6, 5), (6, 33), (7, 4), (7, 34), (8, 3), (8, 4), (8, 34), (8, 35), (9, 3), (9, 35), (10, 2), (10, 36), (11, 2), (11, 36), (12, 1), (12, 37), (13, 1), (13, 37), (14, 1), (14, 37), (15, 0), (15, 38), (16, 0), (16, 38), (17, 0), (17, 38), (18, 0), (18, 38), (19, 0), (19, 38), (20, 0), (20, 38), (21, 0), (21, 38), (22, 0), (22, 38), (23, 0), (23, 38), (24, 1), (24, 37), (25, 1), (25, 37), (26, 1), (26, 37), (27, 2), (27, 36), (28, 2), (28, 36), (29, 3), (29, 35), (30, 3), (30, 4), (30, 34), (30, 35), (31, 4), (31, 34), (32, 5), (32, 33), (33, 6), (33, 32), (34, 7), (34, 8), (34, 30), (34, 31), (35, 8), (35, 9), (35, 29), (35, 30), (36, 10), (36, 11), (36, 27), (36, 28), (37, 12), (37, 13), (37, 14), (37, 24), (37, 25), (37, 26), (38, 15), (38, 16), (38, 17), (38, 18), (38, 19), (38, 20), (38, 21), (38, 22), (38, 23)]

/-- The image padded by 19 with `big`, at padded coordinates (u, v): the pixel (u - 19, v - 19) when that is inside. -/
def pad19 (x : Img.Idx → EReal) (u v : ℕ) : EReal :=
  if h : (19 ≤ u ∧ u < 1043) ∧ (19 ≤ v ∧ v < 1043) then x (ix2 ⟨u - 19, by omega⟩ ⟨v - 19, by omega⟩) else big

/-- A padded row tile read at (u, v) (zero outside the tile: never read there). -/
def winAt (w : Win.Idx → EReal) (u v : ℕ) : EReal :=
  if h : u < 70 ∧ v < 1062 then w (ix3 (0 : Fin 1) ⟨u, h.1⟩ ⟨v, h.2⟩) else 0

/-- The absolute value as both programs compute it on the extended reals. -/
def absE (z : EReal) : EReal := max z (-z)

/-- The least absolute difference between the centre `c` and the listed neighbour values, from +∞. -/
def ringMin (c : EReal) (vals : List EReal) : EReal := vals.foldl (fun m s => min m (absE (c - s))) ⊤

/-- One pixel of one layer from the weights, the centre and the four radii's neighbour values. -/
def pixel (p1 p2 p3 p4 c : EReal) (n7 n11 n15 n19 : List EReal) : EReal :=
  Ideal.div (((p1 * (one - ringMin c n7) + p2 * (one - ringMin c n11)) + p3 * (one - ringMin c n15)) + p4 * (one - ringMin c n19))
    (((p1 + p2) + p3) + p4)

/-- The neighbour values of pixel (i, j) for a list of shifted offsets. -/
def nbrs (x : Img.Idx → EReal) (i j : ℕ) (K : List (ℕ × ℕ)) : List EReal := K.map fun o => pad19 x (i + o.1) (j + o.2)

/-- One layer. -/
def layer (x : Img.Idx → EReal) (p1 p2 p3 p4 : EReal) : Img.Idx → EReal := fun idx =>
  pixel p1 p2 p3 p4 (x idx) (nbrs x (idx 0).val (idx 1).val K7) (nbrs x (idx 0).val (idx 1).val K11)
    (nbrs x (idx 0).val (idx 1).val K15) (nbrs x (idx 0).val (idx 1).val K19)

/-- One output tile of the tiled computation: pixel (a, b) of the tile from the padded row tile `w`. -/
def tile (w : Win.Idx → EReal) (p1 p2 p3 p4 : EReal) (a b : ℕ) : EReal :=
  pixel p1 p2 p3 p4 (winAt w (19 + a) (19 + b)) (K7.map fun o => winAt w (o.1 + a) (o.2 + b)) (K11.map fun o => winAt w (o.1 + a) (o.2 + b))
    (K15.map fun o => winAt w (o.1 + a) (o.2 + b)) (K19.map fun o => winAt w (o.1 + a) (o.2 + b))

/-- `v ↦ o - v` turns a running minimum from +∞ into a running maximum from -∞ (it reverses the order, and
    `o - ⊤ = ⊥` for every `o`). -/
theorem sub_foldl_min (o : EReal) (c : EReal) (vals : List EReal) :
    o - ringMin c vals = (vals.map fun s => o - absE (c - s)).foldl max ⊥ := by
  unfold ringMin
  have hstep : ∀ (L : List EReal) (m : EReal),
      o - L.foldl (fun m s => min m (absE (c - s))) m = (L.map fun s => o - absE (c - s)).foldl max (o - m) := by
    intro L
    induction L with
    | nil => intro m; rfl
    | cons s L ih =>
      intro m
      simp only [List.foldl_cons, List.map_cons]
      rw [ih]
      congr 1
      rcases le_total m (absE (c - s)) with h | h
      · rw [min_eq_left h, max_eq_left (EReal.sub_le_sub le_rfl h)]
      · rw [min_eq_right h, max_eq_right (EReal.sub_le_sub le_rfl h)]
  rw [hstep vals ⊤]
  congr 1
  exact EReal.sub_top o

end Cert.Ring

end
-- ==== Proof.KI.Tile.lean ====
/-
  The output tile of either kernel, element by element: at tile position (a, b) the one store's payload is the
  specification's pixel formula over the padded row tile read at the shifted positions.
-/
import proofs.«126001_j6975026889201_2_alg».proof.Proof.KI.Out0
import proofs.«126001_j6975026889201_2_alg».proof.Proof.KI.Out1
import proofs.«126001_j6975026889201_2_alg».proof.Proof.Spec
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.Hand

open Idealize.ShloMosaic Idealize.ShloMosaic.ValueIdx Cert.KernelIdeal Cert.KernelIdeal.Gen

/-! ## The operations and the constants at one element -/

/-- An absolute value at an index is the specification's absolute value of the element. -/
theorem absf_at {s : Shape} (v : FVec Ideal s .f32) (i : s.Idx) : absf v i = Cert.Ring.absE (v i) := rfl

/-- A scalar sum is the sum. -/
theorem scalar_addf_at (x y : Ideal .f32) : Scalar.addf x y = x + y := rfl

/-- The word of +∞ denotes ⊤. -/
theorem word_top : FloatOps.ofBits (F := Ideal) .f32 0x7F800000#32 = (⊤ : EReal) := by
  show Ideal.ofBits .f32 0x7F800000#32 = ⊤
  simp [Ideal.ofBits, Ideal.ieee]

/-- The zero word denotes 0. -/
theorem word_zero : FloatOps.ofBits (F := Ideal) .f32 0x00000000#32 = (0 : EReal) := Ideal.ofBits_zero_f32

/-- The word of 1.0 denotes the specification's `one`. -/
theorem word_one : FloatOps.ofBits (F := Ideal) .f32 0x3F800000#32 = Cert.Ring.one := rfl

/-! ## Reads -/

/-- A weight block's one element. -/
theorem wt_at (x : Vec Ideal S1 .f32) (h : ∀ a, (![0] : Fin 1 → Nat) a + S1.size a ≤ S1.size a)
    (hp : ∀ a, (![0] : Fin 1 → Nat) a < S1.size a) :
    extractAt (s := S1) (α := Ideal .f32) ![0] (View.ld x (Rect.unit (s := S1) ![0] S1.size h)) hp = x (ix1 0) := by
  show x _ = x _
  refine congrArg x (funext fun d => ?_)
  match d with
  | ⟨0, _⟩ => exact Fin.ext rfl

/-- The tile read at row offset `u`, column offset `v`, under its leading unit axis dropped, at (a, b): the padded
    row tile at (u + a, v + b). -/
theorem shift_at (x0 : Vec Ideal S1x70x1062 .f32) (u v : ℕ)
    (h : ∀ a, (![0, u, v] : Fin 3 → Nat) a + S1x32x1024.size a ≤ S1x70x1062.size a)
    (hc : S1x32x1024.ShapeCasts S32x1024) (a : Fin 32) (b : Fin 1024) :
    shapeCast (s := S1x32x1024) (α := Ideal .f32) S32x1024 (View.ld x0 (Rect.unit (s := S1x70x1062) ![0, u, v] S1x32x1024.size h)) hc (ix2 a b)
      = Cert.Ring.winAt x0 (u + a.val) (v + b.val) := by
  have hu : u + 32 ≤ 70 := h 1
  have hv : v + 1024 ≤ 1062 := h 2
  have ha := a.isLt
  have hb := b.isLt
  refine (shapeCast_1ab_ab_apply (a := 32) (b := 1024) _ hc a b).trans ?_
  unfold Cert.Ring.winAt
  rw [dif_pos (⟨by omega, by omega⟩ : u + a.val < 70 ∧ v + b.val < 1062)]
  show x0 _ = x0 _
  refine congrArg x0 (funext fun d => ?_)
  match d with
  | ⟨0, _⟩ => exact Fin.ext rfl
  | ⟨1, _⟩ => exact Fin.ext (by show u + 1 * a.val = u + a.val; rw [Nat.one_mul])
  | ⟨2, _⟩ => exact Fin.ext (by show v + 1 * b.val = v + b.val; rw [Nat.one_mul])

/-! ## The two kernels' output tiles -/

set_option maxRecDepth 65536 in
set_option maxHeartbeats 4000000 in
/-- Kernel 0's output tile at (a, b): the one store covers the tile, so the tile reads the store's payload; every
    step of the payload acts element by element, each read is the padded row tile at a shifted position, the running
    minima start from ⊤ and the accumulator from 0. Both sides unfold to the same explicit expression. -/
theorem tile0_apply (x0 : Vec Ideal S1x70x1062 .f32) (x1 x2 x3 x4 : Vec Ideal S1 .f32) (a : Fin 32) (b : Fin 1024) :
    out0_5 (F := Ideal) x0 x1 x2 x3 x4 (ValueIdx.ix2 a b)
      = Cert.Ring.tile x0 (x1 (ValueIdx.ix1 0)) (x2 (ValueIdx.ix1 0)) (x3 (ValueIdx.ix1 0)) (x4 (ValueIdx.ix1 0)) a.val b.val := by
  unfold out0_5
  refine (congrFun (View.canon_unit_zero (Val := Elt Ideal) (S := S32x1024) (e := .f32) (off := ![0, 0])
    (funext fun d => by match d with | ⟨0, _⟩ => rfl | ⟨1, _⟩ => rfl) inb_S32x1024_S32x1024_0_0 _) (ix2 a b)).trans ?_
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74,
    minimumf_apply, subf_apply, addf_apply, mulf_apply, divf_apply, absf_at, broadcast_apply, shift_at, wt_at,
    word_top, word_zero, word_one, scalar_addf_at, zero_add,
    Cert.Ring.tile, Cert.Ring.pixel, Cert.Ring.ringMin, Cert.Ring.K7, Cert.Ring.K11, Cert.Ring.K15, Cert.Ring.K19,
    List.map_cons, List.map_nil, List.foldl_cons, List.foldl_nil]

set_option maxRecDepth 65536 in
set_option maxHeartbeats 4000000 in
/-- Kernel 1's output tile at (a, b): the one store covers the tile, so the tile reads the store's payload; every
    step of the payload acts element by element, each read is the padded row tile at a shifted position, the running
    minima start from ⊤ and the accumulator from 0. Both sides unfold to the same explicit expression. -/
theorem tile1_apply (x0 : Vec Ideal S1x70x1062 .f32) (x1 x2 x3 x4 : Vec Ideal S1 .f32) (a : Fin 32) (b : Fin 1024) :
    out1_5 (F := Ideal) x0 x1 x2 x3 x4 (ValueIdx.ix2 a b)
      = Cert.Ring.tile x0 (x1 (ValueIdx.ix1 0)) (x2 (ValueIdx.ix1 0)) (x3 (ValueIdx.ix1 0)) (x4 (ValueIdx.ix1 0)) a.val b.val := by
  unfold out1_5
  refine (congrFun (View.canon_unit_zero (Val := Elt Ideal) (S := S32x1024) (e := .f32) (off := ![0, 0])
    (funext fun d => by match d with | ⟨0, _⟩ => rfl | ⟨1, _⟩ => rfl) inb_S32x1024_S32x1024_0_0 _) (ix2 a b)).trans ?_
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74,
    minimumf_apply, subf_apply, addf_apply, mulf_apply, divf_apply, absf_at, broadcast_apply, shift_at, wt_at,
    word_top, word_zero, word_one, scalar_addf_at, zero_add,
    Cert.Ring.tile, Cert.Ring.pixel, Cert.Ring.ringMin, Cert.Ring.K7, Cert.Ring.K11, Cert.Ring.K15, Cert.Ring.K19,
    List.map_cons, List.map_nil, List.foldl_cons, List.foldl_nil]

end Cert.KernelIdeal.Hand

end
-- ==== Proof.SpecTile.lean ====
/-
  A row tile of the tiled computation is the corresponding rows of the layer: if the padded row tile `w` of tile
  number `t` holds rows 32 t .. 32 t + 69 of the image padded by 19, then pixel (a, b) of the tile's output is the
  layer's value at pixel (32 t + a, b).  The centre of the tile sits at padded coordinates (19 + a, 19 + b), i.e.
  at an inside pixel; every shifted read stays inside the tile because every shifted offset is at most 38.
-/
import proofs.«126001_j6975026889201_2_alg».proof.Proof.Spec

noncomputable section

namespace Cert.Ring

open Idealize.ShloMosaic Idealize.ShloMosaic.ValueIdx

theorem K7_le : ∀ o ∈ K7, o.1 ≤ 38 ∧ o.2 ≤ 38 := by decide
theorem K11_le : ∀ o ∈ K11, o.1 ≤ 38 ∧ o.2 ≤ 38 := by decide
theorem K15_le : ∀ o ∈ K15, o.1 ≤ 38 ∧ o.2 ≤ 38 := by decide
theorem K19_le : ∀ o ∈ K19, o.1 ≤ 38 ∧ o.2 ≤ 38 := by decide

/-- Inside the image the padded image is the image. -/
theorem pad19_inside (x : Img.Idx → EReal) (i j : ℕ) (hi : i < 1024) (hj : j < 1024) :
    pad19 x (i + 19) (j + 19) = x (ix2 ⟨i, hi⟩ ⟨j, hj⟩) := by
  unfold pad19
  rw [dif_pos (by omega)]
  congr 1

/-- The shifted reads of a tile are the neighbour values of the layer. -/
theorem nbrs_of_tile (w : Win.Idx → EReal) (x : Img.Idx → EReal) (t a b : ℕ) (ha : a < 32) (hb : b < 1024)
    (hw : ∀ u v, u < 70 → v < 1062 → winAt w u v = pad19 x (32 * t + u) v)
    (K : List (ℕ × ℕ)) (hK : ∀ o ∈ K, o.1 ≤ 38 ∧ o.2 ≤ 38) :
    (K.map fun o => winAt w (o.1 + a) (o.2 + b)) = nbrs x (32 * t + a) b K := by
  unfold nbrs
  refine List.map_congr_left fun o ho => ?_
  obtain ⟨h1, h2⟩ := hK o ho
  rw [hw (o.1 + a) (o.2 + b) (by omega) (by omega)]
  congr 1 <;> omega

/-- A tile's output pixel is the layer's pixel. -/
theorem tile_eq_layer (w : Win.Idx → EReal) (x : Img.Idx → EReal) (p1 p2 p3 p4 : EReal) (t a b : ℕ)
    (ht : t < 32) (ha : a < 32) (hb : b < 1024)
    (hw : ∀ u v, u < 70 → v < 1062 → winAt w u v = pad19 x (32 * t + u) v) :
    tile w p1 p2 p3 p4 a b = layer x p1 p2 p3 p4 (ix2 ⟨32 * t + a, by omega⟩ ⟨b, hb⟩) := by
  unfold tile layer
  rw [nbrs_of_tile w x t a b ha hb hw K7 K7_le, nbrs_of_tile w x t a b ha hb hw K11 K11_le,
    nbrs_of_tile w x t a b ha hb hw K15 K15_le, nbrs_of_tile w x t a b ha hb hw K19 K19_le]
  rw [hw (19 + a) (19 + b) (by omega) (by omega)]
  have hc : pad19 x (32 * t + (19 + a)) (19 + b) = x (ix2 ⟨32 * t + a, by omega⟩ ⟨b, hb⟩) := by
    have := pad19_inside x (32 * t + a) b (by omega) hb
    rw [← this]; congr 1 <;> omega
  rw [hc]

end Cert.Ring

end
-- ==== Proof.KI.Value.lean ====
/-
  The two layers' output arrays, read as values at the ideal instance.  Per region: the 32 output row tiles cover
  the output array, point t writes back tile t, and pixel (a, b) of tile t is the tiled computation's pixel from the
  tile's padded window block; so the array is one function of the stacked window array and the weights.  When the
  stacked window array is an image padded by 19 and cut in overlapping row tiles, that function is the layer of the
  image.
-/
import proofs.«126001_j6975026889201_2_alg».proof.Proof.KI.Regions
import proofs.«126001_j6975026889201_2_alg».proof.Proof.KI.Tile
import proofs.«126001_j6975026889201_2_alg».proof.Proof.SpecTile
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Layer 1's output array as one function -/

theorem cN0 : cfg0.N = 32 := N_0
theorem lt_cN0 {n : ℕ} (h : n < 32) : n < cfg0.N := lt_of_lt_of_eq h cN0.symm
theorem lt32_0 (t : Fin cfg0.N) : t.val < 32 := lt_of_lt_of_eq t.isLt cN0

/-- Row `r`, column `col` of layer 1's output: pixel (r mod 32, col) of tile r / 32, from that tile's padded window
    block and the four weights as the region finds them. -/
def rowVal0 (c : Dev nD) (r col : ℕ) : EReal :=
  if h : r < 1024 then
    Cert.Ring.tile (iblk0 V c 0 ⟨r / 32, lt_cN0 (by omega)⟩) (V c main_arg1 (ix1 0)) (V c main_arg2 (ix1 0)) (V c main_arg3 (ix1 0))
      (V c main_arg4 (ix1 0)) (r % 32) col
  else 0

def G0 (c : Dev nD) : S1024x1024.Idx → EReal := fun i => rowVal0 V c (i 0).val (i 1).val

/-- The printed index maps over the grid: the output tile of point `t` is block (t, 0); the window block is (t, 0, 0);
    every weight block is (0). -/
theorem idx_facts0 : ∀ t : Fin cfg0.N, win0_5.index t (0 : Fin 2) = t.val ∧ win0_5.index t (1 : Fin 2) = 0
    ∧ win0_0.index t (0 : Fin 3) = t.val ∧ win0_0.index t (1 : Fin 3) = 0 ∧ win0_0.index t (2 : Fin 3) = 0
    ∧ win0_1.index t (0 : Fin 1) = 0 ∧ win0_2.index t (0 : Fin 1) = 0 ∧ win0_3.index t (0 : Fin 1) = 0 ∧ win0_4.index t (0 : Fin 1) = 0 :=
  (by decide +kernel : ∀ t : Fin grid0.N, _)

/-- Each weight block is the weight array's one element. -/
theorem wblk0_1 (c : Dev nD) (t : Fin cfg0.N) : iblk0 V c 1 t (ix1 0) = V c main_arg1 (ix1 0) := by
  obtain ⟨-, -, -, -, -, e1, e2, e3, e4⟩ := idx_facts0 t
  show V c main_arg1 (((cfg0.win 1).blk t).view.emb (ix1 0)) = V c main_arg1 (ix1 0)
  refine congrArg _ (funext fun a => Fin.ext ?_)
  match a with
  | ⟨0, _⟩ => show win0_1.index t (0 : Fin 1) * 1 + 1 * 0 = 0; omega
theorem wblk0_2 (c : Dev nD) (t : Fin cfg0.N) : iblk0 V c 2 t (ix1 0) = V c main_arg2 (ix1 0) := by
  obtain ⟨-, -, -, -, -, e1, e2, e3, e4⟩ := idx_facts0 t
  show V c main_arg2 (((cfg0.win 2).blk t).view.emb (ix1 0)) = V c main_arg2 (ix1 0)
  refine congrArg _ (funext fun a => Fin.ext ?_)
  match a with
  | ⟨0, _⟩ => show win0_2.index t (0 : Fin 1) * 1 + 1 * 0 = 0; omega
theorem wblk0_3 (c : Dev nD) (t : Fin cfg0.N) : iblk0 V c 3 t (ix1 0) = V c main_arg3 (ix1 0) := by
  obtain ⟨-, -, -, -, -, e1, e2, e3, e4⟩ := idx_facts0 t
  show V c main_arg3 (((cfg0.win 3).blk t).view.emb (ix1 0)) = V c main_arg3 (ix1 0)
  refine congrArg _ (funext fun a => Fin.ext ?_)
  match a with
  | ⟨0, _⟩ => show win0_3.index t (0 : Fin 1) * 1 + 1 * 0 = 0; omega
theorem wblk0_4 (c : Dev nD) (t : Fin cfg0.N) : iblk0 V c 4 t (ix1 0) = V c main_arg4 (ix1 0) := by
  obtain ⟨-, -, -, -, -, e1, e2, e3, e4⟩ := idx_facts0 t
  show V c main_arg4 (((cfg0.win 4).blk t).view.emb (ix1 0)) = V c main_arg4 (ix1 0)
  refine congrArg _ (funext fun a => Fin.ext ?_)
  match a with
  | ⟨0, _⟩ => show win0_4.index t (0 : Fin 1) * 1 + 1 * 0 = 0; omega

/-- What point `t` writes back is block `t` of that function. -/
theorem flushed_eq0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  obtain ⟨e0, e1, -, -, -, -, -, -, -⟩ := idx_facts0 t
  have ht : t.val < 32 := lt32_0 t
  funext j
  obtain ⟨a, b, rfl⟩ : ∃ (a : Fin 32) (b : Fin 1024), j = ix2 a b := ⟨j 0, j 1, eq_ix2 j⟩
  show out0_5 (F := Ideal) (iblk0 V c 0 t) (iblk0 V c 1 t) (iblk0 V c 2 t) (iblk0 V c 3 t) (iblk0 V c 4 t) (ix2 a b)
      = G0 V c (((cfg0.win 5).blk t).view.emb (ix2 a b))
  rw [tile0_apply, wblk0_1, wblk0_2, wblk0_3, wblk0_4]
  have h0 : ((((cfg0.win 5).blk t).view.emb (ix2 a b)) 0).val = t.val * 32 + a.val := by
    show win0_5.index t (0 : Fin 2) * 32 + 1 * a.val = _; omega
  have h1 : ((((cfg0.win 5).blk t).view.emb (ix2 a b)) 1).val = b.val := by
    show win0_5.index t (1 : Fin 2) * 1024 + 1 * b.val = _; omega
  unfold G0 rowVal0
  rw [h0, h1, dif_pos (by omega)]
  have hq : (t.val * 32 + a.val) / 32 = t.val := by omega
  have hr : (t.val * 32 + a.val) % 32 = a.val := by omega
  have hT : (⟨(t.val * 32 + a.val) / 32, lt_cN0 (by omega)⟩ : Fin cfg0.N) = t := Fin.ext hq
  rw [hT, hr]

/-- An index of the output array is in point `t`'s block iff each coordinate is in the block's range. -/
theorem mem_blk0 (t : Fin cfg0.N) (i : S1024x1024.Idx) :
    i ∈ ((cfg0.win 5).blk t).view.set ↔ ∀ a : Fin 2, win0_5.index t a * S32x1024.size a ≤ (i a).val ∧ (i a).val < win0_5.index t a * S32x1024.size a + S32x1024.size a := by
  show i ∈ ((View.whole main_v68).slice (win0_5.rect t)).set ↔ _
  rw [View.set_slice_whole, Rect.mem_set_unit]
  exact Iff.rfl

/-- The 32 row tiles cover the output array: row r lies in tile r / 32. -/
theorem cover0 (i : S1024x1024.Idx) :
    ∃ t : Fin cfg0.N, (cfg0.win 5).flush t = true ∧ i ∈ ((cfg0.win 5).blk t).view.set := by
  have hi0 : (i 0).val < 1024 := idx2_lt0 i
  have hi1 : (i 1).val < 1024 := idx2_lt1 i
  refine ⟨⟨(i 0).val / 32, lt_cN0 (by omega)⟩, flush0_5 _, ?_⟩
  rw [mem_blk0]
  obtain ⟨e0, e1, -, -, -, -, -, -, -⟩ := idx_facts0 ⟨(i 0).val / 32, lt_cN0 (by omega)⟩
  intro a
  match a with
  | ⟨0, _⟩ => show win0_5.index _ (0 : Fin 2) * 32 ≤ (i 0).val ∧ (i 0).val < win0_5.index _ (0 : Fin 2) * 32 + 32; simp only [] at e0; omega
  | ⟨1, _⟩ => show win0_5.index _ (1 : Fin 2) * 1024 ≤ (i 1).val ∧ (i 1).val < win0_5.index _ (1 : Fin 2) * 1024 + 1024; omega

/-- The output array after the region. -/
theorem final0 (c : Dev nD) : (dat0 V c).arrAt 5 cfg0.N = G0 V c :=
  (dat0 V c).arrAt_eq_of_cover 5 (G0 V c) (fun t _ => flushed_eq0 V c t) (cover0)

/-- A padded window block read inside the tile is the stacked window array at (t, u, v). -/
theorem winAt_iblk0 (c : Dev nD) (t : Fin cfg0.N) (u v : ℕ) (hu : u < 70) (hv : v < 1062) :
    Cert.Ring.winAt (iblk0 V c 0 t) u v = V c main_v67 (ix3 ⟨t.val, lt32_0 t⟩ ⟨u, hu⟩ ⟨v, hv⟩) := by
  obtain ⟨-, -, e0, e1, e2, -, -, -, -⟩ := idx_facts0 t
  unfold Cert.Ring.winAt
  rw [dif_pos ⟨hu, hv⟩]
  show V c main_v67 (((cfg0.win 0).blk t).view.emb (ix3 (0 : Fin 1) ⟨u, hu⟩ ⟨v, hv⟩)) = _
  refine congrArg _ (funext fun a => Fin.ext ?_)
  match a with
  | ⟨0, _⟩ => show win0_0.index t (0 : Fin 3) * 1 + 1 * 0 = t.val; omega
  | ⟨1, _⟩ => show win0_0.index t (1 : Fin 3) * 70 + 1 * u = u; omega
  | ⟨2, _⟩ => show win0_0.index t (2 : Fin 3) * 1062 + 1 * v = v; omega

/-- If the stacked window array is the image `x` padded by 19 and cut in row tiles, the region's output array is the
    layer of `x`. -/
theorem G0_eq_layer (c : Dev nD) (x : Cert.Ring.Img.Idx → EReal)
    (hwin : ∀ (t : Fin 32) (u : Fin 70) (v : Fin 1062), V c main_v67 (ix3 t u v) = Cert.Ring.pad19 x (32 * t.val + u.val) v.val) :
    G0 V c = Cert.Ring.layer x (V c main_arg1 (ix1 0)) (V c main_arg2 (ix1 0)) (V c main_arg3 (ix1 0)) (V c main_arg4 (ix1 0)) := by
  funext i
  have hi0 : (i 0).val < 1024 := idx2_lt0 i
  have hi1 : (i 1).val < 1024 := idx2_lt1 i
  unfold G0 rowVal0
  rw [dif_pos hi0]
  rw [Cert.Ring.tile_eq_layer _ x _ _ _ _ ((i 0).val / 32) ((i 0).val % 32) (i 1).val (by omega) (by omega) hi1
    (fun u v hu hv => by rw [winAt_iblk0 V c _ u v hu hv]; exact hwin _ _ _)]
  refine congrArg _ (funext fun a => ?_)
  match a with
  | ⟨0, _⟩ => exact Fin.ext (by show 32 * ((i 0).val / 32) + (i 0).val % 32 = (i 0).val; omega)
  | ⟨1, _⟩ => exact Fin.ext rfl

/-! ## Layer 2's output array as one function -/

theorem cN1 : cfg1.N = 32 := N_1
theorem lt_cN1 {n : ℕ} (h : n < 32) : n < cfg1.N := lt_of_lt_of_eq h cN1.symm
theorem lt32_1 (t : Fin cfg1.N) : t.val < 32 := lt_of_lt_of_eq t.isLt cN1

/-- Row `r`, column `col` of layer 2's output: pixel (r mod 32, col) of tile r / 32, from that tile's padded window
    block and the four weights as the region finds them. -/
def rowVal1 (c : Dev nD) (r col : ℕ) : EReal :=
  if h : r < 1024 then
    Cert.Ring.tile (iblk1 V c 0 ⟨r / 32, lt_cN1 (by omega)⟩) (V c main_arg1 (ix1 0)) (V c main_arg2 (ix1 0)) (V c main_arg3 (ix1 0))
      (V c main_arg4 (ix1 0)) (r % 32) col
  else 0

def G1 (c : Dev nD) : S1024x1024.Idx → EReal := fun i => rowVal1 V c (i 0).val (i 1).val

/-- The printed index maps over the grid: the output tile of point `t` is block (t, 0); the window block is (t, 0, 0);
    every weight block is (0). -/
theorem idx_facts1 : ∀ t : Fin cfg1.N, win1_5.index t (0 : Fin 2) = t.val ∧ win1_5.index t (1 : Fin 2) = 0
    ∧ win1_0.index t (0 : Fin 3) = t.val ∧ win1_0.index t (1 : Fin 3) = 0 ∧ win1_0.index t (2 : Fin 3) = 0
    ∧ win1_1.index t (0 : Fin 1) = 0 ∧ win1_2.index t (0 : Fin 1) = 0 ∧ win1_3.index t (0 : Fin 1) = 0 ∧ win1_4.index t (0 : Fin 1) = 0 :=
  (by decide +kernel : ∀ t : Fin grid1.N, _)

/-- Each weight block is the weight array's one element. -/
theorem wblk1_1 (c : Dev nD) (t : Fin cfg1.N) : iblk1 V c 1 t (ix1 0) = V c main_arg1 (ix1 0) := by
  obtain ⟨-, -, -, -, -, e1, e2, e3, e4⟩ := idx_facts1 t
  show V c main_arg1 (((cfg1.win 1).blk t).view.emb (ix1 0)) = V c main_arg1 (ix1 0)
  refine congrArg _ (funext fun a => Fin.ext ?_)
  match a with
  | ⟨0, _⟩ => show win1_1.index t (0 : Fin 1) * 1 + 1 * 0 = 0; omega
theorem wblk1_2 (c : Dev nD) (t : Fin cfg1.N) : iblk1 V c 2 t (ix1 0) = V c main_arg2 (ix1 0) := by
  obtain ⟨-, -, -, -, -, e1, e2, e3, e4⟩ := idx_facts1 t
  show V c main_arg2 (((cfg1.win 2).blk t).view.emb (ix1 0)) = V c main_arg2 (ix1 0)
  refine congrArg _ (funext fun a => Fin.ext ?_)
  match a with
  | ⟨0, _⟩ => show win1_2.index t (0 : Fin 1) * 1 + 1 * 0 = 0; omega
theorem wblk1_3 (c : Dev nD) (t : Fin cfg1.N) : iblk1 V c 3 t (ix1 0) = V c main_arg3 (ix1 0) := by
  obtain ⟨-, -, -, -, -, e1, e2, e3, e4⟩ := idx_facts1 t
  show V c main_arg3 (((cfg1.win 3).blk t).view.emb (ix1 0)) = V c main_arg3 (ix1 0)
  refine congrArg _ (funext fun a => Fin.ext ?_)
  match a with
  | ⟨0, _⟩ => show win1_3.index t (0 : Fin 1) * 1 + 1 * 0 = 0; omega
theorem wblk1_4 (c : Dev nD) (t : Fin cfg1.N) : iblk1 V c 4 t (ix1 0) = V c main_arg4 (ix1 0) := by
  obtain ⟨-, -, -, -, -, e1, e2, e3, e4⟩ := idx_facts1 t
  show V c main_arg4 (((cfg1.win 4).blk t).view.emb (ix1 0)) = V c main_arg4 (ix1 0)
  refine congrArg _ (funext fun a => Fin.ext ?_)
  match a with
  | ⟨0, _⟩ => show win1_4.index t (0 : Fin 1) * 1 + 1 * 0 = 0; omega

/-- What point `t` writes back is block `t` of that function. -/
theorem flushed_eq1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  obtain ⟨e0, e1, -, -, -, -, -, -, -⟩ := idx_facts1 t
  have ht : t.val < 32 := lt32_1 t
  funext j
  obtain ⟨a, b, rfl⟩ : ∃ (a : Fin 32) (b : Fin 1024), j = ix2 a b := ⟨j 0, j 1, eq_ix2 j⟩
  show out1_5 (F := Ideal) (iblk1 V c 0 t) (iblk1 V c 1 t) (iblk1 V c 2 t) (iblk1 V c 3 t) (iblk1 V c 4 t) (ix2 a b)
      = G1 V c (((cfg1.win 5).blk t).view.emb (ix2 a b))
  rw [tile1_apply, wblk1_1, wblk1_2, wblk1_3, wblk1_4]
  have h0 : ((((cfg1.win 5).blk t).view.emb (ix2 a b)) 0).val = t.val * 32 + a.val := by
    show win1_5.index t (0 : Fin 2) * 32 + 1 * a.val = _; omega
  have h1 : ((((cfg1.win 5).blk t).view.emb (ix2 a b)) 1).val = b.val := by
    show win1_5.index t (1 : Fin 2) * 1024 + 1 * b.val = _; omega
  unfold G1 rowVal1
  rw [h0, h1, dif_pos (by omega)]
  have hq : (t.val * 32 + a.val) / 32 = t.val := by omega
  have hr : (t.val * 32 + a.val) % 32 = a.val := by omega
  have hT : (⟨(t.val * 32 + a.val) / 32, lt_cN1 (by omega)⟩ : Fin cfg1.N) = t := Fin.ext hq
  rw [hT, hr]

/-- An index of the output array is in point `t`'s block iff each coordinate is in the block's range. -/
theorem mem_blk1 (t : Fin cfg1.N) (i : S1024x1024.Idx) :
    i ∈ ((cfg1.win 5).blk t).view.set ↔ ∀ a : Fin 2, win1_5.index t a * S32x1024.size a ≤ (i a).val ∧ (i a).val < win1_5.index t a * S32x1024.size a + S32x1024.size a := by
  show i ∈ ((View.whole main_v137).slice (win1_5.rect t)).set ↔ _
  rw [View.set_slice_whole, Rect.mem_set_unit]
  exact Iff.rfl

/-- The 32 row tiles cover the output array: row r lies in tile r / 32. -/
theorem cover1 (i : S1024x1024.Idx) :
    ∃ t : Fin cfg1.N, (cfg1.win 5).flush t = true ∧ i ∈ ((cfg1.win 5).blk t).view.set := by
  have hi0 : (i 0).val < 1024 := idx2_lt0 i
  have hi1 : (i 1).val < 1024 := idx2_lt1 i
  refine ⟨⟨(i 0).val / 32, lt_cN1 (by omega)⟩, flush1_5 _, ?_⟩
  rw [mem_blk1]
  obtain ⟨e0, e1, -, -, -, -, -, -, -⟩ := idx_facts1 ⟨(i 0).val / 32, lt_cN1 (by omega)⟩
  intro a
  match a with
  | ⟨0, _⟩ => show win1_5.index _ (0 : Fin 2) * 32 ≤ (i 0).val ∧ (i 0).val < win1_5.index _ (0 : Fin 2) * 32 + 32; simp only [] at e0; omega
  | ⟨1, _⟩ => show win1_5.index _ (1 : Fin 2) * 1024 ≤ (i 1).val ∧ (i 1).val < win1_5.index _ (1 : Fin 2) * 1024 + 1024; omega

/-- The output array after the region. -/
theorem final1 (c : Dev nD) : (dat1 V c).arrAt 5 cfg1.N = G1 V c :=
  (dat1 V c).arrAt_eq_of_cover 5 (G1 V c) (fun t _ => flushed_eq1 V c t) (cover1)

/-- A padded window block read inside the tile is the stacked window array at (t, u, v). -/
theorem winAt_iblk1 (c : Dev nD) (t : Fin cfg1.N) (u v : ℕ) (hu : u < 70) (hv : v < 1062) :
    Cert.Ring.winAt (iblk1 V c 0 t) u v = V c main_v136 (ix3 ⟨t.val, lt32_1 t⟩ ⟨u, hu⟩ ⟨v, hv⟩) := by
  obtain ⟨-, -, e0, e1, e2, -, -, -, -⟩ := idx_facts1 t
  unfold Cert.Ring.winAt
  rw [dif_pos ⟨hu, hv⟩]
  show V c main_v136 (((cfg1.win 0).blk t).view.emb (ix3 (0 : Fin 1) ⟨u, hu⟩ ⟨v, hv⟩)) = _
  refine congrArg _ (funext fun a => Fin.ext ?_)
  match a with
  | ⟨0, _⟩ => show win1_0.index t (0 : Fin 3) * 1 + 1 * 0 = t.val; omega
  | ⟨1, _⟩ => show win1_0.index t (1 : Fin 3) * 70 + 1 * u = u; omega
  | ⟨2, _⟩ => show win1_0.index t (2 : Fin 3) * 1062 + 1 * v = v; omega

/-- If the stacked window array is the image `x` padded by 19 and cut in row tiles, the region's output array is the
    layer of `x`. -/
theorem G1_eq_layer (c : Dev nD) (x : Cert.Ring.Img.Idx → EReal)
    (hwin : ∀ (t : Fin 32) (u : Fin 70) (v : Fin 1062), V c main_v136 (ix3 t u v) = Cert.Ring.pad19 x (32 * t.val + u.val) v.val) :
    G1 V c = Cert.Ring.layer x (V c main_arg1 (ix1 0)) (V c main_arg2 (ix1 0)) (V c main_arg3 (ix1 0)) (V c main_arg4 (ix1 0)) := by
  funext i
  have hi0 : (i 0).val < 1024 := idx2_lt0 i
  have hi1 : (i 1).val < 1024 := idx2_lt1 i
  unfold G1 rowVal1
  rw [dif_pos hi0]
  rw [Cert.Ring.tile_eq_layer _ x _ _ _ _ ((i 0).val / 32) ((i 0).val % 32) (i 1).val (by omega) (by omega) hi1
    (fun u v hu hv => by rw [winAt_iblk1 V c _ u v hu hv]; exact hwin _ _ _)]
  refine congrArg _ (funext fun a => ?_)
  match a with
  | ⟨0, _⟩ => exact Fin.ext (by show 32 * ((i 0).val / 32) + (i 0).val % 32 = (i 0).val; omega)
  | ⟨1, _⟩ => exact Fin.ext rfl

end Cert.KernelIdeal.Hand

end
-- ==== Proof.KI.Tiles.lean ====
/-
  The host's cutting of the padded image into row tiles, as a function, read index by index: tile t of the stack
  holds rows 32 t … 32 t + 69 of the padded image; and the padding itself read at an index.
-/
import proofs.«126001_j6975026889201_2_alg».proof.KernelIdeal
import proofs.«126001_j6975026889201_2_alg».proof.Proof.Spec
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Hand

open Idealize.ShloMosaic Idealize.ShloMosaic.ValueIdx
open Cert.KernelIdeal

variable [Facts₀]
open Facts₀

/-- One tile under a leading unit axis: the 70 rows of the padded image from row `o` on. -/
abbrev slab (P : Vec Ideal S1062x1062 .f32) (o : Nat) (h : S1062x1062.Slices ![o, 0] S70x1062) : Vec Ideal S1x70x1062 .f32 :=
  broadcastInDim S1x70x1062 ![1, 2] bcast_S70x1062_S1x70x1062_1_2 (extractStridedSlice S70x1062 ![o, 0] P h)

/-- A tile read at (0, u, v) is the padded image at (o + u, v). -/
theorem slab_apply (P : Vec Ideal S1062x1062 .f32) (o : Nat) (h : S1062x1062.Slices ![o, 0] S70x1062) (ho : o + 70 ≤ 1062)
    (z : Fin 1) (u : Fin 70) (v : Fin 1062) :
    slab P o h (ix3 z u v) = P (ix2 ⟨o + u.val, by omega⟩ ⟨v.val, v.isLt⟩) := by
  refine (broadcastInDim_apply _ bcast_S70x1062_S1x70x1062_1_2 _ (ix3 z u v) (ix2 u v) ?_).trans ?_
  · intro a
    match a with
    | ⟨0, _⟩ => rfl
    | ⟨1, _⟩ => rfl
  · refine extractStridedSlice_apply _ P h (ix2 u v) (ix2 ⟨o + u.val, by omega⟩ ⟨v.val, v.isLt⟩) ?_
    intro a
    match a with
    | ⟨0, _⟩ => rfl
    | ⟨1, _⟩ => show v.val = 0 + v.val; omega

/-- Sixteen pieces with a leading unit axis stacked along it: piece `s` at index (s, u, v). -/
theorem stack16_apply (x : Fin 16 → Vec Ideal S1x70x1062 .f32)
    (h : Shape.Concatenates (([⟨S1x70x1062, x 0⟩, ⟨S1x70x1062, x 1⟩, ⟨S1x70x1062, x 2⟩, ⟨S1x70x1062, x 3⟩, ⟨S1x70x1062, x 4⟩, ⟨S1x70x1062, x 5⟩, ⟨S1x70x1062, x 6⟩, ⟨S1x70x1062, x 7⟩, ⟨S1x70x1062, x 8⟩, ⟨S1x70x1062, x 9⟩, ⟨S1x70x1062, x 10⟩, ⟨S1x70x1062, x 11⟩, ⟨S1x70x1062, x 12⟩, ⟨S1x70x1062, x 13⟩, ⟨S1x70x1062, x 14⟩, ⟨S1x70x1062, x 15⟩] : List ((s : Shape) × (s.Idx → Elt Ideal .f32))).map (·.1)) S16x70x1062 0)
    (s : Fin 16) (u : Fin 70) (v : Fin 1062) :
    concatenate S16x70x1062 0 [⟨S1x70x1062, x 0⟩, ⟨S1x70x1062, x 1⟩, ⟨S1x70x1062, x 2⟩, ⟨S1x70x1062, x 3⟩, ⟨S1x70x1062, x 4⟩, ⟨S1x70x1062, x 5⟩, ⟨S1x70x1062, x 6⟩, ⟨S1x70x1062, x 7⟩, ⟨S1x70x1062, x 8⟩, ⟨S1x70x1062, x 9⟩, ⟨S1x70x1062, x 10⟩, ⟨S1x70x1062, x 11⟩, ⟨S1x70x1062, x 12⟩, ⟨S1x70x1062, x 13⟩, ⟨S1x70x1062, x 14⟩, ⟨S1x70x1062, x 15⟩] h (ix3 s u v) = x s (ix3 (0 : Fin 1) u v) := by
  have key : ∀ (l : List ((s : Shape) × (s.Idx → Elt Ideal .f32)))
      (hl : l = List.ofFn fun n : Fin 16 => (⟨S1x70x1062, x n⟩ : (s : Shape) × (s.Idx → Elt Ideal .f32)))
      (h : Shape.Concatenates (l.map (·.1)) S16x70x1062 0),
      concatenate S16x70x1062 0 l h (ix3 s u v) = x s (ix3 (0 : Fin 1) u v) := by
    intro l hl
    subst hl
    intro h
    refine concatenate_ofFn_unit_apply (t := S16x70x1062) (s₁ := S1x70x1062) (0 : Fin 3) x h rfl rfl (ix3 s u v) s rfl (ix3 (0 : Fin 1) u v) ?_
    intro b hb
    match b, hb with
    | ⟨0, _⟩, hb => exact absurd rfl hb
    | ⟨1, _⟩, _ => rfl
    | ⟨2, _⟩, _ => rfl
  exact key _ rfl h

/-- The stack of the 32 row tiles of the padded image `P`: the host operations' composed function. -/
def tiles (P : Vec Ideal S1062x1062 .f32) : Vec Ideal S32x70x1062 .f32 :=
  concatenate S32x70x1062 0
    [⟨S16x70x1062, concatenate S16x70x1062 0
      [⟨S1x70x1062, broadcastInDim S1x70x1062 ![1, 2] bcast_S70x1062_S1x70x1062_1_2 (extractStridedSlice S70x1062 ![0, 0] P slices_S1062x1062_S70x1062_0_0)⟩,
       ⟨S1x70x1062, broadcastInDim S1x70x1062 ![1, 2] bcast_S70x1062_S1x70x1062_1_2 (extractStridedSlice S70x1062 ![32, 0] P slices_S1062x1062_S70x1062_32_0)⟩,
       ⟨S1x70x1062, broadcastInDim S1x70x1062 ![1, 2] bcast_S70x1062_S1x70x1062_1_2 (extractStridedSlice S70x1062 ![64, 0] P slices_S1062x1062_S70x1062_64_0)⟩,
       ⟨S1x70x1062, broadcastInDim S1x70x1062 ![1, 2] bcast_S70x1062_S1x70x1062_1_2 (extractStridedSlice S70x1062 ![96, 0] P slices_S1062x1062_S70x1062_96_0)⟩,
       ⟨S1x70x1062, broadcastInDim S1x70x1062 ![1, 2] bcast_S70x1062_S1x70x1062_1_2 (extractStridedSlice S70x1062 ![128, 0] P slices_S1062x1062_S70x1062_128_0)⟩,
       ⟨S1x70x1062, broadcastInDim S1x70x1062 ![1, 2] bcast_S70x1062_S1x70x1062_1_2 (extractStridedSlice S70x1062 ![160, 0] P slices_S1062x1062_S70x1062_160_0)⟩,
       ⟨S1x70x1062, broadcastInDim S1x70x1062 ![1, 2] bcast_S70x1062_S1x70x1062_1_2 (extractStridedSlice S70x1062 ![192, 0] P slices_S1062x1062_S70x1062_192_0)⟩,
       ⟨S1x70x1062, broadcastInDim S1x70x1062 ![1, 2] bcast_S70x1062_S1x70x1062_1_2 (extractStridedSlice S70x1062 ![224, 0] P slices_S1062x1062_S70x1062_224_0)⟩,
       ⟨S1x70x1062, broadcastInDim S1x70x1062 ![1, 2] bcast_S70x1062_S1x70x1062_1_2 (extractStridedSlice S70x1062 ![256, 0] P slices_S1062x1062_S70x1062_256_0)⟩,
       ⟨S1x70x1062, broadcastInDim S1x70x1062 ![1, 2] bcast_S70x1062_S1x70x1062_1_2 (extractStridedSlice S70x1062 ![288, 0] P slices_S1062x1062_S70x1062_288_0)⟩,
       ⟨S1x70x1062, broadcastInDim S1x70x1062 ![1, 2] bcast_S70x1062_S1x70x1062_1_2 (extractStridedSlice S70x1062 ![320, 0] P slices_S1062x1062_S70x1062_320_0)⟩,
       ⟨S1x70x1062, broadcastInDim S1x70x1062 ![1, 2] bcast_S70x1062_S1x70x1062_1_2 (extractStridedSlice S70x1062 ![352, 0] P slices_S1062x1062_S70x1062_352_0)⟩,
       ⟨S1x70x1062, broadcastInDim S1x70x1062 ![1, 2] bcast_S70x1062_S1x70x1062_1_2 (extractStridedSlice S70x1062 ![384, 0] P slices_S1062x1062_S70x1062_384_0)⟩,
       ⟨S1x70x1062, broadcastInDim S1x70x1062 ![1, 2] bcast_S70x1062_S1x70x1062_1_2 (extractStridedSlice S70x1062 ![416, 0] P slices_S1062x1062_S70x1062_416_0)⟩,
       ⟨S1x70x1062, broadcastInDim S1x70x1062 ![1, 2] bcast_S70x1062_S1x70x1062_1_2 (extractStridedSlice S70x1062 ![448, 0] P slices_S1062x1062_S70x1062_448_0)⟩,
       ⟨S1x70x1062, broadcastInDim S1x70x1062 ![1, 2] bcast_S70x1062_S1x70x1062_1_2 (extractStridedSlice S70x1062 ![480, 0] P slices_S1062x1062_S70x1062_480_0)⟩]
      concatenates_S1x70x1062_S1x70x1062_S1x70x1062_S1x70x1062_S1x70x1062_S1x70x1062_S1x70x1062_S1x70x1062_S1x70x1062_S1x70x1062_S1x70x1062_S1x70x1062_S1x70x1062_S1x70x1062_S1x70x1062_S1x70x1062_S16x70x1062_d0⟩,
     ⟨S16x70x1062, concatenate S16x70x1062 0
      [⟨S1x70x1062, broadcastInDim S1x70x1062 ![1, 2] bcast_S70x1062_S1x70x1062_1_2 (extractStridedSlice S70x1062 ![512, 0] P slices_S1062x1062_S70x1062_512_0)⟩,
       ⟨S1x70x1062, broadcastInDim S1x70x1062 ![1, 2] bcast_S70x1062_S1x70x1062_1_2 (extractStridedSlice S70x1062 ![544, 0] P slices_S1062x1062_S70x1062_544_0)⟩,
       ⟨S1x70x1062, broadcastInDim S1x70x1062 ![1, 2] bcast_S70x1062_S1x70x1062_1_2 (extractStridedSlice S70x1062 ![576, 0] P slices_S1062x1062_S70x1062_576_0)⟩,
       ⟨S1x70x1062, broadcastInDim S1x70x1062 ![1, 2] bcast_S70x1062_S1x70x1062_1_2 (extractStridedSlice S70x1062 ![608, 0] P slices_S1062x1062_S70x1062_608_0)⟩,
       ⟨S1x70x1062, broadcastInDim S1x70x1062 ![1, 2] bcast_S70x1062_S1x70x1062_1_2 (extractStridedSlice S70x1062 ![640, 0] P slices_S1062x1062_S70x1062_640_0)⟩,
       ⟨S1x70x1062, broadcastInDim S1x70x1062 ![1, 2] bcast_S70x1062_S1x70x1062_1_2 (extractStridedSlice S70x1062 ![672, 0] P slices_S1062x1062_S70x1062_672_0)⟩,
       ⟨S1x70x1062, broadcastInDim S1x70x1062 ![1, 2] bcast_S70x1062_S1x70x1062_1_2 (extractStridedSlice S70x1062 ![704, 0] P slices_S1062x1062_S70x1062_704_0)⟩,
       ⟨S1x70x1062, broadcastInDim S1x70x1062 ![1, 2] bcast_S70x1062_S1x70x1062_1_2 (extractStridedSlice S70x1062 ![736, 0] P slices_S1062x1062_S70x1062_736_0)⟩,
       ⟨S1x70x1062, broadcastInDim S1x70x1062 ![1, 2] bcast_S70x1062_S1x70x1062_1_2 (extractStridedSlice S70x1062 ![768, 0] P slices_S1062x1062_S70x1062_768_0)⟩,
       ⟨S1x70x1062, broadcastInDim S1x70x1062 ![1, 2] bcast_S70x1062_S1x70x1062_1_2 (extractStridedSlice S70x1062 ![800, 0] P slices_S1062x1062_S70x1062_800_0)⟩,
       ⟨S1x70x1062, broadcastInDim S1x70x1062 ![1, 2] bcast_S70x1062_S1x70x1062_1_2 (extractStridedSlice S70x1062 ![832, 0] P slices_S1062x1062_S70x1062_832_0)⟩,
       ⟨S1x70x1062, broadcastInDim S1x70x1062 ![1, 2] bcast_S70x1062_S1x70x1062_1_2 (extractStridedSlice S70x1062 ![864, 0] P slices_S1062x1062_S70x1062_864_0)⟩,
       ⟨S1x70x1062, broadcastInDim S1x70x1062 ![1, 2] bcast_S70x1062_S1x70x1062_1_2 (extractStridedSlice S70x1062 ![896, 0] P slices_S1062x1062_S70x1062_896_0)⟩,
       ⟨S1x70x1062, broadcastInDim S1x70x1062 ![1, 2] bcast_S70x1062_S1x70x1062_1_2 (extractStridedSlice S70x1062 ![928, 0] P slices_S1062x1062_S70x1062_928_0)⟩,
       ⟨S1x70x1062, broadcastInDim S1x70x1062 ![1, 2] bcast_S70x1062_S1x70x1062_1_2 (extractStridedSlice S70x1062 ![960, 0] P slices_S1062x1062_S70x1062_960_0)⟩,
       ⟨S1x70x1062, broadcastInDim S1x70x1062 ![1, 2] bcast_S70x1062_S1x70x1062_1_2 (extractStridedSlice S70x1062 ![992, 0] P slices_S1062x1062_S70x1062_992_0)⟩]
      concatenates_S1x70x1062_S1x70x1062_S1x70x1062_S1x70x1062_S1x70x1062_S1x70x1062_S1x70x1062_S1x70x1062_S1x70x1062_S1x70x1062_S1x70x1062_S1x70x1062_S1x70x1062_S1x70x1062_S1x70x1062_S1x70x1062_S16x70x1062_d0⟩]
    concatenates_S16x70x1062_S16x70x1062_S32x70x1062_d0

/-- Tile t of the stack at (u, v) is the padded image at (32 t + u, v). -/
theorem tiles_apply (P : Vec Ideal S1062x1062 .f32) (t : Fin 32) (u : Fin 70) (v : Fin 1062) :
    tiles P (ix3 t u v) = P (ix2 ⟨32 * t.val + u.val, by omega⟩ ⟨v.val, v.isLt⟩) := by
  have sl0 : ∀ s : Fin 16, S1062x1062.Slices ![32 * s.val, 0] S70x1062 := fun s => ⟨rfl, fun a => by
    match a with
    | ⟨0, _⟩ => show 32 * s.val + 70 ≤ 1062; omega
    | ⟨1, _⟩ => show 0 + 1062 ≤ 1062; omega⟩
  have sl1 : ∀ s : Fin 16, S1062x1062.Slices ![32 * (16 + s.val), 0] S70x1062 := fun s => ⟨rfl, fun a => by
    match a with
    | ⟨0, _⟩ => show 32 * (16 + s.val) + 70 ≤ 1062; omega
    | ⟨1, _⟩ => show 0 + 1062 ≤ 1062; omega⟩
  unfold tiles
  by_cases ht : t.val < 16
  · refine (concatenate_pair_apply_left (t := S32x70x1062) (s₁ := S16x70x1062) (s₂ := S16x70x1062) (0 : Fin 3) _ _
      concatenates_S16x70x1062_S16x70x1062_S32x70x1062_d0 (ix3 t u v) rfl (ix3 (⟨t.val, ht⟩ : Fin 16) u v) ?_).trans ?_
    · intro b
      match b with
      | ⟨0, _⟩ => rfl
      | ⟨1, _⟩ => rfl
      | ⟨2, _⟩ => rfl
    · refine (stack16_apply (fun s : Fin 16 => slab P (32 * s.val) (sl0 s)) _ ⟨t.val, ht⟩ u v).trans ?_
      exact slab_apply P _ _ (by show 32 * t.val + 70 ≤ 1062; omega) 0 u v
  · have ht' : t.val - 16 < 16 := by have := t.isLt; omega
    refine (concatenate_pair_apply_right (t := S32x70x1062) (s₁ := S16x70x1062) (s₂ := S16x70x1062) (0 : Fin 3) _ _
      concatenates_S16x70x1062_S16x70x1062_S32x70x1062_d0 (ix3 t u v) rfl rfl (ix3 (⟨t.val - 16, ht'⟩ : Fin 16) u v) ?_ ?_).trans ?_
    · intro b hb
      match b, hb with
      | ⟨0, _⟩, hb => exact absurd rfl hb
      | ⟨1, _⟩, _ => rfl
      | ⟨2, _⟩, _ => rfl
    · show t.val - 16 + 16 = t.val
      omega
    · refine (stack16_apply (fun s : Fin 16 => slab P (32 * (16 + s.val)) (sl1 s)) _ ⟨t.val - 16, ht'⟩ u v).trans ?_
      refine (slab_apply P _ _ (by show 32 * (16 + (t.val - 16)) + 70 ≤ 1062; omega) 0 u v).trans ?_
      refine congrArg P ?_
      funext a
      match a with
      | ⟨0, _⟩ => exact Fin.ext (by show 32 * (16 + (t.val - 16)) + u.val = 32 * t.val + u.val; omega)
      | ⟨1, _⟩ => rfl

/-- The image padded by 19 on every side, read at (a, b): the pixel (a - 19, b - 19) inside, the padding value outside. -/
theorem pad_apply (x : Vec Ideal S1024x1024 .f32) (bg : Vec Ideal S_ .f32) (a : Fin 1062) (b : Fin 1062) :
    pad S1062x1062 ![19, 19] ![19, 19] ![0, 0] x bg pads_S1024x1024_S1062x1062_19190_19190 h_S_ (ix2 a b)
      = (if h : (19 ≤ a.val ∧ a.val < 1043) ∧ (19 ≤ b.val ∧ b.val < 1043) then x (ix2 ⟨a.val - 19, by omega⟩ ⟨b.val - 19, by omega⟩) else bg ix0) := by
  by_cases h : (19 ≤ a.val ∧ a.val < 1043) ∧ (19 ≤ b.val ∧ b.val < 1043)
  · rw [dif_pos h]
    refine pad_apply_of_inside _ _ _ x bg _ _ (ix2 a b) (ix2 ⟨a.val - 19, by omega⟩ ⟨b.val - 19, by omega⟩) ?_
    intro k
    match k with
    | ⟨0, _⟩ => show a.val = 19 + (a.val - 19) * 1; omega
    | ⟨1, _⟩ => show b.val = 19 + (b.val - 19) * 1; omega
  · rw [dif_neg h]
    by_cases ha : 19 ≤ a.val ∧ a.val < 1043
    · have hb : ¬(19 ≤ b.val ∧ b.val < 1043) := fun hb => h ⟨ha, hb⟩
      refine (pad_apply_of_not_inside _ _ _ x bg _ _ (ix2 a b) (1 : Fin 2) ?_).trans (congrArg bg (eq_ix0 _))
      show ¬(19 ≤ b.val ∧ (b.val - 19) % 1 = 0 ∧ (b.val - 19) / 1 < 1024)
      omega
    · refine (pad_apply_of_not_inside _ _ _ x bg _ _ (ix2 a b) (0 : Fin 2) ?_).trans (congrArg bg (eq_ix0 _))
      show ¬(19 ≤ a.val ∧ (a.val - 19) % 1 = 0 ∧ (a.val - 19) / 1 < 1024)
      omega

end Cert.KernelIdeal.Hand

end
-- ==== Proof.KI.Windows.lean ====
/-
  Each layer's stacked window array, index by index: tile t at (u, v) is the layer's input image padded by 19, read at
  (32 t + u, v).  The host operations' results are read back through the fold; what they compose to is the cutting of
  the padded image into row tiles.
-/
import proofs.«126001_j6975026889201_2_alg».proof.Proof.KI.Run
import proofs.«126001_j6975026889201_2_alg».proof.Proof.KI.Tiles

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.KernelIdeal.Facts₀

variable (m : (ℓ : Loc nD τ sig) → Buf (Elt Ideal) ℓ) (ρ : Dev nD → PrngReg)

/-- A line of operations run in two parts. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The padding constant's one element. -/
theorem const_big : (constant (F := Ideal) S_ .f32 0x4E6E6B28#32) ix0 = Cert.Ring.big := by
  unfold Cert.Ring.big constant
  rfl

/-! ## Layer 1: the 64 slices and broadcasts, then the three concatenations -/

abbrev cutOps0 : List (HloOp τ sig (Elt Ideal)) := hostOps0_2.take 64
abbrev catOps0 : List (HloOp τ sig (Elt Ideal)) := hostOps0_2.drop 64
theorem hostOps0_2_split : (hostOps0_2 : List (HloOp τ sig (Elt Ideal))) = cutOps0 ++ catOps0 := (List.take_append_drop 64 _).symm

theorem cut0_0 (V : Valuation τ sig (Elt Ideal)) :
    StableHlo.after cutOps0 V (Proc.devRef .tc main_v33) = slab (V (Proc.devRef .tc main_v0)) 0 Facts₀.slices_S1062x1062_S70x1062_0_0 := by
  simp only [cutOps0, hostOps0_2, List.take_succ_cons, List.take_zero]
  after_results_simp

theorem cut0_1 (V : Valuation τ sig (Elt Ideal)) :
    StableHlo.after cutOps0 V (Proc.devRef .tc main_v34) = slab (V (Proc.devRef .tc main_v0)) 32 Facts₀.slices_S1062x1062_S70x1062_32_0 := by
  simp only [cutOps0, hostOps0_2, List.take_succ_cons, List.take_zero]
  after_results_simp

theorem cut0_2 (V : Valuation τ sig (Elt Ideal)) :
    StableHlo.after cutOps0 V (Proc.devRef .tc main_v35) = slab (V (Proc.devRef .tc main_v0)) 64 Facts₀.slices_S1062x1062_S70x1062_64_0 := by
  simp only [cutOps0, hostOps0_2, List.take_succ_cons, List.take_zero]
  after_results_simp

theorem cut0_3 (V : Valuation τ sig (Elt Ideal)) :
    StableHlo.after cutOps0 V (Proc.devRef .tc main_v36) = slab (V (Proc.devRef .tc main_v0)) 96 Facts₀.slices_S1062x1062_S70x1062_96_0 := by
  simp only [cutOps0, hostOps0_2, List.take_succ_cons, List.take_zero]
  after_results_simp

theorem cut0_4 (V : Valuation τ sig (Elt Ideal)) :
    StableHlo.after cutOps0 V (Proc.devRef .tc main_v37) = slab (V (Proc.devRef .tc main_v0)) 128 Facts₀.slices_S1062x1062_S70x1062_128_0 := by
  simp only [cutOps0, hostOps0_2, List.take_succ_cons, List.take_zero]
  after_results_simp

theorem cut0_5 (V : Valuation τ sig (Elt Ideal)) :
    StableHlo.after cutOps0 V (Proc.devRef .tc main_v38) = slab (V (Proc.devRef .tc main_v0)) 160 Facts₀.slices_S1062x1062_S70x1062_160_0 := by
  simp only [cutOps0, hostOps0_2, List.take_succ_cons, List.take_zero]
  after_results_simp

theorem cut0_6 (V : Valuation τ sig (Elt Ideal)) :
    StableHlo.after cutOps0 V (Proc.devRef .tc main_v39) = slab (V (Proc.devRef .tc main_v0)) 192 Facts₀.slices_S1062x1062_S70x1062_192_0 := by
  simp only [cutOps0, hostOps0_2, List.take_succ_cons, List.take_zero]
  after_results_simp

theorem cut0_7 (V : Valuation τ sig (Elt Ideal)) :
    StableHlo.after cutOps0 V (Proc.devRef .tc main_v40) = slab (V (Proc.devRef .tc main_v0)) 224 Facts₀.slices_S1062x1062_S70x1062_224_0 := by
  simp only [cutOps0, hostOps0_2, List.take_succ_cons, List.take_zero]
  after_results_simp

theorem cut0_8 (V : Valuation τ sig (Elt Ideal)) :
    StableHlo.after cutOps0 V (Proc.devRef .tc main_v41) = slab (V (Proc.devRef .tc main_v0)) 256 Facts₀.slices_S1062x1062_S70x1062_256_0 := by
  simp only [cutOps0, hostOps0_2, List.take_succ_cons, List.take_zero]
  after_results_simp

theorem cut0_9 (V : Valuation τ sig (Elt Ideal)) :
    StableHlo.after cutOps0 V (Proc.devRef .tc main_v42) = slab (V (Proc.devRef .tc main_v0)) 288 Facts₀.slices_S1062x1062_S70x1062_288_0 := by
  simp only [cutOps0, hostOps0_2, List.take_succ_cons, List.take_zero]
  after_results_simp

theorem cut0_10 (V : Valuation τ sig (Elt Ideal)) :
    StableHlo.after cutOps0 V (Proc.devRef .tc main_v43) = slab (V (Proc.devRef .tc main_v0)) 320 Facts₀.slices_S1062x1062_S70x1062_320_0 := by
  simp only [cutOps0, hostOps0_2, List.take_succ_cons, List.take_zero]
  after_results_simp

theorem cut0_11 (V : Valuation τ sig (Elt Ideal)) :
    StableHlo.after cutOps0 V (Proc.devRef .tc main_v44) = slab (V (Proc.devRef .tc main_v0)) 352 Facts₀.slices_S1062x1062_S70x1062_352_0 := by
  simp only [cutOps0, hostOps0_2, List.take_succ_cons, List.take_zero]
  after_results_simp

theorem cut0_12 (V : Valuation τ sig (Elt Ideal)) :
    StableHlo.after cutOps0 V (Proc.devRef .tc main_v45) = slab (V (Proc.devRef .tc main_v0)) 384 Facts₀.slices_S1062x1062_S70x1062_384_0 := by
  simp only [cutOps0, hostOps0_2, List.take_succ_cons, List.take_zero]
  after_results_simp

theorem cut0_13 (V : Valuation τ sig (Elt Ideal)) :
    StableHlo.after cutOps0 V (Proc.devRef .tc main_v46) = slab (V (Proc.devRef .tc main_v0)) 416 Facts₀.slices_S1062x1062_S70x1062_416_0 := by
  simp only [cutOps0, hostOps0_2, List.take_succ_cons, List.take_zero]
  after_results_simp

theorem cut0_14 (V : Valuation τ sig (Elt Ideal)) :
    StableHlo.after cutOps0 V (Proc.devRef .tc main_v47) = slab (V (Proc.devRef .tc main_v0)) 448 Facts₀.slices_S1062x1062_S70x1062_448_0 := by
  simp only [cutOps0, hostOps0_2, List.take_succ_cons, List.take_zero]
  after_results_simp

theorem cut0_15 (V : Valuation τ sig (Elt Ideal)) :
    StableHlo.after cutOps0 V (Proc.devRef .tc main_v48) = slab (V (Proc.devRef .tc main_v0)) 480 Facts₀.slices_S1062x1062_S70x1062_480_0 := by
  simp only [cutOps0, hostOps0_2, List.take_succ_cons, List.take_zero]
  after_results_simp

theorem cut0_16 (V : Valuation τ sig (Elt Ideal)) :
    StableHlo.after cutOps0 V (Proc.devRef .tc main_v49) = slab (V (Proc.devRef .tc main_v0)) 512 Facts₀.slices_S1062x1062_S70x1062_512_0 := by
  simp only [cutOps0, hostOps0_2, List.take_succ_cons, List.take_zero]
  after_results_simp

theorem cut0_17 (V : Valuation τ sig (Elt Ideal)) :
    StableHlo.after cutOps0 V (Proc.devRef .tc main_v50) = slab (V (Proc.devRef .tc main_v0)) 544 Facts₀.slices_S1062x1062_S70x1062_544_0 := by
  simp only [cutOps0, hostOps0_2, List.take_succ_cons, List.take_zero]
  after_results_simp

theorem cut0_18 (V : Valuation τ sig (Elt Ideal)) :
    StableHlo.after cutOps0 V (Proc.devRef .tc main_v51) = slab (V (Proc.devRef .tc main_v0)) 576 Facts₀.slices_S1062x1062_S70x1062_576_0 := by
  simp only [cutOps0, hostOps0_2, List.take_succ_cons, List.take_zero]
  after_results_simp

theorem cut0_19 (V : Valuation τ sig (Elt Ideal)) :
    StableHlo.after cutOps0 V (Proc.devRef .tc main_v52) = slab (V (Proc.devRef .tc main_v0)) 608 Facts₀.slices_S1062x1062_S70x1062_608_0 := by
  simp only [cutOps0, hostOps0_2, List.take_succ_cons, List.take_zero]
  after_results_simp

theorem cut0_20 (V : Valuation τ sig (Elt Ideal)) :
    StableHlo.after cutOps0 V (Proc.devRef .tc main_v53) = slab (V (Proc.devRef .tc main_v0)) 640 Facts₀.slices_S1062x1062_S70x1062_640_0 := by
  simp only [cutOps0, hostOps0_2, List.take_succ_cons, List.take_zero]
  after_results_simp

theorem cut0_21 (V : Valuation τ sig (Elt Ideal)) :
    StableHlo.after cutOps0 V (Proc.devRef .tc main_v54) = slab (V (Proc.devRef .tc main_v0)) 672 Facts₀.slices_S1062x1062_S70x1062_672_0 := by
  simp only [cutOps0, hostOps0_2, List.take_succ_cons, List.take_zero]
  after_results_simp

theorem cut0_22 (V : Valuation τ sig (Elt Ideal)) :
    StableHlo.after cutOps0 V (Proc.devRef .tc main_v55) = slab (V (Proc.devRef .tc main_v0)) 704 Facts₀.slices_S1062x1062_S70x1062_704_0 := by
  simp only [cutOps0, hostOps0_2, List.take_succ_cons, List.take_zero]
  after_results_simp

theorem cut0_23 (V : Valuation τ sig (Elt Ideal)) :
    StableHlo.after cutOps0 V (Proc.devRef .tc main_v56) = slab (V (Proc.devRef .tc main_v0)) 736 Facts₀.slices_S1062x1062_S70x1062_736_0 := by
  simp only [cutOps0, hostOps0_2, List.take_succ_cons, List.take_zero]
  after_results_simp

theorem cut0_24 (V : Valuation τ sig (Elt Ideal)) :
    StableHlo.after cutOps0 V (Proc.devRef .tc main_v57) = slab (V (Proc.devRef .tc main_v0)) 768 Facts₀.slices_S1062x1062_S70x1062_768_0 := by
  simp only [cutOps0, hostOps0_2, List.take_succ_cons, List.take_zero]
  after_results_simp

theorem cut0_25 (V : Valuation τ sig (Elt Ideal)) :
    StableHlo.after cutOps0 V (Proc.devRef .tc main_v58) = slab (V (Proc.devRef .tc main_v0)) 800 Facts₀.slices_S1062x1062_S70x1062_800_0 := by
  simp only [cutOps0, hostOps0_2, List.take_succ_cons, List.take_zero]
  after_results_simp

theorem cut0_26 (V : Valuation τ sig (Elt Ideal)) :
    StableHlo.after cutOps0 V (Proc.devRef .tc main_v59) = slab (V (Proc.devRef .tc main_v0)) 832 Facts₀.slices_S1062x1062_S70x1062_832_0 := by
  simp only [cutOps0, hostOps0_2, List.take_succ_cons, List.take_zero]
  after_results_simp

theorem cut0_27 (V : Valuation τ sig (Elt Ideal)) :
    StableHlo.after cutOps0 V (Proc.devRef .tc main_v60) = slab (V (Proc.devRef .tc main_v0)) 864 Facts₀.slices_S1062x1062_S70x1062_864_0 := by
  simp only [cutOps0, hostOps0_2, List.take_succ_cons, List.take_zero]
  after_results_simp

theorem cut0_28 (V : Valuation τ sig (Elt Ideal)) :
    StableHlo.after cutOps0 V (Proc.devRef .tc main_v61) = slab (V (Proc.devRef .tc main_v0)) 896 Facts₀.slices_S1062x1062_S70x1062_896_0 := by
  simp only [cutOps0, hostOps0_2, List.take_succ_cons, List.take_zero]
  after_results_simp

theorem cut0_29 (V : Valuation τ sig (Elt Ideal)) :
    StableHlo.after cutOps0 V (Proc.devRef .tc main_v62) = slab (V (Proc.devRef .tc main_v0)) 928 Facts₀.slices_S1062x1062_S70x1062_928_0 := by
  simp only [cutOps0, hostOps0_2, List.take_succ_cons, List.take_zero]
  after_results_simp

theorem cut0_30 (V : Valuation τ sig (Elt Ideal)) :
    StableHlo.after cutOps0 V (Proc.devRef .tc main_v63) = slab (V (Proc.devRef .tc main_v0)) 960 Facts₀.slices_S1062x1062_S70x1062_960_0 := by
  simp only [cutOps0, hostOps0_2, List.take_succ_cons, List.take_zero]
  after_results_simp

theorem cut0_31 (V : Valuation τ sig (Elt Ideal)) :
    StableHlo.after cutOps0 V (Proc.devRef .tc main_v64) = slab (V (Proc.devRef .tc main_v0)) 992 Facts₀.slices_S1062x1062_S70x1062_992_0 := by
  simp only [cutOps0, hostOps0_2, List.take_succ_cons, List.take_zero]
  after_results_simp

set_option maxHeartbeats 4000000 in
/-- The stacked array is the row tiles of the padded image, as one function. -/
theorem V3_windows (c : Dev nD) :
    (V3 (F := Ideal) m ρ c main_v67 : S32x70x1062.Idx → EReal) = tiles (W2 (F := Ideal) m ρ c (Proc.devRef .tc main_v0)) := by
  show StableHlo.after hostOps0_2 (W2 (F := Ideal) m ρ c) (Proc.devRef .tc main_v67) = _
  rw [hostOps0_2_split, after_append]
  have L0 := cut0_0 (W2 (F := Ideal) m ρ c)
  have L1 := cut0_1 (W2 (F := Ideal) m ρ c)
  have L2 := cut0_2 (W2 (F := Ideal) m ρ c)
  have L3 := cut0_3 (W2 (F := Ideal) m ρ c)
  have L4 := cut0_4 (W2 (F := Ideal) m ρ c)
  have L5 := cut0_5 (W2 (F := Ideal) m ρ c)
  have L6 := cut0_6 (W2 (F := Ideal) m ρ c)
  have L7 := cut0_7 (W2 (F := Ideal) m ρ c)
  have L8 := cut0_8 (W2 (F := Ideal) m ρ c)
  have L9 := cut0_9 (W2 (F := Ideal) m ρ c)
  have L10 := cut0_10 (W2 (F := Ideal) m ρ c)
  have L11 := cut0_11 (W2 (F := Ideal) m ρ c)
  have L12 := cut0_12 (W2 (F := Ideal) m ρ c)
  have L13 := cut0_13 (W2 (F := Ideal) m ρ c)
  have L14 := cut0_14 (W2 (F := Ideal) m ρ c)
  have L15 := cut0_15 (W2 (F := Ideal) m ρ c)
  have L16 := cut0_16 (W2 (F := Ideal) m ρ c)
  have L17 := cut0_17 (W2 (F := Ideal) m ρ c)
  have L18 := cut0_18 (W2 (F := Ideal) m ρ c)
  have L19 := cut0_19 (W2 (F := Ideal) m ρ c)
  have L20 := cut0_20 (W2 (F := Ideal) m ρ c)
  have L21 := cut0_21 (W2 (F := Ideal) m ρ c)
  have L22 := cut0_22 (W2 (F := Ideal) m ρ c)
  have L23 := cut0_23 (W2 (F := Ideal) m ρ c)
  have L24 := cut0_24 (W2 (F := Ideal) m ρ c)
  have L25 := cut0_25 (W2 (F := Ideal) m ρ c)
  have L26 := cut0_26 (W2 (F := Ideal) m ρ c)
  have L27 := cut0_27 (W2 (F := Ideal) m ρ c)
  have L28 := cut0_28 (W2 (F := Ideal) m ρ c)
  have L29 := cut0_29 (W2 (F := Ideal) m ρ c)
  have L30 := cut0_30 (W2 (F := Ideal) m ρ c)
  have L31 := cut0_31 (W2 (F := Ideal) m ρ c)
  generalize StableHlo.after cutOps0 (W2 (F := Ideal) m ρ c) = G at *
  simp only [catOps0, hostOps0_2, List.drop_succ_cons, List.drop_zero, StableHlo.after_cons, StableHlo.after_nil]
  rw [StableHlo.binary_result, StableHlo.nary_result]
  rw [StableHlo.nary_result_ne]; rotate_left; decide
  rw [StableHlo.nary_result]
  dsimp only [Matrix.cons_val]
  repeat (rw [StableHlo.nary_result_ne]; rotate_left; decide)
  rw [L0, L1, L2, L3, L4, L5, L6, L7, L8, L9, L10, L11, L12, L13, L14, L15, L16, L17, L18, L19, L20, L21, L22, L23, L24, L25, L26, L27, L28, L29, L30, L31]
  rfl

/-- The padded image of layer 1: the argument image padded by 19 with the constant. -/
theorem W2_padded (c : Dev nD) :
    (W2 (F := Ideal) m ρ c (Proc.devRef .tc main_v0) : S1062x1062.Idx → EReal)
      = pad S1062x1062 ![19, 19] ![19, 19] ![0, 0] (m ((c : Thread nD τ).loc main_arg0) : S1024x1024.Idx → EReal)
          (constant (F := Ideal) S_ .f32 0x4E6E6B28#32) Facts₀.pads_S1024x1024_S1062x1062_19190_19190 Facts₀.h_S_ := by
  dsimp only [W2, W1, W0, hostOps0, hostOps0_1, StableHlo.TRef.unary, StableHlo.TRef.binary]
  after_results_simp
  rfl

theorem windows0_apply (c : Dev nD) (t : Fin 32) (u : Fin 70) (v : Fin 1062) :
    V3 (F := Ideal) m ρ c main_v67 (ValueIdx.ix3 t u v)
      = Cert.Ring.pad19 (m ((c : Thread nD τ).loc main_arg0)) (32 * t.val + u.val) v.val := by
  refine (congrFun (V3_windows m ρ c) (ix3 t u v)).trans ?_
  rw [tiles_apply, W2_padded, pad_apply, const_big]
  rfl

/-! ## Layer 2: the 64 slices and broadcasts, then the three concatenations -/

abbrev cutOps1 : List (HloOp τ sig (Elt Ideal)) := hostOps1_2.take 64
abbrev catOps1 : List (HloOp τ sig (Elt Ideal)) := hostOps1_2.drop 64
theorem hostOps1_2_split : (hostOps1_2 : List (HloOp τ sig (Elt Ideal))) = cutOps1 ++ catOps1 := (List.take_append_drop 64 _).symm

theorem cut1_0 (V : Valuation τ sig (Elt Ideal)) :
    StableHlo.after cutOps1 V (Proc.devRef .tc main_v102) = slab (V (Proc.devRef .tc main_v69)) 0 Facts₀.slices_S1062x1062_S70x1062_0_0 := by
  simp only [cutOps1, hostOps1_2, List.take_succ_cons, List.take_zero]
  after_results_simp

theorem cut1_1 (V : Valuation τ sig (Elt Ideal)) :
    StableHlo.after cutOps1 V (Proc.devRef .tc main_v103) = slab (V (Proc.devRef .tc main_v69)) 32 Facts₀.slices_S1062x1062_S70x1062_32_0 := by
  simp only [cutOps1, hostOps1_2, List.take_succ_cons, List.take_zero]
  after_results_simp

theorem cut1_2 (V : Valuation τ sig (Elt Ideal)) :
    StableHlo.after cutOps1 V (Proc.devRef .tc main_v104) = slab (V (Proc.devRef .tc main_v69)) 64 Facts₀.slices_S1062x1062_S70x1062_64_0 := by
  simp only [cutOps1, hostOps1_2, List.take_succ_cons, List.take_zero]
  after_results_simp

theorem cut1_3 (V : Valuation τ sig (Elt Ideal)) :
    StableHlo.after cutOps1 V (Proc.devRef .tc main_v105) = slab (V (Proc.devRef .tc main_v69)) 96 Facts₀.slices_S1062x1062_S70x1062_96_0 := by
  simp only [cutOps1, hostOps1_2, List.take_succ_cons, List.take_zero]
  after_results_simp

theorem cut1_4 (V : Valuation τ sig (Elt Ideal)) :
    StableHlo.after cutOps1 V (Proc.devRef .tc main_v106) = slab (V (Proc.devRef .tc main_v69)) 128 Facts₀.slices_S1062x1062_S70x1062_128_0 := by
  simp only [cutOps1, hostOps1_2, List.take_succ_cons, List.take_zero]
  after_results_simp

theorem cut1_5 (V : Valuation τ sig (Elt Ideal)) :
    StableHlo.after cutOps1 V (Proc.devRef .tc main_v107) = slab (V (Proc.devRef .tc main_v69)) 160 Facts₀.slices_S1062x1062_S70x1062_160_0 := by
  simp only [cutOps1, hostOps1_2, List.take_succ_cons, List.take_zero]
  after_results_simp

theorem cut1_6 (V : Valuation τ sig (Elt Ideal)) :
    StableHlo.after cutOps1 V (Proc.devRef .tc main_v108) = slab (V (Proc.devRef .tc main_v69)) 192 Facts₀.slices_S1062x1062_S70x1062_192_0 := by
  simp only [cutOps1, hostOps1_2, List.take_succ_cons, List.take_zero]
  after_results_simp

theorem cut1_7 (V : Valuation τ sig (Elt Ideal)) :
    StableHlo.after cutOps1 V (Proc.devRef .tc main_v109) = slab (V (Proc.devRef .tc main_v69)) 224 Facts₀.slices_S1062x1062_S70x1062_224_0 := by
  simp only [cutOps1, hostOps1_2, List.take_succ_cons, List.take_zero]
  after_results_simp

theorem cut1_8 (V : Valuation τ sig (Elt Ideal)) :
    StableHlo.after cutOps1 V (Proc.devRef .tc main_v110) = slab (V (Proc.devRef .tc main_v69)) 256 Facts₀.slices_S1062x1062_S70x1062_256_0 := by
  simp only [cutOps1, hostOps1_2, List.take_succ_cons, List.take_zero]
  after_results_simp

theorem cut1_9 (V : Valuation τ sig (Elt Ideal)) :
    StableHlo.after cutOps1 V (Proc.devRef .tc main_v111) = slab (V (Proc.devRef .tc main_v69)) 288 Facts₀.slices_S1062x1062_S70x1062_288_0 := by
  simp only [cutOps1, hostOps1_2, List.take_succ_cons, List.take_zero]
  after_results_simp

theorem cut1_10 (V : Valuation τ sig (Elt Ideal)) :
    StableHlo.after cutOps1 V (Proc.devRef .tc main_v112) = slab (V (Proc.devRef .tc main_v69)) 320 Facts₀.slices_S1062x1062_S70x1062_320_0 := by
  simp only [cutOps1, hostOps1_2, List.take_succ_cons, List.take_zero]
  after_results_simp

theorem cut1_11 (V : Valuation τ sig (Elt Ideal)) :
    StableHlo.after cutOps1 V (Proc.devRef .tc main_v113) = slab (V (Proc.devRef .tc main_v69)) 352 Facts₀.slices_S1062x1062_S70x1062_352_0 := by
  simp only [cutOps1, hostOps1_2, List.take_succ_cons, List.take_zero]
  after_results_simp

theorem cut1_12 (V : Valuation τ sig (Elt Ideal)) :
    StableHlo.after cutOps1 V (Proc.devRef .tc main_v114) = slab (V (Proc.devRef .tc main_v69)) 384 Facts₀.slices_S1062x1062_S70x1062_384_0 := by
  simp only [cutOps1, hostOps1_2, List.take_succ_cons, List.take_zero]
  after_results_simp

theorem cut1_13 (V : Valuation τ sig (Elt Ideal)) :
    StableHlo.after cutOps1 V (Proc.devRef .tc main_v115) = slab (V (Proc.devRef .tc main_v69)) 416 Facts₀.slices_S1062x1062_S70x1062_416_0 := by
  simp only [cutOps1, hostOps1_2, List.take_succ_cons, List.take_zero]
  after_results_simp

theorem cut1_14 (V : Valuation τ sig (Elt Ideal)) :
    StableHlo.after cutOps1 V (Proc.devRef .tc main_v116) = slab (V (Proc.devRef .tc main_v69)) 448 Facts₀.slices_S1062x1062_S70x1062_448_0 := by
  simp only [cutOps1, hostOps1_2, List.take_succ_cons, List.take_zero]
  after_results_simp

theorem cut1_15 (V : Valuation τ sig (Elt Ideal)) :
    StableHlo.after cutOps1 V (Proc.devRef .tc main_v117) = slab (V (Proc.devRef .tc main_v69)) 480 Facts₀.slices_S1062x1062_S70x1062_480_0 := by
  simp only [cutOps1, hostOps1_2, List.take_succ_cons, List.take_zero]
  after_results_simp

theorem cut1_16 (V : Valuation τ sig (Elt Ideal)) :
    StableHlo.after cutOps1 V (Proc.devRef .tc main_v118) = slab (V (Proc.devRef .tc main_v69)) 512 Facts₀.slices_S1062x1062_S70x1062_512_0 := by
  simp only [cutOps1, hostOps1_2, List.take_succ_cons, List.take_zero]
  after_results_simp

theorem cut1_17 (V : Valuation τ sig (Elt Ideal)) :
    StableHlo.after cutOps1 V (Proc.devRef .tc main_v119) = slab (V (Proc.devRef .tc main_v69)) 544 Facts₀.slices_S1062x1062_S70x1062_544_0 := by
  simp only [cutOps1, hostOps1_2, List.take_succ_cons, List.take_zero]
  after_results_simp

theorem cut1_18 (V : Valuation τ sig (Elt Ideal)) :
    StableHlo.after cutOps1 V (Proc.devRef .tc main_v120) = slab (V (Proc.devRef .tc main_v69)) 576 Facts₀.slices_S1062x1062_S70x1062_576_0 := by
  simp only [cutOps1, hostOps1_2, List.take_succ_cons, List.take_zero]
  after_results_simp

theorem cut1_19 (V : Valuation τ sig (Elt Ideal)) :
    StableHlo.after cutOps1 V (Proc.devRef .tc main_v121) = slab (V (Proc.devRef .tc main_v69)) 608 Facts₀.slices_S1062x1062_S70x1062_608_0 := by
  simp only [cutOps1, hostOps1_2, List.take_succ_cons, List.take_zero]
  after_results_simp

theorem cut1_20 (V : Valuation τ sig (Elt Ideal)) :
    StableHlo.after cutOps1 V (Proc.devRef .tc main_v122) = slab (V (Proc.devRef .tc main_v69)) 640 Facts₀.slices_S1062x1062_S70x1062_640_0 := by
  simp only [cutOps1, hostOps1_2, List.take_succ_cons, List.take_zero]
  after_results_simp

theorem cut1_21 (V : Valuation τ sig (Elt Ideal)) :
    StableHlo.after cutOps1 V (Proc.devRef .tc main_v123) = slab (V (Proc.devRef .tc main_v69)) 672 Facts₀.slices_S1062x1062_S70x1062_672_0 := by
  simp only [cutOps1, hostOps1_2, List.take_succ_cons, List.take_zero]
  after_results_simp

theorem cut1_22 (V : Valuation τ sig (Elt Ideal)) :
    StableHlo.after cutOps1 V (Proc.devRef .tc main_v124) = slab (V (Proc.devRef .tc main_v69)) 704 Facts₀.slices_S1062x1062_S70x1062_704_0 := by
  simp only [cutOps1, hostOps1_2, List.take_succ_cons, List.take_zero]
  after_results_simp

theorem cut1_23 (V : Valuation τ sig (Elt Ideal)) :
    StableHlo.after cutOps1 V (Proc.devRef .tc main_v125) = slab (V (Proc.devRef .tc main_v69)) 736 Facts₀.slices_S1062x1062_S70x1062_736_0 := by
  simp only [cutOps1, hostOps1_2, List.take_succ_cons, List.take_zero]
  after_results_simp

theorem cut1_24 (V : Valuation τ sig (Elt Ideal)) :
    StableHlo.after cutOps1 V (Proc.devRef .tc main_v126) = slab (V (Proc.devRef .tc main_v69)) 768 Facts₀.slices_S1062x1062_S70x1062_768_0 := by
  simp only [cutOps1, hostOps1_2, List.take_succ_cons, List.take_zero]
  after_results_simp

theorem cut1_25 (V : Valuation τ sig (Elt Ideal)) :
    StableHlo.after cutOps1 V (Proc.devRef .tc main_v127) = slab (V (Proc.devRef .tc main_v69)) 800 Facts₀.slices_S1062x1062_S70x1062_800_0 := by
  simp only [cutOps1, hostOps1_2, List.take_succ_cons, List.take_zero]
  after_results_simp

theorem cut1_26 (V : Valuation τ sig (Elt Ideal)) :
    StableHlo.after cutOps1 V (Proc.devRef .tc main_v128) = slab (V (Proc.devRef .tc main_v69)) 832 Facts₀.slices_S1062x1062_S70x1062_832_0 := by
  simp only [cutOps1, hostOps1_2, List.take_succ_cons, List.take_zero]
  after_results_simp

theorem cut1_27 (V : Valuation τ sig (Elt Ideal)) :
    StableHlo.after cutOps1 V (Proc.devRef .tc main_v129) = slab (V (Proc.devRef .tc main_v69)) 864 Facts₀.slices_S1062x1062_S70x1062_864_0 := by
  simp only [cutOps1, hostOps1_2, List.take_succ_cons, List.take_zero]
  after_results_simp

theorem cut1_28 (V : Valuation τ sig (Elt Ideal)) :
    StableHlo.after cutOps1 V (Proc.devRef .tc main_v130) = slab (V (Proc.devRef .tc main_v69)) 896 Facts₀.slices_S1062x1062_S70x1062_896_0 := by
  simp only [cutOps1, hostOps1_2, List.take_succ_cons, List.take_zero]
  after_results_simp

theorem cut1_29 (V : Valuation τ sig (Elt Ideal)) :
    StableHlo.after cutOps1 V (Proc.devRef .tc main_v131) = slab (V (Proc.devRef .tc main_v69)) 928 Facts₀.slices_S1062x1062_S70x1062_928_0 := by
  simp only [cutOps1, hostOps1_2, List.take_succ_cons, List.take_zero]
  after_results_simp

theorem cut1_30 (V : Valuation τ sig (Elt Ideal)) :
    StableHlo.after cutOps1 V (Proc.devRef .tc main_v132) = slab (V (Proc.devRef .tc main_v69)) 960 Facts₀.slices_S1062x1062_S70x1062_960_0 := by
  simp only [cutOps1, hostOps1_2, List.take_succ_cons, List.take_zero]
  after_results_simp

theorem cut1_31 (V : Valuation τ sig (Elt Ideal)) :
    StableHlo.after cutOps1 V (Proc.devRef .tc main_v133) = slab (V (Proc.devRef .tc main_v69)) 992 Facts₀.slices_S1062x1062_S70x1062_992_0 := by
  simp only [cutOps1, hostOps1_2, List.take_succ_cons, List.take_zero]
  after_results_simp

set_option maxHeartbeats 4000000 in
/-- The stacked array is the row tiles of the padded image, as one function. -/
theorem V7_windows (c : Dev nD) :
    (V7 (F := Ideal) m ρ c main_v136 : S32x70x1062.Idx → EReal) = tiles (W6 (F := Ideal) m ρ c (Proc.devRef .tc main_v69)) := by
  show StableHlo.after hostOps1_2 (W6 (F := Ideal) m ρ c) (Proc.devRef .tc main_v136) = _
  rw [hostOps1_2_split, after_append]
  have L0 := cut1_0 (W6 (F := Ideal) m ρ c)
  have L1 := cut1_1 (W6 (F := Ideal) m ρ c)
  have L2 := cut1_2 (W6 (F := Ideal) m ρ c)
  have L3 := cut1_3 (W6 (F := Ideal) m ρ c)
  have L4 := cut1_4 (W6 (F := Ideal) m ρ c)
  have L5 := cut1_5 (W6 (F := Ideal) m ρ c)
  have L6 := cut1_6 (W6 (F := Ideal) m ρ c)
  have L7 := cut1_7 (W6 (F := Ideal) m ρ c)
  have L8 := cut1_8 (W6 (F := Ideal) m ρ c)
  have L9 := cut1_9 (W6 (F := Ideal) m ρ c)
  have L10 := cut1_10 (W6 (F := Ideal) m ρ c)
  have L11 := cut1_11 (W6 (F := Ideal) m ρ c)
  have L12 := cut1_12 (W6 (F := Ideal) m ρ c)
  have L13 := cut1_13 (W6 (F := Ideal) m ρ c)
  have L14 := cut1_14 (W6 (F := Ideal) m ρ c)
  have L15 := cut1_15 (W6 (F := Ideal) m ρ c)
  have L16 := cut1_16 (W6 (F := Ideal) m ρ c)
  have L17 := cut1_17 (W6 (F := Ideal) m ρ c)
  have L18 := cut1_18 (W6 (F := Ideal) m ρ c)
  have L19 := cut1_19 (W6 (F := Ideal) m ρ c)
  have L20 := cut1_20 (W6 (F := Ideal) m ρ c)
  have L21 := cut1_21 (W6 (F := Ideal) m ρ c)
  have L22 := cut1_22 (W6 (F := Ideal) m ρ c)
  have L23 := cut1_23 (W6 (F := Ideal) m ρ c)
  have L24 := cut1_24 (W6 (F := Ideal) m ρ c)
  have L25 := cut1_25 (W6 (F := Ideal) m ρ c)
  have L26 := cut1_26 (W6 (F := Ideal) m ρ c)
  have L27 := cut1_27 (W6 (F := Ideal) m ρ c)
  have L28 := cut1_28 (W6 (F := Ideal) m ρ c)
  have L29 := cut1_29 (W6 (F := Ideal) m ρ c)
  have L30 := cut1_30 (W6 (F := Ideal) m ρ c)
  have L31 := cut1_31 (W6 (F := Ideal) m ρ c)
  generalize StableHlo.after cutOps1 (W6 (F := Ideal) m ρ c) = G at *
  simp only [catOps1, hostOps1_2, List.drop_succ_cons, List.drop_zero, StableHlo.after_cons, StableHlo.after_nil]
  rw [StableHlo.binary_result, StableHlo.nary_result]
  rw [StableHlo.nary_result_ne]; rotate_left; decide
  rw [StableHlo.nary_result]
  dsimp only [Matrix.cons_val]
  repeat (rw [StableHlo.nary_result_ne]; rotate_left; decide)
  rw [L0, L1, L2, L3, L4, L5, L6, L7, L8, L9, L10, L11, L12, L13, L14, L15, L16, L17, L18, L19, L20, L21, L22, L23, L24, L25, L26, L27, L28, L29, L30, L31]
  rfl

/-- The padded image of layer 2: layer 1's result padded by 19 with the constant. -/
theorem W6_padded (c : Dev nD) :
    (W6 (F := Ideal) m ρ c (Proc.devRef .tc main_v69) : S1062x1062.Idx → EReal)
      = pad S1062x1062 ![19, 19] ![19, 19] ![0, 0] (W4 (F := Ideal) m ρ c (Proc.devRef .tc main_v68) : S1024x1024.Idx → EReal)
          (constant (F := Ideal) S_ .f32 0x4E6E6B28#32) Facts₀.pads_S1024x1024_S1062x1062_19190_19190 Facts₀.h_S_ := by
  dsimp only [W6, W5, hostOps1, hostOps1_1, StableHlo.TRef.unary, StableHlo.TRef.binary]
  after_results_simp
  rfl

theorem windows1_apply (c : Dev nD) (t : Fin 32) (u : Fin 70) (v : Fin 1062) :
    V7 (F := Ideal) m ρ c main_v136 (ValueIdx.ix3 t u v)
      = Cert.Ring.pad19 (W4 (F := Ideal) m ρ c (Proc.devRef .tc main_v68)) (32 * t.val + u.val) v.val := by
  refine (congrFun (V7_windows m ρ c) (ix3 t u v)).trans ?_
  rw [tiles_apply, W6_padded, pad_apply, const_big]
  rfl

end Cert.KernelIdeal.Hand

end
-- ==== Proof.KI.Final.lean ====
/-
  The idealized kernel program's result, as a value: layer 2's output array is the layer of layer 1's output array,
  which is the layer of the argument image; the weights are the argument arrays' one element.
-/
import proofs.«126001_j6975026889201_2_alg».proof.Proof.KI.Run
import proofs.«126001_j6975026889201_2_alg».proof.Proof.KI.Value
import proofs.«126001_j6975026889201_2_alg».proof.Proof.KI.Windows

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The two-layer specification of the argument arrays on core `c`. -/
def spec2 (c : Dev nD) : Cert.Ring.Img.Idx → EReal :=
  Cert.Ring.layer
    (Cert.Ring.layer (m ((c.tc : Thread nD τ).loc main_arg0)) (m ((c.tc : Thread nD τ).loc main_arg1) (ix1 0)) (m ((c.tc : Thread nD τ).loc main_arg2) (ix1 0))
      (m ((c.tc : Thread nD τ).loc main_arg3) (ix1 0)) (m ((c.tc : Thread nD τ).loc main_arg4) (ix1 0)))
    (m ((c.tc : Thread nD τ).loc main_arg1) (ix1 0)) (m ((c.tc : Thread nD τ).loc main_arg2) (ix1 0))
    (m ((c.tc : Thread nD τ).loc main_arg3) (ix1 0)) (m ((c.tc : Thread nD τ).loc main_arg4) (ix1 0))

/-- Layer 1's output array is the layer of the argument image. -/
theorem layer1_eq (c : Dev nD) :
    W4 (F := Ideal) m ρ c (Proc.devRef .tc main_v68)
      = Cert.Ring.layer (m ((c.tc : Thread nD τ).loc main_arg0)) (m ((c.tc : Thread nD τ).loc main_arg1) (ix1 0)) (m ((c.tc : Thread nD τ).loc main_arg2) (ix1 0))
          (m ((c.tc : Thread nD τ).loc main_arg3) (ix1 0)) (m ((c.tc : Thread nD τ).loc main_arg4) (ix1 0)) := by
  refine (W4_arr m ρ c 5).trans ?_
  rw [final0 (V3 m ρ) c, G0_eq_layer (V3 m ρ) c (m ((c.tc : Thread nD τ).loc main_arg0)) (windows0_apply m ρ c)]
  show Cert.Ring.layer _ (W3 m ρ c (Proc.devRef .tc main_arg1) (ix1 0)) (W3 m ρ c (Proc.devRef .tc main_arg2) (ix1 0))
    (W3 m ρ c (Proc.devRef .tc main_arg3) (ix1 0)) (W3 m ρ c (Proc.devRef .tc main_arg4) (ix1 0)) = _
  rw [W3_main_arg1, W3_main_arg2, W3_main_arg3, W3_main_arg4]

/-- Layer 2's output array is the layer of layer 1's. -/
theorem result_eq (c : Dev nD) : (dat1 (V7 (F := Ideal) m ρ) c).arrAt 5 cfg1.N = spec2 m c := by
  rw [final1 (V7 m ρ) c, G1_eq_layer (V7 m ρ) c (W4 (F := Ideal) m ρ c (Proc.devRef .tc main_v68)) (windows1_apply m ρ c)]
  show Cert.Ring.layer _ (W7 m ρ c (Proc.devRef .tc main_arg1) (ix1 0)) (W7 m ρ c (Proc.devRef .tc main_arg2) (ix1 0))
    (W7 m ρ c (Proc.devRef .tc main_arg3) (ix1 0)) (W7 m ρ c (Proc.devRef .tc main_arg4) (ix1 0)) = _
  rw [W7_main_arg1, W7_main_arg2, W7_main_arg3, W7_main_arg4, layer1_eq]
  rfl

/-- The run of the idealized kernel program with its result named by the specification. -/
theorem run_value : θ_run defs (onTc (τ := τ) (main (F := Ideal))) ⟨m, fun _ => 0, ρ⟩ (fun r => ∀ c : Dev nD,
      r.2.mem ((c.tc : Thread nD τ).loc main_v137) = spec2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_main (F := Ideal) m ρ)

end Cert.KernelIdeal.Hand

end
-- ==== Proof.Ref.Ops.lean ====
/- The operations of the reference's @main, in order, as a table: window K of the printed program is the list
   opsPK (a call of a printed function is the callee's operations over the call's buffers), and for each window
   the fact that every operation touches TensorCore buffers only, by the operations' kinds. -/
import proofs.«126001_j6975026889201_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0: 62 operations. -/
abbrev opsP0 : List (HloOp τ sig (Elt F)) :=
  [ StableHlo.nullary main_c (fun i => lit0 (S40x2.rowMajor i)),
    StableHlo.nullary main_c_0 (fun i => lit1 (S72x2.rowMajor i)),
    StableHlo.nullary main_c_1 (fun i => lit2 (S84x2.rowMajor i)),
    StableHlo.nullary main_c_2 (fun i => lit3 (S116x2.rowMajor i)),
    StableHlo.nullary main_c_3 (fun i => lit4 (S40x2.rowMajor i)),
    StableHlo.nullary main_c_4 (fun i => lit5 (S72x2.rowMajor i)),
    StableHlo.nullary main_c_5 (fun i => lit6 (S84x2.rowMajor i)),
    StableHlo.nullary main_c_6 (fun i => lit7 (S116x2.rowMajor i)),
    StableHlo.nullary main_cst (constant S_ .f32 0x4E6E6B28#32),
    StableHlo.TRef.unary (.of main_cst : StableHlo.TRef sig ⟨S_, .f32⟩) main_call0.v0 id,
    StableHlo.TRef.binary (.of main_arg0 : StableHlo.TRef sig ⟨S1024x1024, .f32⟩) main_call0.v0 main_call0.v1 (fun x v => pad S1038x1038 ![7, 7] ![7, 7] ![0, 0] x v pads_S1024x1024_S1038x1038_770_770 h_S_),
    StableHlo.unary main_c main_v1 ((extractStridedSlice S40x1 ![0, 0] · slices_S40x2_S40x1_0_0) : (⟨S40x2, .i32⟩ : BufTy).Contents (Elt F) → (⟨S40x1, .i32⟩ : BufTy).Contents (Elt F)),
    StableHlo.reshape main_v1 main_v2 rfl shapeCasts_S40x1_S40,
    StableHlo.nullary main_c_7 (constantI S_ 32 7#32),
    StableHlo.unary main_c_7 main_v3 (broadcastInDim S40 ![] bcast_S_S40 : (⟨S_, .i32⟩ : BufTy).Contents (Elt F) → (⟨S40, .i32⟩ : BufTy).Contents (Elt F)),
    StableHlo.binary main_v3 main_v2 main_v4 (addi : (⟨S40, .i32⟩ : BufTy).Contents (Elt F) → (⟨S40, .i32⟩ : BufTy).Contents (Elt F) → (⟨S40, .i32⟩ : BufTy).Contents (Elt F)),
    StableHlo.unary main_c main_v5 ((extractStridedSlice S40x1 ![0, 1] · slices_S40x2_S40x1_0_1) : (⟨S40x2, .i32⟩ : BufTy).Contents (Elt F) → (⟨S40x1, .i32⟩ : BufTy).Contents (Elt F)),
    StableHlo.reshape main_v5 main_v6 rfl shapeCasts_S40x1_S40,
    StableHlo.nullary main_c_8 (constantI S_ 32 7#32),
    StableHlo.unary main_c_8 main_v7 (broadcastInDim S40 ![] bcast_S_S40 : (⟨S_, .i32⟩ : BufTy).Contents (Elt F) → (⟨S40, .i32⟩ : BufTy).Contents (Elt F)),
    StableHlo.binary main_v7 main_v6 main_v8 (addi : (⟨S40, .i32⟩ : BufTy).Contents (Elt F) → (⟨S40, .i32⟩ : BufTy).Contents (Elt F) → (⟨S40, .i32⟩ : BufTy).Contents (Elt F)),
    StableHlo.nullary main_c_9 (constantI S_ 32 0#32),
    StableHlo.unary main_c_9 main_v9 (broadcastInDim S40 ![] bcast_S_S40 : (⟨S_, .i32⟩ : BufTy).Contents (Elt F) → (⟨S40, .i32⟩ : BufTy).Contents (Elt F)),
    StableHlo.binary main_v4 main_v9 main_v10 (cmpi .slt : (⟨S40, .i32⟩ : BufTy).Contents (Elt F) → (⟨S40, .i32⟩ : BufTy).Contents (Elt F) → (⟨S40, .i1⟩ : BufTy).Contents (Elt F)),
    StableHlo.nullary main_c_10 (constantI S_ 32 1038#32),
    StableHlo.unary main_c_10 main_v11 (broadcastInDim S40 ![] bcast_S_S40 : (⟨S_, .i32⟩ : BufTy).Contents (Elt F) → (⟨S40, .i32⟩ : BufTy).Contents (Elt F)),
    StableHlo.binary main_v4 main_v11 main_v12 (addi : (⟨S40, .i32⟩ : BufTy).Contents (Elt F) → (⟨S40, .i32⟩ : BufTy).Contents (Elt F) → (⟨S40, .i32⟩ : BufTy).Contents (Elt F)),
    StableHlo.ternary main_v10 main_v12 main_v4 main_v13 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.nullary main_c_11 (constantI S_ 32 0#32),
    StableHlo.unary main_c_11 main_v14 (broadcastInDim S40 ![] bcast_S_S40 : (⟨S_, .i32⟩ : BufTy).Contents (Elt F) → (⟨S40, .i32⟩ : BufTy).Contents (Elt F)),
    StableHlo.binary main_v8 main_v14 main_v15 (cmpi .slt : (⟨S40, .i32⟩ : BufTy).Contents (Elt F) → (⟨S40, .i32⟩ : BufTy).Contents (Elt F) → (⟨S40, .i1⟩ : BufTy).Contents (Elt F)),
    StableHlo.nullary main_c_12 (constantI S_ 32 1038#32),
    StableHlo.unary main_c_12 main_v16 (broadcastInDim S40 ![] bcast_S_S40 : (⟨S_, .i32⟩ : BufTy).Contents (Elt F) → (⟨S40, .i32⟩ : BufTy).Contents (Elt F)),
    StableHlo.binary main_v8 main_v16 main_v17 (addi : (⟨S40, .i32⟩ : BufTy).Contents (Elt F) → (⟨S40, .i32⟩ : BufTy).Contents (Elt F) → (⟨S40, .i32⟩ : BufTy).Contents (Elt F)),
    StableHlo.ternary main_v15 main_v17 main_v8 main_v18 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.unary main_v13 main_v19 (broadcastInDim S40x1 ![0] bcast_S40_S40x1_0 : (⟨S40, .i32⟩ : BufTy).Contents (Elt F) → (⟨S40x1, .i32⟩ : BufTy).Contents (Elt F)),
    StableHlo.unary main_v18 main_v20 (broadcastInDim S40x1 ![0] bcast_S40_S40x1_0 : (⟨S40, .i32⟩ : BufTy).Contents (Elt F) → (⟨S40x1, .i32⟩ : BufTy).Contents (Elt F)),
    StableHlo.binary main_v19 main_v20 main_v21 ((fun a b => concatenate S40x2 1 [⟨S40x1, a⟩, ⟨S40x1, b⟩] concatenates_S40x1_S40x1_S40x2_d1) : (⟨S40x1, .i32⟩ : BufTy).Contents (Elt F) → (⟨S40x1, .i32⟩ : BufTy).Contents (Elt F) → (⟨S40x2, .i32⟩ : BufTy).Contents (Elt F)),
    StableHlo.binary main_v0 main_v21 main_v22 ((fun x i => Host.gather gather_S1038x1038_S40x2_S40x1024x1024_12_n_n_n_01_1_10241024 x i) : (⟨S1038x1038, .f32⟩ : BufTy).Contents (Elt F) → (⟨S40x2, .i32⟩ : BufTy).Contents (Elt F) → (⟨S40x1024x1024, .f32⟩ : BufTy).Contents (Elt F)),
    StableHlo.unary main_arg0 main_v23 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v23 main_v24 (broadcastInDim S40x1024x1024 ![0, 1, 2] bcast_S1x1024x1024_S40x1024x1024_0_1_2 : (⟨S1x1024x1024, .f32⟩ : BufTy).Contents (Elt F) → (⟨S40x1024x1024, .f32⟩ : BufTy).Contents (Elt F)),
    StableHlo.binary main_v24 main_v22 main_v25 (subf : (⟨S40x1024x1024, .f32⟩ : BufTy).Contents (Elt F) → (⟨S40x1024x1024, .f32⟩ : BufTy).Contents (Elt F) → (⟨S40x1024x1024, .f32⟩ : BufTy).Contents (Elt F)),
    StableHlo.unary main_v25 main_v26 (Host.absf : (⟨S40x1024x1024, .f32⟩ : BufTy).Contents (Elt F) → (⟨S40x1024x1024, .f32⟩ : BufTy).Contents (Elt F)),
    StableHlo.nullary main_cst_13 (constant S_ .f32 0x3F800000#32),
    StableHlo.unary main_cst_13 main_v27 (broadcastInDim S40x1024x1024 ![] bcast_S_S40x1024x1024 : (⟨S_, .f32⟩ : BufTy).Contents (Elt F) → (⟨S40x1024x1024, .f32⟩ : BufTy).Contents (Elt F)),
    StableHlo.binary main_v27 main_v26 main_v28 (subf : (⟨S40x1024x1024, .f32⟩ : BufTy).Contents (Elt F) → (⟨S40x1024x1024, .f32⟩ : BufTy).Contents (Elt F) → (⟨S40x1024x1024, .f32⟩ : BufTy).Contents (Elt F)),
    StableHlo.nullary main_cst_14 (constant S_ .f32 0xFF800000#32),
    StableHlo.binary main_v28 main_cst_14 main_v29 ((fun x v => Host.reduce FloatOps.maximumf x v reducesTo_S40x1024x1024_S1024x1024_d0 h_S_) : (⟨S40x1024x1024, .f32⟩ : BufTy).Contents (Elt F) → (⟨S_, .f32⟩ : BufTy).Contents (Elt F) → (⟨S1024x1024, .f32⟩ : BufTy).Contents (Elt F)),
    StableHlo.unary main_arg1 main_v30 (broadcastInDim S1x1 ![1] bcast_S1_S1x1_1 : (⟨S1, .f32⟩ : BufTy).Contents (Elt F) → (⟨S1x1, .f32⟩ : BufTy).Contents (Elt F)),
    StableHlo.unary main_v30 main_v31 (broadcastInDim S1024x1024 ![0, 1] bcast_S1x1_S1024x1024_0_1 : (⟨S1x1, .f32⟩ : BufTy).Contents (Elt F) → (⟨S1024x1024, .f32⟩ : BufTy).Contents (Elt F)),
    StableHlo.binary main_v31 main_v29 main_v32 (mulf : (⟨S1024x1024, .f32⟩ : BufTy).Contents (Elt F) → (⟨S1024x1024, .f32⟩ : BufTy).Contents (Elt F) → (⟨S1024x1024, .f32⟩ : BufTy).Contents (Elt F)),
    StableHlo.nullary main_cst_15 (constant S_ .f32 0x4E6E6B28#32),
    StableHlo.TRef.unary (.of main_cst_15 : StableHlo.TRef sig ⟨S_, .f32⟩) main_call1.v0 id,
    StableHlo.TRef.binary (.of main_arg0 : StableHlo.TRef sig ⟨S1024x1024, .f32⟩) main_call1.v0 main_call1.v1 (fun x v => pad S1046x1046 ![11, 11] ![11, 11] ![0, 0] x v pads_S1024x1024_S1046x1046_11110_11110 h_S_),
    StableHlo.unary main_c_0 main_v34 ((extractStridedSlice S72x1 ![0, 0] · slices_S72x2_S72x1_0_0) : (⟨S72x2, .i32⟩ : BufTy).Contents (Elt F) → (⟨S72x1, .i32⟩ : BufTy).Contents (Elt F)),
    StableHlo.reshape main_v34 main_v35 rfl shapeCasts_S72x1_S72,
    StableHlo.nullary main_c_16 (constantI S_ 32 11#32),
    StableHlo.unary main_c_16 main_v36 (broadcastInDim S72 ![] bcast_S_S72 : (⟨S_, .i32⟩ : BufTy).Contents (Elt F) → (⟨S72, .i32⟩ : BufTy).Contents (Elt F)),
    StableHlo.binary main_v36 main_v35 main_v37 (addi : (⟨S72, .i32⟩ : BufTy).Contents (Elt F) → (⟨S72, .i32⟩ : BufTy).Contents (Elt F) → (⟨S72, .i32⟩ : BufTy).Contents (Elt F)),
    StableHlo.unary main_c_0 main_v38 ((extractStridedSlice S72x1 ![0, 1] · slices_S72x2_S72x1_0_1) : (⟨S72x2, .i32⟩ : BufTy).Contents (Elt F) → (⟨S72x1, .i32⟩ : BufTy).Contents (Elt F)),
    StableHlo.reshape main_v38 main_v39 rfl shapeCasts_S72x1_S72,
    StableHlo.nullary main_c_17 (constantI S_ 32 11#32) ]

theorem opsP0_sub : (opsP0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub ..⟩

/-- Window 1: 61 operations. -/
abbrev opsP1 : List (HloOp τ sig (Elt F)) :=
  [ StableHlo.unary main_c_17 main_v40 (broadcastInDim S72 ![] bcast_S_S72 : (⟨S_, .i32⟩ : BufTy).Contents (Elt F) → (⟨S72, .i32⟩ : BufTy).Contents (Elt F)),
    StableHlo.binary main_v40 main_v39 main_v41 (addi : (⟨S72, .i32⟩ : BufTy).Contents (Elt F) → (⟨S72, .i32⟩ : BufTy).Contents (Elt F) → (⟨S72, .i32⟩ : BufTy).Contents (Elt F)),
    StableHlo.nullary main_c_18 (constantI S_ 32 0#32),
    StableHlo.unary main_c_18 main_v42 (broadcastInDim S72 ![] bcast_S_S72 : (⟨S_, .i32⟩ : BufTy).Contents (Elt F) → (⟨S72, .i32⟩ : BufTy).Contents (Elt F)),
    StableHlo.binary main_v37 main_v42 main_v43 (cmpi .slt : (⟨S72, .i32⟩ : BufTy).Contents (Elt F) → (⟨S72, .i32⟩ : BufTy).Contents (Elt F) → (⟨S72, .i1⟩ : BufTy).Contents (Elt F)),
    StableHlo.nullary main_c_19 (constantI S_ 32 1046#32),
    StableHlo.unary main_c_19 main_v44 (broadcastInDim S72 ![] bcast_S_S72 : (⟨S_, .i32⟩ : BufTy).Contents (Elt F) → (⟨S72, .i32⟩ : BufTy).Contents (Elt F)),
    StableHlo.binary main_v37 main_v44 main_v45 (addi : (⟨S72, .i32⟩ : BufTy).Contents (Elt F) → (⟨S72, .i32⟩ : BufTy).Contents (Elt F) → (⟨S72, .i32⟩ : BufTy).Contents (Elt F)),
    StableHlo.ternary main_v43 main_v45 main_v37 main_v46 (select : (⟨S72, .i1⟩ : BufTy).Contents (Elt F) → (⟨S72, .i32⟩ : BufTy).Contents (Elt F) → (⟨S72, .i32⟩ : BufTy).Contents (Elt F) → (⟨S72, .i32⟩ : BufTy).Contents (Elt F)),
    StableHlo.nullary main_c_20 (constantI S_ 32 0#32),
    StableHlo.unary main_c_20 main_v47 (broadcastInDim S72 ![] bcast_S_S72 : (⟨S_, .i32⟩ : BufTy).Contents (Elt F) → (⟨S72, .i32⟩ : BufTy).Contents (Elt F)),
    StableHlo.binary main_v41 main_v47 main_v48 (cmpi .slt : (⟨S72, .i32⟩ : BufTy).Contents (Elt F) → (⟨S72, .i32⟩ : BufTy).Contents (Elt F) → (⟨S72, .i1⟩ : BufTy).Contents (Elt F)),
    StableHlo.nullary main_c_21 (constantI S_ 32 1046#32),
    StableHlo.unary main_c_21 main_v49 (broadcastInDim S72 ![] bcast_S_S72 : (⟨S_, .i32⟩ : BufTy).Contents (Elt F) → (⟨S72, .i32⟩ : BufTy).Contents (Elt F)),
    StableHlo.binary main_v41 main_v49 main_v50 (addi : (⟨S72, .i32⟩ : BufTy).Contents (Elt F) → (⟨S72, .i32⟩ : BufTy).Contents (Elt F) → (⟨S72, .i32⟩ : BufTy).Contents (Elt F)),
    StableHlo.ternary main_v48 main_v50 main_v41 main_v51 (select : (⟨S72, .i1⟩ : BufTy).Contents (Elt F) → (⟨S72, .i32⟩ : BufTy).Contents (Elt F) → (⟨S72, .i32⟩ : BufTy).Contents (Elt F) → (⟨S72, .i32⟩ : BufTy).Contents (Elt F)),
    StableHlo.unary main_v46 main_v52 (broadcastInDim S72x1 ![0] bcast_S72_S72x1_0 : (⟨S72, .i32⟩ : BufTy).Contents (Elt F) → (⟨S72x1, .i32⟩ : BufTy).Contents (Elt F)),
    StableHlo.unary main_v51 main_v53 (broadcastInDim S72x1 ![0] bcast_S72_S72x1_0 : (⟨S72, .i32⟩ : BufTy).Contents (Elt F) → (⟨S72x1, .i32⟩ : BufTy).Contents (Elt F)),
    StableHlo.binary main_v52 main_v53 main_v54 ((fun a b => concatenate S72x2 1 [⟨S72x1, a⟩, ⟨S72x1, b⟩] concatenates_S72x1_S72x1_S72x2_d1) : (⟨S72x1, .i32⟩ : BufTy).Contents (Elt F) → (⟨S72x1, .i32⟩ : BufTy).Contents (Elt F) → (⟨S72x2, .i32⟩ : BufTy).Contents (Elt F)),
    StableHlo.binary main_v33 main_v54 main_v55 ((fun x i => Host.gather gather_S1046x1046_S72x2_S72x1024x1024_12_n_n_n_01_1_10241024 x i) : (⟨S1046x1046, .f32⟩ : BufTy).Contents (Elt F) → (⟨S72x2, .i32⟩ : BufTy).Contents (Elt F) → (⟨S72x1024x1024, .f32⟩ : BufTy).Contents (Elt F)),
    StableHlo.unary main_arg0 main_v56 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v56 main_v57 (broadcastInDim S72x1024x1024 ![0, 1, 2] bcast_S1x1024x1024_S72x1024x1024_0_1_2 : (⟨S1x1024x1024, .f32⟩ : BufTy).Contents (Elt F) → (⟨S72x1024x1024, .f32⟩ : BufTy).Contents (Elt F)),
    StableHlo.binary main_v57 main_v55 main_v58 (subf : (⟨S72x1024x1024, .f32⟩ : BufTy).Contents (Elt F) → (⟨S72x1024x1024, .f32⟩ : BufTy).Contents (Elt F) → (⟨S72x1024x1024, .f32⟩ : BufTy).Contents (Elt F)),
    StableHlo.unary main_v58 main_v59 (Host.absf : (⟨S72x1024x1024, .f32⟩ : BufTy).Contents (Elt F) → (⟨S72x1024x1024, .f32⟩ : BufTy).Contents (Elt F)),
    StableHlo.nullary main_cst_22 (constant S_ .f32 0x3F800000#32),
    StableHlo.unary main_cst_22 main_v60 (broadcastInDim S72x1024x1024 ![] bcast_S_S72x1024x1024 : (⟨S_, .f32⟩ : BufTy).Contents (Elt F) → (⟨S72x1024x1024, .f32⟩ : BufTy).Contents (Elt F)),
    StableHlo.binary main_v60 main_v59 main_v61 (subf : (⟨S72x1024x1024, .f32⟩ : BufTy).Contents (Elt F) → (⟨S72x1024x1024, .f32⟩ : BufTy).Contents (Elt F) → (⟨S72x1024x1024, .f32⟩ : BufTy).Contents (Elt F)),
    StableHlo.nullary main_cst_23 (constant S_ .f32 0xFF800000#32),
    StableHlo.binary main_v61 main_cst_23 main_v62 ((fun x v => Host.reduce FloatOps.maximumf x v reducesTo_S72x1024x1024_S1024x1024_d0 h_S_) : (⟨S72x1024x1024, .f32⟩ : BufTy).Contents (Elt F) → (⟨S_, .f32⟩ : BufTy).Contents (Elt F) → (⟨S1024x1024, .f32⟩ : BufTy).Contents (Elt F)),
    StableHlo.unary main_arg2 main_v63 (broadcastInDim S1x1 ![1] bcast_S1_S1x1_1 : (⟨S1, .f32⟩ : BufTy).Contents (Elt F) → (⟨S1x1, .f32⟩ : BufTy).Contents (Elt F)),
    StableHlo.unary main_v63 main_v64 (broadcastInDim S1024x1024 ![0, 1] bcast_S1x1_S1024x1024_0_1 : (⟨S1x1, .f32⟩ : BufTy).Contents (Elt F) → (⟨S1024x1024, .f32⟩ : BufTy).Contents (Elt F)),
    StableHlo.binary main_v64 main_v62 main_v65 (mulf : (⟨S1024x1024, .f32⟩ : BufTy).Contents (Elt F) → (⟨S1024x1024, .f32⟩ : BufTy).Contents (Elt F) → (⟨S1024x1024, .f32⟩ : BufTy).Contents (Elt F)),
    StableHlo.binary main_v32 main_v65 main_v66 (addf : (⟨S1024x1024, .f32⟩ : BufTy).Contents (Elt F) → (⟨S1024x1024, .f32⟩ : BufTy).Contents (Elt F) → (⟨S1024x1024, .f32⟩ : BufTy).Contents (Elt F)),
    StableHlo.nullary main_cst_24 (constant S_ .f32 0x4E6E6B28#32),
    StableHlo.TRef.unary (.of main_cst_24 : StableHlo.TRef sig ⟨S_, .f32⟩) main_call2.v0 id,
    StableHlo.TRef.binary (.of main_arg0 : StableHlo.TRef sig ⟨S1024x1024, .f32⟩) main_call2.v0 main_call2.v1 (fun x v => pad S1054x1054 ![15, 15] ![15, 15] ![0, 0] x v pads_S1024x1024_S1054x1054_15150_15150 h_S_),
    StableHlo.unary main_c_1 main_v68 ((extractStridedSlice S84x1 ![0, 0] · slices_S84x2_S84x1_0_0) : (⟨S84x2, .i32⟩ : BufTy).Contents (Elt F) → (⟨S84x1, .i32⟩ : BufTy).Contents (Elt F)),
    StableHlo.reshape main_v68 main_v69 rfl shapeCasts_S84x1_S84,
    StableHlo.nullary main_c_25 (constantI S_ 32 15#32),
    StableHlo.unary main_c_25 main_v70 (broadcastInDim S84 ![] bcast_S_S84 : (⟨S_, .i32⟩ : BufTy).Contents (Elt F) → (⟨S84, .i32⟩ : BufTy).Contents (Elt F)),
    StableHlo.binary main_v70 main_v69 main_v71 (addi : (⟨S84, .i32⟩ : BufTy).Contents (Elt F) → (⟨S84, .i32⟩ : BufTy).Contents (Elt F) → (⟨S84, .i32⟩ : BufTy).Contents (Elt F)),
    StableHlo.unary main_c_1 main_v72 ((extractStridedSlice S84x1 ![0, 1] · slices_S84x2_S84x1_0_1) : (⟨S84x2, .i32⟩ : BufTy).Contents (Elt F) → (⟨S84x1, .i32⟩ : BufTy).Contents (Elt F)),
    StableHlo.reshape main_v72 main_v73 rfl shapeCasts_S84x1_S84,
    StableHlo.nullary main_c_26 (constantI S_ 32 15#32),
    StableHlo.unary main_c_26 main_v74 (broadcastInDim S84 ![] bcast_S_S84 : (⟨S_, .i32⟩ : BufTy).Contents (Elt F) → (⟨S84, .i32⟩ : BufTy).Contents (Elt F)),
    StableHlo.binary main_v74 main_v73 main_v75 (addi : (⟨S84, .i32⟩ : BufTy).Contents (Elt F) → (⟨S84, .i32⟩ : BufTy).Contents (Elt F) → (⟨S84, .i32⟩ : BufTy).Contents (Elt F)),
    StableHlo.nullary main_c_27 (constantI S_ 32 0#32),
    StableHlo.unary main_c_27 main_v76 (broadcastInDim S84 ![] bcast_S_S84 : (⟨S_, .i32⟩ : BufTy).Contents (Elt F) → (⟨S84, .i32⟩ : BufTy).Contents (Elt F)),
    StableHlo.binary main_v71 main_v76 main_v77 (cmpi .slt : (⟨S84, .i32⟩ : BufTy).Contents (Elt F) → (⟨S84, .i32⟩ : BufTy).Contents (Elt F) → (⟨S84, .i1⟩ : BufTy).Contents (Elt F)),
    StableHlo.nullary main_c_28 (constantI S_ 32 1054#32),
    StableHlo.unary main_c_28 main_v78 (broadcastInDim S84 ![] bcast_S_S84 : (⟨S_, .i32⟩ : BufTy).Contents (Elt F) → (⟨S84, .i32⟩ : BufTy).Contents (Elt F)),
    StableHlo.binary main_v71 main_v78 main_v79 (addi : (⟨S84, .i32⟩ : BufTy).Contents (Elt F) → (⟨S84, .i32⟩ : BufTy).Contents (Elt F) → (⟨S84, .i32⟩ : BufTy).Contents (Elt F)),
    StableHlo.ternary main_v77 main_v79 main_v71 main_v80 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.nullary main_c_29 (constantI S_ 32 0#32),
    StableHlo.unary main_c_29 main_v81 (broadcastInDim S84 ![] bcast_S_S84 : (⟨S_, .i32⟩ : BufTy).Contents (Elt F) → (⟨S84, .i32⟩ : BufTy).Contents (Elt F)),
    StableHlo.binary main_v75 main_v81 main_v82 (cmpi .slt : (⟨S84, .i32⟩ : BufTy).Contents (Elt F) → (⟨S84, .i32⟩ : BufTy).Contents (Elt F) → (⟨S84, .i1⟩ : BufTy).Contents (Elt F)),
    StableHlo.nullary main_c_30 (constantI S_ 32 1054#32),
    StableHlo.unary main_c_30 main_v83 (broadcastInDim S84 ![] bcast_S_S84 : (⟨S_, .i32⟩ : BufTy).Contents (Elt F) → (⟨S84, .i32⟩ : BufTy).Contents (Elt F)),
    StableHlo.binary main_v75 main_v83 main_v84 (addi : (⟨S84, .i32⟩ : BufTy).Contents (Elt F) → (⟨S84, .i32⟩ : BufTy).Contents (Elt F) → (⟨S84, .i32⟩ : BufTy).Contents (Elt F)),
    StableHlo.ternary main_v82 main_v84 main_v75 main_v85 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.unary main_v80 main_v86 (broadcastInDim S84x1 ![0] bcast_S84_S84x1_0 : (⟨S84, .i32⟩ : BufTy).Contents (Elt F) → (⟨S84x1, .i32⟩ : BufTy).Contents (Elt F)) ]

theorem opsP1_sub : (opsP1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩

/-- Window 2: 61 operations. -/
abbrev opsP2 : List (HloOp τ sig (Elt F)) :=
  [ StableHlo.unary main_v85 main_v87 (broadcastInDim S84x1 ![0] bcast_S84_S84x1_0 : (⟨S84, .i32⟩ : BufTy).Contents (Elt F) → (⟨S84x1, .i32⟩ : BufTy).Contents (Elt F)),
    StableHlo.binary main_v86 main_v87 main_v88 ((fun a b => concatenate S84x2 1 [⟨S84x1, a⟩, ⟨S84x1, b⟩] concatenates_S84x1_S84x1_S84x2_d1) : (⟨S84x1, .i32⟩ : BufTy).Contents (Elt F) → (⟨S84x1, .i32⟩ : BufTy).Contents (Elt F) → (⟨S84x2, .i32⟩ : BufTy).Contents (Elt F)),
    StableHlo.binary main_v67 main_v88 main_v89 ((fun x i => Host.gather gather_S1054x1054_S84x2_S84x1024x1024_12_n_n_n_01_1_10241024 x i) : (⟨S1054x1054, .f32⟩ : BufTy).Contents (Elt F) → (⟨S84x2, .i32⟩ : BufTy).Contents (Elt F) → (⟨S84x1024x1024, .f32⟩ : BufTy).Contents (Elt F)),
    StableHlo.unary main_arg0 main_v90 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v90 main_v91 (broadcastInDim S84x1024x1024 ![0, 1, 2] bcast_S1x1024x1024_S84x1024x1024_0_1_2 : (⟨S1x1024x1024, .f32⟩ : BufTy).Contents (Elt F) → (⟨S84x1024x1024, .f32⟩ : BufTy).Contents (Elt F)),
    StableHlo.binary main_v91 main_v89 main_v92 (subf : (⟨S84x1024x1024, .f32⟩ : BufTy).Contents (Elt F) → (⟨S84x1024x1024, .f32⟩ : BufTy).Contents (Elt F) → (⟨S84x1024x1024, .f32⟩ : BufTy).Contents (Elt F)),
    StableHlo.unary main_v92 main_v93 (Host.absf : (⟨S84x1024x1024, .f32⟩ : BufTy).Contents (Elt F) → (⟨S84x1024x1024, .f32⟩ : BufTy).Contents (Elt F)),
    StableHlo.nullary main_cst_31 (constant S_ .f32 0x3F800000#32),
    StableHlo.unary main_cst_31 main_v94 (broadcastInDim S84x1024x1024 ![] bcast_S_S84x1024x1024 : (⟨S_, .f32⟩ : BufTy).Contents (Elt F) → (⟨S84x1024x1024, .f32⟩ : BufTy).Contents (Elt F)),
    StableHlo.binary main_v94 main_v93 main_v95 (subf : (⟨S84x1024x1024, .f32⟩ : BufTy).Contents (Elt F) → (⟨S84x1024x1024, .f32⟩ : BufTy).Contents (Elt F) → (⟨S84x1024x1024, .f32⟩ : BufTy).Contents (Elt F)),
    StableHlo.nullary main_cst_32 (constant S_ .f32 0xFF800000#32),
    StableHlo.binary main_v95 main_cst_32 main_v96 ((fun x v => Host.reduce FloatOps.maximumf x v reducesTo_S84x1024x1024_S1024x1024_d0 h_S_) : (⟨S84x1024x1024, .f32⟩ : BufTy).Contents (Elt F) → (⟨S_, .f32⟩ : BufTy).Contents (Elt F) → (⟨S1024x1024, .f32⟩ : BufTy).Contents (Elt F)),
    StableHlo.unary main_arg3 main_v97 (broadcastInDim S1x1 ![1] bcast_S1_S1x1_1 : (⟨S1, .f32⟩ : BufTy).Contents (Elt F) → (⟨S1x1, .f32⟩ : BufTy).Contents (Elt F)),
    StableHlo.unary main_v97 main_v98 (broadcastInDim S1024x1024 ![0, 1] bcast_S1x1_S1024x1024_0_1 : (⟨S1x1, .f32⟩ : BufTy).Contents (Elt F) → (⟨S1024x1024, .f32⟩ : BufTy).Contents (Elt F)),
    StableHlo.binary main_v98 main_v96 main_v99 (mulf : (⟨S1024x1024, .f32⟩ : BufTy).Contents (Elt F) → (⟨S1024x1024, .f32⟩ : BufTy).Contents (Elt F) → (⟨S1024x1024, .f32⟩ : BufTy).Contents (Elt F)),
    StableHlo.binary main_v66 main_v99 main_v100 (addf : (⟨S1024x1024, .f32⟩ : BufTy).Contents (Elt F) → (⟨S1024x1024, .f32⟩ : BufTy).Contents (Elt F) → (⟨S1024x1024, .f32⟩ : BufTy).Contents (Elt F)),
    StableHlo.nullary main_cst_33 (constant S_ .f32 0x4E6E6B28#32),
    StableHlo.TRef.unary (.of main_cst_33 : StableHlo.TRef sig ⟨S_, .f32⟩) main_call3.v0 id,
    StableHlo.TRef.binary (.of main_arg0 : StableHlo.TRef sig ⟨S1024x1024, .f32⟩) main_call3.v0 main_call3.v1 (fun x v => pad S1062x1062 ![19, 19] ![19, 19] ![0, 0] x v pads_S1024x1024_S1062x1062_19190_19190 h_S_),
    StableHlo.unary main_c_2 main_v102 ((extractStridedSlice S116x1 ![0, 0] · slices_S116x2_S116x1_0_0) : (⟨S116x2, .i32⟩ : BufTy).Contents (Elt F) → (⟨S116x1, .i32⟩ : BufTy).Contents (Elt F)),
    StableHlo.reshape main_v102 main_v103 rfl shapeCasts_S116x1_S116,
    StableHlo.nullary main_c_34 (constantI S_ 32 19#32),
    StableHlo.unary main_c_34 main_v104 (broadcastInDim S116 ![] bcast_S_S116 : (⟨S_, .i32⟩ : BufTy).Contents (Elt F) → (⟨S116, .i32⟩ : BufTy).Contents (Elt F)),
    StableHlo.binary main_v104 main_v103 main_v105 (addi : (⟨S116, .i32⟩ : BufTy).Contents (Elt F) → (⟨S116, .i32⟩ : BufTy).Contents (Elt F) → (⟨S116, .i32⟩ : BufTy).Contents (Elt F)),
    StableHlo.unary main_c_2 main_v106 ((extractStridedSlice S116x1 ![0, 1] · slices_S116x2_S116x1_0_1) : (⟨S116x2, .i32⟩ : BufTy).Contents (Elt F) → (⟨S116x1, .i32⟩ : BufTy).Contents (Elt F)),
    StableHlo.reshape main_v106 main_v107 rfl shapeCasts_S116x1_S116,
    StableHlo.nullary main_c_35 (constantI S_ 32 19#32),
    StableHlo.unary main_c_35 main_v108 (broadcastInDim S116 ![] bcast_S_S116 : (⟨S_, .i32⟩ : BufTy).Contents (Elt F) → (⟨S116, .i32⟩ : BufTy).Contents (Elt F)),
    StableHlo.binary main_v108 main_v107 main_v109 (addi : (⟨S116, .i32⟩ : BufTy).Contents (Elt F) → (⟨S116, .i32⟩ : BufTy).Contents (Elt F) → (⟨S116, .i32⟩ : BufTy).Contents (Elt F)),
    StableHlo.nullary main_c_36 (constantI S_ 32 0#32),
    StableHlo.unary main_c_36 main_v110 (broadcastInDim S116 ![] bcast_S_S116 : (⟨S_, .i32⟩ : BufTy).Contents (Elt F) → (⟨S116, .i32⟩ : BufTy).Contents (Elt F)),
    StableHlo.binary main_v105 main_v110 main_v111 (cmpi .slt : (⟨S116, .i32⟩ : BufTy).Contents (Elt F) → (⟨S116, .i32⟩ : BufTy).Contents (Elt F) → (⟨S116, .i1⟩ : BufTy).Contents (Elt F)),
    StableHlo.nullary main_c_37 (constantI S_ 32 1062#32),
    StableHlo.unary main_c_37 main_v112 (broadcastInDim S116 ![] bcast_S_S116 : (⟨S_, .i32⟩ : BufTy).Contents (Elt F) → (⟨S116, .i32⟩ : BufTy).Contents (Elt F)),
    StableHlo.binary main_v105 main_v112 main_v113 (addi : (⟨S116, .i32⟩ : BufTy).Contents (Elt F) → (⟨S116, .i32⟩ : BufTy).Contents (Elt F) → (⟨S116, .i32⟩ : BufTy).Contents (Elt F)),
    StableHlo.ternary main_v111 main_v113 main_v105 main_v114 (select : (⟨S116, .i1⟩ : BufTy).Contents (Elt F) → (⟨S116, .i32⟩ : BufTy).Contents (Elt F) → (⟨S116, .i32⟩ : BufTy).Contents (Elt F) → (⟨S116, .i32⟩ : BufTy).Contents (Elt F)),
    StableHlo.nullary main_c_38 (constantI S_ 32 0#32),
    StableHlo.unary main_c_38 main_v115 (broadcastInDim S116 ![] bcast_S_S116 : (⟨S_, .i32⟩ : BufTy).Contents (Elt F) → (⟨S116, .i32⟩ : BufTy).Contents (Elt F)),
    StableHlo.binary main_v109 main_v115 main_v116 (cmpi .slt : (⟨S116, .i32⟩ : BufTy).Contents (Elt F) → (⟨S116, .i32⟩ : BufTy).Contents (Elt F) → (⟨S116, .i1⟩ : BufTy).Contents (Elt F)),
    StableHlo.nullary main_c_39 (constantI S_ 32 1062#32),
    StableHlo.unary main_c_39 main_v117 (broadcastInDim S116 ![] bcast_S_S116 : (⟨S_, .i32⟩ : BufTy).Contents (Elt F) → (⟨S116, .i32⟩ : BufTy).Contents (Elt F)),
    StableHlo.binary main_v109 main_v117 main_v118 (addi : (⟨S116, .i32⟩ : BufTy).Contents (Elt F) → (⟨S116, .i32⟩ : BufTy).Contents (Elt F) → (⟨S116, .i32⟩ : BufTy).Contents (Elt F)),
    StableHlo.ternary main_v116 main_v118 main_v109 main_v119 (select : (⟨S116, .i1⟩ : BufTy).Contents (Elt F) → (⟨S116, .i32⟩ : BufTy).Contents (Elt F) → (⟨S116, .i32⟩ : BufTy).Contents (Elt F) → (⟨S116, .i32⟩ : BufTy).Contents (Elt F)),
    StableHlo.unary main_v114 main_v120 (broadcastInDim S116x1 ![0] bcast_S116_S116x1_0 : (⟨S116, .i32⟩ : BufTy).Contents (Elt F) → (⟨S116x1, .i32⟩ : BufTy).Contents (Elt F)),
    StableHlo.unary main_v119 main_v121 (broadcastInDim S116x1 ![0] bcast_S116_S116x1_0 : (⟨S116, .i32⟩ : BufTy).Contents (Elt F) → (⟨S116x1, .i32⟩ : BufTy).Contents (Elt F)),
    StableHlo.binary main_v120 main_v121 main_v122 ((fun a b => concatenate S116x2 1 [⟨S116x1, a⟩, ⟨S116x1, b⟩] concatenates_S116x1_S116x1_S116x2_d1) : (⟨S116x1, .i32⟩ : BufTy).Contents (Elt F) → (⟨S116x1, .i32⟩ : BufTy).Contents (Elt F) → (⟨S116x2, .i32⟩ : BufTy).Contents (Elt F)),
    StableHlo.binary main_v101 main_v122 main_v123 ((fun x i => Host.gather gather_S1062x1062_S116x2_S116x1024x1024_12_n_n_n_01_1_10241024 x i) : (⟨S1062x1062, .f32⟩ : BufTy).Contents (Elt F) → (⟨S116x2, .i32⟩ : BufTy).Contents (Elt F) → (⟨S116x1024x1024, .f32⟩ : BufTy).Contents (Elt F)),
    StableHlo.unary main_arg0 main_v124 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v124 main_v125 (broadcastInDim S116x1024x1024 ![0, 1, 2] bcast_S1x1024x1024_S116x1024x1024_0_1_2 : (⟨S1x1024x1024, .f32⟩ : BufTy).Contents (Elt F) → (⟨S116x1024x1024, .f32⟩ : BufTy).Contents (Elt F)),
    StableHlo.binary main_v125 main_v123 main_v126 (subf : (⟨S116x1024x1024, .f32⟩ : BufTy).Contents (Elt F) → (⟨S116x1024x1024, .f32⟩ : BufTy).Contents (Elt F) → (⟨S116x1024x1024, .f32⟩ : BufTy).Contents (Elt F)),
    StableHlo.unary main_v126 main_v127 (Host.absf : (⟨S116x1024x1024, .f32⟩ : BufTy).Contents (Elt F) → (⟨S116x1024x1024, .f32⟩ : BufTy).Contents (Elt F)),
    StableHlo.nullary main_cst_40 (constant S_ .f32 0x3F800000#32),
    StableHlo.unary main_cst_40 main_v128 (broadcastInDim S116x1024x1024 ![] bcast_S_S116x1024x1024 : (⟨S_, .f32⟩ : BufTy).Contents (Elt F) → (⟨S116x1024x1024, .f32⟩ : BufTy).Contents (Elt F)),
    StableHlo.binary main_v128 main_v127 main_v129 (subf : (⟨S116x1024x1024, .f32⟩ : BufTy).Contents (Elt F) → (⟨S116x1024x1024, .f32⟩ : BufTy).Contents (Elt F) → (⟨S116x1024x1024, .f32⟩ : BufTy).Contents (Elt F)),
    StableHlo.nullary main_cst_41 (constant S_ .f32 0xFF800000#32),
    StableHlo.binary main_v129 main_cst_41 main_v130 ((fun x v => Host.reduce FloatOps.maximumf x v reducesTo_S116x1024x1024_S1024x1024_d0 h_S_) : (⟨S116x1024x1024, .f32⟩ : BufTy).Contents (Elt F) → (⟨S_, .f32⟩ : BufTy).Contents (Elt F) → (⟨S1024x1024, .f32⟩ : BufTy).Contents (Elt F)),
    StableHlo.unary main_arg4 main_v131 (broadcastInDim S1x1 ![1] bcast_S1_S1x1_1 : (⟨S1, .f32⟩ : BufTy).Contents (Elt F) → (⟨S1x1, .f32⟩ : BufTy).Contents (Elt F)),
    StableHlo.unary main_v131 main_v132 (broadcastInDim S1024x1024 ![0, 1] bcast_S1x1_S1024x1024_0_1 : (⟨S1x1, .f32⟩ : BufTy).Contents (Elt F) → (⟨S1024x1024, .f32⟩ : BufTy).Contents (Elt F)),
    StableHlo.binary main_v132 main_v130 main_v133 (mulf : (⟨S1024x1024, .f32⟩ : BufTy).Contents (Elt F) → (⟨S1024x1024, .f32⟩ : BufTy).Contents (Elt F) → (⟨S1024x1024, .f32⟩ : BufTy).Contents (Elt F)),
    StableHlo.binary main_v100 main_v133 main_v134 (addf : (⟨S1024x1024, .f32⟩ : BufTy).Contents (Elt F) → (⟨S1024x1024, .f32⟩ : BufTy).Contents (Elt F) → (⟨S1024x1024, .f32⟩ : BufTy).Contents (Elt F)),
    StableHlo.binary main_arg1 main_arg2 main_v135 (addf : (⟨S1, .f32⟩ : BufTy).Contents (Elt F) → (⟨S1, .f32⟩ : BufTy).Contents (Elt F) → (⟨S1, .f32⟩ : BufTy).Contents (Elt F)) ]

theorem opsP2_sub : (opsP2 : List (HloOp τ sig (Elt F))).Forall fun op => op.bufs ⊆ tcRefs τ sig :=
  ⟨unary_bufs_sub .., binary_bufs_sub .., binary_bufs_sub .., unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., binary_bufs_sub .., binary_bufs_sub ..⟩

/-- Window 3: 62 operations. -/
abbrev opsP3 : List (HloOp τ sig (Elt F)) :=
  [ StableHlo.binary main_v135 main_arg3 main_v136 (addf : (⟨S1, .f32⟩ : BufTy).Contents (Elt F) → (⟨S1, .f32⟩ : BufTy).Contents (Elt F) → (⟨S1, .f32⟩ : BufTy).Contents (Elt F)),
    StableHlo.binary main_v136 main_arg4 main_v137 (addf : (⟨S1, .f32⟩ : BufTy).Contents (Elt F) → (⟨S1, .f32⟩ : BufTy).Contents (Elt F) → (⟨S1, .f32⟩ : BufTy).Contents (Elt F)),
    StableHlo.unary main_v137 main_v138 (broadcastInDim S1x1 ![1] bcast_S1_S1x1_1 : (⟨S1, .f32⟩ : BufTy).Contents (Elt F) → (⟨S1x1, .f32⟩ : BufTy).Contents (Elt F)),
    StableHlo.unary main_v138 main_v139 (broadcastInDim S1024x1024 ![0, 1] bcast_S1x1_S1024x1024_0_1 : (⟨S1x1, .f32⟩ : BufTy).Contents (Elt F) → (⟨S1024x1024, .f32⟩ : BufTy).Contents (Elt F)),
    StableHlo.binary main_v134 main_v139 main_v140 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_42 (constant S_ .f32 0x4E6E6B28#32),
    StableHlo.TRef.unary (.of main_cst_42 : StableHlo.TRef sig ⟨S_, .f32⟩) main_call4.v0 id,
    StableHlo.TRef.binary (.of main_v140 : StableHlo.TRef sig ⟨S1024x1024, .f32⟩) main_call4.v0 main_call4.v1 (fun x v => pad S1038x1038 ![7, 7] ![7, 7] ![0, 0] x v pads_S1024x1024_S1038x1038_770_770 h_S_),
    StableHlo.unary main_c_3 main_v142 ((extractStridedSlice S40x1 ![0, 0] · slices_S40x2_S40x1_0_0) : (⟨S40x2, .i32⟩ : BufTy).Contents (Elt F) → (⟨S40x1, .i32⟩ : BufTy).Contents (Elt F)),
    StableHlo.reshape main_v142 main_v143 rfl shapeCasts_S40x1_S40,
    StableHlo.nullary main_c_43 (constantI S_ 32 7#32),
    StableHlo.unary main_c_43 main_v144 (broadcastInDim S40 ![] bcast_S_S40 : (⟨S_, .i32⟩ : BufTy).Contents (Elt F) → (⟨S40, .i32⟩ : BufTy).Contents (Elt F)),
    StableHlo.binary main_v144 main_v143 main_v145 (addi : (⟨S40, .i32⟩ : BufTy).Contents (Elt F) → (⟨S40, .i32⟩ : BufTy).Contents (Elt F) → (⟨S40, .i32⟩ : BufTy).Contents (Elt F)),
    StableHlo.unary main_c_3 main_v146 ((extractStridedSlice S40x1 ![0, 1] · slices_S40x2_S40x1_0_1) : (⟨S40x2, .i32⟩ : BufTy).Contents (Elt F) → (⟨S40x1, .i32⟩ : BufTy).Contents (Elt F)),
    StableHlo.reshape main_v146 main_v147 rfl shapeCasts_S40x1_S40,
    StableHlo.nullary main_c_44 (constantI S_ 32 7#32),
    StableHlo.unary main_c_44 main_v148 (broadcastInDim S40 ![] bcast_S_S40 : (⟨S_, .i32⟩ : BufTy).Contents (Elt F) → (⟨S40, .i32⟩ : BufTy).Contents (Elt F)),
    StableHlo.binary main_v148 main_v147 main_v149 (addi : (⟨S40, .i32⟩ : BufTy).Contents (Elt F) → (⟨S40, .i32⟩ : BufTy).Contents (Elt F) → (⟨S40, .i32⟩ : BufTy).Contents (Elt F)),
    StableHlo.nullary main_c_45 (constantI S_ 32 0#32),
    StableHlo.unary main_c_45 main_v150 (broadcastInDim S40 ![] bcast_S_S40 : (⟨S_, .i32⟩ : BufTy).Contents (Elt F) → (⟨S40, .i32⟩ : BufTy).Contents (Elt F)),
    StableHlo.binary main_v145 main_v150 main_v151 (cmpi .slt : (⟨S40, .i32⟩ : BufTy).Contents (Elt F) → (⟨S40, .i32⟩ : BufTy).Contents (Elt F) → (⟨S40, .i1⟩ : BufTy).Contents (Elt F)),
    StableHlo.nullary main_c_46 (constantI S_ 32 1038#32),
    StableHlo.unary main_c_46 main_v152 (broadcastInDim S40 ![] bcast_S_S40 : (⟨S_, .i32⟩ : BufTy).Contents (Elt F) → (⟨S40, .i32⟩ : BufTy).Contents (Elt F)),
    StableHlo.binary main_v145 main_v152 main_v153 (addi : (⟨S40, .i32⟩ : BufTy).Contents (Elt F) → (⟨S40, .i32⟩ : BufTy).Contents (Elt F) → (⟨S40, .i32⟩ : BufTy).Contents (Elt F)),
    StableHlo.ternary main_v151 main_v153 main_v145 main_v154 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.nullary main_c_47 (constantI S_ 32 0#32),
    StableHlo.unary main_c_47 main_v155 (broadcastInDim S40 ![] bcast_S_S40 : (⟨S_, .i32⟩ : BufTy).Contents (Elt F) → (⟨S40, .i32⟩ : BufTy).Contents (Elt F)),
    StableHlo.binary main_v149 main_v155 main_v156 (cmpi .slt : (⟨S40, .i32⟩ : BufTy).Contents (Elt F) → (⟨S40, .i32⟩ : BufTy).Contents (Elt F) → (⟨S40, .i1⟩ : BufTy).Contents (Elt F)),
    StableHlo.nullary main_c_48 (constantI S_ 32 1038#32),
    StableHlo.unary main_c_48 main_v157 (broadcastInDim S40 ![] bcast_S_S40 : (⟨S_, .i32⟩ : BufTy).Contents (Elt F) → (⟨S40, .i32⟩ : BufTy).Contents (Elt F)),
    StableHlo.binary main_v149 main_v157 main_v158 (addi : (⟨S40, .i32⟩ : BufTy).Contents (Elt F) → (⟨S40, .i32⟩ : BufTy).Contents (Elt F) → (⟨S40, .i32⟩ : BufTy).Contents (Elt F)),
    StableHlo.ternary main_v156 main_v158 main_v149 main_v159 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.unary main_v154 main_v160 (broadcastInDim S40x1 ![0] bcast_S40_S40x1_0 : (⟨S40, .i32⟩ : BufTy).Contents (Elt F) → (⟨S40x1, .i32⟩ : BufTy).Contents (Elt F)),
    StableHlo.unary main_v159 main_v161 (broadcastInDim S40x1 ![0] bcast_S40_S40x1_0 : (⟨S40, .i32⟩ : BufTy).Contents (Elt F) → (⟨S40x1, .i32⟩ : BufTy).Contents (Elt F)),
    StableHlo.binary main_v160 main_v161 main_v162 ((fun a b => concatenate S40x2 1 [⟨S40x1, a⟩, ⟨S40x1, b⟩] concatenates_S40x1_S40x1_S40x2_d1) : (⟨S40x1, .i32⟩ : BufTy).Contents (Elt F) → (⟨S40x1, .i32⟩ : BufTy).Contents (Elt F) → (⟨S40x2, .i32⟩ : BufTy).Contents (Elt F)),
    StableHlo.binary main_v141 main_v162 main_v163 ((fun x i => Host.gather gather_S1038x1038_S40x2_S40x1024x1024_12_n_n_n_01_1_10241024 x i) : (⟨S1038x1038, .f32⟩ : BufTy).Contents (Elt F) → (⟨S40x2, .i32⟩ : BufTy).Contents (Elt F) → (⟨S40x1024x1024, .f32⟩ : BufTy).Contents (Elt F)),
    StableHlo.unary main_v140 main_v164 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v164 main_v165 (broadcastInDim S40x1024x1024 ![0, 1, 2] bcast_S1x1024x1024_S40x1024x1024_0_1_2 : (⟨S1x1024x1024, .f32⟩ : BufTy).Contents (Elt F) → (⟨S40x1024x1024, .f32⟩ : BufTy).Contents (Elt F)),
    StableHlo.binary main_v165 main_v163 main_v166 (subf : (⟨S40x1024x1024, .f32⟩ : BufTy).Contents (Elt F) → (⟨S40x1024x1024, .f32⟩ : BufTy).Contents (Elt F) → (⟨S40x1024x1024, .f32⟩ : BufTy).Contents (Elt F)),
    StableHlo.unary main_v166 main_v167 (Host.absf : (⟨S40x1024x1024, .f32⟩ : BufTy).Contents (Elt F) → (⟨S40x1024x1024, .f32⟩ : BufTy).Contents (Elt F)),
    StableHlo.nullary main_cst_49 (constant S_ .f32 0x3F800000#32),
    StableHlo.unary main_cst_49 main_v168 (broadcastInDim S40x1024x1024 ![] bcast_S_S40x1024x1024 : (⟨S_, .f32⟩ : BufTy).Contents (Elt F) → (⟨S40x1024x1024, .f32⟩ : BufTy).Contents (Elt F)),
    StableHlo.binary main_v168 main_v167 main_v169 (subf : (⟨S40x1024x1024, .f32⟩ : BufTy).Contents (Elt F) → (⟨S40x1024x1024, .f32⟩ : BufTy).Contents (Elt F) → (⟨S40x1024x1024, .f32⟩ : BufTy).Contents (Elt F)),
    StableHlo.nullary main_cst_50 (constant S_ .f32 0xFF800000#32),
    StableHlo.binary main_v169 main_cst_50 main_v170 ((fun x v => Host.reduce FloatOps.maximumf x v reducesTo_S40x1024x1024_S1024x1024_d0 h_S_) : (⟨S40x1024x1024, .f32⟩ : BufTy).Contents (Elt F) → (⟨S_, .f32⟩ : BufTy).Contents (Elt F) → (⟨S1024x1024, .f32⟩ : BufTy).Contents (Elt F)),
    StableHlo.unary main_arg1 main_v171 (broadcastInDim S1x1 ![1] bcast_S1_S1x1_1 : (⟨S1, .f32⟩ : BufTy).Contents (Elt F) → (⟨S1x1, .f32⟩ : BufTy).Contents (Elt F)),
    StableHlo.unary main_v171 main_v172 (broadcastInDim S1024x1024 ![0, 1] bcast_S1x1_S1024x1024_0_1 : (⟨S1x1, .f32⟩ : BufTy).Contents (Elt F) → (⟨S1024x1024, .f32⟩ : BufTy).Contents (Elt F)),
    StableHlo.binary main_v172 main_v170 main_v173 (mulf : (⟨S1024x1024, .f32⟩ : BufTy).Contents (Elt F) → (⟨S1024x1024, .f32⟩ : BufTy).Contents (Elt F) → (⟨S1024x1024, .f32⟩ : BufTy).Contents (Elt F)),
    StableHlo.nullary main_cst_51 (constant S_ .f32 0x4E6E6B28#32),
    StableHlo.TRef.unary (.of main_cst_51 : StableHlo.TRef sig ⟨S_, .f32⟩) main_call5.v0 id,
    StableHlo.TRef.binary (.of main_v140 : StableHlo.TRef sig ⟨S1024x1024, .f32⟩) main_call5.v0 main_call5.v1 (fun x v => pad S1046x1046 ![11, 11] ![11, 11] ![0, 0] x v pads_S1024x1024_S1046x1046_11110_11110 h_S_),
    StableHlo.unary main_c_4 main_v175 ((extractStridedSlice S72x1 ![0, 0] · slices_S72x2_S72x1_0_0) : (⟨S72x2, .i32⟩ : BufTy).Contents (Elt F) → (⟨S72x1, .i32⟩ : BufTy).Contents (Elt F)),
    StableHlo.reshape main_v175 main_v176 rfl shapeCasts_S72x1_S72,
    StableHlo.nullary main_c_52 (constantI S_ 32 11#32),
    StableHlo.unary main_c_52 main_v177 (broadcastInDim S72 ![] bcast_S_S72 : (⟨S_, .i32⟩ : BufTy).Contents (Elt F) → (⟨S72, .i32⟩ : BufTy).Contents (Elt F)),
    StableHlo.binary main_v177 main_v176 main_v178 (addi : (⟨S72, .i32⟩ : BufTy).Contents (Elt F) → (⟨S72, .i32⟩ : BufTy).Contents (Elt F) → (⟨S72, .i32⟩ : BufTy).Contents (Elt F)),
    StableHlo.unary main_c_4 main_v179 ((extractStridedSlice S72x1 ![0, 1] · slices_S72x2_S72x1_0_1) : (⟨S72x2, .i32⟩ : BufTy).Contents (Elt F) → (⟨S72x1, .i32⟩ : BufTy).Contents (Elt F)),
    StableHlo.reshape main_v179 main_v180 rfl shapeCasts_S72x1_S72,
    StableHlo.nullary main_c_53 (constantI S_ 32 11#32),
    StableHlo.unary main_c_53 main_v181 (broadcastInDim S72 ![] bcast_S_S72 : (⟨S_, .i32⟩ : BufTy).Contents (Elt F) → (⟨S72, .i32⟩ : BufTy).Contents (Elt F)),
    StableHlo.binary main_v181 main_v180 main_v182 (addi : (⟨S72, .i32⟩ : BufTy).Contents (Elt F) → (⟨S72, .i32⟩ : BufTy).Contents (Elt F) → (⟨S72, .i32⟩ : BufTy).Contents (Elt F)),
    StableHlo.nullary main_c_54 (constantI S_ 32 0#32) ]

theorem opsP3_sub : (opsP3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub ..⟩

/-- Window 4: 61 operations. -/
abbrev opsP4 : List (HloOp τ sig (Elt F)) :=
  [ StableHlo.unary main_c_54 main_v183 (broadcastInDim S72 ![] bcast_S_S72 : (⟨S_, .i32⟩ : BufTy).Contents (Elt F) → (⟨S72, .i32⟩ : BufTy).Contents (Elt F)),
    StableHlo.binary main_v178 main_v183 main_v184 (cmpi .slt : (⟨S72, .i32⟩ : BufTy).Contents (Elt F) → (⟨S72, .i32⟩ : BufTy).Contents (Elt F) → (⟨S72, .i1⟩ : BufTy).Contents (Elt F)),
    StableHlo.nullary main_c_55 (constantI S_ 32 1046#32),
    StableHlo.unary main_c_55 main_v185 (broadcastInDim S72 ![] bcast_S_S72 : (⟨S_, .i32⟩ : BufTy).Contents (Elt F) → (⟨S72, .i32⟩ : BufTy).Contents (Elt F)),
    StableHlo.binary main_v178 main_v185 main_v186 (addi : (⟨S72, .i32⟩ : BufTy).Contents (Elt F) → (⟨S72, .i32⟩ : BufTy).Contents (Elt F) → (⟨S72, .i32⟩ : BufTy).Contents (Elt F)),
    StableHlo.ternary main_v184 main_v186 main_v178 main_v187 (select : (⟨S72, .i1⟩ : BufTy).Contents (Elt F) → (⟨S72, .i32⟩ : BufTy).Contents (Elt F) → (⟨S72, .i32⟩ : BufTy).Contents (Elt F) → (⟨S72, .i32⟩ : BufTy).Contents (Elt F)),
    StableHlo.nullary main_c_56 (constantI S_ 32 0#32),
    StableHlo.unary main_c_56 main_v188 (broadcastInDim S72 ![] bcast_S_S72 : (⟨S_, .i32⟩ : BufTy).Contents (Elt F) → (⟨S72, .i32⟩ : BufTy).Contents (Elt F)),
    StableHlo.binary main_v182 main_v188 main_v189 (cmpi .slt : (⟨S72, .i32⟩ : BufTy).Contents (Elt F) → (⟨S72, .i32⟩ : BufTy).Contents (Elt F) → (⟨S72, .i1⟩ : BufTy).Contents (Elt F)),
    StableHlo.nullary main_c_57 (constantI S_ 32 1046#32),
    StableHlo.unary main_c_57 main_v190 (broadcastInDim S72 ![] bcast_S_S72 : (⟨S_, .i32⟩ : BufTy).Contents (Elt F) → (⟨S72, .i32⟩ : BufTy).Contents (Elt F)),
    StableHlo.binary main_v182 main_v190 main_v191 (addi : (⟨S72, .i32⟩ : BufTy).Contents (Elt F) → (⟨S72, .i32⟩ : BufTy).Contents (Elt F) → (⟨S72, .i32⟩ : BufTy).Contents (Elt F)),
    StableHlo.ternary main_v189 main_v191 main_v182 main_v192 (select : (⟨S72, .i1⟩ : BufTy).Contents (Elt F) → (⟨S72, .i32⟩ : BufTy).Contents (Elt F) → (⟨S72, .i32⟩ : BufTy).Contents (Elt F) → (⟨S72, .i32⟩ : BufTy).Contents (Elt F)),
    StableHlo.unary main_v187 main_v193 (broadcastInDim S72x1 ![0] bcast_S72_S72x1_0 : (⟨S72, .i32⟩ : BufTy).Contents (Elt F) → (⟨S72x1, .i32⟩ : BufTy).Contents (Elt F)),
    StableHlo.unary main_v192 main_v194 (broadcastInDim S72x1 ![0] bcast_S72_S72x1_0 : (⟨S72, .i32⟩ : BufTy).Contents (Elt F) → (⟨S72x1, .i32⟩ : BufTy).Contents (Elt F)),
    StableHlo.binary main_v193 main_v194 main_v195 ((fun a b => concatenate S72x2 1 [⟨S72x1, a⟩, ⟨S72x1, b⟩] concatenates_S72x1_S72x1_S72x2_d1) : (⟨S72x1, .i32⟩ : BufTy).Contents (Elt F) → (⟨S72x1, .i32⟩ : BufTy).Contents (Elt F) → (⟨S72x2, .i32⟩ : BufTy).Contents (Elt F)),
    StableHlo.binary main_v174 main_v195 main_v196 ((fun x i => Host.gather gather_S1046x1046_S72x2_S72x1024x1024_12_n_n_n_01_1_10241024 x i) : (⟨S1046x1046, .f32⟩ : BufTy).Contents (Elt F) → (⟨S72x2, .i32⟩ : BufTy).Contents (Elt F) → (⟨S72x1024x1024, .f32⟩ : BufTy).Contents (Elt F)),
    StableHlo.unary main_v140 main_v197 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v197 main_v198 (broadcastInDim S72x1024x1024 ![0, 1, 2] bcast_S1x1024x1024_S72x1024x1024_0_1_2 : (⟨S1x1024x1024, .f32⟩ : BufTy).Contents (Elt F) → (⟨S72x1024x1024, .f32⟩ : BufTy).Contents (Elt F)),
    StableHlo.binary main_v198 main_v196 main_v199 (subf : (⟨S72x1024x1024, .f32⟩ : BufTy).Contents (Elt F) → (⟨S72x1024x1024, .f32⟩ : BufTy).Contents (Elt F) → (⟨S72x1024x1024, .f32⟩ : BufTy).Contents (Elt F)),
    StableHlo.unary main_v199 main_v200 (Host.absf : (⟨S72x1024x1024, .f32⟩ : BufTy).Contents (Elt F) → (⟨S72x1024x1024, .f32⟩ : BufTy).Contents (Elt F)),
    StableHlo.nullary main_cst_58 (constant S_ .f32 0x3F800000#32),
    StableHlo.unary main_cst_58 main_v201 (broadcastInDim S72x1024x1024 ![] bcast_S_S72x1024x1024 : (⟨S_, .f32⟩ : BufTy).Contents (Elt F) → (⟨S72x1024x1024, .f32⟩ : BufTy).Contents (Elt F)),
    StableHlo.binary main_v201 main_v200 main_v202 (subf : (⟨S72x1024x1024, .f32⟩ : BufTy).Contents (Elt F) → (⟨S72x1024x1024, .f32⟩ : BufTy).Contents (Elt F) → (⟨S72x1024x1024, .f32⟩ : BufTy).Contents (Elt F)),
    StableHlo.nullary main_cst_59 (constant S_ .f32 0xFF800000#32),
    StableHlo.binary main_v202 main_cst_59 main_v203 ((fun x v => Host.reduce FloatOps.maximumf x v reducesTo_S72x1024x1024_S1024x1024_d0 h_S_) : (⟨S72x1024x1024, .f32⟩ : BufTy).Contents (Elt F) → (⟨S_, .f32⟩ : BufTy).Contents (Elt F) → (⟨S1024x1024, .f32⟩ : BufTy).Contents (Elt F)),
    StableHlo.unary main_arg2 main_v204 (broadcastInDim S1x1 ![1] bcast_S1_S1x1_1 : (⟨S1, .f32⟩ : BufTy).Contents (Elt F) → (⟨S1x1, .f32⟩ : BufTy).Contents (Elt F)),
    StableHlo.unary main_v204 main_v205 (broadcastInDim S1024x1024 ![0, 1] bcast_S1x1_S1024x1024_0_1 : (⟨S1x1, .f32⟩ : BufTy).Contents (Elt F) → (⟨S1024x1024, .f32⟩ : BufTy).Contents (Elt F)),
    StableHlo.binary main_v205 main_v203 main_v206 (mulf : (⟨S1024x1024, .f32⟩ : BufTy).Contents (Elt F) → (⟨S1024x1024, .f32⟩ : BufTy).Contents (Elt F) → (⟨S1024x1024, .f32⟩ : BufTy).Contents (Elt F)),
    StableHlo.binary main_v173 main_v206 main_v207 (addf : (⟨S1024x1024, .f32⟩ : BufTy).Contents (Elt F) → (⟨S1024x1024, .f32⟩ : BufTy).Contents (Elt F) → (⟨S1024x1024, .f32⟩ : BufTy).Contents (Elt F)),
    StableHlo.nullary main_cst_60 (constant S_ .f32 0x4E6E6B28#32),
    StableHlo.TRef.unary (.of main_cst_60 : StableHlo.TRef sig ⟨S_, .f32⟩) main_call6.v0 id,
    StableHlo.TRef.binary (.of main_v140 : StableHlo.TRef sig ⟨S1024x1024, .f32⟩) main_call6.v0 main_call6.v1 (fun x v => pad S1054x1054 ![15, 15] ![15, 15] ![0, 0] x v pads_S1024x1024_S1054x1054_15150_15150 h_S_),
    StableHlo.unary main_c_5 main_v209 ((extractStridedSlice S84x1 ![0, 0] · slices_S84x2_S84x1_0_0) : (⟨S84x2, .i32⟩ : BufTy).Contents (Elt F) → (⟨S84x1, .i32⟩ : BufTy).Contents (Elt F)),
    StableHlo.reshape main_v209 main_v210 rfl shapeCasts_S84x1_S84,
    StableHlo.nullary main_c_61 (constantI S_ 32 15#32),
    StableHlo.unary main_c_61 main_v211 (broadcastInDim S84 ![] bcast_S_S84 : (⟨S_, .i32⟩ : BufTy).Contents (Elt F) → (⟨S84, .i32⟩ : BufTy).Contents (Elt F)),
    StableHlo.binary main_v211 main_v210 main_v212 (addi : (⟨S84, .i32⟩ : BufTy).Contents (Elt F) → (⟨S84, .i32⟩ : BufTy).Contents (Elt F) → (⟨S84, .i32⟩ : BufTy).Contents (Elt F)),
    StableHlo.unary main_c_5 main_v213 ((extractStridedSlice S84x1 ![0, 1] · slices_S84x2_S84x1_0_1) : (⟨S84x2, .i32⟩ : BufTy).Contents (Elt F) → (⟨S84x1, .i32⟩ : BufTy).Contents (Elt F)),
    StableHlo.reshape main_v213 main_v214 rfl shapeCasts_S84x1_S84,
    StableHlo.nullary main_c_62 (constantI S_ 32 15#32),
    StableHlo.unary main_c_62 main_v215 (broadcastInDim S84 ![] bcast_S_S84 : (⟨S_, .i32⟩ : BufTy).Contents (Elt F) → (⟨S84, .i32⟩ : BufTy).Contents (Elt F)),
    StableHlo.binary main_v215 main_v214 main_v216 (addi : (⟨S84, .i32⟩ : BufTy).Contents (Elt F) → (⟨S84, .i32⟩ : BufTy).Contents (Elt F) → (⟨S84, .i32⟩ : BufTy).Contents (Elt F)),
    StableHlo.nullary main_c_63 (constantI S_ 32 0#32),
    StableHlo.unary main_c_63 main_v217 (broadcastInDim S84 ![] bcast_S_S84 : (⟨S_, .i32⟩ : BufTy).Contents (Elt F) → (⟨S84, .i32⟩ : BufTy).Contents (Elt F)),
    StableHlo.binary main_v212 main_v217 main_v218 (cmpi .slt : (⟨S84, .i32⟩ : BufTy).Contents (Elt F) → (⟨S84, .i32⟩ : BufTy).Contents (Elt F) → (⟨S84, .i1⟩ : BufTy).Contents (Elt F)),
    StableHlo.nullary main_c_64 (constantI S_ 32 1054#32),
    StableHlo.unary main_c_64 main_v219 (broadcastInDim S84 ![] bcast_S_S84 : (⟨S_, .i32⟩ : BufTy).Contents (Elt F) → (⟨S84, .i32⟩ : BufTy).Contents (Elt F)),
    StableHlo.binary main_v212 main_v219 main_v220 (addi : (⟨S84, .i32⟩ : BufTy).Contents (Elt F) → (⟨S84, .i32⟩ : BufTy).Contents (Elt F) → (⟨S84, .i32⟩ : BufTy).Contents (Elt F)),
    StableHlo.ternary main_v218 main_v220 main_v212 main_v221 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.nullary main_c_65 (constantI S_ 32 0#32),
    StableHlo.unary main_c_65 main_v222 (broadcastInDim S84 ![] bcast_S_S84 : (⟨S_, .i32⟩ : BufTy).Contents (Elt F) → (⟨S84, .i32⟩ : BufTy).Contents (Elt F)),
    StableHlo.binary main_v216 main_v222 main_v223 (cmpi .slt : (⟨S84, .i32⟩ : BufTy).Contents (Elt F) → (⟨S84, .i32⟩ : BufTy).Contents (Elt F) → (⟨S84, .i1⟩ : BufTy).Contents (Elt F)),
    StableHlo.nullary main_c_66 (constantI S_ 32 1054#32),
    StableHlo.unary main_c_66 main_v224 (broadcastInDim S84 ![] bcast_S_S84 : (⟨S_, .i32⟩ : BufTy).Contents (Elt F) → (⟨S84, .i32⟩ : BufTy).Contents (Elt F)),
    StableHlo.binary main_v216 main_v224 main_v225 (addi : (⟨S84, .i32⟩ : BufTy).Contents (Elt F) → (⟨S84, .i32⟩ : BufTy).Contents (Elt F) → (⟨S84, .i32⟩ : BufTy).Contents (Elt F)),
    StableHlo.ternary main_v223 main_v225 main_v216 main_v226 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.unary main_v221 main_v227 (broadcastInDim S84x1 ![0] bcast_S84_S84x1_0 : (⟨S84, .i32⟩ : BufTy).Contents (Elt F) → (⟨S84x1, .i32⟩ : BufTy).Contents (Elt F)),
    StableHlo.unary main_v226 main_v228 (broadcastInDim S84x1 ![0] bcast_S84_S84x1_0 : (⟨S84, .i32⟩ : BufTy).Contents (Elt F) → (⟨S84x1, .i32⟩ : BufTy).Contents (Elt F)),
    StableHlo.binary main_v227 main_v228 main_v229 ((fun a b => concatenate S84x2 1 [⟨S84x1, a⟩, ⟨S84x1, b⟩] concatenates_S84x1_S84x1_S84x2_d1) : (⟨S84x1, .i32⟩ : BufTy).Contents (Elt F) → (⟨S84x1, .i32⟩ : BufTy).Contents (Elt F) → (⟨S84x2, .i32⟩ : BufTy).Contents (Elt F)),
    StableHlo.binary main_v208 main_v229 main_v230 ((fun x i => Host.gather gather_S1054x1054_S84x2_S84x1024x1024_12_n_n_n_01_1_10241024 x i) : (⟨S1054x1054, .f32⟩ : BufTy).Contents (Elt F) → (⟨S84x2, .i32⟩ : BufTy).Contents (Elt F) → (⟨S84x1024x1024, .f32⟩ : BufTy).Contents (Elt F)) ]

theorem opsP4_sub : (opsP4 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

/-- Window 5: 61 operations. -/
abbrev opsP5 : List (HloOp τ sig (Elt F)) :=
  [ StableHlo.unary main_v140 main_v231 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v231 main_v232 (broadcastInDim S84x1024x1024 ![0, 1, 2] bcast_S1x1024x1024_S84x1024x1024_0_1_2 : (⟨S1x1024x1024, .f32⟩ : BufTy).Contents (Elt F) → (⟨S84x1024x1024, .f32⟩ : BufTy).Contents (Elt F)),
    StableHlo.binary main_v232 main_v230 main_v233 (subf : (⟨S84x1024x1024, .f32⟩ : BufTy).Contents (Elt F) → (⟨S84x1024x1024, .f32⟩ : BufTy).Contents (Elt F) → (⟨S84x1024x1024, .f32⟩ : BufTy).Contents (Elt F)),
    StableHlo.unary main_v233 main_v234 (Host.absf : (⟨S84x1024x1024, .f32⟩ : BufTy).Contents (Elt F) → (⟨S84x1024x1024, .f32⟩ : BufTy).Contents (Elt F)),
    StableHlo.nullary main_cst_67 (constant S_ .f32 0x3F800000#32),
    StableHlo.unary main_cst_67 main_v235 (broadcastInDim S84x1024x1024 ![] bcast_S_S84x1024x1024 : (⟨S_, .f32⟩ : BufTy).Contents (Elt F) → (⟨S84x1024x1024, .f32⟩ : BufTy).Contents (Elt F)),
    StableHlo.binary main_v235 main_v234 main_v236 (subf : (⟨S84x1024x1024, .f32⟩ : BufTy).Contents (Elt F) → (⟨S84x1024x1024, .f32⟩ : BufTy).Contents (Elt F) → (⟨S84x1024x1024, .f32⟩ : BufTy).Contents (Elt F)),
    StableHlo.nullary main_cst_68 (constant S_ .f32 0xFF800000#32),
    StableHlo.binary main_v236 main_cst_68 main_v237 ((fun x v => Host.reduce FloatOps.maximumf x v reducesTo_S84x1024x1024_S1024x1024_d0 h_S_) : (⟨S84x1024x1024, .f32⟩ : BufTy).Contents (Elt F) → (⟨S_, .f32⟩ : BufTy).Contents (Elt F) → (⟨S1024x1024, .f32⟩ : BufTy).Contents (Elt F)),
    StableHlo.unary main_arg3 main_v238 (broadcastInDim S1x1 ![1] bcast_S1_S1x1_1 : (⟨S1, .f32⟩ : BufTy).Contents (Elt F) → (⟨S1x1, .f32⟩ : BufTy).Contents (Elt F)),
    StableHlo.unary main_v238 main_v239 (broadcastInDim S1024x1024 ![0, 1] bcast_S1x1_S1024x1024_0_1 : (⟨S1x1, .f32⟩ : BufTy).Contents (Elt F) → (⟨S1024x1024, .f32⟩ : BufTy).Contents (Elt F)),
    StableHlo.binary main_v239 main_v237 main_v240 (mulf : (⟨S1024x1024, .f32⟩ : BufTy).Contents (Elt F) → (⟨S1024x1024, .f32⟩ : BufTy).Contents (Elt F) → (⟨S1024x1024, .f32⟩ : BufTy).Contents (Elt F)),
    StableHlo.binary main_v207 main_v240 main_v241 (addf : (⟨S1024x1024, .f32⟩ : BufTy).Contents (Elt F) → (⟨S1024x1024, .f32⟩ : BufTy).Contents (Elt F) → (⟨S1024x1024, .f32⟩ : BufTy).Contents (Elt F)),
    StableHlo.nullary main_cst_69 (constant S_ .f32 0x4E6E6B28#32),
    StableHlo.TRef.unary (.of main_cst_69 : StableHlo.TRef sig ⟨S_, .f32⟩) main_call7.v0 id,
    StableHlo.TRef.binary (.of main_v140 : StableHlo.TRef sig ⟨S1024x1024, .f32⟩) main_call7.v0 main_call7.v1 (fun x v => pad S1062x1062 ![19, 19] ![19, 19] ![0, 0] x v pads_S1024x1024_S1062x1062_19190_19190 h_S_),
    StableHlo.unary main_c_6 main_v243 ((extractStridedSlice S116x1 ![0, 0] · slices_S116x2_S116x1_0_0) : (⟨S116x2, .i32⟩ : BufTy).Contents (Elt F) → (⟨S116x1, .i32⟩ : BufTy).Contents (Elt F)),
    StableHlo.reshape main_v243 main_v244 rfl shapeCasts_S116x1_S116,
    StableHlo.nullary main_c_70 (constantI S_ 32 19#32),
    StableHlo.unary main_c_70 main_v245 (broadcastInDim S116 ![] bcast_S_S116 : (⟨S_, .i32⟩ : BufTy).Contents (Elt F) → (⟨S116, .i32⟩ : BufTy).Contents (Elt F)),
    StableHlo.binary main_v245 main_v244 main_v246 (addi : (⟨S116, .i32⟩ : BufTy).Contents (Elt F) → (⟨S116, .i32⟩ : BufTy).Contents (Elt F) → (⟨S116, .i32⟩ : BufTy).Contents (Elt F)),
    StableHlo.unary main_c_6 main_v247 ((extractStridedSlice S116x1 ![0, 1] · slices_S116x2_S116x1_0_1) : (⟨S116x2, .i32⟩ : BufTy).Contents (Elt F) → (⟨S116x1, .i32⟩ : BufTy).Contents (Elt F)),
    StableHlo.reshape main_v247 main_v248 rfl shapeCasts_S116x1_S116,
    StableHlo.nullary main_c_71 (constantI S_ 32 19#32),
    StableHlo.unary main_c_71 main_v249 (broadcastInDim S116 ![] bcast_S_S116 : (⟨S_, .i32⟩ : BufTy).Contents (Elt F) → (⟨S116, .i32⟩ : BufTy).Contents (Elt F)),
    StableHlo.binary main_v249 main_v248 main_v250 (addi : (⟨S116, .i32⟩ : BufTy).Contents (Elt F) → (⟨S116, .i32⟩ : BufTy).Contents (Elt F) → (⟨S116, .i32⟩ : BufTy).Contents (Elt F)),
    StableHlo.nullary main_c_72 (constantI S_ 32 0#32),
    StableHlo.unary main_c_72 main_v251 (broadcastInDim S116 ![] bcast_S_S116 : (⟨S_, .i32⟩ : BufTy).Contents (Elt F) → (⟨S116, .i32⟩ : BufTy).Contents (Elt F)),
    StableHlo.binary main_v246 main_v251 main_v252 (cmpi .slt : (⟨S116, .i32⟩ : BufTy).Contents (Elt F) → (⟨S116, .i32⟩ : BufTy).Contents (Elt F) → (⟨S116, .i1⟩ : BufTy).Contents (Elt F)),
    StableHlo.nullary main_c_73 (constantI S_ 32 1062#32),
    StableHlo.unary main_c_73 main_v253 (broadcastInDim S116 ![] bcast_S_S116 : (⟨S_, .i32⟩ : BufTy).Contents (Elt F) → (⟨S116, .i32⟩ : BufTy).Contents (Elt F)),
    StableHlo.binary main_v246 main_v253 main_v254 (addi : (⟨S116, .i32⟩ : BufTy).Contents (Elt F) → (⟨S116, .i32⟩ : BufTy).Contents (Elt F) → (⟨S116, .i32⟩ : BufTy).Contents (Elt F)),
    StableHlo.ternary main_v252 main_v254 main_v246 main_v255 (select : (⟨S116, .i1⟩ : BufTy).Contents (Elt F) → (⟨S116, .i32⟩ : BufTy).Contents (Elt F) → (⟨S116, .i32⟩ : BufTy).Contents (Elt F) → (⟨S116, .i32⟩ : BufTy).Contents (Elt F)),
    StableHlo.nullary main_c_74 (constantI S_ 32 0#32),
    StableHlo.unary main_c_74 main_v256 (broadcastInDim S116 ![] bcast_S_S116 : (⟨S_, .i32⟩ : BufTy).Contents (Elt F) → (⟨S116, .i32⟩ : BufTy).Contents (Elt F)),
    StableHlo.binary main_v250 main_v256 main_v257 (cmpi .slt : (⟨S116, .i32⟩ : BufTy).Contents (Elt F) → (⟨S116, .i32⟩ : BufTy).Contents (Elt F) → (⟨S116, .i1⟩ : BufTy).Contents (Elt F)),
    StableHlo.nullary main_c_75 (constantI S_ 32 1062#32),
    StableHlo.unary main_c_75 main_v258 (broadcastInDim S116 ![] bcast_S_S116 : (⟨S_, .i32⟩ : BufTy).Contents (Elt F) → (⟨S116, .i32⟩ : BufTy).Contents (Elt F)),
    StableHlo.binary main_v250 main_v258 main_v259 (addi : (⟨S116, .i32⟩ : BufTy).Contents (Elt F) → (⟨S116, .i32⟩ : BufTy).Contents (Elt F) → (⟨S116, .i32⟩ : BufTy).Contents (Elt F)),
    StableHlo.ternary main_v257 main_v259 main_v250 main_v260 (select : (⟨S116, .i1⟩ : BufTy).Contents (Elt F) → (⟨S116, .i32⟩ : BufTy).Contents (Elt F) → (⟨S116, .i32⟩ : BufTy).Contents (Elt F) → (⟨S116, .i32⟩ : BufTy).Contents (Elt F)),
    StableHlo.unary main_v255 main_v261 (broadcastInDim S116x1 ![0] bcast_S116_S116x1_0 : (⟨S116, .i32⟩ : BufTy).Contents (Elt F) → (⟨S116x1, .i32⟩ : BufTy).Contents (Elt F)),
    StableHlo.unary main_v260 main_v262 (broadcastInDim S116x1 ![0] bcast_S116_S116x1_0 : (⟨S116, .i32⟩ : BufTy).Contents (Elt F) → (⟨S116x1, .i32⟩ : BufTy).Contents (Elt F)),
    StableHlo.binary main_v261 main_v262 main_v263 ((fun a b => concatenate S116x2 1 [⟨S116x1, a⟩, ⟨S116x1, b⟩] concatenates_S116x1_S116x1_S116x2_d1) : (⟨S116x1, .i32⟩ : BufTy).Contents (Elt F) → (⟨S116x1, .i32⟩ : BufTy).Contents (Elt F) → (⟨S116x2, .i32⟩ : BufTy).Contents (Elt F)),
    StableHlo.binary main_v242 main_v263 main_v264 ((fun x i => Host.gather gather_S1062x1062_S116x2_S116x1024x1024_12_n_n_n_01_1_10241024 x i) : (⟨S1062x1062, .f32⟩ : BufTy).Contents (Elt F) → (⟨S116x2, .i32⟩ : BufTy).Contents (Elt F) → (⟨S116x1024x1024, .f32⟩ : BufTy).Contents (Elt F)),
    StableHlo.unary main_v140 main_v265 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v265 main_v266 (broadcastInDim S116x1024x1024 ![0, 1, 2] bcast_S1x1024x1024_S116x1024x1024_0_1_2 : (⟨S1x1024x1024, .f32⟩ : BufTy).Contents (Elt F) → (⟨S116x1024x1024, .f32⟩ : BufTy).Contents (Elt F)),
    StableHlo.binary main_v266 main_v264 main_v267 (subf : (⟨S116x1024x1024, .f32⟩ : BufTy).Contents (Elt F) → (⟨S116x1024x1024, .f32⟩ : BufTy).Contents (Elt F) → (⟨S116x1024x1024, .f32⟩ : BufTy).Contents (Elt F)),
    StableHlo.unary main_v267 main_v268 (Host.absf : (⟨S116x1024x1024, .f32⟩ : BufTy).Contents (Elt F) → (⟨S116x1024x1024, .f32⟩ : BufTy).Contents (Elt F)),
    StableHlo.nullary main_cst_76 (constant S_ .f32 0x3F800000#32),
    StableHlo.unary main_cst_76 main_v269 (broadcastInDim S116x1024x1024 ![] bcast_S_S116x1024x1024 : (⟨S_, .f32⟩ : BufTy).Contents (Elt F) → (⟨S116x1024x1024, .f32⟩ : BufTy).Contents (Elt F)),
    StableHlo.binary main_v269 main_v268 main_v270 (subf : (⟨S116x1024x1024, .f32⟩ : BufTy).Contents (Elt F) → (⟨S116x1024x1024, .f32⟩ : BufTy).Contents (Elt F) → (⟨S116x1024x1024, .f32⟩ : BufTy).Contents (Elt F)),
    StableHlo.nullary main_cst_77 (constant S_ .f32 0xFF800000#32),
    StableHlo.binary main_v270 main_cst_77 main_v271 ((fun x v => Host.reduce FloatOps.maximumf x v reducesTo_S116x1024x1024_S1024x1024_d0 h_S_) : (⟨S116x1024x1024, .f32⟩ : BufTy).Contents (Elt F) → (⟨S_, .f32⟩ : BufTy).Contents (Elt F) → (⟨S1024x1024, .f32⟩ : BufTy).Contents (Elt F)),
    StableHlo.unary main_arg4 main_v272 (broadcastInDim S1x1 ![1] bcast_S1_S1x1_1 : (⟨S1, .f32⟩ : BufTy).Contents (Elt F) → (⟨S1x1, .f32⟩ : BufTy).Contents (Elt F)),
    StableHlo.unary main_v272 main_v273 (broadcastInDim S1024x1024 ![0, 1] bcast_S1x1_S1024x1024_0_1 : (⟨S1x1, .f32⟩ : BufTy).Contents (Elt F) → (⟨S1024x1024, .f32⟩ : BufTy).Contents (Elt F)),
    StableHlo.binary main_v273 main_v271 main_v274 (mulf : (⟨S1024x1024, .f32⟩ : BufTy).Contents (Elt F) → (⟨S1024x1024, .f32⟩ : BufTy).Contents (Elt F) → (⟨S1024x1024, .f32⟩ : BufTy).Contents (Elt F)),
    StableHlo.binary main_v241 main_v274 main_v275 (addf : (⟨S1024x1024, .f32⟩ : BufTy).Contents (Elt F) → (⟨S1024x1024, .f32⟩ : BufTy).Contents (Elt F) → (⟨S1024x1024, .f32⟩ : BufTy).Contents (Elt F)),
    StableHlo.binary main_arg1 main_arg2 main_v276 (addf : (⟨S1, .f32⟩ : BufTy).Contents (Elt F) → (⟨S1, .f32⟩ : BufTy).Contents (Elt F) → (⟨S1, .f32⟩ : BufTy).Contents (Elt F)),
    StableHlo.binary main_v276 main_arg3 main_v277 (addf : (⟨S1, .f32⟩ : BufTy).Contents (Elt F) → (⟨S1, .f32⟩ : BufTy).Contents (Elt F) → (⟨S1, .f32⟩ : BufTy).Contents (Elt F)),
    StableHlo.binary main_v277 main_arg4 main_v278 (addf : (⟨S1, .f32⟩ : BufTy).Contents (Elt F) → (⟨S1, .f32⟩ : BufTy).Contents (Elt F) → (⟨S1, .f32⟩ : BufTy).Contents (Elt F)),
    StableHlo.unary main_v278 main_v279 (broadcastInDim S1x1 ![1] bcast_S1_S1x1_1 : (⟨S1, .f32⟩ : BufTy).Contents (Elt F) → (⟨S1x1, .f32⟩ : BufTy).Contents (Elt F)) ]

theorem opsP5_sub : (opsP5 : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., binary_bufs_sub .., binary_bufs_sub .., binary_bufs_sub .., binary_bufs_sub .., unary_bufs_sub ..⟩

/-- Window 6: 2 operations. -/
abbrev opsP6 : List (HloOp τ sig (Elt F)) :=
  [ StableHlo.unary main_v279 main_v280 (broadcastInDim S1024x1024 ![0, 1] bcast_S1x1_S1024x1024_0_1 : (⟨S1x1, .f32⟩ : BufTy).Contents (Elt F) → (⟨S1024x1024, .f32⟩ : BufTy).Contents (Elt F)),
    StableHlo.binary main_v275 main_v280 main_v281 (Host.divf : (⟨S1024x1024, .f32⟩ : BufTy).Contents (Elt F) → (⟨S1024x1024, .f32⟩ : BufTy).Contents (Elt F) → (⟨S1024x1024, .f32⟩ : BufTy).Contents (Elt F)) ]

theorem opsP6_sub : (opsP6 : List (HloOp τ sig (Elt F))).Forall fun op => op.bufs ⊆ tcRefs τ sig :=
  ⟨unary_bufs_sub .., binary_bufs_sub ..⟩

/-- @main's 370 operations, in order. -/
abbrev ops : List (HloOp τ sig (Elt F)) :=
  opsP0 ++ (opsP1 ++ (opsP2 ++ (opsP3 ++ (opsP4 ++ (opsP5 ++ (opsP6))))))

end Cert.ReferenceIdeal.RefRun

end
-- ==== Proof.Ref.Chunks.lean ====
/- The same operations cut where the computation does: the eight offset tables; then, per layer, one list per
   radius (padding, start table, gather, scores, greatest score, weighted and added to the running sum) and one
   for the division by the sum of the weights.  For each list the buffers its operations write, and the fact that
   they write no others. -/
import proofs.«126001_j6975026889201_2_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 7 of the line. -/
def cT : List (HloOp τ sig (Elt F)) :=
  [ StableHlo.nullary main_c (fun i => lit0 (S40x2.rowMajor i)),
    StableHlo.nullary main_c_0 (fun i => lit1 (S72x2.rowMajor i)),
    StableHlo.nullary main_c_1 (fun i => lit2 (S84x2.rowMajor i)),
    StableHlo.nullary main_c_2 (fun i => lit3 (S116x2.rowMajor i)),
    StableHlo.nullary main_c_3 (fun i => lit4 (S40x2.rowMajor i)),
    StableHlo.nullary main_c_4 (fun i => lit5 (S72x2.rowMajor i)),
    StableHlo.nullary main_c_5 (fun i => lit6 (S84x2.rowMajor i)),
    StableHlo.nullary main_c_6 (fun i => lit7 (S116x2.rowMajor i)) ]

/-- The buffers they write. -/
abbrev cT_W : List (Ref sig .tc) := [main_c, main_c_0, main_c_1, main_c_2, main_c_3, main_c_4, main_c_5, main_c_6]

set_option maxRecDepth 8192 in
theorem cT_writes : (cT : List (HloOp τ sig (Elt F))).Forall fun op => op.writes ⊆ (cT_W.map (Proc.devRef (τ := τ) .tc)).toFinset := by
  simp only [cT, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 8 to 50 of the line. -/
def cA7 : List (HloOp τ sig (Elt F)) :=
  [ StableHlo.nullary main_cst (constant S_ .f32 0x4E6E6B28#32),
    StableHlo.TRef.unary (.of main_cst : StableHlo.TRef sig ⟨S_, .f32⟩) main_call0.v0 id,
    StableHlo.TRef.binary (.of main_arg0 : StableHlo.TRef sig ⟨S1024x1024, .f32⟩) main_call0.v0 main_call0.v1 (fun x v => pad S1038x1038 ![7, 7] ![7, 7] ![0, 0] x v pads_S1024x1024_S1038x1038_770_770 h_S_),
    StableHlo.unary main_c main_v1 ((extractStridedSlice S40x1 ![0, 0] · slices_S40x2_S40x1_0_0) : (⟨S40x2, .i32⟩ : BufTy).Contents (Elt F) → (⟨S40x1, .i32⟩ : BufTy).Contents (Elt F)),
    StableHlo.reshape main_v1 main_v2 rfl shapeCasts_S40x1_S40,
    StableHlo.nullary main_c_7 (constantI S_ 32 7#32),
    StableHlo.unary main_c_7 main_v3 (broadcastInDim S40 ![] bcast_S_S40 : (⟨S_, .i32⟩ : BufTy).Contents (Elt F) → (⟨S40, .i32⟩ : BufTy).Contents (Elt F)),
    StableHlo.binary main_v3 main_v2 main_v4 (addi : (⟨S40, .i32⟩ : BufTy).Contents (Elt F) → (⟨S40, .i32⟩ : BufTy).Contents (Elt F) → (⟨S40, .i32⟩ : BufTy).Contents (Elt F)),
    StableHlo.unary main_c main_v5 ((extractStridedSlice S40x1 ![0, 1] · slices_S40x2_S40x1_0_1) : (⟨S40x2, .i32⟩ : BufTy).Contents (Elt F) → (⟨S40x1, .i32⟩ : BufTy).Contents (Elt F)),
    StableHlo.reshape main_v5 main_v6 rfl shapeCasts_S40x1_S40,
    StableHlo.nullary main_c_8 (constantI S_ 32 7#32),
    StableHlo.unary main_c_8 main_v7 (broadcastInDim S40 ![] bcast_S_S40 : (⟨S_, .i32⟩ : BufTy).Contents (Elt F) → (⟨S40, .i32⟩ : BufTy).Contents (Elt F)),
    StableHlo.binary main_v7 main_v6 main_v8 (addi : (⟨S40, .i32⟩ : BufTy).Contents (Elt F) → (⟨S40, .i32⟩ : BufTy).Contents (Elt F) → (⟨S40, .i32⟩ : BufTy).Contents (Elt F)),
    StableHlo.nullary main_c_9 (constantI S_ 32 0#32),
    StableHlo.unary main_c_9 main_v9 (broadcastInDim S40 ![] bcast_S_S40 : (⟨S_, .i32⟩ : BufTy).Contents (Elt F) → (⟨S40, .i32⟩ : BufTy).Contents (Elt F)),
    StableHlo.binary main_v4 main_v9 main_v10 (cmpi .slt : (⟨S40, .i32⟩ : BufTy).Contents (Elt F) → (⟨S40, .i32⟩ : BufTy).Contents (Elt F) → (⟨S40, .i1⟩ : BufTy).Contents (Elt F)),
    StableHlo.nullary main_c_10 (constantI S_ 32 1038#32),
    StableHlo.unary main_c_10 main_v11 (broadcastInDim S40 ![] bcast_S_S40 : (⟨S_, .i32⟩ : BufTy).Contents (Elt F) → (⟨S40, .i32⟩ : BufTy).Contents (Elt F)),
    StableHlo.binary main_v4 main_v11 main_v12 (addi : (⟨S40, .i32⟩ : BufTy).Contents (Elt F) → (⟨S40, .i32⟩ : BufTy).Contents (Elt F) → (⟨S40, .i32⟩ : BufTy).Contents (Elt F)),
    StableHlo.ternary main_v10 main_v12 main_v4 main_v13 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.nullary main_c_11 (constantI S_ 32 0#32),
    StableHlo.unary main_c_11 main_v14 (broadcastInDim S40 ![] bcast_S_S40 : (⟨S_, .i32⟩ : BufTy).Contents (Elt F) → (⟨S40, .i32⟩ : BufTy).Contents (Elt F)),
    StableHlo.binary main_v8 main_v14 main_v15 (cmpi .slt : (⟨S40, .i32⟩ : BufTy).Contents (Elt F) → (⟨S40, .i32⟩ : BufTy).Contents (Elt F) → (⟨S40, .i1⟩ : BufTy).Contents (Elt F)),
    StableHlo.nullary main_c_12 (constantI S_ 32 1038#32),
    StableHlo.unary main_c_12 main_v16 (broadcastInDim S40 ![] bcast_S_S40 : (⟨S_, .i32⟩ : BufTy).Contents (Elt F) → (⟨S40, .i32⟩ : BufTy).Contents (Elt F)),
    StableHlo.binary main_v8 main_v16 main_v17 (addi : (⟨S40, .i32⟩ : BufTy).Contents (Elt F) → (⟨S40, .i32⟩ : BufTy).Contents (Elt F) → (⟨S40, .i32⟩ : BufTy).Contents (Elt F)),
    StableHlo.ternary main_v15 main_v17 main_v8 main_v18 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.unary main_v13 main_v19 (broadcastInDim S40x1 ![0] bcast_S40_S40x1_0 : (⟨S40, .i32⟩ : BufTy).Contents (Elt F) → (⟨S40x1, .i32⟩ : BufTy).Contents (Elt F)),
    StableHlo.unary main_v18 main_v20 (broadcastInDim S40x1 ![0] bcast_S40_S40x1_0 : (⟨S40, .i32⟩ : BufTy).Contents (Elt F) → (⟨S40x1, .i32⟩ : BufTy).Contents (Elt F)),
    StableHlo.binary main_v19 main_v20 main_v21 ((fun a b => concatenate S40x2 1 [⟨S40x1, a⟩, ⟨S40x1, b⟩] concatenates_S40x1_S40x1_S40x2_d1) : (⟨S40x1, .i32⟩ : BufTy).Contents (Elt F) → (⟨S40x1, .i32⟩ : BufTy).Contents (Elt F) → (⟨S40x2, .i32⟩ : BufTy).Contents (Elt F)),
    StableHlo.binary main_v0 main_v21 main_v22 ((fun x i => Host.gather gather_S1038x1038_S40x2_S40x1024x1024_12_n_n_n_01_1_10241024 x i) : (⟨S1038x1038, .f32⟩ : BufTy).Contents (Elt F) → (⟨S40x2, .i32⟩ : BufTy).Contents (Elt F) → (⟨S40x1024x1024, .f32⟩ : BufTy).Contents (Elt F)),
    StableHlo.unary main_arg0 main_v23 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v23 main_v24 (broadcastInDim S40x1024x1024 ![0, 1, 2] bcast_S1x1024x1024_S40x1024x1024_0_1_2 : (⟨S1x1024x1024, .f32⟩ : BufTy).Contents (Elt F) → (⟨S40x1024x1024, .f32⟩ : BufTy).Contents (Elt F)),
    StableHlo.binary main_v24 main_v22 main_v25 (subf : (⟨S40x1024x1024, .f32⟩ : BufTy).Contents (Elt F) → (⟨S40x1024x1024, .f32⟩ : BufTy).Contents (Elt F) → (⟨S40x1024x1024, .f32⟩ : BufTy).Contents (Elt F)),
    StableHlo.unary main_v25 main_v26 (Host.absf : (⟨S40x1024x1024, .f32⟩ : BufTy).Contents (Elt F) → (⟨S40x1024x1024, .f32⟩ : BufTy).Contents (Elt F)),
    StableHlo.nullary main_cst_13 (constant S_ .f32 0x3F800000#32),
    StableHlo.unary main_cst_13 main_v27 (broadcastInDim S40x1024x1024 ![] bcast_S_S40x1024x1024 : (⟨S_, .f32⟩ : BufTy).Contents (Elt F) → (⟨S40x1024x1024, .f32⟩ : BufTy).Contents (Elt F)),
    StableHlo.binary main_v27 main_v26 main_v28 (subf : (⟨S40x1024x1024, .f32⟩ : BufTy).Contents (Elt F) → (⟨S40x1024x1024, .f32⟩ : BufTy).Contents (Elt F) → (⟨S40x1024x1024, .f32⟩ : BufTy).Contents (Elt F)),
    StableHlo.nullary main_cst_14 (constant S_ .f32 0xFF800000#32),
    StableHlo.binary main_v28 main_cst_14 main_v29 ((fun x v => Host.reduce FloatOps.maximumf x v reducesTo_S40x1024x1024_S1024x1024_d0 h_S_) : (⟨S40x1024x1024, .f32⟩ : BufTy).Contents (Elt F) → (⟨S_, .f32⟩ : BufTy).Contents (Elt F) → (⟨S1024x1024, .f32⟩ : BufTy).Contents (Elt F)),
    StableHlo.unary main_arg1 main_v30 (broadcastInDim S1x1 ![1] bcast_S1_S1x1_1 : (⟨S1, .f32⟩ : BufTy).Contents (Elt F) → (⟨S1x1, .f32⟩ : BufTy).Contents (Elt F)),
    StableHlo.unary main_v30 main_v31 (broadcastInDim S1024x1024 ![0, 1] bcast_S1x1_S1024x1024_0_1 : (⟨S1x1, .f32⟩ : BufTy).Contents (Elt F) → (⟨S1024x1024, .f32⟩ : BufTy).Contents (Elt F)),
    StableHlo.binary main_v31 main_v29 main_v32 (mulf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cA7_W : List (Ref sig .tc) := [main_cst, main_call0_v0, main_v0, main_v1, main_v2, main_c_7, main_v3, main_v4, main_v5, main_v6, main_c_8, main_v7, main_v8, main_c_9, main_v9, main_v10, main_c_10, main_v11, main_v12, main_v13, main_c_11, main_v14, main_v15, main_c_12, main_v16, main_v17, main_v18, main_v19, main_v20, main_v21, main_v22, main_v23, main_v24, main_v25, main_v26, main_cst_13, main_v27, main_v28, main_cst_14, main_v29, main_v30, main_v31, main_v32]

set_option maxRecDepth 8192 in
theorem cA7_writes : (cA7 : List (HloOp τ sig (Elt F))).Forall fun op => op.writes ⊆ (cA7_W.map (Proc.devRef (τ := τ) .tc)).toFinset := by
  simp only [cA7, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 51 to 94 of the line. -/
def cA11 : List (HloOp τ sig (Elt F)) :=
  [ StableHlo.nullary main_cst_15 (constant S_ .f32 0x4E6E6B28#32),
    StableHlo.TRef.unary (.of main_cst_15 : StableHlo.TRef sig ⟨S_, .f32⟩) main_call1.v0 id,
    StableHlo.TRef.binary (.of main_arg0 : StableHlo.TRef sig ⟨S1024x1024, .f32⟩) main_call1.v0 main_call1.v1 (fun x v => pad S1046x1046 ![11, 11] ![11, 11] ![0, 0] x v pads_S1024x1024_S1046x1046_11110_11110 h_S_),
    StableHlo.unary main_c_0 main_v34 ((extractStridedSlice S72x1 ![0, 0] · slices_S72x2_S72x1_0_0) : (⟨S72x2, .i32⟩ : BufTy).Contents (Elt F) → (⟨S72x1, .i32⟩ : BufTy).Contents (Elt F)),
    StableHlo.reshape main_v34 main_v35 rfl shapeCasts_S72x1_S72,
    StableHlo.nullary main_c_16 (constantI S_ 32 11#32),
    StableHlo.unary main_c_16 main_v36 (broadcastInDim S72 ![] bcast_S_S72 : (⟨S_, .i32⟩ : BufTy).Contents (Elt F) → (⟨S72, .i32⟩ : BufTy).Contents (Elt F)),
    StableHlo.binary main_v36 main_v35 main_v37 (addi : (⟨S72, .i32⟩ : BufTy).Contents (Elt F) → (⟨S72, .i32⟩ : BufTy).Contents (Elt F) → (⟨S72, .i32⟩ : BufTy).Contents (Elt F)),
    StableHlo.unary main_c_0 main_v38 ((extractStridedSlice S72x1 ![0, 1] · slices_S72x2_S72x1_0_1) : (⟨S72x2, .i32⟩ : BufTy).Contents (Elt F) → (⟨S72x1, .i32⟩ : BufTy).Contents (Elt F)),
    StableHlo.reshape main_v38 main_v39 rfl shapeCasts_S72x1_S72,
    StableHlo.nullary main_c_17 (constantI S_ 32 11#32),
    StableHlo.unary main_c_17 main_v40 (broadcastInDim S72 ![] bcast_S_S72 : (⟨S_, .i32⟩ : BufTy).Contents (Elt F) → (⟨S72, .i32⟩ : BufTy).Contents (Elt F)),
    StableHlo.binary main_v40 main_v39 main_v41 (addi : (⟨S72, .i32⟩ : BufTy).Contents (Elt F) → (⟨S72, .i32⟩ : BufTy).Contents (Elt F) → (⟨S72, .i32⟩ : BufTy).Contents (Elt F)),
    StableHlo.nullary main_c_18 (constantI S_ 32 0#32),
    StableHlo.unary main_c_18 main_v42 (broadcastInDim S72 ![] bcast_S_S72 : (⟨S_, .i32⟩ : BufTy).Contents (Elt F) → (⟨S72, .i32⟩ : BufTy).Contents (Elt F)),
    StableHlo.binary main_v37 main_v42 main_v43 (cmpi .slt : (⟨S72, .i32⟩ : BufTy).Contents (Elt F) → (⟨S72, .i32⟩ : BufTy).Contents (Elt F) → (⟨S72, .i1⟩ : BufTy).Contents (Elt F)),
    StableHlo.nullary main_c_19 (constantI S_ 32 1046#32),
    StableHlo.unary main_c_19 main_v44 (broadcastInDim S72 ![] bcast_S_S72 : (⟨S_, .i32⟩ : BufTy).Contents (Elt F) → (⟨S72, .i32⟩ : BufTy).Contents (Elt F)),
    StableHlo.binary main_v37 main_v44 main_v45 (addi : (⟨S72, .i32⟩ : BufTy).Contents (Elt F) → (⟨S72, .i32⟩ : BufTy).Contents (Elt F) → (⟨S72, .i32⟩ : BufTy).Contents (Elt F)),
    StableHlo.ternary main_v43 main_v45 main_v37 main_v46 (select : (⟨S72, .i1⟩ : BufTy).Contents (Elt F) → (⟨S72, .i32⟩ : BufTy).Contents (Elt F) → (⟨S72, .i32⟩ : BufTy).Contents (Elt F) → (⟨S72, .i32⟩ : BufTy).Contents (Elt F)),
    StableHlo.nullary main_c_20 (constantI S_ 32 0#32),
    StableHlo.unary main_c_20 main_v47 (broadcastInDim S72 ![] bcast_S_S72 : (⟨S_, .i32⟩ : BufTy).Contents (Elt F) → (⟨S72, .i32⟩ : BufTy).Contents (Elt F)),
    StableHlo.binary main_v41 main_v47 main_v48 (cmpi .slt : (⟨S72, .i32⟩ : BufTy).Contents (Elt F) → (⟨S72, .i32⟩ : BufTy).Contents (Elt F) → (⟨S72, .i1⟩ : BufTy).Contents (Elt F)),
    StableHlo.nullary main_c_21 (constantI S_ 32 1046#32),
    StableHlo.unary main_c_21 main_v49 (broadcastInDim S72 ![] bcast_S_S72 : (⟨S_, .i32⟩ : BufTy).Contents (Elt F) → (⟨S72, .i32⟩ : BufTy).Contents (Elt F)),
    StableHlo.binary main_v41 main_v49 main_v50 (addi : (⟨S72, .i32⟩ : BufTy).Contents (Elt F) → (⟨S72, .i32⟩ : BufTy).Contents (Elt F) → (⟨S72, .i32⟩ : BufTy).Contents (Elt F)),
    StableHlo.ternary main_v48 main_v50 main_v41 main_v51 (select : (⟨S72, .i1⟩ : BufTy).Contents (Elt F) → (⟨S72, .i32⟩ : BufTy).Contents (Elt F) → (⟨S72, .i32⟩ : BufTy).Contents (Elt F) → (⟨S72, .i32⟩ : BufTy).Contents (Elt F)),
    StableHlo.unary main_v46 main_v52 (broadcastInDim S72x1 ![0] bcast_S72_S72x1_0 : (⟨S72, .i32⟩ : BufTy).Contents (Elt F) → (⟨S72x1, .i32⟩ : BufTy).Contents (Elt F)),
    StableHlo.unary main_v51 main_v53 (broadcastInDim S72x1 ![0] bcast_S72_S72x1_0 : (⟨S72, .i32⟩ : BufTy).Contents (Elt F) → (⟨S72x1, .i32⟩ : BufTy).Contents (Elt F)),
    StableHlo.binary main_v52 main_v53 main_v54 ((fun a b => concatenate S72x2 1 [⟨S72x1, a⟩, ⟨S72x1, b⟩] concatenates_S72x1_S72x1_S72x2_d1) : (⟨S72x1, .i32⟩ : BufTy).Contents (Elt F) → (⟨S72x1, .i32⟩ : BufTy).Contents (Elt F) → (⟨S72x2, .i32⟩ : BufTy).Contents (Elt F)),
    StableHlo.binary main_v33 main_v54 main_v55 ((fun x i => Host.gather gather_S1046x1046_S72x2_S72x1024x1024_12_n_n_n_01_1_10241024 x i) : (⟨S1046x1046, .f32⟩ : BufTy).Contents (Elt F) → (⟨S72x2, .i32⟩ : BufTy).Contents (Elt F) → (⟨S72x1024x1024, .f32⟩ : BufTy).Contents (Elt F)),
    StableHlo.unary main_arg0 main_v56 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v56 main_v57 (broadcastInDim S72x1024x1024 ![0, 1, 2] bcast_S1x1024x1024_S72x1024x1024_0_1_2 : (⟨S1x1024x1024, .f32⟩ : BufTy).Contents (Elt F) → (⟨S72x1024x1024, .f32⟩ : BufTy).Contents (Elt F)),
    StableHlo.binary main_v57 main_v55 main_v58 (subf : (⟨S72x1024x1024, .f32⟩ : BufTy).Contents (Elt F) → (⟨S72x1024x1024, .f32⟩ : BufTy).Contents (Elt F) → (⟨S72x1024x1024, .f32⟩ : BufTy).Contents (Elt F)),
    StableHlo.unary main_v58 main_v59 (Host.absf : (⟨S72x1024x1024, .f32⟩ : BufTy).Contents (Elt F) → (⟨S72x1024x1024, .f32⟩ : BufTy).Contents (Elt F)),
    StableHlo.nullary main_cst_22 (constant S_ .f32 0x3F800000#32),
    StableHlo.unary main_cst_22 main_v60 (broadcastInDim S72x1024x1024 ![] bcast_S_S72x1024x1024 : (⟨S_, .f32⟩ : BufTy).Contents (Elt F) → (⟨S72x1024x1024, .f32⟩ : BufTy).Contents (Elt F)),
    StableHlo.binary main_v60 main_v59 main_v61 (subf : (⟨S72x1024x1024, .f32⟩ : BufTy).Contents (Elt F) → (⟨S72x1024x1024, .f32⟩ : BufTy).Contents (Elt F) → (⟨S72x1024x1024, .f32⟩ : BufTy).Contents (Elt F)),
    StableHlo.nullary main_cst_23 (constant S_ .f32 0xFF800000#32),
    StableHlo.binary main_v61 main_cst_23 main_v62 ((fun x v => Host.reduce FloatOps.maximumf x v reducesTo_S72x1024x1024_S1024x1024_d0 h_S_) : (⟨S72x1024x1024, .f32⟩ : BufTy).Contents (Elt F) → (⟨S_, .f32⟩ : BufTy).Contents (Elt F) → (⟨S1024x1024, .f32⟩ : BufTy).Contents (Elt F)),
    StableHlo.unary main_arg2 main_v63 (broadcastInDim S1x1 ![1] bcast_S1_S1x1_1 : (⟨S1, .f32⟩ : BufTy).Contents (Elt F) → (⟨S1x1, .f32⟩ : BufTy).Contents (Elt F)),
    StableHlo.unary main_v63 main_v64 (broadcastInDim S1024x1024 ![0, 1] bcast_S1x1_S1024x1024_0_1 : (⟨S1x1, .f32⟩ : BufTy).Contents (Elt F) → (⟨S1024x1024, .f32⟩ : BufTy).Contents (Elt F)),
    StableHlo.binary main_v64 main_v62 main_v65 (mulf : (⟨S1024x1024, .f32⟩ : BufTy).Contents (Elt F) → (⟨S1024x1024, .f32⟩ : BufTy).Contents (Elt F) → (⟨S1024x1024, .f32⟩ : BufTy).Contents (Elt F)),
    StableHlo.binary main_v32 main_v65 main_v66 (addf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cA11_W : List (Ref sig .tc) := [main_cst_15, main_call1_v0, main_v33, main_v34, main_v35, main_c_16, main_v36, main_v37, main_v38, main_v39, main_c_17, main_v40, main_v41, main_c_18, main_v42, main_v43, main_c_19, main_v44, main_v45, main_v46, main_c_20, main_v47, main_v48, main_c_21, main_v49, main_v50, main_v51, main_v52, main_v53, main_v54, main_v55, main_v56, main_v57, main_v58, main_v59, main_cst_22, main_v60, main_v61, main_cst_23, main_v62, main_v63, main_v64, main_v65, main_v66]

set_option maxRecDepth 8192 in
theorem cA11_writes : (cA11 : List (HloOp τ sig (Elt F))).Forall fun op => op.writes ⊆ (cA11_W.map (Proc.devRef (τ := τ) .tc)).toFinset := by
  simp only [cA11, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 95 to 138 of the line. -/
def cA15 : List (HloOp τ sig (Elt F)) :=
  [ StableHlo.nullary main_cst_24 (constant S_ .f32 0x4E6E6B28#32),
    StableHlo.TRef.unary (.of main_cst_24 : StableHlo.TRef sig ⟨S_, .f32⟩) main_call2.v0 id,
    StableHlo.TRef.binary (.of main_arg0 : StableHlo.TRef sig ⟨S1024x1024, .f32⟩) main_call2.v0 main_call2.v1 (fun x v => pad S1054x1054 ![15, 15] ![15, 15] ![0, 0] x v pads_S1024x1024_S1054x1054_15150_15150 h_S_),
    StableHlo.unary main_c_1 main_v68 ((extractStridedSlice S84x1 ![0, 0] · slices_S84x2_S84x1_0_0) : (⟨S84x2, .i32⟩ : BufTy).Contents (Elt F) → (⟨S84x1, .i32⟩ : BufTy).Contents (Elt F)),
    StableHlo.reshape main_v68 main_v69 rfl shapeCasts_S84x1_S84,
    StableHlo.nullary main_c_25 (constantI S_ 32 15#32),
    StableHlo.unary main_c_25 main_v70 (broadcastInDim S84 ![] bcast_S_S84 : (⟨S_, .i32⟩ : BufTy).Contents (Elt F) → (⟨S84, .i32⟩ : BufTy).Contents (Elt F)),
    StableHlo.binary main_v70 main_v69 main_v71 (addi : (⟨S84, .i32⟩ : BufTy).Contents (Elt F) → (⟨S84, .i32⟩ : BufTy).Contents (Elt F) → (⟨S84, .i32⟩ : BufTy).Contents (Elt F)),
    StableHlo.unary main_c_1 main_v72 ((extractStridedSlice S84x1 ![0, 1] · slices_S84x2_S84x1_0_1) : (⟨S84x2, .i32⟩ : BufTy).Contents (Elt F) → (⟨S84x1, .i32⟩ : BufTy).Contents (Elt F)),
    StableHlo.reshape main_v72 main_v73 rfl shapeCasts_S84x1_S84,
    StableHlo.nullary main_c_26 (constantI S_ 32 15#32),
    StableHlo.unary main_c_26 main_v74 (broadcastInDim S84 ![] bcast_S_S84 : (⟨S_, .i32⟩ : BufTy).Contents (Elt F) → (⟨S84, .i32⟩ : BufTy).Contents (Elt F)),
    StableHlo.binary main_v74 main_v73 main_v75 (addi : (⟨S84, .i32⟩ : BufTy).Contents (Elt F) → (⟨S84, .i32⟩ : BufTy).Contents (Elt F) → (⟨S84, .i32⟩ : BufTy).Contents (Elt F)),
    StableHlo.nullary main_c_27 (constantI S_ 32 0#32),
    StableHlo.unary main_c_27 main_v76 (broadcastInDim S84 ![] bcast_S_S84 : (⟨S_, .i32⟩ : BufTy).Contents (Elt F) → (⟨S84, .i32⟩ : BufTy).Contents (Elt F)),
    StableHlo.binary main_v71 main_v76 main_v77 (cmpi .slt : (⟨S84, .i32⟩ : BufTy).Contents (Elt F) → (⟨S84, .i32⟩ : BufTy).Contents (Elt F) → (⟨S84, .i1⟩ : BufTy).Contents (Elt F)),
    StableHlo.nullary main_c_28 (constantI S_ 32 1054#32),
    StableHlo.unary main_c_28 main_v78 (broadcastInDim S84 ![] bcast_S_S84 : (⟨S_, .i32⟩ : BufTy).Contents (Elt F) → (⟨S84, .i32⟩ : BufTy).Contents (Elt F)),
    StableHlo.binary main_v71 main_v78 main_v79 (addi : (⟨S84, .i32⟩ : BufTy).Contents (Elt F) → (⟨S84, .i32⟩ : BufTy).Contents (Elt F) → (⟨S84, .i32⟩ : BufTy).Contents (Elt F)),
    StableHlo.ternary main_v77 main_v79 main_v71 main_v80 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.nullary main_c_29 (constantI S_ 32 0#32),
    StableHlo.unary main_c_29 main_v81 (broadcastInDim S84 ![] bcast_S_S84 : (⟨S_, .i32⟩ : BufTy).Contents (Elt F) → (⟨S84, .i32⟩ : BufTy).Contents (Elt F)),
    StableHlo.binary main_v75 main_v81 main_v82 (cmpi .slt : (⟨S84, .i32⟩ : BufTy).Contents (Elt F) → (⟨S84, .i32⟩ : BufTy).Contents (Elt F) → (⟨S84, .i1⟩ : BufTy).Contents (Elt F)),
    StableHlo.nullary main_c_30 (constantI S_ 32 1054#32),
    StableHlo.unary main_c_30 main_v83 (broadcastInDim S84 ![] bcast_S_S84 : (⟨S_, .i32⟩ : BufTy).Contents (Elt F) → (⟨S84, .i32⟩ : BufTy).Contents (Elt F)),
    StableHlo.binary main_v75 main_v83 main_v84 (addi : (⟨S84, .i32⟩ : BufTy).Contents (Elt F) → (⟨S84, .i32⟩ : BufTy).Contents (Elt F) → (⟨S84, .i32⟩ : BufTy).Contents (Elt F)),
    StableHlo.ternary main_v82 main_v84 main_v75 main_v85 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.unary main_v80 main_v86 (broadcastInDim S84x1 ![0] bcast_S84_S84x1_0 : (⟨S84, .i32⟩ : BufTy).Contents (Elt F) → (⟨S84x1, .i32⟩ : BufTy).Contents (Elt F)),
    StableHlo.unary main_v85 main_v87 (broadcastInDim S84x1 ![0] bcast_S84_S84x1_0 : (⟨S84, .i32⟩ : BufTy).Contents (Elt F) → (⟨S84x1, .i32⟩ : BufTy).Contents (Elt F)),
    StableHlo.binary main_v86 main_v87 main_v88 ((fun a b => concatenate S84x2 1 [⟨S84x1, a⟩, ⟨S84x1, b⟩] concatenates_S84x1_S84x1_S84x2_d1) : (⟨S84x1, .i32⟩ : BufTy).Contents (Elt F) → (⟨S84x1, .i32⟩ : BufTy).Contents (Elt F) → (⟨S84x2, .i32⟩ : BufTy).Contents (Elt F)),
    StableHlo.binary main_v67 main_v88 main_v89 ((fun x i => Host.gather gather_S1054x1054_S84x2_S84x1024x1024_12_n_n_n_01_1_10241024 x i) : (⟨S1054x1054, .f32⟩ : BufTy).Contents (Elt F) → (⟨S84x2, .i32⟩ : BufTy).Contents (Elt F) → (⟨S84x1024x1024, .f32⟩ : BufTy).Contents (Elt F)),
    StableHlo.unary main_arg0 main_v90 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v90 main_v91 (broadcastInDim S84x1024x1024 ![0, 1, 2] bcast_S1x1024x1024_S84x1024x1024_0_1_2 : (⟨S1x1024x1024, .f32⟩ : BufTy).Contents (Elt F) → (⟨S84x1024x1024, .f32⟩ : BufTy).Contents (Elt F)),
    StableHlo.binary main_v91 main_v89 main_v92 (subf : (⟨S84x1024x1024, .f32⟩ : BufTy).Contents (Elt F) → (⟨S84x1024x1024, .f32⟩ : BufTy).Contents (Elt F) → (⟨S84x1024x1024, .f32⟩ : BufTy).Contents (Elt F)),
    StableHlo.unary main_v92 main_v93 (Host.absf : (⟨S84x1024x1024, .f32⟩ : BufTy).Contents (Elt F) → (⟨S84x1024x1024, .f32⟩ : BufTy).Contents (Elt F)),
    StableHlo.nullary main_cst_31 (constant S_ .f32 0x3F800000#32),
    StableHlo.unary main_cst_31 main_v94 (broadcastInDim S84x1024x1024 ![] bcast_S_S84x1024x1024 : (⟨S_, .f32⟩ : BufTy).Contents (Elt F) → (⟨S84x1024x1024, .f32⟩ : BufTy).Contents (Elt F)),
    StableHlo.binary main_v94 main_v93 main_v95 (subf : (⟨S84x1024x1024, .f32⟩ : BufTy).Contents (Elt F) → (⟨S84x1024x1024, .f32⟩ : BufTy).Contents (Elt F) → (⟨S84x1024x1024, .f32⟩ : BufTy).Contents (Elt F)),
    StableHlo.nullary main_cst_32 (constant S_ .f32 0xFF800000#32),
    StableHlo.binary main_v95 main_cst_32 main_v96 ((fun x v => Host.reduce FloatOps.maximumf x v reducesTo_S84x1024x1024_S1024x1024_d0 h_S_) : (⟨S84x1024x1024, .f32⟩ : BufTy).Contents (Elt F) → (⟨S_, .f32⟩ : BufTy).Contents (Elt F) → (⟨S1024x1024, .f32⟩ : BufTy).Contents (Elt F)),
    StableHlo.unary main_arg3 main_v97 (broadcastInDim S1x1 ![1] bcast_S1_S1x1_1 : (⟨S1, .f32⟩ : BufTy).Contents (Elt F) → (⟨S1x1, .f32⟩ : BufTy).Contents (Elt F)),
    StableHlo.unary main_v97 main_v98 (broadcastInDim S1024x1024 ![0, 1] bcast_S1x1_S1024x1024_0_1 : (⟨S1x1, .f32⟩ : BufTy).Contents (Elt F) → (⟨S1024x1024, .f32⟩ : BufTy).Contents (Elt F)),
    StableHlo.binary main_v98 main_v96 main_v99 (mulf : (⟨S1024x1024, .f32⟩ : BufTy).Contents (Elt F) → (⟨S1024x1024, .f32⟩ : BufTy).Contents (Elt F) → (⟨S1024x1024, .f32⟩ : BufTy).Contents (Elt F)),
    StableHlo.binary main_v66 main_v99 main_v100 (addf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cA15_W : List (Ref sig .tc) := [main_cst_24, main_call2_v0, main_v67, main_v68, main_v69, main_c_25, main_v70, main_v71, main_v72, main_v73, main_c_26, main_v74, main_v75, main_c_27, main_v76, main_v77, main_c_28, main_v78, main_v79, main_v80, main_c_29, main_v81, main_v82, main_c_30, main_v83, main_v84, main_v85, main_v86, main_v87, main_v88, main_v89, main_v90, main_v91, main_v92, main_v93, main_cst_31, main_v94, main_v95, main_cst_32, main_v96, main_v97, main_v98, main_v99, main_v100]

set_option maxRecDepth 8192 in
theorem cA15_writes : (cA15 : List (HloOp τ sig (Elt F))).Forall fun op => op.writes ⊆ (cA15_W.map (Proc.devRef (τ := τ) .tc)).toFinset := by
  simp only [cA15, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 139 to 182 of the line. -/
def cA19 : List (HloOp τ sig (Elt F)) :=
  [ StableHlo.nullary main_cst_33 (constant S_ .f32 0x4E6E6B28#32),
    StableHlo.TRef.unary (.of main_cst_33 : StableHlo.TRef sig ⟨S_, .f32⟩) main_call3.v0 id,
    StableHlo.TRef.binary (.of main_arg0 : StableHlo.TRef sig ⟨S1024x1024, .f32⟩) main_call3.v0 main_call3.v1 (fun x v => pad S1062x1062 ![19, 19] ![19, 19] ![0, 0] x v pads_S1024x1024_S1062x1062_19190_19190 h_S_),
    StableHlo.unary main_c_2 main_v102 ((extractStridedSlice S116x1 ![0, 0] · slices_S116x2_S116x1_0_0) : (⟨S116x2, .i32⟩ : BufTy).Contents (Elt F) → (⟨S116x1, .i32⟩ : BufTy).Contents (Elt F)),
    StableHlo.reshape main_v102 main_v103 rfl shapeCasts_S116x1_S116,
    StableHlo.nullary main_c_34 (constantI S_ 32 19#32),
    StableHlo.unary main_c_34 main_v104 (broadcastInDim S116 ![] bcast_S_S116 : (⟨S_, .i32⟩ : BufTy).Contents (Elt F) → (⟨S116, .i32⟩ : BufTy).Contents (Elt F)),
    StableHlo.binary main_v104 main_v103 main_v105 (addi : (⟨S116, .i32⟩ : BufTy).Contents (Elt F) → (⟨S116, .i32⟩ : BufTy).Contents (Elt F) → (⟨S116, .i32⟩ : BufTy).Contents (Elt F)),
    StableHlo.unary main_c_2 main_v106 ((extractStridedSlice S116x1 ![0, 1] · slices_S116x2_S116x1_0_1) : (⟨S116x2, .i32⟩ : BufTy).Contents (Elt F) → (⟨S116x1, .i32⟩ : BufTy).Contents (Elt F)),
    StableHlo.reshape main_v106 main_v107 rfl shapeCasts_S116x1_S116,
    StableHlo.nullary main_c_35 (constantI S_ 32 19#32),
    StableHlo.unary main_c_35 main_v108 (broadcastInDim S116 ![] bcast_S_S116 : (⟨S_, .i32⟩ : BufTy).Contents (Elt F) → (⟨S116, .i32⟩ : BufTy).Contents (Elt F)),
    StableHlo.binary main_v108 main_v107 main_v109 (addi : (⟨S116, .i32⟩ : BufTy).Contents (Elt F) → (⟨S116, .i32⟩ : BufTy).Contents (Elt F) → (⟨S116, .i32⟩ : BufTy).Contents (Elt F)),
    StableHlo.nullary main_c_36 (constantI S_ 32 0#32),
    StableHlo.unary main_c_36 main_v110 (broadcastInDim S116 ![] bcast_S_S116 : (⟨S_, .i32⟩ : BufTy).Contents (Elt F) → (⟨S116, .i32⟩ : BufTy).Contents (Elt F)),
    StableHlo.binary main_v105 main_v110 main_v111 (cmpi .slt : (⟨S116, .i32⟩ : BufTy).Contents (Elt F) → (⟨S116, .i32⟩ : BufTy).Contents (Elt F) → (⟨S116, .i1⟩ : BufTy).Contents (Elt F)),
    StableHlo.nullary main_c_37 (constantI S_ 32 1062#32),
    StableHlo.unary main_c_37 main_v112 (broadcastInDim S116 ![] bcast_S_S116 : (⟨S_, .i32⟩ : BufTy).Contents (Elt F) → (⟨S116, .i32⟩ : BufTy).Contents (Elt F)),
    StableHlo.binary main_v105 main_v112 main_v113 (addi : (⟨S116, .i32⟩ : BufTy).Contents (Elt F) → (⟨S116, .i32⟩ : BufTy).Contents (Elt F) → (⟨S116, .i32⟩ : BufTy).Contents (Elt F)),
    StableHlo.ternary main_v111 main_v113 main_v105 main_v114 (select : (⟨S116, .i1⟩ : BufTy).Contents (Elt F) → (⟨S116, .i32⟩ : BufTy).Contents (Elt F) → (⟨S116, .i32⟩ : BufTy).Contents (Elt F) → (⟨S116, .i32⟩ : BufTy).Contents (Elt F)),
    StableHlo.nullary main_c_38 (constantI S_ 32 0#32),
    StableHlo.unary main_c_38 main_v115 (broadcastInDim S116 ![] bcast_S_S116 : (⟨S_, .i32⟩ : BufTy).Contents (Elt F) → (⟨S116, .i32⟩ : BufTy).Contents (Elt F)),
    StableHlo.binary main_v109 main_v115 main_v116 (cmpi .slt : (⟨S116, .i32⟩ : BufTy).Contents (Elt F) → (⟨S116, .i32⟩ : BufTy).Contents (Elt F) → (⟨S116, .i1⟩ : BufTy).Contents (Elt F)),
    StableHlo.nullary main_c_39 (constantI S_ 32 1062#32),
    StableHlo.unary main_c_39 main_v117 (broadcastInDim S116 ![] bcast_S_S116 : (⟨S_, .i32⟩ : BufTy).Contents (Elt F) → (⟨S116, .i32⟩ : BufTy).Contents (Elt F)),
    StableHlo.binary main_v109 main_v117 main_v118 (addi : (⟨S116, .i32⟩ : BufTy).Contents (Elt F) → (⟨S116, .i32⟩ : BufTy).Contents (Elt F) → (⟨S116, .i32⟩ : BufTy).Contents (Elt F)),
    StableHlo.ternary main_v116 main_v118 main_v109 main_v119 (select : (⟨S116, .i1⟩ : BufTy).Contents (Elt F) → (⟨S116, .i32⟩ : BufTy).Contents (Elt F) → (⟨S116, .i32⟩ : BufTy).Contents (Elt F) → (⟨S116, .i32⟩ : BufTy).Contents (Elt F)),
    StableHlo.unary main_v114 main_v120 (broadcastInDim S116x1 ![0] bcast_S116_S116x1_0 : (⟨S116, .i32⟩ : BufTy).Contents (Elt F) → (⟨S116x1, .i32⟩ : BufTy).Contents (Elt F)),
    StableHlo.unary main_v119 main_v121 (broadcastInDim S116x1 ![0] bcast_S116_S116x1_0 : (⟨S116, .i32⟩ : BufTy).Contents (Elt F) → (⟨S116x1, .i32⟩ : BufTy).Contents (Elt F)),
    StableHlo.binary main_v120 main_v121 main_v122 ((fun a b => concatenate S116x2 1 [⟨S116x1, a⟩, ⟨S116x1, b⟩] concatenates_S116x1_S116x1_S116x2_d1) : (⟨S116x1, .i32⟩ : BufTy).Contents (Elt F) → (⟨S116x1, .i32⟩ : BufTy).Contents (Elt F) → (⟨S116x2, .i32⟩ : BufTy).Contents (Elt F)),
    StableHlo.binary main_v101 main_v122 main_v123 ((fun x i => Host.gather gather_S1062x1062_S116x2_S116x1024x1024_12_n_n_n_01_1_10241024 x i) : (⟨S1062x1062, .f32⟩ : BufTy).Contents (Elt F) → (⟨S116x2, .i32⟩ : BufTy).Contents (Elt F) → (⟨S116x1024x1024, .f32⟩ : BufTy).Contents (Elt F)),
    StableHlo.unary main_arg0 main_v124 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v124 main_v125 (broadcastInDim S116x1024x1024 ![0, 1, 2] bcast_S1x1024x1024_S116x1024x1024_0_1_2 : (⟨S1x1024x1024, .f32⟩ : BufTy).Contents (Elt F) → (⟨S116x1024x1024, .f32⟩ : BufTy).Contents (Elt F)),
    StableHlo.binary main_v125 main_v123 main_v126 (subf : (⟨S116x1024x1024, .f32⟩ : BufTy).Contents (Elt F) → (⟨S116x1024x1024, .f32⟩ : BufTy).Contents (Elt F) → (⟨S116x1024x1024, .f32⟩ : BufTy).Contents (Elt F)),
    StableHlo.unary main_v126 main_v127 (Host.absf : (⟨S116x1024x1024, .f32⟩ : BufTy).Contents (Elt F) → (⟨S116x1024x1024, .f32⟩ : BufTy).Contents (Elt F)),
    StableHlo.nullary main_cst_40 (constant S_ .f32 0x3F800000#32),
    StableHlo.unary main_cst_40 main_v128 (broadcastInDim S116x1024x1024 ![] bcast_S_S116x1024x1024 : (⟨S_, .f32⟩ : BufTy).Contents (Elt F) → (⟨S116x1024x1024, .f32⟩ : BufTy).Contents (Elt F)),
    StableHlo.binary main_v128 main_v127 main_v129 (subf : (⟨S116x1024x1024, .f32⟩ : BufTy).Contents (Elt F) → (⟨S116x1024x1024, .f32⟩ : BufTy).Contents (Elt F) → (⟨S116x1024x1024, .f32⟩ : BufTy).Contents (Elt F)),
    StableHlo.nullary main_cst_41 (constant S_ .f32 0xFF800000#32),
    StableHlo.binary main_v129 main_cst_41 main_v130 ((fun x v => Host.reduce FloatOps.maximumf x v reducesTo_S116x1024x1024_S1024x1024_d0 h_S_) : (⟨S116x1024x1024, .f32⟩ : BufTy).Contents (Elt F) → (⟨S_, .f32⟩ : BufTy).Contents (Elt F) → (⟨S1024x1024, .f32⟩ : BufTy).Contents (Elt F)),
    StableHlo.unary main_arg4 main_v131 (broadcastInDim S1x1 ![1] bcast_S1_S1x1_1 : (⟨S1, .f32⟩ : BufTy).Contents (Elt F) → (⟨S1x1, .f32⟩ : BufTy).Contents (Elt F)),
    StableHlo.unary main_v131 main_v132 (broadcastInDim S1024x1024 ![0, 1] bcast_S1x1_S1024x1024_0_1 : (⟨S1x1, .f32⟩ : BufTy).Contents (Elt F) → (⟨S1024x1024, .f32⟩ : BufTy).Contents (Elt F)),
    StableHlo.binary main_v132 main_v130 main_v133 (mulf : (⟨S1024x1024, .f32⟩ : BufTy).Contents (Elt F) → (⟨S1024x1024, .f32⟩ : BufTy).Contents (Elt F) → (⟨S1024x1024, .f32⟩ : BufTy).Contents (Elt F)),
    StableHlo.binary main_v100 main_v133 main_v134 (addf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cA19_W : List (Ref sig .tc) := [main_cst_33, main_call3_v0, main_v101, main_v102, main_v103, main_c_34, main_v104, main_v105, main_v106, main_v107, main_c_35, main_v108, main_v109, main_c_36, main_v110, main_v111, main_c_37, main_v112, main_v113, main_v114, main_c_38, main_v115, main_v116, main_c_39, main_v117, main_v118, main_v119, main_v120, main_v121, main_v122, main_v123, main_v124, main_v125, main_v126, main_v127, main_cst_40, main_v128, main_v129, main_cst_41, main_v130, main_v131, main_v132, main_v133, main_v134]

set_option maxRecDepth 8192 in
theorem cA19_writes : (cA19 : List (HloOp τ sig (Elt F))).Forall fun op => op.writes ⊆ (cA19_W.map (Proc.devRef (τ := τ) .tc)).toFinset := by
  simp only [cA19, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 183 to 188 of the line. -/
def cAfin : List (HloOp τ sig (Elt F)) :=
  [ StableHlo.binary main_arg1 main_arg2 main_v135 (addf : (⟨S1, .f32⟩ : BufTy).Contents (Elt F) → (⟨S1, .f32⟩ : BufTy).Contents (Elt F) → (⟨S1, .f32⟩ : BufTy).Contents (Elt F)),
    StableHlo.binary main_v135 main_arg3 main_v136 (addf : (⟨S1, .f32⟩ : BufTy).Contents (Elt F) → (⟨S1, .f32⟩ : BufTy).Contents (Elt F) → (⟨S1, .f32⟩ : BufTy).Contents (Elt F)),
    StableHlo.binary main_v136 main_arg4 main_v137 (addf : (⟨S1, .f32⟩ : BufTy).Contents (Elt F) → (⟨S1, .f32⟩ : BufTy).Contents (Elt F) → (⟨S1, .f32⟩ : BufTy).Contents (Elt F)),
    StableHlo.unary main_v137 main_v138 (broadcastInDim S1x1 ![1] bcast_S1_S1x1_1 : (⟨S1, .f32⟩ : BufTy).Contents (Elt F) → (⟨S1x1, .f32⟩ : BufTy).Contents (Elt F)),
    StableHlo.unary main_v138 main_v139 (broadcastInDim S1024x1024 ![0, 1] bcast_S1x1_S1024x1024_0_1 : (⟨S1x1, .f32⟩ : BufTy).Contents (Elt F) → (⟨S1024x1024, .f32⟩ : BufTy).Contents (Elt F)),
    StableHlo.binary main_v134 main_v139 main_v140 (Host.divf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cAfin_W : List (Ref sig .tc) := [main_v135, main_v136, main_v137, main_v138, main_v139, main_v140]

set_option maxRecDepth 8192 in
theorem cAfin_writes : (cAfin : List (HloOp τ sig (Elt F))).Forall fun op => op.writes ⊆ (cAfin_W.map (Proc.devRef (τ := τ) .tc)).toFinset := by
  simp only [cAfin, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 189 to 231 of the line. -/
def cB7 : List (HloOp τ sig (Elt F)) :=
  [ StableHlo.nullary main_cst_42 (constant S_ .f32 0x4E6E6B28#32),
    StableHlo.TRef.unary (.of main_cst_42 : StableHlo.TRef sig ⟨S_, .f32⟩) main_call4.v0 id,
    StableHlo.TRef.binary (.of main_v140 : StableHlo.TRef sig ⟨S1024x1024, .f32⟩) main_call4.v0 main_call4.v1 (fun x v => pad S1038x1038 ![7, 7] ![7, 7] ![0, 0] x v pads_S1024x1024_S1038x1038_770_770 h_S_),
    StableHlo.unary main_c_3 main_v142 ((extractStridedSlice S40x1 ![0, 0] · slices_S40x2_S40x1_0_0) : (⟨S40x2, .i32⟩ : BufTy).Contents (Elt F) → (⟨S40x1, .i32⟩ : BufTy).Contents (Elt F)),
    StableHlo.reshape main_v142 main_v143 rfl shapeCasts_S40x1_S40,
    StableHlo.nullary main_c_43 (constantI S_ 32 7#32),
    StableHlo.unary main_c_43 main_v144 (broadcastInDim S40 ![] bcast_S_S40 : (⟨S_, .i32⟩ : BufTy).Contents (Elt F) → (⟨S40, .i32⟩ : BufTy).Contents (Elt F)),
    StableHlo.binary main_v144 main_v143 main_v145 (addi : (⟨S40, .i32⟩ : BufTy).Contents (Elt F) → (⟨S40, .i32⟩ : BufTy).Contents (Elt F) → (⟨S40, .i32⟩ : BufTy).Contents (Elt F)),
    StableHlo.unary main_c_3 main_v146 ((extractStridedSlice S40x1 ![0, 1] · slices_S40x2_S40x1_0_1) : (⟨S40x2, .i32⟩ : BufTy).Contents (Elt F) → (⟨S40x1, .i32⟩ : BufTy).Contents (Elt F)),
    StableHlo.reshape main_v146 main_v147 rfl shapeCasts_S40x1_S40,
    StableHlo.nullary main_c_44 (constantI S_ 32 7#32),
    StableHlo.unary main_c_44 main_v148 (broadcastInDim S40 ![] bcast_S_S40 : (⟨S_, .i32⟩ : BufTy).Contents (Elt F) → (⟨S40, .i32⟩ : BufTy).Contents (Elt F)),
    StableHlo.binary main_v148 main_v147 main_v149 (addi : (⟨S40, .i32⟩ : BufTy).Contents (Elt F) → (⟨S40, .i32⟩ : BufTy).Contents (Elt F) → (⟨S40, .i32⟩ : BufTy).Contents (Elt F)),
    StableHlo.nullary main_c_45 (constantI S_ 32 0#32),
    StableHlo.unary main_c_45 main_v150 (broadcastInDim S40 ![] bcast_S_S40 : (⟨S_, .i32⟩ : BufTy).Contents (Elt F) → (⟨S40, .i32⟩ : BufTy).Contents (Elt F)),
    StableHlo.binary main_v145 main_v150 main_v151 (cmpi .slt : (⟨S40, .i32⟩ : BufTy).Contents (Elt F) → (⟨S40, .i32⟩ : BufTy).Contents (Elt F) → (⟨S40, .i1⟩ : BufTy).Contents (Elt F)),
    StableHlo.nullary main_c_46 (constantI S_ 32 1038#32),
    StableHlo.unary main_c_46 main_v152 (broadcastInDim S40 ![] bcast_S_S40 : (⟨S_, .i32⟩ : BufTy).Contents (Elt F) → (⟨S40, .i32⟩ : BufTy).Contents (Elt F)),
    StableHlo.binary main_v145 main_v152 main_v153 (addi : (⟨S40, .i32⟩ : BufTy).Contents (Elt F) → (⟨S40, .i32⟩ : BufTy).Contents (Elt F) → (⟨S40, .i32⟩ : BufTy).Contents (Elt F)),
    StableHlo.ternary main_v151 main_v153 main_v145 main_v154 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.nullary main_c_47 (constantI S_ 32 0#32),
    StableHlo.unary main_c_47 main_v155 (broadcastInDim S40 ![] bcast_S_S40 : (⟨S_, .i32⟩ : BufTy).Contents (Elt F) → (⟨S40, .i32⟩ : BufTy).Contents (Elt F)),
    StableHlo.binary main_v149 main_v155 main_v156 (cmpi .slt : (⟨S40, .i32⟩ : BufTy).Contents (Elt F) → (⟨S40, .i32⟩ : BufTy).Contents (Elt F) → (⟨S40, .i1⟩ : BufTy).Contents (Elt F)),
    StableHlo.nullary main_c_48 (constantI S_ 32 1038#32),
    StableHlo.unary main_c_48 main_v157 (broadcastInDim S40 ![] bcast_S_S40 : (⟨S_, .i32⟩ : BufTy).Contents (Elt F) → (⟨S40, .i32⟩ : BufTy).Contents (Elt F)),
    StableHlo.binary main_v149 main_v157 main_v158 (addi : (⟨S40, .i32⟩ : BufTy).Contents (Elt F) → (⟨S40, .i32⟩ : BufTy).Contents (Elt F) → (⟨S40, .i32⟩ : BufTy).Contents (Elt F)),
    StableHlo.ternary main_v156 main_v158 main_v149 main_v159 (select : (⟨S40, .i1⟩ : BufTy).Contents (Elt F) → (⟨S40, .i32⟩ : BufTy).Contents (Elt F) → (⟨S40, .i32⟩ : BufTy).Contents (Elt F) → (⟨S40, .i32⟩ : BufTy).Contents (Elt F)),
    StableHlo.unary main_v154 main_v160 (broadcastInDim S40x1 ![0] bcast_S40_S40x1_0 : (⟨S40, .i32⟩ : BufTy).Contents (Elt F) → (⟨S40x1, .i32⟩ : BufTy).Contents (Elt F)),
    StableHlo.unary main_v159 main_v161 (broadcastInDim S40x1 ![0] bcast_S40_S40x1_0 : (⟨S40, .i32⟩ : BufTy).Contents (Elt F) → (⟨S40x1, .i32⟩ : BufTy).Contents (Elt F)),
    StableHlo.binary main_v160 main_v161 main_v162 ((fun a b => concatenate S40x2 1 [⟨S40x1, a⟩, ⟨S40x1, b⟩] concatenates_S40x1_S40x1_S40x2_d1) : (⟨S40x1, .i32⟩ : BufTy).Contents (Elt F) → (⟨S40x1, .i32⟩ : BufTy).Contents (Elt F) → (⟨S40x2, .i32⟩ : BufTy).Contents (Elt F)),
    StableHlo.binary main_v141 main_v162 main_v163 ((fun x i => Host.gather gather_S1038x1038_S40x2_S40x1024x1024_12_n_n_n_01_1_10241024 x i) : (⟨S1038x1038, .f32⟩ : BufTy).Contents (Elt F) → (⟨S40x2, .i32⟩ : BufTy).Contents (Elt F) → (⟨S40x1024x1024, .f32⟩ : BufTy).Contents (Elt F)),
    StableHlo.unary main_v140 main_v164 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v164 main_v165 (broadcastInDim S40x1024x1024 ![0, 1, 2] bcast_S1x1024x1024_S40x1024x1024_0_1_2 : (⟨S1x1024x1024, .f32⟩ : BufTy).Contents (Elt F) → (⟨S40x1024x1024, .f32⟩ : BufTy).Contents (Elt F)),
    StableHlo.binary main_v165 main_v163 main_v166 (subf : (⟨S40x1024x1024, .f32⟩ : BufTy).Contents (Elt F) → (⟨S40x1024x1024, .f32⟩ : BufTy).Contents (Elt F) → (⟨S40x1024x1024, .f32⟩ : BufTy).Contents (Elt F)),
    StableHlo.unary main_v166 main_v167 (Host.absf : (⟨S40x1024x1024, .f32⟩ : BufTy).Contents (Elt F) → (⟨S40x1024x1024, .f32⟩ : BufTy).Contents (Elt F)),
    StableHlo.nullary main_cst_49 (constant S_ .f32 0x3F800000#32),
    StableHlo.unary main_cst_49 main_v168 (broadcastInDim S40x1024x1024 ![] bcast_S_S40x1024x1024 : (⟨S_, .f32⟩ : BufTy).Contents (Elt F) → (⟨S40x1024x1024, .f32⟩ : BufTy).Contents (Elt F)),
    StableHlo.binary main_v168 main_v167 main_v169 (subf : (⟨S40x1024x1024, .f32⟩ : BufTy).Contents (Elt F) → (⟨S40x1024x1024, .f32⟩ : BufTy).Contents (Elt F) → (⟨S40x1024x1024, .f32⟩ : BufTy).Contents (Elt F)),
    StableHlo.nullary main_cst_50 (constant S_ .f32 0xFF800000#32),
    StableHlo.binary main_v169 main_cst_50 main_v170 ((fun x v => Host.reduce FloatOps.maximumf x v reducesTo_S40x1024x1024_S1024x1024_d0 h_S_) : (⟨S40x1024x1024, .f32⟩ : BufTy).Contents (Elt F) → (⟨S_, .f32⟩ : BufTy).Contents (Elt F) → (⟨S1024x1024, .f32⟩ : BufTy).Contents (Elt F)),
    StableHlo.unary main_arg1 main_v171 (broadcastInDim S1x1 ![1] bcast_S1_S1x1_1 : (⟨S1, .f32⟩ : BufTy).Contents (Elt F) → (⟨S1x1, .f32⟩ : BufTy).Contents (Elt F)),
    StableHlo.unary main_v171 main_v172 (broadcastInDim S1024x1024 ![0, 1] bcast_S1x1_S1024x1024_0_1 : (⟨S1x1, .f32⟩ : BufTy).Contents (Elt F) → (⟨S1024x1024, .f32⟩ : BufTy).Contents (Elt F)),
    StableHlo.binary main_v172 main_v170 main_v173 (mulf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cB7_W : List (Ref sig .tc) := [main_cst_42, main_call4_v0, main_v141, main_v142, main_v143, main_c_43, main_v144, main_v145, main_v146, main_v147, main_c_44, main_v148, main_v149, main_c_45, main_v150, main_v151, main_c_46, main_v152, main_v153, main_v154, main_c_47, main_v155, main_v156, main_c_48, main_v157, main_v158, main_v159, main_v160, main_v161, main_v162, main_v163, main_v164, main_v165, main_v166, main_v167, main_cst_49, main_v168, main_v169, main_cst_50, main_v170, main_v171, main_v172, main_v173]

set_option maxRecDepth 8192 in
theorem cB7_writes : (cB7 : List (HloOp τ sig (Elt F))).Forall fun op => op.writes ⊆ (cB7_W.map (Proc.devRef (τ := τ) .tc)).toFinset := by
  simp only [cB7, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 232 to 275 of the line. -/
def cB11 : List (HloOp τ sig (Elt F)) :=
  [ StableHlo.nullary main_cst_51 (constant S_ .f32 0x4E6E6B28#32),
    StableHlo.TRef.unary (.of main_cst_51 : StableHlo.TRef sig ⟨S_, .f32⟩) main_call5.v0 id,
    StableHlo.TRef.binary (.of main_v140 : StableHlo.TRef sig ⟨S1024x1024, .f32⟩) main_call5.v0 main_call5.v1 (fun x v => pad S1046x1046 ![11, 11] ![11, 11] ![0, 0] x v pads_S1024x1024_S1046x1046_11110_11110 h_S_),
    StableHlo.unary main_c_4 main_v175 ((extractStridedSlice S72x1 ![0, 0] · slices_S72x2_S72x1_0_0) : (⟨S72x2, .i32⟩ : BufTy).Contents (Elt F) → (⟨S72x1, .i32⟩ : BufTy).Contents (Elt F)),
    StableHlo.reshape main_v175 main_v176 rfl shapeCasts_S72x1_S72,
    StableHlo.nullary main_c_52 (constantI S_ 32 11#32),
    StableHlo.unary main_c_52 main_v177 (broadcastInDim S72 ![] bcast_S_S72 : (⟨S_, .i32⟩ : BufTy).Contents (Elt F) → (⟨S72, .i32⟩ : BufTy).Contents (Elt F)),
    StableHlo.binary main_v177 main_v176 main_v178 (addi : (⟨S72, .i32⟩ : BufTy).Contents (Elt F) → (⟨S72, .i32⟩ : BufTy).Contents (Elt F) → (⟨S72, .i32⟩ : BufTy).Contents (Elt F)),
    StableHlo.unary main_c_4 main_v179 ((extractStridedSlice S72x1 ![0, 1] · slices_S72x2_S72x1_0_1) : (⟨S72x2, .i32⟩ : BufTy).Contents (Elt F) → (⟨S72x1, .i32⟩ : BufTy).Contents (Elt F)),
    StableHlo.reshape main_v179 main_v180 rfl shapeCasts_S72x1_S72,
    StableHlo.nullary main_c_53 (constantI S_ 32 11#32),
    StableHlo.unary main_c_53 main_v181 (broadcastInDim S72 ![] bcast_S_S72 : (⟨S_, .i32⟩ : BufTy).Contents (Elt F) → (⟨S72, .i32⟩ : BufTy).Contents (Elt F)),
    StableHlo.binary main_v181 main_v180 main_v182 (addi : (⟨S72, .i32⟩ : BufTy).Contents (Elt F) → (⟨S72, .i32⟩ : BufTy).Contents (Elt F) → (⟨S72, .i32⟩ : BufTy).Contents (Elt F)),
    StableHlo.nullary main_c_54 (constantI S_ 32 0#32),
    StableHlo.unary main_c_54 main_v183 (broadcastInDim S72 ![] bcast_S_S72 : (⟨S_, .i32⟩ : BufTy).Contents (Elt F) → (⟨S72, .i32⟩ : BufTy).Contents (Elt F)),
    StableHlo.binary main_v178 main_v183 main_v184 (cmpi .slt : (⟨S72, .i32⟩ : BufTy).Contents (Elt F) → (⟨S72, .i32⟩ : BufTy).Contents (Elt F) → (⟨S72, .i1⟩ : BufTy).Contents (Elt F)),
    StableHlo.nullary main_c_55 (constantI S_ 32 1046#32),
    StableHlo.unary main_c_55 main_v185 (broadcastInDim S72 ![] bcast_S_S72 : (⟨S_, .i32⟩ : BufTy).Contents (Elt F) → (⟨S72, .i32⟩ : BufTy).Contents (Elt F)),
    StableHlo.binary main_v178 main_v185 main_v186 (addi : (⟨S72, .i32⟩ : BufTy).Contents (Elt F) → (⟨S72, .i32⟩ : BufTy).Contents (Elt F) → (⟨S72, .i32⟩ : BufTy).Contents (Elt F)),
    StableHlo.ternary main_v184 main_v186 main_v178 main_v187 (select : (⟨S72, .i1⟩ : BufTy).Contents (Elt F) → (⟨S72, .i32⟩ : BufTy).Contents (Elt F) → (⟨S72, .i32⟩ : BufTy).Contents (Elt F) → (⟨S72, .i32⟩ : BufTy).Contents (Elt F)),
    StableHlo.nullary main_c_56 (constantI S_ 32 0#32),
    StableHlo.unary main_c_56 main_v188 (broadcastInDim S72 ![] bcast_S_S72 : (⟨S_, .i32⟩ : BufTy).Contents (Elt F) → (⟨S72, .i32⟩ : BufTy).Contents (Elt F)),
    StableHlo.binary main_v182 main_v188 main_v189 (cmpi .slt : (⟨S72, .i32⟩ : BufTy).Contents (Elt F) → (⟨S72, .i32⟩ : BufTy).Contents (Elt F) → (⟨S72, .i1⟩ : BufTy).Contents (Elt F)),
    StableHlo.nullary main_c_57 (constantI S_ 32 1046#32),
    StableHlo.unary main_c_57 main_v190 (broadcastInDim S72 ![] bcast_S_S72 : (⟨S_, .i32⟩ : BufTy).Contents (Elt F) → (⟨S72, .i32⟩ : BufTy).Contents (Elt F)),
    StableHlo.binary main_v182 main_v190 main_v191 (addi : (⟨S72, .i32⟩ : BufTy).Contents (Elt F) → (⟨S72, .i32⟩ : BufTy).Contents (Elt F) → (⟨S72, .i32⟩ : BufTy).Contents (Elt F)),
    StableHlo.ternary main_v189 main_v191 main_v182 main_v192 (select : (⟨S72, .i1⟩ : BufTy).Contents (Elt F) → (⟨S72, .i32⟩ : BufTy).Contents (Elt F) → (⟨S72, .i32⟩ : BufTy).Contents (Elt F) → (⟨S72, .i32⟩ : BufTy).Contents (Elt F)),
    StableHlo.unary main_v187 main_v193 (broadcastInDim S72x1 ![0] bcast_S72_S72x1_0 : (⟨S72, .i32⟩ : BufTy).Contents (Elt F) → (⟨S72x1, .i32⟩ : BufTy).Contents (Elt F)),
    StableHlo.unary main_v192 main_v194 (broadcastInDim S72x1 ![0] bcast_S72_S72x1_0 : (⟨S72, .i32⟩ : BufTy).Contents (Elt F) → (⟨S72x1, .i32⟩ : BufTy).Contents (Elt F)),
    StableHlo.binary main_v193 main_v194 main_v195 ((fun a b => concatenate S72x2 1 [⟨S72x1, a⟩, ⟨S72x1, b⟩] concatenates_S72x1_S72x1_S72x2_d1) : (⟨S72x1, .i32⟩ : BufTy).Contents (Elt F) → (⟨S72x1, .i32⟩ : BufTy).Contents (Elt F) → (⟨S72x2, .i32⟩ : BufTy).Contents (Elt F)),
    StableHlo.binary main_v174 main_v195 main_v196 ((fun x i => Host.gather gather_S1046x1046_S72x2_S72x1024x1024_12_n_n_n_01_1_10241024 x i) : (⟨S1046x1046, .f32⟩ : BufTy).Contents (Elt F) → (⟨S72x2, .i32⟩ : BufTy).Contents (Elt F) → (⟨S72x1024x1024, .f32⟩ : BufTy).Contents (Elt F)),
    StableHlo.unary main_v140 main_v197 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v197 main_v198 (broadcastInDim S72x1024x1024 ![0, 1, 2] bcast_S1x1024x1024_S72x1024x1024_0_1_2 : (⟨S1x1024x1024, .f32⟩ : BufTy).Contents (Elt F) → (⟨S72x1024x1024, .f32⟩ : BufTy).Contents (Elt F)),
    StableHlo.binary main_v198 main_v196 main_v199 (subf : (⟨S72x1024x1024, .f32⟩ : BufTy).Contents (Elt F) → (⟨S72x1024x1024, .f32⟩ : BufTy).Contents (Elt F) → (⟨S72x1024x1024, .f32⟩ : BufTy).Contents (Elt F)),
    StableHlo.unary main_v199 main_v200 (Host.absf : (⟨S72x1024x1024, .f32⟩ : BufTy).Contents (Elt F) → (⟨S72x1024x1024, .f32⟩ : BufTy).Contents (Elt F)),
    StableHlo.nullary main_cst_58 (constant S_ .f32 0x3F800000#32),
    StableHlo.unary main_cst_58 main_v201 (broadcastInDim S72x1024x1024 ![] bcast_S_S72x1024x1024 : (⟨S_, .f32⟩ : BufTy).Contents (Elt F) → (⟨S72x1024x1024, .f32⟩ : BufTy).Contents (Elt F)),
    StableHlo.binary main_v201 main_v200 main_v202 (subf : (⟨S72x1024x1024, .f32⟩ : BufTy).Contents (Elt F) → (⟨S72x1024x1024, .f32⟩ : BufTy).Contents (Elt F) → (⟨S72x1024x1024, .f32⟩ : BufTy).Contents (Elt F)),
    StableHlo.nullary main_cst_59 (constant S_ .f32 0xFF800000#32),
    StableHlo.binary main_v202 main_cst_59 main_v203 ((fun x v => Host.reduce FloatOps.maximumf x v reducesTo_S72x1024x1024_S1024x1024_d0 h_S_) : (⟨S72x1024x1024, .f32⟩ : BufTy).Contents (Elt F) → (⟨S_, .f32⟩ : BufTy).Contents (Elt F) → (⟨S1024x1024, .f32⟩ : BufTy).Contents (Elt F)),
    StableHlo.unary main_arg2 main_v204 (broadcastInDim S1x1 ![1] bcast_S1_S1x1_1 : (⟨S1, .f32⟩ : BufTy).Contents (Elt F) → (⟨S1x1, .f32⟩ : BufTy).Contents (Elt F)),
    StableHlo.unary main_v204 main_v205 (broadcastInDim S1024x1024 ![0, 1] bcast_S1x1_S1024x1024_0_1 : (⟨S1x1, .f32⟩ : BufTy).Contents (Elt F) → (⟨S1024x1024, .f32⟩ : BufTy).Contents (Elt F)),
    StableHlo.binary main_v205 main_v203 main_v206 (mulf : (⟨S1024x1024, .f32⟩ : BufTy).Contents (Elt F) → (⟨S1024x1024, .f32⟩ : BufTy).Contents (Elt F) → (⟨S1024x1024, .f32⟩ : BufTy).Contents (Elt F)),
    StableHlo.binary main_v173 main_v206 main_v207 (addf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cB11_W : List (Ref sig .tc) := [main_cst_51, main_call5_v0, main_v174, main_v175, main_v176, main_c_52, main_v177, main_v178, main_v179, main_v180, main_c_53, main_v181, main_v182, main_c_54, main_v183, main_v184, main_c_55, main_v185, main_v186, main_v187, main_c_56, main_v188, main_v189, main_c_57, main_v190, main_v191, main_v192, main_v193, main_v194, main_v195, main_v196, main_v197, main_v198, main_v199, main_v200, main_cst_58, main_v201, main_v202, main_cst_59, main_v203, main_v204, main_v205, main_v206, main_v207]

set_option maxRecDepth 8192 in
theorem cB11_writes : (cB11 : List (HloOp τ sig (Elt F))).Forall fun op => op.writes ⊆ (cB11_W.map (Proc.devRef (τ := τ) .tc)).toFinset := by
  simp only [cB11, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 276 to 319 of the line. -/
def cB15 : List (HloOp τ sig (Elt F)) :=
  [ StableHlo.nullary main_cst_60 (constant S_ .f32 0x4E6E6B28#32),
    StableHlo.TRef.unary (.of main_cst_60 : StableHlo.TRef sig ⟨S_, .f32⟩) main_call6.v0 id,
    StableHlo.TRef.binary (.of main_v140 : StableHlo.TRef sig ⟨S1024x1024, .f32⟩) main_call6.v0 main_call6.v1 (fun x v => pad S1054x1054 ![15, 15] ![15, 15] ![0, 0] x v pads_S1024x1024_S1054x1054_15150_15150 h_S_),
    StableHlo.unary main_c_5 main_v209 ((extractStridedSlice S84x1 ![0, 0] · slices_S84x2_S84x1_0_0) : (⟨S84x2, .i32⟩ : BufTy).Contents (Elt F) → (⟨S84x1, .i32⟩ : BufTy).Contents (Elt F)),
    StableHlo.reshape main_v209 main_v210 rfl shapeCasts_S84x1_S84,
    StableHlo.nullary main_c_61 (constantI S_ 32 15#32),
    StableHlo.unary main_c_61 main_v211 (broadcastInDim S84 ![] bcast_S_S84 : (⟨S_, .i32⟩ : BufTy).Contents (Elt F) → (⟨S84, .i32⟩ : BufTy).Contents (Elt F)),
    StableHlo.binary main_v211 main_v210 main_v212 (addi : (⟨S84, .i32⟩ : BufTy).Contents (Elt F) → (⟨S84, .i32⟩ : BufTy).Contents (Elt F) → (⟨S84, .i32⟩ : BufTy).Contents (Elt F)),
    StableHlo.unary main_c_5 main_v213 ((extractStridedSlice S84x1 ![0, 1] · slices_S84x2_S84x1_0_1) : (⟨S84x2, .i32⟩ : BufTy).Contents (Elt F) → (⟨S84x1, .i32⟩ : BufTy).Contents (Elt F)),
    StableHlo.reshape main_v213 main_v214 rfl shapeCasts_S84x1_S84,
    StableHlo.nullary main_c_62 (constantI S_ 32 15#32),
    StableHlo.unary main_c_62 main_v215 (broadcastInDim S84 ![] bcast_S_S84 : (⟨S_, .i32⟩ : BufTy).Contents (Elt F) → (⟨S84, .i32⟩ : BufTy).Contents (Elt F)),
    StableHlo.binary main_v215 main_v214 main_v216 (addi : (⟨S84, .i32⟩ : BufTy).Contents (Elt F) → (⟨S84, .i32⟩ : BufTy).Contents (Elt F) → (⟨S84, .i32⟩ : BufTy).Contents (Elt F)),
    StableHlo.nullary main_c_63 (constantI S_ 32 0#32),
    StableHlo.unary main_c_63 main_v217 (broadcastInDim S84 ![] bcast_S_S84 : (⟨S_, .i32⟩ : BufTy).Contents (Elt F) → (⟨S84, .i32⟩ : BufTy).Contents (Elt F)),
    StableHlo.binary main_v212 main_v217 main_v218 (cmpi .slt : (⟨S84, .i32⟩ : BufTy).Contents (Elt F) → (⟨S84, .i32⟩ : BufTy).Contents (Elt F) → (⟨S84, .i1⟩ : BufTy).Contents (Elt F)),
    StableHlo.nullary main_c_64 (constantI S_ 32 1054#32),
    StableHlo.unary main_c_64 main_v219 (broadcastInDim S84 ![] bcast_S_S84 : (⟨S_, .i32⟩ : BufTy).Contents (Elt F) → (⟨S84, .i32⟩ : BufTy).Contents (Elt F)),
    StableHlo.binary main_v212 main_v219 main_v220 (addi : (⟨S84, .i32⟩ : BufTy).Contents (Elt F) → (⟨S84, .i32⟩ : BufTy).Contents (Elt F) → (⟨S84, .i32⟩ : BufTy).Contents (Elt F)),
    StableHlo.ternary main_v218 main_v220 main_v212 main_v221 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.nullary main_c_65 (constantI S_ 32 0#32),
    StableHlo.unary main_c_65 main_v222 (broadcastInDim S84 ![] bcast_S_S84 : (⟨S_, .i32⟩ : BufTy).Contents (Elt F) → (⟨S84, .i32⟩ : BufTy).Contents (Elt F)),
    StableHlo.binary main_v216 main_v222 main_v223 (cmpi .slt : (⟨S84, .i32⟩ : BufTy).Contents (Elt F) → (⟨S84, .i32⟩ : BufTy).Contents (Elt F) → (⟨S84, .i1⟩ : BufTy).Contents (Elt F)),
    StableHlo.nullary main_c_66 (constantI S_ 32 1054#32),
    StableHlo.unary main_c_66 main_v224 (broadcastInDim S84 ![] bcast_S_S84 : (⟨S_, .i32⟩ : BufTy).Contents (Elt F) → (⟨S84, .i32⟩ : BufTy).Contents (Elt F)),
    StableHlo.binary main_v216 main_v224 main_v225 (addi : (⟨S84, .i32⟩ : BufTy).Contents (Elt F) → (⟨S84, .i32⟩ : BufTy).Contents (Elt F) → (⟨S84, .i32⟩ : BufTy).Contents (Elt F)),
    StableHlo.ternary main_v223 main_v225 main_v216 main_v226 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.unary main_v221 main_v227 (broadcastInDim S84x1 ![0] bcast_S84_S84x1_0 : (⟨S84, .i32⟩ : BufTy).Contents (Elt F) → (⟨S84x1, .i32⟩ : BufTy).Contents (Elt F)),
    StableHlo.unary main_v226 main_v228 (broadcastInDim S84x1 ![0] bcast_S84_S84x1_0 : (⟨S84, .i32⟩ : BufTy).Contents (Elt F) → (⟨S84x1, .i32⟩ : BufTy).Contents (Elt F)),
    StableHlo.binary main_v227 main_v228 main_v229 ((fun a b => concatenate S84x2 1 [⟨S84x1, a⟩, ⟨S84x1, b⟩] concatenates_S84x1_S84x1_S84x2_d1) : (⟨S84x1, .i32⟩ : BufTy).Contents (Elt F) → (⟨S84x1, .i32⟩ : BufTy).Contents (Elt F) → (⟨S84x2, .i32⟩ : BufTy).Contents (Elt F)),
    StableHlo.binary main_v208 main_v229 main_v230 ((fun x i => Host.gather gather_S1054x1054_S84x2_S84x1024x1024_12_n_n_n_01_1_10241024 x i) : (⟨S1054x1054, .f32⟩ : BufTy).Contents (Elt F) → (⟨S84x2, .i32⟩ : BufTy).Contents (Elt F) → (⟨S84x1024x1024, .f32⟩ : BufTy).Contents (Elt F)),
    StableHlo.unary main_v140 main_v231 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v231 main_v232 (broadcastInDim S84x1024x1024 ![0, 1, 2] bcast_S1x1024x1024_S84x1024x1024_0_1_2 : (⟨S1x1024x1024, .f32⟩ : BufTy).Contents (Elt F) → (⟨S84x1024x1024, .f32⟩ : BufTy).Contents (Elt F)),
    StableHlo.binary main_v232 main_v230 main_v233 (subf : (⟨S84x1024x1024, .f32⟩ : BufTy).Contents (Elt F) → (⟨S84x1024x1024, .f32⟩ : BufTy).Contents (Elt F) → (⟨S84x1024x1024, .f32⟩ : BufTy).Contents (Elt F)),
    StableHlo.unary main_v233 main_v234 (Host.absf : (⟨S84x1024x1024, .f32⟩ : BufTy).Contents (Elt F) → (⟨S84x1024x1024, .f32⟩ : BufTy).Contents (Elt F)),
    StableHlo.nullary main_cst_67 (constant S_ .f32 0x3F800000#32),
    StableHlo.unary main_cst_67 main_v235 (broadcastInDim S84x1024x1024 ![] bcast_S_S84x1024x1024 : (⟨S_, .f32⟩ : BufTy).Contents (Elt F) → (⟨S84x1024x1024, .f32⟩ : BufTy).Contents (Elt F)),
    StableHlo.binary main_v235 main_v234 main_v236 (subf : (⟨S84x1024x1024, .f32⟩ : BufTy).Contents (Elt F) → (⟨S84x1024x1024, .f32⟩ : BufTy).Contents (Elt F) → (⟨S84x1024x1024, .f32⟩ : BufTy).Contents (Elt F)),
    StableHlo.nullary main_cst_68 (constant S_ .f32 0xFF800000#32),
    StableHlo.binary main_v236 main_cst_68 main_v237 ((fun x v => Host.reduce FloatOps.maximumf x v reducesTo_S84x1024x1024_S1024x1024_d0 h_S_) : (⟨S84x1024x1024, .f32⟩ : BufTy).Contents (Elt F) → (⟨S_, .f32⟩ : BufTy).Contents (Elt F) → (⟨S1024x1024, .f32⟩ : BufTy).Contents (Elt F)),
    StableHlo.unary main_arg3 main_v238 (broadcastInDim S1x1 ![1] bcast_S1_S1x1_1 : (⟨S1, .f32⟩ : BufTy).Contents (Elt F) → (⟨S1x1, .f32⟩ : BufTy).Contents (Elt F)),
    StableHlo.unary main_v238 main_v239 (broadcastInDim S1024x1024 ![0, 1] bcast_S1x1_S1024x1024_0_1 : (⟨S1x1, .f32⟩ : BufTy).Contents (Elt F) → (⟨S1024x1024, .f32⟩ : BufTy).Contents (Elt F)),
    StableHlo.binary main_v239 main_v237 main_v240 (mulf : (⟨S1024x1024, .f32⟩ : BufTy).Contents (Elt F) → (⟨S1024x1024, .f32⟩ : BufTy).Contents (Elt F) → (⟨S1024x1024, .f32⟩ : BufTy).Contents (Elt F)),
    StableHlo.binary main_v207 main_v240 main_v241 (addf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cB15_W : List (Ref sig .tc) := [main_cst_60, main_call6_v0, main_v208, main_v209, main_v210, main_c_61, main_v211, main_v212, main_v213, main_v214, main_c_62, main_v215, main_v216, main_c_63, main_v217, main_v218, main_c_64, main_v219, main_v220, main_v221, main_c_65, main_v222, main_v223, main_c_66, main_v224, main_v225, main_v226, main_v227, main_v228, main_v229, main_v230, main_v231, main_v232, main_v233, main_v234, main_cst_67, main_v235, main_v236, main_cst_68, main_v237, main_v238, main_v239, main_v240, main_v241]

set_option maxRecDepth 8192 in
theorem cB15_writes : (cB15 : List (HloOp τ sig (Elt F))).Forall fun op => op.writes ⊆ (cB15_W.map (Proc.devRef (τ := τ) .tc)).toFinset := by
  simp only [cB15, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 320 to 363 of the line. -/
def cB19 : List (HloOp τ sig (Elt F)) :=
  [ StableHlo.nullary main_cst_69 (constant S_ .f32 0x4E6E6B28#32),
    StableHlo.TRef.unary (.of main_cst_69 : StableHlo.TRef sig ⟨S_, .f32⟩) main_call7.v0 id,
    StableHlo.TRef.binary (.of main_v140 : StableHlo.TRef sig ⟨S1024x1024, .f32⟩) main_call7.v0 main_call7.v1 (fun x v => pad S1062x1062 ![19, 19] ![19, 19] ![0, 0] x v pads_S1024x1024_S1062x1062_19190_19190 h_S_),
    StableHlo.unary main_c_6 main_v243 ((extractStridedSlice S116x1 ![0, 0] · slices_S116x2_S116x1_0_0) : (⟨S116x2, .i32⟩ : BufTy).Contents (Elt F) → (⟨S116x1, .i32⟩ : BufTy).Contents (Elt F)),
    StableHlo.reshape main_v243 main_v244 rfl shapeCasts_S116x1_S116,
    StableHlo.nullary main_c_70 (constantI S_ 32 19#32),
    StableHlo.unary main_c_70 main_v245 (broadcastInDim S116 ![] bcast_S_S116 : (⟨S_, .i32⟩ : BufTy).Contents (Elt F) → (⟨S116, .i32⟩ : BufTy).Contents (Elt F)),
    StableHlo.binary main_v245 main_v244 main_v246 (addi : (⟨S116, .i32⟩ : BufTy).Contents (Elt F) → (⟨S116, .i32⟩ : BufTy).Contents (Elt F) → (⟨S116, .i32⟩ : BufTy).Contents (Elt F)),
    StableHlo.unary main_c_6 main_v247 ((extractStridedSlice S116x1 ![0, 1] · slices_S116x2_S116x1_0_1) : (⟨S116x2, .i32⟩ : BufTy).Contents (Elt F) → (⟨S116x1, .i32⟩ : BufTy).Contents (Elt F)),
    StableHlo.reshape main_v247 main_v248 rfl shapeCasts_S116x1_S116,
    StableHlo.nullary main_c_71 (constantI S_ 32 19#32),
    StableHlo.unary main_c_71 main_v249 (broadcastInDim S116 ![] bcast_S_S116 : (⟨S_, .i32⟩ : BufTy).Contents (Elt F) → (⟨S116, .i32⟩ : BufTy).Contents (Elt F)),
    StableHlo.binary main_v249 main_v248 main_v250 (addi : (⟨S116, .i32⟩ : BufTy).Contents (Elt F) → (⟨S116, .i32⟩ : BufTy).Contents (Elt F) → (⟨S116, .i32⟩ : BufTy).Contents (Elt F)),
    StableHlo.nullary main_c_72 (constantI S_ 32 0#32),
    StableHlo.unary main_c_72 main_v251 (broadcastInDim S116 ![] bcast_S_S116 : (⟨S_, .i32⟩ : BufTy).Contents (Elt F) → (⟨S116, .i32⟩ : BufTy).Contents (Elt F)),
    StableHlo.binary main_v246 main_v251 main_v252 (cmpi .slt : (⟨S116, .i32⟩ : BufTy).Contents (Elt F) → (⟨S116, .i32⟩ : BufTy).Contents (Elt F) → (⟨S116, .i1⟩ : BufTy).Contents (Elt F)),
    StableHlo.nullary main_c_73 (constantI S_ 32 1062#32),
    StableHlo.unary main_c_73 main_v253 (broadcastInDim S116 ![] bcast_S_S116 : (⟨S_, .i32⟩ : BufTy).Contents (Elt F) → (⟨S116, .i32⟩ : BufTy).Contents (Elt F)),
    StableHlo.binary main_v246 main_v253 main_v254 (addi : (⟨S116, .i32⟩ : BufTy).Contents (Elt F) → (⟨S116, .i32⟩ : BufTy).Contents (Elt F) → (⟨S116, .i32⟩ : BufTy).Contents (Elt F)),
    StableHlo.ternary main_v252 main_v254 main_v246 main_v255 (select : (⟨S116, .i1⟩ : BufTy).Contents (Elt F) → (⟨S116, .i32⟩ : BufTy).Contents (Elt F) → (⟨S116, .i32⟩ : BufTy).Contents (Elt F) → (⟨S116, .i32⟩ : BufTy).Contents (Elt F)),
    StableHlo.nullary main_c_74 (constantI S_ 32 0#32),
    StableHlo.unary main_c_74 main_v256 (broadcastInDim S116 ![] bcast_S_S116 : (⟨S_, .i32⟩ : BufTy).Contents (Elt F) → (⟨S116, .i32⟩ : BufTy).Contents (Elt F)),
    StableHlo.binary main_v250 main_v256 main_v257 (cmpi .slt : (⟨S116, .i32⟩ : BufTy).Contents (Elt F) → (⟨S116, .i32⟩ : BufTy).Contents (Elt F) → (⟨S116, .i1⟩ : BufTy).Contents (Elt F)),
    StableHlo.nullary main_c_75 (constantI S_ 32 1062#32),
    StableHlo.unary main_c_75 main_v258 (broadcastInDim S116 ![] bcast_S_S116 : (⟨S_, .i32⟩ : BufTy).Contents (Elt F) → (⟨S116, .i32⟩ : BufTy).Contents (Elt F)),
    StableHlo.binary main_v250 main_v258 main_v259 (addi : (⟨S116, .i32⟩ : BufTy).Contents (Elt F) → (⟨S116, .i32⟩ : BufTy).Contents (Elt F) → (⟨S116, .i32⟩ : BufTy).Contents (Elt F)),
    StableHlo.ternary main_v257 main_v259 main_v250 main_v260 (select : (⟨S116, .i1⟩ : BufTy).Contents (Elt F) → (⟨S116, .i32⟩ : BufTy).Contents (Elt F) → (⟨S116, .i32⟩ : BufTy).Contents (Elt F) → (⟨S116, .i32⟩ : BufTy).Contents (Elt F)),
    StableHlo.unary main_v255 main_v261 (broadcastInDim S116x1 ![0] bcast_S116_S116x1_0 : (⟨S116, .i32⟩ : BufTy).Contents (Elt F) → (⟨S116x1, .i32⟩ : BufTy).Contents (Elt F)),
    StableHlo.unary main_v260 main_v262 (broadcastInDim S116x1 ![0] bcast_S116_S116x1_0 : (⟨S116, .i32⟩ : BufTy).Contents (Elt F) → (⟨S116x1, .i32⟩ : BufTy).Contents (Elt F)),
    StableHlo.binary main_v261 main_v262 main_v263 ((fun a b => concatenate S116x2 1 [⟨S116x1, a⟩, ⟨S116x1, b⟩] concatenates_S116x1_S116x1_S116x2_d1) : (⟨S116x1, .i32⟩ : BufTy).Contents (Elt F) → (⟨S116x1, .i32⟩ : BufTy).Contents (Elt F) → (⟨S116x2, .i32⟩ : BufTy).Contents (Elt F)),
    StableHlo.binary main_v242 main_v263 main_v264 ((fun x i => Host.gather gather_S1062x1062_S116x2_S116x1024x1024_12_n_n_n_01_1_10241024 x i) : (⟨S1062x1062, .f32⟩ : BufTy).Contents (Elt F) → (⟨S116x2, .i32⟩ : BufTy).Contents (Elt F) → (⟨S116x1024x1024, .f32⟩ : BufTy).Contents (Elt F)),
    StableHlo.unary main_v140 main_v265 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v265 main_v266 (broadcastInDim S116x1024x1024 ![0, 1, 2] bcast_S1x1024x1024_S116x1024x1024_0_1_2 : (⟨S1x1024x1024, .f32⟩ : BufTy).Contents (Elt F) → (⟨S116x1024x1024, .f32⟩ : BufTy).Contents (Elt F)),
    StableHlo.binary main_v266 main_v264 main_v267 (subf : (⟨S116x1024x1024, .f32⟩ : BufTy).Contents (Elt F) → (⟨S116x1024x1024, .f32⟩ : BufTy).Contents (Elt F) → (⟨S116x1024x1024, .f32⟩ : BufTy).Contents (Elt F)),
    StableHlo.unary main_v267 main_v268 (Host.absf : (⟨S116x1024x1024, .f32⟩ : BufTy).Contents (Elt F) → (⟨S116x1024x1024, .f32⟩ : BufTy).Contents (Elt F)),
    StableHlo.nullary main_cst_76 (constant S_ .f32 0x3F800000#32),
    StableHlo.unary main_cst_76 main_v269 (broadcastInDim S116x1024x1024 ![] bcast_S_S116x1024x1024 : (⟨S_, .f32⟩ : BufTy).Contents (Elt F) → (⟨S116x1024x1024, .f32⟩ : BufTy).Contents (Elt F)),
    StableHlo.binary main_v269 main_v268 main_v270 (subf : (⟨S116x1024x1024, .f32⟩ : BufTy).Contents (Elt F) → (⟨S116x1024x1024, .f32⟩ : BufTy).Contents (Elt F) → (⟨S116x1024x1024, .f32⟩ : BufTy).Contents (Elt F)),
    StableHlo.nullary main_cst_77 (constant S_ .f32 0xFF800000#32),
    StableHlo.binary main_v270 main_cst_77 main_v271 ((fun x v => Host.reduce FloatOps.maximumf x v reducesTo_S116x1024x1024_S1024x1024_d0 h_S_) : (⟨S116x1024x1024, .f32⟩ : BufTy).Contents (Elt F) → (⟨S_, .f32⟩ : BufTy).Contents (Elt F) → (⟨S1024x1024, .f32⟩ : BufTy).Contents (Elt F)),
    StableHlo.unary main_arg4 main_v272 (broadcastInDim S1x1 ![1] bcast_S1_S1x1_1 : (⟨S1, .f32⟩ : BufTy).Contents (Elt F) → (⟨S1x1, .f32⟩ : BufTy).Contents (Elt F)),
    StableHlo.unary main_v272 main_v273 (broadcastInDim S1024x1024 ![0, 1] bcast_S1x1_S1024x1024_0_1 : (⟨S1x1, .f32⟩ : BufTy).Contents (Elt F) → (⟨S1024x1024, .f32⟩ : BufTy).Contents (Elt F)),
    StableHlo.binary main_v273 main_v271 main_v274 (mulf : (⟨S1024x1024, .f32⟩ : BufTy).Contents (Elt F) → (⟨S1024x1024, .f32⟩ : BufTy).Contents (Elt F) → (⟨S1024x1024, .f32⟩ : BufTy).Contents (Elt F)),
    StableHlo.binary main_v241 main_v274 main_v275 (addf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cB19_W : List (Ref sig .tc) := [main_cst_69, main_call7_v0, main_v242, main_v243, main_v244, main_c_70, main_v245, main_v246, main_v247, main_v248, main_c_71, main_v249, main_v250, main_c_72, main_v251, main_v252, main_c_73, main_v253, main_v254, main_v255, main_c_74, main_v256, main_v257, main_c_75, main_v258, main_v259, main_v260, main_v261, main_v262, main_v263, main_v264, main_v265, main_v266, main_v267, main_v268, main_cst_76, main_v269, main_v270, main_cst_77, main_v271, main_v272, main_v273, main_v274, main_v275]

set_option maxRecDepth 8192 in
theorem cB19_writes : (cB19 : List (HloOp τ sig (Elt F))).Forall fun op => op.writes ⊆ (cB19_W.map (Proc.devRef (τ := τ) .tc)).toFinset := by
  simp only [cB19, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 364 to 369 of the line. -/
def cBfin : List (HloOp τ sig (Elt F)) :=
  [ StableHlo.binary main_arg1 main_arg2 main_v276 (addf : (⟨S1, .f32⟩ : BufTy).Contents (Elt F) → (⟨S1, .f32⟩ : BufTy).Contents (Elt F) → (⟨S1, .f32⟩ : BufTy).Contents (Elt F)),
    StableHlo.binary main_v276 main_arg3 main_v277 (addf : (⟨S1, .f32⟩ : BufTy).Contents (Elt F) → (⟨S1, .f32⟩ : BufTy).Contents (Elt F) → (⟨S1, .f32⟩ : BufTy).Contents (Elt F)),
    StableHlo.binary main_v277 main_arg4 main_v278 (addf : (⟨S1, .f32⟩ : BufTy).Contents (Elt F) → (⟨S1, .f32⟩ : BufTy).Contents (Elt F) → (⟨S1, .f32⟩ : BufTy).Contents (Elt F)),
    StableHlo.unary main_v278 main_v279 (broadcastInDim S1x1 ![1] bcast_S1_S1x1_1 : (⟨S1, .f32⟩ : BufTy).Contents (Elt F) → (⟨S1x1, .f32⟩ : BufTy).Contents (Elt F)),
    StableHlo.unary main_v279 main_v280 (broadcastInDim S1024x1024 ![0, 1] bcast_S1x1_S1024x1024_0_1 : (⟨S1x1, .f32⟩ : BufTy).Contents (Elt F) → (⟨S1024x1024, .f32⟩ : BufTy).Contents (Elt F)),
    StableHlo.binary main_v275 main_v280 main_v281 (Host.divf : (⟨S1024x1024, .f32⟩ : BufTy).Contents (Elt F) → (⟨S1024x1024, .f32⟩ : BufTy).Contents (Elt F) → (⟨S1024x1024, .f32⟩ : BufTy).Contents (Elt F)) ]

/-- The buffers they write. -/
abbrev cBfin_W : List (Ref sig .tc) := [main_v276, main_v277, main_v278, main_v279, main_v280, main_v281]

set_option maxRecDepth 8192 in
theorem cBfin_writes : (cBfin : List (HloOp τ sig (Elt F))).Forall fun op => op.writes ⊆ (cBfin_W.map (Proc.devRef (τ := τ) .tc)).toFinset := by
  simp only [cBfin, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 65536 in
/-- The line is these lists laid end to end. -/
theorem ops_eq_chunks : (ops : List (HloOp τ sig (Elt F))) =
    cT ++ (cA7 ++ (cA11 ++ (cA15 ++ (cA19 ++ (cAfin ++ (cB7 ++ (cB11 ++ (cB15 ++ (cB19 ++ (cBfin)))))))))) := rfl

end Cert.ReferenceIdeal.RefRun

end
-- ==== Proof.Ref.Layer.lean ====
/-
  One layer of the reference, as a function of the image, the four weights and the four offset tables: for each
  radius the image is padded with 1e9, the padded image is read at the ring's offsets (a gather whose start
  coordinates are the offsets shifted by the radius), and the response is the greatest of 1 − |centre − neighbour|;
  the layer is the weighted sum of the four responses divided by the sum of the weights.  The reference is two
  layers; the operations of the second are those of the first on other buffers and other copies of the tables.
-/
import proofs.«126001_j6975026889201_2_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-! ### Radius 7: 40 ring offsets, the image padded to 1038 × 1038 -/

/-- Column `c` of the offset table plus the radius: the neighbour's row (or column) offset as a coordinate of the
    padded image, for each of the 40 offsets. -/
def shift7a (T : (⟨S40x2, .i32⟩ : BufTy).Contents (Elt F)) : (⟨S40, .i32⟩ : BufTy).Contents (Elt F) :=
  addi (broadcastInDim S40 ![] bcast_S_S40 (constantI S_ 32 7#32))
    (shapeCast S40 (extractStridedSlice S40x1 ![0, 0] T slices_S40x2_S40x1_0_0) shapeCasts_S40x1_S40)
@[inherit_doc shift7a]
def shift7b (T : (⟨S40x2, .i32⟩ : BufTy).Contents (Elt F)) : (⟨S40, .i32⟩ : BufTy).Contents (Elt F) :=
  addi (broadcastInDim S40 ![] bcast_S_S40 (constantI S_ 32 7#32))
    (shapeCast S40 (extractStridedSlice S40x1 ![0, 1] T slices_S40x2_S40x1_0_1) shapeCasts_S40x1_S40)

/-- A coordinate below zero counted from the far end (a negative index wraps; none of the shifted offsets is). -/
def wrap7 (A : (⟨S40, .i32⟩ : BufTy).Contents (Elt F)) : (⟨S40, .i32⟩ : BufTy).Contents (Elt F) :=
  select (cmpi .slt A (broadcastInDim S40 ![] bcast_S_S40 (constantI S_ 32 0#32)))
    (addi A (broadcastInDim S40 ![] bcast_S_S40 (constantI S_ 32 1038#32))) A

/-- The 40 × 2 table of start coordinates the gather reads: the two wrapped columns side by side. -/
def starts7 (T : (⟨S40x2, .i32⟩ : BufTy).Contents (Elt F)) : (⟨S40x2, .i32⟩ : BufTy).Contents (Elt F) :=
  concatenate S40x2 1
    [⟨S40x1, broadcastInDim S40x1 ![0] bcast_S40_S40x1_0 (wrap7 (shift7a T))⟩,
     ⟨S40x1, broadcastInDim S40x1 ![0] bcast_S40_S40x1_0 (wrap7 (shift7b T))⟩]
    concatenates_S40x1_S40x1_S40x2_d1

/-- The image padded by 7 on every side with 1e9. -/
def padded7 (x : (⟨S1024x1024, .f32⟩ : BufTy).Contents (Elt F)) : (⟨S1038x1038, .f32⟩ : BufTy).Contents (Elt F) :=
  pad S1038x1038 ![7, 7] ![7, 7] ![0, 0] x (id (constant S_ .f32 0x4E6E6B28#32)) pads_S1024x1024_S1038x1038_770_770 h_S_

/-- The 40 shifted copies of the image: copy k is the 1024 × 1024 window of the padded image that starts at row k of
    the start table. -/
def shifted7 (T : (⟨S40x2, .i32⟩ : BufTy).Contents (Elt F)) (x : (⟨S1024x1024, .f32⟩ : BufTy).Contents (Elt F)) : (⟨S40x1024x1024, .f32⟩ : BufTy).Contents (Elt F) :=
  Host.gather gather_S1038x1038_S40x2_S40x1024x1024_12_n_n_n_01_1_10241024 (padded7 x) (starts7 T)

/-- 1 − |x − shifted copy k|, for each of the 40 copies. -/
def score7 (T : (⟨S40x2, .i32⟩ : BufTy).Contents (Elt F)) (x : (⟨S1024x1024, .f32⟩ : BufTy).Contents (Elt F)) : (⟨S40x1024x1024, .f32⟩ : BufTy).Contents (Elt F) :=
  subf (broadcastInDim S40x1024x1024 ![] bcast_S_S40x1024x1024 (constant S_ .f32 0x3F800000#32))
    (Host.absf (subf
      (broadcastInDim S40x1024x1024 ![0, 1, 2] bcast_S1x1024x1024_S40x1024x1024_0_1_2
        (broadcastInDim S1x1024x1024 ![1, 2] bcast_S1024x1024_S1x1024x1024_1_2 x))
      (shifted7 T x)))

/-- The ring response of radius 7: the greatest score over the 40 copies, from −∞. -/
def geneo7 (T : (⟨S40x2, .i32⟩ : BufTy).Contents (Elt F)) (x : (⟨S1024x1024, .f32⟩ : BufTy).Contents (Elt F)) : (⟨S1024x1024, .f32⟩ : BufTy).Contents (Elt F) :=
  Host.reduce FloatOps.maximumf (score7 T x) (constant S_ .f32 0xFF800000#32) reducesTo_S40x1024x1024_S1024x1024_d0 h_S_

/-! ### Radius 11: 72 ring offsets, the image padded to 1046 × 1046 -/

/-- Column `c` of the offset table plus the radius: the neighbour's row (or column) offset as a coordinate of the
    padded image, for each of the 72 offsets. -/
def shift11a (T : (⟨S72x2, .i32⟩ : BufTy).Contents (Elt F)) : (⟨S72, .i32⟩ : BufTy).Contents (Elt F) :=
  addi (broadcastInDim S72 ![] bcast_S_S72 (constantI S_ 32 11#32))
    (shapeCast S72 (extractStridedSlice S72x1 ![0, 0] T slices_S72x2_S72x1_0_0) shapeCasts_S72x1_S72)
@[inherit_doc shift11a]
def shift11b (T : (⟨S72x2, .i32⟩ : BufTy).Contents (Elt F)) : (⟨S72, .i32⟩ : BufTy).Contents (Elt F) :=
  addi (broadcastInDim S72 ![] bcast_S_S72 (constantI S_ 32 11#32))
    (shapeCast S72 (extractStridedSlice S72x1 ![0, 1] T slices_S72x2_S72x1_0_1) shapeCasts_S72x1_S72)

/-- A coordinate below zero counted from the far end (a negative index wraps; none of the shifted offsets is). -/
def wrap11 (A : (⟨S72, .i32⟩ : BufTy).Contents (Elt F)) : (⟨S72, .i32⟩ : BufTy).Contents (Elt F) :=
  select (cmpi .slt A (broadcastInDim S72 ![] bcast_S_S72 (constantI S_ 32 0#32)))
    (addi A (broadcastInDim S72 ![] bcast_S_S72 (constantI S_ 32 1046#32))) A

/-- The 72 × 2 table of start coordinates the gather reads: the two wrapped columns side by side. -/
def starts11 (T : (⟨S72x2, .i32⟩ : BufTy).Contents (Elt F)) : (⟨S72x2, .i32⟩ : BufTy).Contents (Elt F) :=
  concatenate S72x2 1
    [⟨S72x1, broadcastInDim S72x1 ![0] bcast_S72_S72x1_0 (wrap11 (shift11a T))⟩,
     ⟨S72x1, broadcastInDim S72x1 ![0] bcast_S72_S72x1_0 (wrap11 (shift11b T))⟩]
    concatenates_S72x1_S72x1_S72x2_d1

/-- The image padded by 11 on every side with 1e9. -/
def padded11 (x : (⟨S1024x1024, .f32⟩ : BufTy).Contents (Elt F)) : (⟨S1046x1046, .f32⟩ : BufTy).Contents (Elt F) :=
  pad S1046x1046 ![11, 11] ![11, 11] ![0, 0] x (id (constant S_ .f32 0x4E6E6B28#32)) pads_S1024x1024_S1046x1046_11110_11110 h_S_

/-- The 72 shifted copies of the image: copy k is the 1024 × 1024 window of the padded image that starts at row k of
    the start table. -/
def shifted11 (T : (⟨S72x2, .i32⟩ : BufTy).Contents (Elt F)) (x : (⟨S1024x1024, .f32⟩ : BufTy).Contents (Elt F)) : (⟨S72x1024x1024, .f32⟩ : BufTy).Contents (Elt F) :=
  Host.gather gather_S1046x1046_S72x2_S72x1024x1024_12_n_n_n_01_1_10241024 (padded11 x) (starts11 T)

/-- 1 − |x − shifted copy k|, for each of the 72 copies. -/
def score11 (T : (⟨S72x2, .i32⟩ : BufTy).Contents (Elt F)) (x : (⟨S1024x1024, .f32⟩ : BufTy).Contents (Elt F)) : (⟨S72x1024x1024, .f32⟩ : BufTy).Contents (Elt F) :=
  subf (broadcastInDim S72x1024x1024 ![] bcast_S_S72x1024x1024 (constant S_ .f32 0x3F800000#32))
    (Host.absf (subf
      (broadcastInDim S72x1024x1024 ![0, 1, 2] bcast_S1x1024x1024_S72x1024x1024_0_1_2
        (broadcastInDim S1x1024x1024 ![1, 2] bcast_S1024x1024_S1x1024x1024_1_2 x))
      (shifted11 T x)))

/-- The ring response of radius 11: the greatest score over the 72 copies, from −∞. -/
def geneo11 (T : (⟨S72x2, .i32⟩ : BufTy).Contents (Elt F)) (x : (⟨S1024x1024, .f32⟩ : BufTy).Contents (Elt F)) : (⟨S1024x1024, .f32⟩ : BufTy).Contents (Elt F) :=
  Host.reduce FloatOps.maximumf (score11 T x) (constant S_ .f32 0xFF800000#32) reducesTo_S72x1024x1024_S1024x1024_d0 h_S_

/-! ### Radius 15: 84 ring offsets, the image padded to 1054 × 1054 -/

/-- Column `c` of the offset table plus the radius: the neighbour's row (or column) offset as a coordinate of the
    padded image, for each of the 84 offsets. -/
def shift15a (T : (⟨S84x2, .i32⟩ : BufTy).Contents (Elt F)) : (⟨S84, .i32⟩ : BufTy).Contents (Elt F) :=
  addi (broadcastInDim S84 ![] bcast_S_S84 (constantI S_ 32 15#32))
    (shapeCast S84 (extractStridedSlice S84x1 ![0, 0] T slices_S84x2_S84x1_0_0) shapeCasts_S84x1_S84)
@[inherit_doc shift15a]
def shift15b (T : (⟨S84x2, .i32⟩ : BufTy).Contents (Elt F)) : (⟨S84, .i32⟩ : BufTy).Contents (Elt F) :=
  addi (broadcastInDim S84 ![] bcast_S_S84 (constantI S_ 32 15#32))
    (shapeCast S84 (extractStridedSlice S84x1 ![0, 1] T slices_S84x2_S84x1_0_1) shapeCasts_S84x1_S84)

/-- A coordinate below zero counted from the far end (a negative index wraps; none of the shifted offsets is). -/
def wrap15 (A : (⟨S84, .i32⟩ : BufTy).Contents (Elt F)) : (⟨S84, .i32⟩ : BufTy).Contents (Elt F) :=
  select (cmpi .slt A (broadcastInDim S84 ![] bcast_S_S84 (constantI S_ 32 0#32)))
    (addi A (broadcastInDim S84 ![] bcast_S_S84 (constantI S_ 32 1054#32))) A

/-- The 84 × 2 table of start coordinates the gather reads: the two wrapped columns side by side. -/
def starts15 (T : (⟨S84x2, .i32⟩ : BufTy).Contents (Elt F)) : (⟨S84x2, .i32⟩ : BufTy).Contents (Elt F) :=
  concatenate S84x2 1
    [⟨S84x1, broadcastInDim S84x1 ![0] bcast_S84_S84x1_0 (wrap15 (shift15a T))⟩,
     ⟨S84x1, broadcastInDim S84x1 ![0] bcast_S84_S84x1_0 (wrap15 (shift15b T))⟩]
    concatenates_S84x1_S84x1_S84x2_d1

/-- The image padded by 15 on every side with 1e9. -/
def padded15 (x : (⟨S1024x1024, .f32⟩ : BufTy).Contents (Elt F)) : (⟨S1054x1054, .f32⟩ : BufTy).Contents (Elt F) :=
  pad S1054x1054 ![15, 15] ![15, 15] ![0, 0] x (id (constant S_ .f32 0x4E6E6B28#32)) pads_S1024x1024_S1054x1054_15150_15150 h_S_

/-- The 84 shifted copies of the image: copy k is the 1024 × 1024 window of the padded image that starts at row k of
    the start table. -/
def shifted15 (T : (⟨S84x2, .i32⟩ : BufTy).Contents (Elt F)) (x : (⟨S1024x1024, .f32⟩ : BufTy).Contents (Elt F)) : (⟨S84x1024x1024, .f32⟩ : BufTy).Contents (Elt F) :=
  Host.gather gather_S1054x1054_S84x2_S84x1024x1024_12_n_n_n_01_1_10241024 (padded15 x) (starts15 T)

/-- 1 − |x − shifted copy k|, for each of the 84 copies. -/
def score15 (T : (⟨S84x2, .i32⟩ : BufTy).Contents (Elt F)) (x : (⟨S1024x1024, .f32⟩ : BufTy).Contents (Elt F)) : (⟨S84x1024x1024, .f32⟩ : BufTy).Contents (Elt F) :=
  subf (broadcastInDim S84x1024x1024 ![] bcast_S_S84x1024x1024 (constant S_ .f32 0x3F800000#32))
    (Host.absf (subf
      (broadcastInDim S84x1024x1024 ![0, 1, 2] bcast_S1x1024x1024_S84x1024x1024_0_1_2
        (broadcastInDim S1x1024x1024 ![1, 2] bcast_S1024x1024_S1x1024x1024_1_2 x))
      (shifted15 T x)))

/-- The ring response of radius 15: the greatest score over the 84 copies, from −∞. -/
def geneo15 (T : (⟨S84x2, .i32⟩ : BufTy).Contents (Elt F)) (x : (⟨S1024x1024, .f32⟩ : BufTy).Contents (Elt F)) : (⟨S1024x1024, .f32⟩ : BufTy).Contents (Elt F) :=
  Host.reduce FloatOps.maximumf (score15 T x) (constant S_ .f32 0xFF800000#32) reducesTo_S84x1024x1024_S1024x1024_d0 h_S_

/-! ### Radius 19: 116 ring offsets, the image padded to 1062 × 1062 -/

/-- Column `c` of the offset table plus the radius: the neighbour's row (or column) offset as a coordinate of the
    padded image, for each of the 116 offsets. -/
def shift19a (T : (⟨S116x2, .i32⟩ : BufTy).Contents (Elt F)) : (⟨S116, .i32⟩ : BufTy).Contents (Elt F) :=
  addi (broadcastInDim S116 ![] bcast_S_S116 (constantI S_ 32 19#32))
    (shapeCast S116 (extractStridedSlice S116x1 ![0, 0] T slices_S116x2_S116x1_0_0) shapeCasts_S116x1_S116)
@[inherit_doc shift19a]
def shift19b (T : (⟨S116x2, .i32⟩ : BufTy).Contents (Elt F)) : (⟨S116, .i32⟩ : BufTy).Contents (Elt F) :=
  addi (broadcastInDim S116 ![] bcast_S_S116 (constantI S_ 32 19#32))
    (shapeCast S116 (extractStridedSlice S116x1 ![0, 1] T slices_S116x2_S116x1_0_1) shapeCasts_S116x1_S116)

/-- A coordinate below zero counted from the far end (a negative index wraps; none of the shifted offsets is). -/
def wrap19 (A : (⟨S116, .i32⟩ : BufTy).Contents (Elt F)) : (⟨S116, .i32⟩ : BufTy).Contents (Elt F) :=
  select (cmpi .slt A (broadcastInDim S116 ![] bcast_S_S116 (constantI S_ 32 0#32)))
    (addi A (broadcastInDim S116 ![] bcast_S_S116 (constantI S_ 32 1062#32))) A

/-- The 116 × 2 table of start coordinates the gather reads: the two wrapped columns side by side. -/
def starts19 (T : (⟨S116x2, .i32⟩ : BufTy).Contents (Elt F)) : (⟨S116x2, .i32⟩ : BufTy).Contents (Elt F) :=
  concatenate S116x2 1
    [⟨S116x1, broadcastInDim S116x1 ![0] bcast_S116_S116x1_0 (wrap19 (shift19a T))⟩,
     ⟨S116x1, broadcastInDim S116x1 ![0] bcast_S116_S116x1_0 (wrap19 (shift19b T))⟩]
    concatenates_S116x1_S116x1_S116x2_d1

/-- The image padded by 19 on every side with 1e9. -/
def padded19 (x : (⟨S1024x1024, .f32⟩ : BufTy).Contents (Elt F)) : (⟨S1062x1062, .f32⟩ : BufTy).Contents (Elt F) :=
  pad S1062x1062 ![19, 19] ![19, 19] ![0, 0] x (id (constant S_ .f32 0x4E6E6B28#32)) pads_S1024x1024_S1062x1062_19190_19190 h_S_

/-- The 116 shifted copies of the image: copy k is the 1024 × 1024 window of the padded image that starts at row k of
    the start table. -/
def shifted19 (T : (⟨S116x2, .i32⟩ : BufTy).Contents (Elt F)) (x : (⟨S1024x1024, .f32⟩ : BufTy).Contents (Elt F)) : (⟨S116x1024x1024, .f32⟩ : BufTy).Contents (Elt F) :=
  Host.gather gather_S1062x1062_S116x2_S116x1024x1024_12_n_n_n_01_1_10241024 (padded19 x) (starts19 T)

/-- 1 − |x − shifted copy k|, for each of the 116 copies. -/
def score19 (T : (⟨S116x2, .i32⟩ : BufTy).Contents (Elt F)) (x : (⟨S1024x1024, .f32⟩ : BufTy).Contents (Elt F)) : (⟨S116x1024x1024, .f32⟩ : BufTy).Contents (Elt F) :=
  subf (broadcastInDim S116x1024x1024 ![] bcast_S_S116x1024x1024 (constant S_ .f32 0x3F800000#32))
    (Host.absf (subf
      (broadcastInDim S116x1024x1024 ![0, 1, 2] bcast_S1x1024x1024_S116x1024x1024_0_1_2
        (broadcastInDim S1x1024x1024 ![1, 2] bcast_S1024x1024_S1x1024x1024_1_2 x))
      (shifted19 T x)))

/-- The ring response of radius 19: the greatest score over the 116 copies, from −∞. -/
def geneo19 (T : (⟨S116x2, .i32⟩ : BufTy).Contents (Elt F)) (x : (⟨S1024x1024, .f32⟩ : BufTy).Contents (Elt F)) : (⟨S1024x1024, .f32⟩ : BufTy).Contents (Elt F) :=
  Host.reduce FloatOps.maximumf (score19 T x) (constant S_ .f32 0xFF800000#32) reducesTo_S116x1024x1024_S1024x1024_d0 h_S_

/-! ### The layer -/

/-- A weight (one number) spread over the image. -/
def spread (p : (⟨S1, .f32⟩ : BufTy).Contents (Elt F)) : (⟨S1024x1024, .f32⟩ : BufTy).Contents (Elt F) :=
  broadcastInDim S1024x1024 ![0, 1] bcast_S1x1_S1024x1024_0_1 (broadcastInDim S1x1 ![1] bcast_S1_S1x1_1 p)

/-- One layer over given offset tables. -/
def layerOn (T7 : (⟨S40x2, .i32⟩ : BufTy).Contents (Elt F)) (T11 : (⟨S72x2, .i32⟩ : BufTy).Contents (Elt F)) (T15 : (⟨S84x2, .i32⟩ : BufTy).Contents (Elt F)) (T19 : (⟨S116x2, .i32⟩ : BufTy).Contents (Elt F))
    (x : (⟨S1024x1024, .f32⟩ : BufTy).Contents (Elt F)) (p1 p2 p3 p4 : (⟨S1, .f32⟩ : BufTy).Contents (Elt F)) : (⟨S1024x1024, .f32⟩ : BufTy).Contents (Elt F) :=
  Host.divf
    (addf (addf (addf (mulf (spread p1) (geneo7 T7 x)) (mulf (spread p2) (geneo11 T11 x))) (mulf (spread p3) (geneo15 T15 x)))
      (mulf (spread p4) (geneo19 T19 x)))
    (spread (addf (addf (addf p1 p2) p3) p4))

/-- The four offset tables of the program's text (its first copies). -/
def tab7 : (⟨S40x2, .i32⟩ : BufTy).Contents (Elt F) := fun i => lit0 (S40x2.rowMajor i)
def tab11 : (⟨S72x2, .i32⟩ : BufTy).Contents (Elt F) := fun i => lit1 (S72x2.rowMajor i)
def tab15 : (⟨S84x2, .i32⟩ : BufTy).Contents (Elt F) := fun i => lit2 (S84x2.rowMajor i)
def tab19 : (⟨S116x2, .i32⟩ : BufTy).Contents (Elt F) := fun i => lit3 (S116x2.rowMajor i)

/-- One layer of the reference. -/
def layer (x : (⟨S1024x1024, .f32⟩ : BufTy).Contents (Elt F)) (p1 p2 p3 p4 : (⟨S1, .f32⟩ : BufTy).Contents (Elt F)) : (⟨S1024x1024, .f32⟩ : BufTy).Contents (Elt F) :=
  layerOn tab7 tab11 tab15 tab19 x p1 p2 p3 p4

/-- The reference's result: two layers with the same weights. -/
def res (x : (⟨S1024x1024, .f32⟩ : BufTy).Contents (Elt F)) (p1 p2 p3 p4 : (⟨S1, .f32⟩ : BufTy).Contents (Elt F)) : (⟨S1024x1024, .f32⟩ : BufTy).Contents (Elt F) :=
  layer (layer x p1 p2 p3 p4) p1 p2 p3 p4

/-- The second copies of the tables are the first. -/
theorem lit4_eq : lit4 = lit0 := rfl
theorem lit5_eq : lit5 = lit1 := rfl
theorem lit6_eq : lit6 = lit2 := rfl
theorem lit7_eq : lit7 = lit3 := rfl

end Cert.ReferenceIdeal.RefRun

end
-- ==== Proof.Ref.Fold.lean ====
/-
  The reference's run.  @main is a straight line of 370 operations (a call of a printed function being the callee's
  operations over the call's buffers): every weakly fair execution terminates with each buffer at the fold of the
  operations' results over the launch contents.  Read at the result buffer the fold is two layers of the ring
  operator (Layer.lean) applied to the arguments; read at an argument buffer it is the argument.
-/
import proofs.«126001_j6975026889201_2_alg».proof.Proof.Ref.Ops
import proofs.«126001_j6975026889201_2_alg».proof.Proof.Ref.Layer

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line -/

/-- The fold over two lines laid end to end is the second's over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

set_option maxRecDepth 4096 in
theorem part0_eq (d : Dev nD) : main_part0 (F := F) d = seq opsP0 := rfl

set_option maxRecDepth 4096 in
theorem part1_eq (d : Dev nD) : main_part1 (F := F) d = seq opsP1 := rfl

set_option maxRecDepth 4096 in
theorem part2_eq (d : Dev nD) : main_part2 (F := F) d = seq opsP2 := rfl

set_option maxRecDepth 4096 in
theorem part3_eq (d : Dev nD) : main_part3 (F := F) d = seq opsP3 := rfl

set_option maxRecDepth 4096 in
theorem part4_eq (d : Dev nD) : main_part4 (F := F) d = seq opsP4 := rfl

set_option maxRecDepth 4096 in
theorem part5_eq (d : Dev nD) : main_part5 (F := F) d = seq opsP5 := rfl

set_option maxRecDepth 4096 in
theorem part6_eq (d : Dev nD) : main_part6 (F := F) d = seq opsP6 := rfl

/-- @main runs its windows in order; each window is its list; lists laid end to end run one after the other. -/
theorem main_eq (c : Dev nD) : main (F := F) c = seq ops := by
  unfold main
  rw [part0_eq, part1_eq, part2_eq, part3_eq, part4_eq, part5_eq, part6_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨opsP0_sub, List.forall_append.2 ⟨opsP1_sub, List.forall_append.2 ⟨opsP2_sub,
    List.forall_append.2 ⟨opsP3_sub, List.forall_append.2 ⟨opsP4_sub, List.forall_append.2 ⟨opsP5_sub, opsP6_sub⟩⟩⟩⟩⟩⟩

theorem opsP0_fresh : ∀ op ∈ (opsP0 : List (HloOp τ sig (Elt F))), op.fresh = ∅ := by
  intro _ h; (repeat (cases h with | head => rfl | tail _ h => ?_)); exact nomatch h

theorem opsP1_fresh : ∀ op ∈ (opsP1 : List (HloOp τ sig (Elt F))), op.fresh = ∅ := by
  intro _ h; (repeat (cases h with | head => rfl | tail _ h => ?_)); exact nomatch h

theorem opsP2_fresh : ∀ op ∈ (opsP2 : List (HloOp τ sig (Elt F))), op.fresh = ∅ := by
  intro _ h; (repeat (cases h with | head => rfl | tail _ h => ?_)); exact nomatch h

theorem opsP3_fresh : ∀ op ∈ (opsP3 : List (HloOp τ sig (Elt F))), op.fresh = ∅ := by
  intro _ h; (repeat (cases h with | head => rfl | tail _ h => ?_)); exact nomatch h

theorem opsP4_fresh : ∀ op ∈ (opsP4 : List (HloOp τ sig (Elt F))), op.fresh = ∅ := by
  intro _ h; (repeat (cases h with | head => rfl | tail _ h => ?_)); exact nomatch h

theorem opsP5_fresh : ∀ op ∈ (opsP5 : List (HloOp τ sig (Elt F))), op.fresh = ∅ := by
  intro _ h; (repeat (cases h with | head => rfl | tail _ h => ?_)); exact nomatch h

theorem opsP6_fresh : ∀ op ∈ (opsP6 : List (HloOp τ sig (Elt F))), op.fresh = ∅ := by
  intro _ h; (repeat (cases h with | head => rfl | tail _ h => ?_)); exact nomatch h

/-- No operation of the line leaves a result undetermined. -/
theorem ops_fresh : ∀ op ∈ (ops : List (HloOp τ sig (Elt F))), op.fresh = ∅ := by
  intro op h
  simp only [ops, List.mem_append] at h
  rcases h with h | h | h | h | h | h | h
  · exact opsP0_fresh op h
  · exact opsP1_fresh op h
  · exact opsP2_fresh op h
  · exact opsP3_fresh op h
  · exact opsP4_fresh op h
  · exact opsP5_fresh op h
  · exact opsP6_fresh op h

/-- Every weakly fair execution of @main terminates with each TensorCore buffer at the fold of the line over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.Ref.Out.lean ====
/-
  The fold of the line read at the result buffer and at the argument buffers.  The line is cut where the computation
  does (Chunks.lean); over any contents, each list leaves at its last buffer the step of the layer it computes — a table,
  a radius' weighted response added to the running sum, the division by the sum of the weights — as a function of the
  contents it starts from, and leaves every buffer it does not write as it was.  Chained, the eleven steps are two
  layers (Layer.lean) of the image with the same weights; no list writes an argument.
-/
import proofs.«126001_j6975026889201_2_alg».proof.Proof.Ref.Chunks
import proofs.«126001_j6975026889201_2_alg».proof.Proof.Ref.Fold

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What a list does not write it keeps -/

theorem cT_keep (W : Valuation τ sig (Elt F)) (r : Ref sig .tc) (h : r ∉ cT_W) :
    after cT W (no_index (Proc.devRef .tc r)) = W (Proc.devRef .tc r) :=
  after_of_writes_sub cT W cT_writes h

theorem cA7_keep (W : Valuation τ sig (Elt F)) (r : Ref sig .tc) (h : r ∉ cA7_W) :
    after cA7 W (no_index (Proc.devRef .tc r)) = W (Proc.devRef .tc r) :=
  after_of_writes_sub cA7 W cA7_writes h

theorem cA11_keep (W : Valuation τ sig (Elt F)) (r : Ref sig .tc) (h : r ∉ cA11_W) :
    after cA11 W (no_index (Proc.devRef .tc r)) = W (Proc.devRef .tc r) :=
  after_of_writes_sub cA11 W cA11_writes h

theorem cA15_keep (W : Valuation τ sig (Elt F)) (r : Ref sig .tc) (h : r ∉ cA15_W) :
    after cA15 W (no_index (Proc.devRef .tc r)) = W (Proc.devRef .tc r) :=
  after_of_writes_sub cA15 W cA15_writes h

theorem cA19_keep (W : Valuation τ sig (Elt F)) (r : Ref sig .tc) (h : r ∉ cA19_W) :
    after cA19 W (no_index (Proc.devRef .tc r)) = W (Proc.devRef .tc r) :=
  after_of_writes_sub cA19 W cA19_writes h

theorem cAfin_keep (W : Valuation τ sig (Elt F)) (r : Ref sig .tc) (h : r ∉ cAfin_W) :
    after cAfin W (no_index (Proc.devRef .tc r)) = W (Proc.devRef .tc r) :=
  after_of_writes_sub cAfin W cAfin_writes h

theorem cB7_keep (W : Valuation τ sig (Elt F)) (r : Ref sig .tc) (h : r ∉ cB7_W) :
    after cB7 W (no_index (Proc.devRef .tc r)) = W (Proc.devRef .tc r) :=
  after_of_writes_sub cB7 W cB7_writes h

theorem cB11_keep (W : Valuation τ sig (Elt F)) (r : Ref sig .tc) (h : r ∉ cB11_W) :
    after cB11 W (no_index (Proc.devRef .tc r)) = W (Proc.devRef .tc r) :=
  after_of_writes_sub cB11 W cB11_writes h

theorem cB15_keep (W : Valuation τ sig (Elt F)) (r : Ref sig .tc) (h : r ∉ cB15_W) :
    after cB15 W (no_index (Proc.devRef .tc r)) = W (Proc.devRef .tc r) :=
  after_of_writes_sub cB15 W cB15_writes h

theorem cB19_keep (W : Valuation τ sig (Elt F)) (r : Ref sig .tc) (h : r ∉ cB19_W) :
    after cB19 W (no_index (Proc.devRef .tc r)) = W (Proc.devRef .tc r) :=
  after_of_writes_sub cB19 W cB19_writes h

theorem cBfin_keep (W : Valuation τ sig (Elt F)) (r : Ref sig .tc) (h : r ∉ cBfin_W) :
    after cBfin W (no_index (Proc.devRef .tc r)) = W (Proc.devRef .tc r) :=
  after_of_writes_sub cBfin W cBfin_writes h

/-! ## The tables -/

theorem cT_main_c (W : Valuation τ sig (Elt F)) : after cT W (no_index (Proc.devRef .tc main_c)) = tab7 := by
  simp only [cT]
  after_results_simp
  rfl

theorem cT_main_c_0 (W : Valuation τ sig (Elt F)) : after cT W (no_index (Proc.devRef .tc main_c_0)) = tab11 := by
  simp only [cT]
  after_results_simp
  rfl

theorem cT_main_c_1 (W : Valuation τ sig (Elt F)) : after cT W (no_index (Proc.devRef .tc main_c_1)) = tab15 := by
  simp only [cT]
  after_results_simp
  rfl

theorem cT_main_c_2 (W : Valuation τ sig (Elt F)) : after cT W (no_index (Proc.devRef .tc main_c_2)) = tab19 := by
  simp only [cT]
  after_results_simp
  rfl

theorem cT_main_c_3 (W : Valuation τ sig (Elt F)) : after cT W (no_index (Proc.devRef .tc main_c_3)) = tab7 := by
  simp only [cT]
  after_results_simp
  rfl

theorem cT_main_c_4 (W : Valuation τ sig (Elt F)) : after cT W (no_index (Proc.devRef .tc main_c_4)) = tab11 := by
  simp only [cT]
  after_results_simp
  rfl

theorem cT_main_c_5 (W : Valuation τ sig (Elt F)) : after cT W (no_index (Proc.devRef .tc main_c_5)) = tab15 := by
  simp only [cT]
  after_results_simp
  rfl

theorem cT_main_c_6 (W : Valuation τ sig (Elt F)) : after cT W (no_index (Proc.devRef .tc main_c_6)) = tab19 := by
  simp only [cT]
  after_results_simp
  rfl

/-! ## The steps

The array operations stay folded while the two sides are compared: the comparison is of how they are composed, never of
what they compute. -/

attribute [local irreducible] Host.reduce Host.gather pad concatenate

set_option maxRecDepth 16384 in
set_option maxHeartbeats 4000000 in
theorem cA7_val (W : Valuation τ sig (Elt F)) :
    after cA7 W (no_index (Proc.devRef .tc main_v32))
      = mulf (spread (W (Proc.devRef .tc main_arg1))) (geneo7 (W (Proc.devRef .tc main_c)) (W (Proc.devRef .tc main_arg0))) := by
  simp only [cA7]
  after_results_simp
  rfl

set_option maxRecDepth 16384 in
set_option maxHeartbeats 4000000 in
theorem cA11_val (W : Valuation τ sig (Elt F)) :
    after cA11 W (no_index (Proc.devRef .tc main_v66))
      = addf (W (Proc.devRef .tc main_v32)) (mulf (spread (W (Proc.devRef .tc main_arg2))) (geneo11 (W (Proc.devRef .tc main_c_0)) (W (Proc.devRef .tc main_arg0)))) := by
  simp only [cA11]
  after_results_simp
  rfl

set_option maxRecDepth 16384 in
set_option maxHeartbeats 4000000 in
theorem cA15_val (W : Valuation τ sig (Elt F)) :
    after cA15 W (no_index (Proc.devRef .tc main_v100))
      = addf (W (Proc.devRef .tc main_v66)) (mulf (spread (W (Proc.devRef .tc main_arg3))) (geneo15 (W (Proc.devRef .tc main_c_1)) (W (Proc.devRef .tc main_arg0)))) := by
  simp only [cA15]
  after_results_simp
  rfl

set_option maxRecDepth 16384 in
set_option maxHeartbeats 4000000 in
theorem cA19_val (W : Valuation τ sig (Elt F)) :
    after cA19 W (no_index (Proc.devRef .tc main_v134))
      = addf (W (Proc.devRef .tc main_v100)) (mulf (spread (W (Proc.devRef .tc main_arg4))) (geneo19 (W (Proc.devRef .tc main_c_2)) (W (Proc.devRef .tc main_arg0)))) := by
  simp only [cA19]
  after_results_simp
  rfl

set_option maxRecDepth 16384 in
set_option maxHeartbeats 4000000 in
theorem cAfin_val (W : Valuation τ sig (Elt F)) :
    after cAfin W (no_index (Proc.devRef .tc main_v140))
      = Host.divf (W (Proc.devRef .tc main_v134)) (spread (addf (addf (addf (W (Proc.devRef .tc main_arg1)) (W (Proc.devRef .tc main_arg2))) (W (Proc.devRef .tc main_arg3))) (W (Proc.devRef .tc main_arg4)))) := by
  simp only [cAfin]
  after_results_simp
  rfl

set_option maxRecDepth 16384 in
set_option maxHeartbeats 4000000 in
theorem cB7_val (W : Valuation τ sig (Elt F)) :
    after cB7 W (no_index (Proc.devRef .tc main_v173))
      = mulf (spread (W (Proc.devRef .tc main_arg1))) (geneo7 (W (Proc.devRef .tc main_c_3)) (W (Proc.devRef .tc main_v140))) := by
  simp only [cB7]
  after_results_simp
  rfl

set_option maxRecDepth 16384 in
set_option maxHeartbeats 4000000 in
theorem cB11_val (W : Valuation τ sig (Elt F)) :
    after cB11 W (no_index (Proc.devRef .tc main_v207))
      = addf (W (Proc.devRef .tc main_v173)) (mulf (spread (W (Proc.devRef .tc main_arg2))) (geneo11 (W (Proc.devRef .tc main_c_4)) (W (Proc.devRef .tc main_v140)))) := by
  simp only [cB11]
  after_results_simp
  rfl

set_option maxRecDepth 16384 in
set_option maxHeartbeats 4000000 in
theorem cB15_val (W : Valuation τ sig (Elt F)) :
    after cB15 W (no_index (Proc.devRef .tc main_v241))
      = addf (W (Proc.devRef .tc main_v207)) (mulf (spread (W (Proc.devRef .tc main_arg3))) (geneo15 (W (Proc.devRef .tc main_c_5)) (W (Proc.devRef .tc main_v140)))) := by
  simp only [cB15]
  after_results_simp
  rfl

set_option maxRecDepth 16384 in
set_option maxHeartbeats 4000000 in
theorem cB19_val (W : Valuation τ sig (Elt F)) :
    after cB19 W (no_index (Proc.devRef .tc main_v275))
      = addf (W (Proc.devRef .tc main_v241)) (mulf (spread (W (Proc.devRef .tc main_arg4))) (geneo19 (W (Proc.devRef .tc main_c_6)) (W (Proc.devRef .tc main_v140)))) := by
  simp only [cB19]
  after_results_simp
  rfl

set_option maxRecDepth 16384 in
set_option maxHeartbeats 4000000 in
theorem cBfin_val (W : Valuation τ sig (Elt F)) :
    after cBfin W (no_index (Proc.devRef .tc main_v281))
      = Host.divf (W (Proc.devRef .tc main_v275)) (spread (addf (addf (addf (W (Proc.devRef .tc main_arg1)) (W (Proc.devRef .tc main_arg2))) (W (Proc.devRef .tc main_arg3))) (W (Proc.devRef .tc main_arg4)))) := by
  simp only [cBfin]
  after_results_simp
  rfl

/-! ## The chain -/

set_option maxRecDepth 16384 in
/-- The line's fold at the result buffer: two layers. -/
theorem out_eq (V : Valuation τ sig (Elt F)) :
    after ops V (no_index (Proc.devRef .tc main_v281))
      = res (V (Proc.devRef .tc main_arg0)) (V (Proc.devRef .tc main_arg1)) (V (Proc.devRef .tc main_arg2)) (V (Proc.devRef .tc main_arg3)) (V (Proc.devRef .tc main_arg4)) := by
  rw [ops_eq_chunks]
  simp only [after_append]
  simp (disch := decide) only [cA7_val, cA11_val, cA15_val, cA19_val, cAfin_val, cB7_val, cB11_val, cB15_val, cB19_val, cBfin_val, cT_main_c, cT_main_c_0, cT_main_c_1, cT_main_c_2, cT_main_c_3, cT_main_c_4, cT_main_c_5, cT_main_c_6, cT_keep, cA7_keep, cA11_keep, cA15_keep, cA19_keep, cAfin_keep, cB7_keep, cB11_keep, cB15_keep, cB19_keep, cBfin_keep]
  rfl

theorem arg0_eq (V : Valuation τ sig (Elt F)) : after ops V (no_index (Proc.devRef .tc main_arg0)) = V (Proc.devRef .tc main_arg0) := by
  rw [ops_eq_chunks]
  simp only [after_append]
  simp (disch := decide) only [cT_keep, cA7_keep, cA11_keep, cA15_keep, cA19_keep, cAfin_keep, cB7_keep, cB11_keep, cB15_keep, cB19_keep, cBfin_keep]

theorem arg1_eq (V : Valuation τ sig (Elt F)) : after ops V (no_index (Proc.devRef .tc main_arg1)) = V (Proc.devRef .tc main_arg1) := by
  rw [ops_eq_chunks]
  simp only [after_append]
  simp (disch := decide) only [cT_keep, cA7_keep, cA11_keep, cA15_keep, cA19_keep, cAfin_keep, cB7_keep, cB11_keep, cB15_keep, cB19_keep, cBfin_keep]

theorem arg2_eq (V : Valuation τ sig (Elt F)) : after ops V (no_index (Proc.devRef .tc main_arg2)) = V (Proc.devRef .tc main_arg2) := by
  rw [ops_eq_chunks]
  simp only [after_append]
  simp (disch := decide) only [cT_keep, cA7_keep, cA11_keep, cA15_keep, cA19_keep, cAfin_keep, cB7_keep, cB11_keep, cB15_keep, cB19_keep, cBfin_keep]

theorem arg3_eq (V : Valuation τ sig (Elt F)) : after ops V (no_index (Proc.devRef .tc main_arg3)) = V (Proc.devRef .tc main_arg3) := by
  rw [ops_eq_chunks]
  simp only [after_append]
  simp (disch := decide) only [cT_keep, cA7_keep, cA11_keep, cA15_keep, cA19_keep, cAfin_keep, cB7_keep, cB11_keep, cB15_keep, cB19_keep, cBfin_keep]

theorem arg4_eq (V : Valuation τ sig (Elt F)) : after ops V (no_index (Proc.devRef .tc main_arg4)) = V (Proc.devRef .tc main_arg4) := by
  rw [ops_eq_chunks]
  simp only [after_append]
  simp (disch := decide) only [cT_keep, cA7_keep, cA11_keep, cA15_keep, cA19_keep, cAfin_keep, cB7_keep, cB11_keep, cB15_keep, cB19_keep, cBfin_keep]

end Cert.ReferenceIdeal.RefRun

end
-- ==== Proof.Ref.Run.lean ====
/-
  The reference's run, read back: every weakly fair execution of @main terminates with the result buffer holding two
  layers of the ring operator (Layer.lean) of the launch's image and weights, and the five argument buffers as
  launched.  It is the fold of the line (Fold.lean) read at those buffers (Out.lean).
-/
import proofs.«126001_j6975026889201_2_alg».proof.Proof.Ref.Out

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates with the result at two layers of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v281)
          = res (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v281).trans (out_eq _), (h c main_arg0).trans (arg0_eq _),
      (h c main_arg1).trans (arg1_eq _), (h c main_arg2).trans (arg2_eq _), (h c main_arg3).trans (arg3_eq _),
      (h c main_arg4).trans (arg4_eq _)⟩)
    (run_fold m ρ)

/-- The same with the result dropped: the arguments are as launched. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => (h c).2) (run m ρ)

end Cert.ReferenceIdeal.RefRun

end
-- ==== Proof.Ref.LayerVal.lean ====
/-
  One layer of the reference, element by element: it is the specification's layer.  For each radius the gather's
  copy k at (i, j) is the padded image at the k-th ring offset from (i, j); the padded image is the specification's
  image padded by 19 read 19 − r further in; the greatest of 1 − |centre − neighbour| from −∞ is 1 − the least
  |centre − neighbour| from +∞.
-/
import proofs.«126001_j6975026889201_2_alg».proof.Proof.Ref.Layer
import proofs.«126001_j6975026889201_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefVal

open Cert.ReferenceIdeal Cert.ReferenceIdeal.Gen Cert.ReferenceIdeal.RefRun Idealize.ShloMosaic Idealize.ShloMosaic.ValueIdx

/-! ## The start table, read at a row -/

section Table
variable {n : ℕ}

/-- Column `c` of an n × 2 table as a vector, at k: the table at (k, c). -/
theorem col_read (c : Fin 2) (T : (⟨2, ![n, 2]⟩ : Shape).Idx → BitVec 32)
    (hs : (⟨2, ![n, 2]⟩ : Shape).Slices ![0, c.val] ⟨2, ![n, 1]⟩) (hsc : (⟨2, ![n, 1]⟩ : Shape).ShapeCasts ⟨1, ![n]⟩) (k : Fin n) :
    shapeCast ⟨1, ![n]⟩ (extractStridedSlice ⟨2, ![n, 1]⟩ ![0, c.val] T hs) hsc (ix1 k) = T (ix2 k c) := by
  refine (shapeCast_apply _ hsc (ix1 k) (ix2 k (0 : Fin 1)) ?_).trans ?_
  · rw [Shape.rowMajor_val_two, Shape.rowMajor_val_one]
    show k.val * 1 + 0 = k.val
    omega
  · refine extractStridedSlice_apply _ T hs _ (ix2 k c) fun a => ?_
    match a with
    | ⟨0, _⟩ => show k.val = 0 + k.val; omega
    | ⟨1, _⟩ => show c.val = c.val + 0; omega

/-- A vector as an n × 1 column, at (k, 0): the vector at k. -/
theorem bcol_read (hn : n ≠ 1) (A : (⟨1, ![n]⟩ : Shape).Idx → BitVec 32)
    (hb : (⟨1, ![n]⟩ : Shape).BroadcastsInDim ⟨2, ![n, 1]⟩ ![0]) (k : Fin n) :
    broadcastInDim ⟨2, ![n, 1]⟩ ![0] hb A (ix2 k (0 : Fin 1)) = A (ix1 k) := by
  refine broadcastInDim_apply _ hb A _ (ix1 k) fun a => ?_
  match a with
  | ⟨0, _⟩ => show k.val = if n = 1 then 0 else k.val; rw [if_neg hn]

/-- Two n × 1 columns side by side, at (k, 0) and at (k, 1). -/
theorem cat_read0 (A B : (⟨2, ![n, 1]⟩ : Shape).Idx → BitVec 32)
    (h : Shape.Concatenates [(⟨2, ![n, 1]⟩ : Shape), ⟨2, ![n, 1]⟩] ⟨2, ![n, 2]⟩ 1) (k : Fin n) :
    concatenate ⟨2, ![n, 2]⟩ 1 [⟨⟨2, ![n, 1]⟩, A⟩, ⟨⟨2, ![n, 1]⟩, B⟩] h (ix2 k (0 : Fin 2)) = A (ix2 k (0 : Fin 1)) := by
  refine concatenate_pair_apply_left 1 A B h _ rfl (ix2 k (0 : Fin 1)) fun b => ?_
  match b with
  | ⟨0, _⟩ => rfl
  | ⟨1, _⟩ => rfl

theorem cat_read1 (A B : (⟨2, ![n, 1]⟩ : Shape).Idx → BitVec 32)
    (h : Shape.Concatenates [(⟨2, ![n, 1]⟩ : Shape), ⟨2, ![n, 1]⟩] ⟨2, ![n, 2]⟩ 1) (k : Fin n) :
    concatenate ⟨2, ![n, 2]⟩ 1 [⟨⟨2, ![n, 1]⟩, A⟩, ⟨⟨2, ![n, 1]⟩, B⟩] h (ix2 k (1 : Fin 2)) = B (ix2 k (0 : Fin 1)) := by
  refine concatenate_pair_apply_right 1 A B h _ rfl rfl (ix2 k (0 : Fin 1)) (fun b hb => ?_) rfl
  match b with
  | ⟨0, _⟩ => rfl
  | ⟨1, _⟩ => exact absurd rfl hb

end Table

/-! ## The gather of 1024 × 1024 windows, read at an index -/

section Gather
variable {α : Type} {P n w : ℕ}

/-- The dimension numbers of a gather of n windows of 1024 × 1024 out of a P × P array at an n × 2 table of starts. -/
abbrev winDims (P n : ℕ)
    (wf : GatherDims.WF ⟨2, ![P, P]⟩ ⟨2, ![n, 2]⟩ ⟨3, ![n, 1024, 1024]⟩ [1, 2] [] [] [0, 1] [] 1 ![1024, 1024]) :
    GatherDims ⟨2, ![P, P]⟩ ⟨2, ![n, 2]⟩ ⟨3, ![n, 1024, 1024]⟩ where
  offsetDims := [1, 2]
  collapsedSliceDims := []
  operandBatchingDims := []
  startIndicesBatchingDims := []
  startIndexMap := [0, 1]
  indexVectorDim := 1
  sliceSizes := ![1024, 1024]
  wf := wf

/-- Window k at (i, j): the array at the k-th start (read signed, clamped so that the window fits) plus (i, j). -/
theorem gather_win_apply (hP : 1024 ≤ P)
    (wf : GatherDims.WF ⟨2, ![P, P]⟩ ⟨2, ![n, 2]⟩ ⟨3, ![n, 1024, 1024]⟩ [1, 2] [] [] [0, 1] [] 1 ![1024, 1024])
    (x : (⟨2, ![P, P]⟩ : Shape).Idx → α) (idx : IVec ⟨2, ![n, 2]⟩ w) (k : Fin n) (i j : Fin 1024) :
    Host.gather (winDims P n wf) x idx (ix3 k i j)
      = x (ix2 ⟨min (idx (ix2 k (0 : Fin 2))).toInt.toNat (P - 1024) + i.val, by have := i.isLt; omega⟩
            ⟨min (idx (ix2 k (1 : Fin 2))).toInt.toNat (P - 1024) + j.val, by have := j.isLt; omega⟩) := by
  unfold Host.gather
  refine congrArg x (funext fun a => Fin.ext ?_)
  match a with
  | ⟨0, _⟩ =>
    show (winDims P n wf).start (ix3 k i j) idx 0 + (winDims P n wf).batchCoord (ix3 k i j) 0 + (winDims P n wf).offCoord (ix3 k i j) 0 = _
    rw [GatherDims.batchCoord_eq_zero _ _ _ List.not_mem_nil, Nat.add_zero]
    have ho : (winDims P n wf).offCoord (ix3 k i j) 0 = i.val := rfl
    rw [ho]
    unfold GatherDims.start
    rw [dif_pos (show (0 : Fin 2) ∈ (winDims P n wf).startIndexMap from List.mem_cons_self)]
    have hsi : (winDims P n wf).siIdx (ix3 k i j) ⟨List.idxOf (0 : Fin 2) (winDims P n wf).startIndexMap,
        List.idxOf_lt_length_iff.2 List.mem_cons_self⟩ = ix2 k (0 : Fin 2) := by
      funext b; refine Fin.ext ?_
      match b with
      | ⟨0, _⟩ => rfl
      | ⟨1, _⟩ => rfl
    rw [hsi]
    rfl
  | ⟨1, _⟩ =>
    show (winDims P n wf).start (ix3 k i j) idx 1 + (winDims P n wf).batchCoord (ix3 k i j) 1 + (winDims P n wf).offCoord (ix3 k i j) 1 = _
    rw [GatherDims.batchCoord_eq_zero _ _ _ List.not_mem_nil, Nat.add_zero]
    have ho : (winDims P n wf).offCoord (ix3 k i j) 1 = j.val := rfl
    rw [ho]
    unfold GatherDims.start
    rw [dif_pos (show (1 : Fin 2) ∈ (winDims P n wf).startIndexMap from List.mem_cons_of_mem _ List.mem_cons_self)]
    have hsi : (winDims P n wf).siIdx (ix3 k i j) ⟨List.idxOf (1 : Fin 2) (winDims P n wf).startIndexMap,
        List.idxOf_lt_length_iff.2 (List.mem_cons_of_mem _ List.mem_cons_self)⟩ = ix2 k (1 : Fin 2) := by
      funext b; refine Fin.ext ?_
      match b with
      | ⟨0, _⟩ => rfl
      | ⟨1, _⟩ => rfl
    rw [hsi]
    rfl

end Gather

/-! ## The padded image, read at an index -/

section Pad

/-- The image padded by r ≤ 19 with `big`, at (u, w): the specification's image padded by 19, read 19 − r further in. -/
theorem pad_read (r P : ℕ) (hr : r ≤ 19) (x : (⟨2, ![1024, 1024]⟩ : Shape).Idx → EReal) (v : (⟨0, ![]⟩ : Shape).Idx → EReal)
    (hp : (⟨2, ![1024, 1024]⟩ : Shape).Pads ![r, r] ![r, r] ![0, 0] ⟨2, ![P, P]⟩) (hu : 0 < (⟨0, ![]⟩ : Shape).numel)
    (hv : v (Shape.Idx.first hu) = Cert.Ring.big) (u w : Fin P) :
    pad ⟨2, ![P, P]⟩ ![r, r] ![r, r] ![0, 0] x v hp hu (ix2 u w)
      = Cert.Ring.pad19 x (u.val + (19 - r)) (w.val + (19 - r)) := by
  unfold pad
  split
  · next hin =>
    have h0 : r ≤ u.val ∧ (u.val - r) % (0 + 1) = 0 ∧ (u.val - r) / (0 + 1) < 1024 := hin 0
    have h1 : r ≤ w.val ∧ (w.val - r) % (0 + 1) = 0 ∧ (w.val - r) / (0 + 1) < 1024 := hin 1
    simp only [Nat.zero_add, Nat.div_one] at h0 h1
    unfold Cert.Ring.pad19
    rw [dif_pos (⟨⟨by omega, by omega⟩, ⟨by omega, by omega⟩⟩ :
      (19 ≤ u.val + (19 - r) ∧ u.val + (19 - r) < 1043) ∧ (19 ≤ w.val + (19 - r) ∧ w.val + (19 - r) < 1043))]
    refine congrArg x (funext fun a => Fin.ext ?_)
    match a with
    | ⟨0, _⟩ => show (u.val - r) / (0 + 1) = u.val + (19 - r) - 19; rw [Nat.zero_add, Nat.div_one]; omega
    | ⟨1, _⟩ => show (w.val - r) / (0 + 1) = w.val + (19 - r) - 19; rw [Nat.zero_add, Nat.div_one]; omega
  · next hin =>
    unfold Cert.Ring.pad19
    rw [dif_neg, hv]
    intro hc
    obtain ⟨⟨hc1, hc2⟩, ⟨hc3, hc4⟩⟩ := hc
    apply hin
    intro a
    match a with
    | ⟨0, _⟩ =>
      show r ≤ u.val ∧ (u.val - r) % (0 + 1) = 0 ∧ (u.val - r) / (0 + 1) < 1024
      refine ⟨by omega, Nat.mod_one _, ?_⟩
      rw [Nat.zero_add, Nat.div_one]; omega
    | ⟨1, _⟩ =>
      show r ≤ w.val ∧ (w.val - r) % (0 + 1) = 0 ∧ (w.val - r) / (0 + 1) < 1024
      refine ⟨by omega, Nat.mod_one _, ?_⟩
      rw [Nat.zero_add, Nat.div_one]; omega

end Pad

/-! ## The greatest over the copies -/

section Reduce

/-- A fold of `max` over all of `Fin n` is the left fold over the listed values. -/
theorem fold_univ_eq_foldl {n : ℕ} (f : Fin n → EReal) (b : EReal) :
    (Finset.univ : Finset (Fin n)).fold max b f = (List.ofFn f).foldl max b := by
  rw [List.ofFn_eq_map]
  show Multiset.fold max b (Multiset.map f (List.finRange n : Multiset (Fin n))) = _
  rw [Multiset.map_coe, Multiset.coe_fold_l]

/-- The word of −∞ denotes ⊥. -/
theorem word_bot : Ideal.ofBits .f32 0xFF800000#32 = (⊥ : EReal) := by
  simp [Ideal.ofBits, Ideal.ieee]

/-- The greatest of n copies from −∞, at (i, j): the left fold of `max` from ⊥ over the copies' values there. -/
theorem reduce_read {n : ℕ} (S : (⟨3, ![n, 1024, 1024]⟩ : Shape).Idx → EReal) (init : (⟨0, ![]⟩ : Shape).Idx → EReal)
    (h' : (⟨3, ![n, 1024, 1024]⟩ : Shape).ReducesTo [0] ⟨2, ![1024, 1024]⟩)
    (h : (⟨3, ![n, 1024, 1024]⟩ : Shape).Reduces [0] ⟨2, ![1024, 1024]⟩)
    (hu : 0 < (⟨0, ![]⟩ : Shape).numel) (hinit : init (Shape.Idx.first hu) = ⊥) (i j : Fin 1024) :
    Host.reduce (α := Ideal .f32) FloatOps.maximumf S init h' hu (ix2 i j)
      = (List.ofFn fun k : Fin n => S (ix3 k i j)).foldl max ⊥ := by
  refine (Host.reduce_eq_fold_single (α := Ideal .f32) FloatOps.maximumf S init h' h hu (ix2 i j)).trans ?_
  rw [hinit]
  have hf : (S ∘ h.lift (ix2 i j)) = fun k : Fin n => S (ix3 k i j) := by
    funext k
    refine congrArg S (funext fun c => Fin.ext ?_)
    fin_cases c <;> rfl
  rw [hf]
  exact fold_univ_eq_foldl _ ⊥

end Reduce

/-! ## The ring's fold against the specification's -/

section Ring

/-- The start coordinate the gather uses for a table word `wd`: the word plus the radius, counted from the far end when
    below zero, read signed, clamped to `cap`. -/
def startOf (r m : BitVec 32) (cap : ℕ) (wd : BitVec 32) : ℕ :=
  min (Scalar.select (IntOp.cmpi .slt (IntOp.addi r wd) 0#32) (IntOp.addi (IntOp.addi r wd) m) (IntOp.addi r wd)).toInt.toNat cap

/-- The greatest of 1 − |c − neighbour| over the listed neighbours from ⊥ is 1 − the least |c − neighbour| from ⊤, the
    neighbours taken at the offsets the start table lists. -/
theorem ring_fold {n : ℕ} (c : EReal) (pd : ℕ → ℕ → EReal) (i j d : ℕ) (sa sb : Fin n → ℕ) (K : List (ℕ × ℕ))
    (hK : (List.ofFn fun k : Fin n => (sa k + d, sb k + d)) = K) :
    (List.ofFn fun k : Fin n => Cert.Ring.one - Cert.Ring.absE (c - pd (sa k + i + d) (sb k + j + d))).foldl max ⊥
      = Cert.Ring.one - Cert.Ring.ringMin c (K.map fun o => pd (i + o.1) (j + o.2)) := by
  rw [Cert.Ring.sub_foldl_min, List.map_map, ← hK, List.map_ofFn]
  refine congrArg (fun l => List.foldl max ⊥ l) (congrArg List.ofFn (funext fun k => ?_))
  show _ = Cert.Ring.one - Cert.Ring.absE (c - pd (i + (sa k + d)) (j + (sb k + d)))
  rw [show sa k + i + d = i + (sa k + d) by omega, show sb k + j + d = j + (sb k + d) by omega]

/-- The image under a leading axis of n copies, at copy k, (i, j): the image at (i, j). -/
theorem bimg_read {n : ℕ} (x : (⟨2, ![1024, 1024]⟩ : Shape).Idx → EReal)
    (h1 : (⟨2, ![1024, 1024]⟩ : Shape).BroadcastsInDim ⟨3, ![1, 1024, 1024]⟩ ![1, 2])
    (h2 : (⟨3, ![1, 1024, 1024]⟩ : Shape).BroadcastsInDim ⟨3, ![n, 1024, 1024]⟩ ![0, 1, 2]) (k : Fin n) (i j : Fin 1024) :
    broadcastInDim ⟨3, ![n, 1024, 1024]⟩ ![0, 1, 2] h2 (broadcastInDim ⟨3, ![1, 1024, 1024]⟩ ![1, 2] h1 x) (ix3 k i j) = x (ix2 i j) := by
  refine (broadcastInDim_apply _ h2 _ _ (ix3 (0 : Fin 1) i j) fun a => ?_).trans
    (broadcastInDim_apply _ h1 x _ (ix2 i j) fun a => ?_)
  · match a with
    | ⟨0, _⟩ => rfl
    | ⟨1, _⟩ => rfl
    | ⟨2, _⟩ => rfl
  · match a with
    | ⟨0, _⟩ => rfl
    | ⟨1, _⟩ => rfl

/-- A weight spread over the image, anywhere: the weight. -/
theorem spread_read (p : (⟨1, ![1]⟩ : Shape).Idx → EReal) (i j : Fin 1024) :
    spread (F := Ideal) p (ix2 i j) = p (ix1 0) := by
  unfold spread
  refine (broadcastInDim_apply _ _ _ _ (ix2 (0 : Fin 1) (0 : Fin 1)) fun a => ?_).trans
    (broadcastInDim_apply _ _ p _ (ix1 (0 : Fin 1)) fun a => ?_)
  · match a with
    | ⟨0, _⟩ => rfl
    | ⟨1, _⟩ => rfl
  · match a with
    | ⟨0, _⟩ => rfl

end Ring

/-- One copy's score at an index. -/
theorem score_at {s : Shape} (o A B : FVec Ideal s .f32) (idx : s.Idx) :
    subf o (Host.absf (subf A B)) idx = o idx - Cert.Ring.absE (A idx - B idx) := rfl

set_option maxRecDepth 65536

/-! ### Radius 7: 40 offsets, the image padded to 1038 × 1038 -/

/-- The offset table's rows, as start coordinates shifted to the image padded by 19, are the specification's offsets. -/
theorem tab7_K : (List.ofFn fun k : Fin 40 =>
      (startOf 7#32 1038#32 14 (tab7 (F := Ideal) (ix2 k (0 : Fin 2))) + 12,
       startOf 7#32 1038#32 14 (tab7 (F := Ideal) (ix2 k (1 : Fin 2))) + 12)) = Cert.Ring.K7 := by
  decide

/-- Row k of the start table, clamped: the start coordinate of the offset table's word. -/
theorem starts7_at (T : (⟨S40x2, .i32⟩ : BufTy).Contents (Elt Ideal)) (k : Fin 40) (c : Fin 2) :
    min (starts7 T (ix2 k c)).toInt.toNat 14 = startOf 7#32 1038#32 14 (T (ix2 k c)) := by
  have e : starts7 T (ix2 k c)
      = Scalar.select (IntOp.cmpi .slt (IntOp.addi 7#32 (T (ix2 k c))) 0#32)
          (IntOp.addi (IntOp.addi 7#32 (T (ix2 k c))) 1038#32) (IntOp.addi 7#32 (T (ix2 k c))) := by
    unfold starts7
    match c with
    | ⟨0, _⟩ =>
      refine (cat_read0 _ _ _ k).trans ((bcol_read (by decide) _ _ k).trans ?_)
      have e1 : shift7a T (ix1 k) = IntOp.addi 7#32 (T (ix2 k (0 : Fin 2))) :=
        congrArg (IntOp.addi 7#32) (col_read (0 : Fin 2) T _ _ k)
      show Scalar.select (IntOp.cmpi .slt (shift7a T (ix1 k)) 0#32) (IntOp.addi (shift7a T (ix1 k)) 1038#32)
        (shift7a T (ix1 k)) = _
      rw [e1]; rfl
    | ⟨1, _⟩ =>
      refine (cat_read1 _ _ _ k).trans ((bcol_read (by decide) _ _ k).trans ?_)
      have e1 : shift7b T (ix1 k) = IntOp.addi 7#32 (T (ix2 k (1 : Fin 2))) :=
        congrArg (IntOp.addi 7#32) (col_read (1 : Fin 2) T _ _ k)
      show Scalar.select (IntOp.cmpi .slt (shift7b T (ix1 k)) 0#32) (IntOp.addi (shift7b T (ix1 k)) 1038#32)
        (shift7b T (ix1 k)) = _
      rw [e1]; rfl
  rw [e]; rfl

/-- Copy k of the shifted images at (i, j): the specification's padded image at the k-th offset from (i, j). -/
theorem shifted7_at (x : (⟨S1024x1024, .f32⟩ : BufTy).Contents (Elt Ideal)) (k : Fin 40) (i j : Fin 1024) :
    shifted7 tab7 x (ix3 k i j) = Cert.Ring.pad19 x
      (startOf 7#32 1038#32 14 (tab7 (F := Ideal) (ix2 k (0 : Fin 2))) + i.val + 12)
      (startOf 7#32 1038#32 14 (tab7 (F := Ideal) (ix2 k (1 : Fin 2))) + j.val + 12) := by
  unfold shifted7
  refine (gather_win_apply (P := 1038) (n := 40) (by decide) _ (padded7 x) (starts7 tab7) k i j).trans ?_
  unfold padded7
  refine (pad_read 7 1038 (by decide) x _ _ _ rfl _ _).trans ?_
  show Cert.Ring.pad19 x (min (starts7 tab7 (ix2 k (0 : Fin 2))).toInt.toNat 14 + i.val + 12)
    (min (starts7 tab7 (ix2 k (1 : Fin 2))).toInt.toNat 14 + j.val + 12) = _
  rw [starts7_at, starts7_at]

/-- The response of radius 7 at (i, j): 1 − the least |centre − neighbour| over the ring. -/
theorem geneo7_at (x : (⟨S1024x1024, .f32⟩ : BufTy).Contents (Elt Ideal)) (i j : Fin 1024) :
    geneo7 (F := Ideal) tab7 x (ix2 i j)
      = Cert.Ring.one - Cert.Ring.ringMin (x (ix2 i j)) (Cert.Ring.nbrs x i.val j.val Cert.Ring.K7) := by
  unfold geneo7
  refine (reduce_read _ _ _ (by decide) _ word_bot i j).trans ?_
  have hs : (fun k : Fin 40 => score7 tab7 x (ix3 k i j)) = fun k : Fin 40 =>
      Cert.Ring.one - Cert.Ring.absE (x (ix2 i j) - Cert.Ring.pad19 x
        (startOf 7#32 1038#32 14 (tab7 (F := Ideal) (ix2 k (0 : Fin 2))) + i.val + 12)
        (startOf 7#32 1038#32 14 (tab7 (F := Ideal) (ix2 k (1 : Fin 2))) + j.val + 12)) := by
    funext k
    unfold score7
    refine (score_at _ _ _ _).trans ?_
    rw [bimg_read x _ _ k i j, shifted7_at x k i j]
    rfl
  rw [hs]
  exact ring_fold (x (ix2 i j)) (Cert.Ring.pad19 x) i.val j.val 12 _ _ Cert.Ring.K7 tab7_K

/-! ### Radius 11: 72 offsets, the image padded to 1046 × 1046 -/

/-- The offset table's rows, as start coordinates shifted to the image padded by 19, are the specification's offsets. -/
theorem tab11_K : (List.ofFn fun k : Fin 72 =>
      (startOf 11#32 1046#32 22 (tab11 (F := Ideal) (ix2 k (0 : Fin 2))) + 8,
       startOf 11#32 1046#32 22 (tab11 (F := Ideal) (ix2 k (1 : Fin 2))) + 8)) = Cert.Ring.K11 := by
  decide

/-- Row k of the start table, clamped: the start coordinate of the offset table's word. -/
theorem starts11_at (T : (⟨S72x2, .i32⟩ : BufTy).Contents (Elt Ideal)) (k : Fin 72) (c : Fin 2) :
    min (starts11 T (ix2 k c)).toInt.toNat 22 = startOf 11#32 1046#32 22 (T (ix2 k c)) := by
  have e : starts11 T (ix2 k c)
      = Scalar.select (IntOp.cmpi .slt (IntOp.addi 11#32 (T (ix2 k c))) 0#32)
          (IntOp.addi (IntOp.addi 11#32 (T (ix2 k c))) 1046#32) (IntOp.addi 11#32 (T (ix2 k c))) := by
    unfold starts11
    match c with
    | ⟨0, _⟩ =>
      refine (cat_read0 _ _ _ k).trans ((bcol_read (by decide) _ _ k).trans ?_)
      have e1 : shift11a T (ix1 k) = IntOp.addi 11#32 (T (ix2 k (0 : Fin 2))) :=
        congrArg (IntOp.addi 11#32) (col_read (0 : Fin 2) T _ _ k)
      show Scalar.select (IntOp.cmpi .slt (shift11a T (ix1 k)) 0#32) (IntOp.addi (shift11a T (ix1 k)) 1046#32)
        (shift11a T (ix1 k)) = _
      rw [e1]; rfl
    | ⟨1, _⟩ =>
      refine (cat_read1 _ _ _ k).trans ((bcol_read (by decide) _ _ k).trans ?_)
      have e1 : shift11b T (ix1 k) = IntOp.addi 11#32 (T (ix2 k (1 : Fin 2))) :=
        congrArg (IntOp.addi 11#32) (col_read (1 : Fin 2) T _ _ k)
      show Scalar.select (IntOp.cmpi .slt (shift11b T (ix1 k)) 0#32) (IntOp.addi (shift11b T (ix1 k)) 1046#32)
        (shift11b T (ix1 k)) = _
      rw [e1]; rfl
  rw [e]; rfl

/-- Copy k of the shifted images at (i, j): the specification's padded image at the k-th offset from (i, j). -/
theorem shifted11_at (x : (⟨S1024x1024, .f32⟩ : BufTy).Contents (Elt Ideal)) (k : Fin 72) (i j : Fin 1024) :
    shifted11 tab11 x (ix3 k i j) = Cert.Ring.pad19 x
      (startOf 11#32 1046#32 22 (tab11 (F := Ideal) (ix2 k (0 : Fin 2))) + i.val + 8)
      (startOf 11#32 1046#32 22 (tab11 (F := Ideal) (ix2 k (1 : Fin 2))) + j.val + 8) := by
  unfold shifted11
  refine (gather_win_apply (P := 1046) (n := 72) (by decide) _ (padded11 x) (starts11 tab11) k i j).trans ?_
  unfold padded11
  refine (pad_read 11 1046 (by decide) x _ _ _ rfl _ _).trans ?_
  show Cert.Ring.pad19 x (min (starts11 tab11 (ix2 k (0 : Fin 2))).toInt.toNat 22 + i.val + 8)
    (min (starts11 tab11 (ix2 k (1 : Fin 2))).toInt.toNat 22 + j.val + 8) = _
  rw [starts11_at, starts11_at]

/-- The response of radius 11 at (i, j): 1 − the least |centre − neighbour| over the ring. -/
theorem geneo11_at (x : (⟨S1024x1024, .f32⟩ : BufTy).Contents (Elt Ideal)) (i j : Fin 1024) :
    geneo11 (F := Ideal) tab11 x (ix2 i j)
      = Cert.Ring.one - Cert.Ring.ringMin (x (ix2 i j)) (Cert.Ring.nbrs x i.val j.val Cert.Ring.K11) := by
  unfold geneo11
  refine (reduce_read _ _ _ (by decide) _ word_bot i j).trans ?_
  have hs : (fun k : Fin 72 => score11 tab11 x (ix3 k i j)) = fun k : Fin 72 =>
      Cert.Ring.one - Cert.Ring.absE (x (ix2 i j) - Cert.Ring.pad19 x
        (startOf 11#32 1046#32 22 (tab11 (F := Ideal) (ix2 k (0 : Fin 2))) + i.val + 8)
        (startOf 11#32 1046#32 22 (tab11 (F := Ideal) (ix2 k (1 : Fin 2))) + j.val + 8)) := by
    funext k
    unfold score11
    refine (score_at _ _ _ _).trans ?_
    rw [bimg_read x _ _ k i j, shifted11_at x k i j]
    rfl
  rw [hs]
  exact ring_fold (x (ix2 i j)) (Cert.Ring.pad19 x) i.val j.val 8 _ _ Cert.Ring.K11 tab11_K

/-! ### Radius 15: 84 offsets, the image padded to 1054 × 1054 -/

/-- The offset table's rows, as start coordinates shifted to the image padded by 19, are the specification's offsets. -/
theorem tab15_K : (List.ofFn fun k : Fin 84 =>
      (startOf 15#32 1054#32 30 (tab15 (F := Ideal) (ix2 k (0 : Fin 2))) + 4,
       startOf 15#32 1054#32 30 (tab15 (F := Ideal) (ix2 k (1 : Fin 2))) + 4)) = Cert.Ring.K15 := by
  decide

/-- Row k of the start table, clamped: the start coordinate of the offset table's word. -/
theorem starts15_at (T : (⟨S84x2, .i32⟩ : BufTy).Contents (Elt Ideal)) (k : Fin 84) (c : Fin 2) :
    min (starts15 T (ix2 k c)).toInt.toNat 30 = startOf 15#32 1054#32 30 (T (ix2 k c)) := by
  have e : starts15 T (ix2 k c)
      = Scalar.select (IntOp.cmpi .slt (IntOp.addi 15#32 (T (ix2 k c))) 0#32)
          (IntOp.addi (IntOp.addi 15#32 (T (ix2 k c))) 1054#32) (IntOp.addi 15#32 (T (ix2 k c))) := by
    unfold starts15
    match c with
    | ⟨0, _⟩ =>
      refine (cat_read0 _ _ _ k).trans ((bcol_read (by decide) _ _ k).trans ?_)
      have e1 : shift15a T (ix1 k) = IntOp.addi 15#32 (T (ix2 k (0 : Fin 2))) :=
        congrArg (IntOp.addi 15#32) (col_read (0 : Fin 2) T _ _ k)
      show Scalar.select (IntOp.cmpi .slt (shift15a T (ix1 k)) 0#32) (IntOp.addi (shift15a T (ix1 k)) 1054#32)
        (shift15a T (ix1 k)) = _
      rw [e1]; rfl
    | ⟨1, _⟩ =>
      refine (cat_read1 _ _ _ k).trans ((bcol_read (by decide) _ _ k).trans ?_)
      have e1 : shift15b T (ix1 k) = IntOp.addi 15#32 (T (ix2 k (1 : Fin 2))) :=
        congrArg (IntOp.addi 15#32) (col_read (1 : Fin 2) T _ _ k)
      show Scalar.select (IntOp.cmpi .slt (shift15b T (ix1 k)) 0#32) (IntOp.addi (shift15b T (ix1 k)) 1054#32)
        (shift15b T (ix1 k)) = _
      rw [e1]; rfl
  rw [e]; rfl

/-- Copy k of the shifted images at (i, j): the specification's padded image at the k-th offset from (i, j). -/
theorem shifted15_at (x : (⟨S1024x1024, .f32⟩ : BufTy).Contents (Elt Ideal)) (k : Fin 84) (i j : Fin 1024) :
    shifted15 tab15 x (ix3 k i j) = Cert.Ring.pad19 x
      (startOf 15#32 1054#32 30 (tab15 (F := Ideal) (ix2 k (0 : Fin 2))) + i.val + 4)
      (startOf 15#32 1054#32 30 (tab15 (F := Ideal) (ix2 k (1 : Fin 2))) + j.val + 4) := by
  unfold shifted15
  refine (gather_win_apply (P := 1054) (n := 84) (by decide) _ (padded15 x) (starts15 tab15) k i j).trans ?_
  unfold padded15
  refine (pad_read 15 1054 (by decide) x _ _ _ rfl _ _).trans ?_
  show Cert.Ring.pad19 x (min (starts15 tab15 (ix2 k (0 : Fin 2))).toInt.toNat 30 + i.val + 4)
    (min (starts15 tab15 (ix2 k (1 : Fin 2))).toInt.toNat 30 + j.val + 4) = _
  rw [starts15_at, starts15_at]

/-- The response of radius 15 at (i, j): 1 − the least |centre − neighbour| over the ring. -/
theorem geneo15_at (x : (⟨S1024x1024, .f32⟩ : BufTy).Contents (Elt Ideal)) (i j : Fin 1024) :
    geneo15 (F := Ideal) tab15 x (ix2 i j)
      = Cert.Ring.one - Cert.Ring.ringMin (x (ix2 i j)) (Cert.Ring.nbrs x i.val j.val Cert.Ring.K15) := by
  unfold geneo15
  refine (reduce_read _ _ _ (by decide) _ word_bot i j).trans ?_
  have hs : (fun k : Fin 84 => score15 tab15 x (ix3 k i j)) = fun k : Fin 84 =>
      Cert.Ring.one - Cert.Ring.absE (x (ix2 i j) - Cert.Ring.pad19 x
        (startOf 15#32 1054#32 30 (tab15 (F := Ideal) (ix2 k (0 : Fin 2))) + i.val + 4)
        (startOf 15#32 1054#32 30 (tab15 (F := Ideal) (ix2 k (1 : Fin 2))) + j.val + 4)) := by
    funext k
    unfold score15
    refine (score_at _ _ _ _).trans ?_
    rw [bimg_read x _ _ k i j, shifted15_at x k i j]
    rfl
  rw [hs]
  exact ring_fold (x (ix2 i j)) (Cert.Ring.pad19 x) i.val j.val 4 _ _ Cert.Ring.K15 tab15_K

/-! ### Radius 19: 116 offsets, the image padded to 1062 × 1062 -/

/-- The offset table's rows, as start coordinates shifted to the image padded by 19, are the specification's offsets. -/
theorem tab19_K : (List.ofFn fun k : Fin 116 =>
      (startOf 19#32 1062#32 38 (tab19 (F := Ideal) (ix2 k (0 : Fin 2))) + 0,
       startOf 19#32 1062#32 38 (tab19 (F := Ideal) (ix2 k (1 : Fin 2))) + 0)) = Cert.Ring.K19 := by
  decide

/-- Row k of the start table, clamped: the start coordinate of the offset table's word. -/
theorem starts19_at (T : (⟨S116x2, .i32⟩ : BufTy).Contents (Elt Ideal)) (k : Fin 116) (c : Fin 2) :
    min (starts19 T (ix2 k c)).toInt.toNat 38 = startOf 19#32 1062#32 38 (T (ix2 k c)) := by
  have e : starts19 T (ix2 k c)
      = Scalar.select (IntOp.cmpi .slt (IntOp.addi 19#32 (T (ix2 k c))) 0#32)
          (IntOp.addi (IntOp.addi 19#32 (T (ix2 k c))) 1062#32) (IntOp.addi 19#32 (T (ix2 k c))) := by
    unfold starts19
    match c with
    | ⟨0, _⟩ =>
      refine (cat_read0 _ _ _ k).trans ((bcol_read (by decide) _ _ k).trans ?_)
      have e1 : shift19a T (ix1 k) = IntOp.addi 19#32 (T (ix2 k (0 : Fin 2))) :=
        congrArg (IntOp.addi 19#32) (col_read (0 : Fin 2) T _ _ k)
      show Scalar.select (IntOp.cmpi .slt (shift19a T (ix1 k)) 0#32) (IntOp.addi (shift19a T (ix1 k)) 1062#32)
        (shift19a T (ix1 k)) = _
      rw [e1]; rfl
    | ⟨1, _⟩ =>
      refine (cat_read1 _ _ _ k).trans ((bcol_read (by decide) _ _ k).trans ?_)
      have e1 : shift19b T (ix1 k) = IntOp.addi 19#32 (T (ix2 k (1 : Fin 2))) :=
        congrArg (IntOp.addi 19#32) (col_read (1 : Fin 2) T _ _ k)
      show Scalar.select (IntOp.cmpi .slt (shift19b T (ix1 k)) 0#32) (IntOp.addi (shift19b T (ix1 k)) 1062#32)
        (shift19b T (ix1 k)) = _
      rw [e1]; rfl
  rw [e]; rfl

/-- Copy k of the shifted images at (i, j): the specification's padded image at the k-th offset from (i, j). -/
theorem shifted19_at (x : (⟨S1024x1024, .f32⟩ : BufTy).Contents (Elt Ideal)) (k : Fin 116) (i j : Fin 1024) :
    shifted19 tab19 x (ix3 k i j) = Cert.Ring.pad19 x
      (startOf 19#32 1062#32 38 (tab19 (F := Ideal) (ix2 k (0 : Fin 2))) + i.val + 0)
      (startOf 19#32 1062#32 38 (tab19 (F := Ideal) (ix2 k (1 : Fin 2))) + j.val + 0) := by
  unfold shifted19
  refine (gather_win_apply (P := 1062) (n := 116) (by decide) _ (padded19 x) (starts19 tab19) k i j).trans ?_
  unfold padded19
  refine (pad_read 19 1062 (by decide) x _ _ _ rfl _ _).trans ?_
  show Cert.Ring.pad19 x (min (starts19 tab19 (ix2 k (0 : Fin 2))).toInt.toNat 38 + i.val + 0)
    (min (starts19 tab19 (ix2 k (1 : Fin 2))).toInt.toNat 38 + j.val + 0) = _
  rw [starts19_at, starts19_at]

/-- The response of radius 19 at (i, j): 1 − the least |centre − neighbour| over the ring. -/
theorem geneo19_at (x : (⟨S1024x1024, .f32⟩ : BufTy).Contents (Elt Ideal)) (i j : Fin 1024) :
    geneo19 (F := Ideal) tab19 x (ix2 i j)
      = Cert.Ring.one - Cert.Ring.ringMin (x (ix2 i j)) (Cert.Ring.nbrs x i.val j.val Cert.Ring.K19) := by
  unfold geneo19
  refine (reduce_read _ _ _ (by decide) _ word_bot i j).trans ?_
  have hs : (fun k : Fin 116 => score19 tab19 x (ix3 k i j)) = fun k : Fin 116 =>
      Cert.Ring.one - Cert.Ring.absE (x (ix2 i j) - Cert.Ring.pad19 x
        (startOf 19#32 1062#32 38 (tab19 (F := Ideal) (ix2 k (0 : Fin 2))) + i.val + 0)
        (startOf 19#32 1062#32 38 (tab19 (F := Ideal) (ix2 k (1 : Fin 2))) + j.val + 0)) := by
    funext k
    unfold score19
    refine (score_at _ _ _ _).trans ?_
    rw [bimg_read x _ _ k i j, shifted19_at x k i j]
    rfl
  rw [hs]
  exact ring_fold (x (ix2 i j)) (Cert.Ring.pad19 x) i.val j.val 0 _ _ Cert.Ring.K19 tab19_K

/-! ## The layer -/

/-- The layer at an index, in terms of the four responses and the spread weights there. -/
theorem layerOn_at (T7 : (⟨S40x2, .i32⟩ : BufTy).Contents (Elt Ideal)) (T11 : (⟨S72x2, .i32⟩ : BufTy).Contents (Elt Ideal))
    (T15 : (⟨S84x2, .i32⟩ : BufTy).Contents (Elt Ideal)) (T19 : (⟨S116x2, .i32⟩ : BufTy).Contents (Elt Ideal))
    (x : (⟨S1024x1024, .f32⟩ : BufTy).Contents (Elt Ideal)) (p1 p2 p3 p4 : (⟨S1, .f32⟩ : BufTy).Contents (Elt Ideal))
    (idx : S1024x1024.Idx) :
    (layerOn (F := Ideal) T7 T11 T15 T19 x p1 p2 p3 p4 idx : EReal)
      = Ideal.div
          ((((spread (F := Ideal) p1 idx : EReal) * (geneo7 (F := Ideal) T7 x idx : EReal)
              + (spread (F := Ideal) p2 idx : EReal) * (geneo11 (F := Ideal) T11 x idx : EReal))
            + (spread (F := Ideal) p3 idx : EReal) * (geneo15 (F := Ideal) T15 x idx : EReal))
          + (spread (F := Ideal) p4 idx : EReal) * (geneo19 (F := Ideal) T19 x idx : EReal))
          (spread (F := Ideal) (addf (F := Ideal) (s := S1) (φ := .f32) (addf (F := Ideal) (s := S1) (φ := .f32)
            (addf (F := Ideal) (s := S1) (φ := .f32) p1 p2) p3) p4) idx : EReal) := rfl

/-- One layer of the reference is the specification's layer. -/
theorem layer_eq (x : (⟨S1024x1024, .f32⟩ : BufTy).Contents (Elt Ideal)) (p1 p2 p3 p4 : (⟨S1, .f32⟩ : BufTy).Contents (Elt Ideal)) :
    Cert.ReferenceIdeal.RefRun.layer (F := Ideal) x p1 p2 p3 p4
      = Cert.Ring.layer x (p1 (ValueIdx.ix1 0)) (p2 (ValueIdx.ix1 0)) (p3 (ValueIdx.ix1 0)) (p4 (ValueIdx.ix1 0)) := by
  funext idx
  obtain ⟨i, j, rfl⟩ : ∃ (i j : Fin 1024), idx = ix2 i j := ⟨idx 0, idx 1, eq_ix2 idx⟩
  unfold layer
  refine (layerOn_at _ _ _ _ x p1 p2 p3 p4 (ix2 i j)).trans ?_
  rw [spread_read, spread_read, spread_read, spread_read, spread_read,
    geneo7_at, geneo11_at, geneo15_at, geneo19_at]
  rfl

end Cert.ReferenceIdeal.RefVal

end
-- ==== Proof.lean ====
/-
  The certificate's claim for the two-layer ring operator.

  Both kernel programs (the word-level one and its idealization) are the same text: host operations that pad the
  image by 19 and cut it in 32 overlapping row tiles, then a row-tiled pallas_call per layer.  Their frames come from
  one proof, written for any float instance: each region's body reads its windows and writes its one output tile,
  and no host operation or region writes an argument array.  The idealization rewrote nothing, so it preserves the
  program trivially.  At the ideal instance the kernel program's result is the two-layer specification (each output
  pixel: for each radius the least absolute difference to the ring's neighbours, out-of-image neighbours read as
  the constant; the weighted sum of 1 - minimum, over the sum of the weights), and so is the reference's, which
  computes each radius' term as a maximum of 1 - difference over the gathered neighbours: on the extended reals
  v ↦ 1 - v reverses the order, so the maximum of 1 - d_k is 1 minus the minimum of the d_k.
-/
import proofs.«126001_j6975026889201_2_alg».proof.Defs
import proofs.«126001_j6975026889201_2_alg».proof.Proof.Gen.Kernel
import proofs.«126001_j6975026889201_2_alg».proof.Proof.Gen.KernelIdeal
import proofs.«126001_j6975026889201_2_alg».proof.Proof.Gen.ReferenceIdeal
import proofs.«126001_j6975026889201_2_alg».proof.Proof.Gen.Pre_finite_inputs
import proofs.«126001_j6975026889201_2_alg».proof.Proof.KB.Run
import proofs.«126001_j6975026889201_2_alg».proof.Proof.KI.Final
import proofs.«126001_j6975026889201_2_alg».proof.Proof.Ref.Run
import proofs.«126001_j6975026889201_2_alg».proof.Proof.Ref.LayerVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.RefRun.run m ρ)

/-- Both idealized programs end with the two-layer specification of the (agreeing) argument arrays. -/
theorem algebraic : Cert.algebraic_KernelIdeal_ReferenceIdeal := by
  intro m ρ m' ρ' _ hagree
  refine ⟨fun c => Cert.KernelIdeal.Hand.spec2 m c, Cert.KernelIdeal.Hand.run_value m ρ, ?_⟩
  refine (θ_run Cert.ReferenceIdeal.defs _ _).mono (fun _ h c => ⟨(h c).1.trans ?_, (h c).2⟩)
    (Cert.ReferenceIdeal.RefRun.run m' ρ')
  unfold Cert.ReferenceIdeal.RefRun.res
  rw [Cert.ReferenceIdeal.RefVal.layer_eq, Cert.ReferenceIdeal.RefVal.layer_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
